-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 64]⟩ ⟨2, ![8192, 64]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 64]⟩ ⟨2, ![8192, 64]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 64]⟩ ⟨2, ![8192, 64]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 64]⟩ ⟨2, ![8192, 64]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x64 : Shape := ⟨2, ![256, 64]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel

variable [Facts]

def fn {F : FTy → Type} [FloatOps F] (main_arg0 : FVec F S256x64 .f32) (main_arg1 : FVec F S256x64 .f32) (main_arg2 : FVec F S256x64 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Pre_finite_inputs_ReferenceIdeal.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) (main_arg2 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  main_v13
-- ==== Kernel.lean ====
abbrev S256x64 : Shape := ⟨2, ![256, 64]⟩
abbrev S8x4x2x256x64 : Shape := ⟨5, ![8, 4, 2, 256, 64]⟩
abbrev S4 : Shape := ⟨1, ![4]⟩
abbrev S8 : Shape := ⟨1, ![8]⟩
abbrev S_ : Shape := ⟨0, ![]⟩
abbrev S1x1x1x256x64 : Shape := ⟨5, ![1, 1, 1, 256, 64]⟩
abbrev S1 : Shape := ⟨1, ![1]⟩
abbrev S1x1x2x256x64 : Shape := ⟨5, ![1, 1, 2, 256, 64]⟩
abbrev S2x256x64 : Shape := ⟨3, ![2, 256, 64]⟩
abbrev S256x256 : Shape := ⟨2, ![256, 256]⟩
abbrev S256 : Shape := ⟨1, ![256]⟩
abbrev S256x1 : Shape := ⟨2, ![256, 1]⟩
abbrev S1x4x2x256x64 : Shape := ⟨5, ![1, 4, 2, 256, 64]⟩
abbrev S4x2x256x64 : Shape := ⟨4, ![4, 2, 256, 64]⟩
abbrev S1x4x1x256x64 : Shape := ⟨5, ![1, 4, 1, 256, 64]⟩
abbrev S4x256x64 : Shape := ⟨3, ![4, 256, 64]⟩
abbrev S1024x64 : Shape := ⟨2, ![1024, 64]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256x64, .f32⟩
  | .hbm, ⟨3, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S8x4x2x256x64, .bf16⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  { ofTc nBuf bufTy 1 28 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v15 : BitVec 32 := Scalar.addi v2 c8_i32_4
  let c32_i32_5 : BitVec 32 := 32#32
  let c0_i32_6 : BitVec 32 := 0#32
  let v16 : BitVec 1 := Scalar.cmpi .eq c32_i32_5 c0_i32_6
  let c1_i32_7 : BitVec 32 := 1#32
  let v17 : BitVec 32 := Scalar.select v16 c1_i32_7 c32_i32_5
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let c1_i32_12 : BitVec 32 := 1#32
  let v26 : BitVec 32 := Scalar.muli v25 c1_i32_12
  let v27 : BitVec 32 := Scalar.addi c0_i32_13 v26
  v27.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v28 : BitVec 32 := Scalar.addi v2 c16_i32
  let c32_i32_14 : BitVec 32 := 32#32
  let c0_i32_15 : BitVec 32 := 0#32
  let v29 : BitVec 1 := Scalar.cmpi .eq c32_i32_14 c0_i32_15
  let c1_i32_16 : BitVec 32 := 1#32
  let v30 : BitVec 32 := Scalar.select v29 c1_i32_16 c32_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_21 : BitVec 32 := 1#32
  let v39 : BitVec 32 := Scalar.muli v38 c1_i32_21
  let v40 : BitVec 32 := Scalar.addi c0_i32_22 v39
  v40.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v41 : BitVec 32 := Scalar.addi v2 c24_i32
  let c32_i32_23 : BitVec 32 := 32#32
  let c0_i32_24 : BitVec 32 := 0#32
  let v42 : BitVec 1 := Scalar.cmpi .eq c32_i32_23 c0_i32_24
  let c1_i32_25 : BitVec 32 := 1#32
  let v43 : BitVec 32 := Scalar.select v42 c1_i32_25 c32_i32_23
  let v44 : BitVec 32 := Scalar.remsi v41 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c1_i32_30 : BitVec 32 := 1#32
  let v52 : BitVec 32 := Scalar.muli v51 c1_i32_30
  let v53 : BitVec 32 := Scalar.addi c0_i32_31 v52
  v53.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_32 : BitVec 32 := 1#32
  let v54 : BitVec 32 := Scalar.addi v12 c1_i32_32
  let c8_i32_33 : BitVec 32 := 8#32
  let c0_i32_34 : BitVec 32 := 0#32
  let v55 : BitVec 1 := Scalar.cmpi .eq c8_i32_33 c0_i32_34
  let c1_i32_35 : BitVec 32 := 1#32
  let v56 : BitVec 32 := Scalar.select v55 c1_i32_35 c8_i32_33
  let v57 : BitVec 32 := Scalar.remsi v54 v56
  let c0_i32_37 : BitVec 32 := 0#32
  let v59 : BitVec 1 := Scalar.cmpi .slt v57 c0_i32_37
  let c0_i32_38 : BitVec 32 := 0#32
  let v60 : BitVec 1 := Scalar.cmpi .slt v56 c0_i32_38
  let v61 : BitVec 1 := Scalar.xori v59 v60
  let c0_i32_36 : BitVec 32 := 0#32
  let v58 : BitVec 1 := Scalar.cmpi .ne v57 c0_i32_36
  let v62 : BitVec 1 := Scalar.andi v61 v58
  let v63 : BitVec 32 := Scalar.addi v57 v56
  let v64 : BitVec 32 := Scalar.select v62 v63 v57
  let v65 : BitVec 32 := Scalar.addi v13 v64
  let c1_i32_40 : BitVec 32 := 1#32
  let v66 : BitVec 32 := Scalar.muli v65 c1_i32_40
  let v67 : BitVec 32 := Scalar.addi c0_i32_41 v66
  v67.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c2_i32 : BitVec 32 := 2#32
  let v68 : BitVec 32 := Scalar.addi v12 c2_i32
  let c8_i32_42 : BitVec 32 := 8#32
  let c0_i32_43 : BitVec 32 := 0#32
  let v69 : BitVec 1 := Scalar.cmpi .eq c8_i32_42 c0_i32_43
  let c1_i32_44 : BitVec 32 := 1#32
  let v70 : BitVec 32 := Scalar.select v69 c1_i32_44 c8_i32_42
  let v71 : BitVec 32 := Scalar.remsi v68 v70
  let c0_i32_46 : BitVec 32 := 0#32
  let v73 : BitVec 1 := Scalar.cmpi .slt v71 c0_i32_46
  let c0_i32_47 : BitVec 32 := 0#32
  let v74 : BitVec 1 := Scalar.cmpi .slt v70 c0_i32_47
  let v75 : BitVec 1 := Scalar.xori v73 v74
  let c0_i32_45 : BitVec 32 := 0#32
  let v72 : BitVec 1 := Scalar.cmpi .ne v71 c0_i32_45
  let v76 : BitVec 1 := Scalar.andi v75 v72
  let v77 : BitVec 32 := Scalar.addi v71 v70
  let v78 : BitVec 32 := Scalar.select v76 v77 v71
  let v79 : BitVec 32 := Scalar.addi v13 v78
  let c1_i32_49 : BitVec 32 := 1#32
  let v80 : BitVec 32 := Scalar.muli v79 c1_i32_49
  let v81 : BitVec 32 := Scalar.addi c0_i32_50 v80
  v81.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v82 : BitVec 32 := Scalar.addi v12 c3_i32
  let c8_i32_51 : BitVec 32 := 8#32
  let c0_i32_52 : BitVec 32 := 0#32
  let v83 : BitVec 1 := Scalar.cmpi .eq c8_i32_51 c0_i32_52
  let c1_i32_53 : BitVec 32 := 1#32
  let v84 : BitVec 32 := Scalar.select v83 c1_i32_53 c8_i32_51
  let v85 : BitVec 32 := Scalar.remsi v82 v84
  let c0_i32_55 : BitVec 32 := 0#32
  let v87 : BitVec 1 := Scalar.cmpi .slt v85 c0_i32_55
  let c0_i32_56 : BitVec 32 := 0#32
  let v88 : BitVec 1 := Scalar.cmpi .slt v84 c0_i32_56
  let v89 : BitVec 1 := Scalar.xori v87 v88
  let c0_i32_54 : BitVec 32 := 0#32
  let v86 : BitVec 1 := Scalar.cmpi .ne v85 c0_i32_54
  let v90 : BitVec 1 := Scalar.andi v89 v86
  let v91 : BitVec 32 := Scalar.addi v85 v84
  let v92 : BitVec 32 := Scalar.select v90 v91 v85
  let v93 : BitVec 32 := Scalar.addi v13 v92
  let c1_i32_58 : BitVec 32 := 1#32
  let v94 : BitVec 32 := Scalar.muli v93 c1_i32_58
  let v95 : BitVec 32 := Scalar.addi c0_i32_59 v94
  v95.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32 : BitVec 32 := 4#32
  let v96 : BitVec 32 := Scalar.addi v12 c4_i32
  let c8_i32_60 : BitVec 32 := 8#32
  let c0_i32_61 : BitVec 32 := 0#32
  let v97 : BitVec 1 := Scalar.cmpi .eq c8_i32_60 c0_i32_61
  let c1_i32_62 : BitVec 32 := 1#32
  let v98 : BitVec 32 := Scalar.select v97 c1_i32_62 c8_i32_60
  let v99 : BitVec 32 := Scalar.remsi v96 v98
  let c0_i32_64 : BitVec 32 := 0#32
  let v101 : BitVec 1 := Scalar.cmpi .slt v99 c0_i32_64
  let c0_i32_65 : BitVec 32 := 0#32
  let v102 : BitVec 1 := Scalar.cmpi .slt v98 c0_i32_65
  let v103 : BitVec 1 := Scalar.xori v101 v102
  let c0_i32_63 : BitVec 32 := 0#32
  let v100 : BitVec 1 := Scalar.cmpi .ne v99 c0_i32_63
  let v104 : BitVec 1 := Scalar.andi v103 v100
  let v105 : BitVec 32 := Scalar.addi v99 v98
  let v106 : BitVec 32 := Scalar.select v104 v105 v99
  let v107 : BitVec 32 := Scalar.addi v13 v106
  let c1_i32_67 : BitVec 32 := 1#32
  let v108 : BitVec 32 := Scalar.muli v107 c1_i32_67
  let v109 : BitVec 32 := Scalar.addi c0_i32_68 v108
  v109.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c5_i32 : BitVec 32 := 5#32
  let v110 : BitVec 32 := Scalar.addi v12 c5_i32
  let c8_i32_69 : BitVec 32 := 8#32
  let c0_i32_70 : BitVec 32 := 0#32
  let v111 : BitVec 1 := Scalar.cmpi .eq c8_i32_69 c0_i32_70
  let c1_i32_71 : BitVec 32 := 1#32
  let v112 : BitVec 32 := Scalar.select v111 c1_i32_71 c8_i32_69
  let v113 : BitVec 32 := Scalar.remsi v110 v112
  let c0_i32_73 : BitVec 32 := 0#32
  let v115 : BitVec 1 := Scalar.cmpi .slt v113 c0_i32_73
  let c0_i32_74 : BitVec 32 := 0#32
  let v116 : BitVec 1 := Scalar.cmpi .slt v112 c0_i32_74
  let v117 : BitVec 1 := Scalar.xori v115 v116
  let c0_i32_72 : BitVec 32 := 0#32
  let v114 : BitVec 1 := Scalar.cmpi .ne v113 c0_i32_72
  let v118 : BitVec 1 := Scalar.andi v117 v114
  let v119 : BitVec 32 := Scalar.addi v113 v112
  let v120 : BitVec 32 := Scalar.select v118 v119 v113
  let v121 : BitVec 32 := Scalar.addi v13 v120
  let c1_i32_76 : BitVec 32 := 1#32
  let v122 : BitVec 32 := Scalar.muli v121 c1_i32_76
  let v123 : BitVec 32 := Scalar.addi c0_i32_77 v122
  v123.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c6_i32 : BitVec 32 := 6#32
  let v124 : BitVec 32 := Scalar.addi v12 c6_i32
  let c8_i32_78 : BitVec 32 := 8#32
  let c0_i32_79 : BitVec 32 := 0#32
  let v125 : BitVec 1 := Scalar.cmpi .eq c8_i32_78 c0_i32_79
  let c1_i32_80 : BitVec 32 := 1#32
  let v126 : BitVec 32 := Scalar.select v125 c1_i32_80 c8_i32_78
  let v127 : BitVec 32 := Scalar.remsi v124 v126
  let c0_i32_82 : BitVec 32 := 0#32
  let v129 : BitVec 1 := Scalar.cmpi .slt v127 c0_i32_82
  let c0_i32_83 : BitVec 32 := 0#32
  let v130 : BitVec 1 := Scalar.cmpi .slt v126 c0_i32_83
  let v131 : BitVec 1 := Scalar.xori v129 v130
  let c0_i32_81 : BitVec 32 := 0#32
  let v128 : BitVec 1 := Scalar.cmpi .ne v127 c0_i32_81
  let v132 : BitVec 1 := Scalar.andi v131 v128
  let v133 : BitVec 32 := Scalar.addi v127 v126
  let v134 : BitVec 32 := Scalar.select v132 v133 v127
  let v135 : BitVec 32 := Scalar.addi v13 v134
  let c1_i32_85 : BitVec 32 := 1#32
  let v136 : BitVec 32 := Scalar.muli v135 c1_i32_85
  let v137 : BitVec 32 := Scalar.addi c0_i32_86 v136
  v137.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c7_i32 : BitVec 32 := 7#32
  let v138 : BitVec 32 := Scalar.addi v12 c7_i32
  let c8_i32_87 : BitVec 32 := 8#32
  let c0_i32_88 : BitVec 32 := 0#32
  let v139 : BitVec 1 := Scalar.cmpi .eq c8_i32_87 c0_i32_88
  let c1_i32_89 : BitVec 32 := 1#32
  let v140 : BitVec 32 := Scalar.select v139 c1_i32_89 c8_i32_87
  let v141 : BitVec 32 := Scalar.remsi v138 v140
  let c0_i32_91 : BitVec 32 := 0#32
  let v143 : BitVec 1 := Scalar.cmpi .slt v141 c0_i32_91
  let c0_i32_92 : BitVec 32 := 0#32
  let v144 : BitVec 1 := Scalar.cmpi .slt v140 c0_i32_92
  let v145 : BitVec 1 := Scalar.xori v143 v144
  let c0_i32_90 : BitVec 32 := 0#32
  let v142 : BitVec 1 := Scalar.cmpi .ne v141 c0_i32_90
  let v146 : BitVec 1 := Scalar.andi v145 v142
  let v147 : BitVec 32 := Scalar.addi v141 v140
  let v148 : BitVec 32 := Scalar.select v146 v147 v141
  let v149 : BitVec 32 := Scalar.addi v13 v148
  let c1_i32_94 : BitVec 32 := 1#32
  let v150 : BitVec 32 := Scalar.muli v149 c1_i32_94
  let v151 : BitVec 32 := Scalar.addi c0_i32_95 v150
  v151.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_108 : BitVec 32 := 8#32
  let v164 : BitVec 32 := Scalar.addi v2 c8_i32_108
  let c32_i32_109 : BitVec 32 := 32#32
  let c0_i32_110 : BitVec 32 := 0#32
  let v165 : BitVec 1 := Scalar.cmpi .eq c32_i32_109 c0_i32_110
  let c1_i32_111 : BitVec 32 := 1#32
  let v166 : BitVec 32 := Scalar.select v165 c1_i32_111 c32_i32_109
  let v167 : BitVec 32 := Scalar.remsi v164 v166
  let c0_i32_113 : BitVec 32 := 0#32
  let v169 : BitVec 1 := Scalar.cmpi .slt v167 c0_i32_113
  let c0_i32_114 : BitVec 32 := 0#32
  let v170 : BitVec 1 := Scalar.cmpi .slt v166 c0_i32_114
  let v171 : BitVec 1 := Scalar.xori v169 v170
  let c0_i32_112 : BitVec 32 := 0#32
  let v168 : BitVec 1 := Scalar.cmpi .ne v167 c0_i32_112
  let v172 : BitVec 1 := Scalar.andi v171 v168
  let v173 : BitVec 32 := Scalar.addi v167 v166
  let v174 : BitVec 32 := Scalar.select v172 v173 v167
  let c1_i32_121 : BitVec 32 := 1#32
  let v175 : BitVec 32 := Scalar.muli v174 c1_i32_121
  let v176 : BitVec 32 := Scalar.addi c0_i32_122 v175
  v176.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_129 : BitVec 32 := 16#32
  let v185 : BitVec 32 := Scalar.addi v2 c16_i32_129
  let c32_i32_130 : BitVec 32 := 32#32
  let c0_i32_131 : BitVec 32 := 0#32
  let v186 : BitVec 1 := Scalar.cmpi .eq c32_i32_130 c0_i32_131
  let c1_i32_132 : BitVec 32 := 1#32
  let v187 : BitVec 32 := Scalar.select v186 c1_i32_132 c32_i32_130
  let v188 : BitVec 32 := Scalar.remsi v185 v187
  let c0_i32_134 : BitVec 32 := 0#32
  let v190 : BitVec 1 := Scalar.cmpi .slt v188 c0_i32_134
  let c0_i32_135 : BitVec 32 := 0#32
  let v191 : BitVec 1 := Scalar.cmpi .slt v187 c0_i32_135
  let v192 : BitVec 1 := Scalar.xori v190 v191
  let c0_i32_133 : BitVec 32 := 0#32
  let v189 : BitVec 1 := Scalar.cmpi .ne v188 c0_i32_133
  let v193 : BitVec 1 := Scalar.andi v192 v189
  let v194 : BitVec 32 := Scalar.addi v188 v187
  let v195 : BitVec 32 := Scalar.select v193 v194 v188
  let c1_i32_142 : BitVec 32 := 1#32
  let v196 : BitVec 32 := Scalar.muli v195 c1_i32_142
  let v197 : BitVec 32 := Scalar.addi c0_i32_143 v196
  v197.toNat
def k0_dev13 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_150 : BitVec 32 := 24#32
  let v206 : BitVec 32 := Scalar.addi v2 c24_i32_150
  let c32_i32_151 : BitVec 32 := 32#32
  let c0_i32_152 : BitVec 32 := 0#32
  let v207 : BitVec 1 := Scalar.cmpi .eq c32_i32_151 c0_i32_152
  let c1_i32_153 : BitVec 32 := 1#32
  let v208 : BitVec 32 := Scalar.select v207 c1_i32_153 c32_i32_151
  let v209 : BitVec 32 := Scalar.remsi v206 v208
  let c0_i32_155 : BitVec 32 := 0#32
  let v211 : BitVec 1 := Scalar.cmpi .slt v209 c0_i32_155
  let c0_i32_156 : BitVec 32 := 0#32
  let v212 : BitVec 1 := Scalar.cmpi .slt v208 c0_i32_156
  let v213 : BitVec 1 := Scalar.xori v211 v212
  let c0_i32_154 : BitVec 32 := 0#32
  let v210 : BitVec 1 := Scalar.cmpi .ne v209 c0_i32_154
  let v214 : BitVec 1 := Scalar.andi v213 v210
  let v215 : BitVec 32 := Scalar.addi v209 v208
  let v216 : BitVec 32 := Scalar.select v214 v215 v209
  let c1_i32_163 : BitVec 32 := 1#32
  let v217 : BitVec 32 := Scalar.muli v216 c1_i32_163
  let v218 : BitVec 32 := Scalar.addi c0_i32_164 v217
  v218.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_266 : BitVec 32 := 1#32
  let v341 : BitVec 32 := Scalar.addi v12 c1_i32_266
  let c8_i32_267 : BitVec 32 := 8#32
  let c0_i32_268 : BitVec 32 := 0#32
  let v342 : BitVec 1 := Scalar.cmpi .eq c8_i32_267 c0_i32_268
  let c1_i32_269 : BitVec 32 := 1#32
  let v343 : BitVec 32 := Scalar.select v342 c1_i32_269 c8_i32_267
  let v344 : BitVec 32 := Scalar.remsi v341 v343
  let c0_i32_271 : BitVec 32 := 0#32
  let v346 : BitVec 1 := Scalar.cmpi .slt v344 c0_i32_271
  let c0_i32_272 : BitVec 32 := 0#32
  let v347 : BitVec 1 := Scalar.cmpi .slt v343 c0_i32_272
  let v348 : BitVec 1 := Scalar.xori v346 v347
  let c0_i32_270 : BitVec 32 := 0#32
  let v345 : BitVec 1 := Scalar.cmpi .ne v344 c0_i32_270
  let v349 : BitVec 1 := Scalar.andi v348 v345
  let v350 : BitVec 32 := Scalar.addi v344 v343
  let v351 : BitVec 32 := Scalar.select v349 v350 v344
  let v352 : BitVec 32 := Scalar.addi v13 v351
  let c1_i32_277 : BitVec 32 := 1#32
  let v353 : BitVec 32 := Scalar.muli v352 c1_i32_277
  let v354 : BitVec 32 := Scalar.addi c0_i32_278 v353
  v354.toNat
def k0_dev15 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c2_i32_287 : BitVec 32 := 2#32
  let v363 : BitVec 32 := Scalar.addi v12 c2_i32_287
  let c8_i32_288 : BitVec 32 := 8#32
  let c0_i32_289 : BitVec 32 := 0#32
  let v364 : BitVec 1 := Scalar.cmpi .eq c8_i32_288 c0_i32_289
  let c1_i32_290 : BitVec 32 := 1#32
  let v365 : BitVec 32 := Scalar.select v364 c1_i32_290 c8_i32_288
  let v366 : BitVec 32 := Scalar.remsi v363 v365
  let c0_i32_292 : BitVec 32 := 0#32
  let v368 : BitVec 1 := Scalar.cmpi .slt v366 c0_i32_292
  let c0_i32_293 : BitVec 32 := 0#32
  let v369 : BitVec 1 := Scalar.cmpi .slt v365 c0_i32_293
  let v370 : BitVec 1 := Scalar.xori v368 v369
  let c0_i32_291 : BitVec 32 := 0#32
  let v367 : BitVec 1 := Scalar.cmpi .ne v366 c0_i32_291
  let v371 : BitVec 1 := Scalar.andi v370 v367
  let v372 : BitVec 32 := Scalar.addi v366 v365
  let v373 : BitVec 32 := Scalar.select v371 v372 v366
  let v374 : BitVec 32 := Scalar.addi v13 v373
  let c1_i32_298 : BitVec 32 := 1#32
  let v375 : BitVec 32 := Scalar.muli v374 c1_i32_298
  let v376 : BitVec 32 := Scalar.addi c0_i32_299 v375
  v376.toNat
def k0_dev16 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32_308 : BitVec 32 := 3#32
  let v385 : BitVec 32 := Scalar.addi v12 c3_i32_308
  let c8_i32_309 : BitVec 32 := 8#32
  let c0_i32_310 : BitVec 32 := 0#32
  let v386 : BitVec 1 := Scalar.cmpi .eq c8_i32_309 c0_i32_310
  let c1_i32_311 : BitVec 32 := 1#32
  let v387 : BitVec 32 := Scalar.select v386 c1_i32_311 c8_i32_309
  let v388 : BitVec 32 := Scalar.remsi v385 v387
  let c0_i32_313 : BitVec 32 := 0#32
  let v390 : BitVec 1 := Scalar.cmpi .slt v388 c0_i32_313
  let c0_i32_314 : BitVec 32 := 0#32
  let v391 : BitVec 1 := Scalar.cmpi .slt v387 c0_i32_314
  let v392 : BitVec 1 := Scalar.xori v390 v391
  let c0_i32_312 : BitVec 32 := 0#32
  let v389 : BitVec 1 := Scalar.cmpi .ne v388 c0_i32_312
  let v393 : BitVec 1 := Scalar.andi v392 v389
  let v394 : BitVec 32 := Scalar.addi v388 v387
  let v395 : BitVec 32 := Scalar.select v393 v394 v388
  let v396 : BitVec 32 := Scalar.addi v13 v395
  let c1_i32_319 : BitVec 32 := 1#32
  let v397 : BitVec 32 := Scalar.muli v396 c1_i32_319
  let v398 : BitVec 32 := Scalar.addi c0_i32_320 v397
  v398.toNat
def k0_dev17 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_329 : BitVec 32 := 4#32
  let v407 : BitVec 32 := Scalar.addi v12 c4_i32_329
  let c8_i32_330 : BitVec 32 := 8#32
  let c0_i32_331 : BitVec 32 := 0#32
  let v408 : BitVec 1 := Scalar.cmpi .eq c8_i32_330 c0_i32_331
  let c1_i32_332 : BitVec 32 := 1#32
  let v409 : BitVec 32 := Scalar.select v408 c1_i32_332 c8_i32_330
  let v410 : BitVec 32 := Scalar.remsi v407 v409
  let c0_i32_334 : BitVec 32 := 0#32
  let v412 : BitVec 1 := Scalar.cmpi .slt v410 c0_i32_334
  let c0_i32_335 : BitVec 32 := 0#32
  let v413 : BitVec 1 := Scalar.cmpi .slt v409 c0_i32_335
  let v414 : BitVec 1 := Scalar.xori v412 v413
  let c0_i32_333 : BitVec 32 := 0#32
  let v411 : BitVec 1 := Scalar.cmpi .ne v410 c0_i32_333
  let v415 : BitVec 1 := Scalar.andi v414 v411
  let v416 : BitVec 32 := Scalar.addi v410 v409
  let v417 : BitVec 32 := Scalar.select v415 v416 v410
  let v418 : BitVec 32 := Scalar.addi v13 v417
  let c1_i32_340 : BitVec 32 := 1#32
  let v419 : BitVec 32 := Scalar.muli v418 c1_i32_340
  let v420 : BitVec 32 := Scalar.addi c0_i32_341 v419
  v420.toNat
def k0_dev18 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c5_i32_350 : BitVec 32 := 5#32
  let v429 : BitVec 32 := Scalar.addi v12 c5_i32_350
  let c8_i32_351 : BitVec 32 := 8#32
  let c0_i32_352 : BitVec 32 := 0#32
  let v430 : BitVec 1 := Scalar.cmpi .eq c8_i32_351 c0_i32_352
  let c1_i32_353 : BitVec 32 := 1#32
  let v431 : BitVec 32 := Scalar.select v430 c1_i32_353 c8_i32_351
  let v432 : BitVec 32 := Scalar.remsi v429 v431
  let c0_i32_355 : BitVec 32 := 0#32
  let v434 : BitVec 1 := Scalar.cmpi .slt v432 c0_i32_355
  let c0_i32_356 : BitVec 32 := 0#32
  let v435 : BitVec 1 := Scalar.cmpi .slt v431 c0_i32_356
  let v436 : BitVec 1 := Scalar.xori v434 v435
  let c0_i32_354 : BitVec 32 := 0#32
  let v433 : BitVec 1 := Scalar.cmpi .ne v432 c0_i32_354
  let v437 : BitVec 1 := Scalar.andi v436 v433
  let v438 : BitVec 32 := Scalar.addi v432 v431
  let v439 : BitVec 32 := Scalar.select v437 v438 v432
  let v440 : BitVec 32 := Scalar.addi v13 v439
  let c1_i32_361 : BitVec 32 := 1#32
  let v441 : BitVec 32 := Scalar.muli v440 c1_i32_361
  let v442 : BitVec 32 := Scalar.addi c0_i32_362 v441
  v442.toNat
def k0_dev19 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c6_i32_371 : BitVec 32 := 6#32
  let v451 : BitVec 32 := Scalar.addi v12 c6_i32_371
  let c8_i32_372 : BitVec 32 := 8#32
  let c0_i32_373 : BitVec 32 := 0#32
  let v452 : BitVec 1 := Scalar.cmpi .eq c8_i32_372 c0_i32_373
  let c1_i32_374 : BitVec 32 := 1#32
  let v453 : BitVec 32 := Scalar.select v452 c1_i32_374 c8_i32_372
  let v454 : BitVec 32 := Scalar.remsi v451 v453
  let c0_i32_376 : BitVec 32 := 0#32
  let v456 : BitVec 1 := Scalar.cmpi .slt v454 c0_i32_376
  let c0_i32_377 : BitVec 32 := 0#32
  let v457 : BitVec 1 := Scalar.cmpi .slt v453 c0_i32_377
  let v458 : BitVec 1 := Scalar.xori v456 v457
  let c0_i32_375 : BitVec 32 := 0#32
  let v455 : BitVec 1 := Scalar.cmpi .ne v454 c0_i32_375
  let v459 : BitVec 1 := Scalar.andi v458 v455
  let v460 : BitVec 32 := Scalar.addi v454 v453
  let v461 : BitVec 32 := Scalar.select v459 v460 v454
  let v462 : BitVec 32 := Scalar.addi v13 v461
  let c1_i32_382 : BitVec 32 := 1#32
  let v463 : BitVec 32 := Scalar.muli v462 c1_i32_382
  let v464 : BitVec 32 := Scalar.addi c0_i32_383 v463
  v464.toNat
def k0_dev20 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c7_i32_392 : BitVec 32 := 7#32
  let v473 : BitVec 32 := Scalar.addi v12 c7_i32_392
  let c8_i32_393 : BitVec 32 := 8#32
  let c0_i32_394 : BitVec 32 := 0#32
  let v474 : BitVec 1 := Scalar.cmpi .eq c8_i32_393 c0_i32_394
  let c1_i32_395 : BitVec 32 := 1#32
  let v475 : BitVec 32 := Scalar.select v474 c1_i32_395 c8_i32_393
  let v476 : BitVec 32 := Scalar.remsi v473 v475
  let c0_i32_397 : BitVec 32 := 0#32
  let v478 : BitVec 1 := Scalar.cmpi .slt v476 c0_i32_397
  let c0_i32_398 : BitVec 32 := 0#32
  let v479 : BitVec 1 := Scalar.cmpi .slt v475 c0_i32_398
  let v480 : BitVec 1 := Scalar.xori v478 v479
  let c0_i32_396 : BitVec 32 := 0#32
  let v477 : BitVec 1 := Scalar.cmpi .ne v476 c0_i32_396
  let v481 : BitVec 1 := Scalar.andi v480 v477
  let v482 : BitVec 32 := Scalar.addi v476 v475
  let v483 : BitVec 32 := Scalar.select v481 v482 v476
  let v484 : BitVec 32 := Scalar.addi v13 v483
  let c1_i32_403 : BitVec 32 := 1#32
  let v485 : BitVec 32 := Scalar.muli v484 c1_i32_403
  let v486 : BitVec 32 := Scalar.addi c0_i32_404 v485
  v486.toNat
abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  hamt_10 : (10#32 : BitVec 32).msb = false
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S8x4x2x256x64_S1x1x1x256x64_0_0_0_0_0 : ∀ a, (![0, 0, 0, 0, 0] : Fin 5 → Nat) a + S1x1x1x256x64.size a ≤ S8x4x2x256x64.size a
  h_S1x1x1x256x64 : 0 < S1x1x1x256x64.numel
  shapeCasts_S1x1x1x256x64_S256x64 : S1x1x1x256x64.ShapeCasts S256x64
  shapeCasts_S256x64_S1x1x1x256x64 : S256x64.ShapeCasts S1x1x1x256x64
  packedbf16_S8x4x2x256x64_S1x1x1x256x64_0_0_0_0_0 : (Rect.unit (s := S8x4x2x256x64) ![0, 0, 0, 0, 0] S1x1x1x256x64.size inb_S8x4x2x256x64_S1x1x1x256x64_0_0_0_0_0).PackedRows (EltTy.packing .bf16)
  inb_S8x4x2x256x64_S1x1x1x256x64_0_0_1_0_0 : ∀ a, (![0, 0, 1, 0, 0] : Fin 5 → Nat) a + S1x1x1x256x64.size a ≤ S8x4x2x256x64.size a
  packedbf16_S8x4x2x256x64_S1x1x1x256x64_0_0_1_0_0 : (Rect.unit (s := S8x4x2x256x64) ![0, 0, 1, 0, 0] S1x1x1x256x64.size inb_S8x4x2x256x64_S1x1x1x256x64_0_0_1_0_0).PackedRows (EltTy.packing .bf16)
  inb_S4_S1_1 : ∀ a, (![1] : Fin 1 → Nat) a + S1.size a ≤ S4.size a
  squeezes_S1_S_ : S1.Squeezes S_
  inb_S4_S1_3 : ∀ a, (![3] : Fin 1 → Nat) a + S1.size a ≤ S4.size a
  inb_S8x4x2x256x64_S1x1x2x256x64_0_3_0_0_0 : ∀ a, (![0, 3, 0, 0, 0] : Fin 5 → Nat) a + S1x1x2x256x64.size a ≤ S8x4x2x256x64.size a
  squeezes_S1x1x2x256x64_S2x256x64 : S1x1x2x256x64.Squeezes S2x256x64
  inb_S8x4x2x256x64_S1x1x2x256x64_0_0_0_0_0 : ∀ a, (![0, 0, 0, 0, 0] : Fin 5 → Nat) a + S1x1x2x256x64.size a ≤ S8x4x2x256x64.size a
  wordsbf16_S8x4x2x256x64_S1x1x2x256x64_0_0_0_0_0 : (Rect.unit (s := S8x4x2x256x64) ![0, 0, 0, 0, 0] S1x1x2x256x64.size inb_S8x4x2x256x64_S1x1x2x256x64_0_0_0_0_0).WholeWords (EltTy.packing .bf16)
  wordsbf16_S8x4x2x256x64_S1x1x2x256x64_0_3_0_0_0 : (Rect.unit (s := S8x4x2x256x64) ![0, 3, 0, 0, 0] S1x1x2x256x64.size inb_S8x4x2x256x64_S1x1x2x256x64_0_3_0_0_0).WholeWords (EltTy.packing .bf16)
  inb_S4_S1_2 : ∀ a, (![2] : Fin 1 → Nat) a + S1.size a ≤ S4.size a
  inb_S8x4x2x256x64_S1x1x2x256x64_0_2_0_0_0 : ∀ a, (![0, 2, 0, 0, 0] : Fin 5 → Nat) a + S1x1x2x256x64.size a ≤ S8x4x2x256x64.size a
  wordsbf16_S8x4x2x256x64_S1x1x2x256x64_0_2_0_0_0 : (Rect.unit (s := S8x4x2x256x64) ![0, 2, 0, 0, 0] S1x1x2x256x64.size inb_S8x4x2x256x64_S1x1x2x256x64_0_2_0_0_0).WholeWords (EltTy.packing .bf16)
  inb_S8x4x2x256x64_S1x1x2x256x64_0_1_0_0_0 : ∀ a, (![0, 1, 0, 0, 0] : Fin 5 → Nat) a + S1x1x2x256x64.size a ≤ S8x4x2x256x64.size a
  wordsbf16_S8x4x2x256x64_S1x1x2x256x64_0_1_0_0_0 : (Rect.unit (s := S8x4x2x256x64) ![0, 1, 0, 0, 0] S1x1x2x256x64.size inb_S8x4x2x256x64_S1x1x2x256x64_0_1_0_0_0).WholeWords (EltTy.packing .bf16)
  reduces_S256x256_S256 : S256x256.Reduces [1] S256
  shapeCasts_S256_S256x1 : S256.ShapeCasts S256x1
  broadcasts_S256x1_S256x256 : S256x1.Broadcasts S256x256
  inb_S8x4x2x256x64_S1x1x1x256x64_0_3_0_0_0 : ∀ a, (![0, 3, 0, 0, 0] : Fin 5 → Nat) a + S1x1x1x256x64.size a ≤ S8x4x2x256x64.size a
  inb_S8x4x2x256x64_S1x1x1x256x64_0_3_1_0_0 : ∀ a, (![0, 3, 1, 0, 0] : Fin 5 → Nat) a + S1x1x1x256x64.size a ≤ S8x4x2x256x64.size a
  broadcasts_S256x1_S256x64 : S256x1.Broadcasts S256x64
  inb_S8x4x2x256x64_S1x1x1x256x64_0_2_0_0_0 : ∀ a, (![0, 2, 0, 0, 0] : Fin 5 → Nat) a + S1x1x1x256x64.size a ≤ S8x4x2x256x64.size a
  inb_S8x4x2x256x64_S1x1x1x256x64_0_2_1_0_0 : ∀ a, (![0, 2, 1, 0, 0] : Fin 5 → Nat) a + S1x1x1x256x64.size a ≤ S8x4x2x256x64.size a
  inb_S8x4x2x256x64_S1x1x1x256x64_0_1_0_0_0 : ∀ a, (![0, 1, 0, 0, 0] : Fin 5 → Nat) a + S1x1x1x256x64.size a ≤ S8x4x2x256x64.size a
  inb_S8x4x2x256x64_S1x1x1x256x64_0_1_1_0_0 : ∀ a, (![0, 1, 1, 0, 0] : Fin 5 → Nat) a + S1x1x1x256x64.size a ≤ S8x4x2x256x64.size a
  inb_S8_S1_1 : ∀ a, (![1] : Fin 1 → Nat) a + S1.size a ≤ S8.size a
  inb_S8_S1_7 : ∀ a, (![7] : Fin 1 → Nat) a + S1.size a ≤ S8.size a
  inb_S8x4x2x256x64_S1x4x2x256x64_7_0_0_0_0 : ∀ a, (![7, 0, 0, 0, 0] : Fin 5 → Nat) a + S1x4x2x256x64.size a ≤ S8x4x2x256x64.size a
  squeezes_S1x4x2x256x64_S4x2x256x64 : S1x4x2x256x64.Squeezes S4x2x256x64
  inb_S8x4x2x256x64_S1x4x2x256x64_0_0_0_0_0 : ∀ a, (![0, 0, 0, 0, 0] : Fin 5 → Nat) a + S1x4x2x256x64.size a ≤ S8x4x2x256x64.size a
  wordsbf16_S8x4x2x256x64_S1x4x2x256x64_0_0_0_0_0 : (Rect.unit (s := S8x4x2x256x64) ![0, 0, 0, 0, 0] S1x4x2x256x64.size inb_S8x4x2x256x64_S1x4x2x256x64_0_0_0_0_0).WholeWords (EltTy.packing .bf16)
  wordsbf16_S8x4x2x256x64_S1x4x2x256x64_7_0_0_0_0 : (Rect.unit (s := S8x4x2x256x64) ![7, 0, 0, 0, 0] S1x4x2x256x64.size inb_S8x4x2x256x64_S1x4x2x256x64_7_0_0_0_0).WholeWords (EltTy.packing .bf16)
  inb_S8_S1_2 : ∀ a, (![2] : Fin 1 → Nat) a + S1.size a ≤ S8.size a
  inb_S8_S1_6 : ∀ a, (![6] : Fin 1 → Nat) a + S1.size a ≤ S8.size a
  inb_S8x4x2x256x64_S1x4x2x256x64_6_0_0_0_0 : ∀ a, (![6, 0, 0, 0, 0] : Fin 5 → Nat) a + S1x4x2x256x64.size a ≤ S8x4x2x256x64.size a
  wordsbf16_S8x4x2x256x64_S1x4x2x256x64_6_0_0_0_0 : (Rect.unit (s := S8x4x2x256x64) ![6, 0, 0, 0, 0] S1x4x2x256x64.size inb_S8x4x2x256x64_S1x4x2x256x64_6_0_0_0_0).WholeWords (EltTy.packing .bf16)
  inb_S8_S1_3 : ∀ a, (![3] : Fin 1 → Nat) a + S1.size a ≤ S8.size a
  inb_S8_S1_5 : ∀ a, (![5] : Fin 1 → Nat) a + S1.size a ≤ S8.size a
  inb_S8x4x2x256x64_S1x4x2x256x64_5_0_0_0_0 : ∀ a, (![5, 0, 0, 0, 0] : Fin 5 → Nat) a + S1x4x2x256x64.size a ≤ S8x4x2x256x64.size a
  wordsbf16_S8x4x2x256x64_S1x4x2x256x64_5_0_0_0_0 : (Rect.unit (s := S8x4x2x256x64) ![5, 0, 0, 0, 0] S1x4x2x256x64.size inb_S8x4x2x256x64_S1x4x2x256x64_5_0_0_0_0).WholeWords (EltTy.packing .bf16)
  inb_S8_S1_4 : ∀ a, (![4] : Fin 1 → Nat) a + S1.size a ≤ S8.size a
  inb_S8x4x2x256x64_S1x4x2x256x64_4_0_0_0_0 : ∀ a, (![4, 0, 0, 0, 0] : Fin 5 → Nat) a + S1x4x2x256x64.size a ≤ S8x4x2x256x64.size a
  wordsbf16_S8x4x2x256x64_S1x4x2x256x64_4_0_0_0_0 : (Rect.unit (s := S8x4x2x256x64) ![4, 0, 0, 0, 0] S1x4x2x256x64.size inb_S8x4x2x256x64_S1x4x2x256x64_4_0_0_0_0).WholeWords (EltTy.packing .bf16)
  inb_S8x4x2x256x64_S1x4x2x256x64_3_0_0_0_0 : ∀ a, (![3, 0, 0, 0, 0] : Fin 5 → Nat) a + S1x4x2x256x64.size a ≤ S8x4x2x256x64.size a
  wordsbf16_S8x4x2x256x64_S1x4x2x256x64_3_0_0_0_0 : (Rect.unit (s := S8x4x2x256x64) ![3, 0, 0, 0, 0] S1x4x2x256x64.size inb_S8x4x2x256x64_S1x4x2x256x64_3_0_0_0_0).WholeWords (EltTy.packing .bf16)
  inb_S8x4x2x256x64_S1x4x2x256x64_2_0_0_0_0 : ∀ a, (![2, 0, 0, 0, 0] : Fin 5 → Nat) a + S1x4x2x256x64.size a ≤ S8x4x2x256x64.size a
  wordsbf16_S8x4x2x256x64_S1x4x2x256x64_2_0_0_0_0 : (Rect.unit (s := S8x4x2x256x64) ![2, 0, 0, 0, 0] S1x4x2x256x64.size inb_S8x4x2x256x64_S1x4x2x256x64_2_0_0_0_0).WholeWords (EltTy.packing .bf16)
  inb_S8x4x2x256x64_S1x4x2x256x64_1_0_0_0_0 : ∀ a, (![1, 0, 0, 0, 0] : Fin 5 → Nat) a + S1x4x2x256x64.size a ≤ S8x4x2x256x64.size a
  wordsbf16_S8x4x2x256x64_S1x4x2x256x64_1_0_0_0_0 : (Rect.unit (s := S8x4x2x256x64) ![1, 0, 0, 0, 0] S1x4x2x256x64.size inb_S8x4x2x256x64_S1x4x2x256x64_1_0_0_0_0).WholeWords (EltTy.packing .bf16)
  inb_S8x4x2x256x64_S1x4x1x256x64_7_0_0_0_0 : ∀ a, (![7, 0, 0, 0, 0] : Fin 5 → Nat) a + S1x4x1x256x64.size a ≤ S8x4x2x256x64.size a
  h_S1x4x1x256x64 : 0 < S1x4x1x256x64.numel
  shapeCasts_S1x4x1x256x64_S4x256x64 : S1x4x1x256x64.ShapeCasts S4x256x64
  shapeCasts_S4x256x64_S1024x64 : S4x256x64.ShapeCasts S1024x64
  inb_S8x4x2x256x64_S1x4x1x256x64_7_0_1_0_0 : ∀ a, (![7, 0, 1, 0, 0] : Fin 5 → Nat) a + S1x4x1x256x64.size a ≤ S8x4x2x256x64.size a
  reduces_S256x1024_S256 : S256x1024.Reduces [1] S256
  broadcasts_S256x1_S256x1024 : S256x1.Broadcasts S256x1024
  inb_S8x4x2x256x64_S1x4x1x256x64_6_0_0_0_0 : ∀ a, (![6, 0, 0, 0, 0] : Fin 5 → Nat) a + S1x4x1x256x64.size a ≤ S8x4x2x256x64.size a
  inb_S8x4x2x256x64_S1x4x1x256x64_6_0_1_0_0 : ∀ a, (![6, 0, 1, 0, 0] : Fin 5 → Nat) a + S1x4x1x256x64.size a ≤ S8x4x2x256x64.size a
  inb_S8x4x2x256x64_S1x4x1x256x64_5_0_0_0_0 : ∀ a, (![5, 0, 0, 0, 0] : Fin 5 → Nat) a + S1x4x1x256x64.size a ≤ S8x4x2x256x64.size a
  inb_S8x4x2x256x64_S1x4x1x256x64_5_0_1_0_0 : ∀ a, (![5, 0, 1, 0, 0] : Fin 5 → Nat) a + S1x4x1x256x64.size a ≤ S8x4x2x256x64.size a
  inb_S8x4x2x256x64_S1x4x1x256x64_4_0_0_0_0 : ∀ a, (![4, 0, 0, 0, 0] : Fin 5 → Nat) a + S1x4x1x256x64.size a ≤ S8x4x2x256x64.size a
  inb_S8x4x2x256x64_S1x4x1x256x64_4_0_1_0_0 : ∀ a, (![4, 0, 1, 0, 0] : Fin 5 → Nat) a + S1x4x1x256x64.size a ≤ S8x4x2x256x64.size a
  inb_S8x4x2x256x64_S1x4x1x256x64_3_0_0_0_0 : ∀ a, (![3, 0, 0, 0, 0] : Fin 5 → Nat) a + S1x4x1x256x64.size a ≤ S8x4x2x256x64.size a
  inb_S8x4x2x256x64_S1x4x1x256x64_3_0_1_0_0 : ∀ a, (![3, 0, 1, 0, 0] : Fin 5 → Nat) a + S1x4x1x256x64.size a ≤ S8x4x2x256x64.size a
  inb_S8x4x2x256x64_S1x4x1x256x64_2_0_0_0_0 : ∀ a, (![2, 0, 0, 0, 0] : Fin 5 → Nat) a + S1x4x1x256x64.size a ≤ S8x4x2x256x64.size a
  inb_S8x4x2x256x64_S1x4x1x256x64_2_0_1_0_0 : ∀ a, (![2, 0, 1, 0, 0] : Fin 5 → Nat) a + S1x4x1x256x64.size a ≤ S8x4x2x256x64.size a
  inb_S8x4x2x256x64_S1x4x1x256x64_1_0_0_0_0 : ∀ a, (![1, 0, 0, 0, 0] : Fin 5 → Nat) a + S1x4x1x256x64.size a ≤ S8x4x2x256x64.size a
  inb_S8x4x2x256x64_S1x4x1x256x64_1_0_1_0_0 : ∀ a, (![1, 0, 1, 0, 0] : Fin 5 → Nat) a + S1x4x1x256x64.size a ≤ S8x4x2x256x64.size a
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hcc0_scratch1 : 4 + S4.numel ≤ 28
  hcc0_scratch2 : 8 + S4.numel ≤ 28
  hcc0_scratch3 : 12 + S8.numel ≤ 28
  hcc0_scratch4 : 20 + S8.numel ≤ 28
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch1 : DmaSems sig S4 := SemArray.consecutive 4 S4 hcc0_scratch1
abbrev cc0_scratch2 : DmaSems sig S4 := SemArray.consecutive 8 S4 hcc0_scratch2
abbrev cc0_scratch3 : DmaSems sig S8 := SemArray.consecutive 12 S8 hcc0_scratch3
abbrev cc0_scratch4 : DmaSems sig S8 := SemArray.consecutive 20 S8 hcc0_scratch4
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S64x8192, .f32⟩
  | .hbm, ⟨4, _⟩ => ⟨S8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Links.lean ====
/-
  The links of the two-stage exchange on 32 devices.  Device `c` sits in a group of eight (`c / 8`) at position
  `c % 8`.  Its ten outgoing links: three across the groups, to the devices at the same position 8, 16 and 24
  further round, and seven inside its group, to the positions 1 … 7 further round.  Link `p` of device `c` ends
  at `peer p c`; the link of `peer p c` that comes back to `c` is `inv p`.
-/
import proofs.«900463_g7700000000000464_dist_ring_attn_i_s256_d64_v7x_i32_f32_1_alg».proof.Proof.Gen.KernelIdeal

namespace Cert.Ring

open Cert.KernelIdeal Cert.KernelIdeal.Gen Idealize.ShloMosaic

/-- The device link `p` of device `c` ends at. -/
def peer (p : Fin 10) (c : Dev nD) : Dev nD :=
  if p.val < 3 then ⟨(c.val + 8 * (p.val + 1)) % 32, Nat.mod_lt _ (by decide)⟩
  else ⟨c.val - c.val % 8 + (c.val % 8 + (p.val - 2)) % 8, by
    have := c.isLt; have h : (nD : Nat) = 32 := rfl; omega⟩

/-- The link that comes back. -/
def inv (p : Fin 10) : Fin 10 := ![2, 1, 0, 9, 8, 7, 6, 5, 4, 3] p

theorem inv_inv : ∀ p : Fin 10, inv (inv p) = p := by decide
theorem peer_inv : ∀ (p : Fin 10) (c : Dev nD), peer (inv p) (peer p c) = c := by decide +kernel
theorem peer_inv' : ∀ (p : Fin 10) (c : Dev nD), peer p (peer (inv p) c) = c := by decide +kernel
theorem peer_ne : ∀ (p : Fin 10) (c : Dev nD), peer p c ≠ c := by decide +kernel
theorem peer_inj : ∀ (c : Dev nD) (p p' : Fin 10), peer p c = peer p' c → p = p' := by decide +kernel

/-- Link `p` as a permutation of the devices. -/
def link (p : Fin 10) : Dev nD ≃ Dev nD := ⟨peer p, peer (inv p), peer_inv p, peer_inv' p⟩

/-- The printed device chains: the ten entry signals name the ten links' ends in order, the three copies across
    the groups links 0, 1, 2 and the seven inside the group links 3 … 9. -/
theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel
theorem dev8_eq : ∀ c : Dev nD, (⟨k0_dev8 c, k0_dev8_lt c⟩ : Dev nD) = peer 7 c := by decide +kernel
theorem dev9_eq : ∀ c : Dev nD, (⟨k0_dev9 c, k0_dev9_lt c⟩ : Dev nD) = peer 8 c := by decide +kernel
theorem dev10_eq : ∀ c : Dev nD, (⟨k0_dev10 c, k0_dev10_lt c⟩ : Dev nD) = peer 9 c := by decide +kernel
theorem dev11_eq : ∀ c : Dev nD, (⟨k0_dev11 c, k0_dev11_lt c⟩ : Dev nD) = peer 0 c := by decide +kernel
theorem dev12_eq : ∀ c : Dev nD, (⟨k0_dev12 c, k0_dev12_lt c⟩ : Dev nD) = peer 1 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 3 c := by decide +kernel
theorem dev15_eq : ∀ c : Dev nD, (⟨k0_dev15 c, k0_dev15_lt c⟩ : Dev nD) = peer 4 c := by decide +kernel
theorem dev16_eq : ∀ c : Dev nD, (⟨k0_dev16 c, k0_dev16_lt c⟩ : Dev nD) = peer 5 c := by decide +kernel
theorem dev17_eq : ∀ c : Dev nD, (⟨k0_dev17 c, k0_dev17_lt c⟩ : Dev nD) = peer 6 c := by decide +kernel
theorem dev18_eq : ∀ c : Dev nD, (⟨k0_dev18 c, k0_dev18_lt c⟩ : Dev nD) = peer 7 c := by decide +kernel
theorem dev19_eq : ∀ c : Dev nD, (⟨k0_dev19 c, k0_dev19_lt c⟩ : Dev nD) = peer 8 c := by decide +kernel
theorem dev20_eq : ∀ c : Dev nD, (⟨k0_dev20 c, k0_dev20_lt c⟩ : Dev nD) = peer 9 c := by decide +kernel

end Cert.Ring
-- ==== Proof.Sched.lean ====
/-
  The cells, the schedule and the levels of the two-stage exchange.

  Every device has one barrier cell (the runtime's barrier semaphore), and per link `p` a send cell (its own
  copy along link `p` has read its source) and a receive cell (the copy that arrives along link `p`, from
  `peer (inv p) c`, has landed).  All cells have one round.  The barrier cell has ten duties of one unit, one
  per link: duty `p` is the entry signal of the device at the far end of the link that comes back, and it hands
  over that device's landing slot for this device's copy, with the fact that its receive cell is at round 0.
  A receive cell's one duty hands its owner the landing slot holding the sender's slab; a send cell's one duty
  hands back the share of the source the copy was reading.

  The scratch buffer of device `c` is [8, 4, 2, 256, 64]: entry (s, i, kv, r, d) is meant to hold entry
  (kv, r, d) of what device `srcDev c s i` publishes (its keys for kv = 0, its values for kv = 1).
-/
import proofs.«900463_g7700000000000464_dist_ring_attn_i_s256_d64_v7x_i32_f32_1_alg».proof.Proof.Links
import proofs.«900463_g7700000000000464_dist_ring_attn_i_s256_d64_v7x_i32_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 10`) -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barS : Sem sig := (SemArray.scalar (sig.barrier 0 rfl) : Sems sig S_).sem
/-- The send semaphore of link `p` (on the sender) and the receive semaphore of link `p` (on the receiver). -/
def sS (p : Fin 10) : DmaSem sig := ![5, 6, 7, 13, 14, 15, 16, 17, 18, 19] p
def rS (p : Fin 10) : DmaSem sig := ![11, 10, 9, 27, 26, 25, 24, 23, 22, 21] p

abbrev barCell (c : Dev nD) : GSem nD τ sig := ((c : Thread nD τ), .reg barS)
abbrev sendCell (p : Fin 10) (c : Dev nD) : GSem nD τ sig := ((c : Thread nD τ), .dma (sS p))
abbrev recvCell (p : Fin 10) (c : Dev nD) : GSem nD τ sig := ((c : Thread nD τ), .dma (rS p))

/-- What a semaphore is in the exchange. -/
inductive Role where
  | bar | send (p : Fin 10) | recv (p : Fin 10) | none
  deriving DecidableEq

def roleDma (q : DmaSem sig) : Role :=
  match q.val with
  | 5 => .send 0 | 6 => .send 1 | 7 => .send 2
  | 13 => .send 3 | 14 => .send 4 | 15 => .send 5 | 16 => .send 6 | 17 => .send 7 | 18 => .send 8 | 19 => .send 9
  | 11 => .recv 0 | 10 => .recv 1 | 9 => .recv 2
  | 27 => .recv 3 | 26 => .recv 4 | 25 => .recv 5 | 24 => .recv 6 | 23 => .recv 7 | 22 => .recv 8 | 21 => .recv 9
  | _ => .none

def role : SemLoc sig → Role
  | .reg s => if s = barS then .bar else .none
  | .dma q => roleDma q

theorem role_bar : role (.reg barS) = .bar := by
  show (if barS = barS then Role.bar else Role.none) = Role.bar
  exact if_pos rfl
theorem role_send : ∀ p : Fin 10, role (.dma (sS p)) = .send p := by decide
theorem role_recv : ∀ p : Fin 10, role (.dma (rS p)) = .recv p := by decide

/-! ## The scratch buffer, its slots and its intended contents -/

abbrev A4 : Memref sig .tc .vmem S8x4x2x256x64 .bf16 := Memref.whole cc0_scratch0
abbrev sL (c : Dev nD) : Loc nD τ sig := (c : Thread nD τ).loc cc0_scratch0

/-- The slots [0, i] (two [256, 64] blocks each), as the kernel spells them. -/
abbrev zM0 : Memref sig .tc .vmem S2x256x64 .bf16 := (A4.slice (Rect.unit (s := S8x4x2x256x64) ![0, 0, 0, 0, 0] S1x1x2x256x64.size inb_S8x4x2x256x64_S1x1x2x256x64_0_0_0_0_0) (fun _ => rfl)).squeeze S2x256x64 squeezes_S1x1x2x256x64_S2x256x64
abbrev zM1 : Memref sig .tc .vmem S2x256x64 .bf16 := (A4.slice (Rect.unit (s := S8x4x2x256x64) ![0, 1, 0, 0, 0] S1x1x2x256x64.size inb_S8x4x2x256x64_S1x1x2x256x64_0_1_0_0_0) (fun _ => rfl)).squeeze S2x256x64 squeezes_S1x1x2x256x64_S2x256x64
abbrev zM2 : Memref sig .tc .vmem S2x256x64 .bf16 := (A4.slice (Rect.unit (s := S8x4x2x256x64) ![0, 2, 0, 0, 0] S1x1x2x256x64.size inb_S8x4x2x256x64_S1x1x2x256x64_0_2_0_0_0) (fun _ => rfl)).squeeze S2x256x64 squeezes_S1x1x2x256x64_S2x256x64
abbrev zM3 : Memref sig .tc .vmem S2x256x64 .bf16 := (A4.slice (Rect.unit (s := S8x4x2x256x64) ![0, 3, 0, 0, 0] S1x1x2x256x64.size inb_S8x4x2x256x64_S1x1x2x256x64_0_3_0_0_0) (fun _ => rfl)).squeeze S2x256x64 squeezes_S1x1x2x256x64_S2x256x64
/-- The slots [s] (four such pairs each). -/
abbrev pM0 : Memref sig .tc .vmem S4x2x256x64 .bf16 := (A4.slice (Rect.unit (s := S8x4x2x256x64) ![0, 0, 0, 0, 0] S1x4x2x256x64.size inb_S8x4x2x256x64_S1x4x2x256x64_0_0_0_0_0) (fun _ => rfl)).squeeze S4x2x256x64 squeezes_S1x4x2x256x64_S4x2x256x64
abbrev pM1 : Memref sig .tc .vmem S4x2x256x64 .bf16 := (A4.slice (Rect.unit (s := S8x4x2x256x64) ![1, 0, 0, 0, 0] S1x4x2x256x64.size inb_S8x4x2x256x64_S1x4x2x256x64_1_0_0_0_0) (fun _ => rfl)).squeeze S4x2x256x64 squeezes_S1x4x2x256x64_S4x2x256x64
abbrev pM2 : Memref sig .tc .vmem S4x2x256x64 .bf16 := (A4.slice (Rect.unit (s := S8x4x2x256x64) ![2, 0, 0, 0, 0] S1x4x2x256x64.size inb_S8x4x2x256x64_S1x4x2x256x64_2_0_0_0_0) (fun _ => rfl)).squeeze S4x2x256x64 squeezes_S1x4x2x256x64_S4x2x256x64
abbrev pM3 : Memref sig .tc .vmem S4x2x256x64 .bf16 := (A4.slice (Rect.unit (s := S8x4x2x256x64) ![3, 0, 0, 0, 0] S1x4x2x256x64.size inb_S8x4x2x256x64_S1x4x2x256x64_3_0_0_0_0) (fun _ => rfl)).squeeze S4x2x256x64 squeezes_S1x4x2x256x64_S4x2x256x64
abbrev pM4 : Memref sig .tc .vmem S4x2x256x64 .bf16 := (A4.slice (Rect.unit (s := S8x4x2x256x64) ![4, 0, 0, 0, 0] S1x4x2x256x64.size inb_S8x4x2x256x64_S1x4x2x256x64_4_0_0_0_0) (fun _ => rfl)).squeeze S4x2x256x64 squeezes_S1x4x2x256x64_S4x2x256x64
abbrev pM5 : Memref sig .tc .vmem S4x2x256x64 .bf16 := (A4.slice (Rect.unit (s := S8x4x2x256x64) ![5, 0, 0, 0, 0] S1x4x2x256x64.size inb_S8x4x2x256x64_S1x4x2x256x64_5_0_0_0_0) (fun _ => rfl)).squeeze S4x2x256x64 squeezes_S1x4x2x256x64_S4x2x256x64
abbrev pM6 : Memref sig .tc .vmem S4x2x256x64 .bf16 := (A4.slice (Rect.unit (s := S8x4x2x256x64) ![6, 0, 0, 0, 0] S1x4x2x256x64.size inb_S8x4x2x256x64_S1x4x2x256x64_6_0_0_0_0) (fun _ => rfl)).squeeze S4x2x256x64 squeezes_S1x4x2x256x64_S4x2x256x64
abbrev pM7 : Memref sig .tc .vmem S4x2x256x64 .bf16 := (A4.slice (Rect.unit (s := S8x4x2x256x64) ![7, 0, 0, 0, 0] S1x4x2x256x64.size inb_S8x4x2x256x64_S1x4x2x256x64_7_0_0_0_0) (fun _ => rfl)).squeeze S4x2x256x64 squeezes_S1x4x2x256x64_S4x2x256x64

/-- The elements of device `c`'s scratch buffer that the copy arriving along link `p` writes, -/
def dstSet (c : Dev nD) (p : Fin 10) : Finset (Idx (sL c)) :=
  match p with
  | 0 => zM3.view.set | 1 => zM2.view.set | 2 => zM1.view.set
  | 3 => pM7.view.set | 4 => pM6.view.set | 5 => pM5.view.set | 6 => pM4.view.set | 7 => pM3.view.set | 8 => pM2.view.set | 9 => pM1.view.set
/-- and those its own copy along link `p` reads: its slab for the links across the groups, its four slabs for the links inside. -/
def srcSet (c : Dev nD) (p : Fin 10) : Finset (Idx (sL c)) := if p.val < 3 then zM0.view.set else pM0.view.set

/-- The device whose slab sits in slot [s, i] of device `c`. -/
def srcDev (c : Dev nD) (s i : Nat) : Dev nD :=
  ⟨((c.val - c.val % 8 + (c.val % 8 + s) % 8) + 8 * i) % 32, Nat.mod_lt _ (by decide)⟩

/-- The intended contents of device `c`'s scratch buffer, given what every device publishes. -/
def scr (pub : Dev nD → Nat → Nat → Nat → Elt F .bf16) (c : Dev nD) : Buf (Elt F) (sL c) :=
  fun idx => pub (srcDev c (idx 0).val (idx 1).val) (idx 2).val (idx 3).val (idx 4).val

/-- The credit of a copy along link `p`. -/
def NL (p : Fin 10) : ℕ := if p.val < 3 then (zM0 : Memref sig .tc .vmem S2x256x64 .bf16).view.dmaCredit else (pM0 : Memref sig .tc .vmem S4x2x256x64 .bf16).view.dmaCredit
theorem NL_pos (p : Fin 10) : 0 < NL p := by
  unfold NL; split
  · exact View.dmaCredit_pos _ (by decide)
  · exact View.dmaCredit_pos _ (by decide)

/-! ## The schedule -/

variable (pub : Dev nD → Nat → Nat → Nat → Elt F .bf16)

def barPay (c : Dev nD) (p : Fin 10) : sProp 𝕄 :=
  iprop((∃ f, sL (peer (inv p) c) ↦[dstSet (peer (inv p) c) (inv p)]{fullShare} f) ∗ reached ER (recvCell (inv p) (peer (inv p) c)) 0)
def recvPay (p : Fin 10) (c : Dev nD) : sProp 𝕄 := sL c ↦[dstSet c p]{fullShare} scr pub c
def sendPay (p : Fin 10) (c : Dev nD) : sProp 𝕄 := sL c ↦[srcSet c p]{Transfers.shareTokN fullShare p.val} scr pub c

def ringRd : Rounds.Schedule (GSem nD τ sig) (Fin 10) 𝕄 where
  duties g r := if r = 0 ∧ g.1.2 = .tc then (match role g.2 with | .bar => Finset.univ | .send _ => {0} | .recv _ => {0} | .none => ∅) else ∅
  unitless _ := False
  amount g _ _ := match role g.2 with | .send p => NL p | .recv p => NL p | _ => 1
  payload g _ d := match role g.2 with
    | .bar => barPay g.1.1 d
    | .send p => sendPay pub p g.1.1
    | .recv p => recvPay pub p g.1.1
    | .none => iprop(emp)
  amount_pos g _ _ _ := by
    split
    · exact NL_pos _
    · exact NL_pos _
    · exact Nat.one_pos

instance ringRd_payload_storable (g : GSem nD τ sig) (r : ℕ) (d : Fin 10) :
    BI.Storable (upEmb : UEmb _ 𝕄) ((ringRd (F := F) pub).payload g r d) := by
  show BI.Storable upEmb (match role g.2 with
    | .bar => barPay g.1.1 d
    | .send p => sendPay pub p g.1.1
    | .recv p => recvPay pub p g.1.1
    | .none => iprop(emp))
  unfold barPay recvPay sendPay
  split <;> infer_instance

section Sched
variable (c : Dev nD) (p : Fin 10)

omit [FloatOps F] in
theorem duties_bar : (ringRd (F := F) pub).duties (barCell c) 0 = Finset.univ := by
  dsimp only [ringRd]; rw [if_pos ⟨rfl, rfl⟩, role_bar]
omit [FloatOps F] in
theorem duties_send : (ringRd (F := F) pub).duties (sendCell p c) 0 = {0} := by
  dsimp only [ringRd]; rw [if_pos ⟨rfl, rfl⟩, role_send]
omit [FloatOps F] in
theorem duties_recv : (ringRd (F := F) pub).duties (recvCell p c) 0 = {0} := by
  dsimp only [ringRd]; rw [if_pos ⟨rfl, rfl⟩, role_recv]
omit [FloatOps F] in
theorem duties_later (g : GSem nD τ sig) : ∀ r, 1 ≤ r → (ringRd (F := F) pub).duties g r = ∅ :=
  fun r hr => by dsimp only [ringRd]; rw [if_neg fun h => by omega]

omit [FloatOps F] in
theorem amount_bar (d : Fin 10) : (ringRd (F := F) pub).amount (barCell c) 0 d = 1 := by dsimp only [ringRd]; rw [role_bar]
omit [FloatOps F] in
theorem amount_send (d : Fin 10) : (ringRd (F := F) pub).amount (sendCell p c) 0 d = NL p := by dsimp only [ringRd]; rw [role_send]
omit [FloatOps F] in
theorem amount_recv (d : Fin 10) : (ringRd (F := F) pub).amount (recvCell p c) 0 d = NL p := by dsimp only [ringRd]; rw [role_recv]

omit [FloatOps F] in
theorem expect_bar : (ringRd (F := F) pub).expect (barCell c) 0 = 10 := by
  unfold Schedule.expect Schedule.amountOf
  rw [duties_bar, Finset.sum_congr rfl fun d _ => amount_bar pub c d, Finset.sum_const, Finset.card_univ, Fintype.card_fin, smul_eq_mul]
omit [FloatOps F] in
theorem expect_send : (ringRd (F := F) pub).expect (sendCell p c) 0 = NL p := by
  unfold Schedule.expect Schedule.amountOf; rw [duties_send, Finset.sum_singleton, amount_send]
omit [FloatOps F] in
theorem expect_recv : (ringRd (F := F) pub).expect (recvCell p c) 0 = NL p := by
  unfold Schedule.expect Schedule.amountOf; rw [duties_recv, Finset.sum_singleton, amount_recv]

omit [FloatOps F] in
theorem payload_bar (d : Fin 10) : (ringRd (F := F) pub).payload (barCell c) 0 d = barPay c d := by dsimp only [ringRd]; rw [role_bar]
omit [FloatOps F] in
theorem payload_send (d : Fin 10) : (ringRd (F := F) pub).payload (sendCell p c) 0 d = sendPay pub p c := by dsimp only [ringRd]; rw [role_send]
omit [FloatOps F] in
theorem payload_recv (d : Fin 10) : (ringRd (F := F) pub).payload (recvCell p c) 0 d = recvPay pub p c := by dsimp only [ringRd]; rw [role_recv]

omit [FloatOps F] in
/-- The rest of the barrier cell's round, no duty taken: every link's far end's landing slot. -/
theorem rest_bar : bigSep ((ringRd (F := F) pub).duties (barCell c) 0 \ ∅) (fun d => (ringRd (F := F) pub).payload (barCell c) 0 d)
    = bigSep Finset.univ (fun d : Fin 10 => (barPay c d : sProp 𝕄)) := by
  rw [Finset.sdiff_empty, duties_bar]
  exact bigSep_congr fun d _ => payload_bar pub c d
omit [FloatOps F] in
theorem rest_send : bigSep ((ringRd (F := F) pub).duties (sendCell p c) 0 \ ∅) (fun d => (ringRd (F := F) pub).payload (sendCell p c) 0 d) = sendPay pub p c := by
  rw [Finset.sdiff_empty, duties_send, bigSep_singleton, payload_send]
omit [FloatOps F] in
theorem rest_recv : bigSep ((ringRd (F := F) pub).duties (recvCell p c) 0 \ ∅) (fun d => (ringRd (F := F) pub).payload (recvCell p c) 0 d) = recvPay pub p c := by
  rw [Finset.sdiff_empty, duties_recv, bigSep_singleton, payload_recv]

end Sched

/-! ## What a device owes, in the order it pays; the levels -/

/-- The cell and amount of a device's `k`-th payment: the ten entry signals, then the ten copies' landings. -/
def item (c : Dev nD) (k : Fin 20) : GSem nD τ sig × ℕ :=
  if h : k.val < 10 then (barCell (peer ⟨k.val, h⟩ c), 1)
  else (recvCell ⟨k.val - 10, by omega⟩ (peer ⟨k.val - 10, by omega⟩ c), NL ⟨k.val - 10, by omega⟩)

/-- What is still owed before payment `k` (counted from the end: `owedFrom c n` is the last `n` payments). -/
def owedLast (c : Dev nD) : (n : ℕ) → n ≤ 20 → CellTallies nD τ sig Unit
  | 0, _ => 0
  | n + 1, h => owedLast c n (by omega) + tallyAt (item c ⟨19 - n, by omega⟩).1 () (item c ⟨19 - n, by omega⟩).2

def O₀ (c : Dev nD) : CellTallies nD τ sig Unit := owedLast c 20 (le_refl _)

def L (g : GSem nD τ sig) : Finset Unit := if g.1.2 = .tc then {()} else ∅
/-- Barrier cells at 1, the receive cells of the links across the groups at 2, of the links inside at 3, the rest at 0. -/
def lv (g : GSem nD τ sig) (_ : Unit) : ℕ := match role g.2 with | .bar => 1 | .recv p => if p.val < 3 then 2 else 3 | _ => 0

theorem L_of_ne (g : GSem nD τ sig) (h : g.1.2 ≠ .tc) : L g = ∅ := if_neg h
theorem L_tc (c : Dev nD) (sm : SemLoc sig) : L ((c : Thread nD τ), sm) = {()} := if_pos rfl

end Cert.Ring

end
-- ==== Proof.Ghost.lean ====
/-
  What every device holds during the exchange, and the pipeline's proof data.

  The 21 cells of a device are numbered: 0 its barrier cell, 1 + p the send cell of link `p`, 11 + p the receive
  cell of link `p`.  The invariants of all cells of all devices and the facts that all are at round 0 are
  persistent and every device holds them all (`records`).  A device also holds its positions at its own 21 cells
  and the tokens of the duties it pays: on the barrier cell of each link's far end the duty named after the link,
  on the far end's receive cell of the link and on its own send cell of the link the one duty.  Four of the
  kernel's 24 semaphores are never used and stay at zero.
-/
import proofs.«900463_g7700000000000464_dist_ring_attn_i_s256_d64_v7x_i32_f32_1_alg».proof.Proof.Sched

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (pub : Dev nD → Nat → Nat → Nat → Elt F .bf16)
variable (outAt : (c : Dev nD) → (cc0_stg3_0 : Ref sig .tc).ty.Contents (Elt F))
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells, numbered -/

def kB : Fin 21 := 0
def kS (p : Fin 10) : Fin 21 := ⟨p.val + 1, by omega⟩
def kR (p : Fin 10) : Fin 21 := ⟨p.val + 11, by omega⟩

def csem (k : Fin 21) : SemLoc sig :=
  if k.val = 0 then .reg barS else if h : k.val ≤ 10 then .dma (sS ⟨k.val - 1, by omega⟩) else .dma (rS ⟨k.val - 11, by omega⟩)
abbrev kcell (ck : Dev nD × Fin 21) : GSem nD τ sig := ((ck.1 : Thread nD τ), csem ck.2)

theorem csem_kB : csem kB = .reg barS := rfl
theorem csem_kS : ∀ p : Fin 10, csem (kS p) = .dma (sS p) := by decide
theorem csem_kR : ∀ p : Fin 10, csem (kR p) = .dma (rS p) := by decide
theorem csem_injective : Function.Injective csem := by decide
theorem kcell_kB (c : Dev nD) : kcell (c, kB) = barCell c := rfl
theorem kcell_kS (c : Dev nD) (p : Fin 10) : kcell (c, kS p) = sendCell p c := by unfold kcell; rw [csem_kS]
theorem kcell_kR (c : Dev nD) (p : Fin 10) : kcell (c, kR p) = recvCell p c := by unfold kcell; rw [csem_kR]

/-- The kernel's own 24 semaphores (its four scratch arrays of 4, 4, 8 and 8), as the launch indexes them. -/
def osem (k : Fin 24) : SemLoc sig := .dma ⟨4 + k.val, by have := k.isLt; show 4 + k.val < 28; omega⟩

/-! ## Ghost state -/

def records (K : Dev nD × Fin 21 → ℕ) : sProp 𝕄 :=
  iprop((bigSep Finset.univ fun ck : Dev nD × Fin 21 => cellInv ER (ringRd pub) (K ck) (kcell ck))
    ∗ bigSep Finset.univ fun ck : Dev nD × Fin 21 => reached ER (kcell ck) 0)

instance records_persistent (K : Dev nD × Fin 21 → ℕ) : BI.Persistent (records (F := F) pub K) := by unfold records; infer_instance

/-- The tokens of the duties device `c` pays. -/
def payToks (c : Dev nD) : sProp 𝕄 :=
  iprop((bigSep Finset.univ fun p : Fin 10 => dutyTok ER (barCell (peer p c)) 0 p)
    ∗ (bigSep Finset.univ fun p : Fin 10 => dutyTok ER (recvCell p (peer p c)) 0 (0 : Fin 10))
    ∗ (bigSep Finset.univ fun p : Fin 10 => dutyTok ER (sendCell p c) 0 (0 : Fin 10)))

/-- Its positions at its own cells, and those tokens. -/
def linear (c : Dev nD) : sProp 𝕄 :=
  iprop((bigSep Finset.univ fun k : Fin 21 => atPos ER (kcell (c, k)) 0 ∅ 0) ∗ payToks (F := F) c)

/-- The four semaphores of the kernel's scratch arrays that no copy uses, at zero. -/
def idle (c : Dev nD) : sProp 𝕄 :=
  iprop(semVal ((c : Thread nD τ), .dma (4 : DmaSem sig)) 0 ∗ semVal ((c : Thread nD τ), .dma (8 : DmaSem sig)) 0
    ∗ semVal ((c : Thread nD τ), .dma (12 : DmaSem sig)) 0 ∗ semVal ((c : Thread nD τ), .dma (20 : DmaSem sig)) 0)

def ghost (K : Dev nD × Fin 21 → ℕ) (c : Dev nD) : sProp 𝕄 := iprop(records pub K ∗ linear (F := F) c)

/-- What device `c`'s body starts from: the ghost state at some names, the idle semaphores, the credit its own
    waits will spend (ten units on its barrier cell, a copy's credit on each receive cell), the level facts. -/
def start (c : Dev nD) : sProp 𝕄 :=
  iprop((∃ K, ghost pub K c) ∗ idle (F := F) c ∗ cred (tallyAt (barCell c) () 10)
    ∗ (bigSep Finset.univ fun p : Fin 10 => cred (tallyAt (recvCell p c) () (NL p))) ∗ levAts L lv)

def Φ₀ (c : Dev nD) : sProp 𝕄 := iprop(start pub c ∗ ∃ f : Buf (Elt F) (sL c), sL c ↦{fullShare} f)
/-- After the point: the scratch buffer whole again, the kernel's own semaphores at zero (the barrier cell is the
    runtime's: nothing to hand back). -/
def Φ₁ (c : Dev nD) : sProp 𝕄 :=
  iprop((∃ f : Buf (Elt F) (sL c), sL c ↦{fullShare} f) ∗ Pipeline.ownSems0 (Ix := Unit) (Name := ℕ) (U := UU) (Lvl := ℕ) (Val := Elt F) (τ := τ) osem c)

/-! ## The pipeline's proof data -/

/-- What the three input windows stage on device `c`: its blocks of q, k and v as launched. -/
def stgQ (c : Dev nD) : (cc0_stg0_0 : Ref sig .tc).ty.Contents (Elt F) :=
  (win0_0.blk (0 : Fin 1)).view.read (Elt F) ((s₀ m ρ).mem ((c : Thread nD τ).loc main_arg0))
def stgK (c : Dev nD) : (cc0_stg1_0 : Ref sig .tc).ty.Contents (Elt F) :=
  (win0_1.blk (0 : Fin 1)).view.read (Elt F) ((s₀ m ρ).mem ((c : Thread nD τ).loc main_arg1))
def stgV (c : Dev nD) : (cc0_stg2_0 : Ref sig .tc).ty.Contents (Elt F) :=
  (win0_2.blk (0 : Fin 1)).view.read (Elt F) ((s₀ m ρ).mem ((c : Thread nD τ).loc main_arg2))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgQ m ρ c
    | ⟨1, _⟩ => stgK m ρ c
    | ⟨2, _⟩ => stgV m ρ c
    | ⟨3, _⟩ => outAt c
  Φ t := match t with
    | ⟨0, _⟩ => Φ₀ pub c
    | ⟨_ + 1, _⟩ => Φ₁ c
  q _ := fullShare
  owed t := match t with
    | ⟨0, _⟩ => O₀ c
    | ⟨_ + 1, _⟩ => 0

abbrev 𝒱₀ : Variants := Variants.none

end Cert.Ring

end
-- ==== Proof.Launch.lean ====
/-
  The launch of the two-stage exchange on 32 devices.

  Levels: a wait is allowed when the cell waited on lies strictly below the cell of every payment still owed.
  A device pays in program order the ten entry signals (barrier cells, level 1) and then the ten landings
  (receive cells of the three links across the groups at level 2, of the seven links inside at level 3); the
  staging semaphores sit at level 0.  So the staging waits are allowed while everything is owed, the barrier wait
  while the ten landings are owed, the waits for the landings across the groups while the seven inside are owed.

  Ghost state: the launch element funds, per device, the round state, position and reached-mark of its 21 cells
  and the tokens of its own cells' duties; with the counters at zero each cell's invariant is allocated, all
  devices' under one update, and the tokens are dealt around the links (each link is a permutation of the
  devices) so that every device ends with the tokens of the duties it pays.  Four of a device's 24 semaphores
  belong to no cell and travel at zero.

  Launch credit: summed over the devices, the payments addressed to device `c` are ten units on its barrier
  cell (one from the far end of each of its links) and one copy's credit on each of its receive cells.

  Final arrays: the three inputs are never written back; the one write-back of the result window writes the
  whole result array with what the body left in its staging buffer.
-/
import proofs.«900463_g7700000000000464_dist_ring_attn_i_s256_d64_v7x_i32_f32_1_alg».proof.Proof.Ghost

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels: what a wait may owe -/

/-- A payment still owed among the last `n` is one of the payments `20 - n, …, 19`. -/
theorem owedLast_pos (c : Dev nD) : ∀ (n : ℕ) (h : n ≤ 20) (g : GSem nD τ sig) (u : Unit),
    0 < owedLast c n h g u → ∃ k : Fin 20, 20 - n ≤ k.val ∧ g = (item c k).1
  | 0, _, g, u, hg => absurd hg (Nat.lt_irrefl 0)
  | n + 1, h, g, u, hg => by
    rw [owedLast] at hg
    rcases Pipeline.add_pos_cases hg with h1 | h1
    · obtain ⟨k, hk, hgk⟩ := owedLast_pos c n (by omega) g u h1
      exact ⟨k, by omega, hgk⟩
    · exact ⟨⟨19 - n, by omega⟩, by show 20 - (n + 1) ≤ 19 - n; omega, (Pipeline.tallyAt_pos h1).1⟩

theorem item_lo (c : Dev nD) (k : Fin 20) (h : k.val < 10) : item c k = (barCell (peer ⟨k.val, h⟩ c), 1) := by
  unfold item; rw [dif_pos h]
theorem item_hi (c : Dev nD) (k : Fin 20) (h : ¬ k.val < 10) :
    item c k = (recvCell ⟨k.val - 10, by omega⟩ (peer ⟨k.val - 10, by omega⟩ c), NL ⟨k.val - 10, by omega⟩) := by
  unfold item; rw [dif_neg h]

theorem lv_bar (c : Dev nD) : lv (barCell c) () = 1 := by
  show (match role (.reg barS) with | .bar => 1 | .recv p => if p.val < 3 then 2 else 3 | _ => 0) = 1
  rw [role_bar]
theorem lv_recv (p : Fin 10) (c : Dev nD) : lv (recvCell p c) () = if p.val < 3 then 2 else 3 := by
  show (match role (.dma (rS p)) with | .bar => 1 | .recv p => if p.val < 3 then 2 else 3 | _ => 0) = _
  rw [role_recv]
theorem lv_none (c : Dev nD) (q : DmaSem sig) (hq : roleDma q = .none) : lv ((c : Thread nD τ), .dma q) () = 0 := by
  show (match roleDma q with | .bar => 1 | .recv p => if p.val < 3 then 2 else 3 | _ => 0) = 0
  rw [hq]

/-- The level of the cell a payment goes to: the ten entry signals at 1, the landings of the three links across
    the groups at 2, of the seven inside at 3. -/
theorem lv_item (c : Dev nD) (k : Fin 20) : lv (item c k).1 () = if k.val < 10 then 1 else if k.val < 13 then 2 else 3 := by
  by_cases h : k.val < 10
  · rw [item_lo c k h, if_pos h]; exact lv_bar _
  · rw [item_hi c k h, if_neg h]
    show lv (recvCell _ _) () = _
    rw [lv_recv]
    by_cases h3 : k.val < 13
    · rw [if_pos h3, if_pos (show k.val - 10 < 3 by omega)]
    · rw [if_neg h3, if_neg (show ¬ k.val - 10 < 3 by omega)]

theorem L_item (c : Dev nD) (k : Fin 20) : L (item c k).1 = {()} := by
  by_cases h : k.val < 10
  · rw [item_lo c k h]; exact L_tc _ _
  · rw [item_hi c k h]; exact L_tc _ _

omit [FloatOps F] in
/-- A wait at a cell whose level lies below the levels of the payments still owed is allowed. -/
theorem mayWait_owedLast (c : Dev nD) (s : SemLoc sig) (n : ℕ) (h : n ≤ 20)
    (hlv : ∀ k : Fin 20, 20 - n ≤ k.val → lv ((c : Thread nD τ), s) () < lv (item c k).1 ()) :
    (levAts L lv : sProp 𝕄) ⊢ MayWait (c : Thread nD τ) s () (owedLast c n h) :=
  Pipeline.mayWait_of_levAts (by rw [L_tc]; exact Finset.mem_singleton_self _) fun g i hg => by
    obtain ⟨k, hk, rfl⟩ := owedLast_pos c n h g i hg
    exact ⟨by rw [L_item]; exact Finset.mem_singleton_self _, hlv k hk⟩

omit [FloatOps F] in
theorem mayWait_zero (c : Dev nD) (s : SemLoc sig) : (levAts L lv : sProp 𝕄) ⊢ MayWait (c : Thread nD τ) s () 0 := by
  rw [MayWait_zero]; iintro -; iempintro

omit [FloatOps F] in
/-- The barrier wait, the ten landings still owed: they sit at 2 and 3, the barrier cell at 1. -/
theorem mayWait_bar (c : Dev nD) : (levAts L lv : sProp 𝕄) ⊢ MayWait (c : Thread nD τ) (.reg barS) () (owedLast c 10 (by omega)) :=
  mayWait_owedLast c (.reg barS) 10 (by omega) fun k hk => by
    rw [show lv ((c : Thread nD τ), SemLoc.reg barS) () = 1 from lv_bar c, lv_item, if_neg (by omega)]
    split <;> omega

omit [FloatOps F] in
/-- The waits for the landings across the groups, the seven landings inside still owed: those sit at 3. -/
theorem mayWait_zrecv (c : Dev nD) (p : Fin 10) (hp : p.val < 3) :
    (levAts L lv : sProp 𝕄) ⊢ MayWait (c : Thread nD τ) (.dma (rS p)) () (owedLast c 7 (by omega)) :=
  mayWait_owedLast c (.dma (rS p)) 7 (by omega) fun k hk => by
    rw [show lv ((c : Thread nD τ), SemLoc.dma (rS p)) () = if p.val < 3 then 2 else 3 from lv_recv p c, if_pos hp, lv_item,
      if_neg (by omega), if_neg (by omega)]
    omega

omit [FloatOps F] in
/-- A staging semaphore sits at 0, below every payment. -/
theorem mayWait_stage (c : Dev nD) (q : DmaSem sig) (hq : roleDma q = .none) (O : CellTallies nD τ sig Unit) (hO : O = O₀ c ∨ O = 0) :
    (levAts L lv : sProp 𝕄) ⊢ MayWait (c : Thread nD τ) (.dma q) () O := by
  rcases hO with rfl | rfl
  · exact mayWait_owedLast c (.dma q) 20 (le_refl _) fun k _ => by
      rw [lv_none c q hq, lv_item]; split
      · omega
      · split <;> omega
  · exact mayWait_zero c _

/-! ## The launch: cells, tokens, and how the 21 cells and the 24 semaphores of a device are listed -/

theorem ownSemFacts : Pipeline.OwnSemFacts cfg0.spec osem := by decide

theorem share_eq (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) (w : Fin cfg0.W) :
    (dats pub outAt m ρ 0 c).share w = fullShare := by unfold Dat.share; split <;> rfl

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The semaphore and duty of a device's own tokens as minted: the ten duties of its barrier cell, the one duty
    of each send cell and of each receive cell. -/
def tokSem (jp : Fin 3 × Fin 10) : SemLoc sig × Fin 10 :=
  match jp.1 with
  | 0 => (.reg barS, jp.2)
  | 1 => (.dma (sS jp.2), 0)
  | 2 => (.dma (rS jp.2), 0)
theorem tokSem_injective : Function.Injective tokSem := by decide
abbrev tokOf (x : Dev nD × (Fin 3 × Fin 10)) : GSem nD τ sig × ℕ × Fin 10 := (((x.1 : Thread nD τ), (tokSem x.2).1), 0, (tokSem x.2).2)
theorem tokOf_injective : Function.Injective tokOf := by
  rintro ⟨c, jp⟩ ⟨c', jp'⟩ h
  have h1 : c = c' := by have := congrArg (fun x : GSem nD τ sig × ℕ × Fin 10 => x.1.1.1) h; exact this
  subst h1
  have h2 : tokSem jp = tokSem jp' :=
    Prod.ext (congrArg (fun x : GSem nD τ sig × ℕ × Fin 10 => x.1.2) h) (congrArg (fun x : GSem nD τ sig × ℕ × Fin 10 => x.2.2) h)
  rw [tokSem_injective h2]
def ringToks : Finset (GSem nD τ sig × ℕ × Fin 10) := Finset.univ.map ⟨tokOf, tokOf_injective⟩

def u₀ : UU :=
  (initOf (Pipeline.cells cfgs cellOf_inj) (Pipeline.launchToks cfgs cellOf_inj), initOf ringCells ringToks)

/-- The 21 cells of a device: the barrier cell, the ten send cells, the ten receive cells. -/
def e21 : Unit ⊕ (Fin 10 ⊕ Fin 10) ≃ Fin 21 := Equiv.ofBijective (Sum.elim (fun _ => kB) (Sum.elim kS kR)) (by decide)

omit [FloatOps F] in
theorem bigSep_fin21 (Φ : Fin 21 → sProp 𝕄) :
    bigSep Finset.univ Φ = iprop(Φ kB ∗ (bigSep Finset.univ fun p : Fin 10 => Φ (kS p)) ∗ bigSep Finset.univ fun p : Fin 10 => Φ (kR p)) := by
  rw [bigSep_univ_equiv e21 Φ, bigSep_univ_sum, bigSep_univ_sum, bigSep_univ_of_subsingleton ()]; rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The kernel's own 24 semaphores: the ten send semaphores, the ten receive semaphores, the four no copy uses. -/
def fS : Fin 10 → Fin 24 := ![1, 2, 3, 9, 10, 11, 12, 13, 14, 15]
def fR : Fin 10 → Fin 24 := ![7, 6, 5, 23, 22, 21, 20, 19, 18, 17]
def fI : Fin 4 → Fin 24 := ![0, 4, 8, 16]
def e24 : Fin 10 ⊕ (Fin 10 ⊕ Fin 4) ≃ Fin 24 := Equiv.ofBijective (Sum.elim fS (Sum.elim fR fI)) (by decide)
theorem osem_fS : ∀ p : Fin 10, osem (fS p) = .dma (sS p) := by decide
theorem osem_fR : ∀ p : Fin 10, osem (fR p) = .dma (rS p) := by decide

/-- The duty tokens of device `c`'s own cells. -/
def toks (c : Dev nD) : sProp 𝕄 :=
  iprop((bigSep Finset.univ fun p : Fin 10 => dutyTok ER (barCell c) 0 p)
    ∗ (bigSep Finset.univ fun p : Fin 10 => dutyTok ER (sendCell p c) 0 (0 : Fin 10))
    ∗ (bigSep Finset.univ fun p : Fin 10 => dutyTok ER (recvCell p c) 0 (0 : Fin 10)))

/-- What the launch element deals device `c`. -/
def G (pub : Dev nD → Nat → Nat → Nat → Elt F .bf16) (c : Dev nD) : sProp 𝕄 :=
  iprop((bigSep Finset.univ fun k : Fin 21 => roundState ER (ringRd pub) (kcell (c, k)) 0)
    ∗ (bigSep Finset.univ fun k : Fin 21 => iprop(atPos ER (kcell (c, k)) 0 ∅ 0 ∗ reached ER (kcell (c, k)) 0)) ∗ toks c)

/-- What the global step makes of it: the ghost state at some names, and the four idle semaphores. -/
def G' (pub : Dev nD → Nat → Nat → Nat → Elt F .bf16) (c : Dev nD) : sProp 𝕄 := iprop((∃ K, ghost pub K c) ∗ idle (F := F) c)

omit [FloatOps F] in
theorem fund_ring (pub : Dev nD → Nat → Nat → Nat → Elt F .bf16) :
    BI.own (ER (initOf ringCells ringToks)) ⊢ (|==> bigSep Finset.univ (G pub) : sProp 𝕄) := by
  have hX (Φ : GSem nD τ sig → sProp 𝕄) : bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (ringRd pub) ringCells ringToks) $$ HX with ⟨Hst, Hr, Hat, Htok⟩
  imodintro
  ihave Hst' := (Entails.of_eq (hX fun g => roundState ER (ringRd pub) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores, sorted: the send and receive cells', and the four idle ones. -/
theorem ownSems0_eq (c : Dev nD) : (Pipeline.ownSems0 (Ix := Unit) (Name := ℕ) (U := UU) (Lvl := ℕ) (Val := Elt F) (τ := τ) osem c : sProp 𝕄)
    = iprop((bigSep Finset.univ fun p : Fin 10 => semVal (sendCell p c) 0) ∗ (bigSep Finset.univ fun p : Fin 10 => semVal (recvCell p c) 0) ∗ idle (F := F) c) := by
  unfold Pipeline.ownSems0 idle
  rw [bigSep_univ_equiv e24, bigSep_univ_sum, bigSep_univ_sum, bigSep_fin4]
  refine congrArg₂ _ (bigSep_congr fun p _ => ?_) (congrArg₂ _ (bigSep_congr fun p _ => ?_) rfl)
  · show semVal ((c : Thread nD τ), osem (fS p)) 0 = _; rw [osem_fS]
  · show semVal ((c : Thread nD τ), osem (fR p)) 0 = _; rw [osem_fR]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 21 => semVal (kcell (c, k)) 0) ∗ idle (F := F) c : sProp 𝕄) := by
  rw [ownSems0_eq, unscopedSems0_eq, bigSep_fin21]
  iintro ⟨⟨HS, HR, HI⟩, HB⟩
  isplitr [HI]
  · isplitl [HB]; · iexact HB
    isplitl [HS]
    · iapply (Entails.of_eq (bigSep_congr fun p _ => by rw [kcell_kS])); iexact HS
    · iapply (Entails.of_eq (bigSep_congr fun p _ => by rw [kcell_kR])); iexact HR
  · iexact HI

omit [FloatOps F] in
theorem core_alloc (pub : Dev nD → Nat → Nat → Nat → Elt F .bf16) (c : Dev nD) :
    iprop(Pipeline.ownSems0 (Ix := Unit) (Name := ℕ) (U := UU) (Lvl := ℕ) (Val := Elt F) (τ := τ) osem c ∗ unscopedSems0 c ∗ G pub c)
      ⊢ |={Set.univ}=> iprop((bigSep Finset.univ fun k => iprop(∃ κ : ℕ, cellInv ER (ringRd pub) κ (kcell (c, k))))
          ∗ (bigSep Finset.univ fun k => iprop(atPos ER (kcell (c, k)) 0 ∅ 0 ∗ reached ER (kcell (c, k)) 0)) ∗ toks c ∗ idle (F := F) c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 21 => semVal (kcell (c, k)) 0) ∗ bigSep Finset.univ fun k : Fin 21 => roundState ER (ringRd pub) (kcell (c, k)) 0)
      ⊢ (|={Set.univ}=> bigSep Finset.univ fun k => iprop(∃ κ : ℕ, cellInv ER (ringRd pub) κ (kcell (c, k))) : sProp 𝕄) from by
        rw [← bigSep_sep']
        exact (bigSep_mono fun k _ => (Rounds.body_intro ER (ringRd pub) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

omit [FloatOps F] in
/-- A family over (device, link) may be read at the far end of each link instead: every link is a permutation of
    the devices. -/
theorem bigSep_around (Φ : Dev nD → Fin 10 → sProp 𝕄) :
    (bigSep Finset.univ fun c : Dev nD => bigSep Finset.univ fun p : Fin 10 => Φ c p)
      = bigSep Finset.univ fun c : Dev nD => bigSep Finset.univ fun p : Fin 10 => Φ (peer p c) p := by
  rw [bigSep_univ_comm Φ, bigSep_univ_comm (fun (c : Dev nD) (p : Fin 10) => Φ (peer p c) p)]
  exact bigSep_congr fun p _ => bigSep_univ_equiv (link p) (fun c => Φ c p)

omit [FloatOps F] in
/-- The tokens dealt around: the barrier token named after link `p` and the receive token of link `p` go to the
    device whose link `p` ends there. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_around (fun c p => (dutyTok ER (barCell c) 0 p : sProp 𝕄)),
    bigSep_around (fun c p => (dutyTok ER (recvCell p c) 0 (0 : Fin 10) : sProp 𝕄))]
  iintro ⟨H1, H2, H3⟩
  isplitl [H1]; · iexact H1
  isplitl [H3]; · iexact H3
  iexact H2

omit [FloatOps F] in
theorem regroup (pub : Dev nD → Nat → Nat → Nat → Elt F .bf16) :
    (bigSep Finset.univ fun c : Dev nD => iprop((bigSep Finset.univ fun k => iprop(∃ κ : ℕ, cellInv ER (ringRd pub) κ (kcell (c, k))))
          ∗ (bigSep Finset.univ fun k => iprop(atPos ER (kcell (c, k)) 0 ∅ 0 ∗ reached ER (kcell (c, k)) 0)) ∗ toks c ∗ idle (F := F) c) : sProp 𝕄)
      ⊢ bigSep Finset.univ (G' pub) := by
  rw [bigSep_sep', bigSep_sep', bigSep_sep', ← bigSep_univ_prod (fun ck : Dev nD × Fin 21 => iprop(∃ κ : ℕ, cellInv ER (ringRd pub) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok, Hidle⟩
  ihave HK := (BI.bigSep_exists_pi Finset.univ (fun (ck : Dev nD × Fin 21) (κ : ℕ) => (cellInv ER (ringRd pub) κ (kcell ck) : sProp 𝕄))) $$ HI
  icases HK with ⟨%K, #HI⟩
  ihave Htk := (toks_around (F := F)) $$ Htok
  unfold G'
  rw [bigSep_sep']
  isplitr [Hidle]
  · iapply (BI.bigSep_with_persistent (R := records pub K) fun c _ => show iprop(records pub K ∗ linear (F := F) c) ⊢ iprop(∃ K, ghost pub K c) from by
      iintro H; iexists K; unfold ghost; iexact H)
    isplitr
    · unfold records; isplitl; · iexact HI
      iexact HR
    · iapply (Entails.of_eq (bigSep_sep' Finset.univ (fun c : Dev nD => bigSep Finset.univ fun k : Fin 21 => (atPos ER (kcell (c, k)) 0 ∅ 0 : sProp 𝕄)) payToks).symm)
      isplitl [Hat]; · iexact Hat
      iexact Htk
  · iexact Hidle

omit [FloatOps F] in
/-- The global step: own and unscoped semaphores of every device at once. -/
theorem glob (pub : Dev nD → Nat → Nat → Nat → Elt F .bf16) :
    (bigSep Finset.univ fun c => iprop(Pipeline.ownSems0 (Ix := Unit) (Name := ℕ) (U := UU) (Lvl := ℕ) (Val := Elt F) (τ := τ) osem c ∗ unscopedSems0 c ∗ G pub c) : sProp 𝕄)
    ⊢ |={Set.univ}=> bigSep Finset.univ (G' pub) :=
  ((bigSep_mono fun c _ => core_alloc pub c).trans (bigSep_fupd _ _)).trans (BI.fupd_mono (regroup pub))

/-! ### The launch credit -/

/-- Payment `k` of device `d`, as tallies. -/
def pay (d : Dev nD) (k : Fin 20) : CellTallies nD τ sig Unit := tallyAt (item d k).1 () (item d k).2

theorem owedLast_eq_sum (d : Dev nD) : ∀ (n : ℕ) (h : n ≤ 20),
    owedLast d n h = ∑ k ∈ Finset.univ.filter (fun k : Fin 20 => 20 - n ≤ k.val), pay d k
  | 0, _ => by
    rw [Finset.filter_eq_empty_iff.mpr fun k _ => by have := k.isLt; omega, Finset.sum_empty]; rfl
  | n + 1, h => by
    have hins : Finset.univ.filter (fun k : Fin 20 => 20 - (n + 1) ≤ k.val)
        = insert (⟨19 - n, by omega⟩ : Fin 20) (Finset.univ.filter (fun k : Fin 20 => 20 - n ≤ k.val)) := by
      ext k
      simp only [Finset.mem_filter, Finset.mem_univ, true_and, Finset.mem_insert, Fin.ext_iff]
      omega
    rw [hins, Finset.sum_insert (by simp only [Finset.mem_filter, Finset.mem_univ, true_and]; omega), owedLast, owedLast_eq_sum d n (by omega), add_comm]
    rfl

theorem O₀_eq_sum : (O₀ : Dev nD → CellTallies nD τ sig Unit) = fun d => ∑ k ∈ (Finset.univ : Finset (Fin 20)), pay d k := by
  funext d
  unfold O₀
  rw [owedLast_eq_sum d 20 (le_refl _)]
  exact Finset.sum_congr (Finset.filter_true_of_mem fun k _ => by omega) fun _ _ => rfl

/-- The 20 payments: the ten entry signals, the ten landings. -/
def e20 : Fin 10 ⊕ Fin 10 ≃ Fin 20 :=
  Equiv.ofBijective (Sum.elim (fun p => ⟨p.val, by omega⟩) (fun p => ⟨p.val + 10, by omega⟩)) (by decide)

theorem pay_lo (d : Dev nD) (p : Fin 10) : pay d (e20 (.inl p)) = tallyAt (((peer p d : Dev nD) : Thread nD τ), .reg barS) () 1 := by
  unfold pay; rw [item_lo d _ (show (e20 (.inl p)).val < 10 from p.isLt)]; rfl
theorem pay_hi (d : Dev nD) (p : Fin 10) : pay d (e20 (.inr p)) = tallyAt (((peer p d : Dev nD) : Thread nD τ), .dma (rS p)) () (NL p) := by
  unfold pay; rw [item_hi d _ (show ¬ (e20 (.inr p)).val < 10 from by show ¬ p.val + 10 < 10; omega)]
  have hp : (⟨(e20 (.inr p)).val - 10, by show p.val + 10 - 10 < 10; omega⟩ : Fin 10) = p := Fin.ext (show p.val + 10 - 10 = p.val by omega)
  simp only [hp]

omit [FloatOps F] in
theorem sum_tallyAt {α : Type} [DecidableEq α] (s : Finset α) (g : GSem nD τ sig) (f : α → ℕ) :
    (∑ a ∈ s, tallyAt g () (f a) : CellTallies nD τ sig Unit) = tallyAt g () (∑ a ∈ s, f a) := by
  induction s using Finset.induction_on with
  | empty => rw [Finset.sum_empty, Finset.sum_empty, tallyAt_zero]
  | insert a s ha ih => rw [Finset.sum_insert ha, Finset.sum_insert ha, ih, tallyAt_add]

omit [FloatOps F] in
/-- What the launch deals device `c` for the others' payments to its cells: ten units on its barrier cell, a copy's
    credit on each receive cell. -/
theorem creds (c : Dev nD) :
    (Pipeline.launchCred O₀ c : sProp 𝕄)
      ⊢ iprop(cred (tallyAt (barCell c) () 10) ∗ bigSep Finset.univ fun p : Fin 10 => cred (tallyAt (recvCell p c) () (NL p))) := by
  rw [O₀_eq_sum, Pipeline.launchCred_sum, bigSep_univ_equiv e20, bigSep_univ_sum]
  refine BI.sep_mono ?_ (bigSep_mono fun p _ => ?_)
  · have h10 : (cred (tallyAt (barCell c) () 10) : sProp 𝕄) = bigSep Finset.univ fun _ : Fin 10 => cred (tallyAt (barCell c) () 1) := by
      rw [← Pipeline.cred_finsetSum, sum_tallyAt]; rfl
    rw [h10]
    refine bigSep_mono fun p _ => ?_
    rw [show (fun d : Dev nD => pay d (e20 (.inl p))) = fun d => tallyAt (((peer p d : Dev nD) : Thread nD τ), .reg barS) () 1 from funext fun d => pay_lo d p]
    exact Pipeline.launchCred_tallyAt (.reg barS) (peer p) (peer (inv p)) (peer_inv' p) (peer_inv p) () 1 c
  · rw [show (fun d : Dev nD => pay d (e20 (.inr p))) = fun d => tallyAt (((peer p d : Dev nD) : Thread nD τ), .dma (rS p)) () (NL p) from funext fun d => pay_hi d p]
    exact Pipeline.launchCred_tallyAt (.dma (rS p)) (peer p) (peer (inv p)) (peer_inv' p) (peer_inv p) () (NL p) c

/-! ### The theorem's side conditions -/

omit [FloatOps F] in
theorem start_intro (pub : Dev nD → Nat → Nat → Nat → Elt F .bf16) (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' pub c)
      ⊢ |={Set.univ}=> iprop(start pub c ∗ emp) := by
  iintro ⟨-, Hlev, Hcr, -, HG⟩
  ihave Hc := (creds (F := F) c) $$ Hcr
  icases Hc with ⟨H1, HN⟩
  imodintro
  unfold start G'
  icases HG with ⟨HG, Hidle⟩
  isplitl
  · isplitl [HG]; · iexact HG
    isplitl [Hidle]; · iexact Hidle
    isplitl [H1]; · iexact H1
    isplitl [HN]; · iexact HN
    iexact Hlev
  · iempintro

theorem phi0_intro (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    iprop(start pub c ∗ Pipeline.prefHeld Pipeline.Prefetch.none c (fun _ => fullShare.right) (fun k => k.elim0) ∗ Pipeline.scopedRest cfg0.spec c)
      ⊢ (dats pub outAt m ρ 0 c).Φ 0 := by
  rw [show (dats pub outAt m ρ 0 c).Φ 0 = Φ₀ pub c from rfl, scopedRest0_eq]
  unfold Φ₀
  iintro ⟨Hs, -, Hr⟩
  isplitl [Hs]; · iexact Hs
  iexact Hr

theorem phi1_exit (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    (dats pub outAt m ρ 0 c).Φ (Fin.last cfg0.N) ⊢ iprop(emp ∗ Pipeline.ownSems0 osem c ∗ Pipeline.scopedRest cfg0.spec c) := by
  rw [show (dats pub outAt m ρ 0 c).Φ (Fin.last cfg0.N) = Φ₁ c from rfl, scopedRest0_eq]
  unfold Φ₁
  iintro ⟨Hr, Hz⟩
  isplitr; · iempintro
  isplitl [Hz]; · iexact Hz
  iexact Hr

theorem waits (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    (levAts L lv : sProp 𝕄) ⊢ Pipeline.cellsWaits cfgs (dats pub outAt m ρ) () 0 c :=
  Pipeline.cellsWaits_intro cfgs (dats pub outAt m ρ) () 0 c fun w s t =>
    mayWait_stage c _ (by fin_cases w <;> fin_cases s <;> rfl) _ (by
      rcases t with ⟨_ | _, ht⟩
      · exact Or.inl rfl
      · exact Or.inr rfl)

/-! ### The run -/

def finalA (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) (w : Fin cfg0.W) :
    Buf (Elt F) ((cfg0.win w).arr.view.loc (c : Thread nD τ)) := (dats pub outAt m ρ 0 c).arrAt w cfg0.N

def QC (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) : PUnit × MemSt nD τ sig (Elt F) → Prop := fun r =>
  ∀ c : Dev nD, ∀ w : Fin cfg0.W, r.2.mem ((cfg0.win w).arr.view.loc (c : Thread nD τ)) = finalA pub outAt m ρ c w

set_option maxRecDepth 8000 in
/-- At the compiled mesh of 32 devices, for any float values, from any memory with zero counters: if every device's
    body meets its obligation, every weakly fair execution of the program terminates, and every final state has each
    window's array on each device at the contents the proof data name. -/
theorem run_main (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg)
    (hbody : ∀ c, BodyObligation (dats (F := F) pub outAt m ρ 0 c) (defs₀ (F := F)) 𝒱₀ () Set.univ) :
    θ_run defs (onTc (τ := τ) (main (F := F))) (s₀ m ρ) (QC pub outAt m ρ) :=
  Pipeline.θ_run_region_owing_glob_pf (fun p => (cfgs p).toPCfg) (fun p => (cfgs p).toPCfg_adm) (dats pub outAt m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq pub outAt m ρ)
    (hdistinct := winFacts0.arr_inj)
    (O₀ := O₀) (howed₀ := fun _ => rfl) (howedN := fun _ => rfl)
    (L := L) (lv := lv) (hL := L_of_ne) (hwaits := waits pub outAt m ρ)
    (G := G pub) (G' := G' pub) (u₀ := u₀)
    (hu₀ := by
      unfold u₀
      iintro Hu
      ihave H := (ownU_pair _ _) $$ Hu
      icases H with ⟨HP, HX⟩
      imod (fund_ring pub) $$ HX with HG
      imodintro
      isplitl [HP] <;> iassumption)
    (hglob := glob pub)
    (hA := fun _ _ => rfl) (hpf := fun _ k => k.elim0)
    (X := start pub) (Y := fun _ => iprop(emp)) (Z := fun _ => iprop(emp))
    (hX := start_intro pub m ρ) (hin := phi0_intro pub outAt m ρ) (hout := phi1_exit pub outAt m ρ)
    (QY := fun _ _ => True)
    (hY := fun c s' => by
      iintro ⟨-, -, HSI⟩
      imodintro
      isplitr; · ipureintro; trivial
      iexact HSI)
    (hQ := fun _ h c w => (h c).1 w)

/-- info: 'Cert.Ring.run_main' depends on axioms: [propext, Classical.choice, Quot.sound] -/
#guard_msgs in #print axioms run_main

/-! ### The final arrays -/

theorem cfg0_N : cfg0.N = 1 := by decide
def t₀ : Fin cfg0.N := ⟨0, by rw [cfg0_N]; decide⟩

/-- The three input arrays hold what they held. -/
theorem finalA_q (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (0 : Fin 4) = m ((c : Thread nD τ).loc main_arg0) :=
  (dats (F := F) pub outAt m ρ 0 c).arrAt_in (0 : Fin 4) rfl _
theorem finalA_k (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (1 : Fin 4) = m ((c : Thread nD τ).loc main_arg1) :=
  (dats (F := F) pub outAt m ρ 0 c).arrAt_in (1 : Fin 4) rfl _
theorem finalA_v (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (2 : Fin 4) = m ((c : Thread nD τ).loc main_arg2) :=
  (dats (F := F) pub outAt m ρ 0 c).arrAt_in (2 : Fin 4) rfl _

/-- The result array holds what the body left in the result's staging buffer: the one write-back writes the whole array. -/
theorem finalA_out (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (3 : Fin 4) = (outAt c : Buf (Elt F) ((c : Thread nD τ).loc main_v1)) := by
  unfold finalA
  rw [show cfg0.N = (t₀ : Fin cfg0.N).val + 1 from rfl, Dat.arrAt_succ, if_pos (show (cfg0.win (3 : Fin 4)).flush t₀ = true from by decide)]
  exact Memref.write_access_unit_zero_univ (Elt F) main_v1 (funext fun a => Nat.zero_mul _) _ _ (outAt c)

/-- The run, with the arrays named: on every device the result array holds `outAt c` and the three inputs are unchanged. -/
theorem run_named (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg)
    (hbody : ∀ c, BodyObligation (dats (F := F) pub outAt m ρ 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = (outAt c : Buf (Elt F) ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (run_main pub outAt m ρ hbody).mono fun r h c =>
    ⟨(h c (3 : Fin 4)).trans (finalA_out pub outAt m ρ c), (h c (0 : Fin 4)).trans (finalA_q pub outAt m ρ c),
      (h c (1 : Fin 4)).trans (finalA_k pub outAt m ρ c), (h c (2 : Fin 4)).trans (finalA_v pub outAt m ρ c)⟩

/-- info: 'Cert.Ring.run_named' depends on axioms: [propext, Classical.choice, Quot.sound] -/
#guard_msgs in #print axioms run_named

end Cert.Ring

end
-- ==== Proof.LinksW.lean ====
/-
  The links of the two-stage exchange on 32 devices.  Device `c` sits in a group of eight (`c / 8`) at position
  `c % 8`.  Its ten outgoing links: three across the groups, to the devices at the same position 8, 16 and 24
  further round, and seven inside its group, to the positions 1 … 7 further round.  Link `p` of device `c` ends
  at `peer p c`; the link of `peer p c` that comes back to `c` is `inv p`.
-/
import proofs.«900463_g7700000000000464_dist_ring_attn_i_s256_d64_v7x_i32_f32_1_alg».proof.Proof.Gen.Kernel

namespace Cert.RingW

open Cert.Kernel Cert.Kernel.Gen Idealize.ShloMosaic

/-- The device link `p` of device `c` ends at. -/
def peer (p : Fin 10) (c : Dev nD) : Dev nD :=
  if p.val < 3 then ⟨(c.val + 8 * (p.val + 1)) % 32, Nat.mod_lt _ (by decide)⟩
  else ⟨c.val - c.val % 8 + (c.val % 8 + (p.val - 2)) % 8, by
    have := c.isLt; have h : (nD : Nat) = 32 := rfl; omega⟩

/-- The link that comes back. -/
def inv (p : Fin 10) : Fin 10 := ![2, 1, 0, 9, 8, 7, 6, 5, 4, 3] p

theorem inv_inv : ∀ p : Fin 10, inv (inv p) = p := by decide
theorem peer_inv : ∀ (p : Fin 10) (c : Dev nD), peer (inv p) (peer p c) = c := by decide +kernel
theorem peer_inv' : ∀ (p : Fin 10) (c : Dev nD), peer p (peer (inv p) c) = c := by decide +kernel
theorem peer_ne : ∀ (p : Fin 10) (c : Dev nD), peer p c ≠ c := by decide +kernel
theorem peer_inj : ∀ (c : Dev nD) (p p' : Fin 10), peer p c = peer p' c → p = p' := by decide +kernel

/-- Link `p` as a permutation of the devices. -/
def link (p : Fin 10) : Dev nD ≃ Dev nD := ⟨peer p, peer (inv p), peer_inv p, peer_inv' p⟩

/-- The printed device chains: the ten entry signals name the ten links' ends in order, the three copies across
    the groups links 0, 1, 2 and the seven inside the group links 3 … 9. -/
theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel
theorem dev8_eq : ∀ c : Dev nD, (⟨k0_dev8 c, k0_dev8_lt c⟩ : Dev nD) = peer 7 c := by decide +kernel
theorem dev9_eq : ∀ c : Dev nD, (⟨k0_dev9 c, k0_dev9_lt c⟩ : Dev nD) = peer 8 c := by decide +kernel
theorem dev10_eq : ∀ c : Dev nD, (⟨k0_dev10 c, k0_dev10_lt c⟩ : Dev nD) = peer 9 c := by decide +kernel
theorem dev11_eq : ∀ c : Dev nD, (⟨k0_dev11 c, k0_dev11_lt c⟩ : Dev nD) = peer 0 c := by decide +kernel
theorem dev12_eq : ∀ c : Dev nD, (⟨k0_dev12 c, k0_dev12_lt c⟩ : Dev nD) = peer 1 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 3 c := by decide +kernel
theorem dev15_eq : ∀ c : Dev nD, (⟨k0_dev15 c, k0_dev15_lt c⟩ : Dev nD) = peer 4 c := by decide +kernel
theorem dev16_eq : ∀ c : Dev nD, (⟨k0_dev16 c, k0_dev16_lt c⟩ : Dev nD) = peer 5 c := by decide +kernel
theorem dev17_eq : ∀ c : Dev nD, (⟨k0_dev17 c, k0_dev17_lt c⟩ : Dev nD) = peer 6 c := by decide +kernel
theorem dev18_eq : ∀ c : Dev nD, (⟨k0_dev18 c, k0_dev18_lt c⟩ : Dev nD) = peer 7 c := by decide +kernel
theorem dev19_eq : ∀ c : Dev nD, (⟨k0_dev19 c, k0_dev19_lt c⟩ : Dev nD) = peer 8 c := by decide +kernel
theorem dev20_eq : ∀ c : Dev nD, (⟨k0_dev20 c, k0_dev20_lt c⟩ : Dev nD) = peer 9 c := by decide +kernel

end Cert.RingW
-- ==== Proof.SchedW.lean ====
/-
  The cells, the schedule and the levels of the two-stage exchange.

  Every device has one barrier cell (the runtime's barrier semaphore), and per link `p` a send cell (its own
  copy along link `p` has read its source) and a receive cell (the copy that arrives along link `p`, from
  `peer (inv p) c`, has landed).  All cells have one round.  The barrier cell has ten duties of one unit, one
  per link: duty `p` is the entry signal of the device at the far end of the link that comes back, and it hands
  over that device's landing slot for this device's copy, with the fact that its receive cell is at round 0.
  A receive cell's one duty hands its owner the landing slot holding the sender's slab; a send cell's one duty
  hands back the share of the source the copy was reading.

  The scratch buffer of device `c` is [8, 4, 2, 256, 64]: entry (s, i, kv, r, d) is meant to hold entry
  (kv, r, d) of what device `srcDev c s i` publishes (its keys for kv = 0, its values for kv = 1).
-/
import proofs.«900463_g7700000000000464_dist_ring_attn_i_s256_d64_v7x_i32_f32_1_alg».proof.Proof.LinksW
import proofs.«900463_g7700000000000464_dist_ring_attn_i_s256_d64_v7x_i32_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 10`) -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barS : Sem sig := (SemArray.scalar (sig.barrier 0 rfl) : Sems sig S_).sem
/-- The send semaphore of link `p` (on the sender) and the receive semaphore of link `p` (on the receiver). -/
def sS (p : Fin 10) : DmaSem sig := ![5, 6, 7, 13, 14, 15, 16, 17, 18, 19] p
def rS (p : Fin 10) : DmaSem sig := ![11, 10, 9, 27, 26, 25, 24, 23, 22, 21] p

abbrev barCell (c : Dev nD) : GSem nD τ sig := ((c : Thread nD τ), .reg barS)
abbrev sendCell (p : Fin 10) (c : Dev nD) : GSem nD τ sig := ((c : Thread nD τ), .dma (sS p))
abbrev recvCell (p : Fin 10) (c : Dev nD) : GSem nD τ sig := ((c : Thread nD τ), .dma (rS p))

/-- What a semaphore is in the exchange. -/
inductive Role where
  | bar | send (p : Fin 10) | recv (p : Fin 10) | none
  deriving DecidableEq

def roleDma (q : DmaSem sig) : Role :=
  match q.val with
  | 5 => .send 0 | 6 => .send 1 | 7 => .send 2
  | 13 => .send 3 | 14 => .send 4 | 15 => .send 5 | 16 => .send 6 | 17 => .send 7 | 18 => .send 8 | 19 => .send 9
  | 11 => .recv 0 | 10 => .recv 1 | 9 => .recv 2
  | 27 => .recv 3 | 26 => .recv 4 | 25 => .recv 5 | 24 => .recv 6 | 23 => .recv 7 | 22 => .recv 8 | 21 => .recv 9
  | _ => .none

def role : SemLoc sig → Role
  | .reg s => if s = barS then .bar else .none
  | .dma q => roleDma q

theorem role_bar : role (.reg barS) = .bar := by
  show (if barS = barS then Role.bar else Role.none) = Role.bar
  exact if_pos rfl
theorem role_send : ∀ p : Fin 10, role (.dma (sS p)) = .send p := by decide
theorem role_recv : ∀ p : Fin 10, role (.dma (rS p)) = .recv p := by decide

/-! ## The scratch buffer, its slots and its intended contents -/

abbrev A4 : Memref sig .tc .vmem S8x4x2x256x64 .bf16 := Memref.whole cc0_scratch0
abbrev sL (c : Dev nD) : Loc nD τ sig := (c : Thread nD τ).loc cc0_scratch0

/-- The slots [0, i] (two [256, 64] blocks each), as the kernel spells them. -/
abbrev zM0 : Memref sig .tc .vmem S2x256x64 .bf16 := (A4.slice (Rect.unit (s := S8x4x2x256x64) ![0, 0, 0, 0, 0] S1x1x2x256x64.size inb_S8x4x2x256x64_S1x1x2x256x64_0_0_0_0_0) (fun _ => rfl)).squeeze S2x256x64 squeezes_S1x1x2x256x64_S2x256x64
abbrev zM1 : Memref sig .tc .vmem S2x256x64 .bf16 := (A4.slice (Rect.unit (s := S8x4x2x256x64) ![0, 1, 0, 0, 0] S1x1x2x256x64.size inb_S8x4x2x256x64_S1x1x2x256x64_0_1_0_0_0) (fun _ => rfl)).squeeze S2x256x64 squeezes_S1x1x2x256x64_S2x256x64
abbrev zM2 : Memref sig .tc .vmem S2x256x64 .bf16 := (A4.slice (Rect.unit (s := S8x4x2x256x64) ![0, 2, 0, 0, 0] S1x1x2x256x64.size inb_S8x4x2x256x64_S1x1x2x256x64_0_2_0_0_0) (fun _ => rfl)).squeeze S2x256x64 squeezes_S1x1x2x256x64_S2x256x64
abbrev zM3 : Memref sig .tc .vmem S2x256x64 .bf16 := (A4.slice (Rect.unit (s := S8x4x2x256x64) ![0, 3, 0, 0, 0] S1x1x2x256x64.size inb_S8x4x2x256x64_S1x1x2x256x64_0_3_0_0_0) (fun _ => rfl)).squeeze S2x256x64 squeezes_S1x1x2x256x64_S2x256x64
/-- The slots [s] (four such pairs each). -/
abbrev pM0 : Memref sig .tc .vmem S4x2x256x64 .bf16 := (A4.slice (Rect.unit (s := S8x4x2x256x64) ![0, 0, 0, 0, 0] S1x4x2x256x64.size inb_S8x4x2x256x64_S1x4x2x256x64_0_0_0_0_0) (fun _ => rfl)).squeeze S4x2x256x64 squeezes_S1x4x2x256x64_S4x2x256x64
abbrev pM1 : Memref sig .tc .vmem S4x2x256x64 .bf16 := (A4.slice (Rect.unit (s := S8x4x2x256x64) ![1, 0, 0, 0, 0] S1x4x2x256x64.size inb_S8x4x2x256x64_S1x4x2x256x64_1_0_0_0_0) (fun _ => rfl)).squeeze S4x2x256x64 squeezes_S1x4x2x256x64_S4x2x256x64
abbrev pM2 : Memref sig .tc .vmem S4x2x256x64 .bf16 := (A4.slice (Rect.unit (s := S8x4x2x256x64) ![2, 0, 0, 0, 0] S1x4x2x256x64.size inb_S8x4x2x256x64_S1x4x2x256x64_2_0_0_0_0) (fun _ => rfl)).squeeze S4x2x256x64 squeezes_S1x4x2x256x64_S4x2x256x64
abbrev pM3 : Memref sig .tc .vmem S4x2x256x64 .bf16 := (A4.slice (Rect.unit (s := S8x4x2x256x64) ![3, 0, 0, 0, 0] S1x4x2x256x64.size inb_S8x4x2x256x64_S1x4x2x256x64_3_0_0_0_0) (fun _ => rfl)).squeeze S4x2x256x64 squeezes_S1x4x2x256x64_S4x2x256x64
abbrev pM4 : Memref sig .tc .vmem S4x2x256x64 .bf16 := (A4.slice (Rect.unit (s := S8x4x2x256x64) ![4, 0, 0, 0, 0] S1x4x2x256x64.size inb_S8x4x2x256x64_S1x4x2x256x64_4_0_0_0_0) (fun _ => rfl)).squeeze S4x2x256x64 squeezes_S1x4x2x256x64_S4x2x256x64
abbrev pM5 : Memref sig .tc .vmem S4x2x256x64 .bf16 := (A4.slice (Rect.unit (s := S8x4x2x256x64) ![5, 0, 0, 0, 0] S1x4x2x256x64.size inb_S8x4x2x256x64_S1x4x2x256x64_5_0_0_0_0) (fun _ => rfl)).squeeze S4x2x256x64 squeezes_S1x4x2x256x64_S4x2x256x64
abbrev pM6 : Memref sig .tc .vmem S4x2x256x64 .bf16 := (A4.slice (Rect.unit (s := S8x4x2x256x64) ![6, 0, 0, 0, 0] S1x4x2x256x64.size inb_S8x4x2x256x64_S1x4x2x256x64_6_0_0_0_0) (fun _ => rfl)).squeeze S4x2x256x64 squeezes_S1x4x2x256x64_S4x2x256x64
abbrev pM7 : Memref sig .tc .vmem S4x2x256x64 .bf16 := (A4.slice (Rect.unit (s := S8x4x2x256x64) ![7, 0, 0, 0, 0] S1x4x2x256x64.size inb_S8x4x2x256x64_S1x4x2x256x64_7_0_0_0_0) (fun _ => rfl)).squeeze S4x2x256x64 squeezes_S1x4x2x256x64_S4x2x256x64

/-- The elements of device `c`'s scratch buffer that the copy arriving along link `p` writes, -/
def dstSet (c : Dev nD) (p : Fin 10) : Finset (Idx (sL c)) :=
  match p with
  | 0 => zM3.view.set | 1 => zM2.view.set | 2 => zM1.view.set
  | 3 => pM7.view.set | 4 => pM6.view.set | 5 => pM5.view.set | 6 => pM4.view.set | 7 => pM3.view.set | 8 => pM2.view.set | 9 => pM1.view.set
/-- and those its own copy along link `p` reads: its slab for the links across the groups, its four slabs for the links inside. -/
def srcSet (c : Dev nD) (p : Fin 10) : Finset (Idx (sL c)) := if p.val < 3 then zM0.view.set else pM0.view.set

/-- The device whose slab sits in slot [s, i] of device `c`. -/
def srcDev (c : Dev nD) (s i : Nat) : Dev nD :=
  ⟨((c.val - c.val % 8 + (c.val % 8 + s) % 8) + 8 * i) % 32, Nat.mod_lt _ (by decide)⟩

/-- The intended contents of device `c`'s scratch buffer, given what every device publishes. -/
def scr (pub : Dev nD → Nat → Nat → Nat → Elt F .bf16) (c : Dev nD) : Buf (Elt F) (sL c) :=
  fun idx => pub (srcDev c (idx 0).val (idx 1).val) (idx 2).val (idx 3).val (idx 4).val

/-- The credit of a copy along link `p`. -/
def NL (p : Fin 10) : ℕ := if p.val < 3 then (zM0 : Memref sig .tc .vmem S2x256x64 .bf16).view.dmaCredit else (pM0 : Memref sig .tc .vmem S4x2x256x64 .bf16).view.dmaCredit
theorem NL_pos (p : Fin 10) : 0 < NL p := by
  unfold NL; split
  · exact View.dmaCredit_pos _ (by decide)
  · exact View.dmaCredit_pos _ (by decide)

/-! ## The schedule -/

variable (pub : Dev nD → Nat → Nat → Nat → Elt F .bf16)

def barPay (c : Dev nD) (p : Fin 10) : sProp 𝕄 :=
  iprop((∃ f, sL (peer (inv p) c) ↦[dstSet (peer (inv p) c) (inv p)]{fullShare} f) ∗ reached ER (recvCell (inv p) (peer (inv p) c)) 0)
def recvPay (p : Fin 10) (c : Dev nD) : sProp 𝕄 := sL c ↦[dstSet c p]{fullShare} scr pub c
def sendPay (p : Fin 10) (c : Dev nD) : sProp 𝕄 := sL c ↦[srcSet c p]{Transfers.shareTokN fullShare p.val} scr pub c

def ringRd : Rounds.Schedule (GSem nD τ sig) (Fin 10) 𝕄 where
  duties g r := if r = 0 ∧ g.1.2 = .tc then (match role g.2 with | .bar => Finset.univ | .send _ => {0} | .recv _ => {0} | .none => ∅) else ∅
  unitless _ := False
  amount g _ _ := match role g.2 with | .send p => NL p | .recv p => NL p | _ => 1
  payload g _ d := match role g.2 with
    | .bar => barPay g.1.1 d
    | .send p => sendPay pub p g.1.1
    | .recv p => recvPay pub p g.1.1
    | .none => iprop(emp)
  amount_pos g _ _ _ := by
    split
    · exact NL_pos _
    · exact NL_pos _
    · exact Nat.one_pos

instance ringRd_payload_storable (g : GSem nD τ sig) (r : ℕ) (d : Fin 10) :
    BI.Storable (upEmb : UEmb _ 𝕄) ((ringRd (F := F) pub).payload g r d) := by
  show BI.Storable upEmb (match role g.2 with
    | .bar => barPay g.1.1 d
    | .send p => sendPay pub p g.1.1
    | .recv p => recvPay pub p g.1.1
    | .none => iprop(emp))
  unfold barPay recvPay sendPay
  split <;> infer_instance

section Sched
variable (c : Dev nD) (p : Fin 10)

omit [FloatOps F] in
theorem duties_bar : (ringRd (F := F) pub).duties (barCell c) 0 = Finset.univ := by
  dsimp only [ringRd]; rw [if_pos ⟨rfl, rfl⟩, role_bar]
omit [FloatOps F] in
theorem duties_send : (ringRd (F := F) pub).duties (sendCell p c) 0 = {0} := by
  dsimp only [ringRd]; rw [if_pos ⟨rfl, rfl⟩, role_send]
omit [FloatOps F] in
theorem duties_recv : (ringRd (F := F) pub).duties (recvCell p c) 0 = {0} := by
  dsimp only [ringRd]; rw [if_pos ⟨rfl, rfl⟩, role_recv]
omit [FloatOps F] in
theorem duties_later (g : GSem nD τ sig) : ∀ r, 1 ≤ r → (ringRd (F := F) pub).duties g r = ∅ :=
  fun r hr => by dsimp only [ringRd]; rw [if_neg fun h => by omega]

omit [FloatOps F] in
theorem amount_bar (d : Fin 10) : (ringRd (F := F) pub).amount (barCell c) 0 d = 1 := by dsimp only [ringRd]; rw [role_bar]
omit [FloatOps F] in
theorem amount_send (d : Fin 10) : (ringRd (F := F) pub).amount (sendCell p c) 0 d = NL p := by dsimp only [ringRd]; rw [role_send]
omit [FloatOps F] in
theorem amount_recv (d : Fin 10) : (ringRd (F := F) pub).amount (recvCell p c) 0 d = NL p := by dsimp only [ringRd]; rw [role_recv]

omit [FloatOps F] in
theorem expect_bar : (ringRd (F := F) pub).expect (barCell c) 0 = 10 := by
  unfold Schedule.expect Schedule.amountOf
  rw [duties_bar, Finset.sum_congr rfl fun d _ => amount_bar pub c d, Finset.sum_const, Finset.card_univ, Fintype.card_fin, smul_eq_mul]
omit [FloatOps F] in
theorem expect_send : (ringRd (F := F) pub).expect (sendCell p c) 0 = NL p := by
  unfold Schedule.expect Schedule.amountOf; rw [duties_send, Finset.sum_singleton, amount_send]
omit [FloatOps F] in
theorem expect_recv : (ringRd (F := F) pub).expect (recvCell p c) 0 = NL p := by
  unfold Schedule.expect Schedule.amountOf; rw [duties_recv, Finset.sum_singleton, amount_recv]

omit [FloatOps F] in
theorem payload_bar (d : Fin 10) : (ringRd (F := F) pub).payload (barCell c) 0 d = barPay c d := by dsimp only [ringRd]; rw [role_bar]
omit [FloatOps F] in
theorem payload_send (d : Fin 10) : (ringRd (F := F) pub).payload (sendCell p c) 0 d = sendPay pub p c := by dsimp only [ringRd]; rw [role_send]
omit [FloatOps F] in
theorem payload_recv (d : Fin 10) : (ringRd (F := F) pub).payload (recvCell p c) 0 d = recvPay pub p c := by dsimp only [ringRd]; rw [role_recv]

omit [FloatOps F] in
/-- The rest of the barrier cell's round, no duty taken: every link's far end's landing slot. -/
theorem rest_bar : bigSep ((ringRd (F := F) pub).duties (barCell c) 0 \ ∅) (fun d => (ringRd (F := F) pub).payload (barCell c) 0 d)
    = bigSep Finset.univ (fun d : Fin 10 => (barPay c d : sProp 𝕄)) := by
  rw [Finset.sdiff_empty, duties_bar]
  exact bigSep_congr fun d _ => payload_bar pub c d
omit [FloatOps F] in
theorem rest_send : bigSep ((ringRd (F := F) pub).duties (sendCell p c) 0 \ ∅) (fun d => (ringRd (F := F) pub).payload (sendCell p c) 0 d) = sendPay pub p c := by
  rw [Finset.sdiff_empty, duties_send, bigSep_singleton, payload_send]
omit [FloatOps F] in
theorem rest_recv : bigSep ((ringRd (F := F) pub).duties (recvCell p c) 0 \ ∅) (fun d => (ringRd (F := F) pub).payload (recvCell p c) 0 d) = recvPay pub p c := by
  rw [Finset.sdiff_empty, duties_recv, bigSep_singleton, payload_recv]

end Sched

/-! ## What a device owes, in the order it pays; the levels -/

/-- The cell and amount of a device's `k`-th payment: the ten entry signals, then the ten copies' landings. -/
def item (c : Dev nD) (k : Fin 20) : GSem nD τ sig × ℕ :=
  if h : k.val < 10 then (barCell (peer ⟨k.val, h⟩ c), 1)
  else (recvCell ⟨k.val - 10, by omega⟩ (peer ⟨k.val - 10, by omega⟩ c), NL ⟨k.val - 10, by omega⟩)

/-- What is still owed before payment `k` (counted from the end: `owedFrom c n` is the last `n` payments). -/
def owedLast (c : Dev nD) : (n : ℕ) → n ≤ 20 → CellTallies nD τ sig Unit
  | 0, _ => 0
  | n + 1, h => owedLast c n (by omega) + tallyAt (item c ⟨19 - n, by omega⟩).1 () (item c ⟨19 - n, by omega⟩).2

def O₀ (c : Dev nD) : CellTallies nD τ sig Unit := owedLast c 20 (le_refl _)

def L (g : GSem nD τ sig) : Finset Unit := if g.1.2 = .tc then {()} else ∅
/-- Barrier cells at 1, the receive cells of the links across the groups at 2, of the links inside at 3, the rest at 0. -/
def lv (g : GSem nD τ sig) (_ : Unit) : ℕ := match role g.2 with | .bar => 1 | .recv p => if p.val < 3 then 2 else 3 | _ => 0

theorem L_of_ne (g : GSem nD τ sig) (h : g.1.2 ≠ .tc) : L g = ∅ := if_neg h
theorem L_tc (c : Dev nD) (sm : SemLoc sig) : L ((c : Thread nD τ), sm) = {()} := if_pos rfl

end Cert.RingW

end
-- ==== Proof.GhostW.lean ====
/-
  What every device holds during the exchange, and the pipeline's proof data.

  The 21 cells of a device are numbered: 0 its barrier cell, 1 + p the send cell of link `p`, 11 + p the receive
  cell of link `p`.  The invariants of all cells of all devices and the facts that all are at round 0 are
  persistent and every device holds them all (`records`).  A device also holds its positions at its own 21 cells
  and the tokens of the duties it pays: on the barrier cell of each link's far end the duty named after the link,
  on the far end's receive cell of the link and on its own send cell of the link the one duty.  Four of the
  kernel's 24 semaphores are never used and stay at zero.
-/
import proofs.«900463_g7700000000000464_dist_ring_attn_i_s256_d64_v7x_i32_f32_1_alg».proof.Proof.SchedW

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (pub : Dev nD → Nat → Nat → Nat → Elt F .bf16)
variable (outAt : (c : Dev nD) → (cc0_stg3_0 : Ref sig .tc).ty.Contents (Elt F))
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells, numbered -/

def kB : Fin 21 := 0
def kS (p : Fin 10) : Fin 21 := ⟨p.val + 1, by omega⟩
def kR (p : Fin 10) : Fin 21 := ⟨p.val + 11, by omega⟩

def csem (k : Fin 21) : SemLoc sig :=
  if k.val = 0 then .reg barS else if h : k.val ≤ 10 then .dma (sS ⟨k.val - 1, by omega⟩) else .dma (rS ⟨k.val - 11, by omega⟩)
abbrev kcell (ck : Dev nD × Fin 21) : GSem nD τ sig := ((ck.1 : Thread nD τ), csem ck.2)

theorem csem_kB : csem kB = .reg barS := rfl
theorem csem_kS : ∀ p : Fin 10, csem (kS p) = .dma (sS p) := by decide
theorem csem_kR : ∀ p : Fin 10, csem (kR p) = .dma (rS p) := by decide
theorem csem_injective : Function.Injective csem := by decide
theorem kcell_kB (c : Dev nD) : kcell (c, kB) = barCell c := rfl
theorem kcell_kS (c : Dev nD) (p : Fin 10) : kcell (c, kS p) = sendCell p c := by unfold kcell; rw [csem_kS]
theorem kcell_kR (c : Dev nD) (p : Fin 10) : kcell (c, kR p) = recvCell p c := by unfold kcell; rw [csem_kR]

/-- The kernel's own 24 semaphores (its four scratch arrays of 4, 4, 8 and 8), as the launch indexes them. -/
def osem (k : Fin 24) : SemLoc sig := .dma ⟨4 + k.val, by have := k.isLt; show 4 + k.val < 28; omega⟩

/-! ## Ghost state -/

def records (K : Dev nD × Fin 21 → ℕ) : sProp 𝕄 :=
  iprop((bigSep Finset.univ fun ck : Dev nD × Fin 21 => cellInv ER (ringRd pub) (K ck) (kcell ck))
    ∗ bigSep Finset.univ fun ck : Dev nD × Fin 21 => reached ER (kcell ck) 0)

instance records_persistent (K : Dev nD × Fin 21 → ℕ) : BI.Persistent (records (F := F) pub K) := by unfold records; infer_instance

/-- The tokens of the duties device `c` pays. -/
def payToks (c : Dev nD) : sProp 𝕄 :=
  iprop((bigSep Finset.univ fun p : Fin 10 => dutyTok ER (barCell (peer p c)) 0 p)
    ∗ (bigSep Finset.univ fun p : Fin 10 => dutyTok ER (recvCell p (peer p c)) 0 (0 : Fin 10))
    ∗ (bigSep Finset.univ fun p : Fin 10 => dutyTok ER (sendCell p c) 0 (0 : Fin 10)))

/-- Its positions at its own cells, and those tokens. -/
def linear (c : Dev nD) : sProp 𝕄 :=
  iprop((bigSep Finset.univ fun k : Fin 21 => atPos ER (kcell (c, k)) 0 ∅ 0) ∗ payToks (F := F) c)

/-- The four semaphores of the kernel's scratch arrays that no copy uses, at zero. -/
def idle (c : Dev nD) : sProp 𝕄 :=
  iprop(semVal ((c : Thread nD τ), .dma (4 : DmaSem sig)) 0 ∗ semVal ((c : Thread nD τ), .dma (8 : DmaSem sig)) 0
    ∗ semVal ((c : Thread nD τ), .dma (12 : DmaSem sig)) 0 ∗ semVal ((c : Thread nD τ), .dma (20 : DmaSem sig)) 0)

def ghost (K : Dev nD × Fin 21 → ℕ) (c : Dev nD) : sProp 𝕄 := iprop(records pub K ∗ linear (F := F) c)

/-- What device `c`'s body starts from: the ghost state at some names, the idle semaphores, the credit its own
    waits will spend (ten units on its barrier cell, a copy's credit on each receive cell), the level facts. -/
def start (c : Dev nD) : sProp 𝕄 :=
  iprop((∃ K, ghost pub K c) ∗ idle (F := F) c ∗ cred (tallyAt (barCell c) () 10)
    ∗ (bigSep Finset.univ fun p : Fin 10 => cred (tallyAt (recvCell p c) () (NL p))) ∗ levAts L lv)

def Φ₀ (c : Dev nD) : sProp 𝕄 := iprop(start pub c ∗ ∃ f : Buf (Elt F) (sL c), sL c ↦{fullShare} f)
/-- After the point: the scratch buffer whole again, the kernel's own semaphores at zero (the barrier cell is the
    runtime's: nothing to hand back). -/
def Φ₁ (c : Dev nD) : sProp 𝕄 :=
  iprop((∃ f : Buf (Elt F) (sL c), sL c ↦{fullShare} f) ∗ Pipeline.ownSems0 (Ix := Unit) (Name := ℕ) (U := UU) (Lvl := ℕ) (Val := Elt F) (τ := τ) osem c)

/-! ## The pipeline's proof data -/

/-- What the three input windows stage on device `c`: its blocks of q, k and v as launched. -/
def stgQ (c : Dev nD) : (cc0_stg0_0 : Ref sig .tc).ty.Contents (Elt F) :=
  (win0_0.blk (0 : Fin 1)).view.read (Elt F) ((s₀ m ρ).mem ((c : Thread nD τ).loc main_arg0))
def stgK (c : Dev nD) : (cc0_stg1_0 : Ref sig .tc).ty.Contents (Elt F) :=
  (win0_1.blk (0 : Fin 1)).view.read (Elt F) ((s₀ m ρ).mem ((c : Thread nD τ).loc main_arg1))
def stgV (c : Dev nD) : (cc0_stg2_0 : Ref sig .tc).ty.Contents (Elt F) :=
  (win0_2.blk (0 : Fin 1)).view.read (Elt F) ((s₀ m ρ).mem ((c : Thread nD τ).loc main_arg2))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgQ m ρ c
    | ⟨1, _⟩ => stgK m ρ c
    | ⟨2, _⟩ => stgV m ρ c
    | ⟨3, _⟩ => outAt c
  Φ t := match t with
    | ⟨0, _⟩ => Φ₀ pub c
    | ⟨_ + 1, _⟩ => Φ₁ c
  q _ := fullShare
  owed t := match t with
    | ⟨0, _⟩ => O₀ c
    | ⟨_ + 1, _⟩ => 0

abbrev 𝒱₀ : Variants := Variants.none

end Cert.RingW

end
-- ==== Proof.LaunchW.lean ====
/-
  The launch of the two-stage exchange on 32 devices.

  Levels: a wait is allowed when the cell waited on lies strictly below the cell of every payment still owed.
  A device pays in program order the ten entry signals (barrier cells, level 1) and then the ten landings
  (receive cells of the three links across the groups at level 2, of the seven links inside at level 3); the
  staging semaphores sit at level 0.  So the staging waits are allowed while everything is owed, the barrier wait
  while the ten landings are owed, the waits for the landings across the groups while the seven inside are owed.

  Ghost state: the launch element funds, per device, the round state, position and reached-mark of its 21 cells
  and the tokens of its own cells' duties; with the counters at zero each cell's invariant is allocated, all
  devices' under one update, and the tokens are dealt around the links (each link is a permutation of the
  devices) so that every device ends with the tokens of the duties it pays.  Four of a device's 24 semaphores
  belong to no cell and travel at zero.

  Launch credit: summed over the devices, the payments addressed to device `c` are ten units on its barrier
  cell (one from the far end of each of its links) and one copy's credit on each of its receive cells.

  Final arrays: the three inputs are never written back; the one write-back of the result window writes the
  whole result array with what the body left in its staging buffer.
-/
import proofs.«900463_g7700000000000464_dist_ring_attn_i_s256_d64_v7x_i32_f32_1_alg».proof.Proof.GhostW

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels: what a wait may owe -/

/-- A payment still owed among the last `n` is one of the payments `20 - n, …, 19`. -/
theorem owedLast_pos (c : Dev nD) : ∀ (n : ℕ) (h : n ≤ 20) (g : GSem nD τ sig) (u : Unit),
    0 < owedLast c n h g u → ∃ k : Fin 20, 20 - n ≤ k.val ∧ g = (item c k).1
  | 0, _, g, u, hg => absurd hg (Nat.lt_irrefl 0)
  | n + 1, h, g, u, hg => by
    rw [owedLast] at hg
    rcases Pipeline.add_pos_cases hg with h1 | h1
    · obtain ⟨k, hk, hgk⟩ := owedLast_pos c n (by omega) g u h1
      exact ⟨k, by omega, hgk⟩
    · exact ⟨⟨19 - n, by omega⟩, by show 20 - (n + 1) ≤ 19 - n; omega, (Pipeline.tallyAt_pos h1).1⟩

theorem item_lo (c : Dev nD) (k : Fin 20) (h : k.val < 10) : item c k = (barCell (peer ⟨k.val, h⟩ c), 1) := by
  unfold item; rw [dif_pos h]
theorem item_hi (c : Dev nD) (k : Fin 20) (h : ¬ k.val < 10) :
    item c k = (recvCell ⟨k.val - 10, by omega⟩ (peer ⟨k.val - 10, by omega⟩ c), NL ⟨k.val - 10, by omega⟩) := by
  unfold item; rw [dif_neg h]

theorem lv_bar (c : Dev nD) : lv (barCell c) () = 1 := by
  show (match role (.reg barS) with | .bar => 1 | .recv p => if p.val < 3 then 2 else 3 | _ => 0) = 1
  rw [role_bar]
theorem lv_recv (p : Fin 10) (c : Dev nD) : lv (recvCell p c) () = if p.val < 3 then 2 else 3 := by
  show (match role (.dma (rS p)) with | .bar => 1 | .recv p => if p.val < 3 then 2 else 3 | _ => 0) = _
  rw [role_recv]
theorem lv_none (c : Dev nD) (q : DmaSem sig) (hq : roleDma q = .none) : lv ((c : Thread nD τ), .dma q) () = 0 := by
  show (match roleDma q with | .bar => 1 | .recv p => if p.val < 3 then 2 else 3 | _ => 0) = 0
  rw [hq]

/-- The level of the cell a payment goes to: the ten entry signals at 1, the landings of the three links across
    the groups at 2, of the seven inside at 3. -/
theorem lv_item (c : Dev nD) (k : Fin 20) : lv (item c k).1 () = if k.val < 10 then 1 else if k.val < 13 then 2 else 3 := by
  by_cases h : k.val < 10
  · rw [item_lo c k h, if_pos h]; exact lv_bar _
  · rw [item_hi c k h, if_neg h]
    show lv (recvCell _ _) () = _
    rw [lv_recv]
    by_cases h3 : k.val < 13
    · rw [if_pos h3, if_pos (show k.val - 10 < 3 by omega)]
    · rw [if_neg h3, if_neg (show ¬ k.val - 10 < 3 by omega)]

theorem L_item (c : Dev nD) (k : Fin 20) : L (item c k).1 = {()} := by
  by_cases h : k.val < 10
  · rw [item_lo c k h]; exact L_tc _ _
  · rw [item_hi c k h]; exact L_tc _ _

omit [FloatOps F] in
/-- A wait at a cell whose level lies below the levels of the payments still owed is allowed. -/
theorem mayWait_owedLast (c : Dev nD) (s : SemLoc sig) (n : ℕ) (h : n ≤ 20)
    (hlv : ∀ k : Fin 20, 20 - n ≤ k.val → lv ((c : Thread nD τ), s) () < lv (item c k).1 ()) :
    (levAts L lv : sProp 𝕄) ⊢ MayWait (c : Thread nD τ) s () (owedLast c n h) :=
  Pipeline.mayWait_of_levAts (by rw [L_tc]; exact Finset.mem_singleton_self _) fun g i hg => by
    obtain ⟨k, hk, rfl⟩ := owedLast_pos c n h g i hg
    exact ⟨by rw [L_item]; exact Finset.mem_singleton_self _, hlv k hk⟩

omit [FloatOps F] in
theorem mayWait_zero (c : Dev nD) (s : SemLoc sig) : (levAts L lv : sProp 𝕄) ⊢ MayWait (c : Thread nD τ) s () 0 := by
  rw [MayWait_zero]; iintro -; iempintro

omit [FloatOps F] in
/-- The barrier wait, the ten landings still owed: they sit at 2 and 3, the barrier cell at 1. -/
theorem mayWait_bar (c : Dev nD) : (levAts L lv : sProp 𝕄) ⊢ MayWait (c : Thread nD τ) (.reg barS) () (owedLast c 10 (by omega)) :=
  mayWait_owedLast c (.reg barS) 10 (by omega) fun k hk => by
    rw [show lv ((c : Thread nD τ), SemLoc.reg barS) () = 1 from lv_bar c, lv_item, if_neg (by omega)]
    split <;> omega

omit [FloatOps F] in
/-- The waits for the landings across the groups, the seven landings inside still owed: those sit at 3. -/
theorem mayWait_zrecv (c : Dev nD) (p : Fin 10) (hp : p.val < 3) :
    (levAts L lv : sProp 𝕄) ⊢ MayWait (c : Thread nD τ) (.dma (rS p)) () (owedLast c 7 (by omega)) :=
  mayWait_owedLast c (.dma (rS p)) 7 (by omega) fun k hk => by
    rw [show lv ((c : Thread nD τ), SemLoc.dma (rS p)) () = if p.val < 3 then 2 else 3 from lv_recv p c, if_pos hp, lv_item,
      if_neg (by omega), if_neg (by omega)]
    omega

omit [FloatOps F] in
/-- A staging semaphore sits at 0, below every payment. -/
theorem mayWait_stage (c : Dev nD) (q : DmaSem sig) (hq : roleDma q = .none) (O : CellTallies nD τ sig Unit) (hO : O = O₀ c ∨ O = 0) :
    (levAts L lv : sProp 𝕄) ⊢ MayWait (c : Thread nD τ) (.dma q) () O := by
  rcases hO with rfl | rfl
  · exact mayWait_owedLast c (.dma q) 20 (le_refl _) fun k _ => by
      rw [lv_none c q hq, lv_item]; split
      · omega
      · split <;> omega
  · exact mayWait_zero c _

/-! ## The launch: cells, tokens, and how the 21 cells and the 24 semaphores of a device are listed -/

theorem ownSemFacts : Pipeline.OwnSemFacts cfg0.spec osem := by decide

theorem share_eq (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) (w : Fin cfg0.W) :
    (dats pub outAt m ρ 0 c).share w = fullShare := by unfold Dat.share; split <;> rfl

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The semaphore and duty of a device's own tokens as minted: the ten duties of its barrier cell, the one duty
    of each send cell and of each receive cell. -/
def tokSem (jp : Fin 3 × Fin 10) : SemLoc sig × Fin 10 :=
  match jp.1 with
  | 0 => (.reg barS, jp.2)
  | 1 => (.dma (sS jp.2), 0)
  | 2 => (.dma (rS jp.2), 0)
theorem tokSem_injective : Function.Injective tokSem := by decide
abbrev tokOf (x : Dev nD × (Fin 3 × Fin 10)) : GSem nD τ sig × ℕ × Fin 10 := (((x.1 : Thread nD τ), (tokSem x.2).1), 0, (tokSem x.2).2)
theorem tokOf_injective : Function.Injective tokOf := by
  rintro ⟨c, jp⟩ ⟨c', jp'⟩ h
  have h1 : c = c' := by have := congrArg (fun x : GSem nD τ sig × ℕ × Fin 10 => x.1.1.1) h; exact this
  subst h1
  have h2 : tokSem jp = tokSem jp' :=
    Prod.ext (congrArg (fun x : GSem nD τ sig × ℕ × Fin 10 => x.1.2) h) (congrArg (fun x : GSem nD τ sig × ℕ × Fin 10 => x.2.2) h)
  rw [tokSem_injective h2]
def ringToks : Finset (GSem nD τ sig × ℕ × Fin 10) := Finset.univ.map ⟨tokOf, tokOf_injective⟩

def u₀ : UU :=
  (initOf (Pipeline.cells cfgs cellOf_inj) (Pipeline.launchToks cfgs cellOf_inj), initOf ringCells ringToks)

/-- The 21 cells of a device: the barrier cell, the ten send cells, the ten receive cells. -/
def e21 : Unit ⊕ (Fin 10 ⊕ Fin 10) ≃ Fin 21 := Equiv.ofBijective (Sum.elim (fun _ => kB) (Sum.elim kS kR)) (by decide)

omit [FloatOps F] in
theorem bigSep_fin21 (Φ : Fin 21 → sProp 𝕄) :
    bigSep Finset.univ Φ = iprop(Φ kB ∗ (bigSep Finset.univ fun p : Fin 10 => Φ (kS p)) ∗ bigSep Finset.univ fun p : Fin 10 => Φ (kR p)) := by
  rw [bigSep_univ_equiv e21 Φ, bigSep_univ_sum, bigSep_univ_sum, bigSep_univ_of_subsingleton ()]; rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The kernel's own 24 semaphores: the ten send semaphores, the ten receive semaphores, the four no copy uses. -/
def fS : Fin 10 → Fin 24 := ![1, 2, 3, 9, 10, 11, 12, 13, 14, 15]
def fR : Fin 10 → Fin 24 := ![7, 6, 5, 23, 22, 21, 20, 19, 18, 17]
def fI : Fin 4 → Fin 24 := ![0, 4, 8, 16]
def e24 : Fin 10 ⊕ (Fin 10 ⊕ Fin 4) ≃ Fin 24 := Equiv.ofBijective (Sum.elim fS (Sum.elim fR fI)) (by decide)
theorem osem_fS : ∀ p : Fin 10, osem (fS p) = .dma (sS p) := by decide
theorem osem_fR : ∀ p : Fin 10, osem (fR p) = .dma (rS p) := by decide

/-- The duty tokens of device `c`'s own cells. -/
def toks (c : Dev nD) : sProp 𝕄 :=
  iprop((bigSep Finset.univ fun p : Fin 10 => dutyTok ER (barCell c) 0 p)
    ∗ (bigSep Finset.univ fun p : Fin 10 => dutyTok ER (sendCell p c) 0 (0 : Fin 10))
    ∗ (bigSep Finset.univ fun p : Fin 10 => dutyTok ER (recvCell p c) 0 (0 : Fin 10)))

/-- What the launch element deals device `c`. -/
def G (pub : Dev nD → Nat → Nat → Nat → Elt F .bf16) (c : Dev nD) : sProp 𝕄 :=
  iprop((bigSep Finset.univ fun k : Fin 21 => roundState ER (ringRd pub) (kcell (c, k)) 0)
    ∗ (bigSep Finset.univ fun k : Fin 21 => iprop(atPos ER (kcell (c, k)) 0 ∅ 0 ∗ reached ER (kcell (c, k)) 0)) ∗ toks c)

/-- What the global step makes of it: the ghost state at some names, and the four idle semaphores. -/
def G' (pub : Dev nD → Nat → Nat → Nat → Elt F .bf16) (c : Dev nD) : sProp 𝕄 := iprop((∃ K, ghost pub K c) ∗ idle (F := F) c)

omit [FloatOps F] in
theorem fund_ring (pub : Dev nD → Nat → Nat → Nat → Elt F .bf16) :
    BI.own (ER (initOf ringCells ringToks)) ⊢ (|==> bigSep Finset.univ (G pub) : sProp 𝕄) := by
  have hX (Φ : GSem nD τ sig → sProp 𝕄) : bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (ringRd pub) ringCells ringToks) $$ HX with ⟨Hst, Hr, Hat, Htok⟩
  imodintro
  ihave Hst' := (Entails.of_eq (hX fun g => roundState ER (ringRd pub) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores, sorted: the send and receive cells', and the four idle ones. -/
theorem ownSems0_eq (c : Dev nD) : (Pipeline.ownSems0 (Ix := Unit) (Name := ℕ) (U := UU) (Lvl := ℕ) (Val := Elt F) (τ := τ) osem c : sProp 𝕄)
    = iprop((bigSep Finset.univ fun p : Fin 10 => semVal (sendCell p c) 0) ∗ (bigSep Finset.univ fun p : Fin 10 => semVal (recvCell p c) 0) ∗ idle (F := F) c) := by
  unfold Pipeline.ownSems0 idle
  rw [bigSep_univ_equiv e24, bigSep_univ_sum, bigSep_univ_sum, bigSep_fin4]
  refine congrArg₂ _ (bigSep_congr fun p _ => ?_) (congrArg₂ _ (bigSep_congr fun p _ => ?_) rfl)
  · show semVal ((c : Thread nD τ), osem (fS p)) 0 = _; rw [osem_fS]
  · show semVal ((c : Thread nD τ), osem (fR p)) 0 = _; rw [osem_fR]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 21 => semVal (kcell (c, k)) 0) ∗ idle (F := F) c : sProp 𝕄) := by
  rw [ownSems0_eq, unscopedSems0_eq, bigSep_fin21]
  iintro ⟨⟨HS, HR, HI⟩, HB⟩
  isplitr [HI]
  · isplitl [HB]; · iexact HB
    isplitl [HS]
    · iapply (Entails.of_eq (bigSep_congr fun p _ => by rw [kcell_kS])); iexact HS
    · iapply (Entails.of_eq (bigSep_congr fun p _ => by rw [kcell_kR])); iexact HR
  · iexact HI

omit [FloatOps F] in
theorem core_alloc (pub : Dev nD → Nat → Nat → Nat → Elt F .bf16) (c : Dev nD) :
    iprop(Pipeline.ownSems0 (Ix := Unit) (Name := ℕ) (U := UU) (Lvl := ℕ) (Val := Elt F) (τ := τ) osem c ∗ unscopedSems0 c ∗ G pub c)
      ⊢ |={Set.univ}=> iprop((bigSep Finset.univ fun k => iprop(∃ κ : ℕ, cellInv ER (ringRd pub) κ (kcell (c, k))))
          ∗ (bigSep Finset.univ fun k => iprop(atPos ER (kcell (c, k)) 0 ∅ 0 ∗ reached ER (kcell (c, k)) 0)) ∗ toks c ∗ idle (F := F) c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 21 => semVal (kcell (c, k)) 0) ∗ bigSep Finset.univ fun k : Fin 21 => roundState ER (ringRd pub) (kcell (c, k)) 0)
      ⊢ (|={Set.univ}=> bigSep Finset.univ fun k => iprop(∃ κ : ℕ, cellInv ER (ringRd pub) κ (kcell (c, k))) : sProp 𝕄) from by
        rw [← bigSep_sep']
        exact (bigSep_mono fun k _ => (Rounds.body_intro ER (ringRd pub) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

omit [FloatOps F] in
/-- A family over (device, link) may be read at the far end of each link instead: every link is a permutation of
    the devices. -/
theorem bigSep_around (Φ : Dev nD → Fin 10 → sProp 𝕄) :
    (bigSep Finset.univ fun c : Dev nD => bigSep Finset.univ fun p : Fin 10 => Φ c p)
      = bigSep Finset.univ fun c : Dev nD => bigSep Finset.univ fun p : Fin 10 => Φ (peer p c) p := by
  rw [bigSep_univ_comm Φ, bigSep_univ_comm (fun (c : Dev nD) (p : Fin 10) => Φ (peer p c) p)]
  exact bigSep_congr fun p _ => bigSep_univ_equiv (link p) (fun c => Φ c p)

omit [FloatOps F] in
/-- The tokens dealt around: the barrier token named after link `p` and the receive token of link `p` go to the
    device whose link `p` ends there. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_around (fun c p => (dutyTok ER (barCell c) 0 p : sProp 𝕄)),
    bigSep_around (fun c p => (dutyTok ER (recvCell p c) 0 (0 : Fin 10) : sProp 𝕄))]
  iintro ⟨H1, H2, H3⟩
  isplitl [H1]; · iexact H1
  isplitl [H3]; · iexact H3
  iexact H2

omit [FloatOps F] in
theorem regroup (pub : Dev nD → Nat → Nat → Nat → Elt F .bf16) :
    (bigSep Finset.univ fun c : Dev nD => iprop((bigSep Finset.univ fun k => iprop(∃ κ : ℕ, cellInv ER (ringRd pub) κ (kcell (c, k))))
          ∗ (bigSep Finset.univ fun k => iprop(atPos ER (kcell (c, k)) 0 ∅ 0 ∗ reached ER (kcell (c, k)) 0)) ∗ toks c ∗ idle (F := F) c) : sProp 𝕄)
      ⊢ bigSep Finset.univ (G' pub) := by
  rw [bigSep_sep', bigSep_sep', bigSep_sep', ← bigSep_univ_prod (fun ck : Dev nD × Fin 21 => iprop(∃ κ : ℕ, cellInv ER (ringRd pub) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok, Hidle⟩
  ihave HK := (BI.bigSep_exists_pi Finset.univ (fun (ck : Dev nD × Fin 21) (κ : ℕ) => (cellInv ER (ringRd pub) κ (kcell ck) : sProp 𝕄))) $$ HI
  icases HK with ⟨%K, #HI⟩
  ihave Htk := (toks_around (F := F)) $$ Htok
  unfold G'
  rw [bigSep_sep']
  isplitr [Hidle]
  · iapply (BI.bigSep_with_persistent (R := records pub K) fun c _ => show iprop(records pub K ∗ linear (F := F) c) ⊢ iprop(∃ K, ghost pub K c) from by
      iintro H; iexists K; unfold ghost; iexact H)
    isplitr
    · unfold records; isplitl; · iexact HI
      iexact HR
    · iapply (Entails.of_eq (bigSep_sep' Finset.univ (fun c : Dev nD => bigSep Finset.univ fun k : Fin 21 => (atPos ER (kcell (c, k)) 0 ∅ 0 : sProp 𝕄)) payToks).symm)
      isplitl [Hat]; · iexact Hat
      iexact Htk
  · iexact Hidle

omit [FloatOps F] in
/-- The global step: own and unscoped semaphores of every device at once. -/
theorem glob (pub : Dev nD → Nat → Nat → Nat → Elt F .bf16) :
    (bigSep Finset.univ fun c => iprop(Pipeline.ownSems0 (Ix := Unit) (Name := ℕ) (U := UU) (Lvl := ℕ) (Val := Elt F) (τ := τ) osem c ∗ unscopedSems0 c ∗ G pub c) : sProp 𝕄)
    ⊢ |={Set.univ}=> bigSep Finset.univ (G' pub) :=
  ((bigSep_mono fun c _ => core_alloc pub c).trans (bigSep_fupd _ _)).trans (BI.fupd_mono (regroup pub))

/-! ### The launch credit -/

/-- Payment `k` of device `d`, as tallies. -/
def pay (d : Dev nD) (k : Fin 20) : CellTallies nD τ sig Unit := tallyAt (item d k).1 () (item d k).2

theorem owedLast_eq_sum (d : Dev nD) : ∀ (n : ℕ) (h : n ≤ 20),
    owedLast d n h = ∑ k ∈ Finset.univ.filter (fun k : Fin 20 => 20 - n ≤ k.val), pay d k
  | 0, _ => by
    rw [Finset.filter_eq_empty_iff.mpr fun k _ => by have := k.isLt; omega, Finset.sum_empty]; rfl
  | n + 1, h => by
    have hins : Finset.univ.filter (fun k : Fin 20 => 20 - (n + 1) ≤ k.val)
        = insert (⟨19 - n, by omega⟩ : Fin 20) (Finset.univ.filter (fun k : Fin 20 => 20 - n ≤ k.val)) := by
      ext k
      simp only [Finset.mem_filter, Finset.mem_univ, true_and, Finset.mem_insert, Fin.ext_iff]
      omega
    rw [hins, Finset.sum_insert (by simp only [Finset.mem_filter, Finset.mem_univ, true_and]; omega), owedLast, owedLast_eq_sum d n (by omega), add_comm]
    rfl

theorem O₀_eq_sum : (O₀ : Dev nD → CellTallies nD τ sig Unit) = fun d => ∑ k ∈ (Finset.univ : Finset (Fin 20)), pay d k := by
  funext d
  unfold O₀
  rw [owedLast_eq_sum d 20 (le_refl _)]
  exact Finset.sum_congr (Finset.filter_true_of_mem fun k _ => by omega) fun _ _ => rfl

/-- The 20 payments: the ten entry signals, the ten landings. -/
def e20 : Fin 10 ⊕ Fin 10 ≃ Fin 20 :=
  Equiv.ofBijective (Sum.elim (fun p => ⟨p.val, by omega⟩) (fun p => ⟨p.val + 10, by omega⟩)) (by decide)

theorem pay_lo (d : Dev nD) (p : Fin 10) : pay d (e20 (.inl p)) = tallyAt (((peer p d : Dev nD) : Thread nD τ), .reg barS) () 1 := by
  unfold pay; rw [item_lo d _ (show (e20 (.inl p)).val < 10 from p.isLt)]; rfl
theorem pay_hi (d : Dev nD) (p : Fin 10) : pay d (e20 (.inr p)) = tallyAt (((peer p d : Dev nD) : Thread nD τ), .dma (rS p)) () (NL p) := by
  unfold pay; rw [item_hi d _ (show ¬ (e20 (.inr p)).val < 10 from by show ¬ p.val + 10 < 10; omega)]
  have hp : (⟨(e20 (.inr p)).val - 10, by show p.val + 10 - 10 < 10; omega⟩ : Fin 10) = p := Fin.ext (show p.val + 10 - 10 = p.val by omega)
  simp only [hp]

omit [FloatOps F] in
theorem sum_tallyAt {α : Type} [DecidableEq α] (s : Finset α) (g : GSem nD τ sig) (f : α → ℕ) :
    (∑ a ∈ s, tallyAt g () (f a) : CellTallies nD τ sig Unit) = tallyAt g () (∑ a ∈ s, f a) := by
  induction s using Finset.induction_on with
  | empty => rw [Finset.sum_empty, Finset.sum_empty, tallyAt_zero]
  | insert a s ha ih => rw [Finset.sum_insert ha, Finset.sum_insert ha, ih, tallyAt_add]

omit [FloatOps F] in
/-- What the launch deals device `c` for the others' payments to its cells: ten units on its barrier cell, a copy's
    credit on each receive cell. -/
theorem creds (c : Dev nD) :
    (Pipeline.launchCred O₀ c : sProp 𝕄)
      ⊢ iprop(cred (tallyAt (barCell c) () 10) ∗ bigSep Finset.univ fun p : Fin 10 => cred (tallyAt (recvCell p c) () (NL p))) := by
  rw [O₀_eq_sum, Pipeline.launchCred_sum, bigSep_univ_equiv e20, bigSep_univ_sum]
  refine BI.sep_mono ?_ (bigSep_mono fun p _ => ?_)
  · have h10 : (cred (tallyAt (barCell c) () 10) : sProp 𝕄) = bigSep Finset.univ fun _ : Fin 10 => cred (tallyAt (barCell c) () 1) := by
      rw [← Pipeline.cred_finsetSum, sum_tallyAt]; rfl
    rw [h10]
    refine bigSep_mono fun p _ => ?_
    rw [show (fun d : Dev nD => pay d (e20 (.inl p))) = fun d => tallyAt (((peer p d : Dev nD) : Thread nD τ), .reg barS) () 1 from funext fun d => pay_lo d p]
    exact Pipeline.launchCred_tallyAt (.reg barS) (peer p) (peer (inv p)) (peer_inv' p) (peer_inv p) () 1 c
  · rw [show (fun d : Dev nD => pay d (e20 (.inr p))) = fun d => tallyAt (((peer p d : Dev nD) : Thread nD τ), .dma (rS p)) () (NL p) from funext fun d => pay_hi d p]
    exact Pipeline.launchCred_tallyAt (.dma (rS p)) (peer p) (peer (inv p)) (peer_inv' p) (peer_inv p) () (NL p) c

/-! ### The theorem's side conditions -/

omit [FloatOps F] in
theorem start_intro (pub : Dev nD → Nat → Nat → Nat → Elt F .bf16) (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' pub c)
      ⊢ |={Set.univ}=> iprop(start pub c ∗ emp) := by
  iintro ⟨-, Hlev, Hcr, -, HG⟩
  ihave Hc := (creds (F := F) c) $$ Hcr
  icases Hc with ⟨H1, HN⟩
  imodintro
  unfold start G'
  icases HG with ⟨HG, Hidle⟩
  isplitl
  · isplitl [HG]; · iexact HG
    isplitl [Hidle]; · iexact Hidle
    isplitl [H1]; · iexact H1
    isplitl [HN]; · iexact HN
    iexact Hlev
  · iempintro

theorem phi0_intro (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    iprop(start pub c ∗ Pipeline.prefHeld Pipeline.Prefetch.none c (fun _ => fullShare.right) (fun k => k.elim0) ∗ Pipeline.scopedRest cfg0.spec c)
      ⊢ (dats pub outAt m ρ 0 c).Φ 0 := by
  rw [show (dats pub outAt m ρ 0 c).Φ 0 = Φ₀ pub c from rfl, scopedRest0_eq]
  unfold Φ₀
  iintro ⟨Hs, -, Hr⟩
  isplitl [Hs]; · iexact Hs
  iexact Hr

theorem phi1_exit (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    (dats pub outAt m ρ 0 c).Φ (Fin.last cfg0.N) ⊢ iprop(emp ∗ Pipeline.ownSems0 osem c ∗ Pipeline.scopedRest cfg0.spec c) := by
  rw [show (dats pub outAt m ρ 0 c).Φ (Fin.last cfg0.N) = Φ₁ c from rfl, scopedRest0_eq]
  unfold Φ₁
  iintro ⟨Hr, Hz⟩
  isplitr; · iempintro
  isplitl [Hz]; · iexact Hz
  iexact Hr

theorem waits (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    (levAts L lv : sProp 𝕄) ⊢ Pipeline.cellsWaits cfgs (dats pub outAt m ρ) () 0 c :=
  Pipeline.cellsWaits_intro cfgs (dats pub outAt m ρ) () 0 c fun w s t =>
    mayWait_stage c _ (by fin_cases w <;> fin_cases s <;> rfl) _ (by
      rcases t with ⟨_ | _, ht⟩
      · exact Or.inl rfl
      · exact Or.inr rfl)

/-! ### The run -/

def finalA (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) (w : Fin cfg0.W) :
    Buf (Elt F) ((cfg0.win w).arr.view.loc (c : Thread nD τ)) := (dats pub outAt m ρ 0 c).arrAt w cfg0.N

def QC (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) : PUnit × MemSt nD τ sig (Elt F) → Prop := fun r =>
  ∀ c : Dev nD, ∀ w : Fin cfg0.W, r.2.mem ((cfg0.win w).arr.view.loc (c : Thread nD τ)) = finalA pub outAt m ρ c w

set_option maxRecDepth 8000 in
/-- At the compiled mesh of 32 devices, for any float values, from any memory with zero counters: if every device's
    body meets its obligation, every weakly fair execution of the program terminates, and every final state has each
    window's array on each device at the contents the proof data name. -/
theorem run_main (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg)
    (hbody : ∀ c, BodyObligation (dats (F := F) pub outAt m ρ 0 c) (defs₀ (F := F)) 𝒱₀ () Set.univ) :
    θ_run defs (onTc (τ := τ) (main (F := F))) (s₀ m ρ) (QC pub outAt m ρ) :=
  Pipeline.θ_run_region_owing_glob_pf (fun p => (cfgs p).toPCfg) (fun p => (cfgs p).toPCfg_adm) (dats pub outAt m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq pub outAt m ρ)
    (hdistinct := winFacts0.arr_inj)
    (O₀ := O₀) (howed₀ := fun _ => rfl) (howedN := fun _ => rfl)
    (L := L) (lv := lv) (hL := L_of_ne) (hwaits := waits pub outAt m ρ)
    (G := G pub) (G' := G' pub) (u₀ := u₀)
    (hu₀ := by
      unfold u₀
      iintro Hu
      ihave H := (ownU_pair _ _) $$ Hu
      icases H with ⟨HP, HX⟩
      imod (fund_ring pub) $$ HX with HG
      imodintro
      isplitl [HP] <;> iassumption)
    (hglob := glob pub)
    (hA := fun _ _ => rfl) (hpf := fun _ k => k.elim0)
    (X := start pub) (Y := fun _ => iprop(emp)) (Z := fun _ => iprop(emp))
    (hX := start_intro pub m ρ) (hin := phi0_intro pub outAt m ρ) (hout := phi1_exit pub outAt m ρ)
    (QY := fun _ _ => True)
    (hY := fun c s' => by
      iintro ⟨-, -, HSI⟩
      imodintro
      isplitr; · ipureintro; trivial
      iexact HSI)
    (hQ := fun _ h c w => (h c).1 w)

/-- info: 'Cert.RingW.run_main' depends on axioms: [propext, Classical.choice, Quot.sound] -/
#guard_msgs in #print axioms run_main

/-! ### The final arrays -/

theorem cfg0_N : cfg0.N = 1 := by decide
def t₀ : Fin cfg0.N := ⟨0, by rw [cfg0_N]; decide⟩

/-- The three input arrays hold what they held. -/
theorem finalA_q (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (0 : Fin 4) = m ((c : Thread nD τ).loc main_arg0) :=
  (dats (F := F) pub outAt m ρ 0 c).arrAt_in (0 : Fin 4) rfl _
theorem finalA_k (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (1 : Fin 4) = m ((c : Thread nD τ).loc main_arg1) :=
  (dats (F := F) pub outAt m ρ 0 c).arrAt_in (1 : Fin 4) rfl _
theorem finalA_v (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (2 : Fin 4) = m ((c : Thread nD τ).loc main_arg2) :=
  (dats (F := F) pub outAt m ρ 0 c).arrAt_in (2 : Fin 4) rfl _

/-- The result array holds what the body left in the result's staging buffer: the one write-back writes the whole array. -/
theorem finalA_out (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) :
    finalA pub outAt m ρ c (3 : Fin 4) = (outAt c : Buf (Elt F) ((c : Thread nD τ).loc main_v1)) := by
  unfold finalA
  rw [show cfg0.N = (t₀ : Fin cfg0.N).val + 1 from rfl, Dat.arrAt_succ, if_pos (show (cfg0.win (3 : Fin 4)).flush t₀ = true from by decide)]
  exact Memref.write_access_unit_zero_univ (Elt F) main_v1 (funext fun a => Nat.zero_mul _) _ _ (outAt c)

/-- The run, with the arrays named: on every device the result array holds `outAt c` and the three inputs are unchanged. -/
theorem run_named (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg)
    (hbody : ∀ c, BodyObligation (dats (F := F) pub outAt m ρ 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = (outAt c : Buf (Elt F) ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (run_main pub outAt m ρ hbody).mono fun r h c =>
    ⟨(h c (3 : Fin 4)).trans (finalA_out pub outAt m ρ c), (h c (0 : Fin 4)).trans (finalA_q pub outAt m ρ c),
      (h c (1 : Fin 4)).trans (finalA_k pub outAt m ρ c), (h c (2 : Fin 4)).trans (finalA_v pub outAt m ρ c)⟩

/-- info: 'Cert.RingW.run_named' depends on axioms: [propext, Classical.choice, Quot.sound] -/
#guard_msgs in #print axioms run_named

end Cert.RingW

end
-- ==== Proof.KernelTerm.lean ====
/- The value the ring-attention kernel's body stores to its output, and what a device publishes, as
   compositions of the body's payloads. -/
import proofs.«900463_g7700000000000464_dist_ring_attn_i_s256_d64_v7x_i32_f32_1_alg».proof.Proof.Gen.KernelIdeal.Skeleton

noncomputable section

namespace Cert.KernelValue

open Idealize.ShloMosaic Idealize.SL.Sem
open Cert.KernelIdeal Cert.KernelIdeal.Gen

/-! ## The stored value as a composition of payloads -/

/-- What the device publishes as its key block. -/
noncomputable def slabK {F : FTy → Type} [FloatOps F] (k : Vec F S256x64 .f32) : FVec F S1x1x1x256x64 .bf16 :=
  k0_pay1 k

/-- What the device publishes as its value block. -/
noncomputable def slabV {F : FTy → Type} [FloatOps F] (v : Vec F S256x64 .f32) : FVec F S1x1x1x256x64 .bf16 :=
  k0_pay3 (k0_pay2 v)

/-- The query block in the narrow format (read by every later update). -/
noncomputable def qb {F : FTy → Type} [FloatOps F] (q k v : Vec F S256x64 .f32) (zK zV : Fin 3 → Vec F S1x1x1x256x64 .bf16) (pK pV : Fin 7 → Vec F S1x4x1x256x64 .bf16) : FVec F S256x64 .bf16 :=
  k0_pay5 q

/-- Row maxima of the first (own) block. -/
noncomputable def m0 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay7 q k

/-- Row sums of the first block. -/
noncomputable def l0 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay9 q k

/-- Weighted values of the first block. -/
noncomputable def a0 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay10 q k v

/-- Row maxima after the first 256-key update. -/
noncomputable def m1 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay12 (qb q k v zK zV pK pV) (m0 q k v zK zV pK pV) (zK 0)

/-- Row sums after the first 256-key update. -/
noncomputable def l1 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay15 (qb q k v zK zV pK pV) (m0 q k v zK zV pK pV) (l0 q k v zK zV pK pV) (zK 0)

/-- Weighted values after the first 256-key update. -/
noncomputable def a1 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay16 (qb q k v zK zV pK pV) (m0 q k v zK zV pK pV) (a0 q k v zK zV pK pV) (zK 0) (zV 0)

/-- Row maxima after the second 256-key update. -/
noncomputable def m2 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay18 (qb q k v zK zV pK pV) (m1 q k v zK zV pK pV) (zK 1)

/-- Row sums after the second 256-key update. -/
noncomputable def l2 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay21 (qb q k v zK zV pK pV) (m1 q k v zK zV pK pV) (l1 q k v zK zV pK pV) (zK 1)

/-- Weighted values after the second 256-key update. -/
noncomputable def a2 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay22 (qb q k v zK zV pK pV) (m1 q k v zK zV pK pV) (a1 q k v zK zV pK pV) (zK 1) (zV 1)

/-- Row maxima after the third 256-key update. -/
noncomputable def m3 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay24 (qb q k v zK zV pK pV) (m2 q k v zK zV pK pV) (zK 2)

/-- Row sums after the third 256-key update. -/
noncomputable def l3 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay27 (qb q k v zK zV pK pV) (m2 q k v zK zV pK pV) (l2 q k v zK zV pK pV) (zK 2)

/-- Weighted values after the third 256-key update. -/
noncomputable def a3 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay28 (qb q k v zK zV pK pV) (m2 q k v zK zV pK pV) (a2 q k v zK zV pK pV) (zK 2) (zV 2)

/-- Row maxima after the first 1024-key update. -/
noncomputable def m4 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay30 (qb q k v zK zV pK pV) (m3 q k v zK zV pK pV) (pK 0)

/-- Row sums after the first 1024-key update. -/
noncomputable def l4 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay33 (qb q k v zK zV pK pV) (m3 q k v zK zV pK pV) (l3 q k v zK zV pK pV) (pK 0)

/-- Weighted values after the first 1024-key update. -/
noncomputable def a4 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay34 (qb q k v zK zV pK pV) (m3 q k v zK zV pK pV) (a3 q k v zK zV pK pV) (pK 0) (pV 0)

/-- Row maxima after the second 1024-key update. -/
noncomputable def m5 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay37 (qb q k v zK zV pK pV) (m4 q k v zK zV pK pV) (pK 1)

/-- Row sums after the second 1024-key update. -/
noncomputable def l5 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay40 (qb q k v zK zV pK pV) (m4 q k v zK zV pK pV) (l4 q k v zK zV pK pV) (pK 1)

/-- Weighted values after the second 1024-key update. -/
noncomputable def a5 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay43 (k0_pay35 (pV 1)) (k0_pay41 (qb q k v zK zV pK pV) (m4 q k v zK zV pK pV) (a4 q k v zK zV pK pV) (pK 1)) (k0_pay42 (qb q k v zK zV pK pV) (m4 q k v zK zV pK pV) (pK 1)) (constant S256x64 .f32 0x00000000#32)

/-- Row maxima after the third 1024-key update. -/
noncomputable def m6 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay46 (qb q k v zK zV pK pV) (m5 q k v zK zV pK pV) (pK 2)

/-- Row sums after the third 1024-key update. -/
noncomputable def l6 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay49 (qb q k v zK zV pK pV) (m5 q k v zK zV pK pV) (l5 q k v zK zV pK pV) (pK 2)

/-- Weighted values after the third 1024-key update. -/
noncomputable def a6 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay50 (a5 q k v zK zV pK pV) (k0_pay44 (pV 2)) (k0_pay47 (qb q k v zK zV pK pV) (m5 q k v zK zV pK pV) (pK 2)) (k0_pay48 (qb q k v zK zV pK pV) (m5 q k v zK zV pK pV) (pK 2))

/-- Row maxima after the fourth 1024-key update. -/
noncomputable def m7 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay53 (qb q k v zK zV pK pV) (m6 q k v zK zV pK pV) (pK 3)

/-- Row sums after the fourth 1024-key update. -/
noncomputable def l7 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay57 (k0_pay55 (qb q k v zK zV pK pV) (m6 q k v zK zV pK pV) (pK 3)) (k0_pay56 (qb q k v zK zV pK pV) (m6 q k v zK zV pK pV) (l6 q k v zK zV pK pV) (pK 3))

/-- Weighted values after the fourth 1024-key update. -/
noncomputable def a7 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay58 (a6 q k v zK zV pK pV) (k0_pay51 (pV 3)) (k0_pay54 (qb q k v zK zV pK pV) (m6 q k v zK zV pK pV) (pK 3)) (k0_pay55 (qb q k v zK zV pK pV) (m6 q k v zK zV pK pV) (pK 3))

/-- Row maxima after the fifth 1024-key update. -/
noncomputable def m8 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay61 (qb q k v zK zV pK pV) (m7 q k v zK zV pK pV) (pK 4)

/-- Row sums after the fifth 1024-key update. -/
noncomputable def l8 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay64 (l7 q k v zK zV pK pV) (k0_pay60 (qb q k v zK zV pK pV) (pK 4)) (m8 q k v zK zV pK pV) (k0_pay62 (qb q k v zK zV pK pV) (m7 q k v zK zV pK pV) (pK 4))

/-- Weighted values after the fifth 1024-key update. -/
noncomputable def a8 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay65 (a7 q k v zK zV pK pV) (k0_pay59 (pV 4)) (k0_pay60 (qb q k v zK zV pK pV) (pK 4)) (m8 q k v zK zV pK pV) (k0_pay62 (qb q k v zK zV pK pV) (m7 q k v zK zV pK pV) (pK 4))

/-- Row maxima after the sixth 1024-key update. -/
noncomputable def m9 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay69 (m8 q k v zK zV pK pV) (k0_pay68 (qb q k v zK zV pK pV) (pK 5))

/-- Row sums after the sixth 1024-key update. -/
noncomputable def l9 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay72 (m8 q k v zK zV pK pV) (l8 q k v zK zV pK pV) (k0_pay67 (qb q k v zK zV pK pV) (pK 5)) (k0_pay68 (qb q k v zK zV pK pV) (pK 5))

/-- Weighted values after the sixth 1024-key update. -/
noncomputable def a9 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay73 (m8 q k v zK zV pK pV) (a8 q k v zK zV pK pV) (k0_pay66 (pV 5)) (k0_pay67 (qb q k v zK zV pK pV) (pK 5)) (k0_pay68 (qb q k v zK zV pK pV) (pK 5))

/-- The value the body stores to its output: the seventh 1024-key update followed by the division of the weighted values by the row sums, as the exact composition of the body's payloads. `zK 0`, `zV 0` are the key and value blocks read by the first 256-key update, `pK 0`, `pV 0` those read by the first 1024-key update. -/
noncomputable def outTerm {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay76 (m9 q k v zK zV pK pV) (l9 q k v zK zV pK pV) (a9 q k v zK zV pK pV) (k0_pay74 (pV 6)) (k0_pay75 (qb q k v zK zV pK pV) (pK 6)) (Scalar.ofBits .f32 0x3E000000#32)

end Cert.KernelValue
-- ==== Proof.OutAt.lean ====
/- What every device publishes, the blocks a device loads from its scratch buffer once every copy has
   landed, and the value it stores to its output: the composition of the body's payloads over those. -/
import proofs.«900463_g7700000000000464_dist_ring_attn_i_s256_d64_v7x_i32_f32_1_alg».proof.Proof.Ghost
import proofs.«900463_g7700000000000464_dist_ring_attn_i_s256_d64_v7x_i32_f32_1_alg».proof.Proof.KernelTerm
import Idealize.ShloMosaic.Lib.ValueIdx

noncomputable section

namespace Cert.Ring

open Cert.KernelIdeal Cert.KernelIdeal.Gen
open Idealize.ShloMosaic
open Idealize.ShloMosaic.TcCoe
open Idealize.SL.Sem
open Cert.KernelValue

/-- What device `d` publishes: entry (kv, r, dd) is its key slab's (kv = 0) or its value slab's entry (r, dd). -/
def pubOf {F : FTy → Type} [FloatOps F] (m : (ℓ : Loc nD τ sig) → Buf (Elt F) ℓ) (ρ : Dev nD → PrngReg) :
    Dev nD → Nat → Nat → Nat → Elt F .bf16 :=
  fun d kv r dd =>
    if kv = 0 then
      slabK (stgK m ρ d) (ValueIdx.ix5 (0 : Fin 1) (0 : Fin 1) (0 : Fin 1)
        (⟨r % 256, Nat.mod_lt _ (by decide)⟩ : Fin 256) (⟨dd % 64, Nat.mod_lt _ (by decide)⟩ : Fin 64))
    else
      slabV (stgV m ρ d) (ValueIdx.ix5 (0 : Fin 1) (0 : Fin 1) (0 : Fin 1)
        (⟨r % 256, Nat.mod_lt _ (by decide)⟩ : Fin 256) (⟨dd % 64, Nat.mod_lt _ (by decide)⟩ : Fin 64))

/-- The three 256-key blocks the body loads, in the order it reads them: slots [0,3], [0,2], [0,1]. -/
def zKof {F : FTy → Type} [FloatOps F] (pub : Dev nD → Nat → Nat → Nat → Elt F .bf16) (c : Dev nD) :
    Fin 3 → Vec F S1x1x1x256x64 .bf16 :=
  fun t => match t with
    | 0 => (A4.view.readAt (Elt F) (Rect.unit (s := S8x4x2x256x64) ![0, 3, 0, 0, 0] S1x1x1x256x64.size inb_S8x4x2x256x64_S1x1x1x256x64_0_3_0_0_0).toLoadRect (scr pub c) : Vec F S1x1x1x256x64 .bf16)
    | 1 => (A4.view.readAt (Elt F) (Rect.unit (s := S8x4x2x256x64) ![0, 2, 0, 0, 0] S1x1x1x256x64.size inb_S8x4x2x256x64_S1x1x1x256x64_0_2_0_0_0).toLoadRect (scr pub c) : Vec F S1x1x1x256x64 .bf16)
    | 2 => (A4.view.readAt (Elt F) (Rect.unit (s := S8x4x2x256x64) ![0, 1, 0, 0, 0] S1x1x1x256x64.size inb_S8x4x2x256x64_S1x1x1x256x64_0_1_0_0_0).toLoadRect (scr pub c) : Vec F S1x1x1x256x64 .bf16)

/-- Their value blocks. -/
def zVof {F : FTy → Type} [FloatOps F] (pub : Dev nD → Nat → Nat → Nat → Elt F .bf16) (c : Dev nD) :
    Fin 3 → Vec F S1x1x1x256x64 .bf16 :=
  fun t => match t with
    | 0 => (A4.view.readAt (Elt F) (Rect.unit (s := S8x4x2x256x64) ![0, 3, 1, 0, 0] S1x1x1x256x64.size inb_S8x4x2x256x64_S1x1x1x256x64_0_3_1_0_0).toLoadRect (scr pub c) : Vec F S1x1x1x256x64 .bf16)
    | 1 => (A4.view.readAt (Elt F) (Rect.unit (s := S8x4x2x256x64) ![0, 2, 1, 0, 0] S1x1x1x256x64.size inb_S8x4x2x256x64_S1x1x1x256x64_0_2_1_0_0).toLoadRect (scr pub c) : Vec F S1x1x1x256x64 .bf16)
    | 2 => (A4.view.readAt (Elt F) (Rect.unit (s := S8x4x2x256x64) ![0, 1, 1, 0, 0] S1x1x1x256x64.size inb_S8x4x2x256x64_S1x1x1x256x64_0_1_1_0_0).toLoadRect (scr pub c) : Vec F S1x1x1x256x64 .bf16)

/-- The seven 1024-key blocks the body loads, in the order it reads them: slots 7, 6, …, 1. -/
def pKof {F : FTy → Type} [FloatOps F] (pub : Dev nD → Nat → Nat → Nat → Elt F .bf16) (c : Dev nD) :
    Fin 7 → Vec F S1x4x1x256x64 .bf16 :=
  fun t => match t with
    | 0 => (A4.view.readAt (Elt F) (Rect.unit (s := S8x4x2x256x64) ![7, 0, 0, 0, 0] S1x4x1x256x64.size inb_S8x4x2x256x64_S1x4x1x256x64_7_0_0_0_0).toLoadRect (scr pub c) : Vec F S1x4x1x256x64 .bf16)
    | 1 => (A4.view.readAt (Elt F) (Rect.unit (s := S8x4x2x256x64) ![6, 0, 0, 0, 0] S1x4x1x256x64.size inb_S8x4x2x256x64_S1x4x1x256x64_6_0_0_0_0).toLoadRect (scr pub c) : Vec F S1x4x1x256x64 .bf16)
    | 2 => (A4.view.readAt (Elt F) (Rect.unit (s := S8x4x2x256x64) ![5, 0, 0, 0, 0] S1x4x1x256x64.size inb_S8x4x2x256x64_S1x4x1x256x64_5_0_0_0_0).toLoadRect (scr pub c) : Vec F S1x4x1x256x64 .bf16)
    | 3 => (A4.view.readAt (Elt F) (Rect.unit (s := S8x4x2x256x64) ![4, 0, 0, 0, 0] S1x4x1x256x64.size inb_S8x4x2x256x64_S1x4x1x256x64_4_0_0_0_0).toLoadRect (scr pub c) : Vec F S1x4x1x256x64 .bf16)
    | 4 => (A4.view.readAt (Elt F) (Rect.unit (s := S8x4x2x256x64) ![3, 0, 0, 0, 0] S1x4x1x256x64.size inb_S8x4x2x256x64_S1x4x1x256x64_3_0_0_0_0).toLoadRect (scr pub c) : Vec F S1x4x1x256x64 .bf16)
    | 5 => (A4.view.readAt (Elt F) (Rect.unit (s := S8x4x2x256x64) ![2, 0, 0, 0, 0] S1x4x1x256x64.size inb_S8x4x2x256x64_S1x4x1x256x64_2_0_0_0_0).toLoadRect (scr pub c) : Vec F S1x4x1x256x64 .bf16)
    | 6 => (A4.view.readAt (Elt F) (Rect.unit (s := S8x4x2x256x64) ![1, 0, 0, 0, 0] S1x4x1x256x64.size inb_S8x4x2x256x64_S1x4x1x256x64_1_0_0_0_0).toLoadRect (scr pub c) : Vec F S1x4x1x256x64 .bf16)

/-- Their value blocks. -/
def pVof {F : FTy → Type} [FloatOps F] (pub : Dev nD → Nat → Nat → Nat → Elt F .bf16) (c : Dev nD) :
    Fin 7 → Vec F S1x4x1x256x64 .bf16 :=
  fun t => match t with
    | 0 => (A4.view.readAt (Elt F) (Rect.unit (s := S8x4x2x256x64) ![7, 0, 1, 0, 0] S1x4x1x256x64.size inb_S8x4x2x256x64_S1x4x1x256x64_7_0_1_0_0).toLoadRect (scr pub c) : Vec F S1x4x1x256x64 .bf16)
    | 1 => (A4.view.readAt (Elt F) (Rect.unit (s := S8x4x2x256x64) ![6, 0, 1, 0, 0] S1x4x1x256x64.size inb_S8x4x2x256x64_S1x4x1x256x64_6_0_1_0_0).toLoadRect (scr pub c) : Vec F S1x4x1x256x64 .bf16)
    | 2 => (A4.view.readAt (Elt F) (Rect.unit (s := S8x4x2x256x64) ![5, 0, 1, 0, 0] S1x4x1x256x64.size inb_S8x4x2x256x64_S1x4x1x256x64_5_0_1_0_0).toLoadRect (scr pub c) : Vec F S1x4x1x256x64 .bf16)
    | 3 => (A4.view.readAt (Elt F) (Rect.unit (s := S8x4x2x256x64) ![4, 0, 1, 0, 0] S1x4x1x256x64.size inb_S8x4x2x256x64_S1x4x1x256x64_4_0_1_0_0).toLoadRect (scr pub c) : Vec F S1x4x1x256x64 .bf16)
    | 4 => (A4.view.readAt (Elt F) (Rect.unit (s := S8x4x2x256x64) ![3, 0, 1, 0, 0] S1x4x1x256x64.size inb_S8x4x2x256x64_S1x4x1x256x64_3_0_1_0_0).toLoadRect (scr pub c) : Vec F S1x4x1x256x64 .bf16)
    | 5 => (A4.view.readAt (Elt F) (Rect.unit (s := S8x4x2x256x64) ![2, 0, 1, 0, 0] S1x4x1x256x64.size inb_S8x4x2x256x64_S1x4x1x256x64_2_0_1_0_0).toLoadRect (scr pub c) : Vec F S1x4x1x256x64 .bf16)
    | 6 => (A4.view.readAt (Elt F) (Rect.unit (s := S8x4x2x256x64) ![1, 0, 1, 0, 0] S1x4x1x256x64.size inb_S8x4x2x256x64_S1x4x1x256x64_1_0_1_0_0).toLoadRect (scr pub c) : Vec F S1x4x1x256x64 .bf16)

/-- What device `c` stores to its output block. -/
def outOf {F : FTy → Type} [FloatOps F] (pub : Dev nD → Nat → Nat → Nat → Elt F .bf16)
    (m : (ℓ : Loc nD τ sig) → Buf (Elt F) ℓ) (ρ : Dev nD → PrngReg) (c : Dev nD) :
    (cc0_stg3_0 : Ref sig .tc).ty.Contents (Elt F) :=
  outTerm (stgQ m ρ c) (stgK m ρ c) (stgV m ρ c) (zKof pub c) (zVof pub c) (pKof pub c) (pVof pub c)

/-- The offsets of a whole rank-2 load are zero. -/
theorem off2_zero : (![0, 0] : Fin 2 → Nat) = fun _ => 0 := funext fun a => by fin_cases a <;> rfl

/-- A whole load of a staged block reads the block. -/
theorem read_stg0 {F : FTy → Type} (f : (cc0_stg0_0 : Ref sig .tc).ty.Contents (Elt F)) :
    (Memref.whole cc0_stg0_0 : Memref sig .tc .vmem S256x64 .f32).view.readAt (Elt F)
      (Rect.unit (s := S256x64) ![0, 0] S256x64.size inb_S256x64_S256x64_0_0).toLoadRect f = f :=
  Memref.readAt_unit_zero (Elt F) cc0_stg0_0 off2_zero _ f

theorem read_stg1 {F : FTy → Type} (f : (cc0_stg1_0 : Ref sig .tc).ty.Contents (Elt F)) :
    (Memref.whole cc0_stg1_0 : Memref sig .tc .vmem S256x64 .f32).view.readAt (Elt F)
      (Rect.unit (s := S256x64) ![0, 0] S256x64.size inb_S256x64_S256x64_0_0).toLoadRect f = f :=
  Memref.readAt_unit_zero (Elt F) cc0_stg1_0 off2_zero _ f

theorem read_stg2 {F : FTy → Type} (f : (cc0_stg2_0 : Ref sig .tc).ty.Contents (Elt F)) :
    (Memref.whole cc0_stg2_0 : Memref sig .tc .vmem S256x64 .f32).view.readAt (Elt F)
      (Rect.unit (s := S256x64) ![0, 0] S256x64.size inb_S256x64_S256x64_0_0).toLoadRect f = f :=
  Memref.readAt_unit_zero (Elt F) cc0_stg2_0 off2_zero _ f

theorem read_stg3 {F : FTy → Type} (f : (cc0_stg3_0 : Ref sig .tc).ty.Contents (Elt F)) :
    (Memref.whole cc0_stg3_0 : Memref sig .tc .vmem S256x64 .f32).view.readAt (Elt F)
      (Rect.unit (s := S256x64) ![0, 0] S256x64.size inb_S256x64_S256x64_0_0).toLoadRect f = f :=
  Memref.readAt_unit_zero (Elt F) cc0_stg3_0 off2_zero _ f

end Cert.Ring
-- ==== Proof.RefFinite.lean ====
/-
  Finite inputs are real numbers.

  The precondition on a device's three blocks is the conjunction, over the three blocks, of
  "every entry x satisfies |x| < +∞". The conjunction being true makes each of the three
  all-quantified statements true, hence |x| < +∞ at every entry of every block. An extended real x
  is -∞, +∞ or a real number; in the first two cases |x| = max x (-x) = +∞, which is not below +∞.
  So every entry is a real number.
-/
import proofs.«900463_g7700000000000464_dist_ring_attn_i_s256_d64_v7x_i32_f32_1_alg».proof.Pre_finite_inputs_Kernel
import Idealize.ShloMosaic.Lib.ReduceAll
import Idealize.ShloMosaic.Lib.ValueIdx
import Idealize.ShloMosaic.PureOps.Ideal.Laws

namespace Cert.RefValue

open Idealize.ShloMosaic Idealize.ShloMosaic.ValueIdx

/-- The scalar shape has one index. -/
instance subsingleton_scalar_idx : Subsingleton (Cert.Pre_finite_inputs_Kernel.S_).Idx :=
  ⟨fun _ _ => funext fun d => d.elim0⟩

/-- The word 0x7F800000 is +∞. -/
theorem ofBits_pos_inf : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (⊤ : EReal) = 1#1) :
    ∃ a : ℝ, x = (a : EReal) := by
  induction x using EReal.rec with
  | bot => simp [Ideal.cmp] at h
  | coe a => exact ⟨a, rfl⟩
  | top => simp [Ideal.cmp] at h

/-- One block: if "every |entry| < +∞" reduces to true, every entry is a real number. -/
theorem block_real_one [hF : Cert.Pre_finite_inputs_Kernel.Facts]
    (x : FVec Ideal Cert.Pre_finite_inputs_Kernel.S256x64 .f32)
    (h : Host.reduce IntOp.andi
        (cmpf .olt (Host.absf x)
          (broadcastInDim Cert.Pre_finite_inputs_Kernel.S256x64 ![] hF.bcast_S_S256x64
            (constant (F := Ideal) Cert.Pre_finite_inputs_Kernel.S_ .f32 0x7F800000#32)))
        (constantI Cert.Pre_finite_inputs_Kernel.S_ 1 1#1) hF.reducesTo_S256x64_S_d0_1 hF.h_S_ ix0 = 1#1)
    (i : (Cert.Pre_finite_inputs_Kernel.S256x64).Idx) : ∃ a : ℝ, x i = (a : EReal) := by
  have hi := Host.reduce_andi_all _ _ _ _ _ h i
  apply real_of_abs_lt_top
  rw [← ofBits_pos_inf]
  exact hi

/-- THE PRECONDITION READ BACK: all three blocks of a device are real-valued. -/
theorem block_real [hF : Cert.Pre_finite_inputs_Kernel.Facts]
    (x0 x1 x2 : FVec Ideal Cert.Pre_finite_inputs_Kernel.S256x64 .f32)
    (h : Cert.Pre_finite_inputs_Kernel.fn (F := Ideal) x0 x1 x2 = fun _ => 1#1) :
    (∀ i, ∃ a : ℝ, x0 i = (a : EReal)) ∧ (∀ i, ∃ a : ℝ, x1 i = (a : EReal))
      ∧ (∀ i, ∃ a : ℝ, x2 i = (a : EReal)) := by
  have h0 := congrFun h ix0
  dsimp only [Cert.Pre_finite_inputs_Kernel.fn] at h0
  obtain ⟨h01, h2⟩ := IntOp.andi_eq_one.1 h0
  obtain ⟨h0', h1⟩ := IntOp.andi_eq_one.1 h01
  exact ⟨block_real_one x0 h0', block_real_one x1 h1, block_real_one x2 h2⟩

end Cert.RefValue

/-- info: 'Cert.RefValue.block_real' depends on axioms: [propext, Classical.choice, Quot.sound] -/
#guard_msgs in #print axioms Cert.RefValue.block_real
-- ==== Proof.RefJoin.lean ====
/-
  A whole array and its 32 row blocks.

  An array of 8192 rows and 64 columns is cut along the rows into 32 blocks of 256 rows, block c
  holding rows 256·c … 256·c + 255. So entry (i, j) of block c is entry (256·c + i, j) of the whole,
  and every row r of the whole lies in exactly one block: r = 256·(r / 256) + r % 256 with
  r / 256 < 32 and r % 256 < 256. A property that holds of every entry of every block (here: being a
  real number) therefore holds of every entry of the whole array.
-/
import Idealize.ShloMosaic.Lib.Layout
import Idealize.ShloMosaic.Lib.ValueIdx

namespace Cert.RefValue

open Idealize.ShloMosaic Idealize.ShloMosaic.ValueIdx

/-- Entry (i, j) of row block c is entry (256·c + i, j) of the whole array. -/
theorem block_apply {α : Type} (X : (⟨2, ![8192, 64]⟩ : Shape).Idx → α) (c : Fin 32) (i : Fin 256) (j : Fin 64) :
    (Layout.block ⟨2, ![256, 64]⟩ ⟨2, ![8192, 64]⟩ 0 32 c X) (ix2 i j)
      = X (ix2 (⟨256 * c.val + i.val, by have := c.isLt; have := i.isLt; omega⟩ : Fin 8192) j) := by
  rw [Layout.block_apply]
  refine congrArg X (funext fun b => Fin.ext ?_)
  match b with
  | ⟨0, _⟩ =>
    show c.val * 256 + i.val = 256 * c.val + i.val
    omega
  | ⟨1, _⟩ => rfl

/-- Row r of the whole array is row r % 256 of block r / 256. -/
theorem whole_apply {α : Type} (X : (⟨2, ![8192, 64]⟩ : Shape).Idx → α) (r : Fin 8192) (j : Fin 64) :
    X (ix2 r j)
      = (Layout.block ⟨2, ![256, 64]⟩ ⟨2, ![8192, 64]⟩ 0 32
          (⟨r.val / 256, by have := r.isLt; omega⟩ : Fin 32) X)
          (ix2 (⟨r.val % 256, Nat.mod_lt _ (by decide)⟩ : Fin 256) j) := by
  rw [block_apply]
  exact congrArg (fun x => X (ix2 x j)) (Fin.ext (Nat.div_add_mod r.val 256).symm)

/-- An array all of whose 32 row blocks are real-valued is real-valued. -/
theorem whole_real (X : (⟨2, ![8192, 64]⟩ : Shape).Idx → EReal)
    (h : ∀ c : Fin 32, ∀ i : (⟨2, ![256, 64]⟩ : Shape).Idx,
      ∃ a : ℝ, (Layout.block ⟨2, ![256, 64]⟩ ⟨2, ![8192, 64]⟩ 0 32 c X) i = (a : EReal)) :
    ∃ q : Fin 8192 → Fin 64 → ℝ, ∀ r d, X (ix2 r d) = ((q r d : ℝ) : EReal) := by
  have key : ∀ (r : Fin 8192) (d : Fin 64), ∃ a : ℝ, X (ix2 r d) = (a : EReal) := by
    intro r d
    rw [whole_apply X r d]
    exact h _ _
  choose q hq using key
  exact ⟨q, hq⟩

end Cert.RefValue

/-- info: 'Cert.RefValue.whole_real' depends on axioms: [propext, Classical.choice, Quot.sound] -/
#guard_msgs in #print axioms Cert.RefValue.whole_real
-- ==== Proof.RefWhole.lean ====
/-
  From the precondition on every device's blocks to real-valued whole arrays.

  Device c holds row block c of each of the three whole arrays. If on every device the three blocks
  have only entries of finite absolute value, then every entry of every block is a real number, and
  since every row of a whole array lies in one of its 32 row blocks, every entry of each whole array is
  a real number: the three arrays are the coercions of three real matrices q, k, v.
-/
import proofs.«900463_g7700000000000464_dist_ring_attn_i_s256_d64_v7x_i32_f32_1_alg».proof.Proof.RefFinite
import proofs.«900463_g7700000000000464_dist_ring_attn_i_s256_d64_v7x_i32_f32_1_alg».proof.Proof.RefJoin

namespace Cert.RefValue

open Idealize.ShloMosaic Idealize.ShloMosaic.ValueIdx

/-- If every device's three row blocks satisfy the finiteness precondition, the three whole arrays
    are real-valued. -/
theorem whole_real_of_pre [hF : Cert.Pre_finite_inputs_Kernel.Facts]
    (X0 X1 X2 : (⟨2, ![8192, 64]⟩ : Shape).Idx → EReal)
    (h : ∀ c : Fin 32, Cert.Pre_finite_inputs_Kernel.fn (F := Ideal)
        (Layout.block ⟨2, ![256, 64]⟩ ⟨2, ![8192, 64]⟩ 0 32 c X0)
        (Layout.block ⟨2, ![256, 64]⟩ ⟨2, ![8192, 64]⟩ 0 32 c X1)
        (Layout.block ⟨2, ![256, 64]⟩ ⟨2, ![8192, 64]⟩ 0 32 c X2) = fun _ => 1#1) :
    ∃ q k v : Fin 8192 → Fin 64 → ℝ,
      (∀ r d, X0 (ix2 r d) = ((q r d : ℝ) : EReal)) ∧ (∀ r d, X1 (ix2 r d) = ((k r d : ℝ) : EReal))
        ∧ (∀ r d, X2 (ix2 r d) = ((v r d : ℝ) : EReal)) := by
  obtain ⟨q, hq⟩ := whole_real X0 fun c i => (block_real _ _ _ (h c)).1 i
  obtain ⟨k, hk⟩ := whole_real X1 fun c i => (block_real _ _ _ (h c)).2.1 i
  obtain ⟨v, hv⟩ := whole_real X2 fun c i => (block_real _ _ _ (h c)).2.2 i
  exact ⟨q, k, v, hq, hk, hv⟩

end Cert.RefValue

/-- info: 'Cert.RefValue.whole_real_of_pre' depends on axioms: [propext, Classical.choice, Quot.sound] -/
#guard_msgs in #print axioms Cert.RefValue.whole_real_of_pre
-- ==== Proof.LibOnlineSoftmax.lean ====
/-
# Online softmax: the running (max, denominator, numerator) summary

Fix real scores `s k` and real values `v k` indexed by keys `k`.  For a nonempty finite key
set `S` put

  M_S = max_{k ∈ S} s k,   L_S = ∑_{k ∈ S} exp (s k - M_S),   A_S = ∑_{k ∈ S} exp (s k - M_S) * v k.

The triple (M_S, L_S, A_S) is the *summary* of `S`.  Two facts make it useful.

* Merging.  If `T` is a second nonempty key set disjoint from `S`, then with
  M' = max M_S M_T one has, because exp (s k - M_S) * exp (M_S - M') = exp (s k - M'),

    L_{S ∪ T} = L_S * exp (M_S - M') + ∑_{k ∈ T} exp (s k - M'),
    A_{S ∪ T} = A_S * exp (M_S - M') + ∑_{k ∈ T} exp (s k - M') * v k,

  and M_{S ∪ T} = M'.  So the summary of a union is computed from the summary of `S` and
  the raw data of `T` alone: key blocks can be folded in one after another, in any order.

* Read-out.  L_S > 0 (every term is positive), and A_S / L_S is the softmax-weighted average
  ∑_{k ∈ S} (exp (s k - M_S) / L_S) * v k.  For `S` the set of all keys this is exactly one
  entry of softmax(scores) · V.  That value does not depend on how the keys are named: it is
  invariant under re-indexing by a bijection.

The last part moves the order and sum operations between the reals and the extended reals:
the coercion ℝ → EReal commutes with finite sums, binary and finite maxima, and a max-fold
started at ⊥ over a nonempty family of reals is the coercion of the real maximum.
-/
import Mathlib.Analysis.SpecialFunctions.Exp
import Mathlib.Data.EReal.Basic
import Mathlib.Data.EReal.Operations
import Mathlib.Algebra.BigOperators.Group.Finset.Basic
import Mathlib.Algebra.BigOperators.Field
import Mathlib.Data.Finset.Lattice.Fold
import Mathlib.Data.Finset.Fold
import Mathlib.Data.Fintype.BigOperators

namespace Cert.OnlineSoftmax

open Finset

/-- the state (m, l, acc) is the online-softmax summary of the key set S -/
def Summ {κ : Type*} (s v : κ → ℝ) (S : Finset κ) (hS : S.Nonempty) (m l acc : ℝ) : Prop :=
  m = S.sup' hS s ∧ l = ∑ k ∈ S, Real.exp (s k - m) ∧ acc = ∑ k ∈ S, Real.exp (s k - m) * v k

/-- The summary computed directly from its definition is a summary. -/
theorem summ_init {κ : Type*} (s v : κ → ℝ) (S : Finset κ) (hS : S.Nonempty) :
    Summ s v S hS (S.sup' hS s) (∑ k ∈ S, Real.exp (s k - S.sup' hS s))
      (∑ k ∈ S, Real.exp (s k - S.sup' hS s) * v k) :=
  ⟨rfl, rfl, rfl⟩

/-- Rescaling one term: exp (x - m) * exp (m - M) = exp (x - M). -/
theorem exp_sub_mul_exp_sub (x m M : ℝ) :
    Real.exp (x - m) * Real.exp (m - M) = Real.exp (x - M) := by
  rw [← Real.exp_add]
  congr 1
  ring

/-- Rescaling a whole sum of exponentials from the reference point m to the reference point M. -/
theorem sum_exp_rescale {κ : Type*} (s : κ → ℝ) (S : Finset κ) (m M : ℝ) :
    (∑ k ∈ S, Real.exp (s k - m)) * Real.exp (m - M) = ∑ k ∈ S, Real.exp (s k - M) := by
  rw [Finset.sum_mul]
  exact Finset.sum_congr rfl fun k _ => exp_sub_mul_exp_sub (s k) m M

/-- Rescaling a weighted sum of exponentials from the reference point m to M. -/
theorem sum_exp_mul_rescale {κ : Type*} (s v : κ → ℝ) (S : Finset κ) (m M : ℝ) :
    (∑ k ∈ S, Real.exp (s k - m) * v k) * Real.exp (m - M)
      = ∑ k ∈ S, Real.exp (s k - M) * v k := by
  rw [Finset.sum_mul]
  refine Finset.sum_congr rfl fun k _ => ?_
  rw [mul_right_comm, exp_sub_mul_exp_sub]

/-- Merging a disjoint block T into the summary of S. -/
theorem summ_step {κ : Type*} [DecidableEq κ] (s v : κ → ℝ) (S T : Finset κ) (hS : S.Nonempty)
    (hT : T.Nonempty) (hd : Disjoint S T) (m l acc : ℝ) (h : Summ s v S hS m l acc) :
    Summ s v (S ∪ T) (hS.mono Finset.subset_union_left) (max m (T.sup' hT s))
      (l * Real.exp (m - max m (T.sup' hT s)) + ∑ k ∈ T, Real.exp (s k - max m (T.sup' hT s)))
      (acc * Real.exp (m - max m (T.sup' hT s))
        + ∑ k ∈ T, Real.exp (s k - max m (T.sup' hT s)) * v k) := by
  obtain ⟨hm, hl, hacc⟩ := h
  refine ⟨?_, ?_, ?_⟩
  · rw [Finset.sup'_union hS hT s, hm]
  · rw [Finset.sum_union hd, hl, sum_exp_rescale]
  · rw [Finset.sum_union hd, hacc, sum_exp_mul_rescale]

/-- The denominator of a summary is positive: it is a nonempty sum of exponentials. -/
theorem summ_l_pos {κ : Type*} {s v : κ → ℝ} {S : Finset κ} {hS : S.Nonempty} {m l acc : ℝ}
    (h : Summ s v S hS m l acc) : 0 < l := by
  obtain ⟨_, hl, _⟩ := h
  rw [hl]
  exact Finset.sum_pos (fun k _ => Real.exp_pos _) hS

/-- The running maximum of a summary dominates every score seen so far. -/
theorem summ_le_m {κ : Type*} {s v : κ → ℝ} {S : Finset κ} {hS : S.Nonempty} {m l acc : ℝ}
    (h : Summ s v S hS m l acc) {k : κ} (hk : k ∈ S) : s k ≤ m := by
  rw [h.1]
  exact Finset.le_sup' s hk

/-- Reading out a summary of any key set: numerator over denominator is the weighted average. -/
theorem summ_div {κ : Type*} {s v : κ → ℝ} {S : Finset κ} {hS : S.Nonempty} {m l acc : ℝ}
    (h : Summ s v S hS m l acc) :
    acc / l = ∑ k ∈ S, (Real.exp (s k - S.sup' hS s) / ∑ k' ∈ S, Real.exp (s k' - S.sup' hS s))
      * v k := by
  obtain ⟨hm, hl, hacc⟩ := h
  subst hm
  rw [hacc, hl, Finset.sum_div]
  exact Finset.sum_congr rfl fun k _ => (div_mul_eq_mul_div _ _ _).symm

/-- Reading out the summary of the set of all keys gives the softmax-weighted average. -/
theorem summ_final {κ : Type*} [Fintype κ] {s v : κ → ℝ} {m l acc : ℝ}
    (hU : (Finset.univ : Finset κ).Nonempty) (h : Summ s v Finset.univ hU m l acc) :
    acc / l = ∑ k, (Real.exp (s k - Finset.univ.sup' hU s)
      / ∑ k', Real.exp (s k' - Finset.univ.sup' hU s)) * v k :=
  summ_div h

/-- the reference's row value; invariant under re-indexing the keys by a bijection -/
noncomputable def attnRow {κ : Type*} [Fintype κ] (hU : (Finset.univ : Finset κ).Nonempty)
    (s v : κ → ℝ) : ℝ :=
  ∑ k, (Real.exp (s k - Finset.univ.sup' hU s)
    / ∑ k', Real.exp (s k' - Finset.univ.sup' hU s)) * v k

/-- The read-out of a summary of all keys is the reference's row value. -/
theorem summ_final_attnRow {κ : Type*} [Fintype κ] {s v : κ → ℝ} {m l acc : ℝ}
    (hU : (Finset.univ : Finset κ).Nonempty) (h : Summ s v Finset.univ hU m l acc) :
    acc / l = attnRow hU s v :=
  summ_final hU h

/-- The maximum over all keys does not change when the keys are re-indexed by a bijection. -/
theorem sup'_univ_equiv {κ κ' : Type*} [Fintype κ] [Fintype κ'] (e : κ' ≃ κ)
    (hU : (Finset.univ : Finset κ).Nonempty) (hU' : (Finset.univ : Finset κ').Nonempty)
    (s : κ → ℝ) :
    Finset.univ.sup' hU' (fun a => s (e a)) = Finset.univ.sup' hU s := by
  apply le_antisymm
  · exact Finset.sup'_le hU' _ fun a _ => Finset.le_sup' s (Finset.mem_univ (e a))
  · refine Finset.sup'_le hU _ fun k _ => ?_
    calc s k = s (e (e.symm k)) := by rw [Equiv.apply_symm_apply]
      _ ≤ Finset.univ.sup' hU' (fun a => s (e a)) :=
        Finset.le_sup' (fun a => s (e a)) (Finset.mem_univ (e.symm k))

theorem attnRow_equiv {κ κ' : Type*} [Fintype κ] [Fintype κ'] (e : κ' ≃ κ)
    (hU : (Finset.univ : Finset κ).Nonempty) (hU' : (Finset.univ : Finset κ').Nonempty)
    (s v : κ → ℝ) :
    attnRow hU' (s ∘ e) (v ∘ e) = attnRow hU s v := by
  unfold attnRow
  have hsup : Finset.univ.sup' hU' (s ∘ e) = Finset.univ.sup' hU s := sup'_univ_equiv e hU hU' s
  rw [hsup]
  have hden : (∑ k', Real.exp ((s ∘ e) k' - Finset.univ.sup' hU s))
      = ∑ k', Real.exp (s k' - Finset.univ.sup' hU s) :=
    Equiv.sum_comp e fun k => Real.exp (s k - Finset.univ.sup' hU s)
  rw [hden]
  exact Equiv.sum_comp e fun k =>
    (Real.exp (s k - Finset.univ.sup' hU s) / ∑ k', Real.exp (s k' - Finset.univ.sup' hU s)) * v k

/-! ### Blocks given as the range of an injection from a finite index type -/

/-- A sum over the range of an embedding is the sum over the index type. -/
theorem sum_univ_map {κ ι : Type*} [Fintype ι] (e : ι ↪ κ) (f : κ → ℝ) :
    ∑ k ∈ Finset.univ.map e, f k = ∑ a, f (e a) :=
  Finset.sum_map _ _ _

/-- A maximum over the range of an embedding is the maximum over the index type. -/
theorem sup'_univ_map {κ ι : Type*} [Fintype ι] (e : ι ↪ κ) (s : κ → ℝ)
    (hι : (Finset.univ : Finset ι).Nonempty) (h : (Finset.univ.map e).Nonempty) :
    (Finset.univ.map e).sup' h s = Finset.univ.sup' hι (fun a => s (e a)) :=
  Finset.sup'_map s h

/-- A sum over the range of an injective map is the sum over the index type. -/
theorem sum_univ_image {κ ι : Type*} [DecidableEq κ] [Fintype ι] (e : ι → κ)
    (he : Function.Injective e) (f : κ → ℝ) :
    ∑ k ∈ Finset.univ.image e, f k = ∑ a, f (e a) :=
  Finset.sum_image fun _ _ _ _ hab => he hab

/-- A maximum over the range of a map is the maximum over the index type. -/
theorem sup'_univ_image {κ ι : Type*} [DecidableEq κ] [Fintype ι] (e : ι → κ) (s : κ → ℝ)
    (hι : (Finset.univ : Finset ι).Nonempty) (h : (Finset.univ.image e).Nonempty) :
    (Finset.univ.image e).sup' h s = Finset.univ.sup' hι (fun a => s (e a)) :=
  Finset.sup'_image h s

/-- The range of an embedding misses S exactly when no index lands in S. -/
theorem disjoint_univ_map {κ ι : Type*} [Fintype ι] (S : Finset κ) (e : ι ↪ κ) :
    Disjoint S (Finset.univ.map e) ↔ ∀ a, e a ∉ S := by
  rw [Finset.disjoint_right]
  constructor
  · intro h a
    exact h (Finset.mem_map_of_mem e (Finset.mem_univ a))
  · intro h k hk
    obtain ⟨a, _, rfl⟩ := Finset.mem_map.1 hk
    exact h a

/-- The range of a map misses S exactly when no index lands in S. -/
theorem disjoint_univ_image {κ ι : Type*} [DecidableEq κ] [Fintype ι] (S : Finset κ)
    (e : ι → κ) :
    Disjoint S (Finset.univ.image e) ↔ ∀ a, e a ∉ S := by
  rw [Finset.disjoint_right]
  constructor
  · intro h a
    exact h (Finset.mem_image_of_mem e (Finset.mem_univ a))
  · intro h k hk
    obtain ⟨a, _, rfl⟩ := Finset.mem_image.1 hk
    exact h a

/-- Merging a block written as sums and a maximum over a finite index type (embedding form). -/
theorem summ_step_block {κ ι : Type*} [DecidableEq κ] [Fintype ι]
    (hι : (Finset.univ : Finset ι).Nonempty) (s v : κ → ℝ) (S : Finset κ) (hS : S.Nonempty)
    (e : ι ↪ κ) (hd : Disjoint S (Finset.univ.map e)) (m l acc : ℝ)
    (h : Summ s v S hS m l acc) :
    Summ s v (S ∪ Finset.univ.map e) (hS.mono Finset.subset_union_left)
      (max m (Finset.univ.sup' hι fun a => s (e a)))
      (l * Real.exp (m - max m (Finset.univ.sup' hι fun a => s (e a)))
        + ∑ a, Real.exp (s (e a) - max m (Finset.univ.sup' hι fun a => s (e a))))
      (acc * Real.exp (m - max m (Finset.univ.sup' hι fun a => s (e a)))
        + ∑ a, Real.exp (s (e a) - max m (Finset.univ.sup' hι fun a => s (e a))) * v (e a)) := by
  have hT : (Finset.univ.map e).Nonempty := Finset.map_nonempty.2 hι
  have key := summ_step s v S (Finset.univ.map e) hS hT hd m l acc h
  rw [sup'_univ_map e s hι hT, sum_univ_map, sum_univ_map] at key
  exact key

/-- Merging a block written as sums and a maximum over a finite index type (injective-map form). -/
theorem summ_step_block_image {κ ι : Type*} [DecidableEq κ] [Fintype ι]
    (hι : (Finset.univ : Finset ι).Nonempty) (s v : κ → ℝ) (S : Finset κ) (hS : S.Nonempty)
    (e : ι → κ) (he : Function.Injective e) (hd : Disjoint S (Finset.univ.image e))
    (m l acc : ℝ) (h : Summ s v S hS m l acc) :
    Summ s v (S ∪ Finset.univ.image e) (hS.mono Finset.subset_union_left)
      (max m (Finset.univ.sup' hι fun a => s (e a)))
      (l * Real.exp (m - max m (Finset.univ.sup' hι fun a => s (e a)))
        + ∑ a, Real.exp (s (e a) - max m (Finset.univ.sup' hι fun a => s (e a))))
      (acc * Real.exp (m - max m (Finset.univ.sup' hι fun a => s (e a)))
        + ∑ a, Real.exp (s (e a) - max m (Finset.univ.sup' hι fun a => s (e a))) * v (e a)) := by
  have hT : (Finset.univ.image e).Nonempty := hι.image e
  have key := summ_step s v S (Finset.univ.image e) hS hT hd m l acc h
  rw [sup'_univ_image e s hι hT, sum_univ_image e he, sum_univ_image e he] at key
  exact key

/-- The summary of a first block written over a finite index type (embedding form). -/
theorem summ_init_block {κ ι : Type*} [Fintype ι] (hι : (Finset.univ : Finset ι).Nonempty)
    (s v : κ → ℝ) (e : ι ↪ κ) :
    Summ s v (Finset.univ.map e) (Finset.map_nonempty.2 hι)
      (Finset.univ.sup' hι fun a => s (e a))
      (∑ a, Real.exp (s (e a) - Finset.univ.sup' hι fun a => s (e a)))
      (∑ a, Real.exp (s (e a) - Finset.univ.sup' hι fun a => s (e a)) * v (e a)) := by
  have key := summ_init s v (Finset.univ.map e) (Finset.map_nonempty.2 hι)
  rw [sup'_univ_map e s hι (Finset.map_nonempty.2 hι), sum_univ_map, sum_univ_map] at key
  exact key

section EReal

/-- The coercion of a finite real sum is the sum of the coercions. -/
theorem coe_sum {ι : Type*} (t : Finset ι) (f : ι → ℝ) :
    ((∑ i ∈ t, f i : ℝ) : EReal) = ∑ i ∈ t, (f i : EReal) := by
  induction t using Finset.cons_induction with
  | empty => simp
  | cons a t ha ih => rw [Finset.sum_cons, Finset.sum_cons, EReal.coe_add, ih]

/-- The coercion of a binary real maximum is the maximum of the coercions. -/
theorem coe_max (a b : ℝ) : ((max a b : ℝ) : EReal) = max (a : EReal) (b : EReal) :=
  EReal.coe_strictMono.monotone.map_max

/-- The coercion of a finite real maximum is the maximum of the coercions. -/
theorem coe_sup' {ι : Type*} (t : Finset ι) (ht : t.Nonempty) (f : ι → ℝ) :
    ((t.sup' ht f : ℝ) : EReal) = t.sup' ht (fun i => (f i : EReal)) :=
  Finset.apply_sup'_eq_sup'_comp ht (fun x : ℝ => (x : EReal)) coe_max

/-- A max-reduction started from ⊥ over a nonempty family of reals is the real maximum. -/
theorem fold_max_bot {ι : Type*} (t : Finset ι) (ht : t.Nonempty) (f : ι → ℝ) :
    t.fold max (⊥ : EReal) (fun i => (f i : EReal)) = ((t.sup' ht f : ℝ) : EReal) := by
  rw [coe_sup' t ht f, Finset.sup'_eq_sup ht]
  rfl

end EReal

end Cert.OnlineSoftmax

/-- info: 'Cert.OnlineSoftmax.summ_final' depends on axioms: [propext, Classical.choice, Quot.sound] -/
#guard_msgs in #print axioms Cert.OnlineSoftmax.summ_final
-- ==== Proof.KernelValue.lean ====
/- The ring-attention kernel's stored value read at the exact instance: each entry of the output is the
   softmax-attention row over all 8192 keys. The body's payload groups are instances of one update of the
   running maximum, sum and weighted values by a block of keys; that update carries the online-softmax
   summary over the keys seen so far to the summary over them and the block. -/
import proofs.«900463_g7700000000000464_dist_ring_attn_i_s256_d64_v7x_i32_f32_1_alg».proof.Proof.KernelTerm
import proofs.«900463_g7700000000000464_dist_ring_attn_i_s256_d64_v7x_i32_f32_1_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelValue

open Idealize.ShloMosaic Idealize.SL.Sem Idealize.ShloMosaic.ValueIdx
open Cert.KernelIdeal Cert.KernelIdeal.Gen

/-! ## Layout operations and reductions of a rank-2 array read at coordinates -/

/-- A column broadcast along the rows reads the column's entry of the row. -/
theorem bcast_col_apply {R n : ℕ} {α : Type} (m : (⟨2, ![R, 1]⟩ : Shape).Idx → α)
    (h : (⟨2, ![R, 1]⟩ : Shape).Broadcasts ⟨2, ![R, n]⟩) (i : Fin R) (c : Fin n) :
    broadcastTo ⟨2, ![R, n]⟩ m h (ix2 i c) = m (ix2 i (0 : Fin 1)) := by
  refine broadcastTo_apply m h (ix2 i c) (ix2 i (0 : Fin 1)) fun ax => ?_
  match ax with
  | ⟨0, _⟩ =>
    show i.val = if R = 1 then 0 else i.val
    split
    · have := i.isLt; omega
    · rfl
  | ⟨1, _⟩ => rfl

/-- A vector viewed as a column reads the vector's entry. -/
theorem shapeCast_col_apply {R : ℕ} {α : Type} (x : (⟨1, ![R]⟩ : Shape).Idx → α)
    (h : (⟨1, ![R]⟩ : Shape).ShapeCasts ⟨2, ![R, 1]⟩) (i : Fin R) (u : Fin 1) :
    shapeCast ⟨2, ![R, 1]⟩ x h (ix2 i u) = x (ix1 i) := by
  refine shapeCast_apply x h (ix2 i u) (ix1 i) ?_
  rw [Shape.rowMajor_val_one, Shape.rowMajor_val_two]
  show i.val = i.val * 1 + u.val
  have := u.isLt; omega

/-- The index a reduction along the columns inserts is the row and the column. -/
theorem lift_row {R n : ℕ} (h : (⟨2, ![R, n]⟩ : Shape).Reduces [1] ⟨1, ![R]⟩) (i : Fin R) (c : Fin n) :
    h.lift (ix1 i) c = ix2 i c := by
  funext a; refine Fin.ext ?_
  match a with
  | ⟨0, _⟩ => rfl
  | ⟨1, _⟩ => rfl

/-- A sum along the columns read at a row. -/
theorem rowsum_apply {R n : ℕ} (src : FVec Ideal ⟨2, ![R, n]⟩ .f32)
    (h : (⟨2, ![R, n]⟩ : Shape).Reduces [1] ⟨1, ![R]⟩) (hφ : FKind.Formats .f32)
    (hacc : (0x00000000#32 : BitVec 32) = 0x00000000#32) (i : Fin R) :
    multiReduction (F := Ideal) .add [1] ⟨1, ![R]⟩ src 0x00000000#32 h hφ hacc (ix1 i) = ∑ c : Fin n, src (ix2 i c) := by
  refine (Ideal.multiReduction_add_single src 0x00000000#32 h hφ hacc (ix1 i)).trans ?_
  exact Finset.sum_congr rfl fun c _ => congrArg src (lift_row h i c)

/-- A maximum along the columns read at a row: the fold of `max` from the accumulator's value. -/
theorem rowmax_apply {R n : ℕ} (src : FVec Ideal ⟨2, ![R, n]⟩ .f32)
    (h : (⟨2, ![R, n]⟩ : Shape).Reduces [1] ⟨1, ![R]⟩) (hφ : FKind.Formats .f32)
    (hacc : (0xFF800000#32 : BitVec 32) = 0xFF800000#32) (i : Fin R) :
    multiReduction (F := Ideal) .maximumf [1] ⟨1, ![R]⟩ src 0xFF800000#32 h hφ hacc (ix1 i)
      = (Finset.univ : Finset (Fin n)).fold max (Ideal.ofBits .f32 0xFF800000#32) (fun c => src (ix2 i c)) := by
  refine (Ideal.multiReduction_maximumf_single src 0xFF800000#32 h hφ hacc (ix1 i)).trans ?_
  refine congrArg (fun f => (Finset.univ : Finset (Fin n)).fold max (Ideal.ofBits .f32 0xFF800000#32) f) ?_
  funext c
  exact congrArg src (lift_row h i c)

/-! ## The four block products read at coordinates -/

/-- The scores product of a 256-key block into the zero splat, at a row and a column: the sum over the contracted coordinate. -/
theorem mmQK256_apply {φ₁ φ₂ : FTy} (a : FVec Ideal S256x64 φ₁) (b : FVec Ideal S256x64 φ₂) (i : Fin 256) (c : Fin 256) :
    FloatOps.matmul dot_S256x64_S256x64_S256x256_1_1_0_0_n_n none a b (constant (F := Ideal) S256x256 .f32 0x00000000#32) (ix2 i c)
      = ∑ d : Fin 64, a (ix2 i d) * b (ix2 c d) := by
  rw [Ideal.matmul_constant_zero_apply, ← Equiv.sum_comp (contrEquiv1 dot_S256x64_S256x64_S256x256_1_1_0_0_n_n 64 rfl rfl).symm]
  refine Finset.sum_congr rfl fun k _ => ?_
  have hk := contrEquiv1_symm_val dot_S256x64_S256x64_S256x256_1_1_0_0_n_n 64 rfl rfl k
  have l0 : ∀ q : dot_S256x64_S256x64_S256x256_1_1_0_0_n_n.contr.Idx, (dot_S256x64_S256x64_S256x256_1_1_0_0_n_n.lhsIdx (ix2 i c) q 0).val = i.val := fun q => by
    unfold DotDims.lhsIdx
    rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
    rfl
  have r0 : ∀ q : dot_S256x64_S256x64_S256x256_1_1_0_0_n_n.contr.Idx, (dot_S256x64_S256x64_S256x256_1_1_0_0_n_n.rhsIdx (ix2 i c) q 0).val = c.val := fun q => by
    unfold DotDims.rhsIdx
    rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
    rfl
  have el : dot_S256x64_S256x64_S256x256_1_1_0_0_n_n.lhsIdx (ix2 i c) ((contrEquiv1 dot_S256x64_S256x64_S256x256_1_1_0_0_n_n 64 rfl rfl).symm k) = ix2 i k := funext fun x => Fin.ext (by
    match x with
    | ⟨0, _⟩ => exact l0 _
    | ⟨1, _⟩ => exact (dot_S256x64_S256x64_S256x256_1_1_0_0_n_n.lhsIdx_val_of_single rfl _ _).trans hk)
  have er : dot_S256x64_S256x64_S256x256_1_1_0_0_n_n.rhsIdx (ix2 i c) ((contrEquiv1 dot_S256x64_S256x64_S256x256_1_1_0_0_n_n 64 rfl rfl).symm k) = ix2 c k := funext fun x => Fin.ext (by
    match x with
    | ⟨0, _⟩ => exact r0 _
    | ⟨1, _⟩ => exact (dot_S256x64_S256x64_S256x256_1_1_0_0_n_n.rhsIdx_val_of_single rfl _ _).trans hk)
  rw [el, er]

/-- The scores product of a 1024-key block into the zero splat, at a row and a column: the sum over the contracted coordinate. -/
theorem mmQK1024_apply {φ₁ φ₂ : FTy} (a : FVec Ideal S256x64 φ₁) (b : FVec Ideal S1024x64 φ₂) (i : Fin 256) (c : Fin 1024) :
    FloatOps.matmul dot_S256x64_S1024x64_S256x1024_1_1_0_0_n_n none a b (constant (F := Ideal) S256x1024 .f32 0x00000000#32) (ix2 i c)
      = ∑ d : Fin 64, a (ix2 i d) * b (ix2 c d) := by
  rw [Ideal.matmul_constant_zero_apply, ← Equiv.sum_comp (contrEquiv1 dot_S256x64_S1024x64_S256x1024_1_1_0_0_n_n 64 rfl rfl).symm]
  refine Finset.sum_congr rfl fun k _ => ?_
  have hk := contrEquiv1_symm_val dot_S256x64_S1024x64_S256x1024_1_1_0_0_n_n 64 rfl rfl k
  have l0 : ∀ q : dot_S256x64_S1024x64_S256x1024_1_1_0_0_n_n.contr.Idx, (dot_S256x64_S1024x64_S256x1024_1_1_0_0_n_n.lhsIdx (ix2 i c) q 0).val = i.val := fun q => by
    unfold DotDims.lhsIdx
    rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
    rfl
  have r0 : ∀ q : dot_S256x64_S1024x64_S256x1024_1_1_0_0_n_n.contr.Idx, (dot_S256x64_S1024x64_S256x1024_1_1_0_0_n_n.rhsIdx (ix2 i c) q 0).val = c.val := fun q => by
    unfold DotDims.rhsIdx
    rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
    rfl
  have el : dot_S256x64_S1024x64_S256x1024_1_1_0_0_n_n.lhsIdx (ix2 i c) ((contrEquiv1 dot_S256x64_S1024x64_S256x1024_1_1_0_0_n_n 64 rfl rfl).symm k) = ix2 i k := funext fun x => Fin.ext (by
    match x with
    | ⟨0, _⟩ => exact l0 _
    | ⟨1, _⟩ => exact (dot_S256x64_S1024x64_S256x1024_1_1_0_0_n_n.lhsIdx_val_of_single rfl _ _).trans hk)
  have er : dot_S256x64_S1024x64_S256x1024_1_1_0_0_n_n.rhsIdx (ix2 i c) ((contrEquiv1 dot_S256x64_S1024x64_S256x1024_1_1_0_0_n_n 64 rfl rfl).symm k) = ix2 c k := funext fun x => Fin.ext (by
    match x with
    | ⟨0, _⟩ => exact r0 _
    | ⟨1, _⟩ => exact (dot_S256x64_S1024x64_S256x1024_1_1_0_0_n_n.rhsIdx_val_of_single rfl _ _).trans hk)
  rw [el, er]

/-- The weighted values product of a 256-key block into the zero splat, at a row and a column: the sum over the contracted coordinate. -/
theorem mmPV256_apply {φ₁ φ₂ : FTy} (a : FVec Ideal S256x256 φ₁) (b : FVec Ideal S256x64 φ₂) (i : Fin 256) (c : Fin 64) :
    FloatOps.matmul dot_S256x256_S256x64_S256x64_1_0_0_1_n_n none a b (constant (F := Ideal) S256x64 .f32 0x00000000#32) (ix2 i c)
      = ∑ d : Fin 256, a (ix2 i d) * b (ix2 d c) := by
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have l0 : ∀ q : dot_S256x256_S256x64_S256x64_1_0_0_1_n_n.contr.Idx, (dot_S256x256_S256x64_S256x64_1_0_0_1_n_n.lhsIdx (ix2 i c) q 0).val = i.val := fun q => by
    unfold DotDims.lhsIdx
    rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
    rfl
  have r0 : ∀ q : dot_S256x256_S256x64_S256x64_1_0_0_1_n_n.contr.Idx, (dot_S256x256_S256x64_S256x64_1_0_0_1_n_n.rhsIdx (ix2 i c) q 1).val = c.val := fun q => by
    unfold DotDims.rhsIdx
    rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
    rfl
  have el : dot_S256x256_S256x64_S256x64_1_0_0_1_n_n.lhsIdx (ix2 i c) ((contrEquiv1 dot_S256x256_S256x64_S256x64_1_0_0_1_n_n 256 rfl rfl).symm k) = ix2 i k := funext fun x => Fin.ext (by
    match x with
    | ⟨0, _⟩ => exact l0 _
    | ⟨1, _⟩ => exact (dot_S256x256_S256x64_S256x64_1_0_0_1_n_n.lhsIdx_val_of_single rfl _ _).trans hk)
  have er : dot_S256x256_S256x64_S256x64_1_0_0_1_n_n.rhsIdx (ix2 i c) ((contrEquiv1 dot_S256x256_S256x64_S256x64_1_0_0_1_n_n 256 rfl rfl).symm k) = ix2 k c := funext fun x => Fin.ext (by
    match x with
    | ⟨0, _⟩ => exact (dot_S256x256_S256x64_S256x64_1_0_0_1_n_n.rhsIdx_val_of_single rfl _ _).trans hk
    | ⟨1, _⟩ => exact r0 _)
  rw [el, er]

/-- The weighted values product of a 1024-key block into the zero splat, at a row and a column: the sum over the contracted coordinate. -/
theorem mmPV1024_apply {φ₁ φ₂ : FTy} (a : FVec Ideal S256x1024 φ₁) (b : FVec Ideal S1024x64 φ₂) (i : Fin 256) (c : Fin 64) :
    FloatOps.matmul dot_S256x1024_S1024x64_S256x64_1_0_0_1_n_n none a b (constant (F := Ideal) S256x64 .f32 0x00000000#32) (ix2 i c)
      = ∑ d : Fin 1024, a (ix2 i d) * b (ix2 d c) := by
  rw [Ideal.matmul_constant_zero_apply, ← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have l0 : ∀ q : dot_S256x1024_S1024x64_S256x64_1_0_0_1_n_n.contr.Idx, (dot_S256x1024_S1024x64_S256x64_1_0_0_1_n_n.lhsIdx (ix2 i c) q 0).val = i.val := fun q => by
    unfold DotDims.lhsIdx
    rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
    rfl
  have r0 : ∀ q : dot_S256x1024_S1024x64_S256x64_1_0_0_1_n_n.contr.Idx, (dot_S256x1024_S1024x64_S256x64_1_0_0_1_n_n.rhsIdx (ix2 i c) q 1).val = c.val := fun q => by
    unfold DotDims.rhsIdx
    rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
    rfl
  have el : dot_S256x1024_S1024x64_S256x64_1_0_0_1_n_n.lhsIdx (ix2 i c) ((contrEquiv1 dot_S256x1024_S1024x64_S256x64_1_0_0_1_n_n 1024 rfl rfl).symm k) = ix2 i k := funext fun x => Fin.ext (by
    match x with
    | ⟨0, _⟩ => exact l0 _
    | ⟨1, _⟩ => exact (dot_S256x1024_S1024x64_S256x64_1_0_0_1_n_n.lhsIdx_val_of_single rfl _ _).trans hk)
  have er : dot_S256x1024_S1024x64_S256x64_1_0_0_1_n_n.rhsIdx (ix2 i c) ((contrEquiv1 dot_S256x1024_S1024x64_S256x64_1_0_0_1_n_n 1024 rfl rfl).symm k) = ix2 k c := funext fun x => Fin.ext (by
    match x with
    | ⟨0, _⟩ => exact (dot_S256x1024_S1024x64_S256x64_1_0_0_1_n_n.rhsIdx_val_of_single rfl _ _).trans hk
    | ⟨1, _⟩ => exact r0 _)
  rw [el, er]

/-! ## The two constants of the body as extended reals -/

/-- The scale of the scores is an eighth. -/
theorem ofBits_eighth : Ideal.ofBits .f32 0x3E000000#32 = ((1 / 8 : ℝ) : EReal) := by
  simp [Ideal.ofBits, Ideal.ieee, -EReal.coe_mul]; norm_num

/-- The value a row maximum starts from is the bottom element. -/
theorem ofBits_neg_inf : Ideal.ofBits .f32 0xFF800000#32 = ⊥ := by
  simp [Ideal.ofBits, Ideal.ieee]

/-! ## One update of the running maximum, sum and weighted values by a block of keys -/

/-- The scores of a block of `n` keys: the queries times the transposed keys, scaled by an eighth. -/
def scores {F : FTy → Type} [FloatOps F] {n : ℕ} {φ : FTy} (D : DotDims S256x64 ⟨2, ![n, 64]⟩ ⟨2, ![256, n]⟩) (qb : FVec F S256x64 φ)
    (kc : FVec F ⟨2, ![n, 64]⟩ φ) : FVec F ⟨2, ![256, n]⟩ .f32 :=
  mulf (matmul D none qb kc (constant ⟨2, ![256, n]⟩ .f32 0x00000000#32)) (broadcast ⟨2, ![256, n]⟩ (Scalar.ofBits .f32 0x3E000000#32))

/-- The row maxima of an array, as a column. -/
def rowMax {F : FTy → Type} [FloatOps F] {n : ℕ} (hred : (⟨2, ![256, n]⟩ : Shape).Reduces [1] S256) (s : FVec F ⟨2, ![256, n]⟩ .f32) : FVec F S256x1 .f32 :=
  shapeCast S256x1 (multiReduction .maximumf [1] S256 s 0xFF800000#32 hred (.inl rfl) rfl) shapeCasts_S256_S256x1

/-- The row sums of an array, as a column. -/
def rowSum {F : FTy → Type} [FloatOps F] {n : ℕ} (hred : (⟨2, ![256, n]⟩ : Shape).Reduces [1] S256) (p : FVec F ⟨2, ![256, n]⟩ .f32) : FVec F S256x1 .f32 :=
  shapeCast S256x1 (multiReduction .add [1] S256 p 0x00000000#32 hred (.inl rfl) rfl) shapeCasts_S256_S256x1

/-- The new running maximum: the old one against the block's row maxima. -/
def newM {F : FTy → Type} [FloatOps F] {n : ℕ} (hred : (⟨2, ![256, n]⟩ : Shape).Reduces [1] S256) (m : FVec F S256x1 .f32) (s : FVec F ⟨2, ![256, n]⟩ .f32) :
    FVec F S256x1 .f32 :=
  maximumf m (rowMax hred s)

/-- The block's weights: the exponentials of the scores less a column of maxima. -/
def weights {F : FTy → Type} [FloatOps F] {n : ℕ} (hb : S256x1.Broadcasts ⟨2, ![256, n]⟩) (s : FVec F ⟨2, ![256, n]⟩ .f32) (m' : FVec F S256x1 .f32) :
    FVec F ⟨2, ![256, n]⟩ .f32 :=
  exp (subf s (broadcastTo ⟨2, ![256, n]⟩ m' hb))

/-- The new running sum: the old one rescaled plus the block's row sums of weights. -/
def newL {F : FTy → Type} [FloatOps F] {n : ℕ} (hred : (⟨2, ![256, n]⟩ : Shape).Reduces [1] S256) (hb : S256x1.Broadcasts ⟨2, ![256, n]⟩)
    (m l : FVec F S256x1 .f32) (s : FVec F ⟨2, ![256, n]⟩ .f32) : FVec F S256x1 .f32 :=
  addf (mulf l (exp (subf m (newM hred m s)))) (rowSum hred (weights hb s (newM hred m s)))

/-- The new weighted values: the old ones rescaled plus the block's weights times its values. -/
def newA {F : FTy → Type} [FloatOps F] {n : ℕ} (hred : (⟨2, ![256, n]⟩ : Shape).Reduces [1] S256) (hb : S256x1.Broadcasts ⟨2, ![256, n]⟩)
    (D2 : DotDims ⟨2, ![256, n]⟩ ⟨2, ![n, 64]⟩ S256x64) (m : FVec F S256x1 .f32) (acc : FVec F S256x64 .f32)
    (s : FVec F ⟨2, ![256, n]⟩ .f32) (vc : FVec F ⟨2, ![n, 64]⟩ .bf16) : FVec F S256x64 .f32 :=
  addf (mulf acc (broadcastTo S256x64 (exp (subf m (newM hred m s))) broadcasts_S256x1_S256x64))
    (matmul D2 none (truncf .bf16 (weights hb s (newM hred m s)) bitsLt_bf16_f32) vc (constant S256x64 .f32 0x00000000#32))

/-! ### The update read at a row, over real data -/

/-- A score is the scaled inner product of the query row and the key row. -/
theorem scores_apply {n : ℕ} {φ : FTy} (D : DotDims S256x64 ⟨2, ![n, 64]⟩ ⟨2, ![256, n]⟩)
    (hD : ∀ (a : FVec Ideal S256x64 φ) (b : FVec Ideal ⟨2, ![n, 64]⟩ φ) (i : Fin 256) (c : Fin n),
      FloatOps.matmul D none a b (constant (F := Ideal) ⟨2, ![256, n]⟩ .f32 0x00000000#32) (ix2 i c)
        = ∑ d : Fin 64, a (ix2 i d) * b (ix2 c d))
    (qb : FVec Ideal S256x64 φ) (kc : FVec Ideal ⟨2, ![n, 64]⟩ φ) (qr kr : Fin 64 → ℝ) (i : Fin 256) (c : Fin n)
    (hq : ∀ d, qb (ix2 i d) = ((qr d : ℝ) : EReal)) (hk : ∀ d, kc (ix2 c d) = ((kr d : ℝ) : EReal)) :
    scores (F := Ideal) D qb kc (ix2 i c) = (((∑ d, qr d * kr d) / 8 : ℝ) : EReal) := by
  show FloatOps.matmul D none qb kc (constant (F := Ideal) ⟨2, ![256, n]⟩ .f32 0x00000000#32) (ix2 i c)
      * Ideal.ofBits .f32 0x3E000000#32 = _
  have hsum : ∑ d : Fin 64, qb (ix2 i d) * kc (ix2 c d) = ((∑ d, qr d * kr d : ℝ) : EReal) := by
    rw [Cert.OnlineSoftmax.coe_sum]
    exact Finset.sum_congr rfl fun d _ => by rw [hq d, hk d, EReal.coe_mul]
  rw [hD, hsum, ofBits_eighth, ← EReal.coe_mul, mul_one_div]

/-- A row maximum over real entries is the real maximum. -/
theorem rowMax_apply {n : ℕ} (hn : (Finset.univ : Finset (Fin n)).Nonempty)
    (hred : (⟨2, ![256, n]⟩ : Shape).Reduces [1] S256) (s : FVec Ideal ⟨2, ![256, n]⟩ .f32) (sr : Fin n → ℝ) (i : Fin 256)
    (hs : ∀ c, s (ix2 i c) = ((sr c : ℝ) : EReal)) :
    rowMax (F := Ideal) hred s (ix2 i (0 : Fin 1)) = ((Finset.univ.sup' hn sr : ℝ) : EReal) := by
  unfold rowMax
  refine (shapeCast_col_apply _ _ i 0).trans ?_
  refine (rowmax_apply s hred _ _ i).trans ?_
  rw [ofBits_neg_inf, ← Cert.OnlineSoftmax.fold_max_bot Finset.univ hn sr]
  exact congrArg (fun f => (Finset.univ : Finset (Fin n)).fold max (⊥ : EReal) f) (funext hs)

/-- A row sum over real entries is the real sum. -/
theorem rowSum_apply {n : ℕ} (hred : (⟨2, ![256, n]⟩ : Shape).Reduces [1] S256) (p : FVec Ideal ⟨2, ![256, n]⟩ .f32)
    (pr : Fin n → ℝ) (i : Fin 256) (hp : ∀ c, p (ix2 i c) = ((pr c : ℝ) : EReal)) :
    rowSum (F := Ideal) hred p (ix2 i (0 : Fin 1)) = ((∑ c, pr c : ℝ) : EReal) := by
  unfold rowSum
  refine (shapeCast_col_apply _ _ i 0).trans ?_
  refine (rowsum_apply p hred _ _ i).trans ?_
  rw [Cert.OnlineSoftmax.coe_sum]
  exact Finset.sum_congr rfl fun c _ => hp c

/-- The new running maximum of a row. -/
theorem newM_apply {n : ℕ} (hn : (Finset.univ : Finset (Fin n)).Nonempty)
    (hred : (⟨2, ![256, n]⟩ : Shape).Reduces [1] S256) (m : FVec Ideal S256x1 .f32) (s : FVec Ideal ⟨2, ![256, n]⟩ .f32)
    (mr : ℝ) (sr : Fin n → ℝ) (i : Fin 256) (hm : m (ix2 i (0 : Fin 1)) = ((mr : ℝ) : EReal))
    (hs : ∀ c, s (ix2 i c) = ((sr c : ℝ) : EReal)) :
    newM (F := Ideal) hred m s (ix2 i (0 : Fin 1)) = ((max mr (Finset.univ.sup' hn sr) : ℝ) : EReal) := by
  unfold newM
  rw [maximumf_apply, hm, rowMax_apply hn hred s sr i hs, ← Cert.OnlineSoftmax.coe_max]

/-- A weight of a row is the exponential of the score less the row's maximum. -/
theorem weights_apply {n : ℕ} (hb : S256x1.Broadcasts ⟨2, ![256, n]⟩) (s : FVec Ideal ⟨2, ![256, n]⟩ .f32)
    (m' : FVec Ideal S256x1 .f32) (sr : Fin n → ℝ) (M : ℝ) (i : Fin 256) (c : Fin n)
    (hs : ∀ c, s (ix2 i c) = ((sr c : ℝ) : EReal)) (hm' : m' (ix2 i (0 : Fin 1)) = ((M : ℝ) : EReal)) :
    weights (F := Ideal) hb s m' (ix2 i c) = ((Real.exp (sr c - M) : ℝ) : EReal) := by
  show Ideal.exp (s (ix2 i c) - broadcastTo ⟨2, ![256, n]⟩ m' hb (ix2 i c)) = _
  rw [bcast_col_apply, hs, hm', ← EReal.coe_sub, Ideal.exp_coe]

/-- The rescaling factor of a row. -/
theorem alpha_apply (m m' : FVec Ideal S256x1 .f32) (mr M : ℝ) (i : Fin 256)
    (hm : m (ix2 i (0 : Fin 1)) = ((mr : ℝ) : EReal)) (hm' : m' (ix2 i (0 : Fin 1)) = ((M : ℝ) : EReal)) :
    exp (subf m m') (ix2 i (0 : Fin 1)) = ((Real.exp (mr - M) : ℝ) : EReal) := by
  show Ideal.exp (m (ix2 i (0 : Fin 1)) - m' (ix2 i (0 : Fin 1))) = _
  rw [hm, hm', ← EReal.coe_sub, Ideal.exp_coe]

/-- The new running sum of a row. -/
theorem newL_apply {n : ℕ} (hn : (Finset.univ : Finset (Fin n)).Nonempty)
    (hred : (⟨2, ![256, n]⟩ : Shape).Reduces [1] S256) (hb : S256x1.Broadcasts ⟨2, ![256, n]⟩)
    (m l : FVec Ideal S256x1 .f32) (s : FVec Ideal ⟨2, ![256, n]⟩ .f32) (mr lr : ℝ) (sr : Fin n → ℝ) (i : Fin 256)
    (hm : m (ix2 i (0 : Fin 1)) = ((mr : ℝ) : EReal)) (hl : l (ix2 i (0 : Fin 1)) = ((lr : ℝ) : EReal))
    (hs : ∀ c, s (ix2 i c) = ((sr c : ℝ) : EReal)) :
    newL (F := Ideal) hred hb m l s (ix2 i (0 : Fin 1))
      = ((lr * Real.exp (mr - max mr (Finset.univ.sup' hn sr))
          + ∑ c, Real.exp (sr c - max mr (Finset.univ.sup' hn sr)) : ℝ) : EReal) := by
  have hM := newM_apply hn hred m s mr sr i hm hs
  unfold newL
  rw [addf_apply, mulf_apply, hl, alpha_apply m _ mr _ i hm hM,
    rowSum_apply hred _ (fun c => Real.exp (sr c - max mr (Finset.univ.sup' hn sr))) i
      (fun c => weights_apply hb s _ sr _ i c hs hM),
    ← EReal.coe_mul, ← EReal.coe_add]

/-- The new weighted values of a row, at a column. -/
theorem newA_apply {n : ℕ} (hn : (Finset.univ : Finset (Fin n)).Nonempty)
    (hred : (⟨2, ![256, n]⟩ : Shape).Reduces [1] S256) (hb : S256x1.Broadcasts ⟨2, ![256, n]⟩)
    (D2 : DotDims ⟨2, ![256, n]⟩ ⟨2, ![n, 64]⟩ S256x64)
    (hD2 : ∀ (a : FVec Ideal ⟨2, ![256, n]⟩ .bf16) (b : FVec Ideal ⟨2, ![n, 64]⟩ .bf16) (i : Fin 256) (j : Fin 64),
      FloatOps.matmul D2 none a b (constant (F := Ideal) S256x64 .f32 0x00000000#32) (ix2 i j)
        = ∑ c : Fin n, a (ix2 i c) * b (ix2 c j))
    (m : FVec Ideal S256x1 .f32) (acc : FVec Ideal S256x64 .f32) (s : FVec Ideal ⟨2, ![256, n]⟩ .f32)
    (vc : FVec Ideal ⟨2, ![n, 64]⟩ .bf16) (mr ar : ℝ) (sr vr : Fin n → ℝ) (i : Fin 256) (j : Fin 64)
    (hm : m (ix2 i (0 : Fin 1)) = ((mr : ℝ) : EReal)) (ha : acc (ix2 i j) = ((ar : ℝ) : EReal))
    (hs : ∀ c, s (ix2 i c) = ((sr c : ℝ) : EReal)) (hv : ∀ c, vc (ix2 c j) = ((vr c : ℝ) : EReal)) :
    newA (F := Ideal) hred hb D2 m acc s vc (ix2 i j)
      = ((ar * Real.exp (mr - max mr (Finset.univ.sup' hn sr))
          + ∑ c, Real.exp (sr c - max mr (Finset.univ.sup' hn sr)) * vr c : ℝ) : EReal) := by
  have hM := newM_apply hn hred m s mr sr i hm hs
  have hsum : ∑ c : Fin n, (truncf .bf16 (weights (F := Ideal) hb s (newM hred m s)) bitsLt_bf16_f32 : FVec Ideal ⟨2, ![256, n]⟩ .bf16) (ix2 i c) * vc (ix2 c j)
      = ((∑ c, Real.exp (sr c - max mr (Finset.univ.sup' hn sr)) * vr c : ℝ) : EReal) := by
    rw [Cert.OnlineSoftmax.coe_sum]
    exact Finset.sum_congr rfl fun c _ => by
      rw [truncf_apply, weights_apply hb s _ sr _ i c hs hM, hv c, EReal.coe_mul]
  unfold newA
  rw [addf_apply, mulf_apply, ha, bcast_col_apply, alpha_apply m _ mr _ i hm hM]
  simp only [matmul]
  rw [hD2, hsum, ← EReal.coe_mul, ← EReal.coe_add]

/-! ## The keys seen so far -/

/-- A key: the device that owns it and its row there. -/
abbrev Key := Fin 32 × Fin 256

/-- The keys of the first `B` devices. -/
def seen (B : ℕ) : Finset Key := Finset.univ.filter fun κ => κ.1.val < B

/-- The keys of one device, in row order. -/
def devKeys (b : Fin 32) : Fin 256 ↪ Key := ⟨fun c => (b, c), fun _ _ h => (Prod.mk.inj h).2⟩

/-- The keys of four consecutive devices, device after device, each in row order. -/
def quadKeys (t : Fin 7) : Fin 1024 ↪ Key :=
  ⟨fun c => (⟨4 + 4 * t.val + c.val / 256, by have := c.isLt; have := t.isLt; omega⟩,
      ⟨c.val % 256, Nat.mod_lt _ (by norm_num)⟩),
   fun a b h => by
     have h1 : 4 + 4 * t.val + a.val / 256 = 4 + 4 * t.val + b.val / 256 := congrArg (fun κ : Key => κ.1.val) h
     have h2 : a.val % 256 = b.val % 256 := congrArg (fun κ : Key => κ.2.val) h
     exact Fin.ext (by omega)⟩

theorem quadKeys_fst (t : Fin 7) (c : Fin 1024) : ((quadKeys t c).1).val = 4 + 4 * t.val + c.val / 256 := rfl
theorem quadKeys_snd (t : Fin 7) (c : Fin 1024) : ((quadKeys t c).2).val = c.val % 256 := rfl

theorem mem_seen (B : ℕ) (κ : Key) : κ ∈ seen B ↔ κ.1.val < B := by
  simp [seen]

theorem mem_devKeys (b : Fin 32) (κ : Key) : κ ∈ Finset.univ.map (devKeys b) ↔ κ.1 = b := by
  constructor
  · intro h
    obtain ⟨c, _, rfl⟩ := Finset.mem_map.1 h
    rfl
  · intro h
    exact Finset.mem_map.2 ⟨κ.2, Finset.mem_univ _, Prod.ext_iff.2 ⟨h.symm, rfl⟩⟩

theorem mem_quadKeys (t : Fin 7) (κ : Key) :
    κ ∈ Finset.univ.map (quadKeys t) ↔ 4 + 4 * t.val ≤ κ.1.val ∧ κ.1.val < 4 + 4 * t.val + 4 := by
  constructor
  · intro h
    obtain ⟨c, _, rfl⟩ := Finset.mem_map.1 h
    have := c.isLt
    rw [quadKeys_fst]; omega
  · rintro ⟨h1, h2⟩
    have hr := κ.2.isLt
    refine Finset.mem_map.2 ⟨⟨(κ.1.val - (4 + 4 * t.val)) * 256 + κ.2.val, by omega⟩, Finset.mem_univ _,
      Prod.ext_iff.2 ⟨Fin.ext ?_, Fin.ext ?_⟩⟩
    · rw [quadKeys_fst]
      show 4 + 4 * t.val + ((κ.1.val - (4 + 4 * t.val)) * 256 + κ.2.val) / 256 = κ.1.val
      omega
    · rw [quadKeys_snd]
      show ((κ.1.val - (4 + 4 * t.val)) * 256 + κ.2.val) % 256 = κ.2.val
      omega

/-- After one more device the keys seen are those of one more device. -/
theorem seen_union_dev (b : Fin 32) : seen b.val ∪ Finset.univ.map (devKeys b) = seen (b.val + 1) := by
  ext κ
  rw [Finset.mem_union, mem_seen, mem_seen, mem_devKeys]
  constructor
  · rintro (h | h)
    · omega
    · rw [h]; omega
  · intro h
    by_cases hx : κ.1.val < b.val
    · exact Or.inl hx
    · exact Or.inr (Fin.ext (by omega))

theorem disjoint_seen_dev (b : Fin 32) : Disjoint (seen b.val) (Finset.univ.map (devKeys b)) := by
  rw [Finset.disjoint_left]
  intro κ h1 h2
  rw [mem_seen] at h1
  rw [mem_devKeys] at h2
  rw [h2] at h1
  omega

/-- After four more devices the keys seen are those of four more devices. -/
theorem seen_union_quad (t : Fin 7) :
    seen (4 + 4 * t.val) ∪ Finset.univ.map (quadKeys t) = seen (4 + 4 * t.val + 4) := by
  ext κ
  rw [Finset.mem_union, mem_seen, mem_seen, mem_quadKeys]
  constructor
  · rintro (h | h) <;> omega
  · intro h
    by_cases hx : κ.1.val < 4 + 4 * t.val
    · exact Or.inl hx
    · exact Or.inr ⟨by omega, h⟩

theorem disjoint_seen_quad (t : Fin 7) : Disjoint (seen (4 + 4 * t.val)) (Finset.univ.map (quadKeys t)) := by
  rw [Finset.disjoint_left]
  intro κ h1 h2
  rw [mem_seen] at h1
  rw [mem_quadKeys] at h2
  omega

theorem map_devKeys_zero : Finset.univ.map (devKeys 0) = seen 1 := by
  ext κ
  rw [mem_seen, mem_devKeys]
  constructor
  · intro h; rw [h]; exact Nat.zero_lt_one
  · intro h; exact Fin.ext (by have : (0 : Fin 32).val = 0 := rfl; omega)

theorem seen_all : seen 32 = Finset.univ := by
  ext κ
  rw [mem_seen]
  exact ⟨fun _ => Finset.mem_univ _, fun _ => κ.1.isLt⟩

/-! ## The summary the running values keep -/

/-- The score of a query row against a key. -/
def sc (qq : Fin 256 → Fin 64 → ℝ) (kk : Fin 32 → Fin 256 → Fin 64 → ℝ) (i : Fin 256) : Key → ℝ :=
  fun κ => (∑ d, qq i d * kk κ.1 κ.2 d) / 8

/-- A column of the values, by key. -/
def vl (vv : Fin 32 → Fin 256 → Fin 64 → ℝ) (j : Fin 64) : Key → ℝ := fun κ => vv κ.1 κ.2 j

/-- The running maximum, sum and weighted values are real and summarise the keys `S`, in every row. -/
def Holds (qq : Fin 256 → Fin 64 → ℝ) (kk vv : Fin 32 → Fin 256 → Fin 64 → ℝ) (m l : FVec Ideal S256x1 .f32)
    (acc : FVec Ideal S256x64 .f32) (S : Finset Key) : Prop :=
  ∃ hS : S.Nonempty, ∀ i : Fin 256, ∃ mr lr : ℝ, m (ix2 i (0 : Fin 1)) = ((mr : ℝ) : EReal) ∧
    l (ix2 i (0 : Fin 1)) = ((lr : ℝ) : EReal) ∧ ∀ j : Fin 64, ∃ ar : ℝ, acc (ix2 i j) = ((ar : ℝ) : EReal) ∧
      Cert.OnlineSoftmax.Summ (sc qq kk i) (vl vv j) S hS mr lr ar

theorem Holds.of_eq {qq : Fin 256 → Fin 64 → ℝ} {kk vv : Fin 32 → Fin 256 → Fin 64 → ℝ} {m l : FVec Ideal S256x1 .f32}
    {acc : FVec Ideal S256x64 .f32} {S S' : Finset Key} (h : Holds qq kk vv m l acc S) (e : S = S') :
    Holds qq kk vv m l acc S' := e ▸ h

/-- ONE UPDATE: a block of `n` keys, disjoint from the keys seen, carries the summary over the keys seen to
    the summary over them and the block. -/
theorem update_holds {n : ℕ} (hn : (Finset.univ : Finset (Fin n)).Nonempty)
    (D1 : DotDims S256x64 ⟨2, ![n, 64]⟩ ⟨2, ![256, n]⟩)
    (hD1 : ∀ (a : FVec Ideal S256x64 .bf16) (b : FVec Ideal ⟨2, ![n, 64]⟩ .bf16) (i : Fin 256) (c : Fin n),
      FloatOps.matmul D1 none a b (constant (F := Ideal) ⟨2, ![256, n]⟩ .f32 0x00000000#32) (ix2 i c)
        = ∑ d : Fin 64, a (ix2 i d) * b (ix2 c d))
    (D2 : DotDims ⟨2, ![256, n]⟩ ⟨2, ![n, 64]⟩ S256x64)
    (hD2 : ∀ (a : FVec Ideal ⟨2, ![256, n]⟩ .bf16) (b : FVec Ideal ⟨2, ![n, 64]⟩ .bf16) (i : Fin 256) (j : Fin 64),
      FloatOps.matmul D2 none a b (constant (F := Ideal) S256x64 .f32 0x00000000#32) (ix2 i j)
        = ∑ c : Fin n, a (ix2 i c) * b (ix2 c j))
    (hred : (⟨2, ![256, n]⟩ : Shape).Reduces [1] S256) (hb : S256x1.Broadcasts ⟨2, ![256, n]⟩)
    (qq : Fin 256 → Fin 64 → ℝ) (kk vv : Fin 32 → Fin 256 → Fin 64 → ℝ)
    (qb : FVec Ideal S256x64 .bf16) (hq : ∀ i d, qb (ix2 i d) = ((qq i d : ℝ) : EReal))
    (kc vc : FVec Ideal ⟨2, ![n, 64]⟩ .bf16) (e : Fin n ↪ Key)
    (hk : ∀ c d, kc (ix2 c d) = ((kk (e c).1 (e c).2 d : ℝ) : EReal))
    (hv : ∀ c j, vc (ix2 c j) = ((vv (e c).1 (e c).2 j : ℝ) : EReal))
    (m l : FVec Ideal S256x1 .f32) (acc : FVec Ideal S256x64 .f32) (S : Finset Key)
    (hd : Disjoint S (Finset.univ.map e)) (h : Holds qq kk vv m l acc S) :
    Holds qq kk vv (newM hred m (scores D1 qb kc)) (newL hred hb m l (scores D1 qb kc))
      (newA hred hb D2 m acc (scores D1 qb kc) vc) (S ∪ Finset.univ.map e) := by
  obtain ⟨hS, h⟩ := h
  refine ⟨hS.mono Finset.subset_union_left, fun i => ?_⟩
  obtain ⟨mr, lr, hm, hl, ha⟩ := h i
  have hs : ∀ c, scores (F := Ideal) D1 qb kc (ix2 i c) = ((sc qq kk i (e c) : ℝ) : EReal) := fun c =>
    scores_apply D1 hD1 qb kc (qq i) (fun d => kk (e c).1 (e c).2 d) i c (hq i) (hk c)
  refine ⟨_, _, newM_apply hn hred m _ mr (fun c => sc qq kk i (e c)) i hm hs,
    newL_apply hn hred hb m l _ mr lr (fun c => sc qq kk i (e c)) i hm hl hs, fun j => ?_⟩
  obtain ⟨ar, hacc, hsum⟩ := ha j
  exact ⟨_, newA_apply hn hred hb D2 hD2 m acc _ vc mr ar (fun c => sc qq kk i (e c)) (fun c => vl vv j (e c)) i j hm hacc hs
      (fun c => hv c j),
    Cert.OnlineSoftmax.summ_step_block hn (sc qq kk i) (vl vv j) S hS e hd mr lr ar hsum⟩

/-! ## The loaded blocks as matrices -/

/-- A 256-key block as loaded, viewed as a matrix: row and column are the last two coordinates. -/
theorem blockZ_apply {α : Type} (x : S1x1x1x256x64.Idx → α) (h : S1x1x1x256x64.ShapeCasts S256x64) (r : Fin 256) (d : Fin 64) :
    shapeCast S256x64 x h (ix2 r d) = x (ix5 (0 : Fin 1) (0 : Fin 1) (0 : Fin 1) r d) := by
  refine shapeCast_apply x h (ix2 r d) (ix5 (0 : Fin 1) (0 : Fin 1) (0 : Fin 1) r d) ?_
  rw [Shape.rowMajor_val_five, Shape.rowMajor_val_two]
  show ((((0 * 1 + 0) * 1 + 0) * 256 + r.val) * 64 + d.val) = r.val * 64 + d.val
  omega

/-- A 1024-key block as loaded, viewed as a matrix: row `c` is row `c % 256` of sub-block `c / 256`. -/
theorem blockP_apply {α : Type} (x : S1x4x1x256x64.Idx → α) (h1 : S1x4x1x256x64.ShapeCasts S4x256x64)
    (h2 : S4x256x64.ShapeCasts S1024x64) (c : Fin 1024) (d : Fin 64) :
    shapeCast S1024x64 (shapeCast S4x256x64 x h1) h2 (ix2 c d)
      = x (ix5 (0 : Fin 1) (⟨c.val / 256, by have := c.isLt; omega⟩ : Fin 4) (0 : Fin 1) (⟨c.val % 256, Nat.mod_lt _ (by norm_num)⟩ : Fin 256) d) := by
  refine (shapeCast_apply (shapeCast S4x256x64 x h1) h2 (ix2 c d) (ix3 (⟨c.val / 256, by have := c.isLt; omega⟩ : Fin 4) (⟨c.val % 256, Nat.mod_lt _ (by norm_num)⟩ : Fin 256) d) ?_).trans
    (shapeCast_apply x h1 (ix3 (⟨c.val / 256, by have := c.isLt; omega⟩ : Fin 4) (⟨c.val % 256, Nat.mod_lt _ (by norm_num)⟩ : Fin 256) d) (ix5 (0 : Fin 1) (⟨c.val / 256, by have := c.isLt; omega⟩ : Fin 4) (0 : Fin 1) (⟨c.val % 256, Nat.mod_lt _ (by norm_num)⟩ : Fin 256) d) ?_)
  · rw [Shape.rowMajor_val_three, Shape.rowMajor_val_two]
    show (c.val / 256 * 256 + c.val % 256) * 64 + d.val = c.val * 64 + d.val
    omega
  · rw [Shape.rowMajor_val_five, Shape.rowMajor_val_three]
    show ((((0 * 4 + c.val / 256) * 1 + 0) * 256 + c.val % 256) * 64 + d.val) = (c.val / 256 * 256 + c.val % 256) * 64 + d.val
    omega

/-! ## The update by a 256-key block and by a 1024-key block -/

/-- The update by one device's 256 keys. -/
theorem updateZ_holds (qq : Fin 256 → Fin 64 → ℝ) (kk vv : Fin 32 → Fin 256 → Fin 64 → ℝ)
    (qb : FVec Ideal S256x64 .bf16) (hq : ∀ i d, qb (ix2 i d) = ((qq i d : ℝ) : EReal))
    (zk zv : FVec Ideal S1x1x1x256x64 .bf16) (b : Fin 32)
    (hk : ∀ (r : Fin 256) (d : Fin 64), zk (ix5 (0 : Fin 1) (0 : Fin 1) (0 : Fin 1) r d) = ((kk b r d : ℝ) : EReal))
    (hv : ∀ (r : Fin 256) (d : Fin 64), zv (ix5 (0 : Fin 1) (0 : Fin 1) (0 : Fin 1) r d) = ((vv b r d : ℝ) : EReal))
    (m l : FVec Ideal S256x1 .f32) (acc : FVec Ideal S256x64 .f32) (h : Holds qq kk vv m l acc (seen b.val)) :
    Holds qq kk vv (newM reduces_S256x256_S256 m (scores dot_S256x64_S256x64_S256x256_1_1_0_0_n_n qb (shapeCast S256x64 zk shapeCasts_S1x1x1x256x64_S256x64)))
      (newL reduces_S256x256_S256 broadcasts_S256x1_S256x256 m l (scores dot_S256x64_S256x64_S256x256_1_1_0_0_n_n qb (shapeCast S256x64 zk shapeCasts_S1x1x1x256x64_S256x64)))
      (newA reduces_S256x256_S256 broadcasts_S256x1_S256x256 dot_S256x256_S256x64_S256x64_1_0_0_1_n_n m acc (scores dot_S256x64_S256x64_S256x256_1_1_0_0_n_n qb (shapeCast S256x64 zk shapeCasts_S1x1x1x256x64_S256x64)) (shapeCast S256x64 zv shapeCasts_S1x1x1x256x64_S256x64))
      (seen (b.val + 1)) :=
  (update_holds ⟨⟨0, by norm_num⟩, Finset.mem_univ _⟩ dot_S256x64_S256x64_S256x256_1_1_0_0_n_n (fun a b i c => mmQK256_apply a b i c)
    dot_S256x256_S256x64_S256x64_1_0_0_1_n_n (fun a b i j => mmPV256_apply a b i j) reduces_S256x256_S256 broadcasts_S256x1_S256x256 qq kk vv qb hq
    (shapeCast S256x64 zk shapeCasts_S1x1x1x256x64_S256x64) (shapeCast S256x64 zv shapeCasts_S1x1x1x256x64_S256x64) (devKeys b)
    (fun c d => (blockZ_apply zk _ c d).trans (hk c d)) (fun c j => (blockZ_apply zv _ c j).trans (hv c j))
    m l acc (seen b.val) (disjoint_seen_dev b) h).of_eq (seen_union_dev b)

/-- The update by four devices' 1024 keys. -/
theorem updateP_holds (qq : Fin 256 → Fin 64 → ℝ) (kk vv : Fin 32 → Fin 256 → Fin 64 → ℝ)
    (qb : FVec Ideal S256x64 .bf16) (hq : ∀ i d, qb (ix2 i d) = ((qq i d : ℝ) : EReal))
    (pk pv : FVec Ideal S1x4x1x256x64 .bf16) (t : Fin 7)
    (hk : ∀ (c : Fin 1024) (d : Fin 64), pk (ix5 (0 : Fin 1) (⟨c.val / 256, by have := c.isLt; omega⟩ : Fin 4) (0 : Fin 1) (⟨c.val % 256, Nat.mod_lt _ (by norm_num)⟩ : Fin 256) d)
      = ((kk (quadKeys t c).1 (quadKeys t c).2 d : ℝ) : EReal))
    (hv : ∀ (c : Fin 1024) (d : Fin 64), pv (ix5 (0 : Fin 1) (⟨c.val / 256, by have := c.isLt; omega⟩ : Fin 4) (0 : Fin 1) (⟨c.val % 256, Nat.mod_lt _ (by norm_num)⟩ : Fin 256) d)
      = ((vv (quadKeys t c).1 (quadKeys t c).2 d : ℝ) : EReal))
    (m l : FVec Ideal S256x1 .f32) (acc : FVec Ideal S256x64 .f32) (h : Holds qq kk vv m l acc (seen (4 + 4 * t.val))) :
    Holds qq kk vv (newM reduces_S256x1024_S256 m (scores dot_S256x64_S1024x64_S256x1024_1_1_0_0_n_n qb (shapeCast S1024x64 (shapeCast S4x256x64 pk shapeCasts_S1x4x1x256x64_S4x256x64) shapeCasts_S4x256x64_S1024x64)))
      (newL reduces_S256x1024_S256 broadcasts_S256x1_S256x1024 m l (scores dot_S256x64_S1024x64_S256x1024_1_1_0_0_n_n qb (shapeCast S1024x64 (shapeCast S4x256x64 pk shapeCasts_S1x4x1x256x64_S4x256x64) shapeCasts_S4x256x64_S1024x64)))
      (newA reduces_S256x1024_S256 broadcasts_S256x1_S256x1024 dot_S256x1024_S1024x64_S256x64_1_0_0_1_n_n m acc (scores dot_S256x64_S1024x64_S256x1024_1_1_0_0_n_n qb (shapeCast S1024x64 (shapeCast S4x256x64 pk shapeCasts_S1x4x1x256x64_S4x256x64) shapeCasts_S4x256x64_S1024x64)) (shapeCast S1024x64 (shapeCast S4x256x64 pv shapeCasts_S1x4x1x256x64_S4x256x64) shapeCasts_S4x256x64_S1024x64))
      (seen (4 + 4 * t.val + 4)) :=
  (update_holds ⟨⟨0, by norm_num⟩, Finset.mem_univ _⟩ dot_S256x64_S1024x64_S256x1024_1_1_0_0_n_n (fun a b i c => mmQK1024_apply a b i c)
    dot_S256x1024_S1024x64_S256x64_1_0_0_1_n_n (fun a b i j => mmPV1024_apply a b i j) reduces_S256x1024_S256 broadcasts_S256x1_S256x1024 qq kk vv qb hq
    (shapeCast S1024x64 (shapeCast S4x256x64 pk shapeCasts_S1x4x1x256x64_S4x256x64) shapeCasts_S4x256x64_S1024x64) (shapeCast S1024x64 (shapeCast S4x256x64 pv shapeCasts_S1x4x1x256x64_S4x256x64) shapeCasts_S4x256x64_S1024x64) (quadKeys t)
    (fun c d => (blockP_apply pk _ _ c d).trans (hk c d)) (fun c j => (blockP_apply pv _ _ c j).trans (hv c j))
    m l acc (seen (4 + 4 * t.val)) (disjoint_seen_quad t) h).of_eq (seen_union_quad t)

/-- The first block: the device's own 256 keys, from the wide operands. -/
theorem init_holds (qq : Fin 256 → Fin 64 → ℝ) (kk vv : Fin 32 → Fin 256 → Fin 64 → ℝ) (q k v : FVec Ideal S256x64 .f32)
    (hq : ∀ (r : Fin 256) (d : Fin 64), q (ix2 r d) = ((qq r d : ℝ) : EReal))
    (hk : ∀ (r : Fin 256) (d : Fin 64), k (ix2 r d) = ((kk 0 r d : ℝ) : EReal))
    (hv : ∀ (r : Fin 256) (d : Fin 64), v (ix2 r d) = ((vv 0 r d : ℝ) : EReal)) :
    Holds qq kk vv
      (rowMax reduces_S256x256_S256 (scores dot_S256x64_S256x64_S256x256_1_1_0_0_n_n (shapeCast S256x64 q shapeCasts_S256x64_S256x64) (shapeCast S256x64 k shapeCasts_S256x64_S256x64)))
      (rowSum reduces_S256x256_S256 (weights broadcasts_S256x1_S256x256
        (scores dot_S256x64_S256x64_S256x256_1_1_0_0_n_n (shapeCast S256x64 q shapeCasts_S256x64_S256x64) (shapeCast S256x64 k shapeCasts_S256x64_S256x64))
        (rowMax reduces_S256x256_S256 (scores dot_S256x64_S256x64_S256x256_1_1_0_0_n_n (shapeCast S256x64 q shapeCasts_S256x64_S256x64) (shapeCast S256x64 k shapeCasts_S256x64_S256x64)))))
      (matmul dot_S256x256_S256x64_S256x64_1_0_0_1_n_n none (weights broadcasts_S256x1_S256x256
        (scores dot_S256x64_S256x64_S256x256_1_1_0_0_n_n (shapeCast S256x64 q shapeCasts_S256x64_S256x64) (shapeCast S256x64 k shapeCasts_S256x64_S256x64))
        (rowMax reduces_S256x256_S256 (scores dot_S256x64_S256x64_S256x256_1_1_0_0_n_n (shapeCast S256x64 q shapeCasts_S256x64_S256x64) (shapeCast S256x64 k shapeCasts_S256x64_S256x64))))
        (shapeCast S256x64 v shapeCasts_S256x64_S256x64) (constant S256x64 .f32 0x00000000#32))
      (seen 1) := by
  have hn : (Finset.univ : Finset (Fin 256)).Nonempty := ⟨⟨0, by norm_num⟩, Finset.mem_univ _⟩
  refine Holds.of_eq ⟨Finset.map_nonempty.2 hn, fun i => ?_⟩ map_devKeys_zero
  have hs : ∀ c, scores (F := Ideal) dot_S256x64_S256x64_S256x256_1_1_0_0_n_n (shapeCast S256x64 q shapeCasts_S256x64_S256x64)
      (shapeCast S256x64 k shapeCasts_S256x64_S256x64) (ix2 i c) = ((sc qq kk i (devKeys 0 c) : ℝ) : EReal) := fun c =>
    scores_apply dot_S256x64_S256x64_S256x256_1_1_0_0_n_n (fun a b i c => mmQK256_apply a b i c) _ _ (qq i) (fun d => kk 0 c d) i c
      (fun d => by rw [shapeCast_self]; exact hq i d) (fun d => by rw [shapeCast_self]; exact hk c d)
  have hM := rowMax_apply hn reduces_S256x256_S256 _ (fun c => sc qq kk i (devKeys 0 c)) i hs
  refine ⟨_, _, hM, rowSum_apply reduces_S256x256_S256 _
    (fun c => Real.exp (sc qq kk i (devKeys 0 c) - Finset.univ.sup' hn fun c => sc qq kk i (devKeys 0 c))) i
    (fun c => weights_apply broadcasts_S256x1_S256x256 _ _ _ _ i c hs hM), fun j => ?_⟩
  refine ⟨_, ?_, Cert.OnlineSoftmax.summ_init_block hn (sc qq kk i) (vl vv j) (devKeys 0)⟩
  simp only [matmul]
  rw [mmPV256_apply, Cert.OnlineSoftmax.coe_sum]
  exact Finset.sum_congr rfl fun c _ => by
    rw [weights_apply broadcasts_S256x1_S256x256 _ _ _ _ i c hs hM, shapeCast_self, hv c j, EReal.coe_mul]; rfl

/-! ## The stored value -/

/-- The division of the weighted values by the sums, at an entry over real data. -/
theorem final_apply (a : FVec Ideal S256x64 .f32) (l : FVec Ideal S256x1 .f32) (ar lr : ℝ) (i : Fin 256) (j : Fin 64)
    (ha : a (ix2 i j) = ((ar : ℝ) : EReal)) (hl : l (ix2 i (0 : Fin 1)) = ((lr : ℝ) : EReal)) (h0 : lr ≠ 0) :
    divf a (broadcastTo S256x64 l broadcasts_S256x1_S256x64) (ix2 i j) = ((ar / lr : ℝ) : EReal) := by
  rw [divf_apply, bcast_col_apply, ha, hl, Ideal.div_coe h0, ← EReal.coe_mul, mul_one_div]

/-- The running maximum after the last update. -/
def m10 (q k v : Vec Ideal S256x64 .f32) (zK zV : Fin 3 → Vec Ideal S1x1x1x256x64 .bf16) (pK pV : Fin 7 → Vec Ideal S1x4x1x256x64 .bf16) : FVec Ideal S256x1 .f32 :=
  newM reduces_S256x1024_S256 (m9 q k v zK zV pK pV) (scores dot_S256x64_S1024x64_S256x1024_1_1_0_0_n_n (qb q k v zK zV pK pV) (shapeCast S1024x64 (shapeCast S4x256x64 (pK 6) shapeCasts_S1x4x1x256x64_S4x256x64) shapeCasts_S4x256x64_S1024x64))

/-- The running sum after the last update. -/
def l10 (q k v : Vec Ideal S256x64 .f32) (zK zV : Fin 3 → Vec Ideal S1x1x1x256x64 .bf16) (pK pV : Fin 7 → Vec Ideal S1x4x1x256x64 .bf16) : FVec Ideal S256x1 .f32 :=
  newL reduces_S256x1024_S256 broadcasts_S256x1_S256x1024 (m9 q k v zK zV pK pV) (l9 q k v zK zV pK pV) (scores dot_S256x64_S1024x64_S256x1024_1_1_0_0_n_n (qb q k v zK zV pK pV) (shapeCast S1024x64 (shapeCast S4x256x64 (pK 6) shapeCasts_S1x4x1x256x64_S4x256x64) shapeCasts_S4x256x64_S1024x64))

/-- The weighted values after the last update. -/
def a10 (q k v : Vec Ideal S256x64 .f32) (zK zV : Fin 3 → Vec Ideal S1x1x1x256x64 .bf16) (pK pV : Fin 7 → Vec Ideal S1x4x1x256x64 .bf16) : FVec Ideal S256x64 .f32 :=
  newA reduces_S256x1024_S256 broadcasts_S256x1_S256x1024 dot_S256x1024_S1024x64_S256x64_1_0_0_1_n_n (m9 q k v zK zV pK pV) (a9 q k v zK zV pK pV) (scores dot_S256x64_S1024x64_S256x1024_1_1_0_0_n_n (qb q k v zK zV pK pV) (shapeCast S1024x64 (shapeCast S4x256x64 (pK 6) shapeCasts_S1x4x1x256x64_S4x256x64) shapeCasts_S4x256x64_S1024x64)) (shapeCast S1024x64 (shapeCast S4x256x64 (pV 6) shapeCasts_S1x4x1x256x64_S4x256x64) shapeCasts_S4x256x64_S1024x64)

/-- The stored value is the last weighted values over the last sums. -/
theorem outTerm_eq (q k v : Vec Ideal S256x64 .f32) (zK zV : Fin 3 → Vec Ideal S1x1x1x256x64 .bf16) (pK pV : Fin 7 → Vec Ideal S1x4x1x256x64 .bf16) :
    outTerm (F := Ideal) q k v zK zV pK pV = divf (a10 q k v zK zV pK pV) (broadcastTo S256x64 (l10 q k v zK zV pK pV) broadcasts_S256x1_S256x64) := rfl

/-- THE KERNEL'S VALUE: over real queries, keys and values — the device's own block and the fifteen loaded
    blocks holding the other thirty-one devices' keys and values in the order the body reads them —, each
    entry of the stored output is the softmax-attention row over all 8192 keys. -/
theorem kernel_entry (qq : Fin 256 → Fin 64 → ℝ) (kk vv : Fin 32 → Fin 256 → Fin 64 → ℝ)
    (q k v : Vec Ideal S256x64 .f32) (zK zV : Fin 3 → Vec Ideal S1x1x1x256x64 .bf16)
    (pK pV : Fin 7 → Vec Ideal S1x4x1x256x64 .bf16)
    (hq : ∀ (r : Fin 256) (d : Fin 64), q (ix2 r d) = ((qq r d : ℝ) : EReal))
    (hk : ∀ (r : Fin 256) (d : Fin 64), k (ix2 r d) = ((kk 0 r d : ℝ) : EReal))
    (hv : ∀ (r : Fin 256) (d : Fin 64), v (ix2 r d) = ((vv 0 r d : ℝ) : EReal))
    (hzK : ∀ (t : Fin 3) (r : Fin 256) (d : Fin 64), zK t (ix5 (0 : Fin 1) (0 : Fin 1) (0 : Fin 1) r d)
      = ((kk ⟨t.val + 1, by have := t.isLt; omega⟩ r d : ℝ) : EReal))
    (hzV : ∀ (t : Fin 3) (r : Fin 256) (d : Fin 64), zV t (ix5 (0 : Fin 1) (0 : Fin 1) (0 : Fin 1) r d)
      = ((vv ⟨t.val + 1, by have := t.isLt; omega⟩ r d : ℝ) : EReal))
    (hpK : ∀ (t : Fin 7) (i' : Fin 4) (r : Fin 256) (d : Fin 64), pK t (ix5 (0 : Fin 1) i' (0 : Fin 1) r d)
      = ((kk ⟨4 + 4 * t.val + i'.val, by have := t.isLt; have := i'.isLt; omega⟩ r d : ℝ) : EReal))
    (hpV : ∀ (t : Fin 7) (i' : Fin 4) (r : Fin 256) (d : Fin 64), pV t (ix5 (0 : Fin 1) i' (0 : Fin 1) r d)
      = ((vv ⟨4 + 4 * t.val + i'.val, by have := t.isLt; have := i'.isLt; omega⟩ r d : ℝ) : EReal))
    (hU : (Finset.univ : Finset (Fin 32 × Fin 256)).Nonempty) (i : Fin 256) (j : Fin 64) :
    outTerm (F := Ideal) q k v zK zV pK pV (ix2 i j)
      = ((Cert.OnlineSoftmax.attnRow hU (fun κ : Fin 32 × Fin 256 => (∑ d, qq i d * kk κ.1 κ.2 d) / 8)
          (fun κ : Fin 32 × Fin 256 => vv κ.1 κ.2 j) : ℝ) : EReal) := by
  have hqb : ∀ (i : Fin 256) (d : Fin 64), qb q k v zK zV pK pV (ix2 i d) = ((qq i d : ℝ) : EReal) := fun i d => by
    have e : qb (F := Ideal) q k v zK zV pK pV = truncf .bf16 (shapeCast S256x64 q shapeCasts_S256x64_S256x64) bitsLt_bf16_f32 := rfl
    rw [e, truncf_apply, shapeCast_self]
    exact hq i d
  have h0 : Holds qq kk vv (m0 q k v zK zV pK pV) (l0 q k v zK zV pK pV) (a0 q k v zK zV pK pV) (seen 1) := init_holds qq kk vv q k v hq hk hv
  have h1 : Holds qq kk vv (m1 q k v zK zV pK pV) (l1 q k v zK zV pK pV) (a1 q k v zK zV pK pV) (seen 2) := updateZ_holds qq kk vv (qb q k v zK zV pK pV) hqb (zK 0) (zV 0) ⟨(0 : Fin 3).val + 1, by decide⟩ (hzK 0) (hzV 0) (m0 q k v zK zV pK pV) (l0 q k v zK zV pK pV) (a0 q k v zK zV pK pV) h0
  have h2 : Holds qq kk vv (m2 q k v zK zV pK pV) (l2 q k v zK zV pK pV) (a2 q k v zK zV pK pV) (seen 3) := updateZ_holds qq kk vv (qb q k v zK zV pK pV) hqb (zK 1) (zV 1) ⟨(1 : Fin 3).val + 1, by decide⟩ (hzK 1) (hzV 1) (m1 q k v zK zV pK pV) (l1 q k v zK zV pK pV) (a1 q k v zK zV pK pV) h1
  have h3 : Holds qq kk vv (m3 q k v zK zV pK pV) (l3 q k v zK zV pK pV) (a3 q k v zK zV pK pV) (seen 4) := updateZ_holds qq kk vv (qb q k v zK zV pK pV) hqb (zK 2) (zV 2) ⟨(2 : Fin 3).val + 1, by decide⟩ (hzK 2) (hzV 2) (m2 q k v zK zV pK pV) (l2 q k v zK zV pK pV) (a2 q k v zK zV pK pV) h2
  have h4 : Holds qq kk vv (m4 q k v zK zV pK pV) (l4 q k v zK zV pK pV) (a4 q k v zK zV pK pV) (seen 8) := updateP_holds qq kk vv (qb q k v zK zV pK pV) hqb (pK 0) (pV 0) 0 (fun c d => hpK 0 (⟨c.val / 256, by have := c.isLt; omega⟩ : Fin 4) (⟨c.val % 256, Nat.mod_lt _ (by norm_num)⟩ : Fin 256) d) (fun c d => hpV 0 (⟨c.val / 256, by have := c.isLt; omega⟩ : Fin 4) (⟨c.val % 256, Nat.mod_lt _ (by norm_num)⟩ : Fin 256) d) (m3 q k v zK zV pK pV) (l3 q k v zK zV pK pV) (a3 q k v zK zV pK pV) h3
  have h5 : Holds qq kk vv (m5 q k v zK zV pK pV) (l5 q k v zK zV pK pV) (a5 q k v zK zV pK pV) (seen 12) := updateP_holds qq kk vv (qb q k v zK zV pK pV) hqb (pK 1) (pV 1) 1 (fun c d => hpK 1 (⟨c.val / 256, by have := c.isLt; omega⟩ : Fin 4) (⟨c.val % 256, Nat.mod_lt _ (by norm_num)⟩ : Fin 256) d) (fun c d => hpV 1 (⟨c.val / 256, by have := c.isLt; omega⟩ : Fin 4) (⟨c.val % 256, Nat.mod_lt _ (by norm_num)⟩ : Fin 256) d) (m4 q k v zK zV pK pV) (l4 q k v zK zV pK pV) (a4 q k v zK zV pK pV) h4
  have h6 : Holds qq kk vv (m6 q k v zK zV pK pV) (l6 q k v zK zV pK pV) (a6 q k v zK zV pK pV) (seen 16) := updateP_holds qq kk vv (qb q k v zK zV pK pV) hqb (pK 2) (pV 2) 2 (fun c d => hpK 2 (⟨c.val / 256, by have := c.isLt; omega⟩ : Fin 4) (⟨c.val % 256, Nat.mod_lt _ (by norm_num)⟩ : Fin 256) d) (fun c d => hpV 2 (⟨c.val / 256, by have := c.isLt; omega⟩ : Fin 4) (⟨c.val % 256, Nat.mod_lt _ (by norm_num)⟩ : Fin 256) d) (m5 q k v zK zV pK pV) (l5 q k v zK zV pK pV) (a5 q k v zK zV pK pV) h5
  have h7 : Holds qq kk vv (m7 q k v zK zV pK pV) (l7 q k v zK zV pK pV) (a7 q k v zK zV pK pV) (seen 20) := updateP_holds qq kk vv (qb q k v zK zV pK pV) hqb (pK 3) (pV 3) 3 (fun c d => hpK 3 (⟨c.val / 256, by have := c.isLt; omega⟩ : Fin 4) (⟨c.val % 256, Nat.mod_lt _ (by norm_num)⟩ : Fin 256) d) (fun c d => hpV 3 (⟨c.val / 256, by have := c.isLt; omega⟩ : Fin 4) (⟨c.val % 256, Nat.mod_lt _ (by norm_num)⟩ : Fin 256) d) (m6 q k v zK zV pK pV) (l6 q k v zK zV pK pV) (a6 q k v zK zV pK pV) h6
  have h8 : Holds qq kk vv (m8 q k v zK zV pK pV) (l8 q k v zK zV pK pV) (a8 q k v zK zV pK pV) (seen 24) := updateP_holds qq kk vv (qb q k v zK zV pK pV) hqb (pK 4) (pV 4) 4 (fun c d => hpK 4 (⟨c.val / 256, by have := c.isLt; omega⟩ : Fin 4) (⟨c.val % 256, Nat.mod_lt _ (by norm_num)⟩ : Fin 256) d) (fun c d => hpV 4 (⟨c.val / 256, by have := c.isLt; omega⟩ : Fin 4) (⟨c.val % 256, Nat.mod_lt _ (by norm_num)⟩ : Fin 256) d) (m7 q k v zK zV pK pV) (l7 q k v zK zV pK pV) (a7 q k v zK zV pK pV) h7
  have h9 : Holds qq kk vv (m9 q k v zK zV pK pV) (l9 q k v zK zV pK pV) (a9 q k v zK zV pK pV) (seen 28) := updateP_holds qq kk vv (qb q k v zK zV pK pV) hqb (pK 5) (pV 5) 5 (fun c d => hpK 5 (⟨c.val / 256, by have := c.isLt; omega⟩ : Fin 4) (⟨c.val % 256, Nat.mod_lt _ (by norm_num)⟩ : Fin 256) d) (fun c d => hpV 5 (⟨c.val / 256, by have := c.isLt; omega⟩ : Fin 4) (⟨c.val % 256, Nat.mod_lt _ (by norm_num)⟩ : Fin 256) d) (m8 q k v zK zV pK pV) (l8 q k v zK zV pK pV) (a8 q k v zK zV pK pV) h8
  have h10 : Holds qq kk vv (m10 q k v zK zV pK pV) (l10 q k v zK zV pK pV) (a10 q k v zK zV pK pV) (seen 32) := updateP_holds qq kk vv (qb q k v zK zV pK pV) hqb (pK 6) (pV 6) 6 (fun c d => hpK 6 (⟨c.val / 256, by have := c.isLt; omega⟩ : Fin 4) (⟨c.val % 256, Nat.mod_lt _ (by norm_num)⟩ : Fin 256) d) (fun c d => hpV 6 (⟨c.val / 256, by have := c.isLt; omega⟩ : Fin 4) (⟨c.val % 256, Nat.mod_lt _ (by norm_num)⟩ : Fin 256) d) (m9 q k v zK zV pK pV) (l9 q k v zK zV pK pV) (a9 q k v zK zV pK pV) h9
  obtain ⟨hS, H⟩ := h10.of_eq seen_all
  obtain ⟨mr, lr, hm, hl, ha⟩ := H i
  obtain ⟨ar, hacc, hsum⟩ := ha j
  rw [outTerm_eq, final_apply _ _ ar lr i j hacc hl (Cert.OnlineSoftmax.summ_l_pos hsum).ne',
    Cert.OnlineSoftmax.summ_final_attnRow hU hsum]
  rfl

/-- info: 'Cert.KernelValue.kernel_entry' depends on axioms: [propext, Classical.choice, Quot.sound] -/
#guard_msgs in
#print axioms kernel_entry

end Cert.KernelValue
-- ==== Proof.RefRead.lean ====
/-
  The reference's result read at one entry.

  The reference computes, for query rows q r, key rows k κ and value rows v κ (all real),
  the scores  s r κ = (∑ d, q r d * k κ d) / √64,  the row maxima  M r = max_κ s r κ,  the weights
  w r κ = exp (s r κ - M r) / ∑ κ', exp (s r κ' - M r),  and the result  o r j = ∑ κ, w r κ * v κ j.
  Every intermediate value is a real number: √64 = 8 is a nonzero real, the maximum of finitely many
  reals started from -∞ is their real maximum, an exponential of a real is a positive real, so the
  normalising sum is a positive (hence nonzero) real and both divisions are real divisions. Read at
  the entry (r, j) the result is therefore the coercion of the softmax-weighted average of column j
  of v with the scores of row r.
-/
import proofs.«900463_g7700000000000464_dist_ring_attn_i_s256_d64_v7x_i32_f32_1_alg».proof.Proof.Gen.ReferenceIdeal.Run
import proofs.«900463_g7700000000000464_dist_ring_attn_i_s256_d64_v7x_i32_f32_1_alg».proof.Proof.Gen.ReferenceIdeal.Read
import proofs.«900463_g7700000000000464_dist_ring_attn_i_s256_d64_v7x_i32_f32_1_alg».proof.Proof.LibOnlineSoftmax

noncomputable section

namespace Cert.RefValue

open Cert.ReferenceIdeal Cert.ReferenceIdeal.Gen Cert.ReferenceIdeal.Read Idealize.ShloMosaic
  Idealize.ShloMosaic.ValueIdx Cert.OnlineSoftmax

/-- The key set of a row: all 8192 key positions; it is not empty. -/
theorem univ_ne : (Finset.univ : Finset (Fin 8192)).Nonempty := ⟨⟨0, by decide⟩, Finset.mem_univ _⟩

/-- The real score of query row r against key row κ: the dot product over the 64 features, over 8. -/
def score (q k : Fin 8192 → Fin 64 → ℝ) (r κ : Fin 8192) : ℝ := (∑ d : Fin 64, q r d * k κ d) / 8

/-- The row maximum of the scores. -/
def rowMax (q k : Fin 8192 → Fin 64 → ℝ) (r : Fin 8192) : ℝ := Finset.univ.sup' univ_ne (score q k r)

/-- The normalising sum of a row: positive, as a nonempty sum of exponentials. -/
def rowSum (q k : Fin 8192 → Fin 64 → ℝ) (r : Fin 8192) : ℝ :=
  ∑ κ : Fin 8192, Real.exp (score q k r κ - rowMax q k r)

theorem rowSum_pos (q k : Fin 8192 → Fin 64 → ℝ) (r : Fin 8192) : 0 < rowSum q k r :=
  Finset.sum_pos (fun κ _ => Real.exp_pos _) univ_ne

/-! ### The three literals -/

/-- The word 0x42800000 is 2^23 · 2^(133 - 127 - 23) = 2^6 = 64. -/
theorem ofBits_64 : Ideal.ofBits .f32 0x42800000#32 = ((64 : ℝ) : EReal) := by
  simp [Ideal.ofBits, Ideal.ieee]
  rw [← EReal.coe_mul, EReal.coe_eq_coe_iff]
  norm_num

/-- The word 0xFF800000 is -∞. -/
theorem ofBits_neg_inf : Ideal.ofBits .f32 0xFF800000#32 = (⊥ : EReal) := by
  simp [Ideal.ofBits, Ideal.ieee]

/-- √64 = 8, since 64 = 8². -/
theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-! ### The stages, read at an index -/

/-- The transposed keys at (d, κ) are the keys at (κ, d). -/
theorem v0_at (K : (⟨S8192x64, .f32⟩ : BufTy).Contents (Elt Ideal)) (d : Fin 64) (κ : Fin 8192) :
    val_main_v0 (F := Ideal) K (ix2 d κ) = K (ix2 κ d) := by
  rw [val_main_v0_apply]
  exact congrArg K (funext fun a => match a with | ⟨0, _⟩ => rfl | ⟨1, _⟩ => rfl)

/-- The dot product of query row r with key row κ. -/
theorem v1_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r κ : Fin 8192) :
    val_main_v1 (F := Ideal) Q K (ix2 r κ) = ((∑ d : Fin 64, q r d * k κ d : ℝ) : EReal) := by
  rw [val_main_v1_apply, coe_sum]
  refine Finset.sum_congr rfl fun d _ => ?_
  have e1 : lidx_main_v1 (ix2 r κ) d = ix2 r d :=
    funext fun a => match a with | ⟨0, _⟩ => rfl | ⟨1, _⟩ => rfl
  have e2 : ridx_main_v1 (ix2 r κ) d = ix2 d κ :=
    funext fun a => match a with | ⟨0, _⟩ => rfl | ⟨1, _⟩ => rfl
  rw [e1, e2, v0_at, hQ, hK, EReal.coe_mul]

/-- The divisor is the real 8 everywhere. -/
theorem v4_at (i : S8192x8192.Idx) : val_main_v4 (F := Ideal) i = ((8 : ℝ) : EReal) := by
  rw [val_main_v4_apply, val_main_v3_apply, val_main_v2_apply, val_main_cst_apply, Ideal.hostUnary_sqrt_def,
    Ideal.ofBits_def, ofBits_64, sqrt_64]

/-- The scaled scores: a real divided by the nonzero real 8. -/
theorem v5_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r κ : Fin 8192) :
    val_main_v5 (F := Ideal) Q K (ix2 r κ) = ((score q k r κ : ℝ) : EReal) := by
  rw [val_main_v5_apply, v1_at Q K q k hQ hK, v4_at, Ideal.hostDivf_def,
    Ideal.div_coe (by norm_num : (8 : ℝ) ≠ 0), ← EReal.coe_mul]
  unfold score
  congr 1
  ring

/-- The shape fact that names the index a row's reduction runs over. -/
theorem reduces_rows : S8192x8192.Reduces [1] S8192 := by decide

/-- Row r with the key position κ put back on the reduced axis is the index (r, κ). -/
theorem lift_at (h : S8192x8192.Reduces [1] S8192) (r : Fin 8192) (κ : Fin (S8192x8192.size 1)) :
    h.lift (ix1 r) κ = ix2 r (⟨κ.val, κ.isLt⟩ : Fin 8192) := by
  funext c
  apply Fin.ext
  fin_cases c <;> rfl

/-- The maximum-reduction from -∞ along a row of real scores is the real row maximum. -/
theorem v6_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r : Fin 8192) :
    val_main_v6 (F := Ideal) Q K (ix1 r) = ((rowMax q k r : ℝ) : EReal) := by
  unfold val_main_v6
  rw [Host.reduce_eq_fold_single FloatOps.maximumf _ _ _ reduces_rows _]
  have hf : (val_main_v5 (F := Ideal) Q K ∘ reduces_rows.lift (ix1 r))
      = fun κ : Fin 8192 => ((score q k r κ : ℝ) : EReal) := funext fun κ => by
    show val_main_v5 (F := Ideal) Q K (reduces_rows.lift (ix1 r) κ) = _
    rw [lift_at, v5_at Q K q k hQ hK]
    rfl
  have hi : val_main_cst_0 (F := Ideal) (Shape.Idx.first h_S_) = (⊥ : EReal) := by
    rw [val_main_cst_0_apply, Ideal.ofBits_def, ofBits_neg_inf]
  rw [hf, hi]
  exact fold_max_bot Finset.univ univ_ne (score q k r)

/-- The row maximum broadcast back over the row. -/
theorem v8_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r κ : Fin 8192) :
    val_main_v8 (F := Ideal) Q K (ix2 r κ) = ((rowMax q k r : ℝ) : EReal) := by
  rw [val_main_v8_apply, val_main_v7_apply]
  have e : idx_main_v7 (idx_main_v8 (ix2 r κ)) = ix1 r := funext fun a => match a with | ⟨0, _⟩ => rfl
  rw [e, v6_at Q K q k hQ hK]

/-- The exponential of a score less its row maximum: a positive real. -/
theorem v10_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r κ : Fin 8192) :
    val_main_v10 (F := Ideal) Q K (ix2 r κ) = ((Real.exp (score q k r κ - rowMax q k r) : ℝ) : EReal) := by
  rw [val_main_v10_apply, val_main_v9_apply, v5_at Q K q k hQ hK, v8_at Q K q k hQ hK, Ideal.subf_def,
    Ideal.hostUnary_exp_def, ← EReal.coe_sub, Ideal.exp_coe]

/-- The sum-reduction from 0 along a row of real exponentials is the real normalising sum. -/
theorem v11_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r : Fin 8192) :
    val_main_v11 (F := Ideal) Q K (ix1 r) = ((rowSum q k r : ℝ) : EReal) := by
  rw [val_main_v11_apply, val_main_cst_1_apply, Ideal.ofBits_def, Ideal.ofBits_zero_f32, zero_add]
  unfold rowSum
  rw [coe_sum]
  refine Finset.sum_congr rfl fun κ _ => ?_
  have e : idx_main_v11 (ix1 r) κ = ix2 r κ :=
    funext fun a => match a with | ⟨0, _⟩ => rfl | ⟨1, _⟩ => rfl
  rw [e, v10_at Q K q k hQ hK]

/-- The normalising sum broadcast back over the row. -/
theorem v13_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r κ : Fin 8192) :
    val_main_v13 (F := Ideal) Q K (ix2 r κ) = ((rowSum q k r : ℝ) : EReal) := by
  rw [val_main_v13_apply, val_main_v12_apply]
  have e : idx_main_v12 (idx_main_v13 (ix2 r κ)) = ix1 r := funext fun a => match a with | ⟨0, _⟩ => rfl
  rw [e, v11_at Q K q k hQ hK]

/-- The weights: a real divided by the positive, hence nonzero, real normalising sum. -/
theorem v14_at (Q K : (⟨S8192x64, .f32⟩ : BufTy).Contents (Elt Ideal)) (q k : Fin 8192 → Fin 64 → ℝ)
    (hQ : ∀ r d, Q (ix2 r d) = ((q r d : ℝ) : EReal)) (hK : ∀ r d, K (ix2 r d) = ((k r d : ℝ) : EReal))
    (r κ : Fin 8192) :
    val_main_v14 (F := Ideal) Q K (ix2 r κ)
      = ((Real.exp (score q k r κ - rowMax q k r) / rowSum q k r : ℝ) : EReal) := by
  rw [val_main_v14_apply, v10_at Q K q k hQ hK, v13_at Q K q k hQ hK, Ideal.hostDivf_def,
    Ideal.div_coe (rowSum_pos q k r).ne', ← EReal.coe_mul]
  congr 1
  ring

/-- THE REFERENCE AT ONE ENTRY: row r, column j of the result is the softmax-weighted average of
    column j of the values with the scores of row r. -/
theorem ref_entry (Q K V : (⟨Cert.ReferenceIdeal.S8192x64, .f32⟩ : BufTy).Contents (Elt Ideal))
    (q k v : Fin 8192 → Fin 64 → ℝ)
    (hQ : ∀ r d, Q (ValueIdx.ix2 r d) = ((q r d : ℝ) : EReal))
    (hK : ∀ r d, K (ValueIdx.ix2 r d) = ((k r d : ℝ) : EReal))
    (hV : ∀ r d, V (ValueIdx.ix2 r d) = ((v r d : ℝ) : EReal))
    (r : Fin 8192) (j : Fin 64) :
    Cert.ReferenceIdeal.Read.val_main_v15 (F := Ideal) Q K V (ValueIdx.ix2 r j)
      = ((Cert.OnlineSoftmax.attnRow ⟨⟨0, by decide⟩, Finset.mem_univ _⟩
          (fun κ : Fin 8192 => (∑ d : Fin 64, q r d * k κ d) / 8) (fun κ => v κ j) : ℝ) : EReal) := by
  rw [val_main_v15_apply]
  show _ = ((∑ κ : Fin 8192, (Real.exp (score q k r κ - rowMax q k r) / rowSum q k r) * v κ j : ℝ) : EReal)
  rw [coe_sum]
  refine Finset.sum_congr rfl fun κ _ => ?_
  have e1 : lidx_main_v15 (ix2 r j) κ = ix2 r κ :=
    funext fun a => match a with | ⟨0, _⟩ => rfl | ⟨1, _⟩ => rfl
  have e2 : ridx_main_v15 (ix2 r j) κ = ix2 κ j :=
    funext fun a => match a with | ⟨0, _⟩ => rfl | ⟨1, _⟩ => rfl
  rw [e1, e2, v14_at Q K q k hQ hK, hV, EReal.coe_mul]

end Cert.RefValue

end

/-- info: 'Cert.RefValue.ref_entry' depends on axioms: [propext, Classical.choice, Quot.sound] -/
#guard_msgs in #print axioms Cert.RefValue.ref_entry
-- ==== Proof.RefBlock.lean ====
/-
  The reference's result, read at one entry of one device's row block.

  Device c's block of the result holds rows 256·c … 256·c + 255 of the whole result, so its entry
  (i, j) is the whole result's entry (256·c + i, j): the softmax-weighted average of column j of the
  values with the scores of query row 256·c + i against all 8192 key rows.
-/
import proofs.«900463_g7700000000000464_dist_ring_attn_i_s256_d64_v7x_i32_f32_1_alg».proof.Proof.RefRead
import proofs.«900463_g7700000000000464_dist_ring_attn_i_s256_d64_v7x_i32_f32_1_alg».proof.Proof.RefJoin

namespace Cert.RefValue

open Idealize.ShloMosaic Idealize.ShloMosaic.ValueIdx

/-- Entry (i, j) of block c of the reference's result. -/
theorem ref_block_entry (Q K V : (⟨Cert.ReferenceIdeal.S8192x64, .f32⟩ : BufTy).Contents (Elt Ideal))
    (q k v : Fin 8192 → Fin 64 → ℝ)
    (hQ : ∀ r d, Q (ValueIdx.ix2 r d) = ((q r d : ℝ) : EReal))
    (hK : ∀ r d, K (ValueIdx.ix2 r d) = ((k r d : ℝ) : EReal))
    (hV : ∀ r d, V (ValueIdx.ix2 r d) = ((v r d : ℝ) : EReal))
    (c : Fin 32) (i : Fin 256) (j : Fin 64) :
    (Layout.block ⟨2, ![256, 64]⟩ ⟨2, ![8192, 64]⟩ 0 32 c
        (Cert.ReferenceIdeal.Read.val_main_v15 (F := Ideal) Q K V)) (ValueIdx.ix2 i j)
      = ((Cert.OnlineSoftmax.attnRow ⟨⟨0, by decide⟩, Finset.mem_univ _⟩
          (fun κ : Fin 8192 =>
            (∑ d : Fin 64,
              q (⟨256 * c.val + i.val, by have := c.isLt; have := i.isLt; omega⟩ : Fin 8192) d * k κ d) / 8)
          (fun κ => v κ j) : ℝ) : EReal) :=
  (block_apply (α := EReal) (Cert.ReferenceIdeal.Read.val_main_v15 (F := Ideal) Q K V) c i j).trans
    (ref_entry Q K V q k v hQ hK hV _ j)

end Cert.RefValue

/-- info: 'Cert.RefValue.ref_block_entry' depends on axioms: [propext, Classical.choice, Quot.sound] -/
#guard_msgs in #print axioms Cert.RefValue.ref_block_entry
-- ==== Proof.BridgeCore.lean ====
/-
  Which device's keys a device meets at which position, and the re-indexing of the 8192 keys.

  The 32 devices form 4 groups of 8; device c has position c % 8 in group c / 8. Slot [s, i] of a
  device's scratch holds the block of the device at position (c % 8 + s) % 8 of group (c / 8 + i) % 4.
  A device folds the 32 key/value blocks into its running summary in this order: first its own block,
  then the blocks in slots [0, 3], [0, 2], [0, 1] (same position, the other three groups), then for
  t = 0, …, 6 the four blocks in slots [7 - t, 0], …, [7 - t, 3]. So position b of the order names a
  device blockDev c b, and b ↦ blockDev c b is a bijection of the 32 devices (its inverse blockPos c
  reads the slot back off the difference of positions and of groups). Consequently
  (b, r) ↦ 256 · blockDev c b + r is a bijection from (position in the order, row in the block) to
  the 8192 key rows, and the softmax-weighted average over all keys does not depend on the order in
  which the keys are named.
-/
import proofs.«900463_g7700000000000464_dist_ring_attn_i_s256_d64_v7x_i32_f32_1_alg».proof.Proof.LibOnlineSoftmax

namespace Cert.Bridge

open Cert.OnlineSoftmax

/-- The device whose block sits in slot [s, i] of device c. -/
def srcDevN (c s i : Nat) : Nat := ((c - c % 8 + (c % 8 + s) % 8) + 8 * i) % 32

theorem srcDevN_lt (c s i : Nat) : srcDevN c s i < 32 := Nat.mod_lt _ (by decide)

/-- The device whose block is folded in at position b of device c's order. -/
def blockDev (c b : Fin 32) : Fin 32 :=
  if b.val < 4 then ⟨srcDevN c.val 0 ((4 - b.val) % 4), srcDevN_lt _ _ _⟩
  else ⟨srcDevN c.val (7 - (b.val - 4) / 4) ((b.val - 4) % 4), srcDevN_lt _ _ _⟩

/-- The position in device c's order at which the block of device d is folded in. -/
def blockPos (c d : Fin 32) : Fin 32 :=
  if h : (d.val % 8 + 8 - c.val % 8) % 8 = 0 then
    ⟨(4 - (d.val / 8 + 4 - c.val / 8) % 4) % 4, by omega⟩
  else
    ⟨4 + 4 * (7 - (d.val % 8 + 8 - c.val % 8) % 8) + (d.val / 8 + 4 - c.val / 8) % 4, by omega⟩

theorem blockPos_blockDev : ∀ c b : Fin 32, blockPos c (blockDev c b) = b := by decide
theorem blockDev_blockPos : ∀ c d : Fin 32, blockDev c (blockPos c d) = d := by decide

/-- Position 0 is the device's own block. -/
theorem blockDev_zero : ∀ c : Fin 32, blockDev c 0 = c := by decide

/-- Positions 1, 2, 3 are slots [0, 3], [0, 2], [0, 1]. -/
theorem blockDev_z : ∀ (c : Fin 32) (t : Fin 3),
    (blockDev c ⟨t.val + 1, by have := t.isLt; omega⟩).val = srcDevN c.val 0 (3 - t.val) := by decide

/-- Position 4 + 4t + i is slot [7 - t, i]. -/
theorem blockDev_p : ∀ (c : Fin 32) (t : Fin 7) (i : Fin 4),
    (blockDev c ⟨4 + 4 * t.val + i.val, by have := t.isLt; have := i.isLt; omega⟩).val
      = srcDevN c.val (7 - t.val) i.val := by decide

/-- (position in device c's order, row in the block) ↦ key row: a bijection onto the 8192 keys. -/
def keyEquiv (c : Fin 32) : Fin 32 × Fin 256 ≃ Fin 8192 where
  toFun p := ⟨256 * (blockDev c p.1).val + p.2.val, by
    have := (blockDev c p.1).isLt; have := p.2.isLt; omega⟩
  invFun κ := (blockPos c ⟨κ.val / 256, by have := κ.isLt; omega⟩, ⟨κ.val % 256, Nat.mod_lt _ (by decide)⟩)
  left_inv p := by
    obtain ⟨b, r⟩ := p
    have h1 : (256 * (blockDev c b).val + r.val) / 256 = (blockDev c b).val := by
      have := r.isLt; omega
    have h2 : (256 * (blockDev c b).val + r.val) % 256 = r.val := by
      have := r.isLt; omega
    exact Prod.ext ((congrArg (blockPos c) (Fin.ext h1)).trans (blockPos_blockDev c b)) (Fin.ext h2)
  right_inv κ := by
    apply Fin.ext
    show 256 * (blockDev c (blockPos c ⟨κ.val / 256, _⟩)).val + κ.val % 256 = κ.val
    rw [blockDev_blockPos]
    exact Nat.div_add_mod κ.val 256

theorem keyEquiv_val (c : Fin 32) (b : Fin 32) (r : Fin 256) :
    (keyEquiv c (b, r)).val = 256 * (blockDev c b).val + r.val := rfl

/-- The softmax-weighted average over the keys named by (position, row) is the one over the key rows. -/
theorem attnRow_blocks (c : Fin 32) (hU : (Finset.univ : Finset (Fin 8192)).Nonempty)
    (hU' : (Finset.univ : Finset (Fin 32 × Fin 256)).Nonempty) (s v : Fin 8192 → ℝ) :
    attnRow hU' (fun p => s (keyEquiv c p)) (fun p => v (keyEquiv c p)) = attnRow hU s v :=
  attnRow_equiv (keyEquiv c) hU hU' s v

end Cert.Bridge

/-- info: 'Cert.Bridge.attnRow_blocks' depends on axioms: [propext, Classical.choice, Quot.sound] -/
#guard_msgs in #print axioms Cert.Bridge.attnRow_blocks
-- ==== Proof.Bridge.lean ====
/-
  The value bridge: what a device's body stores is its row block of the reference's result.

  On device c the body folds the 32 key/value blocks into an online-softmax summary in a fixed order
  and divides at the end; read at (i, j) the stored value is the softmax-weighted average, over the
  keys named (position b in the order, row r in the block), of the values' column j, with the scores
  of the device's query row i. The block at position b is the block of device blockDev c b, so the
  key named (b, r) is key row 256 · blockDev c b + r of the whole arrays, and the device's query row i
  is query row 256 · c + i. Since (b, r) ↦ 256 · blockDev c b + r is a bijection onto the 8192 key
  rows and the weighted average does not depend on how the keys are named, the stored value is the
  softmax-weighted average over all 8192 key rows for query row 256 · c + i: entry (256 · c + i, j)
  of the reference's result, that is, entry (i, j) of its row block c.
-/
import proofs.«900463_g7700000000000464_dist_ring_attn_i_s256_d64_v7x_i32_f32_1_alg».proof.Proof.KernelValue
import proofs.«900463_g7700000000000464_dist_ring_attn_i_s256_d64_v7x_i32_f32_1_alg».proof.Proof.RefBlock
import proofs.«900463_g7700000000000464_dist_ring_attn_i_s256_d64_v7x_i32_f32_1_alg».proof.Proof.BridgeCore
import Idealize.ShloMosaic.Lib.ValueIdx

noncomputable section

namespace Cert.Bridge

open Idealize.ShloMosaic Idealize.ShloMosaic.ValueIdx
open Cert.KernelIdeal Cert.RefValue Cert.OnlineSoftmax

/-- Two names of the same key row carry the same real entry. -/
theorem entry_congr (k : Fin 8192 → Fin 64 → ℝ) (d : Fin 64) (x y : Fin 8192) (h : x.val = y.val) :
    ((k x d : ℝ) : EReal) = ((k y d : ℝ) : EReal) := by
  rw [Fin.ext h]

/-- THE BRIDGE: what device c's body stores at (i, j), given that its operands hold the stated
    entries of the whole arrays, is entry (i, j) of block c of the reference's result. -/
theorem out_eq_ref (c : Fin 32)
    (Q K V : (⟨Cert.ReferenceIdeal.S8192x64, .f32⟩ : BufTy).Contents (Elt Ideal))
    (q k v : Fin 8192 → Fin 64 → ℝ)
    (hQ : ∀ r d, Q (ValueIdx.ix2 r d) = ((q r d : ℝ) : EReal))
    (hK : ∀ r d, K (ValueIdx.ix2 r d) = ((k r d : ℝ) : EReal))
    (hV : ∀ r d, V (ValueIdx.ix2 r d) = ((v r d : ℝ) : EReal))
    (qc kc vc : Vec Ideal S256x64 .f32) (zK zV : Fin 3 → Vec Ideal S1x1x1x256x64 .bf16)
    (pK pV : Fin 7 → Vec Ideal S1x4x1x256x64 .bf16)
    (hqc : ∀ (r : Fin 256) (d : Fin 64), qc (ix2 r d)
      = Q (ix2 (⟨256 * c.val + r.val, by have := c.isLt; have := r.isLt; omega⟩ : Fin 8192) d))
    (hkc : ∀ (r : Fin 256) (d : Fin 64), kc (ix2 r d)
      = K (ix2 (⟨256 * c.val + r.val, by have := c.isLt; have := r.isLt; omega⟩ : Fin 8192) d))
    (hvc : ∀ (r : Fin 256) (d : Fin 64), vc (ix2 r d)
      = V (ix2 (⟨256 * c.val + r.val, by have := c.isLt; have := r.isLt; omega⟩ : Fin 8192) d))
    (hzK : ∀ (t : Fin 3) (r : Fin 256) (d : Fin 64), zK t (ix5 (0 : Fin 1) (0 : Fin 1) (0 : Fin 1) r d)
      = K (ix2 (⟨256 * srcDevN c.val 0 (3 - t.val) + r.val, by
          have := srcDevN_lt c.val 0 (3 - t.val); have := r.isLt; omega⟩ : Fin 8192) d))
    (hzV : ∀ (t : Fin 3) (r : Fin 256) (d : Fin 64), zV t (ix5 (0 : Fin 1) (0 : Fin 1) (0 : Fin 1) r d)
      = V (ix2 (⟨256 * srcDevN c.val 0 (3 - t.val) + r.val, by
          have := srcDevN_lt c.val 0 (3 - t.val); have := r.isLt; omega⟩ : Fin 8192) d))
    (hpK : ∀ (t : Fin 7) (i' : Fin 4) (r : Fin 256) (d : Fin 64), pK t (ix5 (0 : Fin 1) i' (0 : Fin 1) r d)
      = K (ix2 (⟨256 * srcDevN c.val (7 - t.val) i'.val + r.val, by
          have := srcDevN_lt c.val (7 - t.val) i'.val; have := r.isLt; omega⟩ : Fin 8192) d))
    (hpV : ∀ (t : Fin 7) (i' : Fin 4) (r : Fin 256) (d : Fin 64), pV t (ix5 (0 : Fin 1) i' (0 : Fin 1) r d)
      = V (ix2 (⟨256 * srcDevN c.val (7 - t.val) i'.val + r.val, by
          have := srcDevN_lt c.val (7 - t.val) i'.val; have := r.isLt; omega⟩ : Fin 8192) d))
    (i : Fin 256) (j : Fin 64) :
    Cert.KernelValue.outTerm (F := Ideal) qc kc vc zK zV pK pV (ix2 i j)
      = (Layout.block ⟨2, ![256, 64]⟩ ⟨2, ![8192, 64]⟩ 0 32 c
          (Cert.ReferenceIdeal.Read.val_main_v15 (F := Ideal) Q K V)) (ix2 i j) := by
  have hU' : (Finset.univ : Finset (Fin 32 × Fin 256)).Nonempty := ⟨(0, 0), Finset.mem_univ _⟩
  have hre := attnRow_blocks c ⟨⟨0, by decide⟩, Finset.mem_univ _⟩ hU'
    (fun κ : Fin 8192 => (∑ d : Fin 64,
      q (⟨256 * c.val + i.val, by have := c.isLt; have := i.isLt; omega⟩ : Fin 8192) d * k κ d) / 8)
    (fun κ => v κ j)
  refine Eq.trans ?_ ((congrArg (fun x : ℝ => (x : EReal)) hre).trans
    (ref_block_entry Q K V q k v hQ hK hV c i j).symm)
  exact Cert.KernelValue.kernel_entry
    (fun r d => q (⟨256 * c.val + r.val, by have := c.isLt; have := r.isLt; omega⟩ : Fin 8192) d)
    (fun b r d => k (keyEquiv c (b, r)) d) (fun b r d => v (keyEquiv c (b, r)) d)
    qc kc vc zK zV pK pV
    (fun r d => (hqc r d).trans (hQ _ d))
    (fun r d => (hkc r d).trans ((hK _ d).trans (entry_congr k d _ _ (by
      rw [keyEquiv_val, blockDev_zero]))))
    (fun r d => (hvc r d).trans ((hV _ d).trans (entry_congr v d _ _ (by
      rw [keyEquiv_val, blockDev_zero]))))
    (fun t r d => (hzK t r d).trans ((hK _ d).trans (entry_congr k d _ _ (by
      rw [keyEquiv_val, blockDev_z]))))
    (fun t r d => (hzV t r d).trans ((hV _ d).trans (entry_congr v d _ _ (by
      rw [keyEquiv_val, blockDev_z]))))
    (fun t i' r d => (hpK t i' r d).trans ((hK _ d).trans (entry_congr k d _ _ (by
      rw [keyEquiv_val, blockDev_p]))))
    (fun t i' r d => (hpV t i' r d).trans ((hV _ d).trans (entry_congr v d _ _ (by
      rw [keyEquiv_val, blockDev_p]))))
    hU' i j

end Cert.Bridge

end

/-- info: 'Cert.Bridge.out_eq_ref' depends on axioms: [propext, Classical.choice, Quot.sound] -/
#guard_msgs in #print axioms Cert.Bridge.out_eq_ref
-- ==== Proof.OutValue.lean ====
/- Every device's stored value is its row block of the reference's result: the blocks a device loads from
   its scratch buffer hold the published key and value slabs of the devices the exchange assigns to the slots,
   and those slabs are the devices' row blocks of the whole key and value arrays. -/
import proofs.«900463_g7700000000000464_dist_ring_attn_i_s256_d64_v7x_i32_f32_1_alg».proof.Proof.OutAt
import proofs.«900463_g7700000000000464_dist_ring_attn_i_s256_d64_v7x_i32_f32_1_alg».proof.Proof.Bridge
import Idealize.ShloMosaic.Lib.Pipeline.Value

noncomputable section

namespace Cert.Ring

open Cert.KernelIdeal Cert.KernelIdeal.Gen
open Idealize.ShloMosaic
open Idealize.ShloMosaic.TcCoe
open Idealize.SL.Sem
open Idealize.ShloMosaic.ValueIdx
open Cert.KernelValue

/-- The staged block of a whole-array window is the array's contents. -/
theorem stgQ_eq {F : FTy → Type} [FloatOps F] (m : (ℓ : Loc nD τ sig) → Buf (Elt F) ℓ) (ρ : Dev nD → PrngReg) (c : Dev nD) :
    stgQ m ρ c = m ((c : Thread nD τ).loc main_arg0) :=
  Memref.read_access_unit_zero (Elt F) main_arg0 (funext fun a => Nat.zero_mul _) _ _

theorem stgK_eq {F : FTy → Type} [FloatOps F] (m : (ℓ : Loc nD τ sig) → Buf (Elt F) ℓ) (ρ : Dev nD → PrngReg) (c : Dev nD) :
    stgK m ρ c = m ((c : Thread nD τ).loc main_arg1) :=
  Memref.read_access_unit_zero (Elt F) main_arg1 (funext fun a => Nat.zero_mul _) _ _

theorem stgV_eq {F : FTy → Type} [FloatOps F] (m : (ℓ : Loc nD τ sig) → Buf (Elt F) ℓ) (ρ : Dev nD → PrngReg) (c : Dev nD) :
    stgV m ρ c = m ((c : Thread nD τ).loc main_arg2) :=
  Memref.read_access_unit_zero (Elt F) main_arg2 (funext fun a => Nat.zero_mul _) _ _

/-- A load from the scratch buffer at a unit-stride rectangle reads the buffer at offset plus index. -/
theorem scratch_readAt {F : FTy → Type} (off size : Fin 5 → Nat) (inb : ∀ a, off a + size a ≤ S8x4x2x256x64.size a)
    (c : Dev nD) (f : Buf (Elt F) (sL c)) (x : (⟨5, size⟩ : Shape).Idx) :
    A4.view.readAt (Elt F) (Rect.unit (s := S8x4x2x256x64) off size inb).toLoadRect f x
      = f (fun a => ⟨off a + (x a).val, by
          have h1 : off a + size a ≤ S8x4x2x256x64.size a := inb a
          have h2 : (x a).val < size a := (x a).isLt
          show off a + (x a).val < S8x4x2x256x64.size a
          omega⟩) := by
  show f _ = f _
  refine congrArg f (funext fun a => Fin.ext ?_)
  show off a + 1 * (x a).val = off a + (x a).val
  rw [Nat.one_mul]

/-! ## What the loaded blocks hold -/

/-- A loaded 256-key block holds what the slot's device publishes as keys. -/
theorem zKof_apply {F : FTy → Type} [FloatOps F] (pub : Dev nD → Nat → Nat → Nat → Elt F .bf16) (c : Dev nD) (t : Fin 3) (r : Fin 256) (d : Fin 64) :
    zKof pub c t (ix5 (0 : Fin 1) (0 : Fin 1) (0 : Fin 1) r d) = pub (srcDev c 0 (3 - t.val)) 0 r.val d.val :=
  match t with
  | 0 => by
    show A4.view.readAt (Elt F) (Rect.unit (s := S8x4x2x256x64) ![0, 3, 0, 0, 0] S1x1x1x256x64.size inb_S8x4x2x256x64_S1x1x1x256x64_0_3_0_0_0).toLoadRect (scr pub c) (ix5 (0 : Fin 1) (0 : Fin 1) (0 : Fin 1) r d) = _
    rw [scratch_readAt]
    show pub (srcDev c (0 + 0) (3 + 0)) (0 + 0) (0 + r.val) (0 + d.val) = pub (srcDev c 0 3) 0 r.val d.val
    rw [Nat.zero_add r.val, Nat.zero_add d.val]
  | 1 => by
    show A4.view.readAt (Elt F) (Rect.unit (s := S8x4x2x256x64) ![0, 2, 0, 0, 0] S1x1x1x256x64.size inb_S8x4x2x256x64_S1x1x1x256x64_0_2_0_0_0).toLoadRect (scr pub c) (ix5 (0 : Fin 1) (0 : Fin 1) (0 : Fin 1) r d) = _
    rw [scratch_readAt]
    show pub (srcDev c (0 + 0) (2 + 0)) (0 + 0) (0 + r.val) (0 + d.val) = pub (srcDev c 0 2) 0 r.val d.val
    rw [Nat.zero_add r.val, Nat.zero_add d.val]
  | 2 => by
    show A4.view.readAt (Elt F) (Rect.unit (s := S8x4x2x256x64) ![0, 1, 0, 0, 0] S1x1x1x256x64.size inb_S8x4x2x256x64_S1x1x1x256x64_0_1_0_0_0).toLoadRect (scr pub c) (ix5 (0 : Fin 1) (0 : Fin 1) (0 : Fin 1) r d) = _
    rw [scratch_readAt]
    show pub (srcDev c (0 + 0) (1 + 0)) (0 + 0) (0 + r.val) (0 + d.val) = pub (srcDev c 0 1) 0 r.val d.val
    rw [Nat.zero_add r.val, Nat.zero_add d.val]

/-- Its value block holds what that device publishes as values. -/
theorem zVof_apply {F : FTy → Type} [FloatOps F] (pub : Dev nD → Nat → Nat → Nat → Elt F .bf16) (c : Dev nD) (t : Fin 3) (r : Fin 256) (d : Fin 64) :
    zVof pub c t (ix5 (0 : Fin 1) (0 : Fin 1) (0 : Fin 1) r d) = pub (srcDev c 0 (3 - t.val)) 1 r.val d.val :=
  match t with
  | 0 => by
    show A4.view.readAt (Elt F) (Rect.unit (s := S8x4x2x256x64) ![0, 3, 1, 0, 0] S1x1x1x256x64.size inb_S8x4x2x256x64_S1x1x1x256x64_0_3_1_0_0).toLoadRect (scr pub c) (ix5 (0 : Fin 1) (0 : Fin 1) (0 : Fin 1) r d) = _
    rw [scratch_readAt]
    show pub (srcDev c (0 + 0) (3 + 0)) (1 + 0) (0 + r.val) (0 + d.val) = pub (srcDev c 0 3) 1 r.val d.val
    rw [Nat.zero_add r.val, Nat.zero_add d.val]
  | 1 => by
    show A4.view.readAt (Elt F) (Rect.unit (s := S8x4x2x256x64) ![0, 2, 1, 0, 0] S1x1x1x256x64.size inb_S8x4x2x256x64_S1x1x1x256x64_0_2_1_0_0).toLoadRect (scr pub c) (ix5 (0 : Fin 1) (0 : Fin 1) (0 : Fin 1) r d) = _
    rw [scratch_readAt]
    show pub (srcDev c (0 + 0) (2 + 0)) (1 + 0) (0 + r.val) (0 + d.val) = pub (srcDev c 0 2) 1 r.val d.val
    rw [Nat.zero_add r.val, Nat.zero_add d.val]
  | 2 => by
    show A4.view.readAt (Elt F) (Rect.unit (s := S8x4x2x256x64) ![0, 1, 1, 0, 0] S1x1x1x256x64.size inb_S8x4x2x256x64_S1x1x1x256x64_0_1_1_0_0).toLoadRect (scr pub c) (ix5 (0 : Fin 1) (0 : Fin 1) (0 : Fin 1) r d) = _
    rw [scratch_readAt]
    show pub (srcDev c (0 + 0) (1 + 0)) (1 + 0) (0 + r.val) (0 + d.val) = pub (srcDev c 0 1) 1 r.val d.val
    rw [Nat.zero_add r.val, Nat.zero_add d.val]

/-- A loaded 1024-key block holds, sub-block by sub-block, what the slot's four devices publish as keys. -/
theorem pKof_apply {F : FTy → Type} [FloatOps F] (pub : Dev nD → Nat → Nat → Nat → Elt F .bf16) (c : Dev nD) (t : Fin 7) (i' : Fin 4) (r : Fin 256) (d : Fin 64) :
    pKof pub c t (ix5 (0 : Fin 1) i' (0 : Fin 1) r d) = pub (srcDev c (7 - t.val) i'.val) 0 r.val d.val :=
  match t with
  | 0 => by
    show A4.view.readAt (Elt F) (Rect.unit (s := S8x4x2x256x64) ![7, 0, 0, 0, 0] S1x4x1x256x64.size inb_S8x4x2x256x64_S1x4x1x256x64_7_0_0_0_0).toLoadRect (scr pub c) (ix5 (0 : Fin 1) i' (0 : Fin 1) r d) = _
    rw [scratch_readAt]
    show pub (srcDev c (7 + 0) (0 + i'.val)) (0 + 0) (0 + r.val) (0 + d.val) = pub (srcDev c 7 i'.val) 0 r.val d.val
    rw [Nat.zero_add i'.val, Nat.zero_add r.val, Nat.zero_add d.val]
  | 1 => by
    show A4.view.readAt (Elt F) (Rect.unit (s := S8x4x2x256x64) ![6, 0, 0, 0, 0] S1x4x1x256x64.size inb_S8x4x2x256x64_S1x4x1x256x64_6_0_0_0_0).toLoadRect (scr pub c) (ix5 (0 : Fin 1) i' (0 : Fin 1) r d) = _
    rw [scratch_readAt]
    show pub (srcDev c (6 + 0) (0 + i'.val)) (0 + 0) (0 + r.val) (0 + d.val) = pub (srcDev c 6 i'.val) 0 r.val d.val
    rw [Nat.zero_add i'.val, Nat.zero_add r.val, Nat.zero_add d.val]
  | 2 => by
    show A4.view.readAt (Elt F) (Rect.unit (s := S8x4x2x256x64) ![5, 0, 0, 0, 0] S1x4x1x256x64.size inb_S8x4x2x256x64_S1x4x1x256x64_5_0_0_0_0).toLoadRect (scr pub c) (ix5 (0 : Fin 1) i' (0 : Fin 1) r d) = _
    rw [scratch_readAt]
    show pub (srcDev c (5 + 0) (0 + i'.val)) (0 + 0) (0 + r.val) (0 + d.val) = pub (srcDev c 5 i'.val) 0 r.val d.val
    rw [Nat.zero_add i'.val, Nat.zero_add r.val, Nat.zero_add d.val]
  | 3 => by
    show A4.view.readAt (Elt F) (Rect.unit (s := S8x4x2x256x64) ![4, 0, 0, 0, 0] S1x4x1x256x64.size inb_S8x4x2x256x64_S1x4x1x256x64_4_0_0_0_0).toLoadRect (scr pub c) (ix5 (0 : Fin 1) i' (0 : Fin 1) r d) = _
    rw [scratch_readAt]
    show pub (srcDev c (4 + 0) (0 + i'.val)) (0 + 0) (0 + r.val) (0 + d.val) = pub (srcDev c 4 i'.val) 0 r.val d.val
    rw [Nat.zero_add i'.val, Nat.zero_add r.val, Nat.zero_add d.val]
  | 4 => by
    show A4.view.readAt (Elt F) (Rect.unit (s := S8x4x2x256x64) ![3, 0, 0, 0, 0] S1x4x1x256x64.size inb_S8x4x2x256x64_S1x4x1x256x64_3_0_0_0_0).toLoadRect (scr pub c) (ix5 (0 : Fin 1) i' (0 : Fin 1) r d) = _
    rw [scratch_readAt]
    show pub (srcDev c (3 + 0) (0 + i'.val)) (0 + 0) (0 + r.val) (0 + d.val) = pub (srcDev c 3 i'.val) 0 r.val d.val
    rw [Nat.zero_add i'.val, Nat.zero_add r.val, Nat.zero_add d.val]
  | 5 => by
    show A4.view.readAt (Elt F) (Rect.unit (s := S8x4x2x256x64) ![2, 0, 0, 0, 0] S1x4x1x256x64.size inb_S8x4x2x256x64_S1x4x1x256x64_2_0_0_0_0).toLoadRect (scr pub c) (ix5 (0 : Fin 1) i' (0 : Fin 1) r d) = _
    rw [scratch_readAt]
    show pub (srcDev c (2 + 0) (0 + i'.val)) (0 + 0) (0 + r.val) (0 + d.val) = pub (srcDev c 2 i'.val) 0 r.val d.val
    rw [Nat.zero_add i'.val, Nat.zero_add r.val, Nat.zero_add d.val]
  | 6 => by
    show A4.view.readAt (Elt F) (Rect.unit (s := S8x4x2x256x64) ![1, 0, 0, 0, 0] S1x4x1x256x64.size inb_S8x4x2x256x64_S1x4x1x256x64_1_0_0_0_0).toLoadRect (scr pub c) (ix5 (0 : Fin 1) i' (0 : Fin 1) r d) = _
    rw [scratch_readAt]
    show pub (srcDev c (1 + 0) (0 + i'.val)) (0 + 0) (0 + r.val) (0 + d.val) = pub (srcDev c 1 i'.val) 0 r.val d.val
    rw [Nat.zero_add i'.val, Nat.zero_add r.val, Nat.zero_add d.val]

/-- Its value block likewise. -/
theorem pVof_apply {F : FTy → Type} [FloatOps F] (pub : Dev nD → Nat → Nat → Nat → Elt F .bf16) (c : Dev nD) (t : Fin 7) (i' : Fin 4) (r : Fin 256) (d : Fin 64) :
    pVof pub c t (ix5 (0 : Fin 1) i' (0 : Fin 1) r d) = pub (srcDev c (7 - t.val) i'.val) 1 r.val d.val :=
  match t with
  | 0 => by
    show A4.view.readAt (Elt F) (Rect.unit (s := S8x4x2x256x64) ![7, 0, 1, 0, 0] S1x4x1x256x64.size inb_S8x4x2x256x64_S1x4x1x256x64_7_0_1_0_0).toLoadRect (scr pub c) (ix5 (0 : Fin 1) i' (0 : Fin 1) r d) = _
    rw [scratch_readAt]
    show pub (srcDev c (7 + 0) (0 + i'.val)) (1 + 0) (0 + r.val) (0 + d.val) = pub (srcDev c 7 i'.val) 1 r.val d.val
    rw [Nat.zero_add i'.val, Nat.zero_add r.val, Nat.zero_add d.val]
  | 1 => by
    show A4.view.readAt (Elt F) (Rect.unit (s := S8x4x2x256x64) ![6, 0, 1, 0, 0] S1x4x1x256x64.size inb_S8x4x2x256x64_S1x4x1x256x64_6_0_1_0_0).toLoadRect (scr pub c) (ix5 (0 : Fin 1) i' (0 : Fin 1) r d) = _
    rw [scratch_readAt]
    show pub (srcDev c (6 + 0) (0 + i'.val)) (1 + 0) (0 + r.val) (0 + d.val) = pub (srcDev c 6 i'.val) 1 r.val d.val
    rw [Nat.zero_add i'.val, Nat.zero_add r.val, Nat.zero_add d.val]
  | 2 => by
    show A4.view.readAt (Elt F) (Rect.unit (s := S8x4x2x256x64) ![5, 0, 1, 0, 0] S1x4x1x256x64.size inb_S8x4x2x256x64_S1x4x1x256x64_5_0_1_0_0).toLoadRect (scr pub c) (ix5 (0 : Fin 1) i' (0 : Fin 1) r d) = _
    rw [scratch_readAt]
    show pub (srcDev c (5 + 0) (0 + i'.val)) (1 + 0) (0 + r.val) (0 + d.val) = pub (srcDev c 5 i'.val) 1 r.val d.val
    rw [Nat.zero_add i'.val, Nat.zero_add r.val, Nat.zero_add d.val]
  | 3 => by
    show A4.view.readAt (Elt F) (Rect.unit (s := S8x4x2x256x64) ![4, 0, 1, 0, 0] S1x4x1x256x64.size inb_S8x4x2x256x64_S1x4x1x256x64_4_0_1_0_0).toLoadRect (scr pub c) (ix5 (0 : Fin 1) i' (0 : Fin 1) r d) = _
    rw [scratch_readAt]
    show pub (srcDev c (4 + 0) (0 + i'.val)) (1 + 0) (0 + r.val) (0 + d.val) = pub (srcDev c 4 i'.val) 1 r.val d.val
    rw [Nat.zero_add i'.val, Nat.zero_add r.val, Nat.zero_add d.val]
  | 4 => by
    show A4.view.readAt (Elt F) (Rect.unit (s := S8x4x2x256x64) ![3, 0, 1, 0, 0] S1x4x1x256x64.size inb_S8x4x2x256x64_S1x4x1x256x64_3_0_1_0_0).toLoadRect (scr pub c) (ix5 (0 : Fin 1) i' (0 : Fin 1) r d) = _
    rw [scratch_readAt]
    show pub (srcDev c (3 + 0) (0 + i'.val)) (1 + 0) (0 + r.val) (0 + d.val) = pub (srcDev c 3 i'.val) 1 r.val d.val
    rw [Nat.zero_add i'.val, Nat.zero_add r.val, Nat.zero_add d.val]
  | 5 => by
    show A4.view.readAt (Elt F) (Rect.unit (s := S8x4x2x256x64) ![2, 0, 1, 0, 0] S1x4x1x256x64.size inb_S8x4x2x256x64_S1x4x1x256x64_2_0_1_0_0).toLoadRect (scr pub c) (ix5 (0 : Fin 1) i' (0 : Fin 1) r d) = _
    rw [scratch_readAt]
    show pub (srcDev c (2 + 0) (0 + i'.val)) (1 + 0) (0 + r.val) (0 + d.val) = pub (srcDev c 2 i'.val) 1 r.val d.val
    rw [Nat.zero_add i'.val, Nat.zero_add r.val, Nat.zero_add d.val]
  | 6 => by
    show A4.view.readAt (Elt F) (Rect.unit (s := S8x4x2x256x64) ![1, 0, 1, 0, 0] S1x4x1x256x64.size inb_S8x4x2x256x64_S1x4x1x256x64_1_0_1_0_0).toLoadRect (scr pub c) (ix5 (0 : Fin 1) i' (0 : Fin 1) r d) = _
    rw [scratch_readAt]
    show pub (srcDev c (1 + 0) (0 + i'.val)) (1 + 0) (0 + r.val) (0 + d.val) = pub (srcDev c 1 i'.val) 1 r.val d.val
    rw [Nat.zero_add i'.val, Nat.zero_add r.val, Nat.zero_add d.val]

/-! ## What a device publishes -/

/-- The published slab of a block holds the block's entries (the narrowing is exact here). -/
theorem slab_apply (x : FVec Ideal S256x64 .f32) (r : Fin 256) (d : Fin 64) :
    shapeCast S1x1x1x256x64 (truncf .bf16 (shapeCast S256x64 x shapeCasts_S256x64_S256x64) bitsLt_bf16_f32 : FVec Ideal S256x64 .bf16)
      shapeCasts_S256x64_S1x1x1x256x64 (ix5 (0 : Fin 1) (0 : Fin 1) (0 : Fin 1) r d) = x (ix2 r d) := by
  refine (shapeCast_apply _ shapeCasts_S256x64_S1x1x1x256x64 (ix5 (0 : Fin 1) (0 : Fin 1) (0 : Fin 1) r d) (ix2 r d) ?_).trans ?_
  · rw [Shape.rowMajor_val_two, Shape.rowMajor_val_five]
    show r.val * 64 + d.val = ((((0 * 1 + 0) * 1 + 0) * 256 + r.val) * 64 + d.val)
    omega
  · rw [truncf_apply, shapeCast_self]

theorem pubOf_key (m : (ℓ : Loc nD τ sig) → Buf (Elt Ideal) ℓ) (ρ : Dev nD → PrngReg) (dev : Dev nD) (r : Fin 256) (d : Fin 64) :
    pubOf (F := Ideal) m ρ dev 0 r.val d.val = stgK m ρ dev (ix2 r d) := by
  have hr : (⟨r.val % 256, Nat.mod_lt _ (by decide)⟩ : Fin 256) = r := Fin.ext (Nat.mod_eq_of_lt r.isLt)
  have hd : (⟨d.val % 64, Nat.mod_lt _ (by decide)⟩ : Fin 64) = d := Fin.ext (Nat.mod_eq_of_lt d.isLt)
  unfold pubOf
  rw [if_pos rfl, hr, hd]
  exact slab_apply (stgK m ρ dev) r d

theorem pubOf_val (m : (ℓ : Loc nD τ sig) → Buf (Elt Ideal) ℓ) (ρ : Dev nD → PrngReg) (dev : Dev nD) (r : Fin 256) (d : Fin 64) :
    pubOf (F := Ideal) m ρ dev 1 r.val d.val = stgV m ρ dev (ix2 r d) := by
  have hr : (⟨r.val % 256, Nat.mod_lt _ (by decide)⟩ : Fin 256) = r := Fin.ext (Nat.mod_eq_of_lt r.isLt)
  have hd : (⟨d.val % 64, Nat.mod_lt _ (by decide)⟩ : Fin 64) = d := Fin.ext (Nat.mod_eq_of_lt d.isLt)
  unfold pubOf
  rw [if_neg (by decide), hr, hd]
  exact slab_apply (stgV m ρ dev) r d

/-! ## Every device stores its row block of the reference's result -/

/-- THE OUTPUT: if every device's three argument blocks are its row blocks of real-valued whole arrays, what
    device `c` stores, computed from its own blocks and from the blocks it loads once every device has published
    its slabs, is its row block of the reference's result. -/
theorem outOf_eq_ref (m : (ℓ : Loc nD τ sig) → Buf (Elt Ideal) ℓ) (ρ : Dev nD → PrngReg)
    (Q K V : (⟨Cert.ReferenceIdeal.S8192x64, .f32⟩ : BufTy).Contents (Elt Ideal))
    (q k v : Fin 8192 → Fin 64 → ℝ)
    (hQ : ∀ r d, Q (ValueIdx.ix2 r d) = ((q r d : ℝ) : EReal))
    (hK : ∀ r d, K (ValueIdx.ix2 r d) = ((k r d : ℝ) : EReal))
    (hV : ∀ r d, V (ValueIdx.ix2 r d) = ((v r d : ℝ) : EReal))
    (hm0 : ∀ d : Dev nD, m ((d : Thread nD τ).loc main_arg0) = Layout.block ⟨2, ![256, 64]⟩ ⟨2, ![8192, 64]⟩ 0 32 d Q)
    (hm1 : ∀ d : Dev nD, m ((d : Thread nD τ).loc main_arg1) = Layout.block ⟨2, ![256, 64]⟩ ⟨2, ![8192, 64]⟩ 0 32 d K)
    (hm2 : ∀ d : Dev nD, m ((d : Thread nD τ).loc main_arg2) = Layout.block ⟨2, ![256, 64]⟩ ⟨2, ![8192, 64]⟩ 0 32 d V)
    (c : Dev nD) :
    outOf (pubOf m ρ) m ρ c
      = Layout.block ⟨2, ![256, 64]⟩ ⟨2, ![8192, 64]⟩ 0 32 c (Cert.ReferenceIdeal.Read.val_main_v15 (F := Ideal) Q K V) := by
  have hq' : ∀ (dev : Dev nD) (r : Fin 256) (d : Fin 64), stgQ m ρ dev (ix2 r d)
      = Q (ix2 (⟨256 * dev.val + r.val, by have h32 : dev.val < 32 := dev.isLt; have := r.isLt; omega⟩ : Fin 8192) d) := fun dev r d => by
    rw [stgQ_eq, hm0]; exact Cert.RefValue.block_apply Q dev r d
  have hk' : ∀ (dev : Dev nD) (r : Fin 256) (d : Fin 64), stgK m ρ dev (ix2 r d)
      = K (ix2 (⟨256 * dev.val + r.val, by have h32 : dev.val < 32 := dev.isLt; have := r.isLt; omega⟩ : Fin 8192) d) := fun dev r d => by
    rw [stgK_eq, hm1]; exact Cert.RefValue.block_apply K dev r d
  have hv' : ∀ (dev : Dev nD) (r : Fin 256) (d : Fin 64), stgV m ρ dev (ix2 r d)
      = V (ix2 (⟨256 * dev.val + r.val, by have h32 : dev.val < 32 := dev.isLt; have := r.isLt; omega⟩ : Fin 8192) d) := fun dev r d => by
    rw [stgV_eq, hm2]; exact Cert.RefValue.block_apply V dev r d
  funext x
  obtain ⟨i, j, rfl⟩ : ∃ (i : Fin 256) (j : Fin 64), x = ix2 i j := ⟨x 0, x 1, eq_ix2 x⟩
  exact Cert.Bridge.out_eq_ref c Q K V q k v hQ hK hV (stgQ m ρ c) (stgK m ρ c) (stgV m ρ c)
    (zKof (pubOf m ρ) c) (zVof (pubOf m ρ) c) (pKof (pubOf m ρ) c) (pVof (pubOf m ρ) c)
    (hq' c) (hk' c) (hv' c)
    (fun t r d => (zKof_apply (pubOf m ρ) c t r d).trans ((pubOf_key m ρ _ r d).trans (hk' _ r d)))
    (fun t r d => (zVof_apply (pubOf m ρ) c t r d).trans ((pubOf_val m ρ _ r d).trans (hv' _ r d)))
    (fun t i' r d => (pKof_apply (pubOf m ρ) c t i' r d).trans ((pubOf_key m ρ _ r d).trans (hk' _ r d)))
    (fun t i' r d => (pVof_apply (pubOf m ρ) c t i' r d).trans ((pubOf_val m ρ _ r d).trans (hv' _ r d)))
    i j

/-- info: 'Cert.Ring.outOf_eq_ref' depends on axioms: [propext, Classical.choice, Quot.sound] -/
#guard_msgs in
#print axioms outOf_eq_ref

end Cert.Ring
-- ==== Proof.Steps.lean ====
/-
  The steps of one device's body that talk to other devices, each stated once for any link.
-/
import proofs.«900463_g7700000000000464_dist_ring_attn_i_s256_d64_v7x_i32_f32_1_alg».proof.Proof.Ghost
import Idealize.ShloMosaic.Lib.Tactic
import Idealize.ShloMosaic.Lib.Transfers

noncomputable section

namespace Cert.Ring

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (pub : Dev nD → Nat → Nat → Nat → Elt F .bf16)

omit [FloatOps F] in
theorem inv_at (K : Dev nD × Fin 21 → ℕ) (ck : Dev nD × Fin 21) :
    (records pub K : sProp 𝕄) ⊢ cellInv ER (ringRd pub) (K ck) (kcell ck) := by
  unfold records
  have h : (bigSep Finset.univ fun ck : Dev nD × Fin 21 => (cellInv ER (ringRd pub) (K ck) (kcell ck) : sProp 𝕄))
      ⊢ cellInv ER (ringRd pub) (K ck) (kcell ck) := bigSep_elim (Finset.mem_univ ck)
  iintro ⟨HI, -⟩
  iapply h; iexact HI
omit [FloatOps F] in
theorem reached_at (K : Dev nD × Fin 21 → ℕ) (ck : Dev nD × Fin 21) :
    (records pub K : sProp 𝕄) ⊢ reached ER (kcell ck) 0 := by
  unfold records
  have h : (bigSep Finset.univ fun ck : Dev nD × Fin 21 => (reached ER (kcell ck) 0 : sProp 𝕄))
      ⊢ reached ER (kcell ck) 0 := bigSep_elim (Finset.mem_univ ck)
  iintro ⟨-, HR⟩
  iapply h; iexact HR

omit [FloatOps F] in
theorem inv_bar (K : Dev nD × Fin 21 → ℕ) (c : Dev nD) : (records pub K : sProp 𝕄) ⊢ cellInv ER (ringRd pub) (K (c, kB)) (barCell c) := inv_at pub K (c, kB)
omit [FloatOps F] in
theorem inv_send (K : Dev nD × Fin 21 → ℕ) (c : Dev nD) (p : Fin 10) : (records pub K : sProp 𝕄) ⊢ cellInv ER (ringRd pub) (K (c, kS p)) (sendCell p c) := by
  have h := inv_at pub K (c, kS p); rw [kcell_kS] at h; exact h
omit [FloatOps F] in
theorem inv_recv (K : Dev nD × Fin 21 → ℕ) (c : Dev nD) (p : Fin 10) : (records pub K : sProp 𝕄) ⊢ cellInv ER (ringRd pub) (K (c, kR p)) (recvCell p c) := by
  have h := inv_at pub K (c, kR p); rw [kcell_kR] at h; exact h
omit [FloatOps F] in
theorem reached_bar (K : Dev nD × Fin 21 → ℕ) (c : Dev nD) : (records pub K : sProp 𝕄) ⊢ reached ER (barCell c) 0 := reached_at pub K (c, kB)
omit [FloatOps F] in
theorem reached_send (K : Dev nD × Fin 21 → ℕ) (c : Dev nD) (p : Fin 10) : (records pub K : sProp 𝕄) ⊢ reached ER (sendCell p c) 0 := by
  have h := reached_at pub K (c, kS p); rw [kcell_kS] at h; exact h
omit [FloatOps F] in
theorem reached_recv (K : Dev nD × Fin 21 → ℕ) (c : Dev nD) (p : Fin 10) : (records pub K : sProp 𝕄) ⊢ reached ER (recvCell p c) 0 := by
  have h := reached_at pub K (c, kR p); rw [kcell_kR] at h; exact h

/-- The entry signal along link `p`: it pays duty `p` of the far end's barrier cell, handing over this device's
    landing slot for the copy that will come back along `inv p`, with the fact that its receive cell is at round 0. -/
theorem wp_sig (K : Dev nD × Fin 21 → ℕ) (c n : Dev nD) (p : Fin 10) (hn : n = peer p c)
    {α : Type} {Q : α → sProp 𝕄} {k : PUnit → Prog (TpuEff nD τ sig (Elt F) Λ₀ .tc) α}
    (O : CellTallies nD τ sig Unit) (W : Waits sig Unit) :
    iprop(records pub K ∗ owes (c : Thread nD τ) (O + tallyAt (barCell (peer p c)) () 1) W ∗ dutyTok ER (barCell (peer p c)) 0 p
        ∗ (∃ f : Buf (Elt F) (sL c), sL c ↦[dstSet c (inv p)]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, .tc) : Thread nD τ) barS (1#32 : BitVec 32).toNat) k) Q) := by
  subst hn
  iintro ⟨#HR, HO, Htok, Hslot⟩
  iapply (Rounds.wp_signal 𝒱₀ ER (ringRd pub) (c : Thread nD τ) none (dst := (peer p c : Thread nD τ)) (κ := K (peer p c, kB))
      (d := p) (by rw [duties_bar]; exact Finset.mem_univ _) ((amount_bar pub (peer p c) p).trans (by decide)) () O rfl)
  isplitr; · iapply (inv_bar pub K (peer p c)); iexact HR
  isplitl [HO]; · iexact HO
  isplitl [Htok]; · iexact Htok
  isplitl [Hslot]
  · rw [payload_bar]; unfold barPay; rw [peer_inv]
    isplitl [Hslot]; · iexact Hslot
    iapply (reached_recv pub K c (inv p)); iexact HR
  · iapply (reached_bar pub K (peer p c)); iexact HR

/-- The wait on the barrier cell for its ten units, while still owing `O`: every link's far end has entered, and
    its landing slot for this device's copy comes with its signal. -/
theorem wp_barwait (K : Dev nD × Fin 21 → ℕ) (c : Dev nD) (O : CellTallies nD τ sig Unit) (W : Waits sig Unit)
    (hmay : (levAts L lv : sProp 𝕄) ⊢ MayWait (c : Thread nD τ) (.reg barS) () O)
    {α : Type} {Q : α → sProp 𝕄} {k : PUnit → Prog (TpuEff nD τ sig (Elt F) Λ₀ .tc) α} :
    iprop(records pub K ∗ levAts L lv ∗ cred (tallyAt (barCell c) () 10) ∗ owes (c : Thread nD τ) O W ∗ atPos ER (barCell c) 0 ∅ 0)
      ⊢ iprop(((owes (c : Thread nD τ) O (insert (SemLoc.reg barS, ()) W) ∗ atPos ER (barCell c) (0 + 1) ∅ 0 ∗ reached ER (barCell c) (0 + 1)
              ∗ bigSep Finset.univ (fun d : Fin 10 => (barPay c d : sProp 𝕄))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (10#32 : BitVec 32).toNat) k) Q) := by
  have h := Rounds.wp_wait_rest_token (defs := defs₀ (F := F)) 𝒱₀ ER (ringRd pub) (c : Thread nD τ) none (κ := K (c, kB)) (Q := Q) (k := k)
      (wpE_semWait_eq (defs := defs₀ (F := F)) 𝒱₀ (c : Thread nD τ) none Set.univ) (Set.mem_univ _) () (O := O) (W := W) (R := 0) (m := 0) (T := ∅)
      (k' := (10#32 : BitVec 32).toNat) (sm := .reg barS) (by rw [expect_bar]; decide)
  rw [rest_bar] at h
  iintro ⟨#HR, #Hlev, Hc, HO, Hat⟩
  iapply h
  isplitr; · iapply (inv_bar pub K c); iexact HR
  isplitl [Hc]; · iexact Hc
  isplitl [HO]; · iexact HO
  isplitr; · iapply hmay; iexact Hlev
  iexact Hat

/-- The wait on the receive cell of link `p`: the landing slot comes back holding the sender's slab. -/
theorem wp_recvwait (K : Dev nD × Fin 21 → ℕ) (c : Dev nD) (p : Fin 10) (O : CellTallies nD τ sig Unit) (W : Waits sig Unit)
    (hmay : (levAts L lv : sProp 𝕄) ⊢ MayWait (c : Thread nD τ) (.dma (rS p)) () O)
    {sp sp' : Space} {s s' : Shape} {e e' : EltTy} {src : Memref sig (c : Thread nD τ).2.kind sp' s' e'} {κ' : Kind}
    {dst : Memref sig κ' sp s e} {hsrc : src.view.WordExact} {hdst : dst.view.WordExact} (hc : dst.view.dmaCredit = NL p)
    {α : Type} {Q : α → sProp 𝕄} {k : PUnit → Prog (TpuEff nD τ sig (Elt F) Λ₀ .tc) α} :
    iprop(records pub K ∗ levAts L lv ∗ cred (tallyAt (recvCell p c) () (NL p)) ∗ owes (c : Thread nD τ) O W ∗ atPos ER (recvCell p c) 0 ∅ 0)
      ⊢ iprop(((owes (c : Thread nD τ) O (insert (SemLoc.dma (rS p), ()) W) ∗ atPos ER (recvCell p c) (0 + 1) ∅ 0 ∗ reached ER (recvCell p c) (0 + 1) ∗ recvPay pub p c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS p) src dst hsrc hdst) k) Q) := by
  have h := Rounds.wp_wait_rest_token (defs := defs₀ (F := F)) 𝒱₀ ER (ringRd pub) (c : Thread nD τ) none (κ := K (c, kR p)) (Q := Q) (k := k)
      (wpE_waitDma2_eq (defs := defs₀ (F := F)) 𝒱₀ (c : Thread nD τ) none Set.univ (sem := rS p) (src := src) (dst := dst) (hsrc := hsrc) (hdst := hdst)) (Set.mem_univ _) () (O := O) (W := W) (R := 0) (m := 0) (T := ∅)
      (by rw [Nat.zero_add, expect_recv, hc])
  rw [rest_recv, hc] at h
  iintro ⟨#HR, #Hlev, Hc, HO, Hat⟩
  iapply h
  isplitr; · iapply (inv_recv pub K c p); iexact HR
  isplitl [Hc]; · iexact Hc
  isplitl [HO]; · iexact HO
  isplitr; · iapply hmay; iexact Hlev
  iexact Hat

/-- The wait on the send cell of link `p`: the share of the source the copy was reading comes back. -/
theorem wp_sendwait (K : Dev nD × Fin 21 → ℕ) (c : Dev nD) (p : Fin 10) (O : CellTallies nD τ sig Unit) (W : Waits sig Unit)
    (hmay : (levAts L lv : sProp 𝕄) ⊢ MayWait (c : Thread nD τ) (.dma (sS p)) () O)
    {sp sp' : Space} {s s' : Shape} {e e' : EltTy} {src : Memref sig (c : Thread nD τ).2.kind sp' s' e'} {κ' : Kind}
    {dst : Memref sig κ' sp s e} {hsrc : src.view.WordExact} {hdst : dst.view.WordExact} (hc : dst.view.dmaCredit = NL p)
    {α : Type} {Q : α → sProp 𝕄} {k : PUnit → Prog (TpuEff nD τ sig (Elt F) Λ₀ .tc) α} :
    iprop(records pub K ∗ levAts L lv ∗ cred (tallyAt (sendCell p c) () (NL p)) ∗ owes (c : Thread nD τ) O W ∗ atPos ER (sendCell p c) 0 ∅ 0)
      ⊢ iprop(((owes (c : Thread nD τ) O (insert (SemLoc.dma (sS p), ()) W) ∗ atPos ER (sendCell p c) (0 + 1) ∅ 0 ∗ reached ER (sendCell p c) (0 + 1) ∗ sendPay pub p c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS p) src dst hsrc hdst) k) Q) := by
  have h := Rounds.wp_wait_rest_token (defs := defs₀ (F := F)) 𝒱₀ ER (ringRd pub) (c : Thread nD τ) none (κ := K (c, kS p)) (Q := Q) (k := k)
      (wpE_waitDma2_eq (defs := defs₀ (F := F)) 𝒱₀ (c : Thread nD τ) none Set.univ (sem := sS p) (src := src) (dst := dst) (hsrc := hsrc) (hdst := hdst)) (Set.mem_univ _) () (O := O) (W := W) (R := 0) (m := 0) (T := ∅)
      (by rw [Nat.zero_add, expect_send, hc])
  rw [rest_send, hc] at h
  iintro ⟨#HR, #Hlev, Hc, HO, Hat⟩
  iapply h
  isplitr; · iapply (inv_send pub K c p); iexact HR
  isplitl [Hc]; · iexact Hc
  isplitl [HO]; · iexact HO
  isplitr; · iapply hmay; iexact Hlev
  iexact Hat

/-- A send or receive cell whose one round is over closes: its counter at zero is the device's again. -/
theorem close_send (K : Dev nD × Fin 21 → ℕ) (c : Dev nD) (p : Fin 10) :
    iprop(records pub K ∗ atPos ER (sendCell p c) 1 ∅ 0) ⊢ (|={Set.univ}=> semVal (sendCell p c) 0 : sProp 𝕄) := by
  iintro ⟨#HR, Hat⟩
  iapply (Rounds.cell_close ER (ringRd pub) (Set.mem_univ (K (c, kS p))) (fun h => h) (R := 1) (duties_later pub (sendCell p c)))
  isplitr; · iapply (inv_send pub K c p); iexact HR
  iexact Hat
theorem close_recv (K : Dev nD × Fin 21 → ℕ) (c : Dev nD) (p : Fin 10) :
    iprop(records pub K ∗ atPos ER (recvCell p c) 1 ∅ 0) ⊢ (|={Set.univ}=> semVal (recvCell p c) 0 : sProp 𝕄) := by
  iintro ⟨#HR, Hat⟩
  iapply (Rounds.cell_close ER (ringRd pub) (Set.mem_univ (K (c, kR p))) (fun h => h) (R := 1) (duties_later pub (recvCell p c)))
  isplitr; · iapply (inv_recv pub K c p); iexact HR
  iexact Hat

/-- The copy along link 0: this device's share of the source goes to its send cell, the far end's landing slot,
    rewritten with the source's contents, to the far end's receive cell. -/
theorem wp_copy0 (K : Dev nD × Fin 21 → ℕ) (c n : Dev nD) (hn : n = peer 0 c)
    {hsc : (zM3 : Memref sig (Dev.tc n : Thread nD τ).2.kind .vmem S2x256x64 .bf16).view.ref.isScScratch = false}
    {hsrc : (zM0 : Memref sig .tc .vmem S2x256x64 .bf16).view.WordExact} {hdst : (zM3 : Memref sig .tc .vmem S2x256x64 .bf16).view.WordExact}
    {hsem : DmaTarget.Typed .vmem (.dma (rS 0)) (.remote (Dev.tc n : Thread nD τ) (zM3 : Memref sig .tc .vmem S2x256x64 .bf16) (.dma (sS 0)) hsc)}
    {α : Type} {Q : α → sProp 𝕄} {k : PUnit → Prog (TpuEff nD τ sig (Elt F) Λ₀ .tc) α}
    (hland : ∀ fd : Buf (Elt F) (sL (peer 0 c)),
      (sL (peer 0 c) ↦[dstSet (peer 0 c) 0]{fullShare} ((zM3 : Memref sig .tc .vmem S2x256x64 .bf16).view.write (Elt F) fd ((zM0 : Memref sig .tc .vmem S2x256x64 .bf16).view.read (Elt F) (scr pub c)) Finset.univ) : sProp 𝕄)
        ⊢ recvPay pub 0 (peer 0 c))
    (O : CellTallies nD τ sig Unit) (W : Waits sig Unit) :
    iprop(records pub K ∗ (sL c ↦[srcSet c 0]{Transfers.shareTokN fullShare 0} scr pub c)
        ∗ (∃ fd : Buf (Elt F) (sL (peer 0 c)), sL (peer 0 c) ↦[dstSet (peer 0 c) 0]{fullShare} fd)
        ∗ owes (c : Thread nD τ) (O + tallyAt (recvCell 0 (peer 0 c)) () (NL 0)) W
        ∗ dutyTok ER (sendCell 0 c) 0 (0 : Fin 10) ∗ dutyTok ER (recvCell 0 (peer 0 c)) 0 (0 : Fin 10))
      ⊢ iprop(((cred (tallyAt (sendCell 0 c) () (NL 0)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma zM0 (.remote (Dev.tc n : Thread nD τ) zM3 (.dma (sS 0)) hsc) (.dma (rS 0)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 0)) (κ₂ := K (peer 0 c, kR 0))
    (src := zM0) (dst := zM3) (c' := (peer 0 c : Thread nD τ))
    (r₁ := 0) (r₂ := 0) (d₁ := (0 : Fin 10)) (d₂ := (0 : Fin 10)) (fd := fd) (q := Transfers.shareTokN fullShare 0) (fs := scr pub c)
    (by rw [duties_send]; exact Finset.mem_singleton_self _) (by rw [duties_recv]; exact Finset.mem_singleton_self _)
    () () (NL 0) rfl (amount_send pub c 0 0) (amount_recv pub (peer 0 c) 0 0) O rfl (W := W)
    (by rw [payload_send]; exact BI.Entails.refl _)
    (by rw [payload_recv]; exact hland fd))
  isplitr; · iapply (inv_send pub K c 0); iexact HR
  isplitr; · iapply (inv_recv pub K (peer 0 c) 0); iexact HR
  isplitl [Hsrc]; · iexact Hsrc
  isplitl [Hdst]; · iexact Hdst
  isplitl [HO]; · iexact HO
  isplitl [HtS]; · iexact HtS
  isplitr; · iapply (reached_send pub K c 0); iexact HR
  isplitl [HtR]; · iexact HtR
  iapply (reached_recv pub K (peer 0 c) 0); iexact HR

/-- The copy along link 1: this device's share of the source goes to its send cell, the far end's landing slot,
    rewritten with the source's contents, to the far end's receive cell. -/
theorem wp_copy1 (K : Dev nD × Fin 21 → ℕ) (c n : Dev nD) (hn : n = peer 1 c)
    {hsc : (zM2 : Memref sig (Dev.tc n : Thread nD τ).2.kind .vmem S2x256x64 .bf16).view.ref.isScScratch = false}
    {hsrc : (zM0 : Memref sig .tc .vmem S2x256x64 .bf16).view.WordExact} {hdst : (zM2 : Memref sig .tc .vmem S2x256x64 .bf16).view.WordExact}
    {hsem : DmaTarget.Typed .vmem (.dma (rS 1)) (.remote (Dev.tc n : Thread nD τ) (zM2 : Memref sig .tc .vmem S2x256x64 .bf16) (.dma (sS 1)) hsc)}
    {α : Type} {Q : α → sProp 𝕄} {k : PUnit → Prog (TpuEff nD τ sig (Elt F) Λ₀ .tc) α}
    (hland : ∀ fd : Buf (Elt F) (sL (peer 1 c)),
      (sL (peer 1 c) ↦[dstSet (peer 1 c) 1]{fullShare} ((zM2 : Memref sig .tc .vmem S2x256x64 .bf16).view.write (Elt F) fd ((zM0 : Memref sig .tc .vmem S2x256x64 .bf16).view.read (Elt F) (scr pub c)) Finset.univ) : sProp 𝕄)
        ⊢ recvPay pub 1 (peer 1 c))
    (O : CellTallies nD τ sig Unit) (W : Waits sig Unit) :
    iprop(records pub K ∗ (sL c ↦[srcSet c 1]{Transfers.shareTokN fullShare 1} scr pub c)
        ∗ (∃ fd : Buf (Elt F) (sL (peer 1 c)), sL (peer 1 c) ↦[dstSet (peer 1 c) 1]{fullShare} fd)
        ∗ owes (c : Thread nD τ) (O + tallyAt (recvCell 1 (peer 1 c)) () (NL 1)) W
        ∗ dutyTok ER (sendCell 1 c) 0 (0 : Fin 10) ∗ dutyTok ER (recvCell 1 (peer 1 c)) 0 (0 : Fin 10))
      ⊢ iprop(((cred (tallyAt (sendCell 1 c) () (NL 1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma zM0 (.remote (Dev.tc n : Thread nD τ) zM2 (.dma (sS 1)) hsc) (.dma (rS 1)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 1)) (κ₂ := K (peer 1 c, kR 1))
    (src := zM0) (dst := zM2) (c' := (peer 1 c : Thread nD τ))
    (r₁ := 0) (r₂ := 0) (d₁ := (0 : Fin 10)) (d₂ := (0 : Fin 10)) (fd := fd) (q := Transfers.shareTokN fullShare 1) (fs := scr pub c)
    (by rw [duties_send]; exact Finset.mem_singleton_self _) (by rw [duties_recv]; exact Finset.mem_singleton_self _)
    () () (NL 1) rfl (amount_send pub c 1 0) (amount_recv pub (peer 1 c) 1 0) O rfl (W := W)
    (by rw [payload_send]; exact BI.Entails.refl _)
    (by rw [payload_recv]; exact hland fd))
  isplitr; · iapply (inv_send pub K c 1); iexact HR
  isplitr; · iapply (inv_recv pub K (peer 1 c) 1); iexact HR
  isplitl [Hsrc]; · iexact Hsrc
  isplitl [Hdst]; · iexact Hdst
  isplitl [HO]; · iexact HO
  isplitl [HtS]; · iexact HtS
  isplitr; · iapply (reached_send pub K c 1); iexact HR
  isplitl [HtR]; · iexact HtR
  iapply (reached_recv pub K (peer 1 c) 1); iexact HR

/-- The copy along link 2: this device's share of the source goes to its send cell, the far end's landing slot,
    rewritten with the source's contents, to the far end's receive cell. -/
theorem wp_copy2 (K : Dev nD × Fin 21 → ℕ) (c n : Dev nD) (hn : n = peer 2 c)
    {hsc : (zM1 : Memref sig (Dev.tc n : Thread nD τ).2.kind .vmem S2x256x64 .bf16).view.ref.isScScratch = false}
    {hsrc : (zM0 : Memref sig .tc .vmem S2x256x64 .bf16).view.WordExact} {hdst : (zM1 : Memref sig .tc .vmem S2x256x64 .bf16).view.WordExact}
    {hsem : DmaTarget.Typed .vmem (.dma (rS 2)) (.remote (Dev.tc n : Thread nD τ) (zM1 : Memref sig .tc .vmem S2x256x64 .bf16) (.dma (sS 2)) hsc)}
    {α : Type} {Q : α → sProp 𝕄} {k : PUnit → Prog (TpuEff nD τ sig (Elt F) Λ₀ .tc) α}
    (hland : ∀ fd : Buf (Elt F) (sL (peer 2 c)),
      (sL (peer 2 c) ↦[dstSet (peer 2 c) 2]{fullShare} ((zM1 : Memref sig .tc .vmem S2x256x64 .bf16).view.write (Elt F) fd ((zM0 : Memref sig .tc .vmem S2x256x64 .bf16).view.read (Elt F) (scr pub c)) Finset.univ) : sProp 𝕄)
        ⊢ recvPay pub 2 (peer 2 c))
    (O : CellTallies nD τ sig Unit) (W : Waits sig Unit) :
    iprop(records pub K ∗ (sL c ↦[srcSet c 2]{Transfers.shareTokN fullShare 2} scr pub c)
        ∗ (∃ fd : Buf (Elt F) (sL (peer 2 c)), sL (peer 2 c) ↦[dstSet (peer 2 c) 2]{fullShare} fd)
        ∗ owes (c : Thread nD τ) (O + tallyAt (recvCell 2 (peer 2 c)) () (NL 2)) W
        ∗ dutyTok ER (sendCell 2 c) 0 (0 : Fin 10) ∗ dutyTok ER (recvCell 2 (peer 2 c)) 0 (0 : Fin 10))
      ⊢ iprop(((cred (tallyAt (sendCell 2 c) () (NL 2)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma zM0 (.remote (Dev.tc n : Thread nD τ) zM1 (.dma (sS 2)) hsc) (.dma (rS 2)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 2)) (κ₂ := K (peer 2 c, kR 2))
    (src := zM0) (dst := zM1) (c' := (peer 2 c : Thread nD τ))
    (r₁ := 0) (r₂ := 0) (d₁ := (0 : Fin 10)) (d₂ := (0 : Fin 10)) (fd := fd) (q := Transfers.shareTokN fullShare 2) (fs := scr pub c)
    (by rw [duties_send]; exact Finset.mem_singleton_self _) (by rw [duties_recv]; exact Finset.mem_singleton_self _)
    () () (NL 2) rfl (amount_send pub c 2 0) (amount_recv pub (peer 2 c) 2 0) O rfl (W := W)
    (by rw [payload_send]; exact BI.Entails.refl _)
    (by rw [payload_recv]; exact hland fd))
  isplitr; · iapply (inv_send pub K c 2); iexact HR
  isplitr; · iapply (inv_recv pub K (peer 2 c) 2); iexact HR
  isplitl [Hsrc]; · iexact Hsrc
  isplitl [Hdst]; · iexact Hdst
  isplitl [HO]; · iexact HO
  isplitl [HtS]; · iexact HtS
  isplitr; · iapply (reached_send pub K c 2); iexact HR
  isplitl [HtR]; · iexact HtR
  iapply (reached_recv pub K (peer 2 c) 2); iexact HR

/-- The copy along link 3: this device's share of the source goes to its send cell, the far end's landing slot,
    rewritten with the source's contents, to the far end's receive cell. -/
theorem wp_copy3 (K : Dev nD × Fin 21 → ℕ) (c n : Dev nD) (hn : n = peer 3 c)
    {hsc : (pM7 : Memref sig (Dev.tc n : Thread nD τ).2.kind .vmem S4x2x256x64 .bf16).view.ref.isScScratch = false}
    {hsrc : (pM0 : Memref sig .tc .vmem S4x2x256x64 .bf16).view.WordExact} {hdst : (pM7 : Memref sig .tc .vmem S4x2x256x64 .bf16).view.WordExact}
    {hsem : DmaTarget.Typed .vmem (.dma (rS 3)) (.remote (Dev.tc n : Thread nD τ) (pM7 : Memref sig .tc .vmem S4x2x256x64 .bf16) (.dma (sS 3)) hsc)}
    {α : Type} {Q : α → sProp 𝕄} {k : PUnit → Prog (TpuEff nD τ sig (Elt F) Λ₀ .tc) α}
    (hland : ∀ fd : Buf (Elt F) (sL (peer 3 c)),
      (sL (peer 3 c) ↦[dstSet (peer 3 c) 3]{fullShare} ((pM7 : Memref sig .tc .vmem S4x2x256x64 .bf16).view.write (Elt F) fd ((pM0 : Memref sig .tc .vmem S4x2x256x64 .bf16).view.read (Elt F) (scr pub c)) Finset.univ) : sProp 𝕄)
        ⊢ recvPay pub 3 (peer 3 c))
    (O : CellTallies nD τ sig Unit) (W : Waits sig Unit) :
    iprop(records pub K ∗ (sL c ↦[srcSet c 3]{Transfers.shareTokN fullShare 3} scr pub c)
        ∗ (∃ fd : Buf (Elt F) (sL (peer 3 c)), sL (peer 3 c) ↦[dstSet (peer 3 c) 3]{fullShare} fd)
        ∗ owes (c : Thread nD τ) (O + tallyAt (recvCell 3 (peer 3 c)) () (NL 3)) W
        ∗ dutyTok ER (sendCell 3 c) 0 (0 : Fin 10) ∗ dutyTok ER (recvCell 3 (peer 3 c)) 0 (0 : Fin 10))
      ⊢ iprop(((cred (tallyAt (sendCell 3 c) () (NL 3)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM7 (.dma (sS 3)) hsc) (.dma (rS 3)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 3)) (κ₂ := K (peer 3 c, kR 3))
    (src := pM0) (dst := pM7) (c' := (peer 3 c : Thread nD τ))
    (r₁ := 0) (r₂ := 0) (d₁ := (0 : Fin 10)) (d₂ := (0 : Fin 10)) (fd := fd) (q := Transfers.shareTokN fullShare 3) (fs := scr pub c)
    (by rw [duties_send]; exact Finset.mem_singleton_self _) (by rw [duties_recv]; exact Finset.mem_singleton_self _)
    () () (NL 3) rfl (amount_send pub c 3 0) (amount_recv pub (peer 3 c) 3 0) O rfl (W := W)
    (by rw [payload_send]; exact BI.Entails.refl _)
    (by rw [payload_recv]; exact hland fd))
  isplitr; · iapply (inv_send pub K c 3); iexact HR
  isplitr; · iapply (inv_recv pub K (peer 3 c) 3); iexact HR
  isplitl [Hsrc]; · iexact Hsrc
  isplitl [Hdst]; · iexact Hdst
  isplitl [HO]; · iexact HO
  isplitl [HtS]; · iexact HtS
  isplitr; · iapply (reached_send pub K c 3); iexact HR
  isplitl [HtR]; · iexact HtR
  iapply (reached_recv pub K (peer 3 c) 3); iexact HR

/-- The copy along link 4: this device's share of the source goes to its send cell, the far end's landing slot,
    rewritten with the source's contents, to the far end's receive cell. -/
theorem wp_copy4 (K : Dev nD × Fin 21 → ℕ) (c n : Dev nD) (hn : n = peer 4 c)
    {hsc : (pM6 : Memref sig (Dev.tc n : Thread nD τ).2.kind .vmem S4x2x256x64 .bf16).view.ref.isScScratch = false}
    {hsrc : (pM0 : Memref sig .tc .vmem S4x2x256x64 .bf16).view.WordExact} {hdst : (pM6 : Memref sig .tc .vmem S4x2x256x64 .bf16).view.WordExact}
    {hsem : DmaTarget.Typed .vmem (.dma (rS 4)) (.remote (Dev.tc n : Thread nD τ) (pM6 : Memref sig .tc .vmem S4x2x256x64 .bf16) (.dma (sS 4)) hsc)}
    {α : Type} {Q : α → sProp 𝕄} {k : PUnit → Prog (TpuEff nD τ sig (Elt F) Λ₀ .tc) α}
    (hland : ∀ fd : Buf (Elt F) (sL (peer 4 c)),
      (sL (peer 4 c) ↦[dstSet (peer 4 c) 4]{fullShare} ((pM6 : Memref sig .tc .vmem S4x2x256x64 .bf16).view.write (Elt F) fd ((pM0 : Memref sig .tc .vmem S4x2x256x64 .bf16).view.read (Elt F) (scr pub c)) Finset.univ) : sProp 𝕄)
        ⊢ recvPay pub 4 (peer 4 c))
    (O : CellTallies nD τ sig Unit) (W : Waits sig Unit) :
    iprop(records pub K ∗ (sL c ↦[srcSet c 4]{Transfers.shareTokN fullShare 4} scr pub c)
        ∗ (∃ fd : Buf (Elt F) (sL (peer 4 c)), sL (peer 4 c) ↦[dstSet (peer 4 c) 4]{fullShare} fd)
        ∗ owes (c : Thread nD τ) (O + tallyAt (recvCell 4 (peer 4 c)) () (NL 4)) W
        ∗ dutyTok ER (sendCell 4 c) 0 (0 : Fin 10) ∗ dutyTok ER (recvCell 4 (peer 4 c)) 0 (0 : Fin 10))
      ⊢ iprop(((cred (tallyAt (sendCell 4 c) () (NL 4)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM6 (.dma (sS 4)) hsc) (.dma (rS 4)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 4)) (κ₂ := K (peer 4 c, kR 4))
    (src := pM0) (dst := pM6) (c' := (peer 4 c : Thread nD τ))
    (r₁ := 0) (r₂ := 0) (d₁ := (0 : Fin 10)) (d₂ := (0 : Fin 10)) (fd := fd) (q := Transfers.shareTokN fullShare 4) (fs := scr pub c)
    (by rw [duties_send]; exact Finset.mem_singleton_self _) (by rw [duties_recv]; exact Finset.mem_singleton_self _)
    () () (NL 4) rfl (amount_send pub c 4 0) (amount_recv pub (peer 4 c) 4 0) O rfl (W := W)
    (by rw [payload_send]; exact BI.Entails.refl _)
    (by rw [payload_recv]; exact hland fd))
  isplitr; · iapply (inv_send pub K c 4); iexact HR
  isplitr; · iapply (inv_recv pub K (peer 4 c) 4); iexact HR
  isplitl [Hsrc]; · iexact Hsrc
  isplitl [Hdst]; · iexact Hdst
  isplitl [HO]; · iexact HO
  isplitl [HtS]; · iexact HtS
  isplitr; · iapply (reached_send pub K c 4); iexact HR
  isplitl [HtR]; · iexact HtR
  iapply (reached_recv pub K (peer 4 c) 4); iexact HR

/-- The copy along link 5: this device's share of the source goes to its send cell, the far end's landing slot,
    rewritten with the source's contents, to the far end's receive cell. -/
theorem wp_copy5 (K : Dev nD × Fin 21 → ℕ) (c n : Dev nD) (hn : n = peer 5 c)
    {hsc : (pM5 : Memref sig (Dev.tc n : Thread nD τ).2.kind .vmem S4x2x256x64 .bf16).view.ref.isScScratch = false}
    {hsrc : (pM0 : Memref sig .tc .vmem S4x2x256x64 .bf16).view.WordExact} {hdst : (pM5 : Memref sig .tc .vmem S4x2x256x64 .bf16).view.WordExact}
    {hsem : DmaTarget.Typed .vmem (.dma (rS 5)) (.remote (Dev.tc n : Thread nD τ) (pM5 : Memref sig .tc .vmem S4x2x256x64 .bf16) (.dma (sS 5)) hsc)}
    {α : Type} {Q : α → sProp 𝕄} {k : PUnit → Prog (TpuEff nD τ sig (Elt F) Λ₀ .tc) α}
    (hland : ∀ fd : Buf (Elt F) (sL (peer 5 c)),
      (sL (peer 5 c) ↦[dstSet (peer 5 c) 5]{fullShare} ((pM5 : Memref sig .tc .vmem S4x2x256x64 .bf16).view.write (Elt F) fd ((pM0 : Memref sig .tc .vmem S4x2x256x64 .bf16).view.read (Elt F) (scr pub c)) Finset.univ) : sProp 𝕄)
        ⊢ recvPay pub 5 (peer 5 c))
    (O : CellTallies nD τ sig Unit) (W : Waits sig Unit) :
    iprop(records pub K ∗ (sL c ↦[srcSet c 5]{Transfers.shareTokN fullShare 5} scr pub c)
        ∗ (∃ fd : Buf (Elt F) (sL (peer 5 c)), sL (peer 5 c) ↦[dstSet (peer 5 c) 5]{fullShare} fd)
        ∗ owes (c : Thread nD τ) (O + tallyAt (recvCell 5 (peer 5 c)) () (NL 5)) W
        ∗ dutyTok ER (sendCell 5 c) 0 (0 : Fin 10) ∗ dutyTok ER (recvCell 5 (peer 5 c)) 0 (0 : Fin 10))
      ⊢ iprop(((cred (tallyAt (sendCell 5 c) () (NL 5)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM5 (.dma (sS 5)) hsc) (.dma (rS 5)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 5)) (κ₂ := K (peer 5 c, kR 5))
    (src := pM0) (dst := pM5) (c' := (peer 5 c : Thread nD τ))
    (r₁ := 0) (r₂ := 0) (d₁ := (0 : Fin 10)) (d₂ := (0 : Fin 10)) (fd := fd) (q := Transfers.shareTokN fullShare 5) (fs := scr pub c)
    (by rw [duties_send]; exact Finset.mem_singleton_self _) (by rw [duties_recv]; exact Finset.mem_singleton_self _)
    () () (NL 5) rfl (amount_send pub c 5 0) (amount_recv pub (peer 5 c) 5 0) O rfl (W := W)
    (by rw [payload_send]; exact BI.Entails.refl _)
    (by rw [payload_recv]; exact hland fd))
  isplitr; · iapply (inv_send pub K c 5); iexact HR
  isplitr; · iapply (inv_recv pub K (peer 5 c) 5); iexact HR
  isplitl [Hsrc]; · iexact Hsrc
  isplitl [Hdst]; · iexact Hdst
  isplitl [HO]; · iexact HO
  isplitl [HtS]; · iexact HtS
  isplitr; · iapply (reached_send pub K c 5); iexact HR
  isplitl [HtR]; · iexact HtR
  iapply (reached_recv pub K (peer 5 c) 5); iexact HR

/-- The copy along link 6: this device's share of the source goes to its send cell, the far end's landing slot,
    rewritten with the source's contents, to the far end's receive cell. -/
theorem wp_copy6 (K : Dev nD × Fin 21 → ℕ) (c n : Dev nD) (hn : n = peer 6 c)
    {hsc : (pM4 : Memref sig (Dev.tc n : Thread nD τ).2.kind .vmem S4x2x256x64 .bf16).view.ref.isScScratch = false}
    {hsrc : (pM0 : Memref sig .tc .vmem S4x2x256x64 .bf16).view.WordExact} {hdst : (pM4 : Memref sig .tc .vmem S4x2x256x64 .bf16).view.WordExact}
    {hsem : DmaTarget.Typed .vmem (.dma (rS 6)) (.remote (Dev.tc n : Thread nD τ) (pM4 : Memref sig .tc .vmem S4x2x256x64 .bf16) (.dma (sS 6)) hsc)}
    {α : Type} {Q : α → sProp 𝕄} {k : PUnit → Prog (TpuEff nD τ sig (Elt F) Λ₀ .tc) α}
    (hland : ∀ fd : Buf (Elt F) (sL (peer 6 c)),
      (sL (peer 6 c) ↦[dstSet (peer 6 c) 6]{fullShare} ((pM4 : Memref sig .tc .vmem S4x2x256x64 .bf16).view.write (Elt F) fd ((pM0 : Memref sig .tc .vmem S4x2x256x64 .bf16).view.read (Elt F) (scr pub c)) Finset.univ) : sProp 𝕄)
        ⊢ recvPay pub 6 (peer 6 c))
    (O : CellTallies nD τ sig Unit) (W : Waits sig Unit) :
    iprop(records pub K ∗ (sL c ↦[srcSet c 6]{Transfers.shareTokN fullShare 6} scr pub c)
        ∗ (∃ fd : Buf (Elt F) (sL (peer 6 c)), sL (peer 6 c) ↦[dstSet (peer 6 c) 6]{fullShare} fd)
        ∗ owes (c : Thread nD τ) (O + tallyAt (recvCell 6 (peer 6 c)) () (NL 6)) W
        ∗ dutyTok ER (sendCell 6 c) 0 (0 : Fin 10) ∗ dutyTok ER (recvCell 6 (peer 6 c)) 0 (0 : Fin 10))
      ⊢ iprop(((cred (tallyAt (sendCell 6 c) () (NL 6)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM4 (.dma (sS 6)) hsc) (.dma (rS 6)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 6)) (κ₂ := K (peer 6 c, kR 6))
    (src := pM0) (dst := pM4) (c' := (peer 6 c : Thread nD τ))
    (r₁ := 0) (r₂ := 0) (d₁ := (0 : Fin 10)) (d₂ := (0 : Fin 10)) (fd := fd) (q := Transfers.shareTokN fullShare 6) (fs := scr pub c)
    (by rw [duties_send]; exact Finset.mem_singleton_self _) (by rw [duties_recv]; exact Finset.mem_singleton_self _)
    () () (NL 6) rfl (amount_send pub c 6 0) (amount_recv pub (peer 6 c) 6 0) O rfl (W := W)
    (by rw [payload_send]; exact BI.Entails.refl _)
    (by rw [payload_recv]; exact hland fd))
  isplitr; · iapply (inv_send pub K c 6); iexact HR
  isplitr; · iapply (inv_recv pub K (peer 6 c) 6); iexact HR
  isplitl [Hsrc]; · iexact Hsrc
  isplitl [Hdst]; · iexact Hdst
  isplitl [HO]; · iexact HO
  isplitl [HtS]; · iexact HtS
  isplitr; · iapply (reached_send pub K c 6); iexact HR
  isplitl [HtR]; · iexact HtR
  iapply (reached_recv pub K (peer 6 c) 6); iexact HR

/-- The copy along link 7: this device's share of the source goes to its send cell, the far end's landing slot,
    rewritten with the source's contents, to the far end's receive cell. -/
theorem wp_copy7 (K : Dev nD × Fin 21 → ℕ) (c n : Dev nD) (hn : n = peer 7 c)
    {hsc : (pM3 : Memref sig (Dev.tc n : Thread nD τ).2.kind .vmem S4x2x256x64 .bf16).view.ref.isScScratch = false}
    {hsrc : (pM0 : Memref sig .tc .vmem S4x2x256x64 .bf16).view.WordExact} {hdst : (pM3 : Memref sig .tc .vmem S4x2x256x64 .bf16).view.WordExact}
    {hsem : DmaTarget.Typed .vmem (.dma (rS 7)) (.remote (Dev.tc n : Thread nD τ) (pM3 : Memref sig .tc .vmem S4x2x256x64 .bf16) (.dma (sS 7)) hsc)}
    {α : Type} {Q : α → sProp 𝕄} {k : PUnit → Prog (TpuEff nD τ sig (Elt F) Λ₀ .tc) α}
    (hland : ∀ fd : Buf (Elt F) (sL (peer 7 c)),
      (sL (peer 7 c) ↦[dstSet (peer 7 c) 7]{fullShare} ((pM3 : Memref sig .tc .vmem S4x2x256x64 .bf16).view.write (Elt F) fd ((pM0 : Memref sig .tc .vmem S4x2x256x64 .bf16).view.read (Elt F) (scr pub c)) Finset.univ) : sProp 𝕄)
        ⊢ recvPay pub 7 (peer 7 c))
    (O : CellTallies nD τ sig Unit) (W : Waits sig Unit) :
    iprop(records pub K ∗ (sL c ↦[srcSet c 7]{Transfers.shareTokN fullShare 7} scr pub c)
        ∗ (∃ fd : Buf (Elt F) (sL (peer 7 c)), sL (peer 7 c) ↦[dstSet (peer 7 c) 7]{fullShare} fd)
        ∗ owes (c : Thread nD τ) (O + tallyAt (recvCell 7 (peer 7 c)) () (NL 7)) W
        ∗ dutyTok ER (sendCell 7 c) 0 (0 : Fin 10) ∗ dutyTok ER (recvCell 7 (peer 7 c)) 0 (0 : Fin 10))
      ⊢ iprop(((cred (tallyAt (sendCell 7 c) () (NL 7)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM3 (.dma (sS 7)) hsc) (.dma (rS 7)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 7)) (κ₂ := K (peer 7 c, kR 7))
    (src := pM0) (dst := pM3) (c' := (peer 7 c : Thread nD τ))
    (r₁ := 0) (r₂ := 0) (d₁ := (0 : Fin 10)) (d₂ := (0 : Fin 10)) (fd := fd) (q := Transfers.shareTokN fullShare 7) (fs := scr pub c)
    (by rw [duties_send]; exact Finset.mem_singleton_self _) (by rw [duties_recv]; exact Finset.mem_singleton_self _)
    () () (NL 7) rfl (amount_send pub c 7 0) (amount_recv pub (peer 7 c) 7 0) O rfl (W := W)
    (by rw [payload_send]; exact BI.Entails.refl _)
    (by rw [payload_recv]; exact hland fd))
  isplitr; · iapply (inv_send pub K c 7); iexact HR
  isplitr; · iapply (inv_recv pub K (peer 7 c) 7); iexact HR
  isplitl [Hsrc]; · iexact Hsrc
  isplitl [Hdst]; · iexact Hdst
  isplitl [HO]; · iexact HO
  isplitl [HtS]; · iexact HtS
  isplitr; · iapply (reached_send pub K c 7); iexact HR
  isplitl [HtR]; · iexact HtR
  iapply (reached_recv pub K (peer 7 c) 7); iexact HR

/-- The copy along link 8: this device's share of the source goes to its send cell, the far end's landing slot,
    rewritten with the source's contents, to the far end's receive cell. -/
theorem wp_copy8 (K : Dev nD × Fin 21 → ℕ) (c n : Dev nD) (hn : n = peer 8 c)
    {hsc : (pM2 : Memref sig (Dev.tc n : Thread nD τ).2.kind .vmem S4x2x256x64 .bf16).view.ref.isScScratch = false}
    {hsrc : (pM0 : Memref sig .tc .vmem S4x2x256x64 .bf16).view.WordExact} {hdst : (pM2 : Memref sig .tc .vmem S4x2x256x64 .bf16).view.WordExact}
    {hsem : DmaTarget.Typed .vmem (.dma (rS 8)) (.remote (Dev.tc n : Thread nD τ) (pM2 : Memref sig .tc .vmem S4x2x256x64 .bf16) (.dma (sS 8)) hsc)}
    {α : Type} {Q : α → sProp 𝕄} {k : PUnit → Prog (TpuEff nD τ sig (Elt F) Λ₀ .tc) α}
    (hland : ∀ fd : Buf (Elt F) (sL (peer 8 c)),
      (sL (peer 8 c) ↦[dstSet (peer 8 c) 8]{fullShare} ((pM2 : Memref sig .tc .vmem S4x2x256x64 .bf16).view.write (Elt F) fd ((pM0 : Memref sig .tc .vmem S4x2x256x64 .bf16).view.read (Elt F) (scr pub c)) Finset.univ) : sProp 𝕄)
        ⊢ recvPay pub 8 (peer 8 c))
    (O : CellTallies nD τ sig Unit) (W : Waits sig Unit) :
    iprop(records pub K ∗ (sL c ↦[srcSet c 8]{Transfers.shareTokN fullShare 8} scr pub c)
        ∗ (∃ fd : Buf (Elt F) (sL (peer 8 c)), sL (peer 8 c) ↦[dstSet (peer 8 c) 8]{fullShare} fd)
        ∗ owes (c : Thread nD τ) (O + tallyAt (recvCell 8 (peer 8 c)) () (NL 8)) W
        ∗ dutyTok ER (sendCell 8 c) 0 (0 : Fin 10) ∗ dutyTok ER (recvCell 8 (peer 8 c)) 0 (0 : Fin 10))
      ⊢ iprop(((cred (tallyAt (sendCell 8 c) () (NL 8)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM2 (.dma (sS 8)) hsc) (.dma (rS 8)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 8)) (κ₂ := K (peer 8 c, kR 8))
    (src := pM0) (dst := pM2) (c' := (peer 8 c : Thread nD τ))
    (r₁ := 0) (r₂ := 0) (d₁ := (0 : Fin 10)) (d₂ := (0 : Fin 10)) (fd := fd) (q := Transfers.shareTokN fullShare 8) (fs := scr pub c)
    (by rw [duties_send]; exact Finset.mem_singleton_self _) (by rw [duties_recv]; exact Finset.mem_singleton_self _)
    () () (NL 8) rfl (amount_send pub c 8 0) (amount_recv pub (peer 8 c) 8 0) O rfl (W := W)
    (by rw [payload_send]; exact BI.Entails.refl _)
    (by rw [payload_recv]; exact hland fd))
  isplitr; · iapply (inv_send pub K c 8); iexact HR
  isplitr; · iapply (inv_recv pub K (peer 8 c) 8); iexact HR
  isplitl [Hsrc]; · iexact Hsrc
  isplitl [Hdst]; · iexact Hdst
  isplitl [HO]; · iexact HO
  isplitl [HtS]; · iexact HtS
  isplitr; · iapply (reached_send pub K c 8); iexact HR
  isplitl [HtR]; · iexact HtR
  iapply (reached_recv pub K (peer 8 c) 8); iexact HR

/-- The copy along link 9: this device's share of the source goes to its send cell, the far end's landing slot,
    rewritten with the source's contents, to the far end's receive cell. -/
theorem wp_copy9 (K : Dev nD × Fin 21 → ℕ) (c n : Dev nD) (hn : n = peer 9 c)
    {hsc : (pM1 : Memref sig (Dev.tc n : Thread nD τ).2.kind .vmem S4x2x256x64 .bf16).view.ref.isScScratch = false}
    {hsrc : (pM0 : Memref sig .tc .vmem S4x2x256x64 .bf16).view.WordExact} {hdst : (pM1 : Memref sig .tc .vmem S4x2x256x64 .bf16).view.WordExact}
    {hsem : DmaTarget.Typed .vmem (.dma (rS 9)) (.remote (Dev.tc n : Thread nD τ) (pM1 : Memref sig .tc .vmem S4x2x256x64 .bf16) (.dma (sS 9)) hsc)}
    {α : Type} {Q : α → sProp 𝕄} {k : PUnit → Prog (TpuEff nD τ sig (Elt F) Λ₀ .tc) α}
    (hland : ∀ fd : Buf (Elt F) (sL (peer 9 c)),
      (sL (peer 9 c) ↦[dstSet (peer 9 c) 9]{fullShare} ((pM1 : Memref sig .tc .vmem S4x2x256x64 .bf16).view.write (Elt F) fd ((pM0 : Memref sig .tc .vmem S4x2x256x64 .bf16).view.read (Elt F) (scr pub c)) Finset.univ) : sProp 𝕄)
        ⊢ recvPay pub 9 (peer 9 c))
    (O : CellTallies nD τ sig Unit) (W : Waits sig Unit) :
    iprop(records pub K ∗ (sL c ↦[srcSet c 9]{Transfers.shareTokN fullShare 9} scr pub c)
        ∗ (∃ fd : Buf (Elt F) (sL (peer 9 c)), sL (peer 9 c) ↦[dstSet (peer 9 c) 9]{fullShare} fd)
        ∗ owes (c : Thread nD τ) (O + tallyAt (recvCell 9 (peer 9 c)) () (NL 9)) W
        ∗ dutyTok ER (sendCell 9 c) 0 (0 : Fin 10) ∗ dutyTok ER (recvCell 9 (peer 9 c)) 0 (0 : Fin 10))
      ⊢ iprop(((cred (tallyAt (sendCell 9 c) () (NL 9)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM1 (.dma (sS 9)) hsc) (.dma (rS 9)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 9)) (κ₂ := K (peer 9 c, kR 9))
    (src := pM0) (dst := pM1) (c' := (peer 9 c : Thread nD τ))
    (r₁ := 0) (r₂ := 0) (d₁ := (0 : Fin 10)) (d₂ := (0 : Fin 10)) (fd := fd) (q := Transfers.shareTokN fullShare 9) (fs := scr pub c)
    (by rw [duties_send]; exact Finset.mem_singleton_self _) (by rw [duties_recv]; exact Finset.mem_singleton_self _)
    () () (NL 9) rfl (amount_send pub c 9 0) (amount_recv pub (peer 9 c) 9 0) O rfl (W := W)
    (by rw [payload_send]; exact BI.Entails.refl _)
    (by rw [payload_recv]; exact hland fd))
  isplitr; · iapply (inv_send pub K c 9); iexact HR
  isplitr; · iapply (inv_recv pub K (peer 9 c) 9); iexact HR
  isplitl [Hsrc]; · iexact Hsrc
  isplitl [Hdst]; · iexact Hdst
  isplitl [HO]; · iexact HO
  isplitl [HtS]; · iexact HtS
  isplitr; · iapply (reached_send pub K c 9); iexact HR
  isplitl [HtR]; · iexact HtR
  iapply (reached_recv pub K (peer 9 c) 9); iexact HR

end Cert.Ring

end
-- ==== Proof.BodyDefs.lean ====
/-
  What a device's body starts from and what it leaves, spelt out for the stepping of the body: the 21 positions
  at its own cells one by one, the staging buffers at named contents.
-/
import proofs.«900463_g7700000000000464_dist_ring_attn_i_s256_d64_v7x_i32_f32_1_alg».proof.Proof.Ghost

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
omit [FloatOps F] in
theorem bigSep_fin21' (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10
    ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

/-- Buffer `b` of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The positions at the own cells, one by one. -/
def positions (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0 ∗ atPos ER (sendCell 3 c) 0 ∅ 0 ∗ atPos ER (sendCell 4 c) 0 ∅ 0 ∗ atPos ER (sendCell 5 c) 0 ∅ 0 ∗ atPos ER (sendCell 6 c) 0 ∅ 0 ∗ atPos ER (sendCell 7 c) 0 ∅ 0 ∗ atPos ER (sendCell 8 c) 0 ∅ 0 ∗ atPos ER (sendCell 9 c) 0 ∅ 0
    ∗ atPos ER (recvCell 0 c) 0 ∅ 0 ∗ atPos ER (recvCell 1 c) 0 ∅ 0 ∗ atPos ER (recvCell 2 c) 0 ∅ 0 ∗ atPos ER (recvCell 3 c) 0 ∅ 0 ∗ atPos ER (recvCell 4 c) 0 ∅ 0 ∗ atPos ER (recvCell 5 c) 0 ∅ 0 ∗ atPos ER (recvCell 6 c) 0 ∅ 0 ∗ atPos ER (recvCell 7 c) 0 ∅ 0 ∗ atPos ER (recvCell 8 c) 0 ∅ 0 ∗ atPos ER (recvCell 9 c) 0 ∅ 0)

omit [FloatOps F] in
theorem positions_eq (c : Dev nD) : (bigSep Finset.univ fun k : Fin 21 => (atPos ER (kcell (c, k)) 0 ∅ 0 : sProp 𝕄)) = positions c := by
  rw [bigSep_fin21']; rfl

/-- What the body of device `c` starts from: the records at the names `K`, its positions, the tokens of the duties it
    pays, the idle semaphores, its launch credit, the level facts, its scratch buffer at some contents; what it owes;
    the four staging buffers at what they hold before the point. -/
def bodyPre (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (K : Dev nD × Fin 21 → ℕ) (c : Dev nD) : sProp 𝕄 :=
  iprop((records pub K ∗ positions (F := F) c ∗ payToks (F := F) c ∗ idle (F := F) c ∗ cred (tallyAt (barCell c) () 10)
      ∗ (bigSep Finset.univ fun p : Fin 10 => cred (tallyAt (recvCell p c) () (NL p))) ∗ levAts L lv ∗ ∃ f : Buf (Elt F) (sL c), sL c ↦{fullShare} f)
    ∗ (dats pub outAt m ρ 0 c).owesAt () t0_0.castSucc
    ∗ (∃ d, stg c cc0_stg0_0 ((dats pub outAt m ρ 0 c).before (0 : Fin 4) t0_0 d))
    ∗ (∃ d, stg c cc0_stg1_0 ((dats pub outAt m ρ 0 c).before (1 : Fin 4) t0_0 d))
    ∗ (∃ d, stg c cc0_stg2_0 ((dats pub outAt m ρ 0 c).before (2 : Fin 4) t0_0 d))
    ∗ (∃ d, stg c cc0_stg3_0 ((dats pub outAt m ρ 0 c).before (3 : Fin 4) t0_0 d)))

/-- What it leaves: the invariant after the point, nothing owed, the three input staging buffers as fetched and the
    result's staging buffer at `outAt c`. -/
def bodyPost (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) : sProp 𝕄 :=
  iprop(Φ₁ (F := F) c ∗ (dats pub outAt m ρ 0 c).owesAt () t0_0.succ ∗ stg c cc0_stg0_0 (stgQ m ρ c) ∗ stg c cc0_stg1_0 (stgK m ρ c)
    ∗ stg c cc0_stg2_0 (stgV m ρ c) ∗ stg c cc0_stg3_0 (outAt c))

end Cert.Ring

end
-- ==== Proof.BodyOb.lean ====
/-
  The body obligation of the pipeline's one point on device `c`, from the body lemma in the form it is stepped in:
  the obligation's precondition is regrouped into the body lemma's (the ghost state unfolded, the positions one by
  one), its postcondition is the body lemma's as it stands.
-/
import proofs.«900463_g7700000000000464_dist_ring_attn_i_s256_d64_v7x_i32_f32_1_alg».proof.Proof.BodyDefs

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one point. -/
def bodyPre' (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) : sProp 𝕄 :=
  iprop(Φ₀ pub c ∗ (dats pub outAt m ρ 0 c).owesAt () t0_0.castSucc
    ∗ (∃ d, stg c cc0_stg0_0 ((dats pub outAt m ρ 0 c).before (0 : Fin 4) t0_0 d))
    ∗ (∃ d, stg c cc0_stg1_0 ((dats pub outAt m ρ 0 c).before (1 : Fin 4) t0_0 d))
    ∗ (∃ d, stg c cc0_stg2_0 ((dats pub outAt m ρ 0 c).before (2 : Fin 4) t0_0 d))
    ∗ (∃ d, stg c cc0_stg3_0 ((dats pub outAt m ρ 0 c).before (3 : Fin 4) t0_0 d)))

set_option maxRecDepth 8000 in
/-- The pipeline's body obligation on device `c`, from the body lemma at every assignment of names and every continuation. -/
theorem body_obligation (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD)
    (hsound : ∀ (K : Dev nD × Fin 21 → ℕ) (Kt : PUnit → sProp 𝕄),
      iprop(bodyPre pub outAt m ρ K c ∗ (bodyPost pub outAt m ρ c -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_scratch0) (Memref.isWhole_whole _) cc0_scratch1 cc0_scratch2 cc0_scratch3 cc0_scratch4) Kt) :
    BodyObligation (dats (F := F) pub outAt m ρ 0 c) (defs₀ (F := F)) 𝒱₀ () Set.univ := fun t => by
  rw [fin_N0 t]
  rw [bigSep_W0, bigSep_W0]
  simp only [owns_whole_eq]
  show bodyPre' pub outAt m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2 cc0_scratch3 cc0_scratch4) (fun _ => bodyPost pub outAt m ρ c)
  unfold bodyPre' Φ₀ start ghost linear
  simp only [positions_eq]
  iintro ⟨⟨⟨⟨%K, HR, Hat, Htok⟩, Hidle, HcB, HcR, Hlev⟩, Hscr⟩, Ho, Hq, Hk, Hv, Hout⟩
  iapply (hsound K fun _ => bodyPost pub outAt m ρ c)
  unfold bodyPre
  isplitr []
  · isplitl [HR Hat Htok Hidle HcB HcR Hlev Hscr]
    · isplitl [HR]; · iexact HR
      isplitl [Hat]; · iexact Hat
      isplitl [Htok]; · iexact Htok
      isplitl [Hidle]; · iexact Hidle
      isplitl [HcB]; · iexact HcB
      isplitl [HcR]; · iexact HcR
      isplitl [Hlev]; · iexact Hlev
      iexact Hscr
    isplitl [Ho]; · iexact Ho
    isplitl [Hq]; · iexact Hq
    isplitl [Hk]; · iexact Hk
    isplitl [Hv]; · iexact Hv
    iexact Hout
  · iintro H; iexact H

/-- info: 'Cert.Ring.body_obligation' depends on axioms: [propext, Classical.choice, Quot.sound] -/
#guard_msgs in #print axioms body_obligation

end Cert.Ring

end
-- ==== Proof.Slots.lean ====
/-
  The slots of the scratch buffer [8, 4, 2, 256, 64].

  Slot [s] (s < 8) is the set of elements whose first coordinate is s; slot [0, i] (i < 4) the set of
  elements whose first two coordinates are 0 and i.  A slot is addressed through a slice of the whole buffer
  with the leading unit axes squeezed away: the element of slot [0, i] at (a, r, d) is the buffer's element
  (0, i, a, r, d), the element of slot [s] at (i, a, r, d) is the buffer's element (s, i, a, r, d), because
  squeezing keeps the row-major order and the slice adds its offsets.  So the eight slots [s] cut the
  buffer into disjoint parts, slot [0] is cut by the four slots [0, i], and each slot [0, i] by its two
  halves [0, i, kv].

  A copy of slot [0, 0] of device c into slot [0, i] of device n, or of slot [0] of c into slot [s] of n,
  moves the element at each slot index to the same slot index.  With the buffer of a device meant to hold
  at (s, i, kv, r, d) the entry (kv, r, d) of what device srcDev _ s i publishes, the copy lands the
  intended contents as soon as the two devices' tables of sources agree on the slots involved; for the
  ten links of the exchange that agreement is decided over the 32 devices.
-/
import proofs.«900463_g7700000000000464_dist_ring_attn_i_s256_d64_v7x_i32_f32_1_alg».proof.Proof.Sched
import Idealize.ShloMosaic.Lib.Pipeline.Value
import Idealize.ShloMosaic.Rules.PointsTo
import Idealize.ShloMosaic.Lib.Transfers
import Idealize.ShloMosaic.Lib.Rounds

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The slots, generically in their position -/

theorem zinb (i : Nat) (hi : i < 4) :
    ∀ a, (![0, i, 0, 0, 0] : Fin 5 → Nat) a + S1x1x2x256x64.size a ≤ S8x4x2x256x64.size a := fun a =>
  match a with
  | ⟨0, _⟩ => by show 0 + 1 ≤ 8; omega
  | ⟨1, _⟩ => by show i + 1 ≤ 4; omega
  | ⟨2, _⟩ => by show 0 + 2 ≤ 2; omega
  | ⟨3, _⟩ => by show 0 + 256 ≤ 256; omega
  | ⟨4, _⟩ => by show 0 + 64 ≤ 64; omega

theorem pinb (s : Nat) (hs : s < 8) :
    ∀ a, (![s, 0, 0, 0, 0] : Fin 5 → Nat) a + S1x4x2x256x64.size a ≤ S8x4x2x256x64.size a := fun a =>
  match a with
  | ⟨0, _⟩ => by show s + 1 ≤ 8; omega
  | ⟨1, _⟩ => by show 0 + 4 ≤ 4; omega
  | ⟨2, _⟩ => by show 0 + 2 ≤ 2; omega
  | ⟨3, _⟩ => by show 0 + 256 ≤ 256; omega
  | ⟨4, _⟩ => by show 0 + 64 ≤ 64; omega

/-- Slot [0, i]. -/
abbrev zM (i : Nat) (hi : i < 4) : Memref sig .tc .vmem S2x256x64 .bf16 :=
  (A4.slice (Rect.unit (s := S8x4x2x256x64) ![0, i, 0, 0, 0] S1x1x2x256x64.size (zinb i hi)) (fun _ => rfl)).squeeze S2x256x64 squeezes_S1x1x2x256x64_S2x256x64
/-- Slot [s]. -/
abbrev pM (s : Nat) (hs : s < 8) : Memref sig .tc .vmem S4x2x256x64 .bf16 :=
  (A4.slice (Rect.unit (s := S8x4x2x256x64) ![s, 0, 0, 0, 0] S1x4x2x256x64.size (pinb s hs)) (fun _ => rfl)).squeeze S4x2x256x64 squeezes_S1x4x2x256x64_S4x2x256x64

theorem zM0_eq : zM0 = zM 0 (by decide) := rfl
theorem zM1_eq : zM1 = zM 1 (by decide) := rfl
theorem zM2_eq : zM2 = zM 2 (by decide) := rfl
theorem zM3_eq : zM3 = zM 3 (by decide) := rfl
theorem pM0_eq : pM0 = pM 0 (by decide) := rfl
theorem pM1_eq : pM1 = pM 1 (by decide) := rfl
theorem pM2_eq : pM2 = pM 2 (by decide) := rfl
theorem pM3_eq : pM3 = pM 3 (by decide) := rfl
theorem pM4_eq : pM4 = pM 4 (by decide) := rfl
theorem pM5_eq : pM5 = pM 5 (by decide) := rfl
theorem pM6_eq : pM6 = pM 6 (by decide) := rfl
theorem pM7_eq : pM7 = pM 7 (by decide) := rfl

/-! ## Coordinates -/

/-- Squeezing [1, 1, 2, 256, 64] to [2, 256, 64] puts (a, r, d) at (0, 0, a, r, d): the row-major positions agree. -/
theorem reshape_z (y : S2x256x64.Idx) :
    ((Shape.reshapeEquiv squeezes_S1x1x2x256x64_S2x256x64.numel_eq y) 0).val = 0
    ∧ ((Shape.reshapeEquiv squeezes_S1x1x2x256x64_S2x256x64.numel_eq y) 1).val = 0
    ∧ ((Shape.reshapeEquiv squeezes_S1x1x2x256x64_S2x256x64.numel_eq y) 2).val = (y 0).val
    ∧ ((Shape.reshapeEquiv squeezes_S1x1x2x256x64_S2x256x64.numel_eq y) 3).val = (y 1).val
    ∧ ((Shape.reshapeEquiv squeezes_S1x1x2x256x64_S2x256x64.numel_eq y) 4).val = (y 2).val := by
  generalize hk : Shape.reshapeEquiv squeezes_S1x1x2x256x64_S2x256x64.numel_eq y = k
  have hrm : (S1x1x2x256x64.rowMajor k).val = (S2x256x64.rowMajor y).val := by
    rw [← hk]; exact Shape.rowMajor_reshapeEquiv _ y
  have e5 : (S1x1x2x256x64.rowMajor k).val
      = ((((k 0).val * 1 + (k 1).val) * 2 + (k 2).val) * 256 + (k 3).val) * 64 + (k 4).val := Shape.rowMajor_val_five k
  have e3 : (S2x256x64.rowMajor y).val = ((y 0).val * 256 + (y 1).val) * 64 + (y 2).val := Shape.rowMajor_val_three y
  have b0 : (k 0).val < 1 := (k 0).isLt
  have b1 : (k 1).val < 1 := (k 1).isLt
  have b2 : (k 2).val < 2 := (k 2).isLt
  have b3 : (k 3).val < 256 := (k 3).isLt
  have b4 : (k 4).val < 64 := (k 4).isLt
  have c0 : (y 0).val < 2 := (y 0).isLt
  have c1 : (y 1).val < 256 := (y 1).isLt
  have c2 : (y 2).val < 64 := (y 2).isLt
  omega

/-- Squeezing [1, 4, 2, 256, 64] to [4, 2, 256, 64] puts (i, a, r, d) at (0, i, a, r, d). -/
theorem reshape_p (y : S4x2x256x64.Idx) :
    ((Shape.reshapeEquiv squeezes_S1x4x2x256x64_S4x2x256x64.numel_eq y) 0).val = 0
    ∧ ((Shape.reshapeEquiv squeezes_S1x4x2x256x64_S4x2x256x64.numel_eq y) 1).val = (y 0).val
    ∧ ((Shape.reshapeEquiv squeezes_S1x4x2x256x64_S4x2x256x64.numel_eq y) 2).val = (y 1).val
    ∧ ((Shape.reshapeEquiv squeezes_S1x4x2x256x64_S4x2x256x64.numel_eq y) 3).val = (y 2).val
    ∧ ((Shape.reshapeEquiv squeezes_S1x4x2x256x64_S4x2x256x64.numel_eq y) 4).val = (y 3).val := by
  generalize hk : Shape.reshapeEquiv squeezes_S1x4x2x256x64_S4x2x256x64.numel_eq y = k
  have hrm : (S1x4x2x256x64.rowMajor k).val = (S4x2x256x64.rowMajor y).val := by
    rw [← hk]; exact Shape.rowMajor_reshapeEquiv _ y
  have e5 : (S1x4x2x256x64.rowMajor k).val
      = ((((k 0).val * 4 + (k 1).val) * 2 + (k 2).val) * 256 + (k 3).val) * 64 + (k 4).val := Shape.rowMajor_val_five k
  have e4 : (S4x2x256x64.rowMajor y).val = (((y 0).val * 2 + (y 1).val) * 256 + (y 2).val) * 64 + (y 3).val := Shape.rowMajor_val_four y
  have b0 : (k 0).val < 1 := (k 0).isLt
  have b1 : (k 1).val < 4 := (k 1).isLt
  have b2 : (k 2).val < 2 := (k 2).isLt
  have b3 : (k 3).val < 256 := (k 3).isLt
  have b4 : (k 4).val < 64 := (k 4).isLt
  have c0 : (y 0).val < 4 := (y 0).isLt
  have c1 : (y 1).val < 2 := (y 1).isLt
  have c2 : (y 2).val < 256 := (y 2).isLt
  have c3 : (y 3).val < 64 := (y 3).isLt
  omega

/-- The element of slot [0, i] at (a, r, d) is the buffer's element (0, i, a, r, d). -/
theorem zM_emb (i : Nat) (hi : i < 4) (y : S2x256x64.Idx) :
    ((zM i hi).view.emb y 0).val = 0 ∧ ((zM i hi).view.emb y 1).val = i
    ∧ ((zM i hi).view.emb y 2).val = (y 0).val ∧ ((zM i hi).view.emb y 3).val = (y 1).val
    ∧ ((zM i hi).view.emb y 4).val = (y 2).val := by
  obtain ⟨h0, h1, h2, h3, h4⟩ := reshape_z y
  have k0 : ((zM i hi).view.emb y 0).val = 0 + 1 * ((Shape.reshapeEquiv squeezes_S1x1x2x256x64_S2x256x64.numel_eq y) 0).val := rfl
  have k1 : ((zM i hi).view.emb y 1).val = i + 1 * ((Shape.reshapeEquiv squeezes_S1x1x2x256x64_S2x256x64.numel_eq y) 1).val := rfl
  have k2 : ((zM i hi).view.emb y 2).val = 0 + 1 * ((Shape.reshapeEquiv squeezes_S1x1x2x256x64_S2x256x64.numel_eq y) 2).val := rfl
  have k3 : ((zM i hi).view.emb y 3).val = 0 + 1 * ((Shape.reshapeEquiv squeezes_S1x1x2x256x64_S2x256x64.numel_eq y) 3).val := rfl
  have k4 : ((zM i hi).view.emb y 4).val = 0 + 1 * ((Shape.reshapeEquiv squeezes_S1x1x2x256x64_S2x256x64.numel_eq y) 4).val := rfl
  rw [k0, k1, k2, k3, k4, h0, h1, h2, h3, h4]
  omega

/-- The element of slot [s] at (i, a, r, d) is the buffer's element (s, i, a, r, d). -/
theorem pM_emb (s : Nat) (hs : s < 8) (y : S4x2x256x64.Idx) :
    ((pM s hs).view.emb y 0).val = s ∧ ((pM s hs).view.emb y 1).val = (y 0).val
    ∧ ((pM s hs).view.emb y 2).val = (y 1).val ∧ ((pM s hs).view.emb y 3).val = (y 2).val
    ∧ ((pM s hs).view.emb y 4).val = (y 3).val := by
  obtain ⟨h0, h1, h2, h3, h4⟩ := reshape_p y
  have k0 : ((pM s hs).view.emb y 0).val = s + 1 * ((Shape.reshapeEquiv squeezes_S1x4x2x256x64_S4x2x256x64.numel_eq y) 0).val := rfl
  have k1 : ((pM s hs).view.emb y 1).val = 0 + 1 * ((Shape.reshapeEquiv squeezes_S1x4x2x256x64_S4x2x256x64.numel_eq y) 1).val := rfl
  have k2 : ((pM s hs).view.emb y 2).val = 0 + 1 * ((Shape.reshapeEquiv squeezes_S1x4x2x256x64_S4x2x256x64.numel_eq y) 2).val := rfl
  have k3 : ((pM s hs).view.emb y 3).val = 0 + 1 * ((Shape.reshapeEquiv squeezes_S1x4x2x256x64_S4x2x256x64.numel_eq y) 3).val := rfl
  have k4 : ((pM s hs).view.emb y 4).val = 0 + 1 * ((Shape.reshapeEquiv squeezes_S1x4x2x256x64_S4x2x256x64.numel_eq y) 4).val := rfl
  rw [k0, k1, k2, k3, k4, h0, h1, h2, h3, h4]
  omega

theorem zM0_emb (y : S2x256x64.Idx) : (zM0.view.emb y 0).val = 0 ∧ (zM0.view.emb y 1).val = 0 ∧ (zM0.view.emb y 2).val = (y 0).val ∧ (zM0.view.emb y 3).val = (y 1).val ∧ (zM0.view.emb y 4).val = (y 2).val := zM_emb 0 (by decide) y
theorem zM1_emb (y : S2x256x64.Idx) : (zM1.view.emb y 0).val = 0 ∧ (zM1.view.emb y 1).val = 1 ∧ (zM1.view.emb y 2).val = (y 0).val ∧ (zM1.view.emb y 3).val = (y 1).val ∧ (zM1.view.emb y 4).val = (y 2).val := zM_emb 1 (by decide) y
theorem zM2_emb (y : S2x256x64.Idx) : (zM2.view.emb y 0).val = 0 ∧ (zM2.view.emb y 1).val = 2 ∧ (zM2.view.emb y 2).val = (y 0).val ∧ (zM2.view.emb y 3).val = (y 1).val ∧ (zM2.view.emb y 4).val = (y 2).val := zM_emb 2 (by decide) y
theorem zM3_emb (y : S2x256x64.Idx) : (zM3.view.emb y 0).val = 0 ∧ (zM3.view.emb y 1).val = 3 ∧ (zM3.view.emb y 2).val = (y 0).val ∧ (zM3.view.emb y 3).val = (y 1).val ∧ (zM3.view.emb y 4).val = (y 2).val := zM_emb 3 (by decide) y
theorem pM0_emb (y : S4x2x256x64.Idx) : (pM0.view.emb y 0).val = 0 ∧ (pM0.view.emb y 1).val = (y 0).val ∧ (pM0.view.emb y 2).val = (y 1).val ∧ (pM0.view.emb y 3).val = (y 2).val ∧ (pM0.view.emb y 4).val = (y 3).val := pM_emb 0 (by decide) y
theorem pM1_emb (y : S4x2x256x64.Idx) : (pM1.view.emb y 0).val = 1 ∧ (pM1.view.emb y 1).val = (y 0).val ∧ (pM1.view.emb y 2).val = (y 1).val ∧ (pM1.view.emb y 3).val = (y 2).val ∧ (pM1.view.emb y 4).val = (y 3).val := pM_emb 1 (by decide) y
theorem pM2_emb (y : S4x2x256x64.Idx) : (pM2.view.emb y 0).val = 2 ∧ (pM2.view.emb y 1).val = (y 0).val ∧ (pM2.view.emb y 2).val = (y 1).val ∧ (pM2.view.emb y 3).val = (y 2).val ∧ (pM2.view.emb y 4).val = (y 3).val := pM_emb 2 (by decide) y
theorem pM3_emb (y : S4x2x256x64.Idx) : (pM3.view.emb y 0).val = 3 ∧ (pM3.view.emb y 1).val = (y 0).val ∧ (pM3.view.emb y 2).val = (y 1).val ∧ (pM3.view.emb y 3).val = (y 2).val ∧ (pM3.view.emb y 4).val = (y 3).val := pM_emb 3 (by decide) y
theorem pM4_emb (y : S4x2x256x64.Idx) : (pM4.view.emb y 0).val = 4 ∧ (pM4.view.emb y 1).val = (y 0).val ∧ (pM4.view.emb y 2).val = (y 1).val ∧ (pM4.view.emb y 3).val = (y 2).val ∧ (pM4.view.emb y 4).val = (y 3).val := pM_emb 4 (by decide) y
theorem pM5_emb (y : S4x2x256x64.Idx) : (pM5.view.emb y 0).val = 5 ∧ (pM5.view.emb y 1).val = (y 0).val ∧ (pM5.view.emb y 2).val = (y 1).val ∧ (pM5.view.emb y 3).val = (y 2).val ∧ (pM5.view.emb y 4).val = (y 3).val := pM_emb 5 (by decide) y
theorem pM6_emb (y : S4x2x256x64.Idx) : (pM6.view.emb y 0).val = 6 ∧ (pM6.view.emb y 1).val = (y 0).val ∧ (pM6.view.emb y 2).val = (y 1).val ∧ (pM6.view.emb y 3).val = (y 2).val ∧ (pM6.view.emb y 4).val = (y 3).val := pM_emb 6 (by decide) y
theorem pM7_emb (y : S4x2x256x64.Idx) : (pM7.view.emb y 0).val = 7 ∧ (pM7.view.emb y 1).val = (y 0).val ∧ (pM7.view.emb y 2).val = (y 1).val ∧ (pM7.view.emb y 3).val = (y 2).val ∧ (pM7.view.emb y 4).val = (y 3).val := pM_emb 7 (by decide) y

/-! ## Membership -/

/-- A slot's elements are those of its rectangle in the buffer. -/
theorem zM_set (i : Nat) (hi : i < 4) :
    (zM i hi).view.set = (Rect.unit (s := S8x4x2x256x64) ![0, i, 0, 0, 0] S1x1x2x256x64.size (zinb i hi)).set :=
  (View.set_reshape _ _).trans (View.set_slice_whole _ _)
theorem pM_set (s : Nat) (hs : s < 8) :
    (pM s hs).view.set = (Rect.unit (s := S8x4x2x256x64) ![s, 0, 0, 0, 0] S1x4x2x256x64.size (pinb s hs)).set :=
  (View.set_reshape _ _).trans (View.set_slice_whole _ _)

/-- Slot [0, i] is the set of elements whose first two coordinates are 0 and i. -/
theorem mem_zM (i : Nat) (hi : i < 4) (idx : S8x4x2x256x64.Idx) :
    idx ∈ (zM i hi).view.set ↔ (idx 0).val = 0 ∧ (idx 1).val = i := by
  rw [zM_set, Rect.mem_set_unit]
  have c2 : (idx 2).val < 2 := (idx 2).isLt
  have c3 : (idx 3).val < 256 := (idx 3).isLt
  have c4 : (idx 4).val < 64 := (idx 4).isLt
  constructor
  · intro h
    have h0 : 0 ≤ (idx 0).val ∧ (idx 0).val < 0 + 1 := h 0
    have h1 : i ≤ (idx 1).val ∧ (idx 1).val < i + 1 := h 1
    omega
  · rintro ⟨h0, h1⟩ a
    match a with
    | ⟨0, _⟩ => show 0 ≤ (idx 0).val ∧ (idx 0).val < 0 + 1; omega
    | ⟨1, _⟩ => show i ≤ (idx 1).val ∧ (idx 1).val < i + 1; omega
    | ⟨2, _⟩ => show 0 ≤ (idx 2).val ∧ (idx 2).val < 0 + 2; omega
    | ⟨3, _⟩ => show 0 ≤ (idx 3).val ∧ (idx 3).val < 0 + 256; omega
    | ⟨4, _⟩ => show 0 ≤ (idx 4).val ∧ (idx 4).val < 0 + 64; omega

/-- Slot [s] is the set of elements whose first coordinate is s. -/
theorem mem_pM (s : Nat) (hs : s < 8) (idx : S8x4x2x256x64.Idx) :
    idx ∈ (pM s hs).view.set ↔ (idx 0).val = s := by
  rw [pM_set, Rect.mem_set_unit]
  have c1 : (idx 1).val < 4 := (idx 1).isLt
  have c2 : (idx 2).val < 2 := (idx 2).isLt
  have c3 : (idx 3).val < 256 := (idx 3).isLt
  have c4 : (idx 4).val < 64 := (idx 4).isLt
  constructor
  · intro h
    have h0 : s ≤ (idx 0).val ∧ (idx 0).val < s + 1 := h 0
    omega
  · intro h0 a
    match a with
    | ⟨0, _⟩ => show s ≤ (idx 0).val ∧ (idx 0).val < s + 1; omega
    | ⟨1, _⟩ => show 0 ≤ (idx 1).val ∧ (idx 1).val < 0 + 4; omega
    | ⟨2, _⟩ => show 0 ≤ (idx 2).val ∧ (idx 2).val < 0 + 2; omega
    | ⟨3, _⟩ => show 0 ≤ (idx 3).val ∧ (idx 3).val < 0 + 256; omega
    | ⟨4, _⟩ => show 0 ≤ (idx 4).val ∧ (idx 4).val < 0 + 64; omega

theorem mem_zM0 (idx : S8x4x2x256x64.Idx) : idx ∈ zM0.view.set ↔ (idx 0).val = 0 ∧ (idx 1).val = 0 := mem_zM 0 (by decide) idx
theorem mem_zM1 (idx : S8x4x2x256x64.Idx) : idx ∈ zM1.view.set ↔ (idx 0).val = 0 ∧ (idx 1).val = 1 := mem_zM 1 (by decide) idx
theorem mem_zM2 (idx : S8x4x2x256x64.Idx) : idx ∈ zM2.view.set ↔ (idx 0).val = 0 ∧ (idx 1).val = 2 := mem_zM 2 (by decide) idx
theorem mem_zM3 (idx : S8x4x2x256x64.Idx) : idx ∈ zM3.view.set ↔ (idx 0).val = 0 ∧ (idx 1).val = 3 := mem_zM 3 (by decide) idx
theorem mem_pM0 (idx : S8x4x2x256x64.Idx) : idx ∈ pM0.view.set ↔ (idx 0).val = 0 := mem_pM 0 (by decide) idx
theorem mem_pM1 (idx : S8x4x2x256x64.Idx) : idx ∈ pM1.view.set ↔ (idx 0).val = 1 := mem_pM 1 (by decide) idx
theorem mem_pM2 (idx : S8x4x2x256x64.Idx) : idx ∈ pM2.view.set ↔ (idx 0).val = 2 := mem_pM 2 (by decide) idx
theorem mem_pM3 (idx : S8x4x2x256x64.Idx) : idx ∈ pM3.view.set ↔ (idx 0).val = 3 := mem_pM 3 (by decide) idx
theorem mem_pM4 (idx : S8x4x2x256x64.Idx) : idx ∈ pM4.view.set ↔ (idx 0).val = 4 := mem_pM 4 (by decide) idx
theorem mem_pM5 (idx : S8x4x2x256x64.Idx) : idx ∈ pM5.view.set ↔ (idx 0).val = 5 := mem_pM 5 (by decide) idx
theorem mem_pM6 (idx : S8x4x2x256x64.Idx) : idx ∈ pM6.view.set ↔ (idx 0).val = 6 := mem_pM 6 (by decide) idx
theorem mem_pM7 (idx : S8x4x2x256x64.Idx) : idx ∈ pM7.view.set ↔ (idx 0).val = 7 := mem_pM 7 (by decide) idx

/-! ## The halves [0, i, kv] of a slot, and the rectangles the body loads and stores through -/

/-- The keys' half [0, 0, 0] and the values' half [0, 0, 1] of slot [0, 0], as the body's two stores write them. -/
abbrev kSet (c : Dev nD) : Finset (Idx (sL c)) := (A4.access (Rect.unit (s := S8x4x2x256x64) ![0, 0, 0, 0, 0] S1x1x1x256x64.size inb_S8x4x2x256x64_S1x1x1x256x64_0_0_0_0_0)).set
abbrev vSet (c : Dev nD) : Finset (Idx (sL c)) := (A4.access (Rect.unit (s := S8x4x2x256x64) ![0, 0, 1, 0, 0] S1x1x1x256x64.size inb_S8x4x2x256x64_S1x1x1x256x64_0_0_1_0_0)).set

theorem srcDev_self : ∀ c : Dev nD, srcDev c 0 0 = c := by decide +kernel

/-- The half [0, i, kv] is the set of elements whose first three coordinates are 0, i and kv. -/
theorem mem_half (i kv : Nat) (inb : ∀ a, (![0, i, kv, 0, 0] : Fin 5 → Nat) a + S1x1x1x256x64.size a ≤ S8x4x2x256x64.size a)
    (idx : S8x4x2x256x64.Idx) :
    idx ∈ (A4.access (Rect.unit (s := S8x4x2x256x64) ![0, i, kv, 0, 0] S1x1x1x256x64.size inb)).set
      ↔ (idx 0).val = 0 ∧ (idx 1).val = i ∧ (idx 2).val = kv := by
  rw [View.set_slice_whole, Rect.mem_set_unit]
  have c3 : (idx 3).val < 256 := (idx 3).isLt
  have c4 : (idx 4).val < 64 := (idx 4).isLt
  constructor
  · intro h
    have h0 : 0 ≤ (idx 0).val ∧ (idx 0).val < 0 + 1 := h 0
    have h1 : i ≤ (idx 1).val ∧ (idx 1).val < i + 1 := h 1
    have h2 : kv ≤ (idx 2).val ∧ (idx 2).val < kv + 1 := h 2
    omega
  · rintro ⟨h0, h1, h2⟩ a
    match a with
    | ⟨0, _⟩ => show 0 ≤ (idx 0).val ∧ (idx 0).val < 0 + 1; omega
    | ⟨1, _⟩ => show i ≤ (idx 1).val ∧ (idx 1).val < i + 1; omega
    | ⟨2, _⟩ => show kv ≤ (idx 2).val ∧ (idx 2).val < kv + 1; omega
    | ⟨3, _⟩ => show 0 ≤ (idx 3).val ∧ (idx 3).val < 0 + 256; omega
    | ⟨4, _⟩ => show 0 ≤ (idx 4).val ∧ (idx 4).val < 0 + 64; omega

theorem mem_kSet (c : Dev nD) (idx : S8x4x2x256x64.Idx) : idx ∈ kSet c ↔ (idx 0).val = 0 ∧ (idx 1).val = 0 ∧ (idx 2).val = 0 := mem_half 0 0 _ idx
theorem mem_vSet (c : Dev nD) (idx : S8x4x2x256x64.Idx) : idx ∈ vSet c ↔ (idx 0).val = 0 ∧ (idx 1).val = 0 ∧ (idx 2).val = 1 := mem_half 0 1 _ idx

/-- The element of the half [0, i, kv] at (0, 0, 0, r, d) is the buffer's element (0, i, kv, r, d). -/
theorem half_emb (i kv : Nat) (inb : ∀ a, (![0, i, kv, 0, 0] : Fin 5 → Nat) a + S1x1x1x256x64.size a ≤ S8x4x2x256x64.size a)
    (x : S1x1x1x256x64.Idx) :
    ((A4.access (Rect.unit (s := S8x4x2x256x64) ![0, i, kv, 0, 0] S1x1x1x256x64.size inb)).emb x 0).val = 0
    ∧ ((A4.access (Rect.unit (s := S8x4x2x256x64) ![0, i, kv, 0, 0] S1x1x1x256x64.size inb)).emb x 1).val = i
    ∧ ((A4.access (Rect.unit (s := S8x4x2x256x64) ![0, i, kv, 0, 0] S1x1x1x256x64.size inb)).emb x 2).val = kv
    ∧ ((A4.access (Rect.unit (s := S8x4x2x256x64) ![0, i, kv, 0, 0] S1x1x1x256x64.size inb)).emb x 3).val = (x 3).val
    ∧ ((A4.access (Rect.unit (s := S8x4x2x256x64) ![0, i, kv, 0, 0] S1x1x1x256x64.size inb)).emb x 4).val = (x 4).val := by
  have b0 : (x 0).val < 1 := (x 0).isLt
  have b1 : (x 1).val < 1 := (x 1).isLt
  have b2 : (x 2).val < 1 := (x 2).isLt
  have k0 : ((A4.access (Rect.unit (s := S8x4x2x256x64) ![0, i, kv, 0, 0] S1x1x1x256x64.size inb)).emb x 0).val = 0 + 1 * (x 0).val := rfl
  have k1 : ((A4.access (Rect.unit (s := S8x4x2x256x64) ![0, i, kv, 0, 0] S1x1x1x256x64.size inb)).emb x 1).val = i + 1 * (x 1).val := rfl
  have k2 : ((A4.access (Rect.unit (s := S8x4x2x256x64) ![0, i, kv, 0, 0] S1x1x1x256x64.size inb)).emb x 2).val = kv + 1 * (x 2).val := rfl
  have k3 : ((A4.access (Rect.unit (s := S8x4x2x256x64) ![0, i, kv, 0, 0] S1x1x1x256x64.size inb)).emb x 3).val = 0 + 1 * (x 3).val := rfl
  have k4 : ((A4.access (Rect.unit (s := S8x4x2x256x64) ![0, i, kv, 0, 0] S1x1x1x256x64.size inb)).emb x 4).val = 0 + 1 * (x 4).val := rfl
  rw [k0, k1, k2, k3, k4]
  omega

/-- Slot [0, 0] is its two halves. -/
theorem kv_union (c : Dev nD) : (zM0 : Memref sig .tc .vmem S2x256x64 .bf16).view.set = kSet c ∪ vSet c := by
  refine Finset.ext fun idx => ?_
  have h2 : (idx 2).val < 2 := (idx 2).isLt
  rw [Finset.mem_union]
  constructor
  · intro h
    have a := (mem_zM0 idx).mp h
    by_cases e : (idx 2).val = 0
    · exact Or.inl ((mem_kSet c idx).mpr ⟨a.1, a.2, e⟩)
    · exact Or.inr ((mem_vSet c idx).mpr ⟨a.1, a.2, by omega⟩)
  · rintro (h | h)
    · have a := (mem_kSet c idx).mp h; exact (mem_zM0 idx).mpr ⟨a.1, a.2.1⟩
    · have a := (mem_vSet c idx).mp h; exact (mem_zM0 idx).mpr ⟨a.1, a.2.1⟩

theorem kv_disjoint (c : Dev nD) : Disjoint (kSet c) (vSet c) := by
  refine Finset.disjoint_left.mpr fun idx h1 h2 => ?_
  have a := (mem_kSet c idx).mp h1
  have b := (mem_vSet c idx).mp h2
  omega

/-- A store through the rectangle [0, i, kv, :, :] writes inside slot [0, i]: the form a store's rule asks. -/
theorem store_half_subset (i kv : Nat) (hi : i < 4)
    (inb : ∀ a, (![0, i, kv, 0, 0] : Fin 5 → Nat) a + S1x1x1x256x64.size a ≤ S8x4x2x256x64.size a) :
    (A4.access (Rect.unit (s := S8x4x2x256x64) ![0, i, kv, 0, 0] S1x1x1x256x64.size inb)).setOn Finset.univ ⊆ (zM i hi).view.set := by
  intro idx h
  have a := (mem_half i kv inb idx).mp h
  exact (mem_zM i hi idx).mpr ⟨a.1, a.2.1⟩

theorem store_k_subset (c : Dev nD) :
    (A4.access (Rect.unit (s := S8x4x2x256x64) ![0, 0, 0, 0, 0] S1x1x1x256x64.size inb_S8x4x2x256x64_S1x1x1x256x64_0_0_0_0_0)).setOn Finset.univ ⊆ kSet c :=
  Finset.Subset.refl _
theorem store_v_subset (c : Dev nD) :
    (A4.access (Rect.unit (s := S8x4x2x256x64) ![0, 0, 1, 0, 0] S1x1x1x256x64.size inb_S8x4x2x256x64_S1x1x1x256x64_0_0_1_0_0)).setOn Finset.univ ⊆ vSet c :=
  Finset.Subset.refl _

/-- What a load through the whole buffer at a rectangle reads is the rectangle's elements. -/
theorem setOn_whole_rect (r : Rect S8x4x2x256x64) : A4.view.setOn r.toLoadRect.set = r.set := Finset.map_refl

/-- An access through the whole buffer at a rectangle goes through the rectangle's elements. -/
theorem access_set (r : Rect S8x4x2x256x64) : (A4.access r).set = r.set := View.set_slice_whole _ _

/-- A load at the rectangle [0, i, kv, :, :] reads inside slot [0, i]: the form a load's rule asks. -/
theorem load_half_subset (i kv : Nat) (hi : i < 4)
    (inb : ∀ a, (![0, i, kv, 0, 0] : Fin 5 → Nat) a + S1x1x1x256x64.size a ≤ S8x4x2x256x64.size a) :
    A4.view.setOn (Rect.unit (s := S8x4x2x256x64) ![0, i, kv, 0, 0] S1x1x1x256x64.size inb).toLoadRect.set ⊆ (zM i hi).view.set := by
  rw [setOn_whole_rect, ← access_set (Rect.unit (s := S8x4x2x256x64) ![0, i, kv, 0, 0] S1x1x1x256x64.size inb)]
  exact store_half_subset i kv hi inb

theorem load_k_subset (c : Dev nD) :
    A4.view.setOn (Rect.unit (s := S8x4x2x256x64) ![0, 0, 0, 0, 0] S1x1x1x256x64.size inb_S8x4x2x256x64_S1x1x1x256x64_0_0_0_0_0).toLoadRect.set ⊆ kSet c := by
  rw [setOn_whole_rect, ← access_set (Rect.unit (s := S8x4x2x256x64) ![0, 0, 0, 0, 0] S1x1x1x256x64.size inb_S8x4x2x256x64_S1x1x1x256x64_0_0_0_0_0)]
theorem load_v_subset (c : Dev nD) :
    A4.view.setOn (Rect.unit (s := S8x4x2x256x64) ![0, 0, 1, 0, 0] S1x1x1x256x64.size inb_S8x4x2x256x64_S1x1x1x256x64_0_0_1_0_0).toLoadRect.set ⊆ vSet c := by
  rw [setOn_whole_rect, ← access_set (Rect.unit (s := S8x4x2x256x64) ![0, 0, 1, 0, 0] S1x1x1x256x64.size inb_S8x4x2x256x64_S1x1x1x256x64_0_0_1_0_0)]

/-- A load at the rectangle [s, :, kv, :, :] reads inside slot [s]. -/
theorem load_p_subset (s kv : Nat) (hs : s < 8)
    (inb : ∀ a, (![s, 0, kv, 0, 0] : Fin 5 → Nat) a + S1x4x1x256x64.size a ≤ S8x4x2x256x64.size a) :
    A4.view.setOn (Rect.unit (s := S8x4x2x256x64) ![s, 0, kv, 0, 0] S1x4x1x256x64.size inb).toLoadRect.set ⊆ (pM s hs).view.set := by
  rw [setOn_whole_rect]
  intro idx h
  have h0 : s ≤ (idx 0).val ∧ (idx 0).val < s + 1 := (Rect.mem_set_unit.mp h) 0
  exact (mem_pM s hs idx).mpr (by omega)

/-! ## The landings -/

/-- The sources of a device's own slots, and of the slots its copies land in, over the 32 devices. -/
theorem srcDev_link0 : ∀ c : Dev nD, srcDev (peer 0 c) 0 3 = srcDev c 0 0 := by decide +kernel
theorem srcDev_link1 : ∀ c : Dev nD, srcDev (peer 1 c) 0 2 = srcDev c 0 0 := by decide +kernel
theorem srcDev_link2 : ∀ c : Dev nD, srcDev (peer 2 c) 0 1 = srcDev c 0 0 := by decide +kernel
theorem srcDev_link3 : ∀ (c : Dev nD) (i : Fin 4), srcDev (peer 3 c) 7 i.val = srcDev c 0 i.val := by decide +kernel
theorem srcDev_link4 : ∀ (c : Dev nD) (i : Fin 4), srcDev (peer 4 c) 6 i.val = srcDev c 0 i.val := by decide +kernel
theorem srcDev_link5 : ∀ (c : Dev nD) (i : Fin 4), srcDev (peer 5 c) 5 i.val = srcDev c 0 i.val := by decide +kernel
theorem srcDev_link6 : ∀ (c : Dev nD) (i : Fin 4), srcDev (peer 6 c) 4 i.val = srcDev c 0 i.val := by decide +kernel
theorem srcDev_link7 : ∀ (c : Dev nD) (i : Fin 4), srcDev (peer 7 c) 3 i.val = srcDev c 0 i.val := by decide +kernel
theorem srcDev_link8 : ∀ (c : Dev nD) (i : Fin 4), srcDev (peer 8 c) 2 i.val = srcDev c 0 i.val := by decide +kernel
theorem srcDev_link9 : ∀ (c : Dev nD) (i : Fin 4), srcDev (peer 9 c) 1 i.val = srcDev c 0 i.val := by decide +kernel

theorem lt_0_4 : (0 : ℕ) < 4 := by decide
theorem lt_1_4 : (1 : ℕ) < 4 := by decide
theorem lt_2_4 : (2 : ℕ) < 4 := by decide
theorem lt_3_4 : (3 : ℕ) < 4 := by decide
theorem lt_0_8 : (0 : ℕ) < 8 := by decide
theorem lt_1_8 : (1 : ℕ) < 8 := by decide
theorem lt_2_8 : (2 : ℕ) < 8 := by decide
theorem lt_3_8 : (3 : ℕ) < 8 := by decide
theorem lt_4_8 : (4 : ℕ) < 8 := by decide
theorem lt_5_8 : (5 : ℕ) < 8 := by decide
theorem lt_6_8 : (6 : ℕ) < 8 := by decide
theorem lt_7_8 : (7 : ℕ) < 8 := by decide

section Landings
variable {F : FTy → Type} [FloatOps F]

/-- Slot [0, 0] of device c copied into slot [0, i] of device n lands n's intended contents there, when n's
    slot [0, i] is meant to hold what c's slot [0, 0] holds. -/
theorem landing_zslot (pub : Dev nD → Nat → Nat → Nat → Elt F .bf16) (c n : Dev nD) (i : Nat) (hi : i < 4)
    (hdev : srcDev n 0 i = srcDev c 0 0) (fd : Buf (Elt F) (sL n)) :
    ∀ j ∈ (zM i hi).view.set,
      (zM i hi).view.write (Elt F) fd ((zM 0 lt_0_4).view.read (Elt F) (scr pub c)) Finset.univ j = scr pub n j := by
  intro j hj
  obtain ⟨y, rfl⟩ := View.exists_emb_of_mem_set _ hj
  rw [View.write_emb_of_mem _ _ (Finset.mem_univ y), View.read_apply, cast_cast, cast_eq]
  obtain ⟨a0, a1, a2, a3, a4⟩ := zM_emb 0 lt_0_4 y
  obtain ⟨b0, b1, b2, b3, b4⟩ := zM_emb i hi y
  unfold scr
  simp only []
  rw [a0, a1, a2, a3, a4, b0, b1, b2, b3, b4, hdev]

/-- Slot [0] of device c copied into slot [s] of device n lands n's intended contents there, when n's slots
    [s, i] are meant to hold what c's slots [0, i] hold. -/
theorem landing_pslot (pub : Dev nD → Nat → Nat → Nat → Elt F .bf16) (c n : Dev nD) (s : Nat) (hs : s < 8)
    (hdev : ∀ i : Fin 4, srcDev n s i.val = srcDev c 0 i.val) (fd : Buf (Elt F) (sL n)) :
    ∀ j ∈ (pM s hs).view.set,
      (pM s hs).view.write (Elt F) fd ((pM 0 lt_0_8).view.read (Elt F) (scr pub c)) Finset.univ j = scr pub n j := by
  intro j hj
  obtain ⟨y, rfl⟩ := View.exists_emb_of_mem_set _ hj
  rw [View.write_emb_of_mem _ _ (Finset.mem_univ y), View.read_apply, cast_cast, cast_eq]
  obtain ⟨a0, a1, a2, a3, a4⟩ := pM_emb 0 lt_0_8 y
  obtain ⟨b0, b1, b2, b3, b4⟩ := pM_emb s hs y
  unfold scr
  simp only []
  rw [a0, a1, a2, a3, a4, b0, b1, b2, b3, b4, hdev (y 0)]

end Landings

section Links
variable {F : FTy → Type} [FloatOps F]
local notation "𝕄" => MT nD τ sig Unit (Elt F) ℕ UU ℕ

/-- Link 0: slot [0, 0] of c lands in slot [0, 3] of the device at the end of the link, as the receive cell's payload. -/
theorem landing_0 (pub : Dev nD → Nat → Nat → Nat → Elt F .bf16) (c : Dev nD) (fd : Buf (Elt F) (sL (peer 0 c))) :
    (sL (peer 0 c) ↦[dstSet (peer 0 c) 0]{fullShare} ((zM3 : Memref sig .tc .vmem S2x256x64 .bf16).view.write (Elt F) fd ((zM0 : Memref sig .tc .vmem S2x256x64 .bf16).view.read (Elt F) (scr pub c)) Finset.univ) : sProp 𝕄)
      ⊢ recvPay pub 0 (peer 0 c) :=
  Entails.of_eq (pointsTo_congr (landing_zslot pub c (peer 0 c) 3 lt_3_4 (srcDev_link0 c) fd))

/-- Link 1: slot [0, 0] of c lands in slot [0, 2] of the device at the end of the link, as the receive cell's payload. -/
theorem landing_1 (pub : Dev nD → Nat → Nat → Nat → Elt F .bf16) (c : Dev nD) (fd : Buf (Elt F) (sL (peer 1 c))) :
    (sL (peer 1 c) ↦[dstSet (peer 1 c) 1]{fullShare} ((zM2 : Memref sig .tc .vmem S2x256x64 .bf16).view.write (Elt F) fd ((zM0 : Memref sig .tc .vmem S2x256x64 .bf16).view.read (Elt F) (scr pub c)) Finset.univ) : sProp 𝕄)
      ⊢ recvPay pub 1 (peer 1 c) :=
  Entails.of_eq (pointsTo_congr (landing_zslot pub c (peer 1 c) 2 lt_2_4 (srcDev_link1 c) fd))

/-- Link 2: slot [0, 0] of c lands in slot [0, 1] of the device at the end of the link, as the receive cell's payload. -/
theorem landing_2 (pub : Dev nD → Nat → Nat → Nat → Elt F .bf16) (c : Dev nD) (fd : Buf (Elt F) (sL (peer 2 c))) :
    (sL (peer 2 c) ↦[dstSet (peer 2 c) 2]{fullShare} ((zM1 : Memref sig .tc .vmem S2x256x64 .bf16).view.write (Elt F) fd ((zM0 : Memref sig .tc .vmem S2x256x64 .bf16).view.read (Elt F) (scr pub c)) Finset.univ) : sProp 𝕄)
      ⊢ recvPay pub 2 (peer 2 c) :=
  Entails.of_eq (pointsTo_congr (landing_zslot pub c (peer 2 c) 1 lt_1_4 (srcDev_link2 c) fd))

/-- Link 3: slot [0] of c lands in slot [7] of the device at the end of the link, as the receive cell's payload. -/
theorem landing_3 (pub : Dev nD → Nat → Nat → Nat → Elt F .bf16) (c : Dev nD) (fd : Buf (Elt F) (sL (peer 3 c))) :
    (sL (peer 3 c) ↦[dstSet (peer 3 c) 3]{fullShare} ((pM7 : Memref sig .tc .vmem S4x2x256x64 .bf16).view.write (Elt F) fd ((pM0 : Memref sig .tc .vmem S4x2x256x64 .bf16).view.read (Elt F) (scr pub c)) Finset.univ) : sProp 𝕄)
      ⊢ recvPay pub 3 (peer 3 c) :=
  Entails.of_eq (pointsTo_congr (landing_pslot pub c (peer 3 c) 7 lt_7_8 (srcDev_link3 c) fd))

/-- Link 4: slot [0] of c lands in slot [6] of the device at the end of the link, as the receive cell's payload. -/
theorem landing_4 (pub : Dev nD → Nat → Nat → Nat → Elt F .bf16) (c : Dev nD) (fd : Buf (Elt F) (sL (peer 4 c))) :
    (sL (peer 4 c) ↦[dstSet (peer 4 c) 4]{fullShare} ((pM6 : Memref sig .tc .vmem S4x2x256x64 .bf16).view.write (Elt F) fd ((pM0 : Memref sig .tc .vmem S4x2x256x64 .bf16).view.read (Elt F) (scr pub c)) Finset.univ) : sProp 𝕄)
      ⊢ recvPay pub 4 (peer 4 c) :=
  Entails.of_eq (pointsTo_congr (landing_pslot pub c (peer 4 c) 6 lt_6_8 (srcDev_link4 c) fd))

/-- Link 5: slot [0] of c lands in slot [5] of the device at the end of the link, as the receive cell's payload. -/
theorem landing_5 (pub : Dev nD → Nat → Nat → Nat → Elt F .bf16) (c : Dev nD) (fd : Buf (Elt F) (sL (peer 5 c))) :
    (sL (peer 5 c) ↦[dstSet (peer 5 c) 5]{fullShare} ((pM5 : Memref sig .tc .vmem S4x2x256x64 .bf16).view.write (Elt F) fd ((pM0 : Memref sig .tc .vmem S4x2x256x64 .bf16).view.read (Elt F) (scr pub c)) Finset.univ) : sProp 𝕄)
      ⊢ recvPay pub 5 (peer 5 c) :=
  Entails.of_eq (pointsTo_congr (landing_pslot pub c (peer 5 c) 5 lt_5_8 (srcDev_link5 c) fd))

/-- Link 6: slot [0] of c lands in slot [4] of the device at the end of the link, as the receive cell's payload. -/
theorem landing_6 (pub : Dev nD → Nat → Nat → Nat → Elt F .bf16) (c : Dev nD) (fd : Buf (Elt F) (sL (peer 6 c))) :
    (sL (peer 6 c) ↦[dstSet (peer 6 c) 6]{fullShare} ((pM4 : Memref sig .tc .vmem S4x2x256x64 .bf16).view.write (Elt F) fd ((pM0 : Memref sig .tc .vmem S4x2x256x64 .bf16).view.read (Elt F) (scr pub c)) Finset.univ) : sProp 𝕄)
      ⊢ recvPay pub 6 (peer 6 c) :=
  Entails.of_eq (pointsTo_congr (landing_pslot pub c (peer 6 c) 4 lt_4_8 (srcDev_link6 c) fd))

/-- Link 7: slot [0] of c lands in slot [3] of the device at the end of the link, as the receive cell's payload. -/
theorem landing_7 (pub : Dev nD → Nat → Nat → Nat → Elt F .bf16) (c : Dev nD) (fd : Buf (Elt F) (sL (peer 7 c))) :
    (sL (peer 7 c) ↦[dstSet (peer 7 c) 7]{fullShare} ((pM3 : Memref sig .tc .vmem S4x2x256x64 .bf16).view.write (Elt F) fd ((pM0 : Memref sig .tc .vmem S4x2x256x64 .bf16).view.read (Elt F) (scr pub c)) Finset.univ) : sProp 𝕄)
      ⊢ recvPay pub 7 (peer 7 c) :=
  Entails.of_eq (pointsTo_congr (landing_pslot pub c (peer 7 c) 3 lt_3_8 (srcDev_link7 c) fd))

/-- Link 8: slot [0] of c lands in slot [2] of the device at the end of the link, as the receive cell's payload. -/
theorem landing_8 (pub : Dev nD → Nat → Nat → Nat → Elt F .bf16) (c : Dev nD) (fd : Buf (Elt F) (sL (peer 8 c))) :
    (sL (peer 8 c) ↦[dstSet (peer 8 c) 8]{fullShare} ((pM2 : Memref sig .tc .vmem S4x2x256x64 .bf16).view.write (Elt F) fd ((pM0 : Memref sig .tc .vmem S4x2x256x64 .bf16).view.read (Elt F) (scr pub c)) Finset.univ) : sProp 𝕄)
      ⊢ recvPay pub 8 (peer 8 c) :=
  Entails.of_eq (pointsTo_congr (landing_pslot pub c (peer 8 c) 2 lt_2_8 (srcDev_link8 c) fd))

/-- Link 9: slot [0] of c lands in slot [1] of the device at the end of the link, as the receive cell's payload. -/
theorem landing_9 (pub : Dev nD → Nat → Nat → Nat → Elt F .bf16) (c : Dev nD) (fd : Buf (Elt F) (sL (peer 9 c))) :
    (sL (peer 9 c) ↦[dstSet (peer 9 c) 9]{fullShare} ((pM1 : Memref sig .tc .vmem S4x2x256x64 .bf16).view.write (Elt F) fd ((pM0 : Memref sig .tc .vmem S4x2x256x64 .bf16).view.read (Elt F) (scr pub c)) Finset.univ) : sProp 𝕄)
      ⊢ recvPay pub 9 (peer 9 c) :=
  Entails.of_eq (pointsTo_congr (landing_pslot pub c (peer 9 c) 1 lt_1_8 (srcDev_link9 c) fd))

end Links

/-! ## The partition of the buffer into slots, as separating conjunctions -/

section Cuts
variable {F : FTy → Type} [FloatOps F]
local notation "𝕄" => MT nD τ sig Unit (Elt F) ℕ UU ℕ

/-- A points-to over a disjoint union is the two points-tos, as an equation. -/
theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem dstSet_0 (c : Dev nD) : dstSet c 0 = (zM3 : Memref sig .tc .vmem S2x256x64 .bf16).view.set := rfl
theorem dstSet_1 (c : Dev nD) : dstSet c 1 = (zM2 : Memref sig .tc .vmem S2x256x64 .bf16).view.set := rfl
theorem dstSet_2 (c : Dev nD) : dstSet c 2 = (zM1 : Memref sig .tc .vmem S2x256x64 .bf16).view.set := rfl
theorem dstSet_3 (c : Dev nD) : dstSet c 3 = (pM7 : Memref sig .tc .vmem S4x2x256x64 .bf16).view.set := rfl
theorem dstSet_4 (c : Dev nD) : dstSet c 4 = (pM6 : Memref sig .tc .vmem S4x2x256x64 .bf16).view.set := rfl
theorem dstSet_5 (c : Dev nD) : dstSet c 5 = (pM5 : Memref sig .tc .vmem S4x2x256x64 .bf16).view.set := rfl
theorem dstSet_6 (c : Dev nD) : dstSet c 6 = (pM4 : Memref sig .tc .vmem S4x2x256x64 .bf16).view.set := rfl
theorem dstSet_7 (c : Dev nD) : dstSet c 7 = (pM3 : Memref sig .tc .vmem S4x2x256x64 .bf16).view.set := rfl
theorem dstSet_8 (c : Dev nD) : dstSet c 8 = (pM2 : Memref sig .tc .vmem S4x2x256x64 .bf16).view.set := rfl
theorem dstSet_9 (c : Dev nD) : dstSet c 9 = (pM1 : Memref sig .tc .vmem S4x2x256x64 .bf16).view.set := rfl
theorem srcSet_0 (c : Dev nD) : srcSet c 0 = (zM0 : Memref sig .tc .vmem S2x256x64 .bf16).view.set := rfl
theorem srcSet_1 (c : Dev nD) : srcSet c 1 = (zM0 : Memref sig .tc .vmem S2x256x64 .bf16).view.set := rfl
theorem srcSet_2 (c : Dev nD) : srcSet c 2 = (zM0 : Memref sig .tc .vmem S2x256x64 .bf16).view.set := rfl
theorem srcSet_3 (c : Dev nD) : srcSet c 3 = (pM0 : Memref sig .tc .vmem S4x2x256x64 .bf16).view.set := rfl
theorem srcSet_4 (c : Dev nD) : srcSet c 4 = (pM0 : Memref sig .tc .vmem S4x2x256x64 .bf16).view.set := rfl
theorem srcSet_5 (c : Dev nD) : srcSet c 5 = (pM0 : Memref sig .tc .vmem S4x2x256x64 .bf16).view.set := rfl
theorem srcSet_6 (c : Dev nD) : srcSet c 6 = (pM0 : Memref sig .tc .vmem S4x2x256x64 .bf16).view.set := rfl
theorem srcSet_7 (c : Dev nD) : srcSet c 7 = (pM0 : Memref sig .tc .vmem S4x2x256x64 .bf16).view.set := rfl
theorem srcSet_8 (c : Dev nD) : srcSet c 8 = (pM0 : Memref sig .tc .vmem S4x2x256x64 .bf16).view.set := rfl
theorem srcSet_9 (c : Dev nD) : srcSet c 9 = (pM0 : Memref sig .tc .vmem S4x2x256x64 .bf16).view.set := rfl
theorem credit_dst_0 : (zM3 : Memref sig .tc .vmem S2x256x64 .bf16).view.dmaCredit = NL 0 := rfl
theorem credit_src_0 : (zM0 : Memref sig .tc .vmem S2x256x64 .bf16).view.dmaCredit = NL 0 := rfl
theorem credit_dst_1 : (zM2 : Memref sig .tc .vmem S2x256x64 .bf16).view.dmaCredit = NL 1 := rfl
theorem credit_src_1 : (zM0 : Memref sig .tc .vmem S2x256x64 .bf16).view.dmaCredit = NL 1 := rfl
theorem credit_dst_2 : (zM1 : Memref sig .tc .vmem S2x256x64 .bf16).view.dmaCredit = NL 2 := rfl
theorem credit_src_2 : (zM0 : Memref sig .tc .vmem S2x256x64 .bf16).view.dmaCredit = NL 2 := rfl
theorem credit_dst_3 : (pM7 : Memref sig .tc .vmem S4x2x256x64 .bf16).view.dmaCredit = NL 3 := rfl
theorem credit_src_3 : (pM0 : Memref sig .tc .vmem S4x2x256x64 .bf16).view.dmaCredit = NL 3 := rfl
theorem credit_dst_4 : (pM6 : Memref sig .tc .vmem S4x2x256x64 .bf16).view.dmaCredit = NL 4 := rfl
theorem credit_src_4 : (pM0 : Memref sig .tc .vmem S4x2x256x64 .bf16).view.dmaCredit = NL 4 := rfl
theorem credit_dst_5 : (pM5 : Memref sig .tc .vmem S4x2x256x64 .bf16).view.dmaCredit = NL 5 := rfl
theorem credit_src_5 : (pM0 : Memref sig .tc .vmem S4x2x256x64 .bf16).view.dmaCredit = NL 5 := rfl
theorem credit_dst_6 : (pM4 : Memref sig .tc .vmem S4x2x256x64 .bf16).view.dmaCredit = NL 6 := rfl
theorem credit_src_6 : (pM0 : Memref sig .tc .vmem S4x2x256x64 .bf16).view.dmaCredit = NL 6 := rfl
theorem credit_dst_7 : (pM3 : Memref sig .tc .vmem S4x2x256x64 .bf16).view.dmaCredit = NL 7 := rfl
theorem credit_src_7 : (pM0 : Memref sig .tc .vmem S4x2x256x64 .bf16).view.dmaCredit = NL 7 := rfl
theorem credit_dst_8 : (pM2 : Memref sig .tc .vmem S4x2x256x64 .bf16).view.dmaCredit = NL 8 := rfl
theorem credit_src_8 : (pM0 : Memref sig .tc .vmem S4x2x256x64 .bf16).view.dmaCredit = NL 8 := rfl
theorem credit_dst_9 : (pM1 : Memref sig .tc .vmem S4x2x256x64 .bf16).view.dmaCredit = NL 9 := rfl
theorem credit_src_9 : (pM0 : Memref sig .tc .vmem S4x2x256x64 .bf16).view.dmaCredit = NL 9 := rfl

/-- Every element of the buffer lies in slot [0, 0] or in one of the ten landing slots. -/
theorem scr_cover (c : Dev nD) :
    (Finset.univ : Finset (Idx (sL c))) = (zM0 : Memref sig .tc .vmem S2x256x64 .bf16).view.set ∪ (dstSet c 0 ∪ (dstSet c 1 ∪ (dstSet c 2 ∪ (dstSet c 3 ∪ (dstSet c 4 ∪ (dstSet c 5 ∪ (dstSet c 6 ∪ (dstSet c 7 ∪ (dstSet c 8 ∪ (dstSet c 9)))))))))) := by
  refine (Finset.eq_univ_iff_forall.mpr fun idx => ?_).symm
  have h0 : (idx 0).val < 8 := (idx 0).isLt
  have h1 : (idx 1).val < 4 := (idx 1).isLt
  simp only [Finset.mem_union]
  by_cases e0 : (idx 0).val = 0
  · by_cases e10 : (idx 1).val = 0
    · exact Or.inl ((mem_zM0 idx).mpr ⟨e0, e10⟩)
    · by_cases e13 : (idx 1).val = 3
      · exact Or.inr (Or.inl ((mem_zM3 idx).mpr ⟨e0, e13⟩))
      · by_cases e12 : (idx 1).val = 2
        · exact Or.inr (Or.inr (Or.inl ((mem_zM2 idx).mpr ⟨e0, e12⟩)))
        · exact Or.inr (Or.inr (Or.inr (Or.inl ((mem_zM1 idx).mpr ⟨e0, by omega⟩))))
  · by_cases e7 : (idx 0).val = 7
    · exact Or.inr (Or.inr (Or.inr (Or.inr (Or.inl ((mem_pM7 idx).mpr e7)))))
    · by_cases e6 : (idx 0).val = 6
      · exact Or.inr (Or.inr (Or.inr (Or.inr (Or.inr (Or.inl ((mem_pM6 idx).mpr e6))))))
      · by_cases e5 : (idx 0).val = 5
        · exact Or.inr (Or.inr (Or.inr (Or.inr (Or.inr (Or.inr (Or.inl ((mem_pM5 idx).mpr e5)))))))
        · by_cases e4 : (idx 0).val = 4
          · exact Or.inr (Or.inr (Or.inr (Or.inr (Or.inr (Or.inr (Or.inr (Or.inl ((mem_pM4 idx).mpr e4))))))))
          · by_cases e3 : (idx 0).val = 3
            · exact Or.inr (Or.inr (Or.inr (Or.inr (Or.inr (Or.inr (Or.inr (Or.inr (Or.inl ((mem_pM3 idx).mpr e3)))))))))
            · by_cases e2 : (idx 0).val = 2
              · exact Or.inr (Or.inr (Or.inr (Or.inr (Or.inr (Or.inr (Or.inr (Or.inr (Or.inr (Or.inl ((mem_pM2 idx).mpr e2))))))))))
              · exact Or.inr (Or.inr (Or.inr (Or.inr (Or.inr (Or.inr (Or.inr (Or.inr (Or.inr (Or.inr ((mem_pM1 idx).mpr (by omega)))))))))))

theorem scr_disj_0 (c : Dev nD) : Disjoint ((zM0 : Memref sig .tc .vmem S2x256x64 .bf16).view.set) (dstSet c 0 ∪ (dstSet c 1 ∪ (dstSet c 2 ∪ (dstSet c 3 ∪ (dstSet c 4 ∪ (dstSet c 5 ∪ (dstSet c 6 ∪ (dstSet c 7 ∪ (dstSet c 8 ∪ (dstSet c 9)))))))))) := by
  refine Finset.disjoint_left.mpr fun idx h1 h2 => ?_
  have a := (mem_zM0 idx).mp h1
  simp only [Finset.mem_union] at h2
  rcases h2 with h | h | h | h | h | h | h | h | h | h
  · have b := (mem_zM3 idx).mp h; omega
  · have b := (mem_zM2 idx).mp h; omega
  · have b := (mem_zM1 idx).mp h; omega
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_1 (c : Dev nD) : Disjoint (dstSet c 0) (dstSet c 1 ∪ (dstSet c 2 ∪ (dstSet c 3 ∪ (dstSet c 4 ∪ (dstSet c 5 ∪ (dstSet c 6 ∪ (dstSet c 7 ∪ (dstSet c 8 ∪ (dstSet c 9))))))))) := by
  refine Finset.disjoint_left.mpr fun idx h1 h2 => ?_
  have a := (mem_zM3 idx).mp h1
  simp only [Finset.mem_union] at h2
  rcases h2 with h | h | h | h | h | h | h | h | h
  · have b := (mem_zM2 idx).mp h; omega
  · have b := (mem_zM1 idx).mp h; omega
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_2 (c : Dev nD) : Disjoint (dstSet c 1) (dstSet c 2 ∪ (dstSet c 3 ∪ (dstSet c 4 ∪ (dstSet c 5 ∪ (dstSet c 6 ∪ (dstSet c 7 ∪ (dstSet c 8 ∪ (dstSet c 9)))))))) := by
  refine Finset.disjoint_left.mpr fun idx h1 h2 => ?_
  have a := (mem_zM2 idx).mp h1
  simp only [Finset.mem_union] at h2
  rcases h2 with h | h | h | h | h | h | h | h
  · have b := (mem_zM1 idx).mp h; omega
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_3 (c : Dev nD) : Disjoint (dstSet c 2) (dstSet c 3 ∪ (dstSet c 4 ∪ (dstSet c 5 ∪ (dstSet c 6 ∪ (dstSet c 7 ∪ (dstSet c 8 ∪ (dstSet c 9))))))) := by
  refine Finset.disjoint_left.mpr fun idx h1 h2 => ?_
  have a := (mem_zM1 idx).mp h1
  simp only [Finset.mem_union] at h2
  rcases h2 with h | h | h | h | h | h | h
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_4 (c : Dev nD) : Disjoint (dstSet c 3) (dstSet c 4 ∪ (dstSet c 5 ∪ (dstSet c 6 ∪ (dstSet c 7 ∪ (dstSet c 8 ∪ (dstSet c 9)))))) := by
  refine Finset.disjoint_left.mpr fun idx h1 h2 => ?_
  have a := (mem_pM7 idx).mp h1
  simp only [Finset.mem_union] at h2
  rcases h2 with h | h | h | h | h | h
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_5 (c : Dev nD) : Disjoint (dstSet c 4) (dstSet c 5 ∪ (dstSet c 6 ∪ (dstSet c 7 ∪ (dstSet c 8 ∪ (dstSet c 9))))) := by
  refine Finset.disjoint_left.mpr fun idx h1 h2 => ?_
  have a := (mem_pM6 idx).mp h1
  simp only [Finset.mem_union] at h2
  rcases h2 with h | h | h | h | h
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_6 (c : Dev nD) : Disjoint (dstSet c 5) (dstSet c 6 ∪ (dstSet c 7 ∪ (dstSet c 8 ∪ (dstSet c 9)))) := by
  refine Finset.disjoint_left.mpr fun idx h1 h2 => ?_
  have a := (mem_pM5 idx).mp h1
  simp only [Finset.mem_union] at h2
  rcases h2 with h | h | h | h
  · have b := (mem_pM4 idx).mp h; omega
  · have b := (mem_pM3 idx).mp h; omega
  · have b := (mem_pM2 idx).mp h; omega
  · have b := (mem_pM1 idx).mp h; omega

theorem scr_disj_7 (c : Dev nD) : Disjoint (dstSet c 6) (dstSet c 7 ∪ (dstSet c 8 ∪ (dstSet c 9))) := by
  refine Finset.disjoint_left.mpr fun idx h1 h2 => ?_
  have a := (mem_pM4 idx).mp h1
  simp only [Finset.mem_union] at h2
  rcases h2 with h | h | h
  · have b := (mem_pM3 idx).mp h; omega
  · have b := (mem_pM2 idx).mp h; omega
  · have b := (mem_pM1 idx).mp h; omega

theorem scr_disj_8 (c : Dev nD) : Disjoint (dstSet c 7) (dstSet c 8 ∪ (dstSet c 9)) := by
  refine Finset.disjoint_left.mpr fun idx h1 h2 => ?_
  have a := (mem_pM3 idx).mp h1
  simp only [Finset.mem_union] at h2
  rcases h2 with h | h
  · have b := (mem_pM2 idx).mp h; omega
  · have b := (mem_pM1 idx).mp h; omega

theorem scr_disj_9 (c : Dev nD) : Disjoint (dstSet c 8) (dstSet c 9) := by
  refine Finset.disjoint_left.mpr fun idx h1 h2 => ?_
  have a := (mem_pM2 idx).mp h1
  have b := (mem_pM1 idx).mp h2
  omega

/-- The whole buffer is slot [0, 0] and the ten landing slots, at one contents and any share. -/
theorem scr_eq (c : Dev nD) (f : Buf (Elt F) (sL c)) (q : PosShare TreeShare) :
    (sL c ↦{q} f : sProp 𝕄) = iprop((sL c ↦[(zM0 : Memref sig .tc .vmem S2x256x64 .bf16).view.set]{q} f) ∗ (sL c ↦[dstSet c 0]{q} f) ∗ (sL c ↦[dstSet c 1]{q} f) ∗ (sL c ↦[dstSet c 2]{q} f) ∗ (sL c ↦[dstSet c 3]{q} f) ∗ (sL c ↦[dstSet c 4]{q} f) ∗ (sL c ↦[dstSet c 5]{q} f) ∗ (sL c ↦[dstSet c 6]{q} f) ∗ (sL c ↦[dstSet c 7]{q} f) ∗ (sL c ↦[dstSet c 8]{q} f) ∗ (sL c ↦[dstSet c 9]{q} f)) := by
  show (pointsTo (sL c) Finset.univ q f : sProp 𝕄) = _
  rw [scr_cover c, pt_union_eq (scr_disj_0 c), pt_union_eq (scr_disj_1 c), pt_union_eq (scr_disj_2 c), pt_union_eq (scr_disj_3 c), pt_union_eq (scr_disj_4 c), pt_union_eq (scr_disj_5 c), pt_union_eq (scr_disj_6 c), pt_union_eq (scr_disj_7 c), pt_union_eq (scr_disj_8 c), pt_union_eq (scr_disj_9 c)]

theorem scr_split (c : Dev nD) (f : Buf (Elt F) (sL c)) :
    (sL c ↦{fullShare} f : sProp 𝕄) ⊢ iprop((sL c ↦[(zM0 : Memref sig .tc .vmem S2x256x64 .bf16).view.set]{fullShare} f) ∗ (sL c ↦[dstSet c 0]{fullShare} f) ∗ (sL c ↦[dstSet c 1]{fullShare} f) ∗ (sL c ↦[dstSet c 2]{fullShare} f) ∗ (sL c ↦[dstSet c 3]{fullShare} f) ∗ (sL c ↦[dstSet c 4]{fullShare} f) ∗ (sL c ↦[dstSet c 5]{fullShare} f) ∗ (sL c ↦[dstSet c 6]{fullShare} f) ∗ (sL c ↦[dstSet c 7]{fullShare} f) ∗ (sL c ↦[dstSet c 8]{fullShare} f) ∗ (sL c ↦[dstSet c 9]{fullShare} f)) :=
  Entails.of_eq (scr_eq c f fullShare)

theorem scr_join (c : Dev nD) (f : Buf (Elt F) (sL c)) :
    iprop((sL c ↦[(zM0 : Memref sig .tc .vmem S2x256x64 .bf16).view.set]{fullShare} f) ∗ (sL c ↦[dstSet c 0]{fullShare} f) ∗ (sL c ↦[dstSet c 1]{fullShare} f) ∗ (sL c ↦[dstSet c 2]{fullShare} f) ∗ (sL c ↦[dstSet c 3]{fullShare} f) ∗ (sL c ↦[dstSet c 4]{fullShare} f) ∗ (sL c ↦[dstSet c 5]{fullShare} f) ∗ (sL c ↦[dstSet c 6]{fullShare} f) ∗ (sL c ↦[dstSet c 7]{fullShare} f) ∗ (sL c ↦[dstSet c 8]{fullShare} f) ∗ (sL c ↦[dstSet c 9]{fullShare} f)) ⊢ (sL c ↦{fullShare} f : sProp 𝕄) :=
  Entails.of_eq (scr_eq c f fullShare).symm

/-- Slot [0, 0] is its keys' half and its values' half. -/
theorem zM0_split (c : Dev nD) (f : Buf (Elt F) (sL c)) (q : PosShare TreeShare) :
    (sL c ↦[(zM0 : Memref sig .tc .vmem S2x256x64 .bf16).view.set]{q} f : sProp 𝕄) ⊣⊢ iprop((sL c ↦[kSet c]{q} f) ∗ (sL c ↦[vSet c]{q} f)) := by
  rw [kv_union c]
  exact pointsTo_union (kv_disjoint c)

/-- Slot [0] is the slots [0, 0], [0, 1], [0, 2], [0, 3]. -/
theorem pM0_cover (c : Dev nD) :
    (pM0 : Memref sig .tc .vmem S4x2x256x64 .bf16).view.set
      = (zM0 : Memref sig .tc .vmem S2x256x64 .bf16).view.set ∪ (dstSet c 2 ∪ (dstSet c 1 ∪ dstSet c 0)) := by
  refine Finset.ext fun idx => ?_
  have h1 : (idx 1).val < 4 := (idx 1).isLt
  simp only [Finset.mem_union]
  constructor
  · intro h
    have a := (mem_pM0 idx).mp h
    by_cases e0 : (idx 1).val = 0
    · exact Or.inl ((mem_zM0 idx).mpr ⟨a, e0⟩)
    · by_cases e1 : (idx 1).val = 1
      · exact Or.inr (Or.inl ((mem_zM1 idx).mpr ⟨a, e1⟩))
      · by_cases e2 : (idx 1).val = 2
        · exact Or.inr (Or.inr (Or.inl ((mem_zM2 idx).mpr ⟨a, e2⟩)))
        · exact Or.inr (Or.inr (Or.inr ((mem_zM3 idx).mpr ⟨a, by omega⟩)))
  · rintro (h | h | h | h)
    · exact (mem_pM0 idx).mpr ((mem_zM0 idx).mp h).1
    · exact (mem_pM0 idx).mpr ((mem_zM1 idx).mp h).1
    · exact (mem_pM0 idx).mpr ((mem_zM2 idx).mp h).1
    · exact (mem_pM0 idx).mpr ((mem_zM3 idx).mp h).1

theorem pM0_disj_0 (c : Dev nD) : Disjoint ((zM0 : Memref sig .tc .vmem S2x256x64 .bf16).view.set) (dstSet c 2 ∪ (dstSet c 1 ∪ dstSet c 0)) := by
  refine Finset.disjoint_left.mpr fun idx h1 h2 => ?_
  have a := (mem_zM0 idx).mp h1
  simp only [Finset.mem_union] at h2
  rcases h2 with h | h | h
  · have b := (mem_zM1 idx).mp h; omega
  · have b := (mem_zM2 idx).mp h; omega
  · have b := (mem_zM3 idx).mp h; omega
theorem pM0_disj_1 (c : Dev nD) : Disjoint (dstSet c 2) (dstSet c 1 ∪ dstSet c 0) := by
  refine Finset.disjoint_left.mpr fun idx h1 h2 => ?_
  have a := (mem_zM1 idx).mp h1
  simp only [Finset.mem_union] at h2
  rcases h2 with h | h
  · have b := (mem_zM2 idx).mp h; omega
  · have b := (mem_zM3 idx).mp h; omega
theorem pM0_disj_2 (c : Dev nD) : Disjoint (dstSet c 1) (dstSet c 0) := by
  refine Finset.disjoint_left.mpr fun idx h1 h2 => ?_
  have a := (mem_zM2 idx).mp h1
  have b := (mem_zM3 idx).mp h2
  omega

theorem src_p_eq (c : Dev nD) (f : Buf (Elt F) (sL c)) (q : PosShare TreeShare) :
    (sL c ↦[(pM0 : Memref sig .tc .vmem S4x2x256x64 .bf16).view.set]{q} f : sProp 𝕄)
      = iprop((sL c ↦[(zM0 : Memref sig .tc .vmem S2x256x64 .bf16).view.set]{q} f) ∗ (sL c ↦[dstSet c 2]{q} f) ∗ (sL c ↦[dstSet c 1]{q} f) ∗ (sL c ↦[dstSet c 0]{q} f)) := by
  rw [pM0_cover c, pt_union_eq (pM0_disj_0 c), pt_union_eq (pM0_disj_1 c), pt_union_eq (pM0_disj_2 c)]

theorem src_p_join (c : Dev nD) (f : Buf (Elt F) (sL c)) (q : PosShare TreeShare) :
    iprop((sL c ↦[(zM0 : Memref sig .tc .vmem S2x256x64 .bf16).view.set]{q} f) ∗ (sL c ↦[dstSet c 2]{q} f) ∗ (sL c ↦[dstSet c 1]{q} f) ∗ (sL c ↦[dstSet c 0]{q} f))
      ⊣⊢ (sL c ↦[(pM0 : Memref sig .tc .vmem S4x2x256x64 .bf16).view.set]{q} f : sProp 𝕄) :=
  BiEntails.of_eq (src_p_eq c f q).symm

end Cuts

end Cert.Ring

end

/-- info: 'Cert.Ring.scr_join' depends on axioms: [propext, Classical.choice, Quot.sound] -/
#guard_msgs in #print axioms Cert.Ring.scr_join
-- ==== Proof.BodyAux.lean ====
/-
  Two auxiliary facts for the body's proof.

  (1) Read tokens. A full-share points-to splits into a remainder and ten read tokens, token i being
  the right half of what is left after i halvings: halve once to split off token 0, halve the
  remainder to split off token 1, and so on ten times; joining runs the same steps backwards.
-/
import proofs.«900463_g7700000000000464_dist_ring_attn_i_s256_d64_v7x_i32_f32_1_alg».proof.Proof.Sched
import proofs.«900463_g7700000000000464_dist_ring_attn_i_s256_d64_v7x_i32_f32_1_alg».proof.Proof.OutAt
import Idealize.ShloMosaic.Lib.Transfers
import Idealize.ShloMosaic.Rules.PointsTo

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Read tokens, one by one -/

section Toks

/-- Regrouping three resources. -/
theorem sep_rot {A B C : sProp 𝕄} : iprop((A ∗ B) ∗ C) ⊢ iprop(A ∗ (C ∗ B)) := by
  iintro ⟨⟨HA, HB⟩, HC⟩
  isplitl [HA]; · iexact HA
  isplitl [HC] <;> iassumption

/-- and back. -/
theorem sep_rot' {A B C : sProp 𝕄} : iprop(A ∗ (C ∗ B)) ⊢ iprop((A ∗ B) ∗ C) := by
  iintro ⟨HA, HC, HB⟩
  isplitl [HA HB]; · isplitl [HA] <;> iassumption
  iexact HC

variable {ℓ : Loc nD τ sig} {S : Finset (Idx ℓ)} {f : Buf (Elt F) ℓ}

/-- One halving: what is left after k tokens is what is left after k + 1 tokens and token k. -/
theorem tok_step (k : ℕ) :
    (ℓ ↦[S]{Transfers.shareDrop fullShare k} f : sProp 𝕄)
      ⊣⊢ iprop((ℓ ↦[S]{Transfers.shareDrop fullShare (k + 1)} f) ∗ ℓ ↦[S]{Transfers.shareTokN fullShare k} f) :=
  pointsTo_share (PosShare.mem_left_op_right _)

/-- A full-share points-to is the remainder after ten read tokens and the ten tokens. -/
theorem toks10_split :
    (ℓ ↦[S]{fullShare} f : sProp 𝕄)
      ⊢ iprop((ℓ ↦[S]{Transfers.shareDrop fullShare 10} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f)) := by
  have h9 := (tok_step (F := F) (ℓ := ℓ) (S := S) (f := f) 9).1
  have h8 := (tok_step (F := F) (ℓ := ℓ) (S := S) (f := f) 8).1.trans ((sep_mono_left h9).trans sep_rot)
  have h7 := (tok_step (F := F) (ℓ := ℓ) (S := S) (f := f) 7).1.trans ((sep_mono_left h8).trans sep_rot)
  have h6 := (tok_step (F := F) (ℓ := ℓ) (S := S) (f := f) 6).1.trans ((sep_mono_left h7).trans sep_rot)
  have h5 := (tok_step (F := F) (ℓ := ℓ) (S := S) (f := f) 5).1.trans ((sep_mono_left h6).trans sep_rot)
  have h4 := (tok_step (F := F) (ℓ := ℓ) (S := S) (f := f) 4).1.trans ((sep_mono_left h5).trans sep_rot)
  have h3 := (tok_step (F := F) (ℓ := ℓ) (S := S) (f := f) 3).1.trans ((sep_mono_left h4).trans sep_rot)
  have h2 := (tok_step (F := F) (ℓ := ℓ) (S := S) (f := f) 2).1.trans ((sep_mono_left h3).trans sep_rot)
  have h1 := (tok_step (F := F) (ℓ := ℓ) (S := S) (f := f) 1).1.trans ((sep_mono_left h2).trans sep_rot)
  have h0 := (tok_step (F := F) (ℓ := ℓ) (S := S) (f := f) 0).1.trans ((sep_mono_left h1).trans sep_rot)
  exact h0

/-- The remainder and the ten tokens join back to the full share. -/
theorem toks10_join :
    iprop((ℓ ↦[S]{Transfers.shareDrop fullShare 10} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f))
      ⊢ (ℓ ↦[S]{fullShare} f : sProp 𝕄) := by
  have h9 := (tok_step (F := F) (ℓ := ℓ) (S := S) (f := f) 9).2
  have h8 := sep_rot'.trans ((sep_mono_left h9).trans (tok_step (F := F) (ℓ := ℓ) (S := S) (f := f) 8).2)
  have h7 := sep_rot'.trans ((sep_mono_left h8).trans (tok_step (F := F) (ℓ := ℓ) (S := S) (f := f) 7).2)
  have h6 := sep_rot'.trans ((sep_mono_left h7).trans (tok_step (F := F) (ℓ := ℓ) (S := S) (f := f) 6).2)
  have h5 := sep_rot'.trans ((sep_mono_left h6).trans (tok_step (F := F) (ℓ := ℓ) (S := S) (f := f) 5).2)
  have h4 := sep_rot'.trans ((sep_mono_left h5).trans (tok_step (F := F) (ℓ := ℓ) (S := S) (f := f) 4).2)
  have h3 := sep_rot'.trans ((sep_mono_left h4).trans (tok_step (F := F) (ℓ := ℓ) (S := S) (f := f) 3).2)
  have h2 := sep_rot'.trans ((sep_mono_left h3).trans (tok_step (F := F) (ℓ := ℓ) (S := S) (f := f) 2).2)
  have h1 := sep_rot'.trans ((sep_mono_left h2).trans (tok_step (F := F) (ℓ := ℓ) (S := S) (f := f) 1).2)
  have h0 := sep_rot'.trans ((sep_mono_left h1).trans (tok_step (F := F) (ℓ := ℓ) (S := S) (f := f) 0).2)
  exact h0

end Toks

end Cert.Ring

end

/-- info: 'Cert.Ring.toks10_split' depends on axioms: [propext, Classical.choice, Quot.sound] -/
#guard_msgs in #print axioms Cert.Ring.toks10_split
/-- info: 'Cert.Ring.toks10_join' depends on axioms: [propext, Classical.choice, Quot.sound] -/
#guard_msgs in #print axioms Cert.Ring.toks10_join
-- ==== Proof.Publish.lean ====
/-
  Publishing: the body's two stores into slot [0, 0] of its scratch buffer.

  The scratch buffer of device c is meant to hold at (s, i, kv, r, d) the entry (kv, r, d) of what device
  srcDev c s i publishes; srcDev c 0 0 = c, so slot [0, 0] is meant to hold what c itself publishes: its
  key slab at kv = 0 and its value slab at kv = 1. The body stores exactly these two slabs through the
  rectangles [0, 0, 0, :, :] and [0, 0, 1, :, :]. The element of the first rectangle at (0, 0, 0, r, d) is
  the buffer's element (0, 0, 0, r, d) (unit strides, zero offsets on the last two axes), so after the first
  store the buffer holds there the key slab's entry (r, d), which is the intended entry; the second store
  writes through a rectangle disjoint from the first (kv = 1 against kv = 0), so it leaves those elements
  alone and puts the value slab's entries at (0, 0, 1, r, d). Slot [0, 0] is the union of the two rectangles.
-/
import proofs.«900463_g7700000000000464_dist_ring_attn_i_s256_d64_v7x_i32_f32_1_alg».proof.Proof.Sched
import proofs.«900463_g7700000000000464_dist_ring_attn_i_s256_d64_v7x_i32_f32_1_alg».proof.Proof.OutAt
import Idealize.ShloMosaic.Rules.PointsTo
import Idealize.ShloMosaic.Lib.ValueIdx

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelValue

variable {F : FTy → Type} [FloatOps F]

local notation "𝕄" => MT nD τ sig Unit (Elt F) ℕ UU ℕ

/-- The rectangle [0, 0, kv, :, :] of the scratch buffer. -/
abbrev rHalf (kv : Nat) (inb : ∀ a, (![0, 0, kv, 0, 0] : Fin 5 → Nat) a + S1x1x1x256x64.size a ≤ S8x4x2x256x64.size a) :
    Rect S8x4x2x256x64 :=
  Rect.unit (s := S8x4x2x256x64) ![0, 0, kv, 0, 0] S1x1x1x256x64.size inb

/-- The rectangle the key slab is stored through, and the one the value slab is stored through. -/
abbrev rK : Rect S8x4x2x256x64 :=
  Rect.unit (s := S8x4x2x256x64) ![0, 0, 0, 0, 0] S1x1x1x256x64.size inb_S8x4x2x256x64_S1x1x1x256x64_0_0_0_0_0
abbrev rV : Rect S8x4x2x256x64 :=
  Rect.unit (s := S8x4x2x256x64) ![0, 0, 1, 0, 0] S1x1x1x256x64.size inb_S8x4x2x256x64_S1x1x1x256x64_0_0_1_0_0

/-- The rectangle's element at (0, 0, 0, r, d) is the buffer's element (0, 0, kv, r, d). -/
theorem rHalf_emb (kv : Nat) (inb : ∀ a, (![0, 0, kv, 0, 0] : Fin 5 → Nat) a + S1x1x1x256x64.size a ≤ S8x4x2x256x64.size a)
    (x : S1x1x1x256x64.Idx) :
    ((A4.access (rHalf kv inb)).emb x 0).val = 0 ∧ ((A4.access (rHalf kv inb)).emb x 1).val = 0
      ∧ ((A4.access (rHalf kv inb)).emb x 2).val = kv ∧ ((A4.access (rHalf kv inb)).emb x 3).val = (x 3).val
      ∧ ((A4.access (rHalf kv inb)).emb x 4).val = (x 4).val := by
  have b0 : (x 0).val < 1 := (x 0).isLt
  have b1 : (x 1).val < 1 := (x 1).isLt
  have b2 : (x 2).val < 1 := (x 2).isLt
  have k0 : ((A4.access (rHalf kv inb)).emb x 0).val = 0 + 1 * (x 0).val := rfl
  have k1 : ((A4.access (rHalf kv inb)).emb x 1).val = 0 + 1 * (x 1).val := rfl
  have k2 : ((A4.access (rHalf kv inb)).emb x 2).val = kv + 1 * (x 2).val := rfl
  have k3 : ((A4.access (rHalf kv inb)).emb x 3).val = 0 + 1 * (x 3).val := rfl
  have k4 : ((A4.access (rHalf kv inb)).emb x 4).val = 0 + 1 * (x 4).val := rfl
  rw [k0, k1, k2, k3, k4]
  omega

/-- The rectangle's elements are the buffer's elements whose first three coordinates are (0, 0, kv). -/
theorem rHalf_mem (kv : Nat) (inb : ∀ a, (![0, 0, kv, 0, 0] : Fin 5 → Nat) a + S1x1x1x256x64.size a ≤ S8x4x2x256x64.size a)
    (idx : S8x4x2x256x64.Idx) :
    idx ∈ (A4.access (rHalf kv inb)).set ↔ (idx 0).val = 0 ∧ (idx 1).val = 0 ∧ (idx 2).val = kv := by
  constructor
  · intro h
    obtain ⟨x, -, rfl⟩ := Finset.mem_map.1 h
    obtain ⟨e0, e1, e2, -, -⟩ := rHalf_emb kv inb x
    exact ⟨e0, e1, e2⟩
  · intro ⟨h0, h1, h2⟩
    have hs : (A4.access (rHalf kv inb)).set = (rHalf kv inb).set := View.set_slice_whole _ _
    rw [hs, Rect.mem_set_unit]
    intro a
    match a with
    | ⟨0, _⟩ => show 0 ≤ (idx 0).val ∧ (idx 0).val < 0 + 1; omega
    | ⟨1, _⟩ => show 0 ≤ (idx 1).val ∧ (idx 1).val < 0 + 1; omega
    | ⟨2, _⟩ => show kv ≤ (idx 2).val ∧ (idx 2).val < kv + 1; omega
    | ⟨3, _⟩ => exact ⟨Nat.zero_le _, by have : (idx 3).val < 256 := (idx 3).isLt; show (idx 3).val < 0 + 256; omega⟩
    | ⟨4, _⟩ => exact ⟨Nat.zero_le _, by have : (idx 4).val < 64 := (idx 4).isLt; show (idx 4).val < 0 + 64; omega⟩

/-- A device's own block sits in its slot [0, 0]. -/
theorem srcDev_own : ∀ c : Dev nD, srcDev c 0 0 = c := by decide

/-- A slab index is (0, 0, 0, r, d). -/
theorem slab_idx (x : S1x1x1x256x64.Idx) :
    ValueIdx.ix5 (0 : Fin 1) (0 : Fin 1) (0 : Fin 1) (⟨(x 3).val % 256, Nat.mod_lt _ (by decide)⟩ : Fin 256)
      (⟨(x 4).val % 64, Nat.mod_lt _ (by decide)⟩ : Fin 64) = x := by
  have b0 : (x 0).val < 1 := (x 0).isLt
  have b1 : (x 1).val < 1 := (x 1).isLt
  have b2 : (x 2).val < 1 := (x 2).isLt
  have b3 : (x 3).val < 256 := (x 3).isLt
  have b4 : (x 4).val < 64 := (x 4).isLt
  funext a
  apply Fin.ext
  match a with
  | ⟨0, _⟩ => show 0 = (x 0).val; omega
  | ⟨1, _⟩ => show 0 = (x 1).val; omega
  | ⟨2, _⟩ => show 0 = (x 2).val; omega
  | ⟨3, _⟩ => show (x 3).val % 256 = (x 3).val; omega
  | ⟨4, _⟩ => show (x 4).val % 64 = (x 4).val; omega

variable (m : (ℓ : Loc nD τ sig) → Buf (Elt F) ℓ) (ρ : Dev nD → PrngReg)

/-- What the first store leaves at an element of its rectangle is the intended entry. -/
theorem publish_k_emb (c : Dev nD) (f : Buf (Elt F) (sL c)) (x : S1x1x1x256x64.Idx) :
    (A4.access rK).write (Elt F) f (k0_pay1 (stgK m ρ c)) Finset.univ ((A4.access rK).emb x)
      = scr (pubOf m ρ) c ((A4.access rK).emb x) := by
  obtain ⟨e0, e1, e2, e3, e4⟩ := rHalf_emb 0 inb_S8x4x2x256x64_S1x1x1x256x64_0_0_0_0_0 x
  rw [View.write_emb_of_mem _ _ (Finset.mem_univ x)]
  show _ = pubOf m ρ (srcDev c ((A4.access rK).emb x 0).val ((A4.access rK).emb x 1).val)
    ((A4.access rK).emb x 2).val ((A4.access rK).emb x 3).val ((A4.access rK).emb x 4).val
  rw [e0, e1, e2, e3, e4, srcDev_own]
  unfold pubOf slabK
  rw [if_pos rfl, slab_idx x]
  rfl

/-- What the second store leaves at an element of its rectangle is the intended entry. -/
theorem publish_v_emb (c : Dev nD) (f : Buf (Elt F) (sL c)) (x : S1x1x1x256x64.Idx) :
    (A4.access rV).write (Elt F) f (k0_pay3 (k0_pay2 (stgV m ρ c))) Finset.univ ((A4.access rV).emb x)
      = scr (pubOf m ρ) c ((A4.access rV).emb x) := by
  obtain ⟨e0, e1, e2, e3, e4⟩ := rHalf_emb 1 inb_S8x4x2x256x64_S1x1x1x256x64_0_0_1_0_0 x
  rw [View.write_emb_of_mem _ _ (Finset.mem_univ x)]
  show _ = pubOf m ρ (srcDev c ((A4.access rV).emb x 0).val ((A4.access rV).emb x 1).val)
    ((A4.access rV).emb x 2).val ((A4.access rV).emb x 3).val ((A4.access rV).emb x 4).val
  rw [e0, e1, e2, e3, e4, srcDev_own]
  unfold pubOf slabV
  rw [if_neg (by decide), slab_idx x]
  rfl

/-- THE FIRST STORE: on its rectangle the buffer now holds the intended contents, -/
theorem publish_k (c : Dev nD) (f : Buf (Elt F) (sL c)) (idx : S8x4x2x256x64.Idx) (h : idx ∈ (A4.access rK).set) :
    (A4.access rK).write (Elt F) f (k0_pay1 (stgK m ρ c)) Finset.univ idx = scr (pubOf m ρ) c idx := by
  obtain ⟨x, -, rfl⟩ := Finset.mem_map.1 h
  exact publish_k_emb m ρ c f x

/-- and off its rectangle the buffer is unchanged. -/
theorem publish_k_off (c : Dev nD) (f : Buf (Elt F) (sL c)) (idx : S8x4x2x256x64.Idx) (h : idx ∉ (A4.access rK).set) :
    (A4.access rK).write (Elt F) f (k0_pay1 (stgK m ρ c)) Finset.univ idx = f idx :=
  View.write_of_not_mem f _ Finset.univ h

/-- THE SECOND STORE, over any contents: on its rectangle the intended contents, -/
theorem publish_v (c : Dev nD) (f : Buf (Elt F) (sL c)) (idx : S8x4x2x256x64.Idx) (h : idx ∈ (A4.access rV).set) :
    (A4.access rV).write (Elt F) f (k0_pay3 (k0_pay2 (stgV m ρ c))) Finset.univ idx = scr (pubOf m ρ) c idx := by
  obtain ⟨x, -, rfl⟩ := Finset.mem_map.1 h
  exact publish_v_emb m ρ c f x

/-- and off its rectangle (in particular on the first store's rectangle) the buffer is unchanged. -/
theorem publish_v_off (c : Dev nD) (f : Buf (Elt F) (sL c)) (idx : S8x4x2x256x64.Idx) (h : idx ∉ (A4.access rV).set) :
    (A4.access rV).write (Elt F) f (k0_pay3 (k0_pay2 (stgV m ρ c))) Finset.univ idx = f idx :=
  View.write_of_not_mem f _ Finset.univ h

/-- The two rectangles are disjoint: they differ on the third coordinate. -/
theorem rK_not_rV (idx : S8x4x2x256x64.Idx) (h : idx ∈ (A4.access rK).set) : idx ∉ (A4.access rV).set := by
  intro h'
  have h2 := ((rHalf_mem 0 inb_S8x4x2x256x64_S1x1x1x256x64_0_0_0_0_0 idx).1 h).2.2
  have h2' := ((rHalf_mem 1 inb_S8x4x2x256x64_S1x1x1x256x64_0_0_1_0_0 idx).1 h').2.2
  omega

/-- After both stores, every element of either rectangle holds the intended contents. -/
theorem published_at (c : Dev nD) (f : Buf (Elt F) (sL c)) (idx : S8x4x2x256x64.Idx)
    (h : idx ∈ (A4.access rK).set ∪ (A4.access rV).set) :
    (A4.access rV).write (Elt F) ((A4.access rK).write (Elt F) f (k0_pay1 (stgK m ρ c)) Finset.univ)
        (k0_pay3 (k0_pay2 (stgV m ρ c))) Finset.univ idx
      = scr (pubOf m ρ) c idx := by
  rcases Finset.mem_union.1 h with hk | hv
  · rw [publish_v_off m ρ c _ idx (rK_not_rV idx hk)]
    exact publish_k m ρ c f idx hk
  · exact publish_v m ρ c _ idx hv

/-- Slot [0, 0] is the union of the two rectangles. -/
theorem zM0_eq_union : (zM0 : Memref sig .tc .vmem S2x256x64 .bf16).view.set = (A4.access rK).set ∪ (A4.access rV).set := by
  have hz : (zM0 : Memref sig .tc .vmem S2x256x64 .bf16).view.set
      = (Rect.unit (s := S8x4x2x256x64) ![0, 0, 0, 0, 0] S1x1x2x256x64.size inb_S8x4x2x256x64_S1x1x2x256x64_0_0_0_0_0).set := by
    show (((View.whole cc0_scratch0).slice _).reshape _ _).set = _
    rw [View.set_reshape, View.set_slice_whole]
  ext idx
  rw [hz, Finset.mem_union, rHalf_mem 0 inb_S8x4x2x256x64_S1x1x1x256x64_0_0_0_0_0 idx,
    rHalf_mem 1 inb_S8x4x2x256x64_S1x1x1x256x64_0_0_1_0_0 idx, Rect.mem_set_unit]
  constructor
  · intro h
    have h0 : 0 ≤ (idx 0).val ∧ (idx 0).val < 0 + 1 := h 0
    have h1 : 0 ≤ (idx 1).val ∧ (idx 1).val < 0 + 1 := h 1
    have h2 : 0 ≤ (idx 2).val ∧ (idx 2).val < 0 + 2 := h 2
    omega
  · intro h a
    have b3 : (idx 3).val < 256 := (idx 3).isLt
    have b4 : (idx 4).val < 64 := (idx 4).isLt
    match a with
    | ⟨0, _⟩ => show 0 ≤ (idx 0).val ∧ (idx 0).val < 0 + 1; omega
    | ⟨1, _⟩ => show 0 ≤ (idx 1).val ∧ (idx 1).val < 0 + 1; omega
    | ⟨2, _⟩ => show 0 ≤ (idx 2).val ∧ (idx 2).val < 0 + 2; omega
    | ⟨3, _⟩ => show 0 ≤ (idx 3).val ∧ (idx 3).val < 0 + 256; omega
    | ⟨4, _⟩ => show 0 ≤ (idx 4).val ∧ (idx 4).val < 0 + 64; omega

/-- NET: after the two stores, slot [0, 0] of device c holds what the device publishes. -/
theorem published (c : Dev nD) (f : Buf (Elt F) (sL c)) :
    (sL c ↦[(zM0 : Memref sig .tc .vmem S2x256x64 .bf16).view.set]{fullShare}
        ((A4.access rV).write (Elt F) ((A4.access rK).write (Elt F) f (k0_pay1 (stgK m ρ c)) Finset.univ)
          (k0_pay3 (k0_pay2 (stgV m ρ c))) Finset.univ) : sProp 𝕄)
      = (sL c ↦[(zM0 : Memref sig .tc .vmem S2x256x64 .bf16).view.set]{fullShare} scr (pubOf m ρ) c) :=
  pointsTo_congr fun idx hidx => published_at m ρ c f idx (by rw [← zM0_eq_union]; exact hidx)

end Cert.Ring

end

/-- info: 'Cert.Ring.published' depends on axioms: [propext, Classical.choice, Quot.sound] -/
#guard_msgs in #print axioms Cert.Ring.published
-- ==== Proof.Regroup.lean ====
/-
  Regrouping what a device holds of its scratch buffer, and of its semaphores, around the exchange.

  The buffer is slot [0, 0] (the device's own slab), the three landing slots [0, 3], [0, 2], [0, 1] of the links
  across the groups, and the seven landing slots [7] … [1] of the links inside.  A slot's full share is a remainder
  and ten read tokens, one per link.  The copies across the groups read slot [0, 0] under its tokens 0, 1, 2; the
  copies inside read all of slot [0] (slot [0, 0] and the three landing slots) under the tokens 3 … 9 of each of
  its four parts.  What is left of the three landing slots meanwhile (remainder and tokens 0, 1, 2) is the pocket.
  At the exit every token has come back and everything joins to the whole buffer at the full share.
-/
import proofs.«900463_g7700000000000464_dist_ring_attn_i_s256_d64_v7x_i32_f32_1_alg».proof.Proof.Launch
import proofs.«900463_g7700000000000464_dist_ring_attn_i_s256_d64_v7x_i32_f32_1_alg».proof.Proof.BodyDefs
import proofs.«900463_g7700000000000464_dist_ring_attn_i_s256_d64_v7x_i32_f32_1_alg».proof.Proof.Slots
import proofs.«900463_g7700000000000464_dist_ring_attn_i_s256_d64_v7x_i32_f32_1_alg».proof.Proof.BodyAux

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What is left of the three landing slots of the links across the groups while the copies inside read them: of each
    its remainder and its read tokens 0, 1, 2. -/
def pocket (pub : Dev nD → Nat → Nat → Nat → Elt F .bf16) (c : Dev nD) : sProp 𝕄 :=
  iprop((sL c ↦[dstSet c 0]{Transfers.shareDrop fullShare 10} scr pub c) ∗ (sL c ↦[dstSet c 0]{Transfers.shareTokN fullShare 0} scr pub c) ∗ (sL c ↦[dstSet c 0]{Transfers.shareTokN fullShare 1} scr pub c) ∗ (sL c ↦[dstSet c 0]{Transfers.shareTokN fullShare 2} scr pub c)
    ∗ (sL c ↦[dstSet c 1]{Transfers.shareDrop fullShare 10} scr pub c) ∗ (sL c ↦[dstSet c 1]{Transfers.shareTokN fullShare 0} scr pub c) ∗ (sL c ↦[dstSet c 1]{Transfers.shareTokN fullShare 1} scr pub c) ∗ (sL c ↦[dstSet c 1]{Transfers.shareTokN fullShare 2} scr pub c)
    ∗ (sL c ↦[dstSet c 2]{Transfers.shareDrop fullShare 10} scr pub c) ∗ (sL c ↦[dstSet c 2]{Transfers.shareTokN fullShare 0} scr pub c) ∗ (sL c ↦[dstSet c 2]{Transfers.shareTokN fullShare 1} scr pub c) ∗ (sL c ↦[dstSet c 2]{Transfers.shareTokN fullShare 2} scr pub c))

/-- The sources of the seven copies inside the group: token `p` of slot [0, 0] and of the three landing slots is token
    `p` of slot [0]. -/
theorem p_sources (pub : Dev nD → Nat → Nat → Nat → Elt F .bf16) (c : Dev nD) :
    iprop((sL c ↦[(zM0 : Memref sig .tc .vmem S2x256x64 .bf16).view.set]{Transfers.shareTokN fullShare 3} scr pub c)
      ∗ (sL c ↦[(zM0 : Memref sig .tc .vmem S2x256x64 .bf16).view.set]{Transfers.shareTokN fullShare 4} scr pub c)
      ∗ (sL c ↦[(zM0 : Memref sig .tc .vmem S2x256x64 .bf16).view.set]{Transfers.shareTokN fullShare 5} scr pub c)
      ∗ (sL c ↦[(zM0 : Memref sig .tc .vmem S2x256x64 .bf16).view.set]{Transfers.shareTokN fullShare 6} scr pub c)
      ∗ (sL c ↦[(zM0 : Memref sig .tc .vmem S2x256x64 .bf16).view.set]{Transfers.shareTokN fullShare 7} scr pub c)
      ∗ (sL c ↦[(zM0 : Memref sig .tc .vmem S2x256x64 .bf16).view.set]{Transfers.shareTokN fullShare 8} scr pub c)
      ∗ (sL c ↦[(zM0 : Memref sig .tc .vmem S2x256x64 .bf16).view.set]{Transfers.shareTokN fullShare 9} scr pub c)
      ∗ (sL c ↦[dstSet c 0]{fullShare} scr pub c)
      ∗ (sL c ↦[dstSet c 1]{fullShare} scr pub c)
      ∗ (sL c ↦[dstSet c 2]{fullShare} scr pub c))
    ⊢ iprop((sL c ↦[srcSet c 3]{Transfers.shareTokN fullShare 3} scr pub c)
      ∗ (sL c ↦[srcSet c 4]{Transfers.shareTokN fullShare 4} scr pub c)
      ∗ (sL c ↦[srcSet c 5]{Transfers.shareTokN fullShare 5} scr pub c)
      ∗ (sL c ↦[srcSet c 6]{Transfers.shareTokN fullShare 6} scr pub c)
      ∗ (sL c ↦[srcSet c 7]{Transfers.shareTokN fullShare 7} scr pub c)
      ∗ (sL c ↦[srcSet c 8]{Transfers.shareTokN fullShare 8} scr pub c)
      ∗ (sL c ↦[srcSet c 9]{Transfers.shareTokN fullShare 9} scr pub c)
      ∗ pocket pub c) := by
  rw [srcSet_3, srcSet_4, srcSet_5, srcSet_6, srcSet_7, srcSet_8, srcSet_9]
  unfold pocket
  iintro ⟨Z3, Z4, Z5, Z6, Z7, Z8, Z9, H0, H1, H2⟩
  ihave H0' := (toks10_split (F := F)) $$ H0
  icases H0' with ⟨D0, A0, A1, A2, A3, A4, A5, A6, A7, A8, A9⟩
  ihave H1' := (toks10_split (F := F)) $$ H1
  icases H1' with ⟨D1, B0, B1, B2, B3, B4, B5, B6, B7, B8, B9⟩
  ihave H2' := (toks10_split (F := F)) $$ H2
  icases H2' with ⟨D2, C0, C1, C2, C3, C4, C5, C6, C7, C8, C9⟩
  isplitl [Z3 A3 B3 C3]
  · iapply (src_p_join c (scr pub c) (Transfers.shareTokN fullShare 3)).1
    isplitl [Z3]; · iexact Z3
    isplitl [C3]; · iexact C3
    isplitl [B3]; · iexact B3
    iexact A3
  isplitl [Z4 A4 B4 C4]
  · iapply (src_p_join c (scr pub c) (Transfers.shareTokN fullShare 4)).1
    isplitl [Z4]; · iexact Z4
    isplitl [C4]; · iexact C4
    isplitl [B4]; · iexact B4
    iexact A4
  isplitl [Z5 A5 B5 C5]
  · iapply (src_p_join c (scr pub c) (Transfers.shareTokN fullShare 5)).1
    isplitl [Z5]; · iexact Z5
    isplitl [C5]; · iexact C5
    isplitl [B5]; · iexact B5
    iexact A5
  isplitl [Z6 A6 B6 C6]
  · iapply (src_p_join c (scr pub c) (Transfers.shareTokN fullShare 6)).1
    isplitl [Z6]; · iexact Z6
    isplitl [C6]; · iexact C6
    isplitl [B6]; · iexact B6
    iexact A6
  isplitl [Z7 A7 B7 C7]
  · iapply (src_p_join c (scr pub c) (Transfers.shareTokN fullShare 7)).1
    isplitl [Z7]; · iexact Z7
    isplitl [C7]; · iexact C7
    isplitl [B7]; · iexact B7
    iexact A7
  isplitl [Z8 A8 B8 C8]
  · iapply (src_p_join c (scr pub c) (Transfers.shareTokN fullShare 8)).1
    isplitl [Z8]; · iexact Z8
    isplitl [C8]; · iexact C8
    isplitl [B8]; · iexact B8
    iexact A8
  isplitl [Z9 A9 B9 C9]
  · iapply (src_p_join c (scr pub c) (Transfers.shareTokN fullShare 9)).1
    isplitl [Z9]; · iexact Z9
    isplitl [C9]; · iexact C9
    isplitl [B9]; · iexact B9
    iexact A9
  isplitl [D0]; · iexact D0
  isplitl [A0]; · iexact A0
  isplitl [A1]; · iexact A1
  isplitl [A2]; · iexact A2
  isplitl [D1]; · iexact D1
  isplitl [B0]; · iexact B0
  isplitl [B1]; · iexact B1
  isplitl [B2]; · iexact B2
  isplitl [D2]; · iexact D2
  isplitl [C0]; · iexact C0
  isplitl [C1]; · iexact C1
  iexact C2

/-- At the exit: the remainder of slot [0, 0], the ten sources back from the send waits, the pocket and the seven
    landing slots inside are the whole buffer. -/
theorem collect (pub : Dev nD → Nat → Nat → Nat → Elt F .bf16) (c : Dev nD) :
    iprop((sL c ↦[(zM0 : Memref sig .tc .vmem S2x256x64 .bf16).view.set]{Transfers.shareDrop fullShare 10} scr pub c)
      ∗ (sL c ↦[srcSet c 0]{Transfers.shareTokN fullShare 0} scr pub c)
      ∗ (sL c ↦[srcSet c 1]{Transfers.shareTokN fullShare 1} scr pub c)
      ∗ (sL c ↦[srcSet c 2]{Transfers.shareTokN fullShare 2} scr pub c)
      ∗ (sL c ↦[srcSet c 3]{Transfers.shareTokN fullShare 3} scr pub c)
      ∗ (sL c ↦[srcSet c 4]{Transfers.shareTokN fullShare 4} scr pub c)
      ∗ (sL c ↦[srcSet c 5]{Transfers.shareTokN fullShare 5} scr pub c)
      ∗ (sL c ↦[srcSet c 6]{Transfers.shareTokN fullShare 6} scr pub c)
      ∗ (sL c ↦[srcSet c 7]{Transfers.shareTokN fullShare 7} scr pub c)
      ∗ (sL c ↦[srcSet c 8]{Transfers.shareTokN fullShare 8} scr pub c)
      ∗ (sL c ↦[srcSet c 9]{Transfers.shareTokN fullShare 9} scr pub c)
      ∗ pocket pub c
      ∗ (sL c ↦[dstSet c 3]{fullShare} scr pub c)
      ∗ (sL c ↦[dstSet c 4]{fullShare} scr pub c)
      ∗ (sL c ↦[dstSet c 5]{fullShare} scr pub c)
      ∗ (sL c ↦[dstSet c 6]{fullShare} scr pub c)
      ∗ (sL c ↦[dstSet c 7]{fullShare} scr pub c)
      ∗ (sL c ↦[dstSet c 8]{fullShare} scr pub c)
      ∗ (sL c ↦[dstSet c 9]{fullShare} scr pub c))
    ⊢ iprop(∃ f : Buf (Elt F) (sL c), sL c ↦{fullShare} f) := by
  rw [srcSet_0, srcSet_1, srcSet_2, srcSet_3, srcSet_4, srcSet_5, srcSet_6, srcSet_7, srcSet_8, srcSet_9]
  unfold pocket
  iintro ⟨ZD, Z0, Z1, Z2, S3, S4, S5, S6, S7, S8, S9, ⟨D0, A0, A1, A2, D1, B0, B1, B2, D2, C0, C1, C2⟩, L3, L4, L5, L6, L7, L8, L9⟩
  ihave S3' := (src_p_join c (scr pub c) (Transfers.shareTokN fullShare 3)).2 $$ S3
  icases S3' with ⟨Z3, C3, B3, A3⟩
  ihave S4' := (src_p_join c (scr pub c) (Transfers.shareTokN fullShare 4)).2 $$ S4
  icases S4' with ⟨Z4, C4, B4, A4⟩
  ihave S5' := (src_p_join c (scr pub c) (Transfers.shareTokN fullShare 5)).2 $$ S5
  icases S5' with ⟨Z5, C5, B5, A5⟩
  ihave S6' := (src_p_join c (scr pub c) (Transfers.shareTokN fullShare 6)).2 $$ S6
  icases S6' with ⟨Z6, C6, B6, A6⟩
  ihave S7' := (src_p_join c (scr pub c) (Transfers.shareTokN fullShare 7)).2 $$ S7
  icases S7' with ⟨Z7, C7, B7, A7⟩
  ihave S8' := (src_p_join c (scr pub c) (Transfers.shareTokN fullShare 8)).2 $$ S8
  icases S8' with ⟨Z8, C8, B8, A8⟩
  ihave S9' := (src_p_join c (scr pub c) (Transfers.shareTokN fullShare 9)).2 $$ S9
  icases S9' with ⟨Z9, C9, B9, A9⟩
  iexists (scr pub c)
  iapply (scr_join (F := F) c (scr pub c))
  isplitl [ZD Z0 Z1 Z2 Z3 Z4 Z5 Z6 Z7 Z8 Z9]
  · iapply (toks10_join (F := F))
    isplitl [ZD]; · iexact ZD
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  isplitl [D0 A0 A1 A2 A3 A4 A5 A6 A7 A8 A9]
  · iapply (toks10_join (F := F))
    isplitl [D0]; · iexact D0
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [D1 B0 B1 B2 B3 B4 B5 B6 B7 B8 B9]
  · iapply (toks10_join (F := F))
    isplitl [D1]; · iexact D1
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  isplitl [D2 C0 C1 C2 C3 C4 C5 C6 C7 C8 C9]
  · iapply (toks10_join (F := F))
    isplitl [D2]; · iexact D2
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    iexact C9
  isplitl [L3]; · iexact L3
  isplitl [L4]; · iexact L4
  isplitl [L5]; · iexact L5
  isplitl [L6]; · iexact L6
  isplitl [L7]; · iexact L7
  isplitl [L8]; · iexact L8
  iexact L9

omit [FloatOps F] in
/-- The ten send cells' and the ten receive cells' counters at zero and the four idle semaphores are the kernel's own
    semaphores at zero. -/
theorem exit_sems (c : Dev nD) :
    iprop(semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (sendCell 7 c) 0 ∗ semVal (sendCell 8 c) 0 ∗ semVal (sendCell 9 c) 0 ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0 ∗ semVal (recvCell 7 c) 0 ∗ semVal (recvCell 8 c) 0 ∗ semVal (recvCell 9 c) 0 ∗ idle (F := F) c)
    ⊢ (Pipeline.ownSems0 (Ix := Unit) (Name := ℕ) (U := UU) (Lvl := ℕ) (Val := Elt F) (τ := τ) osem c : sProp 𝕄) := by
  rw [ownSems0_eq, bigSep_fin10, bigSep_fin10]
  iintro ⟨S0, S1, S2, S3, S4, S5, S6, S7, S8, S9, R0, R1, R2, R3, R4, R5, R6, R7, R8, R9, HI⟩
  isplitl [S0 S1 S2 S3 S4 S5 S6 S7 S8 S9]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [R0 R1 R2 R3 R4 R5 R6 R7 R8 R9]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact HI

/-- info: 'Cert.Ring.p_sources' depends on axioms: [propext, Classical.choice, Quot.sound] -/
#guard_msgs in #print axioms p_sources
/-- info: 'Cert.Ring.collect' depends on axioms: [propext, Classical.choice, Quot.sound] -/
#guard_msgs in #print axioms collect
/-- info: 'Cert.Ring.exit_sems' depends on axioms: [propext, Classical.choice, Quot.sound] -/
#guard_msgs in #print axioms exit_sems

end Cert.Ring

end
-- ==== Proof.Body.lean ====
/-
  One device's body of the two-stage exchange, stepped rule by rule from the device's ghost state.

  In program order: the device cuts its scratch buffer into slot [0,0] and the ten landing slots; with each of its ten
  entry signals it hands the far end of a link the landing slot that end's copy will write; its wait for ten units on
  its barrier cell brings back, from every far end, that end's landing slot for this device's own copy.  It stores the
  slabs of its k and v blocks into slot [0,0], which then holds what the device publishes, and takes ten read tokens
  of it.  The three copies across the groups read slot [0,0] at tokens 0, 1, 2; each of their landings, once waited
  for, returns a slot [0,i] holding the slab of the device 8·i further round, which the body loads.  The three landed
  slots are cut into tokens too, and slot [0] — the four slabs together — is read by the seven copies inside the group
  at tokens 3 … 9; each of their landings returns a slot [s] of four slabs, loaded in turn.  The result store writes
  the kernel's output term of the staged blocks and the loaded slabs.  The ten send waits return the tokens, the
  twenty cells close with their counters at zero, and the scratch buffer is whole again.
-/
import proofs.«900463_g7700000000000464_dist_ring_attn_i_s256_d64_v7x_i32_f32_1_alg».proof.Proof.Steps
import proofs.«900463_g7700000000000464_dist_ring_attn_i_s256_d64_v7x_i32_f32_1_alg».proof.Proof.Launch
import proofs.«900463_g7700000000000464_dist_ring_attn_i_s256_d64_v7x_i32_f32_1_alg».proof.Proof.BodyDefs
import proofs.«900463_g7700000000000464_dist_ring_attn_i_s256_d64_v7x_i32_f32_1_alg».proof.Proof.BodyOb
import proofs.«900463_g7700000000000464_dist_ring_attn_i_s256_d64_v7x_i32_f32_1_alg».proof.Proof.Slots
import proofs.«900463_g7700000000000464_dist_ring_attn_i_s256_d64_v7x_i32_f32_1_alg».proof.Proof.BodyAux
import proofs.«900463_g7700000000000464_dist_ring_attn_i_s256_d64_v7x_i32_f32_1_alg».proof.Proof.Publish
import proofs.«900463_g7700000000000464_dist_ring_attn_i_s256_d64_v7x_i32_f32_1_alg».proof.Proof.OutAt
import proofs.«900463_g7700000000000464_dist_ring_attn_i_s256_d64_v7x_i32_f32_1_alg».proof.Proof.Regroup
import proofs.«900463_g7700000000000464_dist_ring_attn_i_s256_d64_v7x_i32_f32_1_alg».proof.Proof.KernelTerm
import proofs.«900463_g7700000000000464_dist_ring_attn_i_s256_d64_v7x_i32_f32_1_alg».proof.Proof.Gen.KernelIdeal.Skeleton
import Idealize.ShloMosaic.Lib.Tactic

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_0 : inv 0 = 2 := rfl
theorem inv_1 : inv 1 = 1 := rfl
theorem inv_2 : inv 2 = 0 := rfl
theorem inv_3 : inv 3 = 9 := rfl
theorem inv_4 : inv 4 = 8 := rfl
theorem inv_5 : inv 5 = 7 := rfl
theorem inv_6 : inv 6 = 6 := rfl
theorem inv_7 : inv 7 = 5 := rfl
theorem inv_8 : inv 8 = 4 := rfl
theorem inv_9 : inv 9 = 3 := rfl

omit [FloatOps F] in
theorem write_out (f w : (cc0_stg3_0 : Ref sig .tc).ty.Contents (Elt F)) :
    (((Memref.whole cc0_stg3_0 : Memref sig .tc .vmem S256x64 .f32).access (Rect.unit (s := S256x64) ![0, 0] S256x64.size inb_S256x64_S256x64_0_0) : View sig .tc _ _ _)).write (Elt F) f w Finset.univ = w :=
  Memref.write_access_unit_zero_univ (Elt F) cc0_stg3_0 off2_zero _ f w

set_option maxHeartbeats 8000000 in
set_option maxRecDepth 65536 in
theorem sound_body (K : Dev nD × Fin 21 → ℕ) (c : Dev nD) (Kt : PUnit → sProp 𝕄) :
    iprop(bodyPre (pubOf m ρ) (outOf (pubOf m ρ) m ρ) m ρ K c ∗ (bodyPost (pubOf m ρ) (outOf (pubOf m ρ) m ρ) m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part27_eq_skeleton]; unfold k0_part27_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  unfold bodyPre positions payToks idle
  simp only [bigSep_fin10]
  iintro ⟨⟨⟨#HR, ⟨HaB, HaS0, HaS1, HaS2, HaS3, HaS4, HaS5, HaS6, HaS7, HaS8, HaS9, HaR0, HaR1, HaR2, HaR3, HaR4, HaR5, HaR6, HaR7, HaR8, HaR9⟩,
      ⟨⟨HtB0, HtB1, HtB2, HtB3, HtB4, HtB5, HtB6, HtB7, HtB8, HtB9⟩, ⟨HtR0, HtR1, HtR2, HtR3, HtR4, HtR5, HtR6, HtR7, HtR8, HtR9⟩, HtS0, HtS1, HtS2, HtS3, HtS4, HtS5, HtS6, HtS7, HtS8, HtS9⟩,
      ⟨Hi4, Hi8, Hi12, Hi20⟩, HcB, ⟨HcR0, HcR1, HcR2, HcR3, HcR4, HcR5, HcR6, HcR7, HcR8, HcR9⟩, #Hlev, ⟨%f0, Hscr⟩⟩,
    Ho, ⟨%d0, %g0, %hg0, Hq⟩, ⟨%d1, %g1, %hg1, Hk1⟩, ⟨%d2, %g2, %hg2, Hv⟩, ⟨%d3, %g3, %hg3, Hout⟩⟩, Hk⟩
  unfold Dat.owesAt Pipeline.owesWithin
  icases Ho with ⟨%W, %hW, HO⟩
  rw [show (dats (pubOf m ρ) (outOf (pubOf m ρ) m ρ) m ρ 0 c).owed t0_0.castSucc = O₀ c from rfl]
  ihave Hs := (scr_split c f0) $$ Hscr
  icases Hs with ⟨Hz0, Hd0, Hd1, Hd2, Hd3, Hd4, Hd5, Hd6, Hd7, Hd8, Hd9⟩
  rw [show O₀ c = owedLast c 20 (by omega) from rfl]
  -- the entry signal along link 0
  rw [show owedLast c 20 (by omega) = owedLast c 19 (by omega) + tallyAt (barCell (peer 0 c)) () 1 from rfl]
  iapply (wp_sig (pubOf m ρ) K c _ 0 (dev1_eq c) (owedLast c 19 (by omega)) W) $$ [HO HtB0 Hd2]
  · isplitr; · iexact HR
    isplitl [HO]; · iexact HO
    isplitl [HtB0]; · iexact HtB0
    iexists f0; iexact Hd2
  iintro HO
  -- the entry signal along link 1
  rw [show owedLast c 19 (by omega) = owedLast c 18 (by omega) + tallyAt (barCell (peer 1 c)) () 1 from rfl]
  iapply (wp_sig (pubOf m ρ) K c _ 1 (dev2_eq c) (owedLast c 18 (by omega)) W) $$ [HO HtB1 Hd1]
  · isplitr; · iexact HR
    isplitl [HO]; · iexact HO
    isplitl [HtB1]; · iexact HtB1
    iexists f0; iexact Hd1
  iintro HO
  -- the entry signal along link 2
  rw [show owedLast c 18 (by omega) = owedLast c 17 (by omega) + tallyAt (barCell (peer 2 c)) () 1 from rfl]
  iapply (wp_sig (pubOf m ρ) K c _ 2 (dev3_eq c) (owedLast c 17 (by omega)) W) $$ [HO HtB2 Hd0]
  · isplitr; · iexact HR
    isplitl [HO]; · iexact HO
    isplitl [HtB2]; · iexact HtB2
    iexists f0; iexact Hd0
  iintro HO
  -- the entry signal along link 3
  rw [show owedLast c 17 (by omega) = owedLast c 16 (by omega) + tallyAt (barCell (peer 3 c)) () 1 from rfl]
  iapply (wp_sig (pubOf m ρ) K c _ 3 (dev4_eq c) (owedLast c 16 (by omega)) W) $$ [HO HtB3 Hd9]
  · isplitr; · iexact HR
    isplitl [HO]; · iexact HO
    isplitl [HtB3]; · iexact HtB3
    iexists f0; iexact Hd9
  iintro HO
  -- the entry signal along link 4
  rw [show owedLast c 16 (by omega) = owedLast c 15 (by omega) + tallyAt (barCell (peer 4 c)) () 1 from rfl]
  iapply (wp_sig (pubOf m ρ) K c _ 4 (dev5_eq c) (owedLast c 15 (by omega)) W) $$ [HO HtB4 Hd8]
  · isplitr; · iexact HR
    isplitl [HO]; · iexact HO
    isplitl [HtB4]; · iexact HtB4
    iexists f0; iexact Hd8
  iintro HO
  -- the entry signal along link 5
  rw [show owedLast c 15 (by omega) = owedLast c 14 (by omega) + tallyAt (barCell (peer 5 c)) () 1 from rfl]
  iapply (wp_sig (pubOf m ρ) K c _ 5 (dev6_eq c) (owedLast c 14 (by omega)) W) $$ [HO HtB5 Hd7]
  · isplitr; · iexact HR
    isplitl [HO]; · iexact HO
    isplitl [HtB5]; · iexact HtB5
    iexists f0; iexact Hd7
  iintro HO
  -- the entry signal along link 6
  rw [show owedLast c 14 (by omega) = owedLast c 13 (by omega) + tallyAt (barCell (peer 6 c)) () 1 from rfl]
  iapply (wp_sig (pubOf m ρ) K c _ 6 (dev7_eq c) (owedLast c 13 (by omega)) W) $$ [HO HtB6 Hd6]
  · isplitr; · iexact HR
    isplitl [HO]; · iexact HO
    isplitl [HtB6]; · iexact HtB6
    iexists f0; iexact Hd6
  iintro HO
  -- the entry signal along link 7
  rw [show owedLast c 13 (by omega) = owedLast c 12 (by omega) + tallyAt (barCell (peer 7 c)) () 1 from rfl]
  iapply (wp_sig (pubOf m ρ) K c _ 7 (dev8_eq c) (owedLast c 12 (by omega)) W) $$ [HO HtB7 Hd5]
  · isplitr; · iexact HR
    isplitl [HO]; · iexact HO
    isplitl [HtB7]; · iexact HtB7
    iexists f0; iexact Hd5
  iintro HO
  -- the entry signal along link 8
  rw [show owedLast c 12 (by omega) = owedLast c 11 (by omega) + tallyAt (barCell (peer 8 c)) () 1 from rfl]
  iapply (wp_sig (pubOf m ρ) K c _ 8 (dev9_eq c) (owedLast c 11 (by omega)) W) $$ [HO HtB8 Hd4]
  · isplitr; · iexact HR
    isplitl [HO]; · iexact HO
    isplitl [HtB8]; · iexact HtB8
    iexists f0; iexact Hd4
  iintro HO
  -- the entry signal along link 9
  rw [show owedLast c 11 (by omega) = owedLast c 10 (by omega) + tallyAt (barCell (peer 9 c)) () 1 from rfl]
  iapply (wp_sig (pubOf m ρ) K c _ 9 (dev10_eq c) (owedLast c 10 (by omega)) W) $$ [HO HtB9 Hd3]
  · isplitr; · iexact HR
    isplitl [HO]; · iexact HO
    isplitl [HtB9]; · iexact HtB9
    iexists f0; iexact Hd3
  iintro HO
  -- the wait for the ten units on the barrier cell
  iapply (wp_barwait (pubOf m ρ) K c (owedLast c 10 (by omega)) W (mayWait_bar c)) $$ [HcB HO HaB]
  · isplitr; · iexact HR
    isplitr; · iexact Hlev
    isplitl [HcB]; · iexact HcB
    isplitl [HO]; · iexact HO
    iexact HaB
  iintro ⟨HO, HaB, #HrB1, Hpay⟩
  ihave Hp := (Entails.of_eq (bigSep_fin10 _)) $$ Hpay
  unfold barPay
  simp only [inv_0, inv_1, inv_2, inv_3, inv_4, inv_5, inv_6, inv_7, inv_8, inv_9]
  icases Hp with ⟨⟨⟨%fn2, Hn2⟩, #Hrn2⟩, ⟨⟨%fn1, Hn1⟩, #Hrn1⟩, ⟨⟨%fn0, Hn0⟩, #Hrn0⟩, ⟨⟨%fn9, Hn9⟩, #Hrn9⟩, ⟨⟨%fn8, Hn8⟩, #Hrn8⟩, ⟨⟨%fn7, Hn7⟩, #Hrn7⟩, ⟨⟨%fn6, Hn6⟩, #Hrn6⟩, ⟨⟨%fn5, Hn5⟩, #Hrn5⟩, ⟨⟨%fn4, Hn4⟩, #Hrn4⟩, ⟨⟨%fn3, Hn3⟩, #Hrn3⟩⟩
  -- the staged blocks are the blocks as launched
  have hq : g0 = stgQ m ρ c := by rw [hg0]; unfold Dat.before; rw [if_pos (show (cfg0.win (0 : Fin 4)).fetch t0_0 = true from rfl)]; rfl
  have hk1 : g1 = stgK m ρ c := by rw [hg1]; unfold Dat.before; rw [if_pos (show (cfg0.win (1 : Fin 4)).fetch t0_0 = true from rfl)]; rfl
  have hv : g2 = stgV m ρ c := by rw [hg2]; unfold Dat.before; rw [if_pos (show (cfg0.win (2 : Fin 4)).fetch t0_0 = true from rfl)]; rfl
  subst hq; subst hk1; subst hv
  -- publish: the slab of the k block, then of the v block, into slot [0,0]
  iapply (wp_load 𝒱₀ (c : Thread nD τ) none Set.univ (m := (Memref.whole cc0_stg1_0 : Memref sig .tc .vmem S256x64 .f32)) (Finset.subset_univ _)) $$ Hk1
  iintro Hk1
  rw [read_stg1]
  iapply (wp_load 𝒱₀ (c : Thread nD τ) none Set.univ (m := A4) (load_half_subset 0 0 lt_0_4 _)) $$ Hz0
  iintro Hz0
  iapply (wp_store 𝒱₀ (c : Thread nD τ) none Set.univ (m := A4) (r := rK) (Mk := Finset.univ) (store_half_subset 0 0 lt_0_4 _)) $$ Hz0
  iintro Hz0
  iapply (wp_load 𝒱₀ (c : Thread nD τ) none Set.univ (m := (Memref.whole cc0_stg2_0 : Memref sig .tc .vmem S256x64 .f32)) (Finset.subset_univ _)) $$ Hv
  iintro Hv
  rw [read_stg2]
  iapply (wp_load 𝒱₀ (c : Thread nD τ) none Set.univ (m := A4) (load_half_subset 0 1 lt_0_4 _)) $$ Hz0
  iintro Hz0
  iapply (wp_store 𝒱₀ (c : Thread nD τ) none Set.univ (m := A4) (r := rV) (Mk := Finset.univ) (store_half_subset 0 1 lt_0_4 _)) $$ Hz0
  iintro Hz0
  ihave Hz0 := (Entails.of_eq (published m ρ c f0)) $$ Hz0
  -- ten read tokens of slot [0,0], one per copy that reads it
  ihave Ht := toks10_split $$ Hz0
  icases Ht with ⟨Hz0r, Hz0t0, Hz0t1, Hz0t2, Hz0t3, Hz0t4, Hz0t5, Hz0t6, Hz0t7, Hz0t8, Hz0t9⟩
  -- the copy along link 0
  rw [show owedLast c 10 (by omega) = owedLast c 9 (by omega) + tallyAt (recvCell 0 (peer 0 c)) () (NL 0) from rfl]
  iapply (wp_copy0 (pubOf m ρ) K c _ (dev11_eq c) (landing_0 (pubOf m ρ) c) (owedLast c 9 (by omega)) (insert (SemLoc.reg barS, ()) W)) $$ [Hz0t0 Hn0 HO HtS0 HtR0]
  · isplitr; · iexact HR
    isplitl [Hz0t0]; · iexact Hz0t0
    isplitl [Hn0]; · iexists fn0; iexact Hn0
    isplitl [HO]; · iexact HO
    isplitl [HtS0]; · iexact HtS0
    iexact HtR0
  iintro ⟨HcS0, HO⟩
  -- the copy along link 1
  rw [show owedLast c 9 (by omega) = owedLast c 8 (by omega) + tallyAt (recvCell 1 (peer 1 c)) () (NL 1) from rfl]
  iapply (wp_copy1 (pubOf m ρ) K c _ (dev12_eq c) (landing_1 (pubOf m ρ) c) (owedLast c 8 (by omega)) (insert (SemLoc.reg barS, ()) W)) $$ [Hz0t1 Hn1 HO HtS1 HtR1]
  · isplitr; · iexact HR
    isplitl [Hz0t1]; · iexact Hz0t1
    isplitl [Hn1]; · iexists fn1; iexact Hn1
    isplitl [HO]; · iexact HO
    isplitl [HtS1]; · iexact HtS1
    iexact HtR1
  iintro ⟨HcS1, HO⟩
  -- the copy along link 2
  rw [show owedLast c 8 (by omega) = owedLast c 7 (by omega) + tallyAt (recvCell 2 (peer 2 c)) () (NL 2) from rfl]
  iapply (wp_copy2 (pubOf m ρ) K c _ (dev13_eq c) (landing_2 (pubOf m ρ) c) (owedLast c 7 (by omega)) (insert (SemLoc.reg barS, ()) W)) $$ [Hz0t2 Hn2 HO HtS2 HtR2]
  · isplitr; · iexact HR
    isplitl [Hz0t2]; · iexact Hz0t2
    isplitl [Hn2]; · iexists fn2; iexact Hn2
    isplitl [HO]; · iexact HO
    isplitl [HtS2]; · iexact HtS2
    iexact HtR2
  iintro ⟨HcS2, HO⟩
  -- the own blocks, staged
  iapply (wp_load 𝒱₀ (c : Thread nD τ) none Set.univ (m := (Memref.whole cc0_stg0_0 : Memref sig .tc .vmem S256x64 .f32)) (Finset.subset_univ _)) $$ Hq
  iintro Hq
  rw [read_stg0]
  iapply (wp_load 𝒱₀ (c : Thread nD τ) none Set.univ (m := (Memref.whole cc0_stg1_0 : Memref sig .tc .vmem S256x64 .f32)) (Finset.subset_univ _)) $$ Hk1
  iintro Hk1
  rw [read_stg1]
  iapply (wp_load 𝒱₀ (c : Thread nD τ) none Set.univ (m := (Memref.whole cc0_stg2_0 : Memref sig .tc .vmem S256x64 .f32)) (Finset.subset_univ _)) $$ Hv
  iintro Hv
  rw [read_stg2]
  -- the landing along link 0: slot [0,3], then its two loads
  iapply (wp_recvwait (pubOf m ρ) K c 0 (owedLast c 7 (by omega)) (insert (SemLoc.reg barS, ()) W) (mayWait_zrecv c 0 (by decide)) credit_dst_0) $$ [HcR0 HO HaR0]
  · isplitr; · iexact HR
    isplitr; · iexact Hlev
    isplitl [HcR0]; · iexact HcR0
    isplitl [HO]; · iexact HO
    iexact HaR0
  iintro ⟨HO, HaR0, #HrR0n, Hl0⟩
  unfold recvPay
  iapply (wp_load 𝒱₀ (c : Thread nD τ) none Set.univ (m := A4) (show A4.view.setOn (Rect.unit (s := S8x4x2x256x64) ![0, 3, 0, 0, 0] S1x1x1x256x64.size inb_S8x4x2x256x64_S1x1x1x256x64_0_3_0_0_0).toLoadRect.set ⊆ dstSet c 0 from load_half_subset 3 0 lt_3_4 _)) $$ Hl0
  iintro Hl0
  iapply (wp_load 𝒱₀ (c : Thread nD τ) none Set.univ (m := A4) (show A4.view.setOn (Rect.unit (s := S8x4x2x256x64) ![0, 3, 1, 0, 0] S1x1x1x256x64.size inb_S8x4x2x256x64_S1x1x1x256x64_0_3_1_0_0).toLoadRect.set ⊆ dstSet c 0 from load_half_subset 3 1 lt_3_4 _)) $$ Hl0
  iintro Hl0
  -- the landing along link 1: slot [0,2], then its two loads
  iapply (wp_recvwait (pubOf m ρ) K c 1 (owedLast c 7 (by omega)) (insert (SemLoc.dma (rS 0), ()) (insert (SemLoc.reg barS, ()) W)) (mayWait_zrecv c 1 (by decide)) credit_dst_1) $$ [HcR1 HO HaR1]
  · isplitr; · iexact HR
    isplitr; · iexact Hlev
    isplitl [HcR1]; · iexact HcR1
    isplitl [HO]; · iexact HO
    iexact HaR1
  iintro ⟨HO, HaR1, #HrR1n, Hl1⟩
  unfold recvPay
  iapply (wp_load 𝒱₀ (c : Thread nD τ) none Set.univ (m := A4) (show A4.view.setOn (Rect.unit (s := S8x4x2x256x64) ![0, 2, 0, 0, 0] S1x1x1x256x64.size inb_S8x4x2x256x64_S1x1x1x256x64_0_2_0_0_0).toLoadRect.set ⊆ dstSet c 1 from load_half_subset 2 0 lt_2_4 _)) $$ Hl1
  iintro Hl1
  iapply (wp_load 𝒱₀ (c : Thread nD τ) none Set.univ (m := A4) (show A4.view.setOn (Rect.unit (s := S8x4x2x256x64) ![0, 2, 1, 0, 0] S1x1x1x256x64.size inb_S8x4x2x256x64_S1x1x1x256x64_0_2_1_0_0).toLoadRect.set ⊆ dstSet c 1 from load_half_subset 2 1 lt_2_4 _)) $$ Hl1
  iintro Hl1
  -- the landing along link 2: slot [0,1], then its two loads
  iapply (wp_recvwait (pubOf m ρ) K c 2 (owedLast c 7 (by omega)) (insert (SemLoc.dma (rS 1), ()) (insert (SemLoc.dma (rS 0), ()) (insert (SemLoc.reg barS, ()) W))) (mayWait_zrecv c 2 (by decide)) credit_dst_2) $$ [HcR2 HO HaR2]
  · isplitr; · iexact HR
    isplitr; · iexact Hlev
    isplitl [HcR2]; · iexact HcR2
    isplitl [HO]; · iexact HO
    iexact HaR2
  iintro ⟨HO, HaR2, #HrR2n, Hl2⟩
  unfold recvPay
  iapply (wp_load 𝒱₀ (c : Thread nD τ) none Set.univ (m := A4) (show A4.view.setOn (Rect.unit (s := S8x4x2x256x64) ![0, 1, 0, 0, 0] S1x1x1x256x64.size inb_S8x4x2x256x64_S1x1x1x256x64_0_1_0_0_0).toLoadRect.set ⊆ dstSet c 2 from load_half_subset 1 0 lt_1_4 _)) $$ Hl2
  iintro Hl2
  iapply (wp_load 𝒱₀ (c : Thread nD τ) none Set.univ (m := A4) (show A4.view.setOn (Rect.unit (s := S8x4x2x256x64) ![0, 1, 1, 0, 0] S1x1x1x256x64.size inb_S8x4x2x256x64_S1x1x1x256x64_0_1_1_0_0).toLoadRect.set ⊆ dstSet c 2 from load_half_subset 1 1 lt_1_4 _)) $$ Hl2
  iintro Hl2
  ihave Hu0 := toks10_split $$ Hl0
  icases Hu0 with ⟨Hl0r, Hl0t0, Hl0t1, Hl0t2, Hl0t3, Hl0t4, Hl0t5, Hl0t6, Hl0t7, Hl0t8, Hl0t9⟩
  ihave Hu1 := toks10_split $$ Hl1
  icases Hu1 with ⟨Hl1r, Hl1t0, Hl1t1, Hl1t2, Hl1t3, Hl1t4, Hl1t5, Hl1t6, Hl1t7, Hl1t8, Hl1t9⟩
  ihave Hu2 := toks10_split $$ Hl2
  icases Hu2 with ⟨Hl2r, Hl2t0, Hl2t1, Hl2t2, Hl2t3, Hl2t4, Hl2t5, Hl2t6, Hl2t7, Hl2t8, Hl2t9⟩
  ihave Hs3 := (src_p_join c (scr (pubOf m ρ) c) (Transfers.shareTokN fullShare 3)).1 $$ [Hz0t3 Hl2t3 Hl1t3 Hl0t3]
  · isplitl [Hz0t3]; · iexact Hz0t3
    isplitl [Hl2t3]; · iexact Hl2t3
    isplitl [Hl1t3]; · iexact Hl1t3
    iexact Hl0t3
  ihave Hs4 := (src_p_join c (scr (pubOf m ρ) c) (Transfers.shareTokN fullShare 4)).1 $$ [Hz0t4 Hl2t4 Hl1t4 Hl0t4]
  · isplitl [Hz0t4]; · iexact Hz0t4
    isplitl [Hl2t4]; · iexact Hl2t4
    isplitl [Hl1t4]; · iexact Hl1t4
    iexact Hl0t4
  ihave Hs5 := (src_p_join c (scr (pubOf m ρ) c) (Transfers.shareTokN fullShare 5)).1 $$ [Hz0t5 Hl2t5 Hl1t5 Hl0t5]
  · isplitl [Hz0t5]; · iexact Hz0t5
    isplitl [Hl2t5]; · iexact Hl2t5
    isplitl [Hl1t5]; · iexact Hl1t5
    iexact Hl0t5
  ihave Hs6 := (src_p_join c (scr (pubOf m ρ) c) (Transfers.shareTokN fullShare 6)).1 $$ [Hz0t6 Hl2t6 Hl1t6 Hl0t6]
  · isplitl [Hz0t6]; · iexact Hz0t6
    isplitl [Hl2t6]; · iexact Hl2t6
    isplitl [Hl1t6]; · iexact Hl1t6
    iexact Hl0t6
  ihave Hs7 := (src_p_join c (scr (pubOf m ρ) c) (Transfers.shareTokN fullShare 7)).1 $$ [Hz0t7 Hl2t7 Hl1t7 Hl0t7]
  · isplitl [Hz0t7]; · iexact Hz0t7
    isplitl [Hl2t7]; · iexact Hl2t7
    isplitl [Hl1t7]; · iexact Hl1t7
    iexact Hl0t7
  ihave Hs8 := (src_p_join c (scr (pubOf m ρ) c) (Transfers.shareTokN fullShare 8)).1 $$ [Hz0t8 Hl2t8 Hl1t8 Hl0t8]
  · isplitl [Hz0t8]; · iexact Hz0t8
    isplitl [Hl2t8]; · iexact Hl2t8
    isplitl [Hl1t8]; · iexact Hl1t8
    iexact Hl0t8
  ihave Hs9 := (src_p_join c (scr (pubOf m ρ) c) (Transfers.shareTokN fullShare 9)).1 $$ [Hz0t9 Hl2t9 Hl1t9 Hl0t9]
  · isplitl [Hz0t9]; · iexact Hz0t9
    isplitl [Hl2t9]; · iexact Hl2t9
    isplitl [Hl1t9]; · iexact Hl1t9
    iexact Hl0t9
  -- the copy along link 3
  rw [show owedLast c 7 (by omega) = owedLast c 6 (by omega) + tallyAt (recvCell 3 (peer 3 c)) () (NL 3) from rfl]
  iapply (wp_copy3 (pubOf m ρ) K c _ (dev14_eq c) (landing_3 (pubOf m ρ) c) (owedLast c 6 (by omega)) (insert (SemLoc.dma (rS 2), ()) (insert (SemLoc.dma (rS 1), ()) (insert (SemLoc.dma (rS 0), ()) (insert (SemLoc.reg barS, ()) W))))) $$ [Hs3 Hn3 HO HtS3 HtR3]
  · isplitr; · iexact HR
    isplitl [Hs3]; · iexact Hs3
    isplitl [Hn3]; · iexists fn3; iexact Hn3
    isplitl [HO]; · iexact HO
    isplitl [HtS3]; · iexact HtS3
    iexact HtR3
  iintro ⟨HcS3, HO⟩
  -- the copy along link 4
  rw [show owedLast c 6 (by omega) = owedLast c 5 (by omega) + tallyAt (recvCell 4 (peer 4 c)) () (NL 4) from rfl]
  iapply (wp_copy4 (pubOf m ρ) K c _ (dev15_eq c) (landing_4 (pubOf m ρ) c) (owedLast c 5 (by omega)) (insert (SemLoc.dma (rS 2), ()) (insert (SemLoc.dma (rS 1), ()) (insert (SemLoc.dma (rS 0), ()) (insert (SemLoc.reg barS, ()) W))))) $$ [Hs4 Hn4 HO HtS4 HtR4]
  · isplitr; · iexact HR
    isplitl [Hs4]; · iexact Hs4
    isplitl [Hn4]; · iexists fn4; iexact Hn4
    isplitl [HO]; · iexact HO
    isplitl [HtS4]; · iexact HtS4
    iexact HtR4
  iintro ⟨HcS4, HO⟩
  -- the copy along link 5
  rw [show owedLast c 5 (by omega) = owedLast c 4 (by omega) + tallyAt (recvCell 5 (peer 5 c)) () (NL 5) from rfl]
  iapply (wp_copy5 (pubOf m ρ) K c _ (dev16_eq c) (landing_5 (pubOf m ρ) c) (owedLast c 4 (by omega)) (insert (SemLoc.dma (rS 2), ()) (insert (SemLoc.dma (rS 1), ()) (insert (SemLoc.dma (rS 0), ()) (insert (SemLoc.reg barS, ()) W))))) $$ [Hs5 Hn5 HO HtS5 HtR5]
  · isplitr; · iexact HR
    isplitl [Hs5]; · iexact Hs5
    isplitl [Hn5]; · iexists fn5; iexact Hn5
    isplitl [HO]; · iexact HO
    isplitl [HtS5]; · iexact HtS5
    iexact HtR5
  iintro ⟨HcS5, HO⟩
  -- the copy along link 6
  rw [show owedLast c 4 (by omega) = owedLast c 3 (by omega) + tallyAt (recvCell 6 (peer 6 c)) () (NL 6) from rfl]
  iapply (wp_copy6 (pubOf m ρ) K c _ (dev17_eq c) (landing_6 (pubOf m ρ) c) (owedLast c 3 (by omega)) (insert (SemLoc.dma (rS 2), ()) (insert (SemLoc.dma (rS 1), ()) (insert (SemLoc.dma (rS 0), ()) (insert (SemLoc.reg barS, ()) W))))) $$ [Hs6 Hn6 HO HtS6 HtR6]
  · isplitr; · iexact HR
    isplitl [Hs6]; · iexact Hs6
    isplitl [Hn6]; · iexists fn6; iexact Hn6
    isplitl [HO]; · iexact HO
    isplitl [HtS6]; · iexact HtS6
    iexact HtR6
  iintro ⟨HcS6, HO⟩
  -- the copy along link 7
  rw [show owedLast c 3 (by omega) = owedLast c 2 (by omega) + tallyAt (recvCell 7 (peer 7 c)) () (NL 7) from rfl]
  iapply (wp_copy7 (pubOf m ρ) K c _ (dev18_eq c) (landing_7 (pubOf m ρ) c) (owedLast c 2 (by omega)) (insert (SemLoc.dma (rS 2), ()) (insert (SemLoc.dma (rS 1), ()) (insert (SemLoc.dma (rS 0), ()) (insert (SemLoc.reg barS, ()) W))))) $$ [Hs7 Hn7 HO HtS7 HtR7]
  · isplitr; · iexact HR
    isplitl [Hs7]; · iexact Hs7
    isplitl [Hn7]; · iexists fn7; iexact Hn7
    isplitl [HO]; · iexact HO
    isplitl [HtS7]; · iexact HtS7
    iexact HtR7
  iintro ⟨HcS7, HO⟩
  -- the copy along link 8
  rw [show owedLast c 2 (by omega) = owedLast c 1 (by omega) + tallyAt (recvCell 8 (peer 8 c)) () (NL 8) from rfl]
  iapply (wp_copy8 (pubOf m ρ) K c _ (dev19_eq c) (landing_8 (pubOf m ρ) c) (owedLast c 1 (by omega)) (insert (SemLoc.dma (rS 2), ()) (insert (SemLoc.dma (rS 1), ()) (insert (SemLoc.dma (rS 0), ()) (insert (SemLoc.reg barS, ()) W))))) $$ [Hs8 Hn8 HO HtS8 HtR8]
  · isplitr; · iexact HR
    isplitl [Hs8]; · iexact Hs8
    isplitl [Hn8]; · iexists fn8; iexact Hn8
    isplitl [HO]; · iexact HO
    isplitl [HtS8]; · iexact HtS8
    iexact HtR8
  iintro ⟨HcS8, HO⟩
  -- the copy along link 9
  rw [show owedLast c 1 (by omega) = owedLast c 0 (by omega) + tallyAt (recvCell 9 (peer 9 c)) () (NL 9) from rfl]
  iapply (wp_copy9 (pubOf m ρ) K c _ (dev20_eq c) (landing_9 (pubOf m ρ) c) (owedLast c 0 (by omega)) (insert (SemLoc.dma (rS 2), ()) (insert (SemLoc.dma (rS 1), ()) (insert (SemLoc.dma (rS 0), ()) (insert (SemLoc.reg barS, ()) W))))) $$ [Hs9 Hn9 HO HtS9 HtR9]
  · isplitr; · iexact HR
    isplitl [Hs9]; · iexact Hs9
    isplitl [Hn9]; · iexists fn9; iexact Hn9
    isplitl [HO]; · iexact HO
    isplitl [HtS9]; · iexact HtS9
    iexact HtR9
  iintro ⟨HcS9, HO⟩
  -- the landing along link 3: slot [7], then its two loads
  iapply (wp_recvwait (pubOf m ρ) K c 3 (owedLast c 0 (by omega)) (insert (SemLoc.dma (rS 2), ()) (insert (SemLoc.dma (rS 1), ()) (insert (SemLoc.dma (rS 0), ()) (insert (SemLoc.reg barS, ()) W)))) (mayWait_zero c (.dma (rS 3))) credit_dst_3) $$ [HcR3 HO HaR3]
  · isplitr; · iexact HR
    isplitr; · iexact Hlev
    isplitl [HcR3]; · iexact HcR3
    isplitl [HO]; · iexact HO
    iexact HaR3
  iintro ⟨HO, HaR3, #HrR3n, Hl3⟩
  unfold recvPay
  iapply (wp_load 𝒱₀ (c : Thread nD τ) none Set.univ (m := A4) (show A4.view.setOn (Rect.unit (s := S8x4x2x256x64) ![7, 0, 0, 0, 0] S1x4x1x256x64.size inb_S8x4x2x256x64_S1x4x1x256x64_7_0_0_0_0).toLoadRect.set ⊆ dstSet c 3 from load_p_subset 7 0 lt_7_8 _)) $$ Hl3
  iintro Hl3
  iapply (wp_load 𝒱₀ (c : Thread nD τ) none Set.univ (m := A4) (show A4.view.setOn (Rect.unit (s := S8x4x2x256x64) ![7, 0, 1, 0, 0] S1x4x1x256x64.size inb_S8x4x2x256x64_S1x4x1x256x64_7_0_1_0_0).toLoadRect.set ⊆ dstSet c 3 from load_p_subset 7 1 lt_7_8 _)) $$ Hl3
  iintro Hl3
  -- the landing along link 4: slot [6], then its two loads
  iapply (wp_recvwait (pubOf m ρ) K c 4 (owedLast c 0 (by omega)) (insert (SemLoc.dma (rS 3), ()) (insert (SemLoc.dma (rS 2), ()) (insert (SemLoc.dma (rS 1), ()) (insert (SemLoc.dma (rS 0), ()) (insert (SemLoc.reg barS, ()) W))))) (mayWait_zero c (.dma (rS 4))) credit_dst_4) $$ [HcR4 HO HaR4]
  · isplitr; · iexact HR
    isplitr; · iexact Hlev
    isplitl [HcR4]; · iexact HcR4
    isplitl [HO]; · iexact HO
    iexact HaR4
  iintro ⟨HO, HaR4, #HrR4n, Hl4⟩
  unfold recvPay
  iapply (wp_load 𝒱₀ (c : Thread nD τ) none Set.univ (m := A4) (show A4.view.setOn (Rect.unit (s := S8x4x2x256x64) ![6, 0, 0, 0, 0] S1x4x1x256x64.size inb_S8x4x2x256x64_S1x4x1x256x64_6_0_0_0_0).toLoadRect.set ⊆ dstSet c 4 from load_p_subset 6 0 lt_6_8 _)) $$ Hl4
  iintro Hl4
  iapply (wp_load 𝒱₀ (c : Thread nD τ) none Set.univ (m := A4) (show A4.view.setOn (Rect.unit (s := S8x4x2x256x64) ![6, 0, 1, 0, 0] S1x4x1x256x64.size inb_S8x4x2x256x64_S1x4x1x256x64_6_0_1_0_0).toLoadRect.set ⊆ dstSet c 4 from load_p_subset 6 1 lt_6_8 _)) $$ Hl4
  iintro Hl4
  -- the landing along link 5: slot [5], then its two loads
  iapply (wp_recvwait (pubOf m ρ) K c 5 (owedLast c 0 (by omega)) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))) (mayWait_zero c (.dma (rS 5))) credit_dst_5) $$ [HcR5 HO HaR5]
  · isplitr; · iexact HR
    isplitr; · iexact Hlev
    isplitl [HcR5]; · iexact HcR5
    isplitl [HO]; · iexact HO
    iexact HaR5
  iintro ⟨HO, HaR5, #HrR5n, Hl5⟩
  unfold recvPay
  iapply (wp_load 𝒱₀ (c : Thread nD τ) none Set.univ (m := A4) (show A4.view.setOn (Rect.unit (s := S8x4x2x256x64) ![5, 0, 0, 0, 0] S1x4x1x256x64.size inb_S8x4x2x256x64_S1x4x1x256x64_5_0_0_0_0).toLoadRect.set ⊆ dstSet c 5 from load_p_subset 5 0 lt_5_8 _)) $$ Hl5
  iintro Hl5
  iapply (wp_load 𝒱₀ (c : Thread nD τ) none Set.univ (m := A4) (show A4.view.setOn (Rect.unit (s := S8x4x2x256x64) ![5, 0, 1, 0, 0] S1x4x1x256x64.size inb_S8x4x2x256x64_S1x4x1x256x64_5_0_1_0_0).toLoadRect.set ⊆ dstSet c 5 from load_p_subset 5 1 lt_5_8 _)) $$ Hl5
  iintro Hl5
  -- the landing along link 6: slot [4], then its two loads
  iapply (wp_recvwait (pubOf m ρ) K c 6 (owedLast c 0 (by omega)) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))) (mayWait_zero c (.dma (rS 6))) credit_dst_6) $$ [HcR6 HO HaR6]
  · isplitr; · iexact HR
    isplitr; · iexact Hlev
    isplitl [HcR6]; · iexact HcR6
    isplitl [HO]; · iexact HO
    iexact HaR6
  iintro ⟨HO, HaR6, #HrR6n, Hl6⟩
  unfold recvPay
  iapply (wp_load 𝒱₀ (c : Thread nD τ) none Set.univ (m := A4) (show A4.view.setOn (Rect.unit (s := S8x4x2x256x64) ![4, 0, 0, 0, 0] S1x4x1x256x64.size inb_S8x4x2x256x64_S1x4x1x256x64_4_0_0_0_0).toLoadRect.set ⊆ dstSet c 6 from load_p_subset 4 0 lt_4_8 _)) $$ Hl6
  iintro Hl6
  iapply (wp_load 𝒱₀ (c : Thread nD τ) none Set.univ (m := A4) (show A4.view.setOn (Rect.unit (s := S8x4x2x256x64) ![4, 0, 1, 0, 0] S1x4x1x256x64.size inb_S8x4x2x256x64_S1x4x1x256x64_4_0_1_0_0).toLoadRect.set ⊆ dstSet c 6 from load_p_subset 4 1 lt_4_8 _)) $$ Hl6
  iintro Hl6
  -- the landing along link 7: slot [3], then its two loads
  iapply (wp_recvwait (pubOf m ρ) K c 7 (owedLast c 0 (by omega)) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))) (mayWait_zero c (.dma (rS 7))) credit_dst_7) $$ [HcR7 HO HaR7]
  · isplitr; · iexact HR
    isplitr; · iexact Hlev
    isplitl [HcR7]; · iexact HcR7
    isplitl [HO]; · iexact HO
    iexact HaR7
  iintro ⟨HO, HaR7, #HrR7n, Hl7⟩
  unfold recvPay
  iapply (wp_load 𝒱₀ (c : Thread nD τ) none Set.univ (m := A4) (show A4.view.setOn (Rect.unit (s := S8x4x2x256x64) ![3, 0, 0, 0, 0] S1x4x1x256x64.size inb_S8x4x2x256x64_S1x4x1x256x64_3_0_0_0_0).toLoadRect.set ⊆ dstSet c 7 from load_p_subset 3 0 lt_3_8 _)) $$ Hl7
  iintro Hl7
  iapply (wp_load 𝒱₀ (c : Thread nD τ) none Set.univ (m := A4) (show A4.view.setOn (Rect.unit (s := S8x4x2x256x64) ![3, 0, 1, 0, 0] S1x4x1x256x64.size inb_S8x4x2x256x64_S1x4x1x256x64_3_0_1_0_0).toLoadRect.set ⊆ dstSet c 7 from load_p_subset 3 1 lt_3_8 _)) $$ Hl7
  iintro Hl7
  -- the landing along link 8: slot [2], then its two loads
  iapply (wp_recvwait (pubOf m ρ) K c 8 (owedLast c 0 (by omega)) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))) (mayWait_zero c (.dma (rS 8))) credit_dst_8) $$ [HcR8 HO HaR8]
  · isplitr; · iexact HR
    isplitr; · iexact Hlev
    isplitl [HcR8]; · iexact HcR8
    isplitl [HO]; · iexact HO
    iexact HaR8
  iintro ⟨HO, HaR8, #HrR8n, Hl8⟩
  unfold recvPay
  iapply (wp_load 𝒱₀ (c : Thread nD τ) none Set.univ (m := A4) (show A4.view.setOn (Rect.unit (s := S8x4x2x256x64) ![2, 0, 0, 0, 0] S1x4x1x256x64.size inb_S8x4x2x256x64_S1x4x1x256x64_2_0_0_0_0).toLoadRect.set ⊆ dstSet c 8 from load_p_subset 2 0 lt_2_8 _)) $$ Hl8
  iintro Hl8
  iapply (wp_load 𝒱₀ (c : Thread nD τ) none Set.univ (m := A4) (show A4.view.setOn (Rect.unit (s := S8x4x2x256x64) ![2, 0, 1, 0, 0] S1x4x1x256x64.size inb_S8x4x2x256x64_S1x4x1x256x64_2_0_1_0_0).toLoadRect.set ⊆ dstSet c 8 from load_p_subset 2 1 lt_2_8 _)) $$ Hl8
  iintro Hl8
  -- the landing along link 9: slot [1], then its two loads
  iapply (wp_recvwait (pubOf m ρ) K c 9 (owedLast c 0 (by omega)) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))) (mayWait_zero c (.dma (rS 9))) credit_dst_9) $$ [HcR9 HO HaR9]
  · isplitr; · iexact HR
    isplitr; · iexact Hlev
    isplitl [HcR9]; · iexact HcR9
    isplitl [HO]; · iexact HO
    iexact HaR9
  iintro ⟨HO, HaR9, #HrR9n, Hl9⟩
  unfold recvPay
  iapply (wp_load 𝒱₀ (c : Thread nD τ) none Set.univ (m := A4) (show A4.view.setOn (Rect.unit (s := S8x4x2x256x64) ![1, 0, 0, 0, 0] S1x4x1x256x64.size inb_S8x4x2x256x64_S1x4x1x256x64_1_0_0_0_0).toLoadRect.set ⊆ dstSet c 9 from load_p_subset 1 0 lt_1_8 _)) $$ Hl9
  iintro Hl9
  iapply (wp_load 𝒱₀ (c : Thread nD τ) none Set.univ (m := A4) (show A4.view.setOn (Rect.unit (s := S8x4x2x256x64) ![1, 0, 1, 0, 0] S1x4x1x256x64.size inb_S8x4x2x256x64_S1x4x1x256x64_1_0_1_0_0).toLoadRect.set ⊆ dstSet c 9 from load_p_subset 1 1 lt_1_8 _)) $$ Hl9
  iintro Hl9
  -- the result
  iapply (wp_load 𝒱₀ (c : Thread nD τ) none Set.univ (m := (Memref.whole cc0_stg3_0 : Memref sig .tc .vmem S256x64 .f32)) (Finset.subset_univ _)) $$ Hout
  iintro Hout
  iapply (wp_store 𝒱₀ (c : Thread nD τ) none Set.univ (m := (Memref.whole cc0_stg3_0 : Memref sig .tc .vmem S256x64 .f32)) (r := Rect.unit (s := S256x64) ![0, 0] S256x64.size inb_S256x64_S256x64_0_0) (Mk := Finset.univ) (Finset.subset_univ _)) $$ Hout
  iintro Hout
  rw [write_out]
  -- the copy along link 0 has read its source
  iapply (wp_sendwait (pubOf m ρ) K c 0 (owedLast c 0 (by omega)) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))) (mayWait_zero c (.dma (sS 0))) credit_src_0) $$ [HcS0 HO HaS0]
  · isplitr; · iexact HR
    isplitr; · iexact Hlev
    isplitl [HcS0]; · iexact HcS0
    isplitl [HO]; · iexact HO
    iexact HaS0
  iintro ⟨HO, HaS0, #HrS0n, Hb0⟩
  -- the copy along link 1 has read its source
  iapply (wp_sendwait (pubOf m ρ) K c 1 (owedLast c 0 (by omega)) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))) (mayWait_zero c (.dma (sS 1))) credit_src_1) $$ [HcS1 HO HaS1]
  · isplitr; · iexact HR
    isplitr; · iexact Hlev
    isplitl [HcS1]; · iexact HcS1
    isplitl [HO]; · iexact HO
    iexact HaS1
  iintro ⟨HO, HaS1, #HrS1n, Hb1⟩
  -- the copy along link 2 has read its source
  iapply (wp_sendwait (pubOf m ρ) K c 2 (owedLast c 0 (by omega)) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))) (mayWait_zero c (.dma (sS 2))) credit_src_2) $$ [HcS2 HO HaS2]
  · isplitr; · iexact HR
    isplitr; · iexact Hlev
    isplitl [HcS2]; · iexact HcS2
    isplitl [HO]; · iexact HO
    iexact HaS2
  iintro ⟨HO, HaS2, #HrS2n, Hb2⟩
  -- the copy along link 3 has read its source
  iapply (wp_sendwait (pubOf m ρ) K c 3 (owedLast c 0 (by omega)) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))) (mayWait_zero c (.dma (sS 3))) credit_src_3) $$ [HcS3 HO HaS3]
  · isplitr; · iexact HR
    isplitr; · iexact Hlev
    isplitl [HcS3]; · iexact HcS3
    isplitl [HO]; · iexact HO
    iexact HaS3
  iintro ⟨HO, HaS3, #HrS3n, Hb3⟩
  -- the copy along link 4 has read its source
  iapply (wp_sendwait (pubOf m ρ) K c 4 (owedLast c 0 (by omega)) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))))) (mayWait_zero c (.dma (sS 4))) credit_src_4) $$ [HcS4 HO HaS4]
  · isplitr; · iexact HR
    isplitr; · iexact Hlev
    isplitl [HcS4]; · iexact HcS4
    isplitl [HO]; · iexact HO
    iexact HaS4
  iintro ⟨HO, HaS4, #HrS4n, Hb4⟩
  -- the copy along link 5 has read its source
  iapply (wp_sendwait (pubOf m ρ) K c 5 (owedLast c 0 (by omega)) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))) (mayWait_zero c (.dma (sS 5))) credit_src_5) $$ [HcS5 HO HaS5]
  · isplitr; · iexact HR
    isplitr; · iexact Hlev
    isplitl [HcS5]; · iexact HcS5
    isplitl [HO]; · iexact HO
    iexact HaS5
  iintro ⟨HO, HaS5, #HrS5n, Hb5⟩
  -- the copy along link 6 has read its source
  iapply (wp_sendwait (pubOf m ρ) K c 6 (owedLast c 0 (by omega)) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))))))) (mayWait_zero c (.dma (sS 6))) credit_src_6) $$ [HcS6 HO HaS6]
  · isplitr; · iexact HR
    isplitr; · iexact Hlev
    isplitl [HcS6]; · iexact HcS6
    isplitl [HO]; · iexact HO
    iexact HaS6
  iintro ⟨HO, HaS6, #HrS6n, Hb6⟩
  -- the copy along link 7 has read its source
  iapply (wp_sendwait (pubOf m ρ) K c 7 (owedLast c 0 (by omega)) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))))) (mayWait_zero c (.dma (sS 7))) credit_src_7) $$ [HcS7 HO HaS7]
  · isplitr; · iexact HR
    isplitr; · iexact Hlev
    isplitl [HcS7]; · iexact HcS7
    isplitl [HO]; · iexact HO
    iexact HaS7
  iintro ⟨HO, HaS7, #HrS7n, Hb7⟩
  -- the copy along link 8 has read its source
  iapply (wp_sendwait (pubOf m ρ) K c 8 (owedLast c 0 (by omega)) (insert (SemLoc.dma (sS 7), ()) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))))))))) (mayWait_zero c (.dma (sS 8))) credit_src_8) $$ [HcS8 HO HaS8]
  · isplitr; · iexact HR
    isplitr; · iexact Hlev
    isplitl [HcS8]; · iexact HcS8
    isplitl [HO]; · iexact HO
    iexact HaS8
  iintro ⟨HO, HaS8, #HrS8n, Hb8⟩
  -- the copy along link 9 has read its source
  iapply (wp_sendwait (pubOf m ρ) K c 9 (owedLast c 0 (by omega)) (insert (SemLoc.dma (sS 8), ()) (insert (SemLoc.dma (sS 7), ()) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))))))) (mayWait_zero c (.dma (sS 9))) credit_src_9) $$ [HcS9 HO HaS9]
  · isplitr; · iexact HR
    isplitr; · iexact Hlev
    isplitl [HcS9]; · iexact HcS9
    isplitl [HO]; · iexact HO
    iexact HaS9
  iintro ⟨HO, HaS9, #HrS9n, Hb9⟩
  unfold sendPay
  imod (close_send (pubOf m ρ) K c 0) $$ [HaS0] with HzS0
  · isplitr; · iexact HR
    iexact HaS0
  imod (close_send (pubOf m ρ) K c 1) $$ [HaS1] with HzS1
  · isplitr; · iexact HR
    iexact HaS1
  imod (close_send (pubOf m ρ) K c 2) $$ [HaS2] with HzS2
  · isplitr; · iexact HR
    iexact HaS2
  imod (close_send (pubOf m ρ) K c 3) $$ [HaS3] with HzS3
  · isplitr; · iexact HR
    iexact HaS3
  imod (close_send (pubOf m ρ) K c 4) $$ [HaS4] with HzS4
  · isplitr; · iexact HR
    iexact HaS4
  imod (close_send (pubOf m ρ) K c 5) $$ [HaS5] with HzS5
  · isplitr; · iexact HR
    iexact HaS5
  imod (close_send (pubOf m ρ) K c 6) $$ [HaS6] with HzS6
  · isplitr; · iexact HR
    iexact HaS6
  imod (close_send (pubOf m ρ) K c 7) $$ [HaS7] with HzS7
  · isplitr; · iexact HR
    iexact HaS7
  imod (close_send (pubOf m ρ) K c 8) $$ [HaS8] with HzS8
  · isplitr; · iexact HR
    iexact HaS8
  imod (close_send (pubOf m ρ) K c 9) $$ [HaS9] with HzS9
  · isplitr; · iexact HR
    iexact HaS9
  imod (close_recv (pubOf m ρ) K c 0) $$ [HaR0] with HzR0
  · isplitr; · iexact HR
    iexact HaR0
  imod (close_recv (pubOf m ρ) K c 1) $$ [HaR1] with HzR1
  · isplitr; · iexact HR
    iexact HaR1
  imod (close_recv (pubOf m ρ) K c 2) $$ [HaR2] with HzR2
  · isplitr; · iexact HR
    iexact HaR2
  imod (close_recv (pubOf m ρ) K c 3) $$ [HaR3] with HzR3
  · isplitr; · iexact HR
    iexact HaR3
  imod (close_recv (pubOf m ρ) K c 4) $$ [HaR4] with HzR4
  · isplitr; · iexact HR
    iexact HaR4
  imod (close_recv (pubOf m ρ) K c 5) $$ [HaR5] with HzR5
  · isplitr; · iexact HR
    iexact HaR5
  imod (close_recv (pubOf m ρ) K c 6) $$ [HaR6] with HzR6
  · isplitr; · iexact HR
    iexact HaR6
  imod (close_recv (pubOf m ρ) K c 7) $$ [HaR7] with HzR7
  · isplitr; · iexact HR
    iexact HaR7
  imod (close_recv (pubOf m ρ) K c 8) $$ [HaR8] with HzR8
  · isplitr; · iexact HR
    iexact HaR8
  imod (close_recv (pubOf m ρ) K c 9) $$ [HaR9] with HzR9
  · isplitr; · iexact HR
    iexact HaR9
  -- the device leaves: the scratch buffer whole again, its own semaphores at zero
  rw [wp_ret]; imodintro
  iapply Hk
  unfold bodyPost Φ₁ Dat.owesAt Pipeline.owesWithin
  rw [show (dats (pubOf m ρ) (outOf (pubOf m ρ) m ρ) m ρ 0 c).owed t0_0.succ = 0 from rfl]
  isplitl [Hz0r Hb0 Hb1 Hb2 Hb3 Hb4 Hb5 Hb6 Hb7 Hb8 Hb9 Hl0r Hl0t0 Hl0t1 Hl0t2 Hl1r Hl1t0 Hl1t1 Hl1t2 Hl2r Hl2t0 Hl2t1 Hl2t2 Hl3 Hl4 Hl5 Hl6 Hl7 Hl8 Hl9 HzS0 HzS1 HzS2 HzS3 HzS4 HzS5 HzS6 HzS7 HzS8 HzS9 HzR0 HzR1 HzR2 HzR3 HzR4 HzR5 HzR6 HzR7 HzR8 HzR9 Hi4 Hi8 Hi12 Hi20]
  · isplitl [Hz0r Hb0 Hb1 Hb2 Hb3 Hb4 Hb5 Hb6 Hb7 Hb8 Hb9 Hl0r Hl0t0 Hl0t1 Hl0t2 Hl1r Hl1t0 Hl1t1 Hl1t2 Hl2r Hl2t0 Hl2t1 Hl2t2 Hl3 Hl4 Hl5 Hl6 Hl7 Hl8 Hl9]
    · iapply (collect (pubOf m ρ) c)
      isplitl [Hz0r]; · iexact Hz0r
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      isplitl [Hl0r Hl0t0 Hl0t1 Hl0t2 Hl1r Hl1t0 Hl1t1 Hl1t2 Hl2r Hl2t0 Hl2t1 Hl2t2]
      · unfold pocket
        isplitl [Hl0r]; · iexact Hl0r
        isplitl [Hl0t0]; · iexact Hl0t0
        isplitl [Hl0t1]; · iexact Hl0t1
        isplitl [Hl0t2]; · iexact Hl0t2
        isplitl [Hl1r]; · iexact Hl1r
        isplitl [Hl1t0]; · iexact Hl1t0
        isplitl [Hl1t1]; · iexact Hl1t1
        isplitl [Hl1t2]; · iexact Hl1t2
        isplitl [Hl2r]; · iexact Hl2r
        isplitl [Hl2t0]; · iexact Hl2t0
        isplitl [Hl2t1]; · iexact Hl2t1
        iexact Hl2t2
      isplitl [Hl3]; · iexact Hl3
      isplitl [Hl4]; · iexact Hl4
      isplitl [Hl5]; · iexact Hl5
      isplitl [Hl6]; · iexact Hl6
      isplitl [Hl7]; · iexact Hl7
      isplitl [Hl8]; · iexact Hl8
      iexact Hl9
    · iapply (exit_sems c)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      isplitl [HzR7]; · iexact HzR7
      isplitl [HzR8]; · iexact HzR8
      isplitl [HzR9]; · iexact HzR9
      unfold idle
      isplitl [Hi4]; · iexact Hi4
      isplitl [Hi8]; · iexact Hi8
      isplitl [Hi12]; · iexact Hi12
      iexact Hi20
  isplitl [HO]
  · iexists (insert (SemLoc.dma (sS 9), ()) (insert (SemLoc.dma (sS 8), ()) (insert (SemLoc.dma (sS 7), ()) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))))))))
    isplitr; · ipureintro; exact fun _ _ => Or.inl trivial
    iexact HO
  isplitl [Hq]
  · iexists _; isplitr; · (ipureintro; rfl)
    iexact Hq
  isplitl [Hk1]
  · iexists _; isplitr; · (ipureintro; rfl)
    iexact Hk1
  isplitl [Hv]
  · iexists _; isplitr; · (ipureintro; rfl)
    iexact Hv
  iexists _; isplitr; · (ipureintro; rfl)
  iexact Hout

/-- The library's body obligation on device `c`, at what the devices publish and the output term they compute. -/
theorem body_ob (c : Dev nD) :
    BodyObligation (dats (F := F) (pubOf m ρ) (outOf (pubOf m ρ) m ρ) m ρ 0 c) (defs₀ (F := F)) 𝒱₀ () Set.univ :=
  body_obligation (pubOf m ρ) (outOf (pubOf m ρ) m ρ) m ρ c fun K Kt => sound_body m ρ K c Kt

/-- info: 'Cert.Ring.body_ob' depends on axioms: [propext, Classical.choice, Quot.sound] -/
#guard_msgs in #print axioms body_ob

end Cert.Ring

end
-- ==== Proof.StepsW.lean ====
/-
  The steps of one device's body that talk to other devices, each stated once for any link.
-/
import proofs.«900463_g7700000000000464_dist_ring_attn_i_s256_d64_v7x_i32_f32_1_alg».proof.Proof.GhostW
import Idealize.ShloMosaic.Lib.Tactic
import Idealize.ShloMosaic.Lib.Transfers

noncomputable section

namespace Cert.RingW

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (pub : Dev nD → Nat → Nat → Nat → Elt F .bf16)

omit [FloatOps F] in
theorem inv_at (K : Dev nD × Fin 21 → ℕ) (ck : Dev nD × Fin 21) :
    (records pub K : sProp 𝕄) ⊢ cellInv ER (ringRd pub) (K ck) (kcell ck) := by
  unfold records
  have h : (bigSep Finset.univ fun ck : Dev nD × Fin 21 => (cellInv ER (ringRd pub) (K ck) (kcell ck) : sProp 𝕄))
      ⊢ cellInv ER (ringRd pub) (K ck) (kcell ck) := bigSep_elim (Finset.mem_univ ck)
  iintro ⟨HI, -⟩
  iapply h; iexact HI
omit [FloatOps F] in
theorem reached_at (K : Dev nD × Fin 21 → ℕ) (ck : Dev nD × Fin 21) :
    (records pub K : sProp 𝕄) ⊢ reached ER (kcell ck) 0 := by
  unfold records
  have h : (bigSep Finset.univ fun ck : Dev nD × Fin 21 => (reached ER (kcell ck) 0 : sProp 𝕄))
      ⊢ reached ER (kcell ck) 0 := bigSep_elim (Finset.mem_univ ck)
  iintro ⟨-, HR⟩
  iapply h; iexact HR

omit [FloatOps F] in
theorem inv_bar (K : Dev nD × Fin 21 → ℕ) (c : Dev nD) : (records pub K : sProp 𝕄) ⊢ cellInv ER (ringRd pub) (K (c, kB)) (barCell c) := inv_at pub K (c, kB)
omit [FloatOps F] in
theorem inv_send (K : Dev nD × Fin 21 → ℕ) (c : Dev nD) (p : Fin 10) : (records pub K : sProp 𝕄) ⊢ cellInv ER (ringRd pub) (K (c, kS p)) (sendCell p c) := by
  have h := inv_at pub K (c, kS p); rw [kcell_kS] at h; exact h
omit [FloatOps F] in
theorem inv_recv (K : Dev nD × Fin 21 → ℕ) (c : Dev nD) (p : Fin 10) : (records pub K : sProp 𝕄) ⊢ cellInv ER (ringRd pub) (K (c, kR p)) (recvCell p c) := by
  have h := inv_at pub K (c, kR p); rw [kcell_kR] at h; exact h
omit [FloatOps F] in
theorem reached_bar (K : Dev nD × Fin 21 → ℕ) (c : Dev nD) : (records pub K : sProp 𝕄) ⊢ reached ER (barCell c) 0 := reached_at pub K (c, kB)
omit [FloatOps F] in
theorem reached_send (K : Dev nD × Fin 21 → ℕ) (c : Dev nD) (p : Fin 10) : (records pub K : sProp 𝕄) ⊢ reached ER (sendCell p c) 0 := by
  have h := reached_at pub K (c, kS p); rw [kcell_kS] at h; exact h
omit [FloatOps F] in
theorem reached_recv (K : Dev nD × Fin 21 → ℕ) (c : Dev nD) (p : Fin 10) : (records pub K : sProp 𝕄) ⊢ reached ER (recvCell p c) 0 := by
  have h := reached_at pub K (c, kR p); rw [kcell_kR] at h; exact h

/-- The entry signal along link `p`: it pays duty `p` of the far end's barrier cell, handing over this device's
    landing slot for the copy that will come back along `inv p`, with the fact that its receive cell is at round 0. -/
theorem wp_sig (K : Dev nD × Fin 21 → ℕ) (c n : Dev nD) (p : Fin 10) (hn : n = peer p c)
    {α : Type} {Q : α → sProp 𝕄} {k : PUnit → Prog (TpuEff nD τ sig (Elt F) Λ₀ .tc) α}
    (O : CellTallies nD τ sig Unit) (W : Waits sig Unit) :
    iprop(records pub K ∗ owes (c : Thread nD τ) (O + tallyAt (barCell (peer p c)) () 1) W ∗ dutyTok ER (barCell (peer p c)) 0 p
        ∗ (∃ f : Buf (Elt F) (sL c), sL c ↦[dstSet c (inv p)]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, .tc) : Thread nD τ) barS (1#32 : BitVec 32).toNat) k) Q) := by
  subst hn
  iintro ⟨#HR, HO, Htok, Hslot⟩
  iapply (Rounds.wp_signal 𝒱₀ ER (ringRd pub) (c : Thread nD τ) none (dst := (peer p c : Thread nD τ)) (κ := K (peer p c, kB))
      (d := p) (by rw [duties_bar]; exact Finset.mem_univ _) ((amount_bar pub (peer p c) p).trans (by decide)) () O rfl)
  isplitr; · iapply (inv_bar pub K (peer p c)); iexact HR
  isplitl [HO]; · iexact HO
  isplitl [Htok]; · iexact Htok
  isplitl [Hslot]
  · rw [payload_bar]; unfold barPay; rw [peer_inv]
    isplitl [Hslot]; · iexact Hslot
    iapply (reached_recv pub K c (inv p)); iexact HR
  · iapply (reached_bar pub K (peer p c)); iexact HR

/-- The wait on the barrier cell for its ten units, while still owing `O`: every link's far end has entered, and
    its landing slot for this device's copy comes with its signal. -/
theorem wp_barwait (K : Dev nD × Fin 21 → ℕ) (c : Dev nD) (O : CellTallies nD τ sig Unit) (W : Waits sig Unit)
    (hmay : (levAts L lv : sProp 𝕄) ⊢ MayWait (c : Thread nD τ) (.reg barS) () O)
    {α : Type} {Q : α → sProp 𝕄} {k : PUnit → Prog (TpuEff nD τ sig (Elt F) Λ₀ .tc) α} :
    iprop(records pub K ∗ levAts L lv ∗ cred (tallyAt (barCell c) () 10) ∗ owes (c : Thread nD τ) O W ∗ atPos ER (barCell c) 0 ∅ 0)
      ⊢ iprop(((owes (c : Thread nD τ) O (insert (SemLoc.reg barS, ()) W) ∗ atPos ER (barCell c) (0 + 1) ∅ 0 ∗ reached ER (barCell c) (0 + 1)
              ∗ bigSep Finset.univ (fun d : Fin 10 => (barPay c d : sProp 𝕄))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (10#32 : BitVec 32).toNat) k) Q) := by
  have h := Rounds.wp_wait_rest_token (defs := defs₀ (F := F)) 𝒱₀ ER (ringRd pub) (c : Thread nD τ) none (κ := K (c, kB)) (Q := Q) (k := k)
      (wpE_semWait_eq (defs := defs₀ (F := F)) 𝒱₀ (c : Thread nD τ) none Set.univ) (Set.mem_univ _) () (O := O) (W := W) (R := 0) (m := 0) (T := ∅)
      (k' := (10#32 : BitVec 32).toNat) (sm := .reg barS) (by rw [expect_bar]; decide)
  rw [rest_bar] at h
  iintro ⟨#HR, #Hlev, Hc, HO, Hat⟩
  iapply h
  isplitr; · iapply (inv_bar pub K c); iexact HR
  isplitl [Hc]; · iexact Hc
  isplitl [HO]; · iexact HO
  isplitr; · iapply hmay; iexact Hlev
  iexact Hat

/-- The wait on the receive cell of link `p`: the landing slot comes back holding the sender's slab. -/
theorem wp_recvwait (K : Dev nD × Fin 21 → ℕ) (c : Dev nD) (p : Fin 10) (O : CellTallies nD τ sig Unit) (W : Waits sig Unit)
    (hmay : (levAts L lv : sProp 𝕄) ⊢ MayWait (c : Thread nD τ) (.dma (rS p)) () O)
    {sp sp' : Space} {s s' : Shape} {e e' : EltTy} {src : Memref sig (c : Thread nD τ).2.kind sp' s' e'} {κ' : Kind}
    {dst : Memref sig κ' sp s e} {hsrc : src.view.WordExact} {hdst : dst.view.WordExact} (hc : dst.view.dmaCredit = NL p)
    {α : Type} {Q : α → sProp 𝕄} {k : PUnit → Prog (TpuEff nD τ sig (Elt F) Λ₀ .tc) α} :
    iprop(records pub K ∗ levAts L lv ∗ cred (tallyAt (recvCell p c) () (NL p)) ∗ owes (c : Thread nD τ) O W ∗ atPos ER (recvCell p c) 0 ∅ 0)
      ⊢ iprop(((owes (c : Thread nD τ) O (insert (SemLoc.dma (rS p), ()) W) ∗ atPos ER (recvCell p c) (0 + 1) ∅ 0 ∗ reached ER (recvCell p c) (0 + 1) ∗ recvPay pub p c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS p) src dst hsrc hdst) k) Q) := by
  have h := Rounds.wp_wait_rest_token (defs := defs₀ (F := F)) 𝒱₀ ER (ringRd pub) (c : Thread nD τ) none (κ := K (c, kR p)) (Q := Q) (k := k)
      (wpE_waitDma2_eq (defs := defs₀ (F := F)) 𝒱₀ (c : Thread nD τ) none Set.univ (sem := rS p) (src := src) (dst := dst) (hsrc := hsrc) (hdst := hdst)) (Set.mem_univ _) () (O := O) (W := W) (R := 0) (m := 0) (T := ∅)
      (by rw [Nat.zero_add, expect_recv, hc])
  rw [rest_recv, hc] at h
  iintro ⟨#HR, #Hlev, Hc, HO, Hat⟩
  iapply h
  isplitr; · iapply (inv_recv pub K c p); iexact HR
  isplitl [Hc]; · iexact Hc
  isplitl [HO]; · iexact HO
  isplitr; · iapply hmay; iexact Hlev
  iexact Hat

/-- The wait on the send cell of link `p`: the share of the source the copy was reading comes back. -/
theorem wp_sendwait (K : Dev nD × Fin 21 → ℕ) (c : Dev nD) (p : Fin 10) (O : CellTallies nD τ sig Unit) (W : Waits sig Unit)
    (hmay : (levAts L lv : sProp 𝕄) ⊢ MayWait (c : Thread nD τ) (.dma (sS p)) () O)
    {sp sp' : Space} {s s' : Shape} {e e' : EltTy} {src : Memref sig (c : Thread nD τ).2.kind sp' s' e'} {κ' : Kind}
    {dst : Memref sig κ' sp s e} {hsrc : src.view.WordExact} {hdst : dst.view.WordExact} (hc : dst.view.dmaCredit = NL p)
    {α : Type} {Q : α → sProp 𝕄} {k : PUnit → Prog (TpuEff nD τ sig (Elt F) Λ₀ .tc) α} :
    iprop(records pub K ∗ levAts L lv ∗ cred (tallyAt (sendCell p c) () (NL p)) ∗ owes (c : Thread nD τ) O W ∗ atPos ER (sendCell p c) 0 ∅ 0)
      ⊢ iprop(((owes (c : Thread nD τ) O (insert (SemLoc.dma (sS p), ()) W) ∗ atPos ER (sendCell p c) (0 + 1) ∅ 0 ∗ reached ER (sendCell p c) (0 + 1) ∗ sendPay pub p c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS p) src dst hsrc hdst) k) Q) := by
  have h := Rounds.wp_wait_rest_token (defs := defs₀ (F := F)) 𝒱₀ ER (ringRd pub) (c : Thread nD τ) none (κ := K (c, kS p)) (Q := Q) (k := k)
      (wpE_waitDma2_eq (defs := defs₀ (F := F)) 𝒱₀ (c : Thread nD τ) none Set.univ (sem := sS p) (src := src) (dst := dst) (hsrc := hsrc) (hdst := hdst)) (Set.mem_univ _) () (O := O) (W := W) (R := 0) (m := 0) (T := ∅)
      (by rw [Nat.zero_add, expect_send, hc])
  rw [rest_send, hc] at h
  iintro ⟨#HR, #Hlev, Hc, HO, Hat⟩
  iapply h
  isplitr; · iapply (inv_send pub K c p); iexact HR
  isplitl [Hc]; · iexact Hc
  isplitl [HO]; · iexact HO
  isplitr; · iapply hmay; iexact Hlev
  iexact Hat

/-- A send or receive cell whose one round is over closes: its counter at zero is the device's again. -/
theorem close_send (K : Dev nD × Fin 21 → ℕ) (c : Dev nD) (p : Fin 10) :
    iprop(records pub K ∗ atPos ER (sendCell p c) 1 ∅ 0) ⊢ (|={Set.univ}=> semVal (sendCell p c) 0 : sProp 𝕄) := by
  iintro ⟨#HR, Hat⟩
  iapply (Rounds.cell_close ER (ringRd pub) (Set.mem_univ (K (c, kS p))) (fun h => h) (R := 1) (duties_later pub (sendCell p c)))
  isplitr; · iapply (inv_send pub K c p); iexact HR
  iexact Hat
theorem close_recv (K : Dev nD × Fin 21 → ℕ) (c : Dev nD) (p : Fin 10) :
    iprop(records pub K ∗ atPos ER (recvCell p c) 1 ∅ 0) ⊢ (|={Set.univ}=> semVal (recvCell p c) 0 : sProp 𝕄) := by
  iintro ⟨#HR, Hat⟩
  iapply (Rounds.cell_close ER (ringRd pub) (Set.mem_univ (K (c, kR p))) (fun h => h) (R := 1) (duties_later pub (recvCell p c)))
  isplitr; · iapply (inv_recv pub K c p); iexact HR
  iexact Hat

/-- The copy along link 0: this device's share of the source goes to its send cell, the far end's landing slot,
    rewritten with the source's contents, to the far end's receive cell. -/
theorem wp_copy0 (K : Dev nD × Fin 21 → ℕ) (c n : Dev nD) (hn : n = peer 0 c)
    {hsc : (zM3 : Memref sig (Dev.tc n : Thread nD τ).2.kind .vmem S2x256x64 .bf16).view.ref.isScScratch = false}
    {hsrc : (zM0 : Memref sig .tc .vmem S2x256x64 .bf16).view.WordExact} {hdst : (zM3 : Memref sig .tc .vmem S2x256x64 .bf16).view.WordExact}
    {hsem : DmaTarget.Typed .vmem (.dma (rS 0)) (.remote (Dev.tc n : Thread nD τ) (zM3 : Memref sig .tc .vmem S2x256x64 .bf16) (.dma (sS 0)) hsc)}
    {α : Type} {Q : α → sProp 𝕄} {k : PUnit → Prog (TpuEff nD τ sig (Elt F) Λ₀ .tc) α}
    (hland : ∀ fd : Buf (Elt F) (sL (peer 0 c)),
      (sL (peer 0 c) ↦[dstSet (peer 0 c) 0]{fullShare} ((zM3 : Memref sig .tc .vmem S2x256x64 .bf16).view.write (Elt F) fd ((zM0 : Memref sig .tc .vmem S2x256x64 .bf16).view.read (Elt F) (scr pub c)) Finset.univ) : sProp 𝕄)
        ⊢ recvPay pub 0 (peer 0 c))
    (O : CellTallies nD τ sig Unit) (W : Waits sig Unit) :
    iprop(records pub K ∗ (sL c ↦[srcSet c 0]{Transfers.shareTokN fullShare 0} scr pub c)
        ∗ (∃ fd : Buf (Elt F) (sL (peer 0 c)), sL (peer 0 c) ↦[dstSet (peer 0 c) 0]{fullShare} fd)
        ∗ owes (c : Thread nD τ) (O + tallyAt (recvCell 0 (peer 0 c)) () (NL 0)) W
        ∗ dutyTok ER (sendCell 0 c) 0 (0 : Fin 10) ∗ dutyTok ER (recvCell 0 (peer 0 c)) 0 (0 : Fin 10))
      ⊢ iprop(((cred (tallyAt (sendCell 0 c) () (NL 0)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma zM0 (.remote (Dev.tc n : Thread nD τ) zM3 (.dma (sS 0)) hsc) (.dma (rS 0)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 0)) (κ₂ := K (peer 0 c, kR 0))
    (src := zM0) (dst := zM3) (c' := (peer 0 c : Thread nD τ))
    (r₁ := 0) (r₂ := 0) (d₁ := (0 : Fin 10)) (d₂ := (0 : Fin 10)) (fd := fd) (q := Transfers.shareTokN fullShare 0) (fs := scr pub c)
    (by rw [duties_send]; exact Finset.mem_singleton_self _) (by rw [duties_recv]; exact Finset.mem_singleton_self _)
    () () (NL 0) rfl (amount_send pub c 0 0) (amount_recv pub (peer 0 c) 0 0) O rfl (W := W)
    (by rw [payload_send]; exact BI.Entails.refl _)
    (by rw [payload_recv]; exact hland fd))
  isplitr; · iapply (inv_send pub K c 0); iexact HR
  isplitr; · iapply (inv_recv pub K (peer 0 c) 0); iexact HR
  isplitl [Hsrc]; · iexact Hsrc
  isplitl [Hdst]; · iexact Hdst
  isplitl [HO]; · iexact HO
  isplitl [HtS]; · iexact HtS
  isplitr; · iapply (reached_send pub K c 0); iexact HR
  isplitl [HtR]; · iexact HtR
  iapply (reached_recv pub K (peer 0 c) 0); iexact HR

/-- The copy along link 1: this device's share of the source goes to its send cell, the far end's landing slot,
    rewritten with the source's contents, to the far end's receive cell. -/
theorem wp_copy1 (K : Dev nD × Fin 21 → ℕ) (c n : Dev nD) (hn : n = peer 1 c)
    {hsc : (zM2 : Memref sig (Dev.tc n : Thread nD τ).2.kind .vmem S2x256x64 .bf16).view.ref.isScScratch = false}
    {hsrc : (zM0 : Memref sig .tc .vmem S2x256x64 .bf16).view.WordExact} {hdst : (zM2 : Memref sig .tc .vmem S2x256x64 .bf16).view.WordExact}
    {hsem : DmaTarget.Typed .vmem (.dma (rS 1)) (.remote (Dev.tc n : Thread nD τ) (zM2 : Memref sig .tc .vmem S2x256x64 .bf16) (.dma (sS 1)) hsc)}
    {α : Type} {Q : α → sProp 𝕄} {k : PUnit → Prog (TpuEff nD τ sig (Elt F) Λ₀ .tc) α}
    (hland : ∀ fd : Buf (Elt F) (sL (peer 1 c)),
      (sL (peer 1 c) ↦[dstSet (peer 1 c) 1]{fullShare} ((zM2 : Memref sig .tc .vmem S2x256x64 .bf16).view.write (Elt F) fd ((zM0 : Memref sig .tc .vmem S2x256x64 .bf16).view.read (Elt F) (scr pub c)) Finset.univ) : sProp 𝕄)
        ⊢ recvPay pub 1 (peer 1 c))
    (O : CellTallies nD τ sig Unit) (W : Waits sig Unit) :
    iprop(records pub K ∗ (sL c ↦[srcSet c 1]{Transfers.shareTokN fullShare 1} scr pub c)
        ∗ (∃ fd : Buf (Elt F) (sL (peer 1 c)), sL (peer 1 c) ↦[dstSet (peer 1 c) 1]{fullShare} fd)
        ∗ owes (c : Thread nD τ) (O + tallyAt (recvCell 1 (peer 1 c)) () (NL 1)) W
        ∗ dutyTok ER (sendCell 1 c) 0 (0 : Fin 10) ∗ dutyTok ER (recvCell 1 (peer 1 c)) 0 (0 : Fin 10))
      ⊢ iprop(((cred (tallyAt (sendCell 1 c) () (NL 1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma zM0 (.remote (Dev.tc n : Thread nD τ) zM2 (.dma (sS 1)) hsc) (.dma (rS 1)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 1)) (κ₂ := K (peer 1 c, kR 1))
    (src := zM0) (dst := zM2) (c' := (peer 1 c : Thread nD τ))
    (r₁ := 0) (r₂ := 0) (d₁ := (0 : Fin 10)) (d₂ := (0 : Fin 10)) (fd := fd) (q := Transfers.shareTokN fullShare 1) (fs := scr pub c)
    (by rw [duties_send]; exact Finset.mem_singleton_self _) (by rw [duties_recv]; exact Finset.mem_singleton_self _)
    () () (NL 1) rfl (amount_send pub c 1 0) (amount_recv pub (peer 1 c) 1 0) O rfl (W := W)
    (by rw [payload_send]; exact BI.Entails.refl _)
    (by rw [payload_recv]; exact hland fd))
  isplitr; · iapply (inv_send pub K c 1); iexact HR
  isplitr; · iapply (inv_recv pub K (peer 1 c) 1); iexact HR
  isplitl [Hsrc]; · iexact Hsrc
  isplitl [Hdst]; · iexact Hdst
  isplitl [HO]; · iexact HO
  isplitl [HtS]; · iexact HtS
  isplitr; · iapply (reached_send pub K c 1); iexact HR
  isplitl [HtR]; · iexact HtR
  iapply (reached_recv pub K (peer 1 c) 1); iexact HR

/-- The copy along link 2: this device's share of the source goes to its send cell, the far end's landing slot,
    rewritten with the source's contents, to the far end's receive cell. -/
theorem wp_copy2 (K : Dev nD × Fin 21 → ℕ) (c n : Dev nD) (hn : n = peer 2 c)
    {hsc : (zM1 : Memref sig (Dev.tc n : Thread nD τ).2.kind .vmem S2x256x64 .bf16).view.ref.isScScratch = false}
    {hsrc : (zM0 : Memref sig .tc .vmem S2x256x64 .bf16).view.WordExact} {hdst : (zM1 : Memref sig .tc .vmem S2x256x64 .bf16).view.WordExact}
    {hsem : DmaTarget.Typed .vmem (.dma (rS 2)) (.remote (Dev.tc n : Thread nD τ) (zM1 : Memref sig .tc .vmem S2x256x64 .bf16) (.dma (sS 2)) hsc)}
    {α : Type} {Q : α → sProp 𝕄} {k : PUnit → Prog (TpuEff nD τ sig (Elt F) Λ₀ .tc) α}
    (hland : ∀ fd : Buf (Elt F) (sL (peer 2 c)),
      (sL (peer 2 c) ↦[dstSet (peer 2 c) 2]{fullShare} ((zM1 : Memref sig .tc .vmem S2x256x64 .bf16).view.write (Elt F) fd ((zM0 : Memref sig .tc .vmem S2x256x64 .bf16).view.read (Elt F) (scr pub c)) Finset.univ) : sProp 𝕄)
        ⊢ recvPay pub 2 (peer 2 c))
    (O : CellTallies nD τ sig Unit) (W : Waits sig Unit) :
    iprop(records pub K ∗ (sL c ↦[srcSet c 2]{Transfers.shareTokN fullShare 2} scr pub c)
        ∗ (∃ fd : Buf (Elt F) (sL (peer 2 c)), sL (peer 2 c) ↦[dstSet (peer 2 c) 2]{fullShare} fd)
        ∗ owes (c : Thread nD τ) (O + tallyAt (recvCell 2 (peer 2 c)) () (NL 2)) W
        ∗ dutyTok ER (sendCell 2 c) 0 (0 : Fin 10) ∗ dutyTok ER (recvCell 2 (peer 2 c)) 0 (0 : Fin 10))
      ⊢ iprop(((cred (tallyAt (sendCell 2 c) () (NL 2)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma zM0 (.remote (Dev.tc n : Thread nD τ) zM1 (.dma (sS 2)) hsc) (.dma (rS 2)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 2)) (κ₂ := K (peer 2 c, kR 2))
    (src := zM0) (dst := zM1) (c' := (peer 2 c : Thread nD τ))
    (r₁ := 0) (r₂ := 0) (d₁ := (0 : Fin 10)) (d₂ := (0 : Fin 10)) (fd := fd) (q := Transfers.shareTokN fullShare 2) (fs := scr pub c)
    (by rw [duties_send]; exact Finset.mem_singleton_self _) (by rw [duties_recv]; exact Finset.mem_singleton_self _)
    () () (NL 2) rfl (amount_send pub c 2 0) (amount_recv pub (peer 2 c) 2 0) O rfl (W := W)
    (by rw [payload_send]; exact BI.Entails.refl _)
    (by rw [payload_recv]; exact hland fd))
  isplitr; · iapply (inv_send pub K c 2); iexact HR
  isplitr; · iapply (inv_recv pub K (peer 2 c) 2); iexact HR
  isplitl [Hsrc]; · iexact Hsrc
  isplitl [Hdst]; · iexact Hdst
  isplitl [HO]; · iexact HO
  isplitl [HtS]; · iexact HtS
  isplitr; · iapply (reached_send pub K c 2); iexact HR
  isplitl [HtR]; · iexact HtR
  iapply (reached_recv pub K (peer 2 c) 2); iexact HR

/-- The copy along link 3: this device's share of the source goes to its send cell, the far end's landing slot,
    rewritten with the source's contents, to the far end's receive cell. -/
theorem wp_copy3 (K : Dev nD × Fin 21 → ℕ) (c n : Dev nD) (hn : n = peer 3 c)
    {hsc : (pM7 : Memref sig (Dev.tc n : Thread nD τ).2.kind .vmem S4x2x256x64 .bf16).view.ref.isScScratch = false}
    {hsrc : (pM0 : Memref sig .tc .vmem S4x2x256x64 .bf16).view.WordExact} {hdst : (pM7 : Memref sig .tc .vmem S4x2x256x64 .bf16).view.WordExact}
    {hsem : DmaTarget.Typed .vmem (.dma (rS 3)) (.remote (Dev.tc n : Thread nD τ) (pM7 : Memref sig .tc .vmem S4x2x256x64 .bf16) (.dma (sS 3)) hsc)}
    {α : Type} {Q : α → sProp 𝕄} {k : PUnit → Prog (TpuEff nD τ sig (Elt F) Λ₀ .tc) α}
    (hland : ∀ fd : Buf (Elt F) (sL (peer 3 c)),
      (sL (peer 3 c) ↦[dstSet (peer 3 c) 3]{fullShare} ((pM7 : Memref sig .tc .vmem S4x2x256x64 .bf16).view.write (Elt F) fd ((pM0 : Memref sig .tc .vmem S4x2x256x64 .bf16).view.read (Elt F) (scr pub c)) Finset.univ) : sProp 𝕄)
        ⊢ recvPay pub 3 (peer 3 c))
    (O : CellTallies nD τ sig Unit) (W : Waits sig Unit) :
    iprop(records pub K ∗ (sL c ↦[srcSet c 3]{Transfers.shareTokN fullShare 3} scr pub c)
        ∗ (∃ fd : Buf (Elt F) (sL (peer 3 c)), sL (peer 3 c) ↦[dstSet (peer 3 c) 3]{fullShare} fd)
        ∗ owes (c : Thread nD τ) (O + tallyAt (recvCell 3 (peer 3 c)) () (NL 3)) W
        ∗ dutyTok ER (sendCell 3 c) 0 (0 : Fin 10) ∗ dutyTok ER (recvCell 3 (peer 3 c)) 0 (0 : Fin 10))
      ⊢ iprop(((cred (tallyAt (sendCell 3 c) () (NL 3)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM7 (.dma (sS 3)) hsc) (.dma (rS 3)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 3)) (κ₂ := K (peer 3 c, kR 3))
    (src := pM0) (dst := pM7) (c' := (peer 3 c : Thread nD τ))
    (r₁ := 0) (r₂ := 0) (d₁ := (0 : Fin 10)) (d₂ := (0 : Fin 10)) (fd := fd) (q := Transfers.shareTokN fullShare 3) (fs := scr pub c)
    (by rw [duties_send]; exact Finset.mem_singleton_self _) (by rw [duties_recv]; exact Finset.mem_singleton_self _)
    () () (NL 3) rfl (amount_send pub c 3 0) (amount_recv pub (peer 3 c) 3 0) O rfl (W := W)
    (by rw [payload_send]; exact BI.Entails.refl _)
    (by rw [payload_recv]; exact hland fd))
  isplitr; · iapply (inv_send pub K c 3); iexact HR
  isplitr; · iapply (inv_recv pub K (peer 3 c) 3); iexact HR
  isplitl [Hsrc]; · iexact Hsrc
  isplitl [Hdst]; · iexact Hdst
  isplitl [HO]; · iexact HO
  isplitl [HtS]; · iexact HtS
  isplitr; · iapply (reached_send pub K c 3); iexact HR
  isplitl [HtR]; · iexact HtR
  iapply (reached_recv pub K (peer 3 c) 3); iexact HR

/-- The copy along link 4: this device's share of the source goes to its send cell, the far end's landing slot,
    rewritten with the source's contents, to the far end's receive cell. -/
theorem wp_copy4 (K : Dev nD × Fin 21 → ℕ) (c n : Dev nD) (hn : n = peer 4 c)
    {hsc : (pM6 : Memref sig (Dev.tc n : Thread nD τ).2.kind .vmem S4x2x256x64 .bf16).view.ref.isScScratch = false}
    {hsrc : (pM0 : Memref sig .tc .vmem S4x2x256x64 .bf16).view.WordExact} {hdst : (pM6 : Memref sig .tc .vmem S4x2x256x64 .bf16).view.WordExact}
    {hsem : DmaTarget.Typed .vmem (.dma (rS 4)) (.remote (Dev.tc n : Thread nD τ) (pM6 : Memref sig .tc .vmem S4x2x256x64 .bf16) (.dma (sS 4)) hsc)}
    {α : Type} {Q : α → sProp 𝕄} {k : PUnit → Prog (TpuEff nD τ sig (Elt F) Λ₀ .tc) α}
    (hland : ∀ fd : Buf (Elt F) (sL (peer 4 c)),
      (sL (peer 4 c) ↦[dstSet (peer 4 c) 4]{fullShare} ((pM6 : Memref sig .tc .vmem S4x2x256x64 .bf16).view.write (Elt F) fd ((pM0 : Memref sig .tc .vmem S4x2x256x64 .bf16).view.read (Elt F) (scr pub c)) Finset.univ) : sProp 𝕄)
        ⊢ recvPay pub 4 (peer 4 c))
    (O : CellTallies nD τ sig Unit) (W : Waits sig Unit) :
    iprop(records pub K ∗ (sL c ↦[srcSet c 4]{Transfers.shareTokN fullShare 4} scr pub c)
        ∗ (∃ fd : Buf (Elt F) (sL (peer 4 c)), sL (peer 4 c) ↦[dstSet (peer 4 c) 4]{fullShare} fd)
        ∗ owes (c : Thread nD τ) (O + tallyAt (recvCell 4 (peer 4 c)) () (NL 4)) W
        ∗ dutyTok ER (sendCell 4 c) 0 (0 : Fin 10) ∗ dutyTok ER (recvCell 4 (peer 4 c)) 0 (0 : Fin 10))
      ⊢ iprop(((cred (tallyAt (sendCell 4 c) () (NL 4)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM6 (.dma (sS 4)) hsc) (.dma (rS 4)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 4)) (κ₂ := K (peer 4 c, kR 4))
    (src := pM0) (dst := pM6) (c' := (peer 4 c : Thread nD τ))
    (r₁ := 0) (r₂ := 0) (d₁ := (0 : Fin 10)) (d₂ := (0 : Fin 10)) (fd := fd) (q := Transfers.shareTokN fullShare 4) (fs := scr pub c)
    (by rw [duties_send]; exact Finset.mem_singleton_self _) (by rw [duties_recv]; exact Finset.mem_singleton_self _)
    () () (NL 4) rfl (amount_send pub c 4 0) (amount_recv pub (peer 4 c) 4 0) O rfl (W := W)
    (by rw [payload_send]; exact BI.Entails.refl _)
    (by rw [payload_recv]; exact hland fd))
  isplitr; · iapply (inv_send pub K c 4); iexact HR
  isplitr; · iapply (inv_recv pub K (peer 4 c) 4); iexact HR
  isplitl [Hsrc]; · iexact Hsrc
  isplitl [Hdst]; · iexact Hdst
  isplitl [HO]; · iexact HO
  isplitl [HtS]; · iexact HtS
  isplitr; · iapply (reached_send pub K c 4); iexact HR
  isplitl [HtR]; · iexact HtR
  iapply (reached_recv pub K (peer 4 c) 4); iexact HR

/-- The copy along link 5: this device's share of the source goes to its send cell, the far end's landing slot,
    rewritten with the source's contents, to the far end's receive cell. -/
theorem wp_copy5 (K : Dev nD × Fin 21 → ℕ) (c n : Dev nD) (hn : n = peer 5 c)
    {hsc : (pM5 : Memref sig (Dev.tc n : Thread nD τ).2.kind .vmem S4x2x256x64 .bf16).view.ref.isScScratch = false}
    {hsrc : (pM0 : Memref sig .tc .vmem S4x2x256x64 .bf16).view.WordExact} {hdst : (pM5 : Memref sig .tc .vmem S4x2x256x64 .bf16).view.WordExact}
    {hsem : DmaTarget.Typed .vmem (.dma (rS 5)) (.remote (Dev.tc n : Thread nD τ) (pM5 : Memref sig .tc .vmem S4x2x256x64 .bf16) (.dma (sS 5)) hsc)}
    {α : Type} {Q : α → sProp 𝕄} {k : PUnit → Prog (TpuEff nD τ sig (Elt F) Λ₀ .tc) α}
    (hland : ∀ fd : Buf (Elt F) (sL (peer 5 c)),
      (sL (peer 5 c) ↦[dstSet (peer 5 c) 5]{fullShare} ((pM5 : Memref sig .tc .vmem S4x2x256x64 .bf16).view.write (Elt F) fd ((pM0 : Memref sig .tc .vmem S4x2x256x64 .bf16).view.read (Elt F) (scr pub c)) Finset.univ) : sProp 𝕄)
        ⊢ recvPay pub 5 (peer 5 c))
    (O : CellTallies nD τ sig Unit) (W : Waits sig Unit) :
    iprop(records pub K ∗ (sL c ↦[srcSet c 5]{Transfers.shareTokN fullShare 5} scr pub c)
        ∗ (∃ fd : Buf (Elt F) (sL (peer 5 c)), sL (peer 5 c) ↦[dstSet (peer 5 c) 5]{fullShare} fd)
        ∗ owes (c : Thread nD τ) (O + tallyAt (recvCell 5 (peer 5 c)) () (NL 5)) W
        ∗ dutyTok ER (sendCell 5 c) 0 (0 : Fin 10) ∗ dutyTok ER (recvCell 5 (peer 5 c)) 0 (0 : Fin 10))
      ⊢ iprop(((cred (tallyAt (sendCell 5 c) () (NL 5)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM5 (.dma (sS 5)) hsc) (.dma (rS 5)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 5)) (κ₂ := K (peer 5 c, kR 5))
    (src := pM0) (dst := pM5) (c' := (peer 5 c : Thread nD τ))
    (r₁ := 0) (r₂ := 0) (d₁ := (0 : Fin 10)) (d₂ := (0 : Fin 10)) (fd := fd) (q := Transfers.shareTokN fullShare 5) (fs := scr pub c)
    (by rw [duties_send]; exact Finset.mem_singleton_self _) (by rw [duties_recv]; exact Finset.mem_singleton_self _)
    () () (NL 5) rfl (amount_send pub c 5 0) (amount_recv pub (peer 5 c) 5 0) O rfl (W := W)
    (by rw [payload_send]; exact BI.Entails.refl _)
    (by rw [payload_recv]; exact hland fd))
  isplitr; · iapply (inv_send pub K c 5); iexact HR
  isplitr; · iapply (inv_recv pub K (peer 5 c) 5); iexact HR
  isplitl [Hsrc]; · iexact Hsrc
  isplitl [Hdst]; · iexact Hdst
  isplitl [HO]; · iexact HO
  isplitl [HtS]; · iexact HtS
  isplitr; · iapply (reached_send pub K c 5); iexact HR
  isplitl [HtR]; · iexact HtR
  iapply (reached_recv pub K (peer 5 c) 5); iexact HR

/-- The copy along link 6: this device's share of the source goes to its send cell, the far end's landing slot,
    rewritten with the source's contents, to the far end's receive cell. -/
theorem wp_copy6 (K : Dev nD × Fin 21 → ℕ) (c n : Dev nD) (hn : n = peer 6 c)
    {hsc : (pM4 : Memref sig (Dev.tc n : Thread nD τ).2.kind .vmem S4x2x256x64 .bf16).view.ref.isScScratch = false}
    {hsrc : (pM0 : Memref sig .tc .vmem S4x2x256x64 .bf16).view.WordExact} {hdst : (pM4 : Memref sig .tc .vmem S4x2x256x64 .bf16).view.WordExact}
    {hsem : DmaTarget.Typed .vmem (.dma (rS 6)) (.remote (Dev.tc n : Thread nD τ) (pM4 : Memref sig .tc .vmem S4x2x256x64 .bf16) (.dma (sS 6)) hsc)}
    {α : Type} {Q : α → sProp 𝕄} {k : PUnit → Prog (TpuEff nD τ sig (Elt F) Λ₀ .tc) α}
    (hland : ∀ fd : Buf (Elt F) (sL (peer 6 c)),
      (sL (peer 6 c) ↦[dstSet (peer 6 c) 6]{fullShare} ((pM4 : Memref sig .tc .vmem S4x2x256x64 .bf16).view.write (Elt F) fd ((pM0 : Memref sig .tc .vmem S4x2x256x64 .bf16).view.read (Elt F) (scr pub c)) Finset.univ) : sProp 𝕄)
        ⊢ recvPay pub 6 (peer 6 c))
    (O : CellTallies nD τ sig Unit) (W : Waits sig Unit) :
    iprop(records pub K ∗ (sL c ↦[srcSet c 6]{Transfers.shareTokN fullShare 6} scr pub c)
        ∗ (∃ fd : Buf (Elt F) (sL (peer 6 c)), sL (peer 6 c) ↦[dstSet (peer 6 c) 6]{fullShare} fd)
        ∗ owes (c : Thread nD τ) (O + tallyAt (recvCell 6 (peer 6 c)) () (NL 6)) W
        ∗ dutyTok ER (sendCell 6 c) 0 (0 : Fin 10) ∗ dutyTok ER (recvCell 6 (peer 6 c)) 0 (0 : Fin 10))
      ⊢ iprop(((cred (tallyAt (sendCell 6 c) () (NL 6)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM4 (.dma (sS 6)) hsc) (.dma (rS 6)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 6)) (κ₂ := K (peer 6 c, kR 6))
    (src := pM0) (dst := pM4) (c' := (peer 6 c : Thread nD τ))
    (r₁ := 0) (r₂ := 0) (d₁ := (0 : Fin 10)) (d₂ := (0 : Fin 10)) (fd := fd) (q := Transfers.shareTokN fullShare 6) (fs := scr pub c)
    (by rw [duties_send]; exact Finset.mem_singleton_self _) (by rw [duties_recv]; exact Finset.mem_singleton_self _)
    () () (NL 6) rfl (amount_send pub c 6 0) (amount_recv pub (peer 6 c) 6 0) O rfl (W := W)
    (by rw [payload_send]; exact BI.Entails.refl _)
    (by rw [payload_recv]; exact hland fd))
  isplitr; · iapply (inv_send pub K c 6); iexact HR
  isplitr; · iapply (inv_recv pub K (peer 6 c) 6); iexact HR
  isplitl [Hsrc]; · iexact Hsrc
  isplitl [Hdst]; · iexact Hdst
  isplitl [HO]; · iexact HO
  isplitl [HtS]; · iexact HtS
  isplitr; · iapply (reached_send pub K c 6); iexact HR
  isplitl [HtR]; · iexact HtR
  iapply (reached_recv pub K (peer 6 c) 6); iexact HR

/-- The copy along link 7: this device's share of the source goes to its send cell, the far end's landing slot,
    rewritten with the source's contents, to the far end's receive cell. -/
theorem wp_copy7 (K : Dev nD × Fin 21 → ℕ) (c n : Dev nD) (hn : n = peer 7 c)
    {hsc : (pM3 : Memref sig (Dev.tc n : Thread nD τ).2.kind .vmem S4x2x256x64 .bf16).view.ref.isScScratch = false}
    {hsrc : (pM0 : Memref sig .tc .vmem S4x2x256x64 .bf16).view.WordExact} {hdst : (pM3 : Memref sig .tc .vmem S4x2x256x64 .bf16).view.WordExact}
    {hsem : DmaTarget.Typed .vmem (.dma (rS 7)) (.remote (Dev.tc n : Thread nD τ) (pM3 : Memref sig .tc .vmem S4x2x256x64 .bf16) (.dma (sS 7)) hsc)}
    {α : Type} {Q : α → sProp 𝕄} {k : PUnit → Prog (TpuEff nD τ sig (Elt F) Λ₀ .tc) α}
    (hland : ∀ fd : Buf (Elt F) (sL (peer 7 c)),
      (sL (peer 7 c) ↦[dstSet (peer 7 c) 7]{fullShare} ((pM3 : Memref sig .tc .vmem S4x2x256x64 .bf16).view.write (Elt F) fd ((pM0 : Memref sig .tc .vmem S4x2x256x64 .bf16).view.read (Elt F) (scr pub c)) Finset.univ) : sProp 𝕄)
        ⊢ recvPay pub 7 (peer 7 c))
    (O : CellTallies nD τ sig Unit) (W : Waits sig Unit) :
    iprop(records pub K ∗ (sL c ↦[srcSet c 7]{Transfers.shareTokN fullShare 7} scr pub c)
        ∗ (∃ fd : Buf (Elt F) (sL (peer 7 c)), sL (peer 7 c) ↦[dstSet (peer 7 c) 7]{fullShare} fd)
        ∗ owes (c : Thread nD τ) (O + tallyAt (recvCell 7 (peer 7 c)) () (NL 7)) W
        ∗ dutyTok ER (sendCell 7 c) 0 (0 : Fin 10) ∗ dutyTok ER (recvCell 7 (peer 7 c)) 0 (0 : Fin 10))
      ⊢ iprop(((cred (tallyAt (sendCell 7 c) () (NL 7)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM3 (.dma (sS 7)) hsc) (.dma (rS 7)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 7)) (κ₂ := K (peer 7 c, kR 7))
    (src := pM0) (dst := pM3) (c' := (peer 7 c : Thread nD τ))
    (r₁ := 0) (r₂ := 0) (d₁ := (0 : Fin 10)) (d₂ := (0 : Fin 10)) (fd := fd) (q := Transfers.shareTokN fullShare 7) (fs := scr pub c)
    (by rw [duties_send]; exact Finset.mem_singleton_self _) (by rw [duties_recv]; exact Finset.mem_singleton_self _)
    () () (NL 7) rfl (amount_send pub c 7 0) (amount_recv pub (peer 7 c) 7 0) O rfl (W := W)
    (by rw [payload_send]; exact BI.Entails.refl _)
    (by rw [payload_recv]; exact hland fd))
  isplitr; · iapply (inv_send pub K c 7); iexact HR
  isplitr; · iapply (inv_recv pub K (peer 7 c) 7); iexact HR
  isplitl [Hsrc]; · iexact Hsrc
  isplitl [Hdst]; · iexact Hdst
  isplitl [HO]; · iexact HO
  isplitl [HtS]; · iexact HtS
  isplitr; · iapply (reached_send pub K c 7); iexact HR
  isplitl [HtR]; · iexact HtR
  iapply (reached_recv pub K (peer 7 c) 7); iexact HR

/-- The copy along link 8: this device's share of the source goes to its send cell, the far end's landing slot,
    rewritten with the source's contents, to the far end's receive cell. -/
theorem wp_copy8 (K : Dev nD × Fin 21 → ℕ) (c n : Dev nD) (hn : n = peer 8 c)
    {hsc : (pM2 : Memref sig (Dev.tc n : Thread nD τ).2.kind .vmem S4x2x256x64 .bf16).view.ref.isScScratch = false}
    {hsrc : (pM0 : Memref sig .tc .vmem S4x2x256x64 .bf16).view.WordExact} {hdst : (pM2 : Memref sig .tc .vmem S4x2x256x64 .bf16).view.WordExact}
    {hsem : DmaTarget.Typed .vmem (.dma (rS 8)) (.remote (Dev.tc n : Thread nD τ) (pM2 : Memref sig .tc .vmem S4x2x256x64 .bf16) (.dma (sS 8)) hsc)}
    {α : Type} {Q : α → sProp 𝕄} {k : PUnit → Prog (TpuEff nD τ sig (Elt F) Λ₀ .tc) α}
    (hland : ∀ fd : Buf (Elt F) (sL (peer 8 c)),
      (sL (peer 8 c) ↦[dstSet (peer 8 c) 8]{fullShare} ((pM2 : Memref sig .tc .vmem S4x2x256x64 .bf16).view.write (Elt F) fd ((pM0 : Memref sig .tc .vmem S4x2x256x64 .bf16).view.read (Elt F) (scr pub c)) Finset.univ) : sProp 𝕄)
        ⊢ recvPay pub 8 (peer 8 c))
    (O : CellTallies nD τ sig Unit) (W : Waits sig Unit) :
    iprop(records pub K ∗ (sL c ↦[srcSet c 8]{Transfers.shareTokN fullShare 8} scr pub c)
        ∗ (∃ fd : Buf (Elt F) (sL (peer 8 c)), sL (peer 8 c) ↦[dstSet (peer 8 c) 8]{fullShare} fd)
        ∗ owes (c : Thread nD τ) (O + tallyAt (recvCell 8 (peer 8 c)) () (NL 8)) W
        ∗ dutyTok ER (sendCell 8 c) 0 (0 : Fin 10) ∗ dutyTok ER (recvCell 8 (peer 8 c)) 0 (0 : Fin 10))
      ⊢ iprop(((cred (tallyAt (sendCell 8 c) () (NL 8)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM2 (.dma (sS 8)) hsc) (.dma (rS 8)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 8)) (κ₂ := K (peer 8 c, kR 8))
    (src := pM0) (dst := pM2) (c' := (peer 8 c : Thread nD τ))
    (r₁ := 0) (r₂ := 0) (d₁ := (0 : Fin 10)) (d₂ := (0 : Fin 10)) (fd := fd) (q := Transfers.shareTokN fullShare 8) (fs := scr pub c)
    (by rw [duties_send]; exact Finset.mem_singleton_self _) (by rw [duties_recv]; exact Finset.mem_singleton_self _)
    () () (NL 8) rfl (amount_send pub c 8 0) (amount_recv pub (peer 8 c) 8 0) O rfl (W := W)
    (by rw [payload_send]; exact BI.Entails.refl _)
    (by rw [payload_recv]; exact hland fd))
  isplitr; · iapply (inv_send pub K c 8); iexact HR
  isplitr; · iapply (inv_recv pub K (peer 8 c) 8); iexact HR
  isplitl [Hsrc]; · iexact Hsrc
  isplitl [Hdst]; · iexact Hdst
  isplitl [HO]; · iexact HO
  isplitl [HtS]; · iexact HtS
  isplitr; · iapply (reached_send pub K c 8); iexact HR
  isplitl [HtR]; · iexact HtR
  iapply (reached_recv pub K (peer 8 c) 8); iexact HR

/-- The copy along link 9: this device's share of the source goes to its send cell, the far end's landing slot,
    rewritten with the source's contents, to the far end's receive cell. -/
theorem wp_copy9 (K : Dev nD × Fin 21 → ℕ) (c n : Dev nD) (hn : n = peer 9 c)
    {hsc : (pM1 : Memref sig (Dev.tc n : Thread nD τ).2.kind .vmem S4x2x256x64 .bf16).view.ref.isScScratch = false}
    {hsrc : (pM0 : Memref sig .tc .vmem S4x2x256x64 .bf16).view.WordExact} {hdst : (pM1 : Memref sig .tc .vmem S4x2x256x64 .bf16).view.WordExact}
    {hsem : DmaTarget.Typed .vmem (.dma (rS 9)) (.remote (Dev.tc n : Thread nD τ) (pM1 : Memref sig .tc .vmem S4x2x256x64 .bf16) (.dma (sS 9)) hsc)}
    {α : Type} {Q : α → sProp 𝕄} {k : PUnit → Prog (TpuEff nD τ sig (Elt F) Λ₀ .tc) α}
    (hland : ∀ fd : Buf (Elt F) (sL (peer 9 c)),
      (sL (peer 9 c) ↦[dstSet (peer 9 c) 9]{fullShare} ((pM1 : Memref sig .tc .vmem S4x2x256x64 .bf16).view.write (Elt F) fd ((pM0 : Memref sig .tc .vmem S4x2x256x64 .bf16).view.read (Elt F) (scr pub c)) Finset.univ) : sProp 𝕄)
        ⊢ recvPay pub 9 (peer 9 c))
    (O : CellTallies nD τ sig Unit) (W : Waits sig Unit) :
    iprop(records pub K ∗ (sL c ↦[srcSet c 9]{Transfers.shareTokN fullShare 9} scr pub c)
        ∗ (∃ fd : Buf (Elt F) (sL (peer 9 c)), sL (peer 9 c) ↦[dstSet (peer 9 c) 9]{fullShare} fd)
        ∗ owes (c : Thread nD τ) (O + tallyAt (recvCell 9 (peer 9 c)) () (NL 9)) W
        ∗ dutyTok ER (sendCell 9 c) 0 (0 : Fin 10) ∗ dutyTok ER (recvCell 9 (peer 9 c)) 0 (0 : Fin 10))
      ⊢ iprop(((cred (tallyAt (sendCell 9 c) () (NL 9)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM0 (.remote (Dev.tc n : Thread nD τ) pM1 (.dma (sS 9)) hsc) (.dma (rS 9)) hsrc hdst hsem) k) Q) := by
  subst hn
  iintro ⟨#HR, Hsrc, ⟨%fd, Hdst⟩, HO, HtS, HtR⟩
  iapply (Rounds.wp_send_pointsTo 𝒱₀ ER (ringRd pub) (c : Thread nD τ) none (κ₁ := K (c, kS 9)) (κ₂ := K (peer 9 c, kR 9))
    (src := pM0) (dst := pM1) (c' := (peer 9 c : Thread nD τ))
    (r₁ := 0) (r₂ := 0) (d₁ := (0 : Fin 10)) (d₂ := (0 : Fin 10)) (fd := fd) (q := Transfers.shareTokN fullShare 9) (fs := scr pub c)
    (by rw [duties_send]; exact Finset.mem_singleton_self _) (by rw [duties_recv]; exact Finset.mem_singleton_self _)
    () () (NL 9) rfl (amount_send pub c 9 0) (amount_recv pub (peer 9 c) 9 0) O rfl (W := W)
    (by rw [payload_send]; exact BI.Entails.refl _)
    (by rw [payload_recv]; exact hland fd))
  isplitr; · iapply (inv_send pub K c 9); iexact HR
  isplitr; · iapply (inv_recv pub K (peer 9 c) 9); iexact HR
  isplitl [Hsrc]; · iexact Hsrc
  isplitl [Hdst]; · iexact Hdst
  isplitl [HO]; · iexact HO
  isplitl [HtS]; · iexact HtS
  isplitr; · iapply (reached_send pub K c 9); iexact HR
  isplitl [HtR]; · iexact HtR
  iapply (reached_recv pub K (peer 9 c) 9); iexact HR

end Cert.RingW

end
-- ==== Proof.BodyDefsW.lean ====
/-
  What a device's body starts from and what it leaves, spelt out for the stepping of the body: the 21 positions
  at its own cells one by one, the staging buffers at named contents.
-/
import proofs.«900463_g7700000000000464_dist_ring_attn_i_s256_d64_v7x_i32_f32_1_alg».proof.Proof.GhostW

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
omit [FloatOps F] in
theorem bigSep_fin21' (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10
    ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

/-- Buffer `b` of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The positions at the own cells, one by one. -/
def positions (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0 ∗ atPos ER (sendCell 3 c) 0 ∅ 0 ∗ atPos ER (sendCell 4 c) 0 ∅ 0 ∗ atPos ER (sendCell 5 c) 0 ∅ 0 ∗ atPos ER (sendCell 6 c) 0 ∅ 0 ∗ atPos ER (sendCell 7 c) 0 ∅ 0 ∗ atPos ER (sendCell 8 c) 0 ∅ 0 ∗ atPos ER (sendCell 9 c) 0 ∅ 0
    ∗ atPos ER (recvCell 0 c) 0 ∅ 0 ∗ atPos ER (recvCell 1 c) 0 ∅ 0 ∗ atPos ER (recvCell 2 c) 0 ∅ 0 ∗ atPos ER (recvCell 3 c) 0 ∅ 0 ∗ atPos ER (recvCell 4 c) 0 ∅ 0 ∗ atPos ER (recvCell 5 c) 0 ∅ 0 ∗ atPos ER (recvCell 6 c) 0 ∅ 0 ∗ atPos ER (recvCell 7 c) 0 ∅ 0 ∗ atPos ER (recvCell 8 c) 0 ∅ 0 ∗ atPos ER (recvCell 9 c) 0 ∅ 0)

omit [FloatOps F] in
theorem positions_eq (c : Dev nD) : (bigSep Finset.univ fun k : Fin 21 => (atPos ER (kcell (c, k)) 0 ∅ 0 : sProp 𝕄)) = positions c := by
  rw [bigSep_fin21']; rfl

/-- What the body of device `c` starts from: the records at the names `K`, its positions, the tokens of the duties it
    pays, the idle semaphores, its launch credit, the level facts, its scratch buffer at some contents; what it owes;
    the four staging buffers at what they hold before the point. -/
def bodyPre (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (K : Dev nD × Fin 21 → ℕ) (c : Dev nD) : sProp 𝕄 :=
  iprop((records pub K ∗ positions (F := F) c ∗ payToks (F := F) c ∗ idle (F := F) c ∗ cred (tallyAt (barCell c) () 10)
      ∗ (bigSep Finset.univ fun p : Fin 10 => cred (tallyAt (recvCell p c) () (NL p))) ∗ levAts L lv ∗ ∃ f : Buf (Elt F) (sL c), sL c ↦{fullShare} f)
    ∗ (dats pub outAt m ρ 0 c).owesAt () t0_0.castSucc
    ∗ (∃ d, stg c cc0_stg0_0 ((dats pub outAt m ρ 0 c).before (0 : Fin 4) t0_0 d))
    ∗ (∃ d, stg c cc0_stg1_0 ((dats pub outAt m ρ 0 c).before (1 : Fin 4) t0_0 d))
    ∗ (∃ d, stg c cc0_stg2_0 ((dats pub outAt m ρ 0 c).before (2 : Fin 4) t0_0 d))
    ∗ (∃ d, stg c cc0_stg3_0 ((dats pub outAt m ρ 0 c).before (3 : Fin 4) t0_0 d)))

/-- What it leaves: the invariant after the point, nothing owed, the three input staging buffers as fetched and the
    result's staging buffer at `outAt c`. -/
def bodyPost (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) : sProp 𝕄 :=
  iprop(Φ₁ (F := F) c ∗ (dats pub outAt m ρ 0 c).owesAt () t0_0.succ ∗ stg c cc0_stg0_0 (stgQ m ρ c) ∗ stg c cc0_stg1_0 (stgK m ρ c)
    ∗ stg c cc0_stg2_0 (stgV m ρ c) ∗ stg c cc0_stg3_0 (outAt c))

end Cert.RingW

end
-- ==== Proof.BodyObW.lean ====
/-
  The body obligation of the pipeline's one point on device `c`, from the body lemma in the form it is stepped in:
  the obligation's precondition is regrouped into the body lemma's (the ghost state unfolded, the positions one by
  one), its postcondition is the body lemma's as it stands.
-/
import proofs.«900463_g7700000000000464_dist_ring_attn_i_s256_d64_v7x_i32_f32_1_alg».proof.Proof.BodyDefsW

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one point. -/
def bodyPre' (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD) : sProp 𝕄 :=
  iprop(Φ₀ pub c ∗ (dats pub outAt m ρ 0 c).owesAt () t0_0.castSucc
    ∗ (∃ d, stg c cc0_stg0_0 ((dats pub outAt m ρ 0 c).before (0 : Fin 4) t0_0 d))
    ∗ (∃ d, stg c cc0_stg1_0 ((dats pub outAt m ρ 0 c).before (1 : Fin 4) t0_0 d))
    ∗ (∃ d, stg c cc0_stg2_0 ((dats pub outAt m ρ 0 c).before (2 : Fin 4) t0_0 d))
    ∗ (∃ d, stg c cc0_stg3_0 ((dats pub outAt m ρ 0 c).before (3 : Fin 4) t0_0 d)))

set_option maxRecDepth 8000 in
/-- The pipeline's body obligation on device `c`, from the body lemma at every assignment of names and every continuation. -/
theorem body_obligation (pub : Dev nD → Nat → Nat → Nat → Elt F .bf16) (outAt : (c : Dev nD) → (cc0_stg3_0 : Ref sig .tc).ty.Contents (Elt F))
    (m : (ℓ : Loc nD τ sig) → Buf (Elt F) ℓ) (ρ : Dev nD → PrngReg) (c : Dev nD)
    (hsound : ∀ (K : Dev nD × Fin 21 → ℕ) (Kt : PUnit → sProp 𝕄),
      iprop(bodyPre pub outAt m ρ K c ∗ (bodyPost pub outAt m ρ c -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_scratch0) (Memref.isWhole_whole _) cc0_scratch1 cc0_scratch2 cc0_scratch3 cc0_scratch4) Kt) :
    BodyObligation (dats (F := F) pub outAt m ρ 0 c) (defs₀ (F := F)) 𝒱₀ () Set.univ := fun t => by
  rw [fin_N0 t]
  rw [bigSep_W0, bigSep_W0]
  simp only [owns_whole_eq]
  show bodyPre' pub outAt m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2 cc0_scratch3 cc0_scratch4) (fun _ => bodyPost pub outAt m ρ c)
  unfold bodyPre' Φ₀ start ghost linear
  simp only [positions_eq]
  iintro ⟨⟨⟨⟨%K, HR, Hat, Htok⟩, Hidle, HcB, HcR, Hlev⟩, Hscr⟩, Ho, Hq, Hk, Hv, Hout⟩
  iapply (hsound K fun _ => bodyPost pub outAt m ρ c)
  unfold bodyPre
  isplitr []
  · isplitl [HR Hat Htok Hidle HcB HcR Hlev Hscr]
    · isplitl [HR]; · iexact HR
      isplitl [Hat]; · iexact Hat
      isplitl [Htok]; · iexact Htok
      isplitl [Hidle]; · iexact Hidle
      isplitl [HcB]; · iexact HcB
      isplitl [HcR]; · iexact HcR
      isplitl [Hlev]; · iexact Hlev
      iexact Hscr
    isplitl [Ho]; · iexact Ho
    isplitl [Hq]; · iexact Hq
    isplitl [Hk]; · iexact Hk
    isplitl [Hv]; · iexact Hv
    iexact Hout
  · iintro H; iexact H

/-- info: 'Cert.RingW.body_obligation' depends on axioms: [propext, Classical.choice, Quot.sound] -/
#guard_msgs in #print axioms body_obligation

end Cert.RingW

end
-- ==== Proof.SlotsW.lean ====
/-
  The slots of the scratch buffer [8, 4, 2, 256, 64].

  Slot [s] (s < 8) is the set of elements whose first coordinate is s; slot [0, i] (i < 4) the set of
  elements whose first two coordinates are 0 and i.  A slot is addressed through a slice of the whole buffer
  with the leading unit axes squeezed away: the element of slot [0, i] at (a, r, d) is the buffer's element
  (0, i, a, r, d), the element of slot [s] at (i, a, r, d) is the buffer's element (s, i, a, r, d), because
  squeezing keeps the row-major order and the slice adds its offsets.  So the eight slots [s] cut the
  buffer into disjoint parts, slot [0] is cut by the four slots [0, i], and each slot [0, i] by its two
  halves [0, i, kv].

  A copy of slot [0, 0] of device c into slot [0, i] of device n, or of slot [0] of c into slot [s] of n,
  moves the element at each slot index to the same slot index.  With the buffer of a device meant to hold
  at (s, i, kv, r, d) the entry (kv, r, d) of what device srcDev _ s i publishes, the copy lands the
  intended contents as soon as the two devices' tables of sources agree on the slots involved; for the
  ten links of the exchange that agreement is decided over the 32 devices.
-/
import proofs.«900463_g7700000000000464_dist_ring_attn_i_s256_d64_v7x_i32_f32_1_alg».proof.Proof.SchedW
import Idealize.ShloMosaic.Lib.Pipeline.Value
import Idealize.ShloMosaic.Rules.PointsTo
import Idealize.ShloMosaic.Lib.Transfers
import Idealize.ShloMosaic.Lib.Rounds

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The slots, generically in their position -/

theorem zinb (i : Nat) (hi : i < 4) :
    ∀ a, (![0, i, 0, 0, 0] : Fin 5 → Nat) a + S1x1x2x256x64.size a ≤ S8x4x2x256x64.size a := fun a =>
  match a with
  | ⟨0, _⟩ => by show 0 + 1 ≤ 8; omega
  | ⟨1, _⟩ => by show i + 1 ≤ 4; omega
  | ⟨2, _⟩ => by show 0 + 2 ≤ 2; omega
  | ⟨3, _⟩ => by show 0 + 256 ≤ 256; omega
  | ⟨4, _⟩ => by show 0 + 64 ≤ 64; omega

theorem pinb (s : Nat) (hs : s < 8) :
    ∀ a, (![s, 0, 0, 0, 0] : Fin 5 → Nat) a + S1x4x2x256x64.size a ≤ S8x4x2x256x64.size a := fun a =>
  match a with
  | ⟨0, _⟩ => by show s + 1 ≤ 8; omega
  | ⟨1, _⟩ => by show 0 + 4 ≤ 4; omega
  | ⟨2, _⟩ => by show 0 + 2 ≤ 2; omega
  | ⟨3, _⟩ => by show 0 + 256 ≤ 256; omega
  | ⟨4, _⟩ => by show 0 + 64 ≤ 64; omega

/-- Slot [0, i]. -/
abbrev zM (i : Nat) (hi : i < 4) : Memref sig .tc .vmem S2x256x64 .bf16 :=
  (A4.slice (Rect.unit (s := S8x4x2x256x64) ![0, i, 0, 0, 0] S1x1x2x256x64.size (zinb i hi)) (fun _ => rfl)).squeeze S2x256x64 squeezes_S1x1x2x256x64_S2x256x64
/-- Slot [s]. -/
abbrev pM (s : Nat) (hs : s < 8) : Memref sig .tc .vmem S4x2x256x64 .bf16 :=
  (A4.slice (Rect.unit (s := S8x4x2x256x64) ![s, 0, 0, 0, 0] S1x4x2x256x64.size (pinb s hs)) (fun _ => rfl)).squeeze S4x2x256x64 squeezes_S1x4x2x256x64_S4x2x256x64

theorem zM0_eq : zM0 = zM 0 (by decide) := rfl
theorem zM1_eq : zM1 = zM 1 (by decide) := rfl
theorem zM2_eq : zM2 = zM 2 (by decide) := rfl
theorem zM3_eq : zM3 = zM 3 (by decide) := rfl
theorem pM0_eq : pM0 = pM 0 (by decide) := rfl
theorem pM1_eq : pM1 = pM 1 (by decide) := rfl
theorem pM2_eq : pM2 = pM 2 (by decide) := rfl
theorem pM3_eq : pM3 = pM 3 (by decide) := rfl
theorem pM4_eq : pM4 = pM 4 (by decide) := rfl
theorem pM5_eq : pM5 = pM 5 (by decide) := rfl
theorem pM6_eq : pM6 = pM 6 (by decide) := rfl
theorem pM7_eq : pM7 = pM 7 (by decide) := rfl

/-! ## Coordinates -/

/-- Squeezing [1, 1, 2, 256, 64] to [2, 256, 64] puts (a, r, d) at (0, 0, a, r, d): the row-major positions agree. -/
theorem reshape_z (y : S2x256x64.Idx) :
    ((Shape.reshapeEquiv squeezes_S1x1x2x256x64_S2x256x64.numel_eq y) 0).val = 0
    ∧ ((Shape.reshapeEquiv squeezes_S1x1x2x256x64_S2x256x64.numel_eq y) 1).val = 0
    ∧ ((Shape.reshapeEquiv squeezes_S1x1x2x256x64_S2x256x64.numel_eq y) 2).val = (y 0).val
    ∧ ((Shape.reshapeEquiv squeezes_S1x1x2x256x64_S2x256x64.numel_eq y) 3).val = (y 1).val
    ∧ ((Shape.reshapeEquiv squeezes_S1x1x2x256x64_S2x256x64.numel_eq y) 4).val = (y 2).val := by
  generalize hk : Shape.reshapeEquiv squeezes_S1x1x2x256x64_S2x256x64.numel_eq y = k
  have hrm : (S1x1x2x256x64.rowMajor k).val = (S2x256x64.rowMajor y).val := by
    rw [← hk]; exact Shape.rowMajor_reshapeEquiv _ y
  have e5 : (S1x1x2x256x64.rowMajor k).val
      = ((((k 0).val * 1 + (k 1).val) * 2 + (k 2).val) * 256 + (k 3).val) * 64 + (k 4).val := Shape.rowMajor_val_five k
  have e3 : (S2x256x64.rowMajor y).val = ((y 0).val * 256 + (y 1).val) * 64 + (y 2).val := Shape.rowMajor_val_three y
  have b0 : (k 0).val < 1 := (k 0).isLt
  have b1 : (k 1).val < 1 := (k 1).isLt
  have b2 : (k 2).val < 2 := (k 2).isLt
  have b3 : (k 3).val < 256 := (k 3).isLt
  have b4 : (k 4).val < 64 := (k 4).isLt
  have c0 : (y 0).val < 2 := (y 0).isLt
  have c1 : (y 1).val < 256 := (y 1).isLt
  have c2 : (y 2).val < 64 := (y 2).isLt
  omega

/-- Squeezing [1, 4, 2, 256, 64] to [4, 2, 256, 64] puts (i, a, r, d) at (0, i, a, r, d). -/
theorem reshape_p (y : S4x2x256x64.Idx) :
    ((Shape.reshapeEquiv squeezes_S1x4x2x256x64_S4x2x256x64.numel_eq y) 0).val = 0
    ∧ ((Shape.reshapeEquiv squeezes_S1x4x2x256x64_S4x2x256x64.numel_eq y) 1).val = (y 0).val
    ∧ ((Shape.reshapeEquiv squeezes_S1x4x2x256x64_S4x2x256x64.numel_eq y) 2).val = (y 1).val
    ∧ ((Shape.reshapeEquiv squeezes_S1x4x2x256x64_S4x2x256x64.numel_eq y) 3).val = (y 2).val
    ∧ ((Shape.reshapeEquiv squeezes_S1x4x2x256x64_S4x2x256x64.numel_eq y) 4).val = (y 3).val := by
  generalize hk : Shape.reshapeEquiv squeezes_S1x4x2x256x64_S4x2x256x64.numel_eq y = k
  have hrm : (S1x4x2x256x64.rowMajor k).val = (S4x2x256x64.rowMajor y).val := by
    rw [← hk]; exact Shape.rowMajor_reshapeEquiv _ y
  have e5 : (S1x4x2x256x64.rowMajor k).val
      = ((((k 0).val * 4 + (k 1).val) * 2 + (k 2).val) * 256 + (k 3).val) * 64 + (k 4).val := Shape.rowMajor_val_five k
  have e4 : (S4x2x256x64.rowMajor y).val = (((y 0).val * 2 + (y 1).val) * 256 + (y 2).val) * 64 + (y 3).val := Shape.rowMajor_val_four y
  have b0 : (k 0).val < 1 := (k 0).isLt
  have b1 : (k 1).val < 4 := (k 1).isLt
  have b2 : (k 2).val < 2 := (k 2).isLt
  have b3 : (k 3).val < 256 := (k 3).isLt
  have b4 : (k 4).val < 64 := (k 4).isLt
  have c0 : (y 0).val < 4 := (y 0).isLt
  have c1 : (y 1).val < 2 := (y 1).isLt
  have c2 : (y 2).val < 256 := (y 2).isLt
  have c3 : (y 3).val < 64 := (y 3).isLt
  omega

/-- The element of slot [0, i] at (a, r, d) is the buffer's element (0, i, a, r, d). -/
theorem zM_emb (i : Nat) (hi : i < 4) (y : S2x256x64.Idx) :
    ((zM i hi).view.emb y 0).val = 0 ∧ ((zM i hi).view.emb y 1).val = i
    ∧ ((zM i hi).view.emb y 2).val = (y 0).val ∧ ((zM i hi).view.emb y 3).val = (y 1).val
    ∧ ((zM i hi).view.emb y 4).val = (y 2).val := by
  obtain ⟨h0, h1, h2, h3, h4⟩ := reshape_z y
  have k0 : ((zM i hi).view.emb y 0).val = 0 + 1 * ((Shape.reshapeEquiv squeezes_S1x1x2x256x64_S2x256x64.numel_eq y) 0).val := rfl
  have k1 : ((zM i hi).view.emb y 1).val = i + 1 * ((Shape.reshapeEquiv squeezes_S1x1x2x256x64_S2x256x64.numel_eq y) 1).val := rfl
  have k2 : ((zM i hi).view.emb y 2).val = 0 + 1 * ((Shape.reshapeEquiv squeezes_S1x1x2x256x64_S2x256x64.numel_eq y) 2).val := rfl
  have k3 : ((zM i hi).view.emb y 3).val = 0 + 1 * ((Shape.reshapeEquiv squeezes_S1x1x2x256x64_S2x256x64.numel_eq y) 3).val := rfl
  have k4 : ((zM i hi).view.emb y 4).val = 0 + 1 * ((Shape.reshapeEquiv squeezes_S1x1x2x256x64_S2x256x64.numel_eq y) 4).val := rfl
  rw [k0, k1, k2, k3, k4, h0, h1, h2, h3, h4]
  omega

/-- The element of slot [s] at (i, a, r, d) is the buffer's element (s, i, a, r, d). -/
theorem pM_emb (s : Nat) (hs : s < 8) (y : S4x2x256x64.Idx) :
    ((pM s hs).view.emb y 0).val = s ∧ ((pM s hs).view.emb y 1).val = (y 0).val
    ∧ ((pM s hs).view.emb y 2).val = (y 1).val ∧ ((pM s hs).view.emb y 3).val = (y 2).val
    ∧ ((pM s hs).view.emb y 4).val = (y 3).val := by
  obtain ⟨h0, h1, h2, h3, h4⟩ := reshape_p y
  have k0 : ((pM s hs).view.emb y 0).val = s + 1 * ((Shape.reshapeEquiv squeezes_S1x4x2x256x64_S4x2x256x64.numel_eq y) 0).val := rfl
  have k1 : ((pM s hs).view.emb y 1).val = 0 + 1 * ((Shape.reshapeEquiv squeezes_S1x4x2x256x64_S4x2x256x64.numel_eq y) 1).val := rfl
  have k2 : ((pM s hs).view.emb y 2).val = 0 + 1 * ((Shape.reshapeEquiv squeezes_S1x4x2x256x64_S4x2x256x64.numel_eq y) 2).val := rfl
  have k3 : ((pM s hs).view.emb y 3).val = 0 + 1 * ((Shape.reshapeEquiv squeezes_S1x4x2x256x64_S4x2x256x64.numel_eq y) 3).val := rfl
  have k4 : ((pM s hs).view.emb y 4).val = 0 + 1 * ((Shape.reshapeEquiv squeezes_S1x4x2x256x64_S4x2x256x64.numel_eq y) 4).val := rfl
  rw [k0, k1, k2, k3, k4, h0, h1, h2, h3, h4]
  omega

theorem zM0_emb (y : S2x256x64.Idx) : (zM0.view.emb y 0).val = 0 ∧ (zM0.view.emb y 1).val = 0 ∧ (zM0.view.emb y 2).val = (y 0).val ∧ (zM0.view.emb y 3).val = (y 1).val ∧ (zM0.view.emb y 4).val = (y 2).val := zM_emb 0 (by decide) y
theorem zM1_emb (y : S2x256x64.Idx) : (zM1.view.emb y 0).val = 0 ∧ (zM1.view.emb y 1).val = 1 ∧ (zM1.view.emb y 2).val = (y 0).val ∧ (zM1.view.emb y 3).val = (y 1).val ∧ (zM1.view.emb y 4).val = (y 2).val := zM_emb 1 (by decide) y
theorem zM2_emb (y : S2x256x64.Idx) : (zM2.view.emb y 0).val = 0 ∧ (zM2.view.emb y 1).val = 2 ∧ (zM2.view.emb y 2).val = (y 0).val ∧ (zM2.view.emb y 3).val = (y 1).val ∧ (zM2.view.emb y 4).val = (y 2).val := zM_emb 2 (by decide) y
theorem zM3_emb (y : S2x256x64.Idx) : (zM3.view.emb y 0).val = 0 ∧ (zM3.view.emb y 1).val = 3 ∧ (zM3.view.emb y 2).val = (y 0).val ∧ (zM3.view.emb y 3).val = (y 1).val ∧ (zM3.view.emb y 4).val = (y 2).val := zM_emb 3 (by decide) y
theorem pM0_emb (y : S4x2x256x64.Idx) : (pM0.view.emb y 0).val = 0 ∧ (pM0.view.emb y 1).val = (y 0).val ∧ (pM0.view.emb y 2).val = (y 1).val ∧ (pM0.view.emb y 3).val = (y 2).val ∧ (pM0.view.emb y 4).val = (y 3).val := pM_emb 0 (by decide) y
theorem pM1_emb (y : S4x2x256x64.Idx) : (pM1.view.emb y 0).val = 1 ∧ (pM1.view.emb y 1).val = (y 0).val ∧ (pM1.view.emb y 2).val = (y 1).val ∧ (pM1.view.emb y 3).val = (y 2).val ∧ (pM1.view.emb y 4).val = (y 3).val := pM_emb 1 (by decide) y
theorem pM2_emb (y : S4x2x256x64.Idx) : (pM2.view.emb y 0).val = 2 ∧ (pM2.view.emb y 1).val = (y 0).val ∧ (pM2.view.emb y 2).val = (y 1).val ∧ (pM2.view.emb y 3).val = (y 2).val ∧ (pM2.view.emb y 4).val = (y 3).val := pM_emb 2 (by decide) y
theorem pM3_emb (y : S4x2x256x64.Idx) : (pM3.view.emb y 0).val = 3 ∧ (pM3.view.emb y 1).val = (y 0).val ∧ (pM3.view.emb y 2).val = (y 1).val ∧ (pM3.view.emb y 3).val = (y 2).val ∧ (pM3.view.emb y 4).val = (y 3).val := pM_emb 3 (by decide) y
theorem pM4_emb (y : S4x2x256x64.Idx) : (pM4.view.emb y 0).val = 4 ∧ (pM4.view.emb y 1).val = (y 0).val ∧ (pM4.view.emb y 2).val = (y 1).val ∧ (pM4.view.emb y 3).val = (y 2).val ∧ (pM4.view.emb y 4).val = (y 3).val := pM_emb 4 (by decide) y
theorem pM5_emb (y : S4x2x256x64.Idx) : (pM5.view.emb y 0).val = 5 ∧ (pM5.view.emb y 1).val = (y 0).val ∧ (pM5.view.emb y 2).val = (y 1).val ∧ (pM5.view.emb y 3).val = (y 2).val ∧ (pM5.view.emb y 4).val = (y 3).val := pM_emb 5 (by decide) y
theorem pM6_emb (y : S4x2x256x64.Idx) : (pM6.view.emb y 0).val = 6 ∧ (pM6.view.emb y 1).val = (y 0).val ∧ (pM6.view.emb y 2).val = (y 1).val ∧ (pM6.view.emb y 3).val = (y 2).val ∧ (pM6.view.emb y 4).val = (y 3).val := pM_emb 6 (by decide) y
theorem pM7_emb (y : S4x2x256x64.Idx) : (pM7.view.emb y 0).val = 7 ∧ (pM7.view.emb y 1).val = (y 0).val ∧ (pM7.view.emb y 2).val = (y 1).val ∧ (pM7.view.emb y 3).val = (y 2).val ∧ (pM7.view.emb y 4).val = (y 3).val := pM_emb 7 (by decide) y

/-! ## Membership -/

/-- A slot's elements are those of its rectangle in the buffer. -/
theorem zM_set (i : Nat) (hi : i < 4) :
    (zM i hi).view.set = (Rect.unit (s := S8x4x2x256x64) ![0, i, 0, 0, 0] S1x1x2x256x64.size (zinb i hi)).set :=
  (View.set_reshape _ _).trans (View.set_slice_whole _ _)
theorem pM_set (s : Nat) (hs : s < 8) :
    (pM s hs).view.set = (Rect.unit (s := S8x4x2x256x64) ![s, 0, 0, 0, 0] S1x4x2x256x64.size (pinb s hs)).set :=
  (View.set_reshape _ _).trans (View.set_slice_whole _ _)

/-- Slot [0, i] is the set of elements whose first two coordinates are 0 and i. -/
theorem mem_zM (i : Nat) (hi : i < 4) (idx : S8x4x2x256x64.Idx) :
    idx ∈ (zM i hi).view.set ↔ (idx 0).val = 0 ∧ (idx 1).val = i := by
  rw [zM_set, Rect.mem_set_unit]
  have c2 : (idx 2).val < 2 := (idx 2).isLt
  have c3 : (idx 3).val < 256 := (idx 3).isLt
  have c4 : (idx 4).val < 64 := (idx 4).isLt
  constructor
  · intro h
    have h0 : 0 ≤ (idx 0).val ∧ (idx 0).val < 0 + 1 := h 0
    have h1 : i ≤ (idx 1).val ∧ (idx 1).val < i + 1 := h 1
    omega
  · rintro ⟨h0, h1⟩ a
    match a with
    | ⟨0, _⟩ => show 0 ≤ (idx 0).val ∧ (idx 0).val < 0 + 1; omega
    | ⟨1, _⟩ => show i ≤ (idx 1).val ∧ (idx 1).val < i + 1; omega
    | ⟨2, _⟩ => show 0 ≤ (idx 2).val ∧ (idx 2).val < 0 + 2; omega
    | ⟨3, _⟩ => show 0 ≤ (idx 3).val ∧ (idx 3).val < 0 + 256; omega
    | ⟨4, _⟩ => show 0 ≤ (idx 4).val ∧ (idx 4).val < 0 + 64; omega

/-- Slot [s] is the set of elements whose first coordinate is s. -/
theorem mem_pM (s : Nat) (hs : s < 8) (idx : S8x4x2x256x64.Idx) :
    idx ∈ (pM s hs).view.set ↔ (idx 0).val = s := by
  rw [pM_set, Rect.mem_set_unit]
  have c1 : (idx 1).val < 4 := (idx 1).isLt
  have c2 : (idx 2).val < 2 := (idx 2).isLt
  have c3 : (idx 3).val < 256 := (idx 3).isLt
  have c4 : (idx 4).val < 64 := (idx 4).isLt
  constructor
  · intro h
    have h0 : s ≤ (idx 0).val ∧ (idx 0).val < s + 1 := h 0
    omega
  · intro h0 a
    match a with
    | ⟨0, _⟩ => show s ≤ (idx 0).val ∧ (idx 0).val < s + 1; omega
    | ⟨1, _⟩ => show 0 ≤ (idx 1).val ∧ (idx 1).val < 0 + 4; omega
    | ⟨2, _⟩ => show 0 ≤ (idx 2).val ∧ (idx 2).val < 0 + 2; omega
    | ⟨3, _⟩ => show 0 ≤ (idx 3).val ∧ (idx 3).val < 0 + 256; omega
    | ⟨4, _⟩ => show 0 ≤ (idx 4).val ∧ (idx 4).val < 0 + 64; omega

theorem mem_zM0 (idx : S8x4x2x256x64.Idx) : idx ∈ zM0.view.set ↔ (idx 0).val = 0 ∧ (idx 1).val = 0 := mem_zM 0 (by decide) idx
theorem mem_zM1 (idx : S8x4x2x256x64.Idx) : idx ∈ zM1.view.set ↔ (idx 0).val = 0 ∧ (idx 1).val = 1 := mem_zM 1 (by decide) idx
theorem mem_zM2 (idx : S8x4x2x256x64.Idx) : idx ∈ zM2.view.set ↔ (idx 0).val = 0 ∧ (idx 1).val = 2 := mem_zM 2 (by decide) idx
theorem mem_zM3 (idx : S8x4x2x256x64.Idx) : idx ∈ zM3.view.set ↔ (idx 0).val = 0 ∧ (idx 1).val = 3 := mem_zM 3 (by decide) idx
theorem mem_pM0 (idx : S8x4x2x256x64.Idx) : idx ∈ pM0.view.set ↔ (idx 0).val = 0 := mem_pM 0 (by decide) idx
theorem mem_pM1 (idx : S8x4x2x256x64.Idx) : idx ∈ pM1.view.set ↔ (idx 0).val = 1 := mem_pM 1 (by decide) idx
theorem mem_pM2 (idx : S8x4x2x256x64.Idx) : idx ∈ pM2.view.set ↔ (idx 0).val = 2 := mem_pM 2 (by decide) idx
theorem mem_pM3 (idx : S8x4x2x256x64.Idx) : idx ∈ pM3.view.set ↔ (idx 0).val = 3 := mem_pM 3 (by decide) idx
theorem mem_pM4 (idx : S8x4x2x256x64.Idx) : idx ∈ pM4.view.set ↔ (idx 0).val = 4 := mem_pM 4 (by decide) idx
theorem mem_pM5 (idx : S8x4x2x256x64.Idx) : idx ∈ pM5.view.set ↔ (idx 0).val = 5 := mem_pM 5 (by decide) idx
theorem mem_pM6 (idx : S8x4x2x256x64.Idx) : idx ∈ pM6.view.set ↔ (idx 0).val = 6 := mem_pM 6 (by decide) idx
theorem mem_pM7 (idx : S8x4x2x256x64.Idx) : idx ∈ pM7.view.set ↔ (idx 0).val = 7 := mem_pM 7 (by decide) idx

/-! ## The halves [0, i, kv] of a slot, and the rectangles the body loads and stores through -/

/-- The keys' half [0, 0, 0] and the values' half [0, 0, 1] of slot [0, 0], as the body's two stores write them. -/
abbrev kSet (c : Dev nD) : Finset (Idx (sL c)) := (A4.access (Rect.unit (s := S8x4x2x256x64) ![0, 0, 0, 0, 0] S1x1x1x256x64.size inb_S8x4x2x256x64_S1x1x1x256x64_0_0_0_0_0)).set
abbrev vSet (c : Dev nD) : Finset (Idx (sL c)) := (A4.access (Rect.unit (s := S8x4x2x256x64) ![0, 0, 1, 0, 0] S1x1x1x256x64.size inb_S8x4x2x256x64_S1x1x1x256x64_0_0_1_0_0)).set

theorem srcDev_self : ∀ c : Dev nD, srcDev c 0 0 = c := by decide +kernel

/-- The half [0, i, kv] is the set of elements whose first three coordinates are 0, i and kv. -/
theorem mem_half (i kv : Nat) (inb : ∀ a, (![0, i, kv, 0, 0] : Fin 5 → Nat) a + S1x1x1x256x64.size a ≤ S8x4x2x256x64.size a)
    (idx : S8x4x2x256x64.Idx) :
    idx ∈ (A4.access (Rect.unit (s := S8x4x2x256x64) ![0, i, kv, 0, 0] S1x1x1x256x64.size inb)).set
      ↔ (idx 0).val = 0 ∧ (idx 1).val = i ∧ (idx 2).val = kv := by
  rw [View.set_slice_whole, Rect.mem_set_unit]
  have c3 : (idx 3).val < 256 := (idx 3).isLt
  have c4 : (idx 4).val < 64 := (idx 4).isLt
  constructor
  · intro h
    have h0 : 0 ≤ (idx 0).val ∧ (idx 0).val < 0 + 1 := h 0
    have h1 : i ≤ (idx 1).val ∧ (idx 1).val < i + 1 := h 1
    have h2 : kv ≤ (idx 2).val ∧ (idx 2).val < kv + 1 := h 2
    omega
  · rintro ⟨h0, h1, h2⟩ a
    match a with
    | ⟨0, _⟩ => show 0 ≤ (idx 0).val ∧ (idx 0).val < 0 + 1; omega
    | ⟨1, _⟩ => show i ≤ (idx 1).val ∧ (idx 1).val < i + 1; omega
    | ⟨2, _⟩ => show kv ≤ (idx 2).val ∧ (idx 2).val < kv + 1; omega
    | ⟨3, _⟩ => show 0 ≤ (idx 3).val ∧ (idx 3).val < 0 + 256; omega
    | ⟨4, _⟩ => show 0 ≤ (idx 4).val ∧ (idx 4).val < 0 + 64; omega

theorem mem_kSet (c : Dev nD) (idx : S8x4x2x256x64.Idx) : idx ∈ kSet c ↔ (idx 0).val = 0 ∧ (idx 1).val = 0 ∧ (idx 2).val = 0 := mem_half 0 0 _ idx
theorem mem_vSet (c : Dev nD) (idx : S8x4x2x256x64.Idx) : idx ∈ vSet c ↔ (idx 0).val = 0 ∧ (idx 1).val = 0 ∧ (idx 2).val = 1 := mem_half 0 1 _ idx

/-- The element of the half [0, i, kv] at (0, 0, 0, r, d) is the buffer's element (0, i, kv, r, d). -/
theorem half_emb (i kv : Nat) (inb : ∀ a, (![0, i, kv, 0, 0] : Fin 5 → Nat) a + S1x1x1x256x64.size a ≤ S8x4x2x256x64.size a)
    (x : S1x1x1x256x64.Idx) :
    ((A4.access (Rect.unit (s := S8x4x2x256x64) ![0, i, kv, 0, 0] S1x1x1x256x64.size inb)).emb x 0).val = 0
    ∧ ((A4.access (Rect.unit (s := S8x4x2x256x64) ![0, i, kv, 0, 0] S1x1x1x256x64.size inb)).emb x 1).val = i
    ∧ ((A4.access (Rect.unit (s := S8x4x2x256x64) ![0, i, kv, 0, 0] S1x1x1x256x64.size inb)).emb x 2).val = kv
    ∧ ((A4.access (Rect.unit (s := S8x4x2x256x64) ![0, i, kv, 0, 0] S1x1x1x256x64.size inb)).emb x 3).val = (x 3).val
    ∧ ((A4.access (Rect.unit (s := S8x4x2x256x64) ![0, i, kv, 0, 0] S1x1x1x256x64.size inb)).emb x 4).val = (x 4).val := by
  have b0 : (x 0).val < 1 := (x 0).isLt
  have b1 : (x 1).val < 1 := (x 1).isLt
  have b2 : (x 2).val < 1 := (x 2).isLt
  have k0 : ((A4.access (Rect.unit (s := S8x4x2x256x64) ![0, i, kv, 0, 0] S1x1x1x256x64.size inb)).emb x 0).val = 0 + 1 * (x 0).val := rfl
  have k1 : ((A4.access (Rect.unit (s := S8x4x2x256x64) ![0, i, kv, 0, 0] S1x1x1x256x64.size inb)).emb x 1).val = i + 1 * (x 1).val := rfl
  have k2 : ((A4.access (Rect.unit (s := S8x4x2x256x64) ![0, i, kv, 0, 0] S1x1x1x256x64.size inb)).emb x 2).val = kv + 1 * (x 2).val := rfl
  have k3 : ((A4.access (Rect.unit (s := S8x4x2x256x64) ![0, i, kv, 0, 0] S1x1x1x256x64.size inb)).emb x 3).val = 0 + 1 * (x 3).val := rfl
  have k4 : ((A4.access (Rect.unit (s := S8x4x2x256x64) ![0, i, kv, 0, 0] S1x1x1x256x64.size inb)).emb x 4).val = 0 + 1 * (x 4).val := rfl
  rw [k0, k1, k2, k3, k4]
  omega

/-- Slot [0, 0] is its two halves. -/
theorem kv_union (c : Dev nD) : (zM0 : Memref sig .tc .vmem S2x256x64 .bf16).view.set = kSet c ∪ vSet c := by
  refine Finset.ext fun idx => ?_
  have h2 : (idx 2).val < 2 := (idx 2).isLt
  rw [Finset.mem_union]
  constructor
  · intro h
    have a := (mem_zM0 idx).mp h
    by_cases e : (idx 2).val = 0
    · exact Or.inl ((mem_kSet c idx).mpr ⟨a.1, a.2, e⟩)
    · exact Or.inr ((mem_vSet c idx).mpr ⟨a.1, a.2, by omega⟩)
  · rintro (h | h)
    · have a := (mem_kSet c idx).mp h; exact (mem_zM0 idx).mpr ⟨a.1, a.2.1⟩
    · have a := (mem_vSet c idx).mp h; exact (mem_zM0 idx).mpr ⟨a.1, a.2.1⟩

theorem kv_disjoint (c : Dev nD) : Disjoint (kSet c) (vSet c) := by
  refine Finset.disjoint_left.mpr fun idx h1 h2 => ?_
  have a := (mem_kSet c idx).mp h1
  have b := (mem_vSet c idx).mp h2
  omega

/-- A store through the rectangle [0, i, kv, :, :] writes inside slot [0, i]: the form a store's rule asks. -/
theorem store_half_subset (i kv : Nat) (hi : i < 4)
    (inb : ∀ a, (![0, i, kv, 0, 0] : Fin 5 → Nat) a + S1x1x1x256x64.size a ≤ S8x4x2x256x64.size a) :
    (A4.access (Rect.unit (s := S8x4x2x256x64) ![0, i, kv, 0, 0] S1x1x1x256x64.size inb)).setOn Finset.univ ⊆ (zM i hi).view.set := by
  intro idx h
  have a := (mem_half i kv inb idx).mp h
  exact (mem_zM i hi idx).mpr ⟨a.1, a.2.1⟩

theorem store_k_subset (c : Dev nD) :
    (A4.access (Rect.unit (s := S8x4x2x256x64) ![0, 0, 0, 0, 0] S1x1x1x256x64.size inb_S8x4x2x256x64_S1x1x1x256x64_0_0_0_0_0)).setOn Finset.univ ⊆ kSet c :=
  Finset.Subset.refl _
theorem store_v_subset (c : Dev nD) :
    (A4.access (Rect.unit (s := S8x4x2x256x64) ![0, 0, 1, 0, 0] S1x1x1x256x64.size inb_S8x4x2x256x64_S1x1x1x256x64_0_0_1_0_0)).setOn Finset.univ ⊆ vSet c :=
  Finset.Subset.refl _

/-- What a load through the whole buffer at a rectangle reads is the rectangle's elements. -/
theorem setOn_whole_rect (r : Rect S8x4x2x256x64) : A4.view.setOn r.toLoadRect.set = r.set := Finset.map_refl

/-- An access through the whole buffer at a rectangle goes through the rectangle's elements. -/
theorem access_set (r : Rect S8x4x2x256x64) : (A4.access r).set = r.set := View.set_slice_whole _ _

/-- A load at the rectangle [0, i, kv, :, :] reads inside slot [0, i]: the form a load's rule asks. -/
theorem load_half_subset (i kv : Nat) (hi : i < 4)
    (inb : ∀ a, (![0, i, kv, 0, 0] : Fin 5 → Nat) a + S1x1x1x256x64.size a ≤ S8x4x2x256x64.size a) :
    A4.view.setOn (Rect.unit (s := S8x4x2x256x64) ![0, i, kv, 0, 0] S1x1x1x256x64.size inb).toLoadRect.set ⊆ (zM i hi).view.set := by
  rw [setOn_whole_rect, ← access_set (Rect.unit (s := S8x4x2x256x64) ![0, i, kv, 0, 0] S1x1x1x256x64.size inb)]
  exact store_half_subset i kv hi inb

theorem load_k_subset (c : Dev nD) :
    A4.view.setOn (Rect.unit (s := S8x4x2x256x64) ![0, 0, 0, 0, 0] S1x1x1x256x64.size inb_S8x4x2x256x64_S1x1x1x256x64_0_0_0_0_0).toLoadRect.set ⊆ kSet c := by
  rw [setOn_whole_rect, ← access_set (Rect.unit (s := S8x4x2x256x64) ![0, 0, 0, 0, 0] S1x1x1x256x64.size inb_S8x4x2x256x64_S1x1x1x256x64_0_0_0_0_0)]
theorem load_v_subset (c : Dev nD) :
    A4.view.setOn (Rect.unit (s := S8x4x2x256x64) ![0, 0, 1, 0, 0] S1x1x1x256x64.size inb_S8x4x2x256x64_S1x1x1x256x64_0_0_1_0_0).toLoadRect.set ⊆ vSet c := by
  rw [setOn_whole_rect, ← access_set (Rect.unit (s := S8x4x2x256x64) ![0, 0, 1, 0, 0] S1x1x1x256x64.size inb_S8x4x2x256x64_S1x1x1x256x64_0_0_1_0_0)]

/-- A load at the rectangle [s, :, kv, :, :] reads inside slot [s]. -/
theorem load_p_subset (s kv : Nat) (hs : s < 8)
    (inb : ∀ a, (![s, 0, kv, 0, 0] : Fin 5 → Nat) a + S1x4x1x256x64.size a ≤ S8x4x2x256x64.size a) :
    A4.view.setOn (Rect.unit (s := S8x4x2x256x64) ![s, 0, kv, 0, 0] S1x4x1x256x64.size inb).toLoadRect.set ⊆ (pM s hs).view.set := by
  rw [setOn_whole_rect]
  intro idx h
  have h0 : s ≤ (idx 0).val ∧ (idx 0).val < s + 1 := (Rect.mem_set_unit.mp h) 0
  exact (mem_pM s hs idx).mpr (by omega)

/-! ## The landings -/

/-- The sources of a device's own slots, and of the slots its copies land in, over the 32 devices. -/
theorem srcDev_link0 : ∀ c : Dev nD, srcDev (peer 0 c) 0 3 = srcDev c 0 0 := by decide +kernel
theorem srcDev_link1 : ∀ c : Dev nD, srcDev (peer 1 c) 0 2 = srcDev c 0 0 := by decide +kernel
theorem srcDev_link2 : ∀ c : Dev nD, srcDev (peer 2 c) 0 1 = srcDev c 0 0 := by decide +kernel
theorem srcDev_link3 : ∀ (c : Dev nD) (i : Fin 4), srcDev (peer 3 c) 7 i.val = srcDev c 0 i.val := by decide +kernel
theorem srcDev_link4 : ∀ (c : Dev nD) (i : Fin 4), srcDev (peer 4 c) 6 i.val = srcDev c 0 i.val := by decide +kernel
theorem srcDev_link5 : ∀ (c : Dev nD) (i : Fin 4), srcDev (peer 5 c) 5 i.val = srcDev c 0 i.val := by decide +kernel
theorem srcDev_link6 : ∀ (c : Dev nD) (i : Fin 4), srcDev (peer 6 c) 4 i.val = srcDev c 0 i.val := by decide +kernel
theorem srcDev_link7 : ∀ (c : Dev nD) (i : Fin 4), srcDev (peer 7 c) 3 i.val = srcDev c 0 i.val := by decide +kernel
theorem srcDev_link8 : ∀ (c : Dev nD) (i : Fin 4), srcDev (peer 8 c) 2 i.val = srcDev c 0 i.val := by decide +kernel
theorem srcDev_link9 : ∀ (c : Dev nD) (i : Fin 4), srcDev (peer 9 c) 1 i.val = srcDev c 0 i.val := by decide +kernel

theorem lt_0_4 : (0 : ℕ) < 4 := by decide
theorem lt_1_4 : (1 : ℕ) < 4 := by decide
theorem lt_2_4 : (2 : ℕ) < 4 := by decide
theorem lt_3_4 : (3 : ℕ) < 4 := by decide
theorem lt_0_8 : (0 : ℕ) < 8 := by decide
theorem lt_1_8 : (1 : ℕ) < 8 := by decide
theorem lt_2_8 : (2 : ℕ) < 8 := by decide
theorem lt_3_8 : (3 : ℕ) < 8 := by decide
theorem lt_4_8 : (4 : ℕ) < 8 := by decide
theorem lt_5_8 : (5 : ℕ) < 8 := by decide
theorem lt_6_8 : (6 : ℕ) < 8 := by decide
theorem lt_7_8 : (7 : ℕ) < 8 := by decide

section Landings
variable {F : FTy → Type} [FloatOps F]

/-- Slot [0, 0] of device c copied into slot [0, i] of device n lands n's intended contents there, when n's
    slot [0, i] is meant to hold what c's slot [0, 0] holds. -/
theorem landing_zslot (pub : Dev nD → Nat → Nat → Nat → Elt F .bf16) (c n : Dev nD) (i : Nat) (hi : i < 4)
    (hdev : srcDev n 0 i = srcDev c 0 0) (fd : Buf (Elt F) (sL n)) :
    ∀ j ∈ (zM i hi).view.set,
      (zM i hi).view.write (Elt F) fd ((zM 0 lt_0_4).view.read (Elt F) (scr pub c)) Finset.univ j = scr pub n j := by
  intro j hj
  obtain ⟨y, rfl⟩ := View.exists_emb_of_mem_set _ hj
  rw [View.write_emb_of_mem _ _ (Finset.mem_univ y), View.read_apply, cast_cast, cast_eq]
  obtain ⟨a0, a1, a2, a3, a4⟩ := zM_emb 0 lt_0_4 y
  obtain ⟨b0, b1, b2, b3, b4⟩ := zM_emb i hi y
  unfold scr
  simp only []
  rw [a0, a1, a2, a3, a4, b0, b1, b2, b3, b4, hdev]

/-- Slot [0] of device c copied into slot [s] of device n lands n's intended contents there, when n's slots
    [s, i] are meant to hold what c's slots [0, i] hold. -/
theorem landing_pslot (pub : Dev nD → Nat → Nat → Nat → Elt F .bf16) (c n : Dev nD) (s : Nat) (hs : s < 8)
    (hdev : ∀ i : Fin 4, srcDev n s i.val = srcDev c 0 i.val) (fd : Buf (Elt F) (sL n)) :
    ∀ j ∈ (pM s hs).view.set,
      (pM s hs).view.write (Elt F) fd ((pM 0 lt_0_8).view.read (Elt F) (scr pub c)) Finset.univ j = scr pub n j := by
  intro j hj
  obtain ⟨y, rfl⟩ := View.exists_emb_of_mem_set _ hj
  rw [View.write_emb_of_mem _ _ (Finset.mem_univ y), View.read_apply, cast_cast, cast_eq]
  obtain ⟨a0, a1, a2, a3, a4⟩ := pM_emb 0 lt_0_8 y
  obtain ⟨b0, b1, b2, b3, b4⟩ := pM_emb s hs y
  unfold scr
  simp only []
  rw [a0, a1, a2, a3, a4, b0, b1, b2, b3, b4, hdev (y 0)]

end Landings

section Links
variable {F : FTy → Type} [FloatOps F]
local notation "𝕄" => MT nD τ sig Unit (Elt F) ℕ UU ℕ

/-- Link 0: slot [0, 0] of c lands in slot [0, 3] of the device at the end of the link, as the receive cell's payload. -/
theorem landing_0 (pub : Dev nD → Nat → Nat → Nat → Elt F .bf16) (c : Dev nD) (fd : Buf (Elt F) (sL (peer 0 c))) :
    (sL (peer 0 c) ↦[dstSet (peer 0 c) 0]{fullShare} ((zM3 : Memref sig .tc .vmem S2x256x64 .bf16).view.write (Elt F) fd ((zM0 : Memref sig .tc .vmem S2x256x64 .bf16).view.read (Elt F) (scr pub c)) Finset.univ) : sProp 𝕄)
      ⊢ recvPay pub 0 (peer 0 c) :=
  Entails.of_eq (pointsTo_congr (landing_zslot pub c (peer 0 c) 3 lt_3_4 (srcDev_link0 c) fd))

/-- Link 1: slot [0, 0] of c lands in slot [0, 2] of the device at the end of the link, as the receive cell's payload. -/
theorem landing_1 (pub : Dev nD → Nat → Nat → Nat → Elt F .bf16) (c : Dev nD) (fd : Buf (Elt F) (sL (peer 1 c))) :
    (sL (peer 1 c) ↦[dstSet (peer 1 c) 1]{fullShare} ((zM2 : Memref sig .tc .vmem S2x256x64 .bf16).view.write (Elt F) fd ((zM0 : Memref sig .tc .vmem S2x256x64 .bf16).view.read (Elt F) (scr pub c)) Finset.univ) : sProp 𝕄)
      ⊢ recvPay pub 1 (peer 1 c) :=
  Entails.of_eq (pointsTo_congr (landing_zslot pub c (peer 1 c) 2 lt_2_4 (srcDev_link1 c) fd))

/-- Link 2: slot [0, 0] of c lands in slot [0, 1] of the device at the end of the link, as the receive cell's payload. -/
theorem landing_2 (pub : Dev nD → Nat → Nat → Nat → Elt F .bf16) (c : Dev nD) (fd : Buf (Elt F) (sL (peer 2 c))) :
    (sL (peer 2 c) ↦[dstSet (peer 2 c) 2]{fullShare} ((zM1 : Memref sig .tc .vmem S2x256x64 .bf16).view.write (Elt F) fd ((zM0 : Memref sig .tc .vmem S2x256x64 .bf16).view.read (Elt F) (scr pub c)) Finset.univ) : sProp 𝕄)
      ⊢ recvPay pub 2 (peer 2 c) :=
  Entails.of_eq (pointsTo_congr (landing_zslot pub c (peer 2 c) 1 lt_1_4 (srcDev_link2 c) fd))

/-- Link 3: slot [0] of c lands in slot [7] of the device at the end of the link, as the receive cell's payload. -/
theorem landing_3 (pub : Dev nD → Nat → Nat → Nat → Elt F .bf16) (c : Dev nD) (fd : Buf (Elt F) (sL (peer 3 c))) :
    (sL (peer 3 c) ↦[dstSet (peer 3 c) 3]{fullShare} ((pM7 : Memref sig .tc .vmem S4x2x256x64 .bf16).view.write (Elt F) fd ((pM0 : Memref sig .tc .vmem S4x2x256x64 .bf16).view.read (Elt F) (scr pub c)) Finset.univ) : sProp 𝕄)
      ⊢ recvPay pub 3 (peer 3 c) :=
  Entails.of_eq (pointsTo_congr (landing_pslot pub c (peer 3 c) 7 lt_7_8 (srcDev_link3 c) fd))

/-- Link 4: slot [0] of c lands in slot [6] of the device at the end of the link, as the receive cell's payload. -/
theorem landing_4 (pub : Dev nD → Nat → Nat → Nat → Elt F .bf16) (c : Dev nD) (fd : Buf (Elt F) (sL (peer 4 c))) :
    (sL (peer 4 c) ↦[dstSet (peer 4 c) 4]{fullShare} ((pM6 : Memref sig .tc .vmem S4x2x256x64 .bf16).view.write (Elt F) fd ((pM0 : Memref sig .tc .vmem S4x2x256x64 .bf16).view.read (Elt F) (scr pub c)) Finset.univ) : sProp 𝕄)
      ⊢ recvPay pub 4 (peer 4 c) :=
  Entails.of_eq (pointsTo_congr (landing_pslot pub c (peer 4 c) 6 lt_6_8 (srcDev_link4 c) fd))

/-- Link 5: slot [0] of c lands in slot [5] of the device at the end of the link, as the receive cell's payload. -/
theorem landing_5 (pub : Dev nD → Nat → Nat → Nat → Elt F .bf16) (c : Dev nD) (fd : Buf (Elt F) (sL (peer 5 c))) :
    (sL (peer 5 c) ↦[dstSet (peer 5 c) 5]{fullShare} ((pM5 : Memref sig .tc .vmem S4x2x256x64 .bf16).view.write (Elt F) fd ((pM0 : Memref sig .tc .vmem S4x2x256x64 .bf16).view.read (Elt F) (scr pub c)) Finset.univ) : sProp 𝕄)
      ⊢ recvPay pub 5 (peer 5 c) :=
  Entails.of_eq (pointsTo_congr (landing_pslot pub c (peer 5 c) 5 lt_5_8 (srcDev_link5 c) fd))

/-- Link 6: slot [0] of c lands in slot [4] of the device at the end of the link, as the receive cell's payload. -/
theorem landing_6 (pub : Dev nD → Nat → Nat → Nat → Elt F .bf16) (c : Dev nD) (fd : Buf (Elt F) (sL (peer 6 c))) :
    (sL (peer 6 c) ↦[dstSet (peer 6 c) 6]{fullShare} ((pM4 : Memref sig .tc .vmem S4x2x256x64 .bf16).view.write (Elt F) fd ((pM0 : Memref sig .tc .vmem S4x2x256x64 .bf16).view.read (Elt F) (scr pub c)) Finset.univ) : sProp 𝕄)
      ⊢ recvPay pub 6 (peer 6 c) :=
  Entails.of_eq (pointsTo_congr (landing_pslot pub c (peer 6 c) 4 lt_4_8 (srcDev_link6 c) fd))

/-- Link 7: slot [0] of c lands in slot [3] of the device at the end of the link, as the receive cell's payload. -/
theorem landing_7 (pub : Dev nD → Nat → Nat → Nat → Elt F .bf16) (c : Dev nD) (fd : Buf (Elt F) (sL (peer 7 c))) :
    (sL (peer 7 c) ↦[dstSet (peer 7 c) 7]{fullShare} ((pM3 : Memref sig .tc .vmem S4x2x256x64 .bf16).view.write (Elt F) fd ((pM0 : Memref sig .tc .vmem S4x2x256x64 .bf16).view.read (Elt F) (scr pub c)) Finset.univ) : sProp 𝕄)
      ⊢ recvPay pub 7 (peer 7 c) :=
  Entails.of_eq (pointsTo_congr (landing_pslot pub c (peer 7 c) 3 lt_3_8 (srcDev_link7 c) fd))

/-- Link 8: slot [0] of c lands in slot [2] of the device at the end of the link, as the receive cell's payload. -/
theorem landing_8 (pub : Dev nD → Nat → Nat → Nat → Elt F .bf16) (c : Dev nD) (fd : Buf (Elt F) (sL (peer 8 c))) :
    (sL (peer 8 c) ↦[dstSet (peer 8 c) 8]{fullShare} ((pM2 : Memref sig .tc .vmem S4x2x256x64 .bf16).view.write (Elt F) fd ((pM0 : Memref sig .tc .vmem S4x2x256x64 .bf16).view.read (Elt F) (scr pub c)) Finset.univ) : sProp 𝕄)
      ⊢ recvPay pub 8 (peer 8 c) :=
  Entails.of_eq (pointsTo_congr (landing_pslot pub c (peer 8 c) 2 lt_2_8 (srcDev_link8 c) fd))

/-- Link 9: slot [0] of c lands in slot [1] of the device at the end of the link, as the receive cell's payload. -/
theorem landing_9 (pub : Dev nD → Nat → Nat → Nat → Elt F .bf16) (c : Dev nD) (fd : Buf (Elt F) (sL (peer 9 c))) :
    (sL (peer 9 c) ↦[dstSet (peer 9 c) 9]{fullShare} ((pM1 : Memref sig .tc .vmem S4x2x256x64 .bf16).view.write (Elt F) fd ((pM0 : Memref sig .tc .vmem S4x2x256x64 .bf16).view.read (Elt F) (scr pub c)) Finset.univ) : sProp 𝕄)
      ⊢ recvPay pub 9 (peer 9 c) :=
  Entails.of_eq (pointsTo_congr (landing_pslot pub c (peer 9 c) 1 lt_1_8 (srcDev_link9 c) fd))

end Links

/-! ## The partition of the buffer into slots, as separating conjunctions -/

section Cuts
variable {F : FTy → Type} [FloatOps F]
local notation "𝕄" => MT nD τ sig Unit (Elt F) ℕ UU ℕ

/-- A points-to over a disjoint union is the two points-tos, as an equation. -/
theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem dstSet_0 (c : Dev nD) : dstSet c 0 = (zM3 : Memref sig .tc .vmem S2x256x64 .bf16).view.set := rfl
theorem dstSet_1 (c : Dev nD) : dstSet c 1 = (zM2 : Memref sig .tc .vmem S2x256x64 .bf16).view.set := rfl
theorem dstSet_2 (c : Dev nD) : dstSet c 2 = (zM1 : Memref sig .tc .vmem S2x256x64 .bf16).view.set := rfl
theorem dstSet_3 (c : Dev nD) : dstSet c 3 = (pM7 : Memref sig .tc .vmem S4x2x256x64 .bf16).view.set := rfl
theorem dstSet_4 (c : Dev nD) : dstSet c 4 = (pM6 : Memref sig .tc .vmem S4x2x256x64 .bf16).view.set := rfl
theorem dstSet_5 (c : Dev nD) : dstSet c 5 = (pM5 : Memref sig .tc .vmem S4x2x256x64 .bf16).view.set := rfl
theorem dstSet_6 (c : Dev nD) : dstSet c 6 = (pM4 : Memref sig .tc .vmem S4x2x256x64 .bf16).view.set := rfl
theorem dstSet_7 (c : Dev nD) : dstSet c 7 = (pM3 : Memref sig .tc .vmem S4x2x256x64 .bf16).view.set := rfl
theorem dstSet_8 (c : Dev nD) : dstSet c 8 = (pM2 : Memref sig .tc .vmem S4x2x256x64 .bf16).view.set := rfl
theorem dstSet_9 (c : Dev nD) : dstSet c 9 = (pM1 : Memref sig .tc .vmem S4x2x256x64 .bf16).view.set := rfl
theorem srcSet_0 (c : Dev nD) : srcSet c 0 = (zM0 : Memref sig .tc .vmem S2x256x64 .bf16).view.set := rfl
theorem srcSet_1 (c : Dev nD) : srcSet c 1 = (zM0 : Memref sig .tc .vmem S2x256x64 .bf16).view.set := rfl
theorem srcSet_2 (c : Dev nD) : srcSet c 2 = (zM0 : Memref sig .tc .vmem S2x256x64 .bf16).view.set := rfl
theorem srcSet_3 (c : Dev nD) : srcSet c 3 = (pM0 : Memref sig .tc .vmem S4x2x256x64 .bf16).view.set := rfl
theorem srcSet_4 (c : Dev nD) : srcSet c 4 = (pM0 : Memref sig .tc .vmem S4x2x256x64 .bf16).view.set := rfl
theorem srcSet_5 (c : Dev nD) : srcSet c 5 = (pM0 : Memref sig .tc .vmem S4x2x256x64 .bf16).view.set := rfl
theorem srcSet_6 (c : Dev nD) : srcSet c 6 = (pM0 : Memref sig .tc .vmem S4x2x256x64 .bf16).view.set := rfl
theorem srcSet_7 (c : Dev nD) : srcSet c 7 = (pM0 : Memref sig .tc .vmem S4x2x256x64 .bf16).view.set := rfl
theorem srcSet_8 (c : Dev nD) : srcSet c 8 = (pM0 : Memref sig .tc .vmem S4x2x256x64 .bf16).view.set := rfl
theorem srcSet_9 (c : Dev nD) : srcSet c 9 = (pM0 : Memref sig .tc .vmem S4x2x256x64 .bf16).view.set := rfl
theorem credit_dst_0 : (zM3 : Memref sig .tc .vmem S2x256x64 .bf16).view.dmaCredit = NL 0 := rfl
theorem credit_src_0 : (zM0 : Memref sig .tc .vmem S2x256x64 .bf16).view.dmaCredit = NL 0 := rfl
theorem credit_dst_1 : (zM2 : Memref sig .tc .vmem S2x256x64 .bf16).view.dmaCredit = NL 1 := rfl
theorem credit_src_1 : (zM0 : Memref sig .tc .vmem S2x256x64 .bf16).view.dmaCredit = NL 1 := rfl
theorem credit_dst_2 : (zM1 : Memref sig .tc .vmem S2x256x64 .bf16).view.dmaCredit = NL 2 := rfl
theorem credit_src_2 : (zM0 : Memref sig .tc .vmem S2x256x64 .bf16).view.dmaCredit = NL 2 := rfl
theorem credit_dst_3 : (pM7 : Memref sig .tc .vmem S4x2x256x64 .bf16).view.dmaCredit = NL 3 := rfl
theorem credit_src_3 : (pM0 : Memref sig .tc .vmem S4x2x256x64 .bf16).view.dmaCredit = NL 3 := rfl
theorem credit_dst_4 : (pM6 : Memref sig .tc .vmem S4x2x256x64 .bf16).view.dmaCredit = NL 4 := rfl
theorem credit_src_4 : (pM0 : Memref sig .tc .vmem S4x2x256x64 .bf16).view.dmaCredit = NL 4 := rfl
theorem credit_dst_5 : (pM5 : Memref sig .tc .vmem S4x2x256x64 .bf16).view.dmaCredit = NL 5 := rfl
theorem credit_src_5 : (pM0 : Memref sig .tc .vmem S4x2x256x64 .bf16).view.dmaCredit = NL 5 := rfl
theorem credit_dst_6 : (pM4 : Memref sig .tc .vmem S4x2x256x64 .bf16).view.dmaCredit = NL 6 := rfl
theorem credit_src_6 : (pM0 : Memref sig .tc .vmem S4x2x256x64 .bf16).view.dmaCredit = NL 6 := rfl
theorem credit_dst_7 : (pM3 : Memref sig .tc .vmem S4x2x256x64 .bf16).view.dmaCredit = NL 7 := rfl
theorem credit_src_7 : (pM0 : Memref sig .tc .vmem S4x2x256x64 .bf16).view.dmaCredit = NL 7 := rfl
theorem credit_dst_8 : (pM2 : Memref sig .tc .vmem S4x2x256x64 .bf16).view.dmaCredit = NL 8 := rfl
theorem credit_src_8 : (pM0 : Memref sig .tc .vmem S4x2x256x64 .bf16).view.dmaCredit = NL 8 := rfl
theorem credit_dst_9 : (pM1 : Memref sig .tc .vmem S4x2x256x64 .bf16).view.dmaCredit = NL 9 := rfl
theorem credit_src_9 : (pM0 : Memref sig .tc .vmem S4x2x256x64 .bf16).view.dmaCredit = NL 9 := rfl

/-- Every element of the buffer lies in slot [0, 0] or in one of the ten landing slots. -/
theorem scr_cover (c : Dev nD) :
    (Finset.univ : Finset (Idx (sL c))) = (zM0 : Memref sig .tc .vmem S2x256x64 .bf16).view.set ∪ (dstSet c 0 ∪ (dstSet c 1 ∪ (dstSet c 2 ∪ (dstSet c 3 ∪ (dstSet c 4 ∪ (dstSet c 5 ∪ (dstSet c 6 ∪ (dstSet c 7 ∪ (dstSet c 8 ∪ (dstSet c 9)))))))))) := by
  refine (Finset.eq_univ_iff_forall.mpr fun idx => ?_).symm
  have h0 : (idx 0).val < 8 := (idx 0).isLt
  have h1 : (idx 1).val < 4 := (idx 1).isLt
  simp only [Finset.mem_union]
  by_cases e0 : (idx 0).val = 0
  · by_cases e10 : (idx 1).val = 0
    · exact Or.inl ((mem_zM0 idx).mpr ⟨e0, e10⟩)
    · by_cases e13 : (idx 1).val = 3
      · exact Or.inr (Or.inl ((mem_zM3 idx).mpr ⟨e0, e13⟩))
      · by_cases e12 : (idx 1).val = 2
        · exact Or.inr (Or.inr (Or.inl ((mem_zM2 idx).mpr ⟨e0, e12⟩)))
        · exact Or.inr (Or.inr (Or.inr (Or.inl ((mem_zM1 idx).mpr ⟨e0, by omega⟩))))
  · by_cases e7 : (idx 0).val = 7
    · exact Or.inr (Or.inr (Or.inr (Or.inr (Or.inl ((mem_pM7 idx).mpr e7)))))
    · by_cases e6 : (idx 0).val = 6
      · exact Or.inr (Or.inr (Or.inr (Or.inr (Or.inr (Or.inl ((mem_pM6 idx).mpr e6))))))
      · by_cases e5 : (idx 0).val = 5
        · exact Or.inr (Or.inr (Or.inr (Or.inr (Or.inr (Or.inr (Or.inl ((mem_pM5 idx).mpr e5)))))))
        · by_cases e4 : (idx 0).val = 4
          · exact Or.inr (Or.inr (Or.inr (Or.inr (Or.inr (Or.inr (Or.inr (Or.inl ((mem_pM4 idx).mpr e4))))))))
          · by_cases e3 : (idx 0).val = 3
            · exact Or.inr (Or.inr (Or.inr (Or.inr (Or.inr (Or.inr (Or.inr (Or.inr (Or.inl ((mem_pM3 idx).mpr e3)))))))))
            · by_cases e2 : (idx 0).val = 2
              · exact Or.inr (Or.inr (Or.inr (Or.inr (Or.inr (Or.inr (Or.inr (Or.inr (Or.inr (Or.inl ((mem_pM2 idx).mpr e2))))))))))
              · exact Or.inr (Or.inr (Or.inr (Or.inr (Or.inr (Or.inr (Or.inr (Or.inr (Or.inr (Or.inr ((mem_pM1 idx).mpr (by omega)))))))))))

theorem scr_disj_0 (c : Dev nD) : Disjoint ((zM0 : Memref sig .tc .vmem S2x256x64 .bf16).view.set) (dstSet c 0 ∪ (dstSet c 1 ∪ (dstSet c 2 ∪ (dstSet c 3 ∪ (dstSet c 4 ∪ (dstSet c 5 ∪ (dstSet c 6 ∪ (dstSet c 7 ∪ (dstSet c 8 ∪ (dstSet c 9)))))))))) := by
  refine Finset.disjoint_left.mpr fun idx h1 h2 => ?_
  have a := (mem_zM0 idx).mp h1
  simp only [Finset.mem_union] at h2
  rcases h2 with h | h | h | h | h | h | h | h | h | h
  · have b := (mem_zM3 idx).mp h; omega
  · have b := (mem_zM2 idx).mp h; omega
  · have b := (mem_zM1 idx).mp h; omega
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_1 (c : Dev nD) : Disjoint (dstSet c 0) (dstSet c 1 ∪ (dstSet c 2 ∪ (dstSet c 3 ∪ (dstSet c 4 ∪ (dstSet c 5 ∪ (dstSet c 6 ∪ (dstSet c 7 ∪ (dstSet c 8 ∪ (dstSet c 9))))))))) := by
  refine Finset.disjoint_left.mpr fun idx h1 h2 => ?_
  have a := (mem_zM3 idx).mp h1
  simp only [Finset.mem_union] at h2
  rcases h2 with h | h | h | h | h | h | h | h | h
  · have b := (mem_zM2 idx).mp h; omega
  · have b := (mem_zM1 idx).mp h; omega
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_2 (c : Dev nD) : Disjoint (dstSet c 1) (dstSet c 2 ∪ (dstSet c 3 ∪ (dstSet c 4 ∪ (dstSet c 5 ∪ (dstSet c 6 ∪ (dstSet c 7 ∪ (dstSet c 8 ∪ (dstSet c 9)))))))) := by
  refine Finset.disjoint_left.mpr fun idx h1 h2 => ?_
  have a := (mem_zM2 idx).mp h1
  simp only [Finset.mem_union] at h2
  rcases h2 with h | h | h | h | h | h | h | h
  · have b := (mem_zM1 idx).mp h; omega
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_3 (c : Dev nD) : Disjoint (dstSet c 2) (dstSet c 3 ∪ (dstSet c 4 ∪ (dstSet c 5 ∪ (dstSet c 6 ∪ (dstSet c 7 ∪ (dstSet c 8 ∪ (dstSet c 9))))))) := by
  refine Finset.disjoint_left.mpr fun idx h1 h2 => ?_
  have a := (mem_zM1 idx).mp h1
  simp only [Finset.mem_union] at h2
  rcases h2 with h | h | h | h | h | h | h
  · have b := (mem_pM7 idx).mp h; omega
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_4 (c : Dev nD) : Disjoint (dstSet c 3) (dstSet c 4 ∪ (dstSet c 5 ∪ (dstSet c 6 ∪ (dstSet c 7 ∪ (dstSet c 8 ∪ (dstSet c 9)))))) := by
  refine Finset.disjoint_left.mpr fun idx h1 h2 => ?_
  have a := (mem_pM7 idx).mp h1
  simp only [Finset.mem_union] at h2
  rcases h2 with h | h | h | h | h | h
  · have b := (mem_pM6 idx).mp h; omega
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_5 (c : Dev nD) : Disjoint (dstSet c 4) (dstSet c 5 ∪ (dstSet c 6 ∪ (dstSet c 7 ∪ (dstSet c 8 ∪ (dstSet c 9))))) := by
  refine Finset.disjoint_left.mpr fun idx h1 h2 => ?_
  have a := (mem_pM6 idx).mp h1
  simp only [Finset.mem_union] at h2
  rcases h2 with h | h | h | h | h
  · have b := (mem_pM5 idx).mp h; omega
  · have b := (mem_pM4 idx).mp h; omega
  · have b := (mem_pM3 idx).mp h; omega
  · have b := (mem_pM2 idx).mp h; omega
  · have b := (mem_pM1 idx).mp h; omega

theorem scr_disj_6 (c : Dev nD) : Disjoint (dstSet c 5) (dstSet c 6 ∪ (dstSet c 7 ∪ (dstSet c 8 ∪ (dstSet c 9)))) := by
  refine Finset.disjoint_left.mpr fun idx h1 h2 => ?_
  have a := (mem_pM5 idx).mp h1
  simp only [Finset.mem_union] at h2
  rcases h2 with h | h | h | h
  · have b := (mem_pM4 idx).mp h; omega
  · have b := (mem_pM3 idx).mp h; omega
  · have b := (mem_pM2 idx).mp h; omega
  · have b := (mem_pM1 idx).mp h; omega

theorem scr_disj_7 (c : Dev nD) : Disjoint (dstSet c 6) (dstSet c 7 ∪ (dstSet c 8 ∪ (dstSet c 9))) := by
  refine Finset.disjoint_left.mpr fun idx h1 h2 => ?_
  have a := (mem_pM4 idx).mp h1
  simp only [Finset.mem_union] at h2
  rcases h2 with h | h | h
  · have b := (mem_pM3 idx).mp h; omega
  · have b := (mem_pM2 idx).mp h; omega
  · have b := (mem_pM1 idx).mp h; omega

theorem scr_disj_8 (c : Dev nD) : Disjoint (dstSet c 7) (dstSet c 8 ∪ (dstSet c 9)) := by
  refine Finset.disjoint_left.mpr fun idx h1 h2 => ?_
  have a := (mem_pM3 idx).mp h1
  simp only [Finset.mem_union] at h2
  rcases h2 with h | h
  · have b := (mem_pM2 idx).mp h; omega
  · have b := (mem_pM1 idx).mp h; omega

theorem scr_disj_9 (c : Dev nD) : Disjoint (dstSet c 8) (dstSet c 9) := by
  refine Finset.disjoint_left.mpr fun idx h1 h2 => ?_
  have a := (mem_pM2 idx).mp h1
  have b := (mem_pM1 idx).mp h2
  omega

/-- The whole buffer is slot [0, 0] and the ten landing slots, at one contents and any share. -/
theorem scr_eq (c : Dev nD) (f : Buf (Elt F) (sL c)) (q : PosShare TreeShare) :
    (sL c ↦{q} f : sProp 𝕄) = iprop((sL c ↦[(zM0 : Memref sig .tc .vmem S2x256x64 .bf16).view.set]{q} f) ∗ (sL c ↦[dstSet c 0]{q} f) ∗ (sL c ↦[dstSet c 1]{q} f) ∗ (sL c ↦[dstSet c 2]{q} f) ∗ (sL c ↦[dstSet c 3]{q} f) ∗ (sL c ↦[dstSet c 4]{q} f) ∗ (sL c ↦[dstSet c 5]{q} f) ∗ (sL c ↦[dstSet c 6]{q} f) ∗ (sL c ↦[dstSet c 7]{q} f) ∗ (sL c ↦[dstSet c 8]{q} f) ∗ (sL c ↦[dstSet c 9]{q} f)) := by
  show (pointsTo (sL c) Finset.univ q f : sProp 𝕄) = _
  rw [scr_cover c, pt_union_eq (scr_disj_0 c), pt_union_eq (scr_disj_1 c), pt_union_eq (scr_disj_2 c), pt_union_eq (scr_disj_3 c), pt_union_eq (scr_disj_4 c), pt_union_eq (scr_disj_5 c), pt_union_eq (scr_disj_6 c), pt_union_eq (scr_disj_7 c), pt_union_eq (scr_disj_8 c), pt_union_eq (scr_disj_9 c)]

theorem scr_split (c : Dev nD) (f : Buf (Elt F) (sL c)) :
    (sL c ↦{fullShare} f : sProp 𝕄) ⊢ iprop((sL c ↦[(zM0 : Memref sig .tc .vmem S2x256x64 .bf16).view.set]{fullShare} f) ∗ (sL c ↦[dstSet c 0]{fullShare} f) ∗ (sL c ↦[dstSet c 1]{fullShare} f) ∗ (sL c ↦[dstSet c 2]{fullShare} f) ∗ (sL c ↦[dstSet c 3]{fullShare} f) ∗ (sL c ↦[dstSet c 4]{fullShare} f) ∗ (sL c ↦[dstSet c 5]{fullShare} f) ∗ (sL c ↦[dstSet c 6]{fullShare} f) ∗ (sL c ↦[dstSet c 7]{fullShare} f) ∗ (sL c ↦[dstSet c 8]{fullShare} f) ∗ (sL c ↦[dstSet c 9]{fullShare} f)) :=
  Entails.of_eq (scr_eq c f fullShare)

theorem scr_join (c : Dev nD) (f : Buf (Elt F) (sL c)) :
    iprop((sL c ↦[(zM0 : Memref sig .tc .vmem S2x256x64 .bf16).view.set]{fullShare} f) ∗ (sL c ↦[dstSet c 0]{fullShare} f) ∗ (sL c ↦[dstSet c 1]{fullShare} f) ∗ (sL c ↦[dstSet c 2]{fullShare} f) ∗ (sL c ↦[dstSet c 3]{fullShare} f) ∗ (sL c ↦[dstSet c 4]{fullShare} f) ∗ (sL c ↦[dstSet c 5]{fullShare} f) ∗ (sL c ↦[dstSet c 6]{fullShare} f) ∗ (sL c ↦[dstSet c 7]{fullShare} f) ∗ (sL c ↦[dstSet c 8]{fullShare} f) ∗ (sL c ↦[dstSet c 9]{fullShare} f)) ⊢ (sL c ↦{fullShare} f : sProp 𝕄) :=
  Entails.of_eq (scr_eq c f fullShare).symm

/-- Slot [0, 0] is its keys' half and its values' half. -/
theorem zM0_split (c : Dev nD) (f : Buf (Elt F) (sL c)) (q : PosShare TreeShare) :
    (sL c ↦[(zM0 : Memref sig .tc .vmem S2x256x64 .bf16).view.set]{q} f : sProp 𝕄) ⊣⊢ iprop((sL c ↦[kSet c]{q} f) ∗ (sL c ↦[vSet c]{q} f)) := by
  rw [kv_union c]
  exact pointsTo_union (kv_disjoint c)

/-- Slot [0] is the slots [0, 0], [0, 1], [0, 2], [0, 3]. -/
theorem pM0_cover (c : Dev nD) :
    (pM0 : Memref sig .tc .vmem S4x2x256x64 .bf16).view.set
      = (zM0 : Memref sig .tc .vmem S2x256x64 .bf16).view.set ∪ (dstSet c 2 ∪ (dstSet c 1 ∪ dstSet c 0)) := by
  refine Finset.ext fun idx => ?_
  have h1 : (idx 1).val < 4 := (idx 1).isLt
  simp only [Finset.mem_union]
  constructor
  · intro h
    have a := (mem_pM0 idx).mp h
    by_cases e0 : (idx 1).val = 0
    · exact Or.inl ((mem_zM0 idx).mpr ⟨a, e0⟩)
    · by_cases e1 : (idx 1).val = 1
      · exact Or.inr (Or.inl ((mem_zM1 idx).mpr ⟨a, e1⟩))
      · by_cases e2 : (idx 1).val = 2
        · exact Or.inr (Or.inr (Or.inl ((mem_zM2 idx).mpr ⟨a, e2⟩)))
        · exact Or.inr (Or.inr (Or.inr ((mem_zM3 idx).mpr ⟨a, by omega⟩)))
  · rintro (h | h | h | h)
    · exact (mem_pM0 idx).mpr ((mem_zM0 idx).mp h).1
    · exact (mem_pM0 idx).mpr ((mem_zM1 idx).mp h).1
    · exact (mem_pM0 idx).mpr ((mem_zM2 idx).mp h).1
    · exact (mem_pM0 idx).mpr ((mem_zM3 idx).mp h).1

theorem pM0_disj_0 (c : Dev nD) : Disjoint ((zM0 : Memref sig .tc .vmem S2x256x64 .bf16).view.set) (dstSet c 2 ∪ (dstSet c 1 ∪ dstSet c 0)) := by
  refine Finset.disjoint_left.mpr fun idx h1 h2 => ?_
  have a := (mem_zM0 idx).mp h1
  simp only [Finset.mem_union] at h2
  rcases h2 with h | h | h
  · have b := (mem_zM1 idx).mp h; omega
  · have b := (mem_zM2 idx).mp h; omega
  · have b := (mem_zM3 idx).mp h; omega
theorem pM0_disj_1 (c : Dev nD) : Disjoint (dstSet c 2) (dstSet c 1 ∪ dstSet c 0) := by
  refine Finset.disjoint_left.mpr fun idx h1 h2 => ?_
  have a := (mem_zM1 idx).mp h1
  simp only [Finset.mem_union] at h2
  rcases h2 with h | h
  · have b := (mem_zM2 idx).mp h; omega
  · have b := (mem_zM3 idx).mp h; omega
theorem pM0_disj_2 (c : Dev nD) : Disjoint (dstSet c 1) (dstSet c 0) := by
  refine Finset.disjoint_left.mpr fun idx h1 h2 => ?_
  have a := (mem_zM2 idx).mp h1
  have b := (mem_zM3 idx).mp h2
  omega

theorem src_p_eq (c : Dev nD) (f : Buf (Elt F) (sL c)) (q : PosShare TreeShare) :
    (sL c ↦[(pM0 : Memref sig .tc .vmem S4x2x256x64 .bf16).view.set]{q} f : sProp 𝕄)
      = iprop((sL c ↦[(zM0 : Memref sig .tc .vmem S2x256x64 .bf16).view.set]{q} f) ∗ (sL c ↦[dstSet c 2]{q} f) ∗ (sL c ↦[dstSet c 1]{q} f) ∗ (sL c ↦[dstSet c 0]{q} f)) := by
  rw [pM0_cover c, pt_union_eq (pM0_disj_0 c), pt_union_eq (pM0_disj_1 c), pt_union_eq (pM0_disj_2 c)]

theorem src_p_join (c : Dev nD) (f : Buf (Elt F) (sL c)) (q : PosShare TreeShare) :
    iprop((sL c ↦[(zM0 : Memref sig .tc .vmem S2x256x64 .bf16).view.set]{q} f) ∗ (sL c ↦[dstSet c 2]{q} f) ∗ (sL c ↦[dstSet c 1]{q} f) ∗ (sL c ↦[dstSet c 0]{q} f))
      ⊣⊢ (sL c ↦[(pM0 : Memref sig .tc .vmem S4x2x256x64 .bf16).view.set]{q} f : sProp 𝕄) :=
  BiEntails.of_eq (src_p_eq c f q).symm

end Cuts

end Cert.RingW

end

/-- info: 'Cert.RingW.scr_join' depends on axioms: [propext, Classical.choice, Quot.sound] -/
#guard_msgs in #print axioms Cert.RingW.scr_join
-- ==== Proof.KernelTermW.lean ====
/- The value the ring-attention kernel's body stores to its output, and what a device publishes, as
   compositions of the body's payloads. -/
import proofs.«900463_g7700000000000464_dist_ring_attn_i_s256_d64_v7x_i32_f32_1_alg».proof.Proof.Gen.Kernel.Skeleton

noncomputable section

namespace Cert.KernelValueW

open Idealize.ShloMosaic Idealize.SL.Sem
open Cert.Kernel Cert.Kernel.Gen

/-! ## The stored value as a composition of payloads -/

/-- What the device publishes as its key block. -/
noncomputable def slabK {F : FTy → Type} [FloatOps F] (k : Vec F S256x64 .f32) : FVec F S1x1x1x256x64 .bf16 :=
  k0_pay1 k

/-- What the device publishes as its value block. -/
noncomputable def slabV {F : FTy → Type} [FloatOps F] (v : Vec F S256x64 .f32) : FVec F S1x1x1x256x64 .bf16 :=
  k0_pay3 (k0_pay2 v)

/-- The query block in the narrow format (read by every later update). -/
noncomputable def qb {F : FTy → Type} [FloatOps F] (q k v : Vec F S256x64 .f32) (zK zV : Fin 3 → Vec F S1x1x1x256x64 .bf16) (pK pV : Fin 7 → Vec F S1x4x1x256x64 .bf16) : FVec F S256x64 .bf16 :=
  k0_pay5 q

/-- Row maxima of the first (own) block. -/
noncomputable def m0 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay7 q k

/-- Row sums of the first block. -/
noncomputable def l0 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay9 q k

/-- Weighted values of the first block. -/
noncomputable def a0 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay10 q k v

/-- Row maxima after the first 256-key update. -/
noncomputable def m1 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay12 (qb q k v zK zV pK pV) (m0 q k v zK zV pK pV) (zK 0)

/-- Row sums after the first 256-key update. -/
noncomputable def l1 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay15 (qb q k v zK zV pK pV) (m0 q k v zK zV pK pV) (l0 q k v zK zV pK pV) (zK 0)

/-- Weighted values after the first 256-key update. -/
noncomputable def a1 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay16 (qb q k v zK zV pK pV) (m0 q k v zK zV pK pV) (a0 q k v zK zV pK pV) (zK 0) (zV 0)

/-- Row maxima after the second 256-key update. -/
noncomputable def m2 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay18 (qb q k v zK zV pK pV) (m1 q k v zK zV pK pV) (zK 1)

/-- Row sums after the second 256-key update. -/
noncomputable def l2 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay21 (qb q k v zK zV pK pV) (m1 q k v zK zV pK pV) (l1 q k v zK zV pK pV) (zK 1)

/-- Weighted values after the second 256-key update. -/
noncomputable def a2 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay22 (qb q k v zK zV pK pV) (m1 q k v zK zV pK pV) (a1 q k v zK zV pK pV) (zK 1) (zV 1)

/-- Row maxima after the third 256-key update. -/
noncomputable def m3 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay24 (qb q k v zK zV pK pV) (m2 q k v zK zV pK pV) (zK 2)

/-- Row sums after the third 256-key update. -/
noncomputable def l3 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay27 (qb q k v zK zV pK pV) (m2 q k v zK zV pK pV) (l2 q k v zK zV pK pV) (zK 2)

/-- Weighted values after the third 256-key update. -/
noncomputable def a3 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay28 (qb q k v zK zV pK pV) (m2 q k v zK zV pK pV) (a2 q k v zK zV pK pV) (zK 2) (zV 2)

/-- Row maxima after the first 1024-key update. -/
noncomputable def m4 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay30 (qb q k v zK zV pK pV) (m3 q k v zK zV pK pV) (pK 0)

/-- Row sums after the first 1024-key update. -/
noncomputable def l4 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay33 (qb q k v zK zV pK pV) (m3 q k v zK zV pK pV) (l3 q k v zK zV pK pV) (pK 0)

/-- Weighted values after the first 1024-key update. -/
noncomputable def a4 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay34 (qb q k v zK zV pK pV) (m3 q k v zK zV pK pV) (a3 q k v zK zV pK pV) (pK 0) (pV 0)

/-- Row maxima after the second 1024-key update. -/
noncomputable def m5 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay37 (qb q k v zK zV pK pV) (m4 q k v zK zV pK pV) (pK 1)

/-- Row sums after the second 1024-key update. -/
noncomputable def l5 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay40 (qb q k v zK zV pK pV) (m4 q k v zK zV pK pV) (l4 q k v zK zV pK pV) (pK 1)

/-- Weighted values after the second 1024-key update. -/
noncomputable def a5 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay43 (k0_pay35 (pV 1)) (k0_pay41 (qb q k v zK zV pK pV) (m4 q k v zK zV pK pV) (a4 q k v zK zV pK pV) (pK 1)) (k0_pay42 (qb q k v zK zV pK pV) (m4 q k v zK zV pK pV) (pK 1)) (constant S256x64 .f32 0x00000000#32)

/-- Row maxima after the third 1024-key update. -/
noncomputable def m6 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay46 (qb q k v zK zV pK pV) (m5 q k v zK zV pK pV) (pK 2)

/-- Row sums after the third 1024-key update. -/
noncomputable def l6 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay49 (qb q k v zK zV pK pV) (m5 q k v zK zV pK pV) (l5 q k v zK zV pK pV) (pK 2)

/-- Weighted values after the third 1024-key update. -/
noncomputable def a6 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay50 (a5 q k v zK zV pK pV) (k0_pay44 (pV 2)) (k0_pay47 (qb q k v zK zV pK pV) (m5 q k v zK zV pK pV) (pK 2)) (k0_pay48 (qb q k v zK zV pK pV) (m5 q k v zK zV pK pV) (pK 2))

/-- Row maxima after the fourth 1024-key update. -/
noncomputable def m7 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay53 (qb q k v zK zV pK pV) (m6 q k v zK zV pK pV) (pK 3)

/-- Row sums after the fourth 1024-key update. -/
noncomputable def l7 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay57 (k0_pay55 (qb q k v zK zV pK pV) (m6 q k v zK zV pK pV) (pK 3)) (k0_pay56 (qb q k v zK zV pK pV) (m6 q k v zK zV pK pV) (l6 q k v zK zV pK pV) (pK 3))

/-- Weighted values after the fourth 1024-key update. -/
noncomputable def a7 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay58 (a6 q k v zK zV pK pV) (k0_pay51 (pV 3)) (k0_pay54 (qb q k v zK zV pK pV) (m6 q k v zK zV pK pV) (pK 3)) (k0_pay55 (qb q k v zK zV pK pV) (m6 q k v zK zV pK pV) (pK 3))

/-- Row maxima after the fifth 1024-key update. -/
noncomputable def m8 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay61 (qb q k v zK zV pK pV) (m7 q k v zK zV pK pV) (pK 4)

/-- Row sums after the fifth 1024-key update. -/
noncomputable def l8 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay64 (l7 q k v zK zV pK pV) (k0_pay60 (qb q k v zK zV pK pV) (pK 4)) (m8 q k v zK zV pK pV) (k0_pay62 (qb q k v zK zV pK pV) (m7 q k v zK zV pK pV) (pK 4))

/-- Weighted values after the fifth 1024-key update. -/
noncomputable def a8 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay65 (a7 q k v zK zV pK pV) (k0_pay59 (pV 4)) (k0_pay60 (qb q k v zK zV pK pV) (pK 4)) (m8 q k v zK zV pK pV) (k0_pay62 (qb q k v zK zV pK pV) (m7 q k v zK zV pK pV) (pK 4))

/-- Row maxima after the sixth 1024-key update. -/
noncomputable def m9 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay69 (m8 q k v zK zV pK pV) (k0_pay68 (qb q k v zK zV pK pV) (pK 5))

/-- Row sums after the sixth 1024-key update. -/
noncomputable def l9 {F : FTy → Type} [FloatOps F] (q k v : Vec F S256x64 .f32) (zK zV : Fin 3 → Vec F S1x1x1x256x64 .bf16) (pK pV : Fin 7 → Vec F S1x4x1x256x64 .bf16) : FVec F S256x1 .f32 :=
  k0_pay72 (m8 q k v zK zV pK pV) (l8 q k v zK zV pK pV) (k0_pay67 (qb q k v zK zV pK pV) (pK 5)) (k0_pay68 (qb q k v zK zV pK pV) (pK 5))

/-- Weighted values after the sixth 1024-key update. -/
noncomputable def a9 {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay73 (m8 q k v zK zV pK pV) (a8 q k v zK zV pK pV) (k0_pay66 (pV 5)) (k0_pay67 (qb q k v zK zV pK pV) (pK 5)) (k0_pay68 (qb q k v zK zV pK pV) (pK 5))

/-- The value the body stores to its output: the seventh 1024-key update followed by the division of the weighted values by the row sums, as the exact composition of the body's payloads. `zK 0`, `zV 0` are the key and value blocks read by the first 256-key update, `pK 0`, `pV 0` those read by the first 1024-key update. -/
noncomputable def outTerm {F : FTy → Type} [FloatOps F] (q k v : Vec F S256x64 .f32) (zK zV : Fin 3 → Vec F S1x1x1x256x64 .bf16) (pK pV : Fin 7 → Vec F S1x4x1x256x64 .bf16) : FVec F S256x64 .f32 :=
  k0_pay76 (m9 q k v zK zV pK pV) (l9 q k v zK zV pK pV) (a9 q k v zK zV pK pV) (k0_pay74 (pV 6)) (k0_pay75 (qb q k v zK zV pK pV) (pK 6)) (Scalar.ofBits .f32 0x3E000000#32)

end Cert.KernelValueW
-- ==== Proof.OutAtW.lean ====
/- What every device publishes, the blocks a device loads from its scratch buffer once every copy has
   landed, and the value it stores to its output: the composition of the body's payloads over those. -/
import proofs.«900463_g7700000000000464_dist_ring_attn_i_s256_d64_v7x_i32_f32_1_alg».proof.Proof.GhostW
import proofs.«900463_g7700000000000464_dist_ring_attn_i_s256_d64_v7x_i32_f32_1_alg».proof.Proof.KernelTermW
import Idealize.ShloMosaic.Lib.ValueIdx

noncomputable section

namespace Cert.RingW

open Cert.Kernel Cert.Kernel.Gen
open Idealize.ShloMosaic
open Idealize.ShloMosaic.TcCoe
open Idealize.SL.Sem
open Cert.KernelValueW

/-- What device `d` publishes: entry (kv, r, dd) is its key slab's (kv = 0) or its value slab's entry (r, dd). -/
def pubOf {F : FTy → Type} [FloatOps F] (m : (ℓ : Loc nD τ sig) → Buf (Elt F) ℓ) (ρ : Dev nD → PrngReg) :
    Dev nD → Nat → Nat → Nat → Elt F .bf16 :=
  fun d kv r dd =>
    if kv = 0 then
      slabK (stgK m ρ d) (ValueIdx.ix5 (0 : Fin 1) (0 : Fin 1) (0 : Fin 1)
        (⟨r % 256, Nat.mod_lt _ (by decide)⟩ : Fin 256) (⟨dd % 64, Nat.mod_lt _ (by decide)⟩ : Fin 64))
    else
      slabV (stgV m ρ d) (ValueIdx.ix5 (0 : Fin 1) (0 : Fin 1) (0 : Fin 1)
        (⟨r % 256, Nat.mod_lt _ (by decide)⟩ : Fin 256) (⟨dd % 64, Nat.mod_lt _ (by decide)⟩ : Fin 64))

/-- The three 256-key blocks the body loads, in the order it reads them: slots [0,3], [0,2], [0,1]. -/
def zKof {F : FTy → Type} [FloatOps F] (pub : Dev nD → Nat → Nat → Nat → Elt F .bf16) (c : Dev nD) :
    Fin 3 → Vec F S1x1x1x256x64 .bf16 :=
  fun t => match t with
    | 0 => (A4.view.readAt (Elt F) (Rect.unit (s := S8x4x2x256x64) ![0, 3, 0, 0, 0] S1x1x1x256x64.size inb_S8x4x2x256x64_S1x1x1x256x64_0_3_0_0_0).toLoadRect (scr pub c) : Vec F S1x1x1x256x64 .bf16)
    | 1 => (A4.view.readAt (Elt F) (Rect.unit (s := S8x4x2x256x64) ![0, 2, 0, 0, 0] S1x1x1x256x64.size inb_S8x4x2x256x64_S1x1x1x256x64_0_2_0_0_0).toLoadRect (scr pub c) : Vec F S1x1x1x256x64 .bf16)
    | 2 => (A4.view.readAt (Elt F) (Rect.unit (s := S8x4x2x256x64) ![0, 1, 0, 0, 0] S1x1x1x256x64.size inb_S8x4x2x256x64_S1x1x1x256x64_0_1_0_0_0).toLoadRect (scr pub c) : Vec F S1x1x1x256x64 .bf16)

/-- Their value blocks. -/
def zVof {F : FTy → Type} [FloatOps F] (pub : Dev nD → Nat → Nat → Nat → Elt F .bf16) (c : Dev nD) :
    Fin 3 → Vec F S1x1x1x256x64 .bf16 :=
  fun t => match t with
    | 0 => (A4.view.readAt (Elt F) (Rect.unit (s := S8x4x2x256x64) ![0, 3, 1, 0, 0] S1x1x1x256x64.size inb_S8x4x2x256x64_S1x1x1x256x64_0_3_1_0_0).toLoadRect (scr pub c) : Vec F S1x1x1x256x64 .bf16)
    | 1 => (A4.view.readAt (Elt F) (Rect.unit (s := S8x4x2x256x64) ![0, 2, 1, 0, 0] S1x1x1x256x64.size inb_S8x4x2x256x64_S1x1x1x256x64_0_2_1_0_0).toLoadRect (scr pub c) : Vec F S1x1x1x256x64 .bf16)
    | 2 => (A4.view.readAt (Elt F) (Rect.unit (s := S8x4x2x256x64) ![0, 1, 1, 0, 0] S1x1x1x256x64.size inb_S8x4x2x256x64_S1x1x1x256x64_0_1_1_0_0).toLoadRect (scr pub c) : Vec F S1x1x1x256x64 .bf16)

/-- The seven 1024-key blocks the body loads, in the order it reads them: slots 7, 6, …, 1. -/
def pKof {F : FTy → Type} [FloatOps F] (pub : Dev nD → Nat → Nat → Nat → Elt F .bf16) (c : Dev nD) :
    Fin 7 → Vec F S1x4x1x256x64 .bf16 :=
  fun t => match t with
    | 0 => (A4.view.readAt (Elt F) (Rect.unit (s := S8x4x2x256x64) ![7, 0, 0, 0, 0] S1x4x1x256x64.size inb_S8x4x2x256x64_S1x4x1x256x64_7_0_0_0_0).toLoadRect (scr pub c) : Vec F S1x4x1x256x64 .bf16)
    | 1 => (A4.view.readAt (Elt F) (Rect.unit (s := S8x4x2x256x64) ![6, 0, 0, 0, 0] S1x4x1x256x64.size inb_S8x4x2x256x64_S1x4x1x256x64_6_0_0_0_0).toLoadRect (scr pub c) : Vec F S1x4x1x256x64 .bf16)
    | 2 => (A4.view.readAt (Elt F) (Rect.unit (s := S8x4x2x256x64) ![5, 0, 0, 0, 0] S1x4x1x256x64.size inb_S8x4x2x256x64_S1x4x1x256x64_5_0_0_0_0).toLoadRect (scr pub c) : Vec F S1x4x1x256x64 .bf16)
    | 3 => (A4.view.readAt (Elt F) (Rect.unit (s := S8x4x2x256x64) ![4, 0, 0, 0, 0] S1x4x1x256x64.size inb_S8x4x2x256x64_S1x4x1x256x64_4_0_0_0_0).toLoadRect (scr pub c) : Vec F S1x4x1x256x64 .bf16)
    | 4 => (A4.view.readAt (Elt F) (Rect.unit (s := S8x4x2x256x64) ![3, 0, 0, 0, 0] S1x4x1x256x64.size inb_S8x4x2x256x64_S1x4x1x256x64_3_0_0_0_0).toLoadRect (scr pub c) : Vec F S1x4x1x256x64 .bf16)
    | 5 => (A4.view.readAt (Elt F) (Rect.unit (s := S8x4x2x256x64) ![2, 0, 0, 0, 0] S1x4x1x256x64.size inb_S8x4x2x256x64_S1x4x1x256x64_2_0_0_0_0).toLoadRect (scr pub c) : Vec F S1x4x1x256x64 .bf16)
    | 6 => (A4.view.readAt (Elt F) (Rect.unit (s := S8x4x2x256x64) ![1, 0, 0, 0, 0] S1x4x1x256x64.size inb_S8x4x2x256x64_S1x4x1x256x64_1_0_0_0_0).toLoadRect (scr pub c) : Vec F S1x4x1x256x64 .bf16)

/-- Their value blocks. -/
def pVof {F : FTy → Type} [FloatOps F] (pub : Dev nD → Nat → Nat → Nat → Elt F .bf16) (c : Dev nD) :
    Fin 7 → Vec F S1x4x1x256x64 .bf16 :=
  fun t => match t with
    | 0 => (A4.view.readAt (Elt F) (Rect.unit (s := S8x4x2x256x64) ![7, 0, 1, 0, 0] S1x4x1x256x64.size inb_S8x4x2x256x64_S1x4x1x256x64_7_0_1_0_0).toLoadRect (scr pub c) : Vec F S1x4x1x256x64 .bf16)
    | 1 => (A4.view.readAt (Elt F) (Rect.unit (s := S8x4x2x256x64) ![6, 0, 1, 0, 0] S1x4x1x256x64.size inb_S8x4x2x256x64_S1x4x1x256x64_6_0_1_0_0).toLoadRect (scr pub c) : Vec F S1x4x1x256x64 .bf16)
    | 2 => (A4.view.readAt (Elt F) (Rect.unit (s := S8x4x2x256x64) ![5, 0, 1, 0, 0] S1x4x1x256x64.size inb_S8x4x2x256x64_S1x4x1x256x64_5_0_1_0_0).toLoadRect (scr pub c) : Vec F S1x4x1x256x64 .bf16)
    | 3 => (A4.view.readAt (Elt F) (Rect.unit (s := S8x4x2x256x64) ![4, 0, 1, 0, 0] S1x4x1x256x64.size inb_S8x4x2x256x64_S1x4x1x256x64_4_0_1_0_0).toLoadRect (scr pub c) : Vec F S1x4x1x256x64 .bf16)
    | 4 => (A4.view.readAt (Elt F) (Rect.unit (s := S8x4x2x256x64) ![3, 0, 1, 0, 0] S1x4x1x256x64.size inb_S8x4x2x256x64_S1x4x1x256x64_3_0_1_0_0).toLoadRect (scr pub c) : Vec F S1x4x1x256x64 .bf16)
    | 5 => (A4.view.readAt (Elt F) (Rect.unit (s := S8x4x2x256x64) ![2, 0, 1, 0, 0] S1x4x1x256x64.size inb_S8x4x2x256x64_S1x4x1x256x64_2_0_1_0_0).toLoadRect (scr pub c) : Vec F S1x4x1x256x64 .bf16)
    | 6 => (A4.view.readAt (Elt F) (Rect.unit (s := S8x4x2x256x64) ![1, 0, 1, 0, 0] S1x4x1x256x64.size inb_S8x4x2x256x64_S1x4x1x256x64_1_0_1_0_0).toLoadRect (scr pub c) : Vec F S1x4x1x256x64 .bf16)

/-- What device `c` stores to its output block. -/
def outOf {F : FTy → Type} [FloatOps F] (pub : Dev nD → Nat → Nat → Nat → Elt F .bf16)
    (m : (ℓ : Loc nD τ sig) → Buf (Elt F) ℓ) (ρ : Dev nD → PrngReg) (c : Dev nD) :
    (cc0_stg3_0 : Ref sig .tc).ty.Contents (Elt F) :=
  outTerm (stgQ m ρ c) (stgK m ρ c) (stgV m ρ c) (zKof pub c) (zVof pub c) (pKof pub c) (pVof pub c)

/-- The offsets of a whole rank-2 load are zero. -/
theorem off2_zero : (![0, 0] : Fin 2 → Nat) = fun _ => 0 := funext fun a => by fin_cases a <;> rfl

/-- A whole load of a staged block reads the block. -/
theorem read_stg0 {F : FTy → Type} (f : (cc0_stg0_0 : Ref sig .tc).ty.Contents (Elt F)) :
    (Memref.whole cc0_stg0_0 : Memref sig .tc .vmem S256x64 .f32).view.readAt (Elt F)
      (Rect.unit (s := S256x64) ![0, 0] S256x64.size inb_S256x64_S256x64_0_0).toLoadRect f = f :=
  Memref.readAt_unit_zero (Elt F) cc0_stg0_0 off2_zero _ f

theorem read_stg1 {F : FTy → Type} (f : (cc0_stg1_0 : Ref sig .tc).ty.Contents (Elt F)) :
    (Memref.whole cc0_stg1_0 : Memref sig .tc .vmem S256x64 .f32).view.readAt (Elt F)
      (Rect.unit (s := S256x64) ![0, 0] S256x64.size inb_S256x64_S256x64_0_0).toLoadRect f = f :=
  Memref.readAt_unit_zero (Elt F) cc0_stg1_0 off2_zero _ f

theorem read_stg2 {F : FTy → Type} (f : (cc0_stg2_0 : Ref sig .tc).ty.Contents (Elt F)) :
    (Memref.whole cc0_stg2_0 : Memref sig .tc .vmem S256x64 .f32).view.readAt (Elt F)
      (Rect.unit (s := S256x64) ![0, 0] S256x64.size inb_S256x64_S256x64_0_0).toLoadRect f = f :=
  Memref.readAt_unit_zero (Elt F) cc0_stg2_0 off2_zero _ f

theorem read_stg3 {F : FTy → Type} (f : (cc0_stg3_0 : Ref sig .tc).ty.Contents (Elt F)) :
    (Memref.whole cc0_stg3_0 : Memref sig .tc .vmem S256x64 .f32).view.readAt (Elt F)
      (Rect.unit (s := S256x64) ![0, 0] S256x64.size inb_S256x64_S256x64_0_0).toLoadRect f = f :=
  Memref.readAt_unit_zero (Elt F) cc0_stg3_0 off2_zero _ f

end Cert.RingW
-- ==== Proof.BodyAuxW.lean ====
/-
  Two auxiliary facts for the body's proof.

  (1) Read tokens. A full-share points-to splits into a remainder and ten read tokens, token i being
  the right half of what is left after i halvings: halve once to split off token 0, halve the
  remainder to split off token 1, and so on ten times; joining runs the same steps backwards.
-/
import proofs.«900463_g7700000000000464_dist_ring_attn_i_s256_d64_v7x_i32_f32_1_alg».proof.Proof.SchedW
import proofs.«900463_g7700000000000464_dist_ring_attn_i_s256_d64_v7x_i32_f32_1_alg».proof.Proof.OutAtW
import Idealize.ShloMosaic.Lib.Transfers
import Idealize.ShloMosaic.Rules.PointsTo

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Read tokens, one by one -/

section Toks

/-- Regrouping three resources. -/
theorem sep_rot {A B C : sProp 𝕄} : iprop((A ∗ B) ∗ C) ⊢ iprop(A ∗ (C ∗ B)) := by
  iintro ⟨⟨HA, HB⟩, HC⟩
  isplitl [HA]; · iexact HA
  isplitl [HC] <;> iassumption

/-- and back. -/
theorem sep_rot' {A B C : sProp 𝕄} : iprop(A ∗ (C ∗ B)) ⊢ iprop((A ∗ B) ∗ C) := by
  iintro ⟨HA, HC, HB⟩
  isplitl [HA HB]; · isplitl [HA] <;> iassumption
  iexact HC

variable {ℓ : Loc nD τ sig} {S : Finset (Idx ℓ)} {f : Buf (Elt F) ℓ}

/-- One halving: what is left after k tokens is what is left after k + 1 tokens and token k. -/
theorem tok_step (k : ℕ) :
    (ℓ ↦[S]{Transfers.shareDrop fullShare k} f : sProp 𝕄)
      ⊣⊢ iprop((ℓ ↦[S]{Transfers.shareDrop fullShare (k + 1)} f) ∗ ℓ ↦[S]{Transfers.shareTokN fullShare k} f) :=
  pointsTo_share (PosShare.mem_left_op_right _)

/-- A full-share points-to is the remainder after ten read tokens and the ten tokens. -/
theorem toks10_split :
    (ℓ ↦[S]{fullShare} f : sProp 𝕄)
      ⊢ iprop((ℓ ↦[S]{Transfers.shareDrop fullShare 10} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f)) := by
  have h9 := (tok_step (F := F) (ℓ := ℓ) (S := S) (f := f) 9).1
  have h8 := (tok_step (F := F) (ℓ := ℓ) (S := S) (f := f) 8).1.trans ((sep_mono_left h9).trans sep_rot)
  have h7 := (tok_step (F := F) (ℓ := ℓ) (S := S) (f := f) 7).1.trans ((sep_mono_left h8).trans sep_rot)
  have h6 := (tok_step (F := F) (ℓ := ℓ) (S := S) (f := f) 6).1.trans ((sep_mono_left h7).trans sep_rot)
  have h5 := (tok_step (F := F) (ℓ := ℓ) (S := S) (f := f) 5).1.trans ((sep_mono_left h6).trans sep_rot)
  have h4 := (tok_step (F := F) (ℓ := ℓ) (S := S) (f := f) 4).1.trans ((sep_mono_left h5).trans sep_rot)
  have h3 := (tok_step (F := F) (ℓ := ℓ) (S := S) (f := f) 3).1.trans ((sep_mono_left h4).trans sep_rot)
  have h2 := (tok_step (F := F) (ℓ := ℓ) (S := S) (f := f) 2).1.trans ((sep_mono_left h3).trans sep_rot)
  have h1 := (tok_step (F := F) (ℓ := ℓ) (S := S) (f := f) 1).1.trans ((sep_mono_left h2).trans sep_rot)
  have h0 := (tok_step (F := F) (ℓ := ℓ) (S := S) (f := f) 0).1.trans ((sep_mono_left h1).trans sep_rot)
  exact h0

/-- The remainder and the ten tokens join back to the full share. -/
theorem toks10_join :
    iprop((ℓ ↦[S]{Transfers.shareDrop fullShare 10} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f))
      ⊢ (ℓ ↦[S]{fullShare} f : sProp 𝕄) := by
  have h9 := (tok_step (F := F) (ℓ := ℓ) (S := S) (f := f) 9).2
  have h8 := sep_rot'.trans ((sep_mono_left h9).trans (tok_step (F := F) (ℓ := ℓ) (S := S) (f := f) 8).2)
  have h7 := sep_rot'.trans ((sep_mono_left h8).trans (tok_step (F := F) (ℓ := ℓ) (S := S) (f := f) 7).2)
  have h6 := sep_rot'.trans ((sep_mono_left h7).trans (tok_step (F := F) (ℓ := ℓ) (S := S) (f := f) 6).2)
  have h5 := sep_rot'.trans ((sep_mono_left h6).trans (tok_step (F := F) (ℓ := ℓ) (S := S) (f := f) 5).2)
  have h4 := sep_rot'.trans ((sep_mono_left h5).trans (tok_step (F := F) (ℓ := ℓ) (S := S) (f := f) 4).2)
  have h3 := sep_rot'.trans ((sep_mono_left h4).trans (tok_step (F := F) (ℓ := ℓ) (S := S) (f := f) 3).2)
  have h2 := sep_rot'.trans ((sep_mono_left h3).trans (tok_step (F := F) (ℓ := ℓ) (S := S) (f := f) 2).2)
  have h1 := sep_rot'.trans ((sep_mono_left h2).trans (tok_step (F := F) (ℓ := ℓ) (S := S) (f := f) 1).2)
  have h0 := sep_rot'.trans ((sep_mono_left h1).trans (tok_step (F := F) (ℓ := ℓ) (S := S) (f := f) 0).2)
  exact h0

end Toks

end Cert.RingW

end

/-- info: 'Cert.RingW.toks10_split' depends on axioms: [propext, Classical.choice, Quot.sound] -/
#guard_msgs in #print axioms Cert.RingW.toks10_split
/-- info: 'Cert.RingW.toks10_join' depends on axioms: [propext, Classical.choice, Quot.sound] -/
#guard_msgs in #print axioms Cert.RingW.toks10_join
-- ==== Proof.PublishW.lean ====
/-
  Publishing: the body's two stores into slot [0, 0] of its scratch buffer.

  The scratch buffer of device c is meant to hold at (s, i, kv, r, d) the entry (kv, r, d) of what device
  srcDev c s i publishes; srcDev c 0 0 = c, so slot [0, 0] is meant to hold what c itself publishes: its
  key slab at kv = 0 and its value slab at kv = 1. The body stores exactly these two slabs through the
  rectangles [0, 0, 0, :, :] and [0, 0, 1, :, :]. The element of the first rectangle at (0, 0, 0, r, d) is
  the buffer's element (0, 0, 0, r, d) (unit strides, zero offsets on the last two axes), so after the first
  store the buffer holds there the key slab's entry (r, d), which is the intended entry; the second store
  writes through a rectangle disjoint from the first (kv = 1 against kv = 0), so it leaves those elements
  alone and puts the value slab's entries at (0, 0, 1, r, d). Slot [0, 0] is the union of the two rectangles.
-/
import proofs.«900463_g7700000000000464_dist_ring_attn_i_s256_d64_v7x_i32_f32_1_alg».proof.Proof.SchedW
import proofs.«900463_g7700000000000464_dist_ring_attn_i_s256_d64_v7x_i32_f32_1_alg».proof.Proof.OutAtW
import Idealize.ShloMosaic.Rules.PointsTo
import Idealize.ShloMosaic.Lib.ValueIdx

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelValueW

variable {F : FTy → Type} [FloatOps F]

local notation "𝕄" => MT nD τ sig Unit (Elt F) ℕ UU ℕ

/-- The rectangle [0, 0, kv, :, :] of the scratch buffer. -/
abbrev rHalf (kv : Nat) (inb : ∀ a, (![0, 0, kv, 0, 0] : Fin 5 → Nat) a + S1x1x1x256x64.size a ≤ S8x4x2x256x64.size a) :
    Rect S8x4x2x256x64 :=
  Rect.unit (s := S8x4x2x256x64) ![0, 0, kv, 0, 0] S1x1x1x256x64.size inb

/-- The rectangle the key slab is stored through, and the one the value slab is stored through. -/
abbrev rK : Rect S8x4x2x256x64 :=
  Rect.unit (s := S8x4x2x256x64) ![0, 0, 0, 0, 0] S1x1x1x256x64.size inb_S8x4x2x256x64_S1x1x1x256x64_0_0_0_0_0
abbrev rV : Rect S8x4x2x256x64 :=
  Rect.unit (s := S8x4x2x256x64) ![0, 0, 1, 0, 0] S1x1x1x256x64.size inb_S8x4x2x256x64_S1x1x1x256x64_0_0_1_0_0

/-- The rectangle's element at (0, 0, 0, r, d) is the buffer's element (0, 0, kv, r, d). -/
theorem rHalf_emb (kv : Nat) (inb : ∀ a, (![0, 0, kv, 0, 0] : Fin 5 → Nat) a + S1x1x1x256x64.size a ≤ S8x4x2x256x64.size a)
    (x : S1x1x1x256x64.Idx) :
    ((A4.access (rHalf kv inb)).emb x 0).val = 0 ∧ ((A4.access (rHalf kv inb)).emb x 1).val = 0
      ∧ ((A4.access (rHalf kv inb)).emb x 2).val = kv ∧ ((A4.access (rHalf kv inb)).emb x 3).val = (x 3).val
      ∧ ((A4.access (rHalf kv inb)).emb x 4).val = (x 4).val := by
  have b0 : (x 0).val < 1 := (x 0).isLt
  have b1 : (x 1).val < 1 := (x 1).isLt
  have b2 : (x 2).val < 1 := (x 2).isLt
  have k0 : ((A4.access (rHalf kv inb)).emb x 0).val = 0 + 1 * (x 0).val := rfl
  have k1 : ((A4.access (rHalf kv inb)).emb x 1).val = 0 + 1 * (x 1).val := rfl
  have k2 : ((A4.access (rHalf kv inb)).emb x 2).val = kv + 1 * (x 2).val := rfl
  have k3 : ((A4.access (rHalf kv inb)).emb x 3).val = 0 + 1 * (x 3).val := rfl
  have k4 : ((A4.access (rHalf kv inb)).emb x 4).val = 0 + 1 * (x 4).val := rfl
  rw [k0, k1, k2, k3, k4]
  omega

/-- The rectangle's elements are the buffer's elements whose first three coordinates are (0, 0, kv). -/
theorem rHalf_mem (kv : Nat) (inb : ∀ a, (![0, 0, kv, 0, 0] : Fin 5 → Nat) a + S1x1x1x256x64.size a ≤ S8x4x2x256x64.size a)
    (idx : S8x4x2x256x64.Idx) :
    idx ∈ (A4.access (rHalf kv inb)).set ↔ (idx 0).val = 0 ∧ (idx 1).val = 0 ∧ (idx 2).val = kv := by
  constructor
  · intro h
    obtain ⟨x, -, rfl⟩ := Finset.mem_map.1 h
    obtain ⟨e0, e1, e2, -, -⟩ := rHalf_emb kv inb x
    exact ⟨e0, e1, e2⟩
  · intro ⟨h0, h1, h2⟩
    have hs : (A4.access (rHalf kv inb)).set = (rHalf kv inb).set := View.set_slice_whole _ _
    rw [hs, Rect.mem_set_unit]
    intro a
    match a with
    | ⟨0, _⟩ => show 0 ≤ (idx 0).val ∧ (idx 0).val < 0 + 1; omega
    | ⟨1, _⟩ => show 0 ≤ (idx 1).val ∧ (idx 1).val < 0 + 1; omega
    | ⟨2, _⟩ => show kv ≤ (idx 2).val ∧ (idx 2).val < kv + 1; omega
    | ⟨3, _⟩ => exact ⟨Nat.zero_le _, by have : (idx 3).val < 256 := (idx 3).isLt; show (idx 3).val < 0 + 256; omega⟩
    | ⟨4, _⟩ => exact ⟨Nat.zero_le _, by have : (idx 4).val < 64 := (idx 4).isLt; show (idx 4).val < 0 + 64; omega⟩

/-- A device's own block sits in its slot [0, 0]. -/
theorem srcDev_own : ∀ c : Dev nD, srcDev c 0 0 = c := by decide

/-- A slab index is (0, 0, 0, r, d). -/
theorem slab_idx (x : S1x1x1x256x64.Idx) :
    ValueIdx.ix5 (0 : Fin 1) (0 : Fin 1) (0 : Fin 1) (⟨(x 3).val % 256, Nat.mod_lt _ (by decide)⟩ : Fin 256)
      (⟨(x 4).val % 64, Nat.mod_lt _ (by decide)⟩ : Fin 64) = x := by
  have b0 : (x 0).val < 1 := (x 0).isLt
  have b1 : (x 1).val < 1 := (x 1).isLt
  have b2 : (x 2).val < 1 := (x 2).isLt
  have b3 : (x 3).val < 256 := (x 3).isLt
  have b4 : (x 4).val < 64 := (x 4).isLt
  funext a
  apply Fin.ext
  match a with
  | ⟨0, _⟩ => show 0 = (x 0).val; omega
  | ⟨1, _⟩ => show 0 = (x 1).val; omega
  | ⟨2, _⟩ => show 0 = (x 2).val; omega
  | ⟨3, _⟩ => show (x 3).val % 256 = (x 3).val; omega
  | ⟨4, _⟩ => show (x 4).val % 64 = (x 4).val; omega

variable (m : (ℓ : Loc nD τ sig) → Buf (Elt F) ℓ) (ρ : Dev nD → PrngReg)

/-- What the first store leaves at an element of its rectangle is the intended entry. -/
theorem publish_k_emb (c : Dev nD) (f : Buf (Elt F) (sL c)) (x : S1x1x1x256x64.Idx) :
    (A4.access rK).write (Elt F) f (k0_pay1 (stgK m ρ c)) Finset.univ ((A4.access rK).emb x)
      = scr (pubOf m ρ) c ((A4.access rK).emb x) := by
  obtain ⟨e0, e1, e2, e3, e4⟩ := rHalf_emb 0 inb_S8x4x2x256x64_S1x1x1x256x64_0_0_0_0_0 x
  rw [View.write_emb_of_mem _ _ (Finset.mem_univ x)]
  show _ = pubOf m ρ (srcDev c ((A4.access rK).emb x 0).val ((A4.access rK).emb x 1).val)
    ((A4.access rK).emb x 2).val ((A4.access rK).emb x 3).val ((A4.access rK).emb x 4).val
  rw [e0, e1, e2, e3, e4, srcDev_own]
  unfold pubOf slabK
  rw [if_pos rfl, slab_idx x]
  rfl

/-- What the second store leaves at an element of its rectangle is the intended entry. -/
theorem publish_v_emb (c : Dev nD) (f : Buf (Elt F) (sL c)) (x : S1x1x1x256x64.Idx) :
    (A4.access rV).write (Elt F) f (k0_pay3 (k0_pay2 (stgV m ρ c))) Finset.univ ((A4.access rV).emb x)
      = scr (pubOf m ρ) c ((A4.access rV).emb x) := by
  obtain ⟨e0, e1, e2, e3, e4⟩ := rHalf_emb 1 inb_S8x4x2x256x64_S1x1x1x256x64_0_0_1_0_0 x
  rw [View.write_emb_of_mem _ _ (Finset.mem_univ x)]
  show _ = pubOf m ρ (srcDev c ((A4.access rV).emb x 0).val ((A4.access rV).emb x 1).val)
    ((A4.access rV).emb x 2).val ((A4.access rV).emb x 3).val ((A4.access rV).emb x 4).val
  rw [e0, e1, e2, e3, e4, srcDev_own]
  unfold pubOf slabV
  rw [if_neg (by decide), slab_idx x]
  rfl

/-- THE FIRST STORE: on its rectangle the buffer now holds the intended contents, -/
theorem publish_k (c : Dev nD) (f : Buf (Elt F) (sL c)) (idx : S8x4x2x256x64.Idx) (h : idx ∈ (A4.access rK).set) :
    (A4.access rK).write (Elt F) f (k0_pay1 (stgK m ρ c)) Finset.univ idx = scr (pubOf m ρ) c idx := by
  obtain ⟨x, -, rfl⟩ := Finset.mem_map.1 h
  exact publish_k_emb m ρ c f x

/-- and off its rectangle the buffer is unchanged. -/
theorem publish_k_off (c : Dev nD) (f : Buf (Elt F) (sL c)) (idx : S8x4x2x256x64.Idx) (h : idx ∉ (A4.access rK).set) :
    (A4.access rK).write (Elt F) f (k0_pay1 (stgK m ρ c)) Finset.univ idx = f idx :=
  View.write_of_not_mem f _ Finset.univ h

/-- THE SECOND STORE, over any contents: on its rectangle the intended contents, -/
theorem publish_v (c : Dev nD) (f : Buf (Elt F) (sL c)) (idx : S8x4x2x256x64.Idx) (h : idx ∈ (A4.access rV).set) :
    (A4.access rV).write (Elt F) f (k0_pay3 (k0_pay2 (stgV m ρ c))) Finset.univ idx = scr (pubOf m ρ) c idx := by
  obtain ⟨x, -, rfl⟩ := Finset.mem_map.1 h
  exact publish_v_emb m ρ c f x

/-- and off its rectangle (in particular on the first store's rectangle) the buffer is unchanged. -/
theorem publish_v_off (c : Dev nD) (f : Buf (Elt F) (sL c)) (idx : S8x4x2x256x64.Idx) (h : idx ∉ (A4.access rV).set) :
    (A4.access rV).write (Elt F) f (k0_pay3 (k0_pay2 (stgV m ρ c))) Finset.univ idx = f idx :=
  View.write_of_not_mem f _ Finset.univ h

/-- The two rectangles are disjoint: they differ on the third coordinate. -/
theorem rK_not_rV (idx : S8x4x2x256x64.Idx) (h : idx ∈ (A4.access rK).set) : idx ∉ (A4.access rV).set := by
  intro h'
  have h2 := ((rHalf_mem 0 inb_S8x4x2x256x64_S1x1x1x256x64_0_0_0_0_0 idx).1 h).2.2
  have h2' := ((rHalf_mem 1 inb_S8x4x2x256x64_S1x1x1x256x64_0_0_1_0_0 idx).1 h').2.2
  omega

/-- After both stores, every element of either rectangle holds the intended contents. -/
theorem published_at (c : Dev nD) (f : Buf (Elt F) (sL c)) (idx : S8x4x2x256x64.Idx)
    (h : idx ∈ (A4.access rK).set ∪ (A4.access rV).set) :
    (A4.access rV).write (Elt F) ((A4.access rK).write (Elt F) f (k0_pay1 (stgK m ρ c)) Finset.univ)
        (k0_pay3 (k0_pay2 (stgV m ρ c))) Finset.univ idx
      = scr (pubOf m ρ) c idx := by
  rcases Finset.mem_union.1 h with hk | hv
  · rw [publish_v_off m ρ c _ idx (rK_not_rV idx hk)]
    exact publish_k m ρ c f idx hk
  · exact publish_v m ρ c _ idx hv

/-- Slot [0, 0] is the union of the two rectangles. -/
theorem zM0_eq_union : (zM0 : Memref sig .tc .vmem S2x256x64 .bf16).view.set = (A4.access rK).set ∪ (A4.access rV).set := by
  have hz : (zM0 : Memref sig .tc .vmem S2x256x64 .bf16).view.set
      = (Rect.unit (s := S8x4x2x256x64) ![0, 0, 0, 0, 0] S1x1x2x256x64.size inb_S8x4x2x256x64_S1x1x2x256x64_0_0_0_0_0).set := by
    show (((View.whole cc0_scratch0).slice _).reshape _ _).set = _
    rw [View.set_reshape, View.set_slice_whole]
  ext idx
  rw [hz, Finset.mem_union, rHalf_mem 0 inb_S8x4x2x256x64_S1x1x1x256x64_0_0_0_0_0 idx,
    rHalf_mem 1 inb_S8x4x2x256x64_S1x1x1x256x64_0_0_1_0_0 idx, Rect.mem_set_unit]
  constructor
  · intro h
    have h0 : 0 ≤ (idx 0).val ∧ (idx 0).val < 0 + 1 := h 0
    have h1 : 0 ≤ (idx 1).val ∧ (idx 1).val < 0 + 1 := h 1
    have h2 : 0 ≤ (idx 2).val ∧ (idx 2).val < 0 + 2 := h 2
    omega
  · intro h a
    have b3 : (idx 3).val < 256 := (idx 3).isLt
    have b4 : (idx 4).val < 64 := (idx 4).isLt
    match a with
    | ⟨0, _⟩ => show 0 ≤ (idx 0).val ∧ (idx 0).val < 0 + 1; omega
    | ⟨1, _⟩ => show 0 ≤ (idx 1).val ∧ (idx 1).val < 0 + 1; omega
    | ⟨2, _⟩ => show 0 ≤ (idx 2).val ∧ (idx 2).val < 0 + 2; omega
    | ⟨3, _⟩ => show 0 ≤ (idx 3).val ∧ (idx 3).val < 0 + 256; omega
    | ⟨4, _⟩ => show 0 ≤ (idx 4).val ∧ (idx 4).val < 0 + 64; omega

/-- NET: after the two stores, slot [0, 0] of device c holds what the device publishes. -/
theorem published (c : Dev nD) (f : Buf (Elt F) (sL c)) :
    (sL c ↦[(zM0 : Memref sig .tc .vmem S2x256x64 .bf16).view.set]{fullShare}
        ((A4.access rV).write (Elt F) ((A4.access rK).write (Elt F) f (k0_pay1 (stgK m ρ c)) Finset.univ)
          (k0_pay3 (k0_pay2 (stgV m ρ c))) Finset.univ) : sProp 𝕄)
      = (sL c ↦[(zM0 : Memref sig .tc .vmem S2x256x64 .bf16).view.set]{fullShare} scr (pubOf m ρ) c) :=
  pointsTo_congr fun idx hidx => published_at m ρ c f idx (by rw [← zM0_eq_union]; exact hidx)

end Cert.RingW

end

/-- info: 'Cert.RingW.published' depends on axioms: [propext, Classical.choice, Quot.sound] -/
#guard_msgs in #print axioms Cert.RingW.published
-- ==== Proof.RegroupW.lean ====
/-
  Regrouping what a device holds of its scratch buffer, and of its semaphores, around the exchange.

  The buffer is slot [0, 0] (the device's own slab), the three landing slots [0, 3], [0, 2], [0, 1] of the links
  across the groups, and the seven landing slots [7] … [1] of the links inside.  A slot's full share is a remainder
  and ten read tokens, one per link.  The copies across the groups read slot [0, 0] under its tokens 0, 1, 2; the
  copies inside read all of slot [0] (slot [0, 0] and the three landing slots) under the tokens 3 … 9 of each of
  its four parts.  What is left of the three landing slots meanwhile (remainder and tokens 0, 1, 2) is the pocket.
  At the exit every token has come back and everything joins to the whole buffer at the full share.
-/
import proofs.«900463_g7700000000000464_dist_ring_attn_i_s256_d64_v7x_i32_f32_1_alg».proof.Proof.LaunchW
import proofs.«900463_g7700000000000464_dist_ring_attn_i_s256_d64_v7x_i32_f32_1_alg».proof.Proof.BodyDefsW
import proofs.«900463_g7700000000000464_dist_ring_attn_i_s256_d64_v7x_i32_f32_1_alg».proof.Proof.SlotsW
import proofs.«900463_g7700000000000464_dist_ring_attn_i_s256_d64_v7x_i32_f32_1_alg».proof.Proof.BodyAuxW

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What is left of the three landing slots of the links across the groups while the copies inside read them: of each
    its remainder and its read tokens 0, 1, 2. -/
def pocket (pub : Dev nD → Nat → Nat → Nat → Elt F .bf16) (c : Dev nD) : sProp 𝕄 :=
  iprop((sL c ↦[dstSet c 0]{Transfers.shareDrop fullShare 10} scr pub c) ∗ (sL c ↦[dstSet c 0]{Transfers.shareTokN fullShare 0} scr pub c) ∗ (sL c ↦[dstSet c 0]{Transfers.shareTokN fullShare 1} scr pub c) ∗ (sL c ↦[dstSet c 0]{Transfers.shareTokN fullShare 2} scr pub c)
    ∗ (sL c ↦[dstSet c 1]{Transfers.shareDrop fullShare 10} scr pub c) ∗ (sL c ↦[dstSet c 1]{Transfers.shareTokN fullShare 0} scr pub c) ∗ (sL c ↦[dstSet c 1]{Transfers.shareTokN fullShare 1} scr pub c) ∗ (sL c ↦[dstSet c 1]{Transfers.shareTokN fullShare 2} scr pub c)
    ∗ (sL c ↦[dstSet c 2]{Transfers.shareDrop fullShare 10} scr pub c) ∗ (sL c ↦[dstSet c 2]{Transfers.shareTokN fullShare 0} scr pub c) ∗ (sL c ↦[dstSet c 2]{Transfers.shareTokN fullShare 1} scr pub c) ∗ (sL c ↦[dstSet c 2]{Transfers.shareTokN fullShare 2} scr pub c))

/-- The sources of the seven copies inside the group: token `p` of slot [0, 0] and of the three landing slots is token
    `p` of slot [0]. -/
theorem p_sources (pub : Dev nD → Nat → Nat → Nat → Elt F .bf16) (c : Dev nD) :
    iprop((sL c ↦[(zM0 : Memref sig .tc .vmem S2x256x64 .bf16).view.set]{Transfers.shareTokN fullShare 3} scr pub c)
      ∗ (sL c ↦[(zM0 : Memref sig .tc .vmem S2x256x64 .bf16).view.set]{Transfers.shareTokN fullShare 4} scr pub c)
      ∗ (sL c ↦[(zM0 : Memref sig .tc .vmem S2x256x64 .bf16).view.set]{Transfers.shareTokN fullShare 5} scr pub c)
      ∗ (sL c ↦[(zM0 : Memref sig .tc .vmem S2x256x64 .bf16).view.set]{Transfers.shareTokN fullShare 6} scr pub c)
      ∗ (sL c ↦[(zM0 : Memref sig .tc .vmem S2x256x64 .bf16).view.set]{Transfers.shareTokN fullShare 7} scr pub c)
      ∗ (sL c ↦[(zM0 : Memref sig .tc .vmem S2x256x64 .bf16).view.set]{Transfers.shareTokN fullShare 8} scr pub c)
      ∗ (sL c ↦[(zM0 : Memref sig .tc .vmem S2x256x64 .bf16).view.set]{Transfers.shareTokN fullShare 9} scr pub c)
      ∗ (sL c ↦[dstSet c 0]{fullShare} scr pub c)
      ∗ (sL c ↦[dstSet c 1]{fullShare} scr pub c)
      ∗ (sL c ↦[dstSet c 2]{fullShare} scr pub c))
    ⊢ iprop((sL c ↦[srcSet c 3]{Transfers.shareTokN fullShare 3} scr pub c)
      ∗ (sL c ↦[srcSet c 4]{Transfers.shareTokN fullShare 4} scr pub c)
      ∗ (sL c ↦[srcSet c 5]{Transfers.shareTokN fullShare 5} scr pub c)
      ∗ (sL c ↦[srcSet c 6]{Transfers.shareTokN fullShare 6} scr pub c)
      ∗ (sL c ↦[srcSet c 7]{Transfers.shareTokN fullShare 7} scr pub c)
      ∗ (sL c ↦[srcSet c 8]{Transfers.shareTokN fullShare 8} scr pub c)
      ∗ (sL c ↦[srcSet c 9]{Transfers.shareTokN fullShare 9} scr pub c)
      ∗ pocket pub c) := by
  rw [srcSet_3, srcSet_4, srcSet_5, srcSet_6, srcSet_7, srcSet_8, srcSet_9]
  unfold pocket
  iintro ⟨Z3, Z4, Z5, Z6, Z7, Z8, Z9, H0, H1, H2⟩
  ihave H0' := (toks10_split (F := F)) $$ H0
  icases H0' with ⟨D0, A0, A1, A2, A3, A4, A5, A6, A7, A8, A9⟩
  ihave H1' := (toks10_split (F := F)) $$ H1
  icases H1' with ⟨D1, B0, B1, B2, B3, B4, B5, B6, B7, B8, B9⟩
  ihave H2' := (toks10_split (F := F)) $$ H2
  icases H2' with ⟨D2, C0, C1, C2, C3, C4, C5, C6, C7, C8, C9⟩
  isplitl [Z3 A3 B3 C3]
  · iapply (src_p_join c (scr pub c) (Transfers.shareTokN fullShare 3)).1
    isplitl [Z3]; · iexact Z3
    isplitl [C3]; · iexact C3
    isplitl [B3]; · iexact B3
    iexact A3
  isplitl [Z4 A4 B4 C4]
  · iapply (src_p_join c (scr pub c) (Transfers.shareTokN fullShare 4)).1
    isplitl [Z4]; · iexact Z4
    isplitl [C4]; · iexact C4
    isplitl [B4]; · iexact B4
    iexact A4
  isplitl [Z5 A5 B5 C5]
  · iapply (src_p_join c (scr pub c) (Transfers.shareTokN fullShare 5)).1
    isplitl [Z5]; · iexact Z5
    isplitl [C5]; · iexact C5
    isplitl [B5]; · iexact B5
    iexact A5
  isplitl [Z6 A6 B6 C6]
  · iapply (src_p_join c (scr pub c) (Transfers.shareTokN fullShare 6)).1
    isplitl [Z6]; · iexact Z6
    isplitl [C6]; · iexact C6
    isplitl [B6]; · iexact B6
    iexact A6
  isplitl [Z7 A7 B7 C7]
  · iapply (src_p_join c (scr pub c) (Transfers.shareTokN fullShare 7)).1
    isplitl [Z7]; · iexact Z7
    isplitl [C7]; · iexact C7
    isplitl [B7]; · iexact B7
    iexact A7
  isplitl [Z8 A8 B8 C8]
  · iapply (src_p_join c (scr pub c) (Transfers.shareTokN fullShare 8)).1
    isplitl [Z8]; · iexact Z8
    isplitl [C8]; · iexact C8
    isplitl [B8]; · iexact B8
    iexact A8
  isplitl [Z9 A9 B9 C9]
  · iapply (src_p_join c (scr pub c) (Transfers.shareTokN fullShare 9)).1
    isplitl [Z9]; · iexact Z9
    isplitl [C9]; · iexact C9
    isplitl [B9]; · iexact B9
    iexact A9
  isplitl [D0]; · iexact D0
  isplitl [A0]; · iexact A0
  isplitl [A1]; · iexact A1
  isplitl [A2]; · iexact A2
  isplitl [D1]; · iexact D1
  isplitl [B0]; · iexact B0
  isplitl [B1]; · iexact B1
  isplitl [B2]; · iexact B2
  isplitl [D2]; · iexact D2
  isplitl [C0]; · iexact C0
  isplitl [C1]; · iexact C1
  iexact C2

/-- At the exit: the remainder of slot [0, 0], the ten sources back from the send waits, the pocket and the seven
    landing slots inside are the whole buffer. -/
theorem collect (pub : Dev nD → Nat → Nat → Nat → Elt F .bf16) (c : Dev nD) :
    iprop((sL c ↦[(zM0 : Memref sig .tc .vmem S2x256x64 .bf16).view.set]{Transfers.shareDrop fullShare 10} scr pub c)
      ∗ (sL c ↦[srcSet c 0]{Transfers.shareTokN fullShare 0} scr pub c)
      ∗ (sL c ↦[srcSet c 1]{Transfers.shareTokN fullShare 1} scr pub c)
      ∗ (sL c ↦[srcSet c 2]{Transfers.shareTokN fullShare 2} scr pub c)
      ∗ (sL c ↦[srcSet c 3]{Transfers.shareTokN fullShare 3} scr pub c)
      ∗ (sL c ↦[srcSet c 4]{Transfers.shareTokN fullShare 4} scr pub c)
      ∗ (sL c ↦[srcSet c 5]{Transfers.shareTokN fullShare 5} scr pub c)
      ∗ (sL c ↦[srcSet c 6]{Transfers.shareTokN fullShare 6} scr pub c)
      ∗ (sL c ↦[srcSet c 7]{Transfers.shareTokN fullShare 7} scr pub c)
      ∗ (sL c ↦[srcSet c 8]{Transfers.shareTokN fullShare 8} scr pub c)
      ∗ (sL c ↦[srcSet c 9]{Transfers.shareTokN fullShare 9} scr pub c)
      ∗ pocket pub c
      ∗ (sL c ↦[dstSet c 3]{fullShare} scr pub c)
      ∗ (sL c ↦[dstSet c 4]{fullShare} scr pub c)
      ∗ (sL c ↦[dstSet c 5]{fullShare} scr pub c)
      ∗ (sL c ↦[dstSet c 6]{fullShare} scr pub c)
      ∗ (sL c ↦[dstSet c 7]{fullShare} scr pub c)
      ∗ (sL c ↦[dstSet c 8]{fullShare} scr pub c)
      ∗ (sL c ↦[dstSet c 9]{fullShare} scr pub c))
    ⊢ iprop(∃ f : Buf (Elt F) (sL c), sL c ↦{fullShare} f) := by
  rw [srcSet_0, srcSet_1, srcSet_2, srcSet_3, srcSet_4, srcSet_5, srcSet_6, srcSet_7, srcSet_8, srcSet_9]
  unfold pocket
  iintro ⟨ZD, Z0, Z1, Z2, S3, S4, S5, S6, S7, S8, S9, ⟨D0, A0, A1, A2, D1, B0, B1, B2, D2, C0, C1, C2⟩, L3, L4, L5, L6, L7, L8, L9⟩
  ihave S3' := (src_p_join c (scr pub c) (Transfers.shareTokN fullShare 3)).2 $$ S3
  icases S3' with ⟨Z3, C3, B3, A3⟩
  ihave S4' := (src_p_join c (scr pub c) (Transfers.shareTokN fullShare 4)).2 $$ S4
  icases S4' with ⟨Z4, C4, B4, A4⟩
  ihave S5' := (src_p_join c (scr pub c) (Transfers.shareTokN fullShare 5)).2 $$ S5
  icases S5' with ⟨Z5, C5, B5, A5⟩
  ihave S6' := (src_p_join c (scr pub c) (Transfers.shareTokN fullShare 6)).2 $$ S6
  icases S6' with ⟨Z6, C6, B6, A6⟩
  ihave S7' := (src_p_join c (scr pub c) (Transfers.shareTokN fullShare 7)).2 $$ S7
  icases S7' with ⟨Z7, C7, B7, A7⟩
  ihave S8' := (src_p_join c (scr pub c) (Transfers.shareTokN fullShare 8)).2 $$ S8
  icases S8' with ⟨Z8, C8, B8, A8⟩
  ihave S9' := (src_p_join c (scr pub c) (Transfers.shareTokN fullShare 9)).2 $$ S9
  icases S9' with ⟨Z9, C9, B9, A9⟩
  iexists (scr pub c)
  iapply (scr_join (F := F) c (scr pub c))
  isplitl [ZD Z0 Z1 Z2 Z3 Z4 Z5 Z6 Z7 Z8 Z9]
  · iapply (toks10_join (F := F))
    isplitl [ZD]; · iexact ZD
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  isplitl [D0 A0 A1 A2 A3 A4 A5 A6 A7 A8 A9]
  · iapply (toks10_join (F := F))
    isplitl [D0]; · iexact D0
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [D1 B0 B1 B2 B3 B4 B5 B6 B7 B8 B9]
  · iapply (toks10_join (F := F))
    isplitl [D1]; · iexact D1
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  isplitl [D2 C0 C1 C2 C3 C4 C5 C6 C7 C8 C9]
  · iapply (toks10_join (F := F))
    isplitl [D2]; · iexact D2
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    iexact C9
  isplitl [L3]; · iexact L3
  isplitl [L4]; · iexact L4
  isplitl [L5]; · iexact L5
  isplitl [L6]; · iexact L6
  isplitl [L7]; · iexact L7
  isplitl [L8]; · iexact L8
  iexact L9

omit [FloatOps F] in
/-- The ten send cells' and the ten receive cells' counters at zero and the four idle semaphores are the kernel's own
    semaphores at zero. -/
theorem exit_sems (c : Dev nD) :
    iprop(semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (sendCell 7 c) 0 ∗ semVal (sendCell 8 c) 0 ∗ semVal (sendCell 9 c) 0 ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0 ∗ semVal (recvCell 7 c) 0 ∗ semVal (recvCell 8 c) 0 ∗ semVal (recvCell 9 c) 0 ∗ idle (F := F) c)
    ⊢ (Pipeline.ownSems0 (Ix := Unit) (Name := ℕ) (U := UU) (Lvl := ℕ) (Val := Elt F) (τ := τ) osem c : sProp 𝕄) := by
  rw [ownSems0_eq, bigSep_fin10, bigSep_fin10]
  iintro ⟨S0, S1, S2, S3, S4, S5, S6, S7, S8, S9, R0, R1, R2, R3, R4, R5, R6, R7, R8, R9, HI⟩
  isplitl [S0 S1 S2 S3 S4 S5 S6 S7 S8 S9]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [R0 R1 R2 R3 R4 R5 R6 R7 R8 R9]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact HI

/-- info: 'Cert.RingW.p_sources' depends on axioms: [propext, Classical.choice, Quot.sound] -/
#guard_msgs in #print axioms p_sources
/-- info: 'Cert.RingW.collect' depends on axioms: [propext, Classical.choice, Quot.sound] -/
#guard_msgs in #print axioms collect
/-- info: 'Cert.RingW.exit_sems' depends on axioms: [propext, Classical.choice, Quot.sound] -/
#guard_msgs in #print axioms exit_sems

end Cert.RingW

end
-- ==== Proof.BodyW.lean ====
/-
  One device's body of the two-stage exchange, stepped rule by rule from the device's ghost state.

  In program order: the device cuts its scratch buffer into slot [0,0] and the ten landing slots; with each of its ten
  entry signals it hands the far end of a link the landing slot that end's copy will write; its wait for ten units on
  its barrier cell brings back, from every far end, that end's landing slot for this device's own copy.  It stores the
  slabs of its k and v blocks into slot [0,0], which then holds what the device publishes, and takes ten read tokens
  of it.  The three copies across the groups read slot [0,0] at tokens 0, 1, 2; each of their landings, once waited
  for, returns a slot [0,i] holding the slab of the device 8·i further round, which the body loads.  The three landed
  slots are cut into tokens too, and slot [0] — the four slabs together — is read by the seven copies inside the group
  at tokens 3 … 9; each of their landings returns a slot [s] of four slabs, loaded in turn.  The result store writes
  the kernel's output term of the staged blocks and the loaded slabs.  The ten send waits return the tokens, the
  twenty cells close with their counters at zero, and the scratch buffer is whole again.
-/
import proofs.«900463_g7700000000000464_dist_ring_attn_i_s256_d64_v7x_i32_f32_1_alg».proof.Proof.StepsW
import proofs.«900463_g7700000000000464_dist_ring_attn_i_s256_d64_v7x_i32_f32_1_alg».proof.Proof.LaunchW
import proofs.«900463_g7700000000000464_dist_ring_attn_i_s256_d64_v7x_i32_f32_1_alg».proof.Proof.BodyDefsW
import proofs.«900463_g7700000000000464_dist_ring_attn_i_s256_d64_v7x_i32_f32_1_alg».proof.Proof.BodyObW
import proofs.«900463_g7700000000000464_dist_ring_attn_i_s256_d64_v7x_i32_f32_1_alg».proof.Proof.SlotsW
import proofs.«900463_g7700000000000464_dist_ring_attn_i_s256_d64_v7x_i32_f32_1_alg».proof.Proof.BodyAuxW
import proofs.«900463_g7700000000000464_dist_ring_attn_i_s256_d64_v7x_i32_f32_1_alg».proof.Proof.PublishW
import proofs.«900463_g7700000000000464_dist_ring_attn_i_s256_d64_v7x_i32_f32_1_alg».proof.Proof.OutAtW
import proofs.«900463_g7700000000000464_dist_ring_attn_i_s256_d64_v7x_i32_f32_1_alg».proof.Proof.RegroupW
import proofs.«900463_g7700000000000464_dist_ring_attn_i_s256_d64_v7x_i32_f32_1_alg».proof.Proof.KernelTermW
import proofs.«900463_g7700000000000464_dist_ring_attn_i_s256_d64_v7x_i32_f32_1_alg».proof.Proof.Gen.Kernel.Skeleton
import Idealize.ShloMosaic.Lib.Tactic

noncomputable section

namespace Cert.RingW

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_0 : inv 0 = 2 := rfl
theorem inv_1 : inv 1 = 1 := rfl
theorem inv_2 : inv 2 = 0 := rfl
theorem inv_3 : inv 3 = 9 := rfl
theorem inv_4 : inv 4 = 8 := rfl
theorem inv_5 : inv 5 = 7 := rfl
theorem inv_6 : inv 6 = 6 := rfl
theorem inv_7 : inv 7 = 5 := rfl
theorem inv_8 : inv 8 = 4 := rfl
theorem inv_9 : inv 9 = 3 := rfl

omit [FloatOps F] in
theorem write_out (f w : (cc0_stg3_0 : Ref sig .tc).ty.Contents (Elt F)) :
    (((Memref.whole cc0_stg3_0 : Memref sig .tc .vmem S256x64 .f32).access (Rect.unit (s := S256x64) ![0, 0] S256x64.size inb_S256x64_S256x64_0_0) : View sig .tc _ _ _)).write (Elt F) f w Finset.univ = w :=
  Memref.write_access_unit_zero_univ (Elt F) cc0_stg3_0 off2_zero _ f w

set_option maxHeartbeats 8000000 in
set_option maxRecDepth 65536 in
theorem sound_body (K : Dev nD × Fin 21 → ℕ) (c : Dev nD) (Kt : PUnit → sProp 𝕄) :
    iprop(bodyPre (pubOf m ρ) (outOf (pubOf m ρ) m ρ) m ρ K c ∗ (bodyPost (pubOf m ρ) (outOf (pubOf m ρ) m ρ) m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part27_eq_skeleton]; unfold k0_part27_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  unfold bodyPre positions payToks idle
  simp only [bigSep_fin10]
  iintro ⟨⟨⟨#HR, ⟨HaB, HaS0, HaS1, HaS2, HaS3, HaS4, HaS5, HaS6, HaS7, HaS8, HaS9, HaR0, HaR1, HaR2, HaR3, HaR4, HaR5, HaR6, HaR7, HaR8, HaR9⟩,
      ⟨⟨HtB0, HtB1, HtB2, HtB3, HtB4, HtB5, HtB6, HtB7, HtB8, HtB9⟩, ⟨HtR0, HtR1, HtR2, HtR3, HtR4, HtR5, HtR6, HtR7, HtR8, HtR9⟩, HtS0, HtS1, HtS2, HtS3, HtS4, HtS5, HtS6, HtS7, HtS8, HtS9⟩,
      ⟨Hi4, Hi8, Hi12, Hi20⟩, HcB, ⟨HcR0, HcR1, HcR2, HcR3, HcR4, HcR5, HcR6, HcR7, HcR8, HcR9⟩, #Hlev, ⟨%f0, Hscr⟩⟩,
    Ho, ⟨%d0, %g0, %hg0, Hq⟩, ⟨%d1, %g1, %hg1, Hk1⟩, ⟨%d2, %g2, %hg2, Hv⟩, ⟨%d3, %g3, %hg3, Hout⟩⟩, Hk⟩
  unfold Dat.owesAt Pipeline.owesWithin
  icases Ho with ⟨%W, %hW, HO⟩
  rw [show (dats (pubOf m ρ) (outOf (pubOf m ρ) m ρ) m ρ 0 c).owed t0_0.castSucc = O₀ c from rfl]
  ihave Hs := (scr_split c f0) $$ Hscr
  icases Hs with ⟨Hz0, Hd0, Hd1, Hd2, Hd3, Hd4, Hd5, Hd6, Hd7, Hd8, Hd9⟩
  rw [show O₀ c = owedLast c 20 (by omega) from rfl]
  -- the entry signal along link 0
  rw [show owedLast c 20 (by omega) = owedLast c 19 (by omega) + tallyAt (barCell (peer 0 c)) () 1 from rfl]
  iapply (wp_sig (pubOf m ρ) K c _ 0 (dev1_eq c) (owedLast c 19 (by omega)) W) $$ [HO HtB0 Hd2]
  · isplitr; · iexact HR
    isplitl [HO]; · iexact HO
    isplitl [HtB0]; · iexact HtB0
    iexists f0; iexact Hd2
  iintro HO
  -- the entry signal along link 1
  rw [show owedLast c 19 (by omega) = owedLast c 18 (by omega) + tallyAt (barCell (peer 1 c)) () 1 from rfl]
  iapply (wp_sig (pubOf m ρ) K c _ 1 (dev2_eq c) (owedLast c 18 (by omega)) W) $$ [HO HtB1 Hd1]
  · isplitr; · iexact HR
    isplitl [HO]; · iexact HO
    isplitl [HtB1]; · iexact HtB1
    iexists f0; iexact Hd1
  iintro HO
  -- the entry signal along link 2
  rw [show owedLast c 18 (by omega) = owedLast c 17 (by omega) + tallyAt (barCell (peer 2 c)) () 1 from rfl]
  iapply (wp_sig (pubOf m ρ) K c _ 2 (dev3_eq c) (owedLast c 17 (by omega)) W) $$ [HO HtB2 Hd0]
  · isplitr; · iexact HR
    isplitl [HO]; · iexact HO
    isplitl [HtB2]; · iexact HtB2
    iexists f0; iexact Hd0
  iintro HO
  -- the entry signal along link 3
  rw [show owedLast c 17 (by omega) = owedLast c 16 (by omega) + tallyAt (barCell (peer 3 c)) () 1 from rfl]
  iapply (wp_sig (pubOf m ρ) K c _ 3 (dev4_eq c) (owedLast c 16 (by omega)) W) $$ [HO HtB3 Hd9]
  · isplitr; · iexact HR
    isplitl [HO]; · iexact HO
    isplitl [HtB3]; · iexact HtB3
    iexists f0; iexact Hd9
  iintro HO
  -- the entry signal along link 4
  rw [show owedLast c 16 (by omega) = owedLast c 15 (by omega) + tallyAt (barCell (peer 4 c)) () 1 from rfl]
  iapply (wp_sig (pubOf m ρ) K c _ 4 (dev5_eq c) (owedLast c 15 (by omega)) W) $$ [HO HtB4 Hd8]
  · isplitr; · iexact HR
    isplitl [HO]; · iexact HO
    isplitl [HtB4]; · iexact HtB4
    iexists f0; iexact Hd8
  iintro HO
  -- the entry signal along link 5
  rw [show owedLast c 15 (by omega) = owedLast c 14 (by omega) + tallyAt (barCell (peer 5 c)) () 1 from rfl]
  iapply (wp_sig (pubOf m ρ) K c _ 5 (dev6_eq c) (owedLast c 14 (by omega)) W) $$ [HO HtB5 Hd7]
  · isplitr; · iexact HR
    isplitl [HO]; · iexact HO
    isplitl [HtB5]; · iexact HtB5
    iexists f0; iexact Hd7
  iintro HO
  -- the entry signal along link 6
  rw [show owedLast c 14 (by omega) = owedLast c 13 (by omega) + tallyAt (barCell (peer 6 c)) () 1 from rfl]
  iapply (wp_sig (pubOf m ρ) K c _ 6 (dev7_eq c) (owedLast c 13 (by omega)) W) $$ [HO HtB6 Hd6]
  · isplitr; · iexact HR
    isplitl [HO]; · iexact HO
    isplitl [HtB6]; · iexact HtB6
    iexists f0; iexact Hd6
  iintro HO
  -- the entry signal along link 7
  rw [show owedLast c 13 (by omega) = owedLast c 12 (by omega) + tallyAt (barCell (peer 7 c)) () 1 from rfl]
  iapply (wp_sig (pubOf m ρ) K c _ 7 (dev8_eq c) (owedLast c 12 (by omega)) W) $$ [HO HtB7 Hd5]
  · isplitr; · iexact HR
    isplitl [HO]; · iexact HO
    isplitl [HtB7]; · iexact HtB7
    iexists f0; iexact Hd5
  iintro HO
  -- the entry signal along link 8
  rw [show owedLast c 12 (by omega) = owedLast c 11 (by omega) + tallyAt (barCell (peer 8 c)) () 1 from rfl]
  iapply (wp_sig (pubOf m ρ) K c _ 8 (dev9_eq c) (owedLast c 11 (by omega)) W) $$ [HO HtB8 Hd4]
  · isplitr; · iexact HR
    isplitl [HO]; · iexact HO
    isplitl [HtB8]; · iexact HtB8
    iexists f0; iexact Hd4
  iintro HO
  -- the entry signal along link 9
  rw [show owedLast c 11 (by omega) = owedLast c 10 (by omega) + tallyAt (barCell (peer 9 c)) () 1 from rfl]
  iapply (wp_sig (pubOf m ρ) K c _ 9 (dev10_eq c) (owedLast c 10 (by omega)) W) $$ [HO HtB9 Hd3]
  · isplitr; · iexact HR
    isplitl [HO]; · iexact HO
    isplitl [HtB9]; · iexact HtB9
    iexists f0; iexact Hd3
  iintro HO
  -- the wait for the ten units on the barrier cell
  iapply (wp_barwait (pubOf m ρ) K c (owedLast c 10 (by omega)) W (mayWait_bar c)) $$ [HcB HO HaB]
  · isplitr; · iexact HR
    isplitr; · iexact Hlev
    isplitl [HcB]; · iexact HcB
    isplitl [HO]; · iexact HO
    iexact HaB
  iintro ⟨HO, HaB, #HrB1, Hpay⟩
  ihave Hp := (Entails.of_eq (bigSep_fin10 _)) $$ Hpay
  unfold barPay
  simp only [inv_0, inv_1, inv_2, inv_3, inv_4, inv_5, inv_6, inv_7, inv_8, inv_9]
  icases Hp with ⟨⟨⟨%fn2, Hn2⟩, #Hrn2⟩, ⟨⟨%fn1, Hn1⟩, #Hrn1⟩, ⟨⟨%fn0, Hn0⟩, #Hrn0⟩, ⟨⟨%fn9, Hn9⟩, #Hrn9⟩, ⟨⟨%fn8, Hn8⟩, #Hrn8⟩, ⟨⟨%fn7, Hn7⟩, #Hrn7⟩, ⟨⟨%fn6, Hn6⟩, #Hrn6⟩, ⟨⟨%fn5, Hn5⟩, #Hrn5⟩, ⟨⟨%fn4, Hn4⟩, #Hrn4⟩, ⟨⟨%fn3, Hn3⟩, #Hrn3⟩⟩
  -- the staged blocks are the blocks as launched
  have hq : g0 = stgQ m ρ c := by rw [hg0]; unfold Dat.before; rw [if_pos (show (cfg0.win (0 : Fin 4)).fetch t0_0 = true from rfl)]; rfl
  have hk1 : g1 = stgK m ρ c := by rw [hg1]; unfold Dat.before; rw [if_pos (show (cfg0.win (1 : Fin 4)).fetch t0_0 = true from rfl)]; rfl
  have hv : g2 = stgV m ρ c := by rw [hg2]; unfold Dat.before; rw [if_pos (show (cfg0.win (2 : Fin 4)).fetch t0_0 = true from rfl)]; rfl
  subst hq; subst hk1; subst hv
  -- publish: the slab of the k block, then of the v block, into slot [0,0]
  iapply (wp_load 𝒱₀ (c : Thread nD τ) none Set.univ (m := (Memref.whole cc0_stg1_0 : Memref sig .tc .vmem S256x64 .f32)) (Finset.subset_univ _)) $$ Hk1
  iintro Hk1
  rw [read_stg1]
  iapply (wp_load 𝒱₀ (c : Thread nD τ) none Set.univ (m := A4) (load_half_subset 0 0 lt_0_4 _)) $$ Hz0
  iintro Hz0
  iapply (wp_store 𝒱₀ (c : Thread nD τ) none Set.univ (m := A4) (r := rK) (Mk := Finset.univ) (store_half_subset 0 0 lt_0_4 _)) $$ Hz0
  iintro Hz0
  iapply (wp_load 𝒱₀ (c : Thread nD τ) none Set.univ (m := (Memref.whole cc0_stg2_0 : Memref sig .tc .vmem S256x64 .f32)) (Finset.subset_univ _)) $$ Hv
  iintro Hv
  rw [read_stg2]
  iapply (wp_load 𝒱₀ (c : Thread nD τ) none Set.univ (m := A4) (load_half_subset 0 1 lt_0_4 _)) $$ Hz0
  iintro Hz0
  iapply (wp_store 𝒱₀ (c : Thread nD τ) none Set.univ (m := A4) (r := rV) (Mk := Finset.univ) (store_half_subset 0 1 lt_0_4 _)) $$ Hz0
  iintro Hz0
  ihave Hz0 := (Entails.of_eq (published m ρ c f0)) $$ Hz0
  -- ten read tokens of slot [0,0], one per copy that reads it
  ihave Ht := toks10_split $$ Hz0
  icases Ht with ⟨Hz0r, Hz0t0, Hz0t1, Hz0t2, Hz0t3, Hz0t4, Hz0t5, Hz0t6, Hz0t7, Hz0t8, Hz0t9⟩
  -- the copy along link 0
  rw [show owedLast c 10 (by omega) = owedLast c 9 (by omega) + tallyAt (recvCell 0 (peer 0 c)) () (NL 0) from rfl]
  iapply (wp_copy0 (pubOf m ρ) K c _ (dev11_eq c) (landing_0 (pubOf m ρ) c) (owedLast c 9 (by omega)) (insert (SemLoc.reg barS, ()) W)) $$ [Hz0t0 Hn0 HO HtS0 HtR0]
  · isplitr; · iexact HR
    isplitl [Hz0t0]; · iexact Hz0t0
    isplitl [Hn0]; · iexists fn0; iexact Hn0
    isplitl [HO]; · iexact HO
    isplitl [HtS0]; · iexact HtS0
    iexact HtR0
  iintro ⟨HcS0, HO⟩
  -- the copy along link 1
  rw [show owedLast c 9 (by omega) = owedLast c 8 (by omega) + tallyAt (recvCell 1 (peer 1 c)) () (NL 1) from rfl]
  iapply (wp_copy1 (pubOf m ρ) K c _ (dev12_eq c) (landing_1 (pubOf m ρ) c) (owedLast c 8 (by omega)) (insert (SemLoc.reg barS, ()) W)) $$ [Hz0t1 Hn1 HO HtS1 HtR1]
  · isplitr; · iexact HR
    isplitl [Hz0t1]; · iexact Hz0t1
    isplitl [Hn1]; · iexists fn1; iexact Hn1
    isplitl [HO]; · iexact HO
    isplitl [HtS1]; · iexact HtS1
    iexact HtR1
  iintro ⟨HcS1, HO⟩
  -- the copy along link 2
  rw [show owedLast c 8 (by omega) = owedLast c 7 (by omega) + tallyAt (recvCell 2 (peer 2 c)) () (NL 2) from rfl]
  iapply (wp_copy2 (pubOf m ρ) K c _ (dev13_eq c) (landing_2 (pubOf m ρ) c) (owedLast c 7 (by omega)) (insert (SemLoc.reg barS, ()) W)) $$ [Hz0t2 Hn2 HO HtS2 HtR2]
  · isplitr; · iexact HR
    isplitl [Hz0t2]; · iexact Hz0t2
    isplitl [Hn2]; · iexists fn2; iexact Hn2
    isplitl [HO]; · iexact HO
    isplitl [HtS2]; · iexact HtS2
    iexact HtR2
  iintro ⟨HcS2, HO⟩
  -- the own blocks, staged
  iapply (wp_load 𝒱₀ (c : Thread nD τ) none Set.univ (m := (Memref.whole cc0_stg0_0 : Memref sig .tc .vmem S256x64 .f32)) (Finset.subset_univ _)) $$ Hq
  iintro Hq
  rw [read_stg0]
  iapply (wp_load 𝒱₀ (c : Thread nD τ) none Set.univ (m := (Memref.whole cc0_stg1_0 : Memref sig .tc .vmem S256x64 .f32)) (Finset.subset_univ _)) $$ Hk1
  iintro Hk1
  rw [read_stg1]
  iapply (wp_load 𝒱₀ (c : Thread nD τ) none Set.univ (m := (Memref.whole cc0_stg2_0 : Memref sig .tc .vmem S256x64 .f32)) (Finset.subset_univ _)) $$ Hv
  iintro Hv
  rw [read_stg2]
  -- the landing along link 0: slot [0,3], then its two loads
  iapply (wp_recvwait (pubOf m ρ) K c 0 (owedLast c 7 (by omega)) (insert (SemLoc.reg barS, ()) W) (mayWait_zrecv c 0 (by decide)) credit_dst_0) $$ [HcR0 HO HaR0]
  · isplitr; · iexact HR
    isplitr; · iexact Hlev
    isplitl [HcR0]; · iexact HcR0
    isplitl [HO]; · iexact HO
    iexact HaR0
  iintro ⟨HO, HaR0, #HrR0n, Hl0⟩
  unfold recvPay
  iapply (wp_load 𝒱₀ (c : Thread nD τ) none Set.univ (m := A4) (show A4.view.setOn (Rect.unit (s := S8x4x2x256x64) ![0, 3, 0, 0, 0] S1x1x1x256x64.size inb_S8x4x2x256x64_S1x1x1x256x64_0_3_0_0_0).toLoadRect.set ⊆ dstSet c 0 from load_half_subset 3 0 lt_3_4 _)) $$ Hl0
  iintro Hl0
  iapply (wp_load 𝒱₀ (c : Thread nD τ) none Set.univ (m := A4) (show A4.view.setOn (Rect.unit (s := S8x4x2x256x64) ![0, 3, 1, 0, 0] S1x1x1x256x64.size inb_S8x4x2x256x64_S1x1x1x256x64_0_3_1_0_0).toLoadRect.set ⊆ dstSet c 0 from load_half_subset 3 1 lt_3_4 _)) $$ Hl0
  iintro Hl0
  -- the landing along link 1: slot [0,2], then its two loads
  iapply (wp_recvwait (pubOf m ρ) K c 1 (owedLast c 7 (by omega)) (insert (SemLoc.dma (rS 0), ()) (insert (SemLoc.reg barS, ()) W)) (mayWait_zrecv c 1 (by decide)) credit_dst_1) $$ [HcR1 HO HaR1]
  · isplitr; · iexact HR
    isplitr; · iexact Hlev
    isplitl [HcR1]; · iexact HcR1
    isplitl [HO]; · iexact HO
    iexact HaR1
  iintro ⟨HO, HaR1, #HrR1n, Hl1⟩
  unfold recvPay
  iapply (wp_load 𝒱₀ (c : Thread nD τ) none Set.univ (m := A4) (show A4.view.setOn (Rect.unit (s := S8x4x2x256x64) ![0, 2, 0, 0, 0] S1x1x1x256x64.size inb_S8x4x2x256x64_S1x1x1x256x64_0_2_0_0_0).toLoadRect.set ⊆ dstSet c 1 from load_half_subset 2 0 lt_2_4 _)) $$ Hl1
  iintro Hl1
  iapply (wp_load 𝒱₀ (c : Thread nD τ) none Set.univ (m := A4) (show A4.view.setOn (Rect.unit (s := S8x4x2x256x64) ![0, 2, 1, 0, 0] S1x1x1x256x64.size inb_S8x4x2x256x64_S1x1x1x256x64_0_2_1_0_0).toLoadRect.set ⊆ dstSet c 1 from load_half_subset 2 1 lt_2_4 _)) $$ Hl1
  iintro Hl1
  -- the landing along link 2: slot [0,1], then its two loads
  iapply (wp_recvwait (pubOf m ρ) K c 2 (owedLast c 7 (by omega)) (insert (SemLoc.dma (rS 1), ()) (insert (SemLoc.dma (rS 0), ()) (insert (SemLoc.reg barS, ()) W))) (mayWait_zrecv c 2 (by decide)) credit_dst_2) $$ [HcR2 HO HaR2]
  · isplitr; · iexact HR
    isplitr; · iexact Hlev
    isplitl [HcR2]; · iexact HcR2
    isplitl [HO]; · iexact HO
    iexact HaR2
  iintro ⟨HO, HaR2, #HrR2n, Hl2⟩
  unfold recvPay
  iapply (wp_load 𝒱₀ (c : Thread nD τ) none Set.univ (m := A4) (show A4.view.setOn (Rect.unit (s := S8x4x2x256x64) ![0, 1, 0, 0, 0] S1x1x1x256x64.size inb_S8x4x2x256x64_S1x1x1x256x64_0_1_0_0_0).toLoadRect.set ⊆ dstSet c 2 from load_half_subset 1 0 lt_1_4 _)) $$ Hl2
  iintro Hl2
  iapply (wp_load 𝒱₀ (c : Thread nD τ) none Set.univ (m := A4) (show A4.view.setOn (Rect.unit (s := S8x4x2x256x64) ![0, 1, 1, 0, 0] S1x1x1x256x64.size inb_S8x4x2x256x64_S1x1x1x256x64_0_1_1_0_0).toLoadRect.set ⊆ dstSet c 2 from load_half_subset 1 1 lt_1_4 _)) $$ Hl2
  iintro Hl2
  ihave Hu0 := toks10_split $$ Hl0
  icases Hu0 with ⟨Hl0r, Hl0t0, Hl0t1, Hl0t2, Hl0t3, Hl0t4, Hl0t5, Hl0t6, Hl0t7, Hl0t8, Hl0t9⟩
  ihave Hu1 := toks10_split $$ Hl1
  icases Hu1 with ⟨Hl1r, Hl1t0, Hl1t1, Hl1t2, Hl1t3, Hl1t4, Hl1t5, Hl1t6, Hl1t7, Hl1t8, Hl1t9⟩
  ihave Hu2 := toks10_split $$ Hl2
  icases Hu2 with ⟨Hl2r, Hl2t0, Hl2t1, Hl2t2, Hl2t3, Hl2t4, Hl2t5, Hl2t6, Hl2t7, Hl2t8, Hl2t9⟩
  ihave Hs3 := (src_p_join c (scr (pubOf m ρ) c) (Transfers.shareTokN fullShare 3)).1 $$ [Hz0t3 Hl2t3 Hl1t3 Hl0t3]
  · isplitl [Hz0t3]; · iexact Hz0t3
    isplitl [Hl2t3]; · iexact Hl2t3
    isplitl [Hl1t3]; · iexact Hl1t3
    iexact Hl0t3
  ihave Hs4 := (src_p_join c (scr (pubOf m ρ) c) (Transfers.shareTokN fullShare 4)).1 $$ [Hz0t4 Hl2t4 Hl1t4 Hl0t4]
  · isplitl [Hz0t4]; · iexact Hz0t4
    isplitl [Hl2t4]; · iexact Hl2t4
    isplitl [Hl1t4]; · iexact Hl1t4
    iexact Hl0t4
  ihave Hs5 := (src_p_join c (scr (pubOf m ρ) c) (Transfers.shareTokN fullShare 5)).1 $$ [Hz0t5 Hl2t5 Hl1t5 Hl0t5]
  · isplitl [Hz0t5]; · iexact Hz0t5
    isplitl [Hl2t5]; · iexact Hl2t5
    isplitl [Hl1t5]; · iexact Hl1t5
    iexact Hl0t5
  ihave Hs6 := (src_p_join c (scr (pubOf m ρ) c) (Transfers.shareTokN fullShare 6)).1 $$ [Hz0t6 Hl2t6 Hl1t6 Hl0t6]
  · isplitl [Hz0t6]; · iexact Hz0t6
    isplitl [Hl2t6]; · iexact Hl2t6
    isplitl [Hl1t6]; · iexact Hl1t6
    iexact Hl0t6
  ihave Hs7 := (src_p_join c (scr (pubOf m ρ) c) (Transfers.shareTokN fullShare 7)).1 $$ [Hz0t7 Hl2t7 Hl1t7 Hl0t7]
  · isplitl [Hz0t7]; · iexact Hz0t7
    isplitl [Hl2t7]; · iexact Hl2t7
    isplitl [Hl1t7]; · iexact Hl1t7
    iexact Hl0t7
  ihave Hs8 := (src_p_join c (scr (pubOf m ρ) c) (Transfers.shareTokN fullShare 8)).1 $$ [Hz0t8 Hl2t8 Hl1t8 Hl0t8]
  · isplitl [Hz0t8]; · iexact Hz0t8
    isplitl [Hl2t8]; · iexact Hl2t8
    isplitl [Hl1t8]; · iexact Hl1t8
    iexact Hl0t8
  ihave Hs9 := (src_p_join c (scr (pubOf m ρ) c) (Transfers.shareTokN fullShare 9)).1 $$ [Hz0t9 Hl2t9 Hl1t9 Hl0t9]
  · isplitl [Hz0t9]; · iexact Hz0t9
    isplitl [Hl2t9]; · iexact Hl2t9
    isplitl [Hl1t9]; · iexact Hl1t9
    iexact Hl0t9
  -- the copy along link 3
  rw [show owedLast c 7 (by omega) = owedLast c 6 (by omega) + tallyAt (recvCell 3 (peer 3 c)) () (NL 3) from rfl]
  iapply (wp_copy3 (pubOf m ρ) K c _ (dev14_eq c) (landing_3 (pubOf m ρ) c) (owedLast c 6 (by omega)) (insert (SemLoc.dma (rS 2), ()) (insert (SemLoc.dma (rS 1), ()) (insert (SemLoc.dma (rS 0), ()) (insert (SemLoc.reg barS, ()) W))))) $$ [Hs3 Hn3 HO HtS3 HtR3]
  · isplitr; · iexact HR
    isplitl [Hs3]; · iexact Hs3
    isplitl [Hn3]; · iexists fn3; iexact Hn3
    isplitl [HO]; · iexact HO
    isplitl [HtS3]; · iexact HtS3
    iexact HtR3
  iintro ⟨HcS3, HO⟩
  -- the copy along link 4
  rw [show owedLast c 6 (by omega) = owedLast c 5 (by omega) + tallyAt (recvCell 4 (peer 4 c)) () (NL 4) from rfl]
  iapply (wp_copy4 (pubOf m ρ) K c _ (dev15_eq c) (landing_4 (pubOf m ρ) c) (owedLast c 5 (by omega)) (insert (SemLoc.dma (rS 2), ()) (insert (SemLoc.dma (rS 1), ()) (insert (SemLoc.dma (rS 0), ()) (insert (SemLoc.reg barS, ()) W))))) $$ [Hs4 Hn4 HO HtS4 HtR4]
  · isplitr; · iexact HR
    isplitl [Hs4]; · iexact Hs4
    isplitl [Hn4]; · iexists fn4; iexact Hn4
    isplitl [HO]; · iexact HO
    isplitl [HtS4]; · iexact HtS4
    iexact HtR4
  iintro ⟨HcS4, HO⟩
  -- the copy along link 5
  rw [show owedLast c 5 (by omega) = owedLast c 4 (by omega) + tallyAt (recvCell 5 (peer 5 c)) () (NL 5) from rfl]
  iapply (wp_copy5 (pubOf m ρ) K c _ (dev16_eq c) (landing_5 (pubOf m ρ) c) (owedLast c 4 (by omega)) (insert (SemLoc.dma (rS 2), ()) (insert (SemLoc.dma (rS 1), ()) (insert (SemLoc.dma (rS 0), ()) (insert (SemLoc.reg barS, ()) W))))) $$ [Hs5 Hn5 HO HtS5 HtR5]
  · isplitr; · iexact HR
    isplitl [Hs5]; · iexact Hs5
    isplitl [Hn5]; · iexists fn5; iexact Hn5
    isplitl [HO]; · iexact HO
    isplitl [HtS5]; · iexact HtS5
    iexact HtR5
  iintro ⟨HcS5, HO⟩
  -- the copy along link 6
  rw [show owedLast c 4 (by omega) = owedLast c 3 (by omega) + tallyAt (recvCell 6 (peer 6 c)) () (NL 6) from rfl]
  iapply (wp_copy6 (pubOf m ρ) K c _ (dev17_eq c) (landing_6 (pubOf m ρ) c) (owedLast c 3 (by omega)) (insert (SemLoc.dma (rS 2), ()) (insert (SemLoc.dma (rS 1), ()) (insert (SemLoc.dma (rS 0), ()) (insert (SemLoc.reg barS, ()) W))))) $$ [Hs6 Hn6 HO HtS6 HtR6]
  · isplitr; · iexact HR
    isplitl [Hs6]; · iexact Hs6
    isplitl [Hn6]; · iexists fn6; iexact Hn6
    isplitl [HO]; · iexact HO
    isplitl [HtS6]; · iexact HtS6
    iexact HtR6
  iintro ⟨HcS6, HO⟩
  -- the copy along link 7
  rw [show owedLast c 3 (by omega) = owedLast c 2 (by omega) + tallyAt (recvCell 7 (peer 7 c)) () (NL 7) from rfl]
  iapply (wp_copy7 (pubOf m ρ) K c _ (dev18_eq c) (landing_7 (pubOf m ρ) c) (owedLast c 2 (by omega)) (insert (SemLoc.dma (rS 2), ()) (insert (SemLoc.dma (rS 1), ()) (insert (SemLoc.dma (rS 0), ()) (insert (SemLoc.reg barS, ()) W))))) $$ [Hs7 Hn7 HO HtS7 HtR7]
  · isplitr; · iexact HR
    isplitl [Hs7]; · iexact Hs7
    isplitl [Hn7]; · iexists fn7; iexact Hn7
    isplitl [HO]; · iexact HO
    isplitl [HtS7]; · iexact HtS7
    iexact HtR7
  iintro ⟨HcS7, HO⟩
  -- the copy along link 8
  rw [show owedLast c 2 (by omega) = owedLast c 1 (by omega) + tallyAt (recvCell 8 (peer 8 c)) () (NL 8) from rfl]
  iapply (wp_copy8 (pubOf m ρ) K c _ (dev19_eq c) (landing_8 (pubOf m ρ) c) (owedLast c 1 (by omega)) (insert (SemLoc.dma (rS 2), ()) (insert (SemLoc.dma (rS 1), ()) (insert (SemLoc.dma (rS 0), ()) (insert (SemLoc.reg barS, ()) W))))) $$ [Hs8 Hn8 HO HtS8 HtR8]
  · isplitr; · iexact HR
    isplitl [Hs8]; · iexact Hs8
    isplitl [Hn8]; · iexists fn8; iexact Hn8
    isplitl [HO]; · iexact HO
    isplitl [HtS8]; · iexact HtS8
    iexact HtR8
  iintro ⟨HcS8, HO⟩
  -- the copy along link 9
  rw [show owedLast c 1 (by omega) = owedLast c 0 (by omega) + tallyAt (recvCell 9 (peer 9 c)) () (NL 9) from rfl]
  iapply (wp_copy9 (pubOf m ρ) K c _ (dev20_eq c) (landing_9 (pubOf m ρ) c) (owedLast c 0 (by omega)) (insert (SemLoc.dma (rS 2), ()) (insert (SemLoc.dma (rS 1), ()) (insert (SemLoc.dma (rS 0), ()) (insert (SemLoc.reg barS, ()) W))))) $$ [Hs9 Hn9 HO HtS9 HtR9]
  · isplitr; · iexact HR
    isplitl [Hs9]; · iexact Hs9
    isplitl [Hn9]; · iexists fn9; iexact Hn9
    isplitl [HO]; · iexact HO
    isplitl [HtS9]; · iexact HtS9
    iexact HtR9
  iintro ⟨HcS9, HO⟩
  -- the landing along link 3: slot [7], then its two loads
  iapply (wp_recvwait (pubOf m ρ) K c 3 (owedLast c 0 (by omega)) (insert (SemLoc.dma (rS 2), ()) (insert (SemLoc.dma (rS 1), ()) (insert (SemLoc.dma (rS 0), ()) (insert (SemLoc.reg barS, ()) W)))) (mayWait_zero c (.dma (rS 3))) credit_dst_3) $$ [HcR3 HO HaR3]
  · isplitr; · iexact HR
    isplitr; · iexact Hlev
    isplitl [HcR3]; · iexact HcR3
    isplitl [HO]; · iexact HO
    iexact HaR3
  iintro ⟨HO, HaR3, #HrR3n, Hl3⟩
  unfold recvPay
  iapply (wp_load 𝒱₀ (c : Thread nD τ) none Set.univ (m := A4) (show A4.view.setOn (Rect.unit (s := S8x4x2x256x64) ![7, 0, 0, 0, 0] S1x4x1x256x64.size inb_S8x4x2x256x64_S1x4x1x256x64_7_0_0_0_0).toLoadRect.set ⊆ dstSet c 3 from load_p_subset 7 0 lt_7_8 _)) $$ Hl3
  iintro Hl3
  iapply (wp_load 𝒱₀ (c : Thread nD τ) none Set.univ (m := A4) (show A4.view.setOn (Rect.unit (s := S8x4x2x256x64) ![7, 0, 1, 0, 0] S1x4x1x256x64.size inb_S8x4x2x256x64_S1x4x1x256x64_7_0_1_0_0).toLoadRect.set ⊆ dstSet c 3 from load_p_subset 7 1 lt_7_8 _)) $$ Hl3
  iintro Hl3
  -- the landing along link 4: slot [6], then its two loads
  iapply (wp_recvwait (pubOf m ρ) K c 4 (owedLast c 0 (by omega)) (insert (SemLoc.dma (rS 3), ()) (insert (SemLoc.dma (rS 2), ()) (insert (SemLoc.dma (rS 1), ()) (insert (SemLoc.dma (rS 0), ()) (insert (SemLoc.reg barS, ()) W))))) (mayWait_zero c (.dma (rS 4))) credit_dst_4) $$ [HcR4 HO HaR4]
  · isplitr; · iexact HR
    isplitr; · iexact Hlev
    isplitl [HcR4]; · iexact HcR4
    isplitl [HO]; · iexact HO
    iexact HaR4
  iintro ⟨HO, HaR4, #HrR4n, Hl4⟩
  unfold recvPay
  iapply (wp_load 𝒱₀ (c : Thread nD τ) none Set.univ (m := A4) (show A4.view.setOn (Rect.unit (s := S8x4x2x256x64) ![6, 0, 0, 0, 0] S1x4x1x256x64.size inb_S8x4x2x256x64_S1x4x1x256x64_6_0_0_0_0).toLoadRect.set ⊆ dstSet c 4 from load_p_subset 6 0 lt_6_8 _)) $$ Hl4
  iintro Hl4
  iapply (wp_load 𝒱₀ (c : Thread nD τ) none Set.univ (m := A4) (show A4.view.setOn (Rect.unit (s := S8x4x2x256x64) ![6, 0, 1, 0, 0] S1x4x1x256x64.size inb_S8x4x2x256x64_S1x4x1x256x64_6_0_1_0_0).toLoadRect.set ⊆ dstSet c 4 from load_p_subset 6 1 lt_6_8 _)) $$ Hl4
  iintro Hl4
  -- the landing along link 5: slot [5], then its two loads
  iapply (wp_recvwait (pubOf m ρ) K c 5 (owedLast c 0 (by omega)) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))) (mayWait_zero c (.dma (rS 5))) credit_dst_5) $$ [HcR5 HO HaR5]
  · isplitr; · iexact HR
    isplitr; · iexact Hlev
    isplitl [HcR5]; · iexact HcR5
    isplitl [HO]; · iexact HO
    iexact HaR5
  iintro ⟨HO, HaR5, #HrR5n, Hl5⟩
  unfold recvPay
  iapply (wp_load 𝒱₀ (c : Thread nD τ) none Set.univ (m := A4) (show A4.view.setOn (Rect.unit (s := S8x4x2x256x64) ![5, 0, 0, 0, 0] S1x4x1x256x64.size inb_S8x4x2x256x64_S1x4x1x256x64_5_0_0_0_0).toLoadRect.set ⊆ dstSet c 5 from load_p_subset 5 0 lt_5_8 _)) $$ Hl5
  iintro Hl5
  iapply (wp_load 𝒱₀ (c : Thread nD τ) none Set.univ (m := A4) (show A4.view.setOn (Rect.unit (s := S8x4x2x256x64) ![5, 0, 1, 0, 0] S1x4x1x256x64.size inb_S8x4x2x256x64_S1x4x1x256x64_5_0_1_0_0).toLoadRect.set ⊆ dstSet c 5 from load_p_subset 5 1 lt_5_8 _)) $$ Hl5
  iintro Hl5
  -- the landing along link 6: slot [4], then its two loads
  iapply (wp_recvwait (pubOf m ρ) K c 6 (owedLast c 0 (by omega)) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))) (mayWait_zero c (.dma (rS 6))) credit_dst_6) $$ [HcR6 HO HaR6]
  · isplitr; · iexact HR
    isplitr; · iexact Hlev
    isplitl [HcR6]; · iexact HcR6
    isplitl [HO]; · iexact HO
    iexact HaR6
  iintro ⟨HO, HaR6, #HrR6n, Hl6⟩
  unfold recvPay
  iapply (wp_load 𝒱₀ (c : Thread nD τ) none Set.univ (m := A4) (show A4.view.setOn (Rect.unit (s := S8x4x2x256x64) ![4, 0, 0, 0, 0] S1x4x1x256x64.size inb_S8x4x2x256x64_S1x4x1x256x64_4_0_0_0_0).toLoadRect.set ⊆ dstSet c 6 from load_p_subset 4 0 lt_4_8 _)) $$ Hl6
  iintro Hl6
  iapply (wp_load 𝒱₀ (c : Thread nD τ) none Set.univ (m := A4) (show A4.view.setOn (Rect.unit (s := S8x4x2x256x64) ![4, 0, 1, 0, 0] S1x4x1x256x64.size inb_S8x4x2x256x64_S1x4x1x256x64_4_0_1_0_0).toLoadRect.set ⊆ dstSet c 6 from load_p_subset 4 1 lt_4_8 _)) $$ Hl6
  iintro Hl6
  -- the landing along link 7: slot [3], then its two loads
  iapply (wp_recvwait (pubOf m ρ) K c 7 (owedLast c 0 (by omega)) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))) (mayWait_zero c (.dma (rS 7))) credit_dst_7) $$ [HcR7 HO HaR7]
  · isplitr; · iexact HR
    isplitr; · iexact Hlev
    isplitl [HcR7]; · iexact HcR7
    isplitl [HO]; · iexact HO
    iexact HaR7
  iintro ⟨HO, HaR7, #HrR7n, Hl7⟩
  unfold recvPay
  iapply (wp_load 𝒱₀ (c : Thread nD τ) none Set.univ (m := A4) (show A4.view.setOn (Rect.unit (s := S8x4x2x256x64) ![3, 0, 0, 0, 0] S1x4x1x256x64.size inb_S8x4x2x256x64_S1x4x1x256x64_3_0_0_0_0).toLoadRect.set ⊆ dstSet c 7 from load_p_subset 3 0 lt_3_8 _)) $$ Hl7
  iintro Hl7
  iapply (wp_load 𝒱₀ (c : Thread nD τ) none Set.univ (m := A4) (show A4.view.setOn (Rect.unit (s := S8x4x2x256x64) ![3, 0, 1, 0, 0] S1x4x1x256x64.size inb_S8x4x2x256x64_S1x4x1x256x64_3_0_1_0_0).toLoadRect.set ⊆ dstSet c 7 from load_p_subset 3 1 lt_3_8 _)) $$ Hl7
  iintro Hl7
  -- the landing along link 8: slot [2], then its two loads
  iapply (wp_recvwait (pubOf m ρ) K c 8 (owedLast c 0 (by omega)) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))) (mayWait_zero c (.dma (rS 8))) credit_dst_8) $$ [HcR8 HO HaR8]
  · isplitr; · iexact HR
    isplitr; · iexact Hlev
    isplitl [HcR8]; · iexact HcR8
    isplitl [HO]; · iexact HO
    iexact HaR8
  iintro ⟨HO, HaR8, #HrR8n, Hl8⟩
  unfold recvPay
  iapply (wp_load 𝒱₀ (c : Thread nD τ) none Set.univ (m := A4) (show A4.view.setOn (Rect.unit (s := S8x4x2x256x64) ![2, 0, 0, 0, 0] S1x4x1x256x64.size inb_S8x4x2x256x64_S1x4x1x256x64_2_0_0_0_0).toLoadRect.set ⊆ dstSet c 8 from load_p_subset 2 0 lt_2_8 _)) $$ Hl8
  iintro Hl8
  iapply (wp_load 𝒱₀ (c : Thread nD τ) none Set.univ (m := A4) (show A4.view.setOn (Rect.unit (s := S8x4x2x256x64) ![2, 0, 1, 0, 0] S1x4x1x256x64.size inb_S8x4x2x256x64_S1x4x1x256x64_2_0_1_0_0).toLoadRect.set ⊆ dstSet c 8 from load_p_subset 2 1 lt_2_8 _)) $$ Hl8
  iintro Hl8
  -- the landing along link 9: slot [1], then its two loads
  iapply (wp_recvwait (pubOf m ρ) K c 9 (owedLast c 0 (by omega)) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))) (mayWait_zero c (.dma (rS 9))) credit_dst_9) $$ [HcR9 HO HaR9]
  · isplitr; · iexact HR
    isplitr; · iexact Hlev
    isplitl [HcR9]; · iexact HcR9
    isplitl [HO]; · iexact HO
    iexact HaR9
  iintro ⟨HO, HaR9, #HrR9n, Hl9⟩
  unfold recvPay
  iapply (wp_load 𝒱₀ (c : Thread nD τ) none Set.univ (m := A4) (show A4.view.setOn (Rect.unit (s := S8x4x2x256x64) ![1, 0, 0, 0, 0] S1x4x1x256x64.size inb_S8x4x2x256x64_S1x4x1x256x64_1_0_0_0_0).toLoadRect.set ⊆ dstSet c 9 from load_p_subset 1 0 lt_1_8 _)) $$ Hl9
  iintro Hl9
  iapply (wp_load 𝒱₀ (c : Thread nD τ) none Set.univ (m := A4) (show A4.view.setOn (Rect.unit (s := S8x4x2x256x64) ![1, 0, 1, 0, 0] S1x4x1x256x64.size inb_S8x4x2x256x64_S1x4x1x256x64_1_0_1_0_0).toLoadRect.set ⊆ dstSet c 9 from load_p_subset 1 1 lt_1_8 _)) $$ Hl9
  iintro Hl9
  -- the result
  iapply (wp_load 𝒱₀ (c : Thread nD τ) none Set.univ (m := (Memref.whole cc0_stg3_0 : Memref sig .tc .vmem S256x64 .f32)) (Finset.subset_univ _)) $$ Hout
  iintro Hout
  iapply (wp_store 𝒱₀ (c : Thread nD τ) none Set.univ (m := (Memref.whole cc0_stg3_0 : Memref sig .tc .vmem S256x64 .f32)) (r := Rect.unit (s := S256x64) ![0, 0] S256x64.size inb_S256x64_S256x64_0_0) (Mk := Finset.univ) (Finset.subset_univ _)) $$ Hout
  iintro Hout
  rw [write_out]
  -- the copy along link 0 has read its source
  iapply (wp_sendwait (pubOf m ρ) K c 0 (owedLast c 0 (by omega)) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))) (mayWait_zero c (.dma (sS 0))) credit_src_0) $$ [HcS0 HO HaS0]
  · isplitr; · iexact HR
    isplitr; · iexact Hlev
    isplitl [HcS0]; · iexact HcS0
    isplitl [HO]; · iexact HO
    iexact HaS0
  iintro ⟨HO, HaS0, #HrS0n, Hb0⟩
  -- the copy along link 1 has read its source
  iapply (wp_sendwait (pubOf m ρ) K c 1 (owedLast c 0 (by omega)) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))) (mayWait_zero c (.dma (sS 1))) credit_src_1) $$ [HcS1 HO HaS1]
  · isplitr; · iexact HR
    isplitr; · iexact Hlev
    isplitl [HcS1]; · iexact HcS1
    isplitl [HO]; · iexact HO
    iexact HaS1
  iintro ⟨HO, HaS1, #HrS1n, Hb1⟩
  -- the copy along link 2 has read its source
  iapply (wp_sendwait (pubOf m ρ) K c 2 (owedLast c 0 (by omega)) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))) (mayWait_zero c (.dma (sS 2))) credit_src_2) $$ [HcS2 HO HaS2]
  · isplitr; · iexact HR
    isplitr; · iexact Hlev
    isplitl [HcS2]; · iexact HcS2
    isplitl [HO]; · iexact HO
    iexact HaS2
  iintro ⟨HO, HaS2, #HrS2n, Hb2⟩
  -- the copy along link 3 has read its source
  iapply (wp_sendwait (pubOf m ρ) K c 3 (owedLast c 0 (by omega)) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))) (mayWait_zero c (.dma (sS 3))) credit_src_3) $$ [HcS3 HO HaS3]
  · isplitr; · iexact HR
    isplitr; · iexact Hlev
    isplitl [HcS3]; · iexact HcS3
    isplitl [HO]; · iexact HO
    iexact HaS3
  iintro ⟨HO, HaS3, #HrS3n, Hb3⟩
  -- the copy along link 4 has read its source
  iapply (wp_sendwait (pubOf m ρ) K c 4 (owedLast c 0 (by omega)) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))))) (mayWait_zero c (.dma (sS 4))) credit_src_4) $$ [HcS4 HO HaS4]
  · isplitr; · iexact HR
    isplitr; · iexact Hlev
    isplitl [HcS4]; · iexact HcS4
    isplitl [HO]; · iexact HO
    iexact HaS4
  iintro ⟨HO, HaS4, #HrS4n, Hb4⟩
  -- the copy along link 5 has read its source
  iapply (wp_sendwait (pubOf m ρ) K c 5 (owedLast c 0 (by omega)) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))) (mayWait_zero c (.dma (sS 5))) credit_src_5) $$ [HcS5 HO HaS5]
  · isplitr; · iexact HR
    isplitr; · iexact Hlev
    isplitl [HcS5]; · iexact HcS5
    isplitl [HO]; · iexact HO
    iexact HaS5
  iintro ⟨HO, HaS5, #HrS5n, Hb5⟩
  -- the copy along link 6 has read its source
  iapply (wp_sendwait (pubOf m ρ) K c 6 (owedLast c 0 (by omega)) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))))))) (mayWait_zero c (.dma (sS 6))) credit_src_6) $$ [HcS6 HO HaS6]
  · isplitr; · iexact HR
    isplitr; · iexact Hlev
    isplitl [HcS6]; · iexact HcS6
    isplitl [HO]; · iexact HO
    iexact HaS6
  iintro ⟨HO, HaS6, #HrS6n, Hb6⟩
  -- the copy along link 7 has read its source
  iapply (wp_sendwait (pubOf m ρ) K c 7 (owedLast c 0 (by omega)) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))))) (mayWait_zero c (.dma (sS 7))) credit_src_7) $$ [HcS7 HO HaS7]
  · isplitr; · iexact HR
    isplitr; · iexact Hlev
    isplitl [HcS7]; · iexact HcS7
    isplitl [HO]; · iexact HO
    iexact HaS7
  iintro ⟨HO, HaS7, #HrS7n, Hb7⟩
  -- the copy along link 8 has read its source
  iapply (wp_sendwait (pubOf m ρ) K c 8 (owedLast c 0 (by omega)) (insert (SemLoc.dma (sS 7), ()) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W))))))))))))))))))) (mayWait_zero c (.dma (sS 8))) credit_src_8) $$ [HcS8 HO HaS8]
  · isplitr; · iexact HR
    isplitr; · iexact Hlev
    isplitl [HcS8]; · iexact HcS8
    isplitl [HO]; · iexact HO
    iexact HaS8
  iintro ⟨HO, HaS8, #HrS8n, Hb8⟩
  -- the copy along link 9 has read its source
  iapply (wp_sendwait (pubOf m ρ) K c 9 (owedLast c 0 (by omega)) (insert (SemLoc.dma (sS 8), ()) (insert (SemLoc.dma (sS 7), ()) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))))))) (mayWait_zero c (.dma (sS 9))) credit_src_9) $$ [HcS9 HO HaS9]
  · isplitr; · iexact HR
    isplitr; · iexact Hlev
    isplitl [HcS9]; · iexact HcS9
    isplitl [HO]; · iexact HO
    iexact HaS9
  iintro ⟨HO, HaS9, #HrS9n, Hb9⟩
  unfold sendPay
  imod (close_send (pubOf m ρ) K c 0) $$ [HaS0] with HzS0
  · isplitr; · iexact HR
    iexact HaS0
  imod (close_send (pubOf m ρ) K c 1) $$ [HaS1] with HzS1
  · isplitr; · iexact HR
    iexact HaS1
  imod (close_send (pubOf m ρ) K c 2) $$ [HaS2] with HzS2
  · isplitr; · iexact HR
    iexact HaS2
  imod (close_send (pubOf m ρ) K c 3) $$ [HaS3] with HzS3
  · isplitr; · iexact HR
    iexact HaS3
  imod (close_send (pubOf m ρ) K c 4) $$ [HaS4] with HzS4
  · isplitr; · iexact HR
    iexact HaS4
  imod (close_send (pubOf m ρ) K c 5) $$ [HaS5] with HzS5
  · isplitr; · iexact HR
    iexact HaS5
  imod (close_send (pubOf m ρ) K c 6) $$ [HaS6] with HzS6
  · isplitr; · iexact HR
    iexact HaS6
  imod (close_send (pubOf m ρ) K c 7) $$ [HaS7] with HzS7
  · isplitr; · iexact HR
    iexact HaS7
  imod (close_send (pubOf m ρ) K c 8) $$ [HaS8] with HzS8
  · isplitr; · iexact HR
    iexact HaS8
  imod (close_send (pubOf m ρ) K c 9) $$ [HaS9] with HzS9
  · isplitr; · iexact HR
    iexact HaS9
  imod (close_recv (pubOf m ρ) K c 0) $$ [HaR0] with HzR0
  · isplitr; · iexact HR
    iexact HaR0
  imod (close_recv (pubOf m ρ) K c 1) $$ [HaR1] with HzR1
  · isplitr; · iexact HR
    iexact HaR1
  imod (close_recv (pubOf m ρ) K c 2) $$ [HaR2] with HzR2
  · isplitr; · iexact HR
    iexact HaR2
  imod (close_recv (pubOf m ρ) K c 3) $$ [HaR3] with HzR3
  · isplitr; · iexact HR
    iexact HaR3
  imod (close_recv (pubOf m ρ) K c 4) $$ [HaR4] with HzR4
  · isplitr; · iexact HR
    iexact HaR4
  imod (close_recv (pubOf m ρ) K c 5) $$ [HaR5] with HzR5
  · isplitr; · iexact HR
    iexact HaR5
  imod (close_recv (pubOf m ρ) K c 6) $$ [HaR6] with HzR6
  · isplitr; · iexact HR
    iexact HaR6
  imod (close_recv (pubOf m ρ) K c 7) $$ [HaR7] with HzR7
  · isplitr; · iexact HR
    iexact HaR7
  imod (close_recv (pubOf m ρ) K c 8) $$ [HaR8] with HzR8
  · isplitr; · iexact HR
    iexact HaR8
  imod (close_recv (pubOf m ρ) K c 9) $$ [HaR9] with HzR9
  · isplitr; · iexact HR
    iexact HaR9
  -- the device leaves: the scratch buffer whole again, its own semaphores at zero
  rw [wp_ret]; imodintro
  iapply Hk
  unfold bodyPost Φ₁ Dat.owesAt Pipeline.owesWithin
  rw [show (dats (pubOf m ρ) (outOf (pubOf m ρ) m ρ) m ρ 0 c).owed t0_0.succ = 0 from rfl]
  isplitl [Hz0r Hb0 Hb1 Hb2 Hb3 Hb4 Hb5 Hb6 Hb7 Hb8 Hb9 Hl0r Hl0t0 Hl0t1 Hl0t2 Hl1r Hl1t0 Hl1t1 Hl1t2 Hl2r Hl2t0 Hl2t1 Hl2t2 Hl3 Hl4 Hl5 Hl6 Hl7 Hl8 Hl9 HzS0 HzS1 HzS2 HzS3 HzS4 HzS5 HzS6 HzS7 HzS8 HzS9 HzR0 HzR1 HzR2 HzR3 HzR4 HzR5 HzR6 HzR7 HzR8 HzR9 Hi4 Hi8 Hi12 Hi20]
  · isplitl [Hz0r Hb0 Hb1 Hb2 Hb3 Hb4 Hb5 Hb6 Hb7 Hb8 Hb9 Hl0r Hl0t0 Hl0t1 Hl0t2 Hl1r Hl1t0 Hl1t1 Hl1t2 Hl2r Hl2t0 Hl2t1 Hl2t2 Hl3 Hl4 Hl5 Hl6 Hl7 Hl8 Hl9]
    · iapply (collect (pubOf m ρ) c)
      isplitl [Hz0r]; · iexact Hz0r
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      isplitl [Hl0r Hl0t0 Hl0t1 Hl0t2 Hl1r Hl1t0 Hl1t1 Hl1t2 Hl2r Hl2t0 Hl2t1 Hl2t2]
      · unfold pocket
        isplitl [Hl0r]; · iexact Hl0r
        isplitl [Hl0t0]; · iexact Hl0t0
        isplitl [Hl0t1]; · iexact Hl0t1
        isplitl [Hl0t2]; · iexact Hl0t2
        isplitl [Hl1r]; · iexact Hl1r
        isplitl [Hl1t0]; · iexact Hl1t0
        isplitl [Hl1t1]; · iexact Hl1t1
        isplitl [Hl1t2]; · iexact Hl1t2
        isplitl [Hl2r]; · iexact Hl2r
        isplitl [Hl2t0]; · iexact Hl2t0
        isplitl [Hl2t1]; · iexact Hl2t1
        iexact Hl2t2
      isplitl [Hl3]; · iexact Hl3
      isplitl [Hl4]; · iexact Hl4
      isplitl [Hl5]; · iexact Hl5
      isplitl [Hl6]; · iexact Hl6
      isplitl [Hl7]; · iexact Hl7
      isplitl [Hl8]; · iexact Hl8
      iexact Hl9
    · iapply (exit_sems c)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      isplitl [HzR7]; · iexact HzR7
      isplitl [HzR8]; · iexact HzR8
      isplitl [HzR9]; · iexact HzR9
      unfold idle
      isplitl [Hi4]; · iexact Hi4
      isplitl [Hi8]; · iexact Hi8
      isplitl [Hi12]; · iexact Hi12
      iexact Hi20
  isplitl [HO]
  · iexists (insert (SemLoc.dma (sS 9), ()) (insert (SemLoc.dma (sS 8), ()) (insert (SemLoc.dma (sS 7), ()) (insert (SemLoc.dma (sS 6), ()) (insert (SemLoc.dma (sS 5), ()) (insert (SemLoc.dma (sS 4), ()) (insert (SemLoc.dma (sS 3), ()) (insert (SemLoc.dma (sS 2), ()) (insert (SemLoc.dma (sS 1), ()) (insert (SemLoc.dma (sS 0), ()) (insert (SemLoc.dma (rS 9), ()) (insert (SemLoc.dma (rS 8), ()) (insert (SemLoc.dma (rS 7), ()) (insert (SemLoc.dma (rS 6), ()) (insert (SemLoc.dma (rS 5), ()) (insert (SemLoc.dma (rS 4), ()) (insert (SemLoc.dma (rS 3), ()) (insert (SemLoc.dma (rS 2), ()) (insert (SemLoc.dma (rS 1), ()) (insert (SemLoc.dma (rS 0), ()) (insert (SemLoc.reg barS, ()) W)))))))))))))))))))))
    isplitr; · ipureintro; exact fun _ _ => Or.inl trivial
    iexact HO
  isplitl [Hq]
  · iexists _; isplitr; · (ipureintro; rfl)
    iexact Hq
  isplitl [Hk1]
  · iexists _; isplitr; · (ipureintro; rfl)
    iexact Hk1
  isplitl [Hv]
  · iexists _; isplitr; · (ipureintro; rfl)
    iexact Hv
  iexists _; isplitr; · (ipureintro; rfl)
  iexact Hout

/-- The library's body obligation on device `c`, at what the devices publish and the output term they compute. -/
theorem body_ob (c : Dev nD) :
    BodyObligation (dats (F := F) (pubOf m ρ) (outOf (pubOf m ρ) m ρ) m ρ 0 c) (defs₀ (F := F)) 𝒱₀ () Set.univ :=
  body_obligation (pubOf m ρ) (outOf (pubOf m ρ) m ρ) m ρ c fun K Kt => sound_body m ρ K c Kt

/-- info: 'Cert.RingW.body_ob' depends on axioms: [propext, Classical.choice, Quot.sound] -/
#guard_msgs in #print axioms body_ob

end Cert.RingW

end
-- ==== Proof.lean ====
/- The claim's five conjuncts.

   The reference's frame is its run with the result dropped.  The two kernels' frames are the launch theorem's run of
   the 32 devices' two-stage exchange with the values dropped: the word-level program and the idealized one share every
   module, read at the two float instances.  The idealization rewrote nothing, so preservation is trivial.  For the
   algebraic conjunct the finiteness precondition on every device's blocks makes the three whole arrays real-valued;
   then every device's result block, the online-softmax accumulation over its own keys, the three slabs from the other
   groups and the seven four-slab blocks from its own group, is its row block of the reference's softmax attention. -/
import proofs.«900463_g7700000000000464_dist_ring_attn_i_s256_d64_v7x_i32_f32_1_alg».proof.Defs
import proofs.«900463_g7700000000000464_dist_ring_attn_i_s256_d64_v7x_i32_f32_1_alg».proof.Proof.Gen.Kernel
import proofs.«900463_g7700000000000464_dist_ring_attn_i_s256_d64_v7x_i32_f32_1_alg».proof.Proof.Gen.KernelIdeal
import proofs.«900463_g7700000000000464_dist_ring_attn_i_s256_d64_v7x_i32_f32_1_alg».proof.Proof.Gen.ReferenceIdeal
import proofs.«900463_g7700000000000464_dist_ring_attn_i_s256_d64_v7x_i32_f32_1_alg».proof.Proof.Gen.Pre_finite_inputs_Kernel
import proofs.«900463_g7700000000000464_dist_ring_attn_i_s256_d64_v7x_i32_f32_1_alg».proof.Proof.Gen.Pre_finite_inputs_ReferenceIdeal
import proofs.«900463_g7700000000000464_dist_ring_attn_i_s256_d64_v7x_i32_f32_1_alg».proof.Proof.Gen.ReferenceIdeal.Run
import proofs.«900463_g7700000000000464_dist_ring_attn_i_s256_d64_v7x_i32_f32_1_alg».proof.Proof.Gen.ReferenceIdeal.Read
import proofs.«900463_g7700000000000464_dist_ring_attn_i_s256_d64_v7x_i32_f32_1_alg».proof.Proof.Launch
import proofs.«900463_g7700000000000464_dist_ring_attn_i_s256_d64_v7x_i32_f32_1_alg».proof.Proof.LaunchW
import proofs.«900463_g7700000000000464_dist_ring_attn_i_s256_d64_v7x_i32_f32_1_alg».proof.Proof.OutAt
import proofs.«900463_g7700000000000464_dist_ring_attn_i_s256_d64_v7x_i32_f32_1_alg».proof.Proof.RefWhole
import proofs.«900463_g7700000000000464_dist_ring_attn_i_s256_d64_v7x_i32_f32_1_alg».proof.Proof.OutValue
import proofs.«900463_g7700000000000464_dist_ring_attn_i_s256_d64_v7x_i32_f32_1_alg».proof.Proof.Body
import proofs.«900463_g7700000000000464_dist_ring_attn_i_s256_d64_v7x_i32_f32_1_alg».proof.Proof.BodyW
import Idealize.ShloMosaic.Adequacy
import Idealize.ShloMosaic.Init

noncomputable section

namespace Cert.Proof

open Idealize.ShloMosaic Idealize.SL.Sem Idealize.ShloMosaic.ValueIdx

/-- The reference runs and leaves its arguments unchanged: its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- The idealized kernel runs and leaves its arguments unchanged: its run with the result dropped. -/
theorem frame_kernelIdeal
    (hb : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD), Pipeline.BodyObligation (Cert.Ring.dats (F := Ideal) (Cert.Ring.pubOf m ρ) (Cert.Ring.outOf (Cert.Ring.pubOf m ρ) m ρ) m ρ 0 c)
        (Cert.KernelIdeal.defs₀ (F := Ideal)) Cert.Ring.𝒱₀ () Set.univ) :
    Cert.frame_KernelIdeal :=
  fun m ρ _ => (Cert.Ring.run_named (Cert.Ring.pubOf m ρ) (Cert.Ring.outOf (Cert.Ring.pubOf m ρ) m ρ) m ρ (hb m ρ)).mono fun _ h c => (h c).2

/-- The word-level kernel runs and leaves its arguments unchanged, whatever contents its proof data name. -/
theorem frame_kernel
    (hbW : ∀ (m : (ℓ : Loc Cert.Kernel.nD Cert.Kernel.τ Cert.Kernel.sig) → Buf (Elt Bits) ℓ) (ρ : Dev Cert.Kernel.nD → PrngReg),
      ∃ (pub : Dev Cert.Kernel.nD → Nat → Nat → Nat → Elt Bits .bf16) (outAt : (c : Dev Cert.Kernel.nD) → (Cert.Kernel.cc0_stg3_0 : Ref Cert.Kernel.sig .tc).ty.Contents (Elt Bits)),
        ∀ c : Dev Cert.Kernel.nD, Pipeline.BodyObligation (Cert.RingW.dats (F := Bits) pub outAt m ρ 0 c) (Cert.Kernel.defs₀ (F := Bits)) Cert.RingW.𝒱₀ () Set.univ) :
    Cert.frame_Kernel :=
  fun m ρ _ => by
    obtain ⟨pub, outAt, hb⟩ := hbW m ρ
    exact (Cert.RingW.run_named pub outAt m ρ hb).mono fun _ h c => (h c).2

/-- Both programs run; every device's result block of the idealized kernel is its block of the reference's result;
    all arguments are unchanged. -/
theorem algebraic
    (hb : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD), Pipeline.BodyObligation (Cert.Ring.dats (F := Ideal) (Cert.Ring.pubOf m ρ) (Cert.Ring.outOf (Cert.Ring.pubOf m ρ) m ρ) m ρ 0 c)
        (Cert.KernelIdeal.defs₀ (F := Ideal)) Cert.Ring.𝒱₀ () Set.univ)
    (hOut : ∀ (m : (ℓ : Loc Cert.KernelIdeal.nD Cert.KernelIdeal.τ Cert.KernelIdeal.sig) → Buf (Elt Ideal) ℓ) (ρ : Dev Cert.KernelIdeal.nD → PrngReg)
      (Q K V : (⟨Cert.ReferenceIdeal.S8192x64, .f32⟩ : BufTy).Contents (Elt Ideal)) (q k v : Fin 8192 → Fin 64 → ℝ),
      (∀ r d, Q (ix2 r d) = ((q r d : ℝ) : EReal)) → (∀ r d, K (ix2 r d) = ((k r d : ℝ) : EReal)) → (∀ r d, V (ix2 r d) = ((v r d : ℝ) : EReal)) →
      (∀ d : Dev Cert.KernelIdeal.nD, m ((d.tc : Thread Cert.KernelIdeal.nD Cert.KernelIdeal.τ).loc Cert.KernelIdeal.main_arg0) = Layout.block ⟨2, ![256, 64]⟩ ⟨2, ![8192, 64]⟩ 0 32 d Q) →
      (∀ d : Dev Cert.KernelIdeal.nD, m ((d.tc : Thread Cert.KernelIdeal.nD Cert.KernelIdeal.τ).loc Cert.KernelIdeal.main_arg1) = Layout.block ⟨2, ![256, 64]⟩ ⟨2, ![8192, 64]⟩ 0 32 d K) →
      (∀ d : Dev Cert.KernelIdeal.nD, m ((d.tc : Thread Cert.KernelIdeal.nD Cert.KernelIdeal.τ).loc Cert.KernelIdeal.main_arg2) = Layout.block ⟨2, ![256, 64]⟩ ⟨2, ![8192, 64]⟩ 0 32 d V) →
      ∀ c : Dev Cert.KernelIdeal.nD,
        Cert.Ring.outOf (Cert.Ring.pubOf m ρ) m ρ c
          = Layout.block ⟨2, ![256, 64]⟩ ⟨2, ![8192, 64]⟩ 0 32 c (Cert.ReferenceIdeal.Read.val_main_v15 (F := Ideal) Q K V)) :
    Cert.algebraic_KernelIdeal_ReferenceIdeal := by
  intro m g m' g' hpre hagree
  obtain ⟨q, k, v, hQ, hK, hV⟩ := Cert.RefValue.whole_real_of_pre
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (fun c => by rw [← (hagree c).1, ← (hagree c).2.1, ← (hagree c).2.2]; exact hpre c)
  refine ⟨Cert.ReferenceIdeal.Read.val_main_v15 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (Cert.Ring.run_named (Cert.Ring.pubOf m g) (Cert.Ring.outOf (Cert.Ring.pubOf m g) m g) m g (hb m g)).mono fun _ h c =>
      ⟨(h c).1.trans (hOut m g _ _ _ q k v hQ hK hV (fun d => (hagree d).1) (fun d => (hagree d).2.1) (fun d => (hagree d).2.2) c), (h c).2⟩
  · exact (Cert.ReferenceIdeal.Value.run (F := Ideal) m' g').mono fun _ h =>
      ⟨(h 0).1.trans (Cert.ReferenceIdeal.Read.val_main_v15_eq _ _ _), (h 0).2⟩

/-- Everything, from the two body obligations and the value of the kernel's result. -/
theorem claim_of
    (hb : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD), Pipeline.BodyObligation (Cert.Ring.dats (F := Ideal) (Cert.Ring.pubOf m ρ) (Cert.Ring.outOf (Cert.Ring.pubOf m ρ) m ρ) m ρ 0 c)
        (Cert.KernelIdeal.defs₀ (F := Ideal)) Cert.Ring.𝒱₀ () Set.univ)
    (hbW : ∀ (m : (ℓ : Loc Cert.Kernel.nD Cert.Kernel.τ Cert.Kernel.sig) → Buf (Elt Bits) ℓ) (ρ : Dev Cert.Kernel.nD → PrngReg),
      ∃ (pub : Dev Cert.Kernel.nD → Nat → Nat → Nat → Elt Bits .bf16) (outAt : (c : Dev Cert.Kernel.nD) → (Cert.Kernel.cc0_stg3_0 : Ref Cert.Kernel.sig .tc).ty.Contents (Elt Bits)),
        ∀ c : Dev Cert.Kernel.nD, Pipeline.BodyObligation (Cert.RingW.dats (F := Bits) pub outAt m ρ 0 c) (Cert.Kernel.defs₀ (F := Bits)) Cert.RingW.𝒱₀ () Set.univ)
    (hOut : ∀ (m : (ℓ : Loc Cert.KernelIdeal.nD Cert.KernelIdeal.τ Cert.KernelIdeal.sig) → Buf (Elt Ideal) ℓ) (ρ : Dev Cert.KernelIdeal.nD → PrngReg)
      (Q K V : (⟨Cert.ReferenceIdeal.S8192x64, .f32⟩ : BufTy).Contents (Elt Ideal)) (q k v : Fin 8192 → Fin 64 → ℝ),
      (∀ r d, Q (ix2 r d) = ((q r d : ℝ) : EReal)) → (∀ r d, K (ix2 r d) = ((k r d : ℝ) : EReal)) → (∀ r d, V (ix2 r d) = ((v r d : ℝ) : EReal)) →
      (∀ d : Dev Cert.KernelIdeal.nD, m ((d.tc : Thread Cert.KernelIdeal.nD Cert.KernelIdeal.τ).loc Cert.KernelIdeal.main_arg0) = Layout.block ⟨2, ![256, 64]⟩ ⟨2, ![8192, 64]⟩ 0 32 d Q) →
      (∀ d : Dev Cert.KernelIdeal.nD, m ((d.tc : Thread Cert.KernelIdeal.nD Cert.KernelIdeal.τ).loc Cert.KernelIdeal.main_arg1) = Layout.block ⟨2, ![256, 64]⟩ ⟨2, ![8192, 64]⟩ 0 32 d K) →
      (∀ d : Dev Cert.KernelIdeal.nD, m ((d.tc : Thread Cert.KernelIdeal.nD Cert.KernelIdeal.τ).loc Cert.KernelIdeal.main_arg2) = Layout.block ⟨2, ![256, 64]⟩ ⟨2, ![8192, 64]⟩ 0 32 d V) →
      ∀ c : Dev Cert.KernelIdeal.nD,
        Cert.Ring.outOf (Cert.Ring.pubOf m ρ) m ρ c
          = Layout.block ⟨2, ![256, 64]⟩ ⟨2, ![8192, 64]⟩ 0 32 c (Cert.ReferenceIdeal.Read.val_main_v15 (F := Ideal) Q K V)) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_kernel hbW, frame_kernelIdeal hb, frame_reference, trivial, algebraic hb hOut⟩

/-- The certificate's claim. -/
theorem claim : Cert.Claim :=
  claim_of (fun m ρ c => Cert.Ring.body_ob m ρ c)
    (fun m ρ => ⟨Cert.RingW.pubOf m ρ, Cert.RingW.outOf (Cert.RingW.pubOf m ρ) m ρ, fun c => Cert.RingW.body_ob m ρ c⟩)
    Cert.Ring.outOf_eq_ref

end Cert.Proof

end
